-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v105)) (v1 : (c : Dev Cert.KernelIdeal.nD) → Buf (Elt Ideal) ((c.tc : Thread Cert.KernelIdeal.nD Cert.KernelIdeal.τ).loc Cert.KernelIdeal.main_v106)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_v15)) (v4 : (c : Dev Cert.KernelIdeal.nD) → Buf (Elt Ideal) ((c.tc : Thread Cert.KernelIdeal.nD Cert.KernelIdeal.τ).loc Cert.KernelIdeal.main_v27)) (v5 : (c : Dev Cert.KernelIdeal.nD) → Buf (Elt Ideal) ((c.tc : Thread Cert.KernelIdeal.nD Cert.KernelIdeal.τ).loc Cert.KernelIdeal.main_v3)) (v6 : (c : Dev Cert.KernelIdeal.nD) → Buf (Elt Ideal) ((c.tc : Thread Cert.KernelIdeal.nD Cert.KernelIdeal.τ).loc Cert.KernelIdeal.main_v51)) (v7 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_v27) = v4 c
          ∧ r.2.mem ((c.tc : Thread Cert.KernelIdeal.nD Cert.KernelIdeal.τ).loc Cert.KernelIdeal.main_v3) = v5 c
          ∧ r.2.mem ((c.tc : Thread Cert.KernelIdeal.nD Cert.KernelIdeal.τ).loc Cert.KernelIdeal.main_v51) = v6 c
          ∧ r.2.mem ((c.tc : Thread Cert.KernelIdeal.nD Cert.KernelIdeal.τ).loc Cert.KernelIdeal.main_v63) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_v3) = v5 c
          ∧ r.2.mem ((c.tc : Thread Cert.ReferenceIdeal.nD Cert.ReferenceIdeal.τ).loc Cert.ReferenceIdeal.main_v95) = v6 c
          ∧ r.2.mem ((c.tc : Thread Cert.ReferenceIdeal.nD Cert.ReferenceIdeal.τ).loc Cert.ReferenceIdeal.main_v118) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x256 : Shape := ⟨2, ![6144, 256]⟩
abbrev S6144x6144 : Shape := ⟨2, ![6144, 6144]⟩
abbrev S12288x12288 : Shape := ⟨2, ![12288, 12288]⟩
abbrev S6144x12288 : Shape := ⟨2, ![6144, 12288]⟩
abbrev S12288x3 : Shape := ⟨2, ![12288, 3]⟩
abbrev S3x256x256 : Shape := ⟨3, ![3, 256, 256]⟩
abbrev S3x256 : Shape := ⟨2, ![3, 256]⟩
abbrev S256x512 : Shape := ⟨2, ![256, 512]⟩
abbrev S256 : Shape := ⟨1, ![256]⟩
abbrev S_ : Shape := ⟨0, ![]⟩

class Facts : Prop where
  bcast_S_S6144x256 : S_.BroadcastsInDim S6144x256 (![] : Fin 0 → Fin S6144x256.rank)
  reducesTo_S6144x256_S_d0_1 : S6144x256.ReducesTo [0, 1] S_
  h_S_ : 0 < S_.numel
  bcast_S_S6144x6144 : S_.BroadcastsInDim S6144x6144 (![] : Fin 0 → Fin S6144x6144.rank)
  reducesTo_S6144x6144_S_d0_1 : S6144x6144.ReducesTo [0, 1] S_
  bcast_S_S12288x12288 : S_.BroadcastsInDim S12288x12288 (![] : Fin 0 → Fin S12288x12288.rank)
  reducesTo_S12288x12288_S_d0_1 : S12288x12288.ReducesTo [0, 1] S_
  bcast_S_S6144x12288 : S_.BroadcastsInDim S6144x12288 (![] : Fin 0 → Fin S6144x12288.rank)
  reducesTo_S6144x12288_S_d0_1 : S6144x12288.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg15 : FVec F S256x512 .f32) (main_arg16 : FVec F S256 .f32) (main_v63 : IVec S_ 1) (main_v67 : IVec S_ 1) : IVec S_ 1 :=
  let main_v68 : IVec S_ 1 := andi main_v63 main_v67
  let main_v69 : FVec F S256x512 .f32 := Host.absf main_arg15
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg12 : FVec F S3x256 .f32) (main_arg13 : FVec F S256x512 .f32) (main_arg14 : FVec F S256 .f32) (main_arg15 : FVec F S256x512 .f32) (main_arg16 : FVec F S256 .f32) (main_v48 : IVec S_ 1) (main_v49 : FVec F S3x256x256 .f32) (main_v50 : FVec F S3x256x256 .f32) : IVec S_ 1 :=
  let main_v51 : IVec S3x256x256 1 := cmpf .olt main_v49 main_v50
  let main_c_19 : IVec S_ 1 := constantI S_ 1 1#1
  let main_v52 : IVec S_ 1 := (fun x v => Host.reduce IntOp.andi x v reducesTo_S3x256x256_S_d0_1_2 h_S_) main_v51 main_c_19
  let main_v53 : IVec S_ 1 := andi main_v48 main_v52
  let main_v54 : FVec F S3x256 .f32 := Host.absf main_arg12
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S256x512 .f32 := Host.absf main_arg13
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S3x256 .f32) (main_arg9 : FVec F S3x256x256 .f32) (main_arg10 : FVec F S3x256 .f32) (main_arg11 : FVec F S3x256x256 .f32) (main_arg12 : FVec F S3x256 .f32) (main_arg13 : FVec F S256x512 .f32) (main_arg14 : FVec F S256 .f32) (main_arg15 : FVec F S256x512 .f32) (main_arg16 : FVec F S256 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg9
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg10
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256x256 .f32 := Host.absf main_arg11
  let main_cst_18 : FVec F S_ .f32 := constant S_ .f32 0x7F800000#32
  let main_v50 : FVec F S3x256x256 .f32 := broadcastInDim S3x256x256 ![] bcast_S_S3x256x256 main_cst_18
  fn_part3 (F := F) main_arg12 main_arg13 main_arg14 main_arg15 main_arg16 main_v48 main_v49 main_v50

def fn_part1 {F : FTy → Type} [FloatOps F] (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S3x256x256 .f32) (main_arg12 : FVec F S3x256 .f32) (main_arg13 : FVec F S256x512 .f32) (main_arg14 : FVec F S256 .f32) (main_arg15 : FVec F S256x512 .f32) (main_arg16 : FVec F S256 .f32) (main_v13 : IVec S_ 1) (main_v16 : IVec S6144x12288 1) : IVec S_ 1 :=
  let main_c_5 : IVec S_ 1 := constantI S_ 1 1#1
  let main_v17 : IVec S_ 1 := (fun x v => Host.reduce IntOp.andi x v reducesTo_S6144x12288_S_d0_1 h_S_) main_v16 main_c_5
  let main_v18 : IVec S_ 1 := andi main_v13 main_v17
  let main_v19 : FVec F S3x256x256 .f32 := Host.absf main_arg5
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x256 .f32 := Host.absf main_arg7
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S6144x256 .f32) (main_arg1 : FVec F S6144x6144 .f32) (main_arg2 : FVec F S12288x12288 .f32) (main_arg3 : FVec F S6144x12288 .f32) (main_arg4 : IVec S12288x3 32) (main_arg5 : FVec F S3x256x256 .f32) (main_arg6 : FVec F S3x256 .f32) (main_arg7 : FVec F S3x256x256 .f32) (main_arg8 : FVec F S3x256 .f32) (main_arg9 : FVec F S3x256x256 .f32) (main_arg10 : FVec F S3x256 .f32) (main_arg11 : FVec F S3x256x256 .f32) (main_arg12 : FVec F S3x256 .f32) (main_arg13 : FVec F S256x512 .f32) (main_arg14 : FVec F S256 .f32) (main_arg15 : FVec F S256x512 .f32) (main_arg16 : FVec F S256 .f32) : IVec S_ 1 :=
  let main_v0 : FVec F S6144x256 .f32 := Host.absf main_arg0
  let main_cst : FVec F S_ .f32 := constant S_ .f32 0x7F800000#32
  let main_v1 : FVec F S6144x256 .f32 := broadcastInDim S6144x256 ![] bcast_S_S6144x256 main_cst
  let main_v2 : IVec S6144x256 1 := cmpf .olt main_v0 main_v1
  let main_c : IVec S_ 1 := constantI S_ 1 1#1
  let main_v3 : IVec S_ 1 := (fun x v => Host.reduce IntOp.andi x v reducesTo_S6144x256_S_d0_1 h_S_) main_v2 main_c
  let main_v4 : FVec F S6144x6144 .f32 := Host.absf main_arg1
  let main_cst_0 : FVec F S_ .f32 := constant S_ .f32 0x7F800000#32
  let main_v5 : FVec F S6144x6144 .f32 := broadcastInDim S6144x6144 ![] bcast_S_S6144x6144 main_cst_0
  let main_v6 : IVec S6144x6144 1 := cmpf .olt main_v4 main_v5
  let main_c_1 : IVec S_ 1 := constantI S_ 1 1#1
  let main_v7 : IVec S_ 1 := (fun x v => Host.reduce IntOp.andi x v reducesTo_S6144x6144_S_d0_1 h_S_) main_v6 main_c_1
  let main_v8 : IVec S_ 1 := andi main_v3 main_v7
  let main_v9 : FVec F S12288x12288 .f32 := Host.absf main_arg2
  let main_cst_2 : FVec F S_ .f32 := constant S_ .f32 0x7F800000#32
  let main_v10 : FVec F S12288x12288 .f32 := broadcastInDim S12288x12288 ![] bcast_S_S12288x12288 main_cst_2
  let main_v11 : IVec S12288x12288 1 := cmpf .olt main_v9 main_v10
  let main_c_3 : IVec S_ 1 := constantI S_ 1 1#1
  let main_v12 : IVec S_ 1 := (fun x v => Host.reduce IntOp.andi x v reducesTo_S12288x12288_S_d0_1 h_S_) main_v11 main_c_3
  let main_v13 : IVec S_ 1 := andi main_v8 main_v12
  let main_v14 : FVec F S6144x12288 .f32 := Host.absf main_arg3
  let main_cst_4 : FVec F S_ .f32 := constant S_ .f32 0x7F800000#32
  let main_v15 : FVec F S6144x12288 .f32 := broadcastInDim S6144x12288 ![] bcast_S_S6144x12288 main_cst_4
  let main_v16 : IVec S6144x12288 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S6144x256 : Shape := ⟨2, ![6144, 256]⟩
abbrev S6144x6144 : Shape := ⟨2, ![6144, 6144]⟩
abbrev S12288x12288 : Shape := ⟨2, ![12288, 12288]⟩
abbrev S6144x12288 : Shape := ⟨2, ![6144, 12288]⟩
abbrev S12288x3 : Shape := ⟨2, ![12288, 3]⟩
abbrev S3x256x256 : Shape := ⟨3, ![3, 256, 256]⟩
abbrev S3x256 : Shape := ⟨2, ![3, 256]⟩
abbrev S256x512 : Shape := ⟨2, ![256, 512]⟩
abbrev S256 : Shape := ⟨1, ![256]⟩
abbrev S12288x256 : Shape := ⟨2, ![12288, 256]⟩
abbrev S1024x1024 : Shape := ⟨2, ![1024, 1024]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S_ : Shape := ⟨0, ![]⟩
abbrev S12288x3x1 : Shape := ⟨3, ![12288, 3, 1]⟩
abbrev S12288x3x256 : Shape := ⟨3, ![12288, 3, 256]⟩
abbrev S12288x1x256 : Shape := ⟨3, ![12288, 1, 256]⟩
abbrev S12288x512 : Shape := ⟨2, ![12288, 512]⟩
abbrev S512x256 : Shape := ⟨2, ![512, 256]⟩
abbrev S6144x512 : Shape := ⟨2, ![6144, 512]⟩

abbrev nBuf : Space → Nat
  | .hbm => 132
  | .vmem => 132
  | .smem => 0
  | _ => 0

abbrev hbmTy0_0 (i : Nat) : BufTy := match i % 128 with
  | 0 => ⟨S6144x256, .f32⟩
  | 1 => ⟨S6144x6144, .f32⟩
  | 2 => ⟨S12288x12288, .f32⟩
  | 3 => ⟨S6144x12288, .f32⟩
  | 4 => ⟨S12288x3, .i32⟩
  | 5 => ⟨S3x256x256, .f32⟩
  | 6 => ⟨S3x256, .f32⟩
  | 7 => ⟨S3x256x256, .f32⟩
  | 8 => ⟨S3x256, .f32⟩
  | 9 => ⟨S3x256x256, .f32⟩
  | 10 => ⟨S3x256, .f32⟩
  | 11 => ⟨S3x256x256, .f32⟩
  | 12 => ⟨S3x256, .f32⟩
  | 13 => ⟨S256x512, .f32⟩
  | 14 => ⟨S256, .f32⟩
  | 15 => ⟨S256x512, .f32⟩
  | 16 => ⟨S256, .f32⟩
  | 17 => ⟨S6144x6144, .bf16⟩
  | 18 => ⟨S12288x12288, .bf16⟩
  | 19 => ⟨S6144x12288, .bf16⟩
  | 20 => ⟨S12288x256, .f32⟩
  | 21 => ⟨S1x256x256, .f32⟩
  | 22 => ⟨S256x256, .f32⟩
  | 23 => ⟨S1x256, .f32⟩
  | 24 => ⟨S256, .f32⟩
  | 25 => ⟨S1x256, .f32⟩
  | 26 => ⟨S6144x256, .f32⟩
  | 27 => ⟨S1x256x256, .f32⟩
  | 28 => ⟨S256x256, .f32⟩
  | 29 => ⟨S1x256, .f32⟩
  | 30 => ⟨S256, .f32⟩
  | 31 => ⟨S1x256, .f32⟩
  | 32 => ⟨S6144x256, .f32⟩
  | 33 => ⟨S1x256x256, .f32⟩
  | 34 => ⟨S256x256, .f32⟩
  | 35 => ⟨S1x256, .f32⟩
  | 36 => ⟨S256, .f32⟩
  | 37 => ⟨S1x256, .f32⟩
  | 38 => ⟨S6144x256, .f32⟩
  | 39 => ⟨S1x256x256, .f32⟩
  | 40 => ⟨S256x256, .f32⟩
  | 41 => ⟨S1x256, .f32⟩
  | 42 => ⟨S256, .f32⟩
  | 43 => ⟨S1x256, .f32⟩
  | 44 => ⟨S6144x256, .f32⟩
  | 45 => ⟨S1x256x256, .f32⟩
  | 46 => ⟨S256x256, .f32⟩
  | 47 => ⟨S1x256, .f32⟩
  | 48 => ⟨S256, .f32⟩
  | 49 => ⟨S1x256, .f32⟩
  | 50 => ⟨S6144x256, .f32⟩
  | 51 => ⟨S1x256x256, .f32⟩
  | 52 => ⟨S256x256, .f32⟩
  | 53 => ⟨S1x256, .f32⟩
  | 54 => ⟨S256, .f32⟩
  | 55 => ⟨S1x256, .f32⟩
  | 56 => ⟨S6144x256, .f32⟩
  | 57 => ⟨S1x256x256, .f32⟩
  | 58 => ⟨S256x256, .f32⟩
  | 59 => ⟨S1x256, .f32⟩
  | 60 => ⟨S256, .f32⟩
  | 61 => ⟨S1x256, .f32⟩
  | 62 => ⟨S12288x256, .f32⟩
  | 63 => ⟨S1x256x256, .f32⟩
  | 64 => ⟨S256x256, .f32⟩
  | 65 => ⟨S1x256, .f32⟩
  | 66 => ⟨S256, .f32⟩
  | 67 => ⟨S1x256, .f32⟩
  | 68 => ⟨S12288x256, .f32⟩
  | 69 => ⟨S1x256x256, .f32⟩
  | 70 => ⟨S256x256, .f32⟩
  | 71 => ⟨S1x256, .f32⟩
  | 72 => ⟨S256, .f32⟩
  | 73 => ⟨S1x256, .f32⟩
  | 74 => ⟨S12288x256, .f32⟩
  | 75 => ⟨S1x256x256, .f32⟩
  | 76 => ⟨S256x256, .f32⟩
  | 77 => ⟨S1x256, .f32⟩
  | 78 => ⟨S256, .f32⟩
  | 79 => ⟨S1x256, .f32⟩
  | 80 => ⟨S12288x256, .f32⟩
  | 81 => ⟨S1x256x256, .f32⟩
  | 82 => ⟨S256x256, .f32⟩
  | 83 => ⟨S1x256, .f32⟩
  | 84 => ⟨S256, .f32⟩
  | 85 => ⟨S1x256, .f32⟩
  | 86 => ⟨S12288x256, .f32⟩
  | 87 => ⟨S1x256x256, .f32⟩
  | 88 => ⟨S256x256, .f32⟩
  | 89 => ⟨S1x256, .f32⟩
  | 90 => ⟨S256, .f32⟩
  | 91 => ⟨S1x256, .f32⟩
  | 92 => ⟨S12288x256, .f32⟩
  | 93 => ⟨S_, .i32⟩
  | 94 => ⟨S12288x3, .i32⟩
  | 95 => ⟨S12288x3, .i1⟩
  | 96 => ⟨S_, .i32⟩
  | 97 => ⟨S12288x3, .i32⟩
  | 98 => ⟨S12288x3, .i32⟩
  | 99 => ⟨S12288x3, .i32⟩
  | 100 => ⟨S12288x3x1, .i32⟩
  | 101 => ⟨S12288x3x256, .f32⟩
  | 102 => ⟨S12288x1x256, .f32⟩
  | 103 => ⟨S12288x3x256, .f32⟩
  | 104 => ⟨S12288x3x256, .f32⟩
  | 105 => ⟨S12288x3x256, .f32⟩
  | 106 => ⟨S_, .f32⟩
  | 107 => ⟨S12288x256, .f32⟩
  | 108 => ⟨S_, .f32⟩
  | 109 => ⟨S12288x256, .f32⟩
  | 110 => ⟨S12288x256, .f32⟩
  | 111 => ⟨S12288x512, .f32⟩
  | 112 => ⟨S512x256, .f32⟩
  | 113 => ⟨S12288x256, .f32⟩
  | 114 => ⟨S1x256, .f32⟩
  | 115 => ⟨S12288x256, .f32⟩
  | 116 => ⟨S12288x256, .f32⟩
  | 117 => ⟨S_, .f32⟩
  | 118 => ⟨S12288x256, .f32⟩
  | 119 => ⟨S12288x256, .f32⟩
  | 120 => ⟨S6144x256, .f32⟩
  | 121 => ⟨S6144x512, .f32⟩
  | 122 => ⟨S512x256, .f32⟩
  | 123 => ⟨S6144x256, .f32⟩
  | 124 => ⟨S1x256, .f32⟩
  | 125 => ⟨S6144x256, .f32⟩
  | 126 => ⟨S6144x256, .f32⟩
  | 127 => ⟨S_, .f32⟩
  | _ => ⟨S6144x256, .f32⟩

abbrev hbmTy0_1 (i : Nat) : BufTy := match i % 128 with
  | 0 => ⟨S6144x256, .f32⟩
  | 1 => ⟨S6144x256, .f32⟩
  | 2 => ⟨S6144x256, .f32⟩
  | 3 => ⟨S12288x256, .f32⟩
  | _ => ⟨S6144x256, .f32⟩

abbrev hbmTy (i : Nat) : BufTy := match i / 128 with
  | 0 => hbmTy0_0 i
  | 1 => hbmTy0_1 i
  | _ => ⟨S6144x256, .f32⟩

abbrev vmemTy0_0 (i : Nat) : BufTy := match i % 128 with
  | 0 => ⟨S1024x1024, .bf16⟩
  | 1 => ⟨S1024x1024, .bf16⟩
  | 2 => ⟨S6144x256, .f32⟩
  | 3 => ⟨S1024x256, .f32⟩
  | 4 => ⟨S1024x256, .f32⟩
  | 5 => ⟨S1024x256, .f32⟩
  | 6 => ⟨S1024x1024, .bf16⟩
  | 7 => ⟨S1024x1024, .bf16⟩
  | 8 => ⟨S6144x256, .f32⟩
  | 9 => ⟨S256x256, .f32⟩
  | 10 => ⟨S1x256, .f32⟩
  | 11 => ⟨S1024x256, .f32⟩
  | 12 => ⟨S1024x256, .f32⟩
  | 13 => ⟨S1024x256, .f32⟩
  | 14 => ⟨S1024x1024, .bf16⟩
  | 15 => ⟨S1024x1024, .bf16⟩
  | 16 => ⟨S6144x256, .f32⟩
  | 17 => ⟨S256x256, .f32⟩
  | 18 => ⟨S1x256, .f32⟩
  | 19 => ⟨S1024x256, .f32⟩
  | 20 => ⟨S1024x256, .f32⟩
  | 21 => ⟨S1024x256, .f32⟩
  | 22 => ⟨S1024x256, .f32⟩
  | 23 => ⟨S1024x256, .f32⟩
  | 24 => ⟨S1024x256, .f32⟩
  | 25 => ⟨S1024x256, .f32⟩
  | 26 => ⟨S1024x1024, .bf16⟩
  | 27 => ⟨S1024x1024, .bf16⟩
  | 28 => ⟨S6144x256, .f32⟩
  | 29 => ⟨S256x256, .f32⟩
  | 30 => ⟨S1x256, .f32⟩
  | 31 => ⟨S1024x256, .f32⟩
  | 32 => ⟨S1024x256, .f32⟩
  | 33 => ⟨S1024x256, .f32⟩
  | 34 => ⟨S1024x1024, .bf16⟩
  | 35 => ⟨S1024x1024, .bf16⟩
  | 36 => ⟨S6144x256, .f32⟩
  | 37 => ⟨S256x256, .f32⟩
  | 38 => ⟨S1x256, .f32⟩
  | 39 => ⟨S1024x256, .f32⟩
  | 40 => ⟨S1024x256, .f32⟩
  | 41 => ⟨S1024x256, .f32⟩
  | 42 => ⟨S1024x256, .f32⟩
  | 43 => ⟨S1024x256, .f32⟩
  | 44 => ⟨S1024x256, .f32⟩
  | 45 => ⟨S1024x256, .f32⟩
  | 46 => ⟨S1024x1024, .bf16⟩
  | 47 => ⟨S1024x1024, .bf16⟩
  | 48 => ⟨S6144x256, .f32⟩
  | 49 => ⟨S256x256, .f32⟩
  | 50 => ⟨S1x256, .f32⟩
  | 51 => ⟨S1024x256, .f32⟩
  | 52 => ⟨S1024x256, .f32⟩
  | 53 => ⟨S1024x256, .f32⟩
  | 54 => ⟨S1024x1024, .bf16⟩
  | 55 => ⟨S1024x1024, .bf16⟩
  | 56 => ⟨S6144x256, .f32⟩
  | 57 => ⟨S256x256, .f32⟩
  | 58 => ⟨S1x256, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S1024x256, .f32⟩
  | 65 => ⟨S1024x256, .f32⟩
  | 66 => ⟨S1024x1024, .bf16⟩
  | 67 => ⟨S1024x1024, .bf16⟩
  | 68 => ⟨S12288x256, .f32⟩
  | 69 => ⟨S256x256, .f32⟩
  | 70 => ⟨S1x256, .f32⟩
  | 71 => ⟨S1024x256, .f32⟩
  | 72 => ⟨S1024x256, .f32⟩
  | 73 => ⟨S1024x256, .f32⟩
  | 74 => ⟨S1024x1024, .bf16⟩
  | 75 => ⟨S1024x1024, .bf16⟩
  | 76 => ⟨S12288x256, .f32⟩
  | 77 => ⟨S256x256, .f32⟩
  | 78 => ⟨S1x256, .f32⟩
  | 79 => ⟨S1024x256, .f32⟩
  | 80 => ⟨S1024x256, .f32⟩
  | 81 => ⟨S1024x256, .f32⟩
  | 82 => ⟨S1024x256, .f32⟩
  | 83 => ⟨S1024x256, .f32⟩
  | 84 => ⟨S1024x256, .f32⟩
  | 85 => ⟨S1024x256, .f32⟩
  | 86 => ⟨S1024x1024, .bf16⟩
  | 87 => ⟨S1024x1024, .bf16⟩
  | 88 => ⟨S12288x256, .f32⟩
  | 89 => ⟨S256x256, .f32⟩
  | 90 => ⟨S1x256, .f32⟩
  | 91 => ⟨S1024x256, .f32⟩
  | 92 => ⟨S1024x256, .f32⟩
  | 93 => ⟨S1024x256, .f32⟩
  | 94 => ⟨S1024x1024, .bf16⟩
  | 95 => ⟨S1024x1024, .bf16⟩
  | 96 => ⟨S12288x256, .f32⟩
  | 97 => ⟨S256x256, .f32⟩
  | 98 => ⟨S1x256, .f32⟩
  | 99 => ⟨S1024x256, .f32⟩
  | 100 => ⟨S1024x256, .f32⟩
  | 101 => ⟨S1024x256, .f32⟩
  | 102 => ⟨S1024x256, .f32⟩
  | 103 => ⟨S1024x256, .f32⟩
  | 104 => ⟨S1024x256, .f32⟩
  | 105 => ⟨S1024x256, .f32⟩
  | 106 => ⟨S1024x1024, .bf16⟩
  | 107 => ⟨S1024x1024, .bf16⟩
  | 108 => ⟨S12288x256, .f32⟩
  | 109 => ⟨S256x256, .f32⟩
  | 110 => ⟨S1x256, .f32⟩
  | 111 => ⟨S1024x256, .f32⟩
  | 112 => ⟨S1024x256, .f32⟩
  | 113 => ⟨S1024x256, .f32⟩
  | 114 => ⟨S1024x1024, .bf16⟩
  | 115 => ⟨S1024x1024, .bf16⟩
  | 116 => ⟨S12288x256, .f32⟩
  | 117 => ⟨S256x256, .f32⟩
  | 118 => ⟨S1x256, .f32⟩
  | 119 => ⟨S1024x256, .f32⟩
  | 120 => ⟨S1024x256, .f32⟩
  | 121 => ⟨S1024x256, .f32⟩
  | 122 => ⟨S1024x256, .f32⟩
  | 123 => ⟨S1024x256, .f32⟩
  | 124 => ⟨S1024x256, .f32⟩
  | 125 => ⟨S1024x256, .f32⟩
  | 126 => ⟨S1024x1024, .bf16⟩
  | 127 => ⟨S1024x1024, .bf16⟩
  | _ => ⟨S6144x256, .f32⟩

abbrev vmemTy0_1 (i : Nat) : BufTy := match i % 128 with
  | 0 => ⟨S12288x256, .f32⟩
  | 1 => ⟨S1024x256, .f32⟩
  | 2 => ⟨S1024x256, .f32⟩
  | 3 => ⟨S1024x256, .f32⟩
  | _ => ⟨S6144x256, .f32⟩

abbrev vmemTy (i : Nat) : BufTy := match i / 128 with
  | 0 => vmemTy0_0 i
  | 1 => vmemTy0_1 i
  | _ => ⟨S6144x256, .f32⟩

abbrev bufTy : (tb : Table) → Fin (tcTables nBuf tb) → BufTy
  | .hbm, ⟨i, _⟩ => hbmTy i
  | .local _ .vmem, ⟨i, _⟩ => vmemTy i
  | _, _ => ⟨S6144x256, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c : Ref sig .tc := ⟨.hbm, 93, rfl⟩
abbrev main_v76 : Ref sig .tc := ⟨.hbm, 94, rfl⟩
abbrev main_v77 : Ref sig .tc := ⟨.hbm, 95, rfl⟩
abbrev main_c_0 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst : Ref sig .tc := ⟨.hbm, 106, rfl⟩
abbrev main_v87 : Ref sig .tc := ⟨.hbm, 107, rfl⟩
abbrev main_cst_1 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_call0_cst : Ref sig .tc := ⟨.hbm, 117, rfl⟩
abbrev main_call0_v0 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_call1_cst : Ref sig .tc := ⟨.hbm, 127, rfl⟩
abbrev main_call1_v0 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc4_scratch0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg4_1 : Ref sig .tc := ⟨.vmem, 52, rfl⟩
abbrev cc5_scratch0 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg4_1 : Ref sig .tc := ⟨.vmem, 60, rfl⟩
abbrev cc6_stg5_0 : Ref sig .tc := ⟨.vmem, 61, rfl⟩
abbrev cc6_stg5_1 : Ref sig .tc := ⟨.vmem, 62, rfl⟩
abbrev cc6_stg6_0 : Ref sig .tc := ⟨.vmem, 63, rfl⟩
abbrev cc6_stg6_1 : Ref sig .tc := ⟨.vmem, 64, rfl⟩
abbrev cc6_scratch0 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg4_1 : Ref sig .tc := ⟨.vmem, 72, rfl⟩
abbrev cc7_scratch0 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg4_1 : Ref sig .tc := ⟨.vmem, 80, rfl⟩
abbrev cc8_stg5_0 : Ref sig .tc := ⟨.vmem, 81, rfl⟩
abbrev cc8_stg5_1 : Ref sig .tc := ⟨.vmem, 82, rfl⟩
abbrev cc8_stg6_0 : Ref sig .tc := ⟨.vmem, 83, rfl⟩
abbrev cc8_stg6_1 : Ref sig .tc := ⟨.vmem, 84, rfl⟩
abbrev cc8_scratch0 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg4_1 : Ref sig .tc := ⟨.vmem, 92, rfl⟩
abbrev cc9_scratch0 : Ref sig .tc := ⟨.vmem, 93, rfl⟩
abbrev cc10_stg0_0 : Ref sig .tc := ⟨.vmem, 94, rfl⟩
abbrev cc10_stg0_1 : Ref sig .tc := ⟨.vmem, 95, rfl⟩
abbrev cc10_stg1_0 : Ref sig .tc := ⟨.vmem, 96, rfl⟩
abbrev cc10_stg2_0 : Ref sig .tc := ⟨.vmem, 97, rfl⟩
abbrev cc10_stg3_0 : Ref sig .tc := ⟨.vmem, 98, rfl⟩
abbrev cc10_stg4_0 : Ref sig .tc := ⟨.vmem, 99, rfl⟩
abbrev cc10_stg4_1 : Ref sig .tc := ⟨.vmem, 100, rfl⟩
abbrev cc10_stg5_0 : Ref sig .tc := ⟨.vmem, 101, rfl⟩
abbrev cc10_stg5_1 : Ref sig .tc := ⟨.vmem, 102, rfl⟩
abbrev cc10_stg6_0 : Ref sig .tc := ⟨.vmem, 103, rfl⟩
abbrev cc10_stg6_1 : Ref sig .tc := ⟨.vmem, 104, rfl⟩
abbrev cc10_scratch0 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg2_0 : Ref sig .tc := ⟨.vmem, 109, rfl⟩
abbrev cc11_stg3_0 : Ref sig .tc := ⟨.vmem, 110, rfl⟩
abbrev cc11_stg4_0 : Ref sig .tc := ⟨.vmem, 111, rfl⟩
abbrev cc11_stg4_1 : Ref sig .tc := ⟨.vmem, 112, rfl⟩
abbrev cc11_scratch0 : Ref sig .tc := ⟨.vmem, 113, rfl⟩
abbrev cc12_stg0_0 : Ref sig .tc := ⟨.vmem, 114, rfl⟩
abbrev cc12_stg0_1 : Ref sig .tc := ⟨.vmem, 115, rfl⟩
abbrev cc12_stg1_0 : Ref sig .tc := ⟨.vmem, 116, rfl⟩
abbrev cc12_stg2_0 : Ref sig .tc := ⟨.vmem, 117, rfl⟩
abbrev cc12_stg3_0 : Ref sig .tc := ⟨.vmem, 118, rfl⟩
abbrev cc12_stg4_0 : Ref sig .tc := ⟨.vmem, 119, rfl⟩
abbrev cc12_stg4_1 : Ref sig .tc := ⟨.vmem, 120, rfl⟩
abbrev cc12_stg5_0 : Ref sig .tc := ⟨.vmem, 121, rfl⟩
abbrev cc12_stg5_1 : Ref sig .tc := ⟨.vmem, 122, rfl⟩
abbrev cc12_stg6_0 : Ref sig .tc := ⟨.vmem, 123, rfl⟩
abbrev cc12_stg6_1 : Ref sig .tc := ⟨.vmem, 124, rfl⟩
abbrev cc12_scratch0 : Ref sig .tc := ⟨.vmem, 125, rfl⟩
abbrev cc13_stg0_0 : Ref sig .tc := ⟨.vmem, 126, rfl⟩
abbrev cc13_stg0_1 : Ref sig .tc := ⟨.vmem, 127, rfl⟩
abbrev cc13_stg1_0 : Ref sig .tc := ⟨.vmem, 128, rfl⟩
abbrev cc13_stg2_0 : Ref sig .tc := ⟨.vmem, 129, rfl⟩
abbrev cc13_stg2_1 : Ref sig .tc := ⟨.vmem, 130, rfl⟩
abbrev cc13_scratch0 : Ref sig .tc := ⟨.vmem, 131, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem4_1 : DmaSem sig := 36
abbrev cc4_sem5_0 : DmaSem sig := 37
abbrev cc4_sem5_1 : DmaSem sig := 38
abbrev cc4_sem6_0 : DmaSem sig := 39
abbrev cc4_sem6_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem4_1 : DmaSem sig := 54
abbrev cc6_sem5_0 : DmaSem sig := 55
abbrev cc6_sem5_1 : DmaSem sig := 56
abbrev cc6_sem6_0 : DmaSem sig := 57
abbrev cc6_sem6_1 : DmaSem sig := 58
abbrev cc7_sem0_0 : DmaSem sig := 59
abbrev cc7_sem0_1 : DmaSem sig := 60
abbrev cc7_sem1_0 : DmaSem sig := 61
abbrev cc7_sem2_0 : DmaSem sig := 62
abbrev cc7_sem3_0 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem4_0 : DmaSem sig := 71
abbrev cc8_sem4_1 : DmaSem sig := 72
abbrev cc8_sem5_0 : DmaSem sig := 73
abbrev cc8_sem5_1 : DmaSem sig := 74
abbrev cc8_sem6_0 : DmaSem sig := 75
abbrev cc8_sem6_1 : DmaSem sig := 76
abbrev cc9_sem0_0 : DmaSem sig := 77
abbrev cc9_sem0_1 : DmaSem sig := 78
abbrev cc9_sem1_0 : DmaSem sig := 79
abbrev cc9_sem2_0 : DmaSem sig := 80
abbrev cc9_sem3_0 : DmaSem sig := 81
abbrev cc9_sem4_0 : DmaSem sig := 82
abbrev cc9_sem4_1 : DmaSem sig := 83
abbrev cc10_sem0_0 : DmaSem sig := 84
abbrev cc10_sem0_1 : DmaSem sig := 85
abbrev cc10_sem1_0 : DmaSem sig := 86
abbrev cc10_sem2_0 : DmaSem sig := 87
abbrev cc10_sem3_0 : DmaSem sig := 88
abbrev cc10_sem4_0 : DmaSem sig := 89
abbrev cc10_sem4_1 : DmaSem sig := 90
abbrev cc10_sem5_0 : DmaSem sig := 91
abbrev cc10_sem5_1 : DmaSem sig := 92
abbrev cc10_sem6_0 : DmaSem sig := 93
abbrev cc10_sem6_1 : DmaSem sig := 94
abbrev cc11_sem0_0 : DmaSem sig := 95
abbrev cc11_sem0_1 : DmaSem sig := 96
abbrev cc11_sem1_0 : DmaSem sig := 97
abbrev cc11_sem2_0 : DmaSem sig := 98
abbrev cc11_sem3_0 : DmaSem sig := 99
abbrev cc11_sem4_0 : DmaSem sig := 100
abbrev cc11_sem4_1 : DmaSem sig := 101
abbrev cc12_sem0_0 : DmaSem sig := 102
abbrev cc12_sem0_1 : DmaSem sig := 103
abbrev cc12_sem1_0 : DmaSem sig := 104
abbrev cc12_sem2_0 : DmaSem sig := 105
abbrev cc12_sem3_0 : DmaSem sig := 106
abbrev cc12_sem4_0 : DmaSem sig := 107
abbrev cc12_sem4_1 : DmaSem sig := 108
abbrev cc12_sem5_0 : DmaSem sig := 109
abbrev cc12_sem5_1 : DmaSem sig := 110
abbrev cc12_sem6_0 : DmaSem sig := 111
abbrev cc12_sem6_1 : DmaSem sig := 112
abbrev cc13_sem0_0 : DmaSem sig := 113
abbrev cc13_sem0_1 : DmaSem sig := 114
abbrev cc13_sem1_0 : DmaSem sig := 115
abbrev cc13_sem2_0 : DmaSem sig := 116
abbrev cc13_sem2_1 : DmaSem sig := 117

abbrev nD : Nat := 1
abbrev τ : Topo := Topo.v7x

variable {F : FTy → Type} [FloatOps F]

abbrev grid0 : Pipeline.Grid := ⟨2, ![12, 6], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  v6
def k0_off1 (i : grid0.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k0_cond2 (i : grid0.Coords) : BitVec 1 :=
  let arg1 : BitVec 32 := BitVec.ofNat 32 (i 1).val
  let c5_i32 : BitVec 32 := 5#32
  let v16 : BitVec 1 := Scalar.cmpi .eq arg1 c5_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6144x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![6, 6], ![false, false]⟩

def k1_mult1 (i : grid1.Coords) : BitVec 32 :=
  let arg1 : BitVec 32 := BitVec.ofNat 32 (i 1).val
  let c1024_i32 : BitVec 32 := 1024#32
  let v6 : BitVec 32 := Scalar.muli arg1 c1024_i32
  v6
def k1_off1 (i : grid1.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k1_cond2 (i : grid1.Coords) : BitVec 1 :=
  let arg1 : BitVec 32 := BitVec.ofNat 32 (i 1).val
  let c5_i32 : BitVec 32 := 5#32
  let v16 : BitVec 1 := Scalar.cmpi .eq arg1 c5_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S6144x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![6, 6], ![false, false]⟩

def k2_mult1 (i : grid2.Coords) : BitVec 32 :=
  let arg1 : BitVec 32 := BitVec.ofNat 32 (i 1).val
  let c1024_i32 : BitVec 32 := 1024#32
  let v6 : BitVec 32 := Scalar.muli arg1 c1024_i32
  v6
def k2_off1 (i : grid2.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k2_cond2 (i : grid2.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S6144x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![6, 6], ![false, false]⟩

def k3_mult1 (i : grid3.Coords) : BitVec 32 :=
  let arg1 : BitVec 32 := BitVec.ofNat 32 (i 1).val
  let c1024_i32 : BitVec 32 := 1024#32
  let v6 : BitVec 32 := Scalar.muli arg1 c1024_i32
  v6
def k3_off1 (i : grid3.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k3_cond2 (i : grid3.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_7 : BitVec 32 := 0#32
  let v19 : BitVec 1 := Scalar.cmpi .ne v18 c0_i32_7
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S6144x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![6, 6], ![false, false]⟩

def k4_mult1 (i : grid4.Coords) : BitVec 32 :=
  let arg1 : BitVec 32 := BitVec.ofNat 32 (i 1).val
  let c1024_i32 : BitVec 32 := 1024#32
  let v6 : BitVec 32 := Scalar.muli arg1 c1024_i32
  v6
def k4_off1 (i : grid4.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k4_cond2 (i : grid4.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_7 : BitVec 32 := 0#32
  let v19 : BitVec 1 := Scalar.cmpi .ne v18 c0_i32_7
  v19

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S6144x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1024x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1024x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨2, ![6, 6], ![false, false]⟩

def k5_mult1 (i : grid5.Coords) : BitVec 32 :=
  let arg1 : BitVec 32 := BitVec.ofNat 32 (i 1).val
  let c1024_i32 : BitVec 32 := 1024#32
  let v6 : BitVec 32 := Scalar.muli arg1 c1024_i32
  v6
def k5_off1 (i : grid5.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k5_cond2 (i : grid5.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_7 : BitVec 32 := 0#32
  let v19 : BitVec 1 := Scalar.cmpi .ne v18 c0_i32_7
  v19

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S6144x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1024x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![6, 6], ![false, false]⟩

def k6_mult1 (i : grid6.Coords) : BitVec 32 :=
  let arg1 : BitVec 32 := BitVec.ofNat 32 (i 1).val
  let c1024_i32 : BitVec 32 := 1024#32
  let v6 : BitVec 32 := Scalar.muli arg1 c1024_i32
  v6
def k6_off1 (i : grid6.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k6_cond2 (i : grid6.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_7 : BitVec 32 := 0#32
  let v19 : BitVec 1 := Scalar.cmpi .ne v18 c0_i32_7
  v19

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S6144x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1024x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1024x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev stage6_6 : Fin 2 → Memref sig .tc .vmem S1024x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, false]

abbrev grid7 : Pipeline.Grid := ⟨2, ![12, 12], ![false, false]⟩

def k7_mult1 (i : grid7.Coords) : BitVec 32 :=
  let arg1 : BitVec 32 := BitVec.ofNat 32 (i 1).val
  let c1024_i32 : BitVec 32 := 1024#32
  let v6 : BitVec 32 := Scalar.muli arg1 c1024_i32
  v6
def k7_off1 (i : grid7.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k7_cond2 (i : grid7.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S12288x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1024x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev grid8 : Pipeline.Grid := ⟨2, ![12, 12], ![false, false]⟩

def k8_mult1 (i : grid8.Coords) : BitVec 32 :=
  let arg1 : BitVec 32 := BitVec.ofNat 32 (i 1).val
  let c1024_i32 : BitVec 32 := 1024#32
  let v6 : BitVec 32 := Scalar.muli arg1 c1024_i32
  v6
def k8_off1 (i : grid8.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k8_cond2 (i : grid8.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S12288x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1024x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

abbrev stage8_5 : Fin 2 → Memref sig .tc .vmem S1024x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev stage8_6 : Fin 2 → Memref sig .tc .vmem S1024x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, false]

abbrev grid9 : Pipeline.Grid := ⟨2, ![12, 12], ![false, false]⟩

def k9_mult1 (i : grid9.Coords) : BitVec 32 :=
  let arg1 : BitVec 32 := BitVec.ofNat 32 (i 1).val
  let c1024_i32 : BitVec 32 := 1024#32
  let v6 : BitVec 32 := Scalar.muli arg1 c1024_i32
  v6
def k9_off1 (i : grid9.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k9_cond2 (i : grid9.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S12288x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S1024x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, false]

abbrev grid10 : Pipeline.Grid := ⟨2, ![12, 12], ![false, false]⟩

def k10_mult1 (i : grid10.Coords) : BitVec 32 :=
  let arg1 : BitVec 32 := BitVec.ofNat 32 (i 1).val
  let c1024_i32 : BitVec 32 := 1024#32
  let v6 : BitVec 32 := Scalar.muli arg1 c1024_i32
  v6
def k10_off1 (i : grid10.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k10_cond2 (i : grid10.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S12288x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false]

abbrev stage10_2 : Fin 1 → Memref sig .tc .vmem S256x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false, false]

abbrev stage10_4 : Fin 2 → Memref sig .tc .vmem S1024x256 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, false]

abbrev stage10_5 : Fin 2 → Memref sig .tc .vmem S1024x256 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, false]

abbrev stage10_6 : Fin 2 → Memref sig .tc .vmem S1024x256 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, false]

abbrev grid11 : Pipeline.Grid := ⟨2, ![12, 12], ![false, false]⟩

def k11_mult1 (i : grid11.Coords) : BitVec 32 :=
  let arg1 : BitVec 32 := BitVec.ofNat 32 (i 1).val
  let c1024_i32 : BitVec 32 := 1024#32
  let v6 : BitVec 32 := Scalar.muli arg1 c1024_i32
  v6
def k11_off1 (i : grid11.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k11_cond2 (i : grid11.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S12288x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, false]

abbrev stage11_2 : Fin 1 → Memref sig .tc .vmem S256x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, false]

abbrev stage11_4 : Fin 2 → Memref sig .tc .vmem S1024x256 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, false]

abbrev grid12 : Pipeline.Grid := ⟨2, ![12, 12], ![false, false]⟩

def k12_mult1 (i : grid12.Coords) : BitVec 32 :=
  let arg1 : BitVec 32 := BitVec.ofNat 32 (i 1).val
  let c1024_i32 : BitVec 32 := 1024#32
  let v6 : BitVec 32 := Scalar.muli arg1 c1024_i32
  v6
def k12_off1 (i : grid12.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k12_cond2 (i : grid12.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 1 → Memref sig .tc .vmem S12288x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, false]

abbrev stage12_2 : Fin 1 → Memref sig .tc .vmem S256x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false, false]

abbrev stage12_3 : Fin 1 → Memref sig .tc .vmem S1x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false, false]

abbrev stage12_4 : Fin 2 → Memref sig .tc .vmem S1024x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true, false]

abbrev stage12_5 : Fin 2 → Memref sig .tc .vmem S1024x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true, false]

abbrev stage12_6 : Fin 2 → Memref sig .tc .vmem S1024x256 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true, false]

abbrev grid13 : Pipeline.Grid := ⟨2, ![6, 12], ![false, false]⟩

def k13_mult1 (i : grid13.Coords) : BitVec 32 :=
  let arg1 : BitVec 32 := BitVec.ofNat 32 (i 1).val
  let c1024_i32 : BitVec 32 := 1024#32
  let v6 : BitVec 32 := Scalar.muli arg1 c1024_i32
  v6
def k13_off1 (i : grid13.Coords) : Fin 2 → Nat :=
  let arg1 : BitVec 32 := BitVec.ofNat 32 (i 1).val
  let c1024_i32 : BitVec 32 := 1024#32
  let v6 : BitVec 32 := Scalar.muli arg1 c1024_i32
  let v7 : BitVec 32 := v6
  let v8 : Index := Scalar.indexCast v7
  let c0_4 : Index := 0#32
  ![v8.toNat, 0]
def k13_cond2 (i : grid13.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_7 : BitVec 32 := 0#32
  let v19 : BitVec 1 := Scalar.cmpi .ne v18 c0_i32_7
  v19

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S1024x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 1 → Memref sig .tc .vmem S12288x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, false]

abbrev stage13_2 : Fin 2 → Memref sig .tc .vmem S1024x256 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, false]

class Facts₀ : Prop where
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S12288x3 : S_.BroadcastsInDim S12288x3 (![] : Fin 0 → Fin S12288x3.rank)
  bcast_S12288x3_S12288x3x1_0_1 : S12288x3.BroadcastsInDim S12288x3x1 (![0, 1] : Fin 2 → Fin S12288x3x1.rank)
  bcast_S12288x256_S12288x1x256_0_2 : S12288x256.BroadcastsInDim S12288x1x256 (![0, 2] : Fin 2 → Fin S12288x1x256.rank)
  bcast_S12288x1x256_S12288x3x256_0_1_2 : S12288x1x256.BroadcastsInDim S12288x3x256 (![0, 1, 2] : Fin 3 → Fin S12288x3x256.rank)
  reducesTo_S12288x3x256_S12288x256_d1 : S12288x3x256.ReducesTo [1] S12288x256
  h_S_ : 0 < S_.numel
  bcast_S_S12288x256 : S_.BroadcastsInDim S12288x256 (![] : Fin 0 → Fin S12288x256.rank)
  concatenates_S12288x256_S12288x256_S12288x512_d1 : Shape.Concatenates [S12288x256, S12288x256] S12288x512 1
  transposes_S256x512_S512x256_1_0 : S256x512.Transposes [1, 0] S512x256
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  concatenates_S6144x256_S6144x256_S6144x512_d1 : Shape.Concatenates [S6144x256, S6144x256] S6144x512 1
  bcast_S1x256_S6144x256_0_1 : S1x256.BroadcastsInDim S6144x256 (![0, 1] : Fin 2 → Fin S6144x256.rank)
  bcast_S_S6144x256 : S_.BroadcastsInDim S6144x256 (![] : Fin 0 → Fin S6144x256.rank)
  dot_S1024x1024_S1024x256_S1024x256_0_0_1_1_n_n_wf : DotDims.WF S1024x1024 S1024x256 S1024x256 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  gather_S6144x256_S12288x3x1_S12288x3x256_2_0_n_n_0_2_1256_wf : GatherDims.WF S6144x256 S12288x3x1 S12288x3x256 [2] [0] [] [0] [] 2 ![1, 256]
  dot_S12288x512_S512x256_S12288x256_1_0_0_1_n_n_wf : DotDims.WF S12288x512 S512x256 S12288x256 [1] [0] [0] [1] [] []
  dot_S6144x512_S512x256_S6144x256_1_0_0_1_n_n_wf : DotDims.WF S6144x512 S512x256 S6144x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S6144x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S6144x12288.size a
  hwx0_0 : ∀ i : grid0.Coords, EltTy.bits .bf16 = 32 ∨ (Rect.block (s := S6144x12288) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6144x256.size a ≤ S6144x256.size a
  hwx0_1 : ∀ i : grid0.Coords, EltTy.bits .f32 = 32 ∨ (Rect.block (s := S6144x256) S6144x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S12288x256.size a
  hwx0_2 : ∀ i : grid0.Coords, EltTy.bits .f32 = 32 ∨ (Rect.block (s := S12288x256) S1024x256.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S6144x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S6144x6144.size a
  hwx1_0 : ∀ i : grid1.Coords, EltTy.bits .bf16 = 32 ∨ (Rect.block (s := S6144x6144) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x256.size a ≤ S6144x256.size a
  hwx1_1 : ∀ i : grid1.Coords, EltTy.bits .f32 = 32 ∨ (Rect.block (s := S6144x256) S6144x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S6144x256.size a
  hwx1_4 : ∀ i : grid1.Coords, EltTy.bits .f32 = 32 ∨ (Rect.block (s := S6144x256) S1024x256.size (cc1_transform_4 i) (hinb1_4 i)).WholeWords (EltTy.packing .f32)
  hrank2 : 0 < grid2.rank
  k2_mult1_dvd : ∀ i : grid2.Coords, 1024 ∣ (k2_mult1 i).toNat
  k2_off1_inb : ∀ i : grid2.Coords, ∀ a, (k2_off1 i) a + S1024x256.size a ≤ S6144x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S6144x6144.size a
  hwx2_0 : ∀ i : grid2.Coords, EltTy.bits .bf16 = 32 ∨ (Rect.block (s := S6144x6144) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6144x256.size a ≤ S6144x256.size a
  hwx2_1 : ∀ i : grid2.Coords, EltTy.bits .f32 = 32 ∨ (Rect.block (s := S6144x256) S6144x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S6144x256.size a
  hwx2_4 : ∀ i : grid2.Coords, EltTy.bits .f32 = 32 ∨ (Rect.block (s := S6144x256) S1024x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S6144x256.size a
  hwx2_5 : ∀ i : grid2.Coords, EltTy.bits .f32 = 32 ∨ (Rect.block (s := S6144x256) S1024x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x256.size a ≤ S6144x256.size a
  hwx2_6 : ∀ i : grid2.Coords, EltTy.bits .f32 = 32 ∨ (Rect.block (s := S6144x256) S1024x256.size (cc2_transform_6 i) (hinb2_6 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x256.size a ≤ S6144x256.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S6144x6144.size a
  hwx3_0 : ∀ i : grid3.Coords, EltTy.bits .bf16 = 32 ∨ (Rect.block (s := S6144x6144) S1024x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6144x256.size a ≤ S6144x256.size a
  hwx3_1 : ∀ i : grid3.Coords, EltTy.bits .f32 = 32 ∨ (Rect.block (s := S6144x256) S6144x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S6144x256.size a
  hwx3_4 : ∀ i : grid3.Coords, EltTy.bits .f32 = 32 ∨ (Rect.block (s := S6144x256) S1024x256.size (cc3_transform_4 i) (hinb3_4 i)).WholeWords (EltTy.packing .f32)
  hrank4 : 0 < grid4.rank
  k4_mult1_dvd : ∀ i : grid4.Coords, 1024 ∣ (k4_mult1 i).toNat
  k4_off1_inb : ∀ i : grid4.Coords, ∀ a, (k4_off1 i) a + S1024x256.size a ≤ S6144x256.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S6144x6144.size a
  hwx4_0 : ∀ i : grid4.Coords, EltTy.bits .bf16 = 32 ∨ (Rect.block (s := S6144x6144) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S6144x256.size a ≤ S6144x256.size a
  hwx4_1 : ∀ i : grid4.Coords, EltTy.bits .f32 = 32 ∨ (Rect.block (s := S6144x256) S6144x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S6144x256.size a
  hwx4_4 : ∀ i : grid4.Coords, EltTy.bits .f32 = 32 ∨ (Rect.block (s := S6144x256) S1024x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x256.size a ≤ S6144x256.size a
  hwx4_5 : ∀ i : grid4.Coords, EltTy.bits .f32 = 32 ∨ (Rect.block (s := S6144x256) S1024x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x256.size a ≤ S6144x256.size a
  hwx4_6 : ∀ i : grid4.Coords, EltTy.bits .f32 = 32 ∨ (Rect.block (s := S6144x256) S1024x256.size (cc4_transform_6 i) (hinb4_6 i)).WholeWords (EltTy.packing .f32)
  hrank5 : 0 < grid5.rank
  k5_mult1_dvd : ∀ i : grid5.Coords, 1024 ∣ (k5_mult1 i).toNat
  k5_off1_inb : ∀ i : grid5.Coords, ∀ a, (k5_off1 i) a + S1024x256.size a ≤ S6144x256.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S6144x6144.size a
  hwx5_0 : ∀ i : grid5.Coords, EltTy.bits .bf16 = 32 ∨ (Rect.block (s := S6144x6144) S1024x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S6144x256.size a ≤ S6144x256.size a
  hwx5_1 : ∀ i : grid5.Coords, EltTy.bits .f32 = 32 ∨ (Rect.block (s := S6144x256) S6144x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x256.size a ≤ S6144x256.size a
  hwx5_4 : ∀ i : grid5.Coords, EltTy.bits .f32 = 32 ∨ (Rect.block (s := S6144x256) S1024x256.size (cc5_transform_4 i) (hinb5_4 i)).WholeWords (EltTy.packing .f32)
  hrank6 : 0 < grid6.rank
  k6_mult1_dvd : ∀ i : grid6.Coords, 1024 ∣ (k6_mult1 i).toNat
  k6_off1_inb : ∀ i : grid6.Coords, ∀ a, (k6_off1 i) a + S1024x256.size a ≤ S6144x256.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S6144x6144.size a
  hwx6_0 : ∀ i : grid6.Coords, EltTy.bits .bf16 = 32 ∨ (Rect.block (s := S6144x6144) S1024x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S6144x256.size a ≤ S6144x256.size a
  hwx6_1 : ∀ i : grid6.Coords, EltTy.bits .f32 = 32 ∨ (Rect.block (s := S6144x256) S6144x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x256.size a ≤ S6144x256.size a
  hwx6_4 : ∀ i : grid6.Coords, EltTy.bits .f32 = 32 ∨ (Rect.block (s := S6144x256) S1024x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x256.size a ≤ S6144x256.size a
  hwx6_5 : ∀ i : grid6.Coords, EltTy.bits .f32 = 32 ∨ (Rect.block (s := S6144x256) S1024x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1024x256.size a ≤ S6144x256.size a
  hwx6_6 : ∀ i : grid6.Coords, EltTy.bits .f32 = 32 ∨ (Rect.block (s := S6144x256) S1024x256.size (cc6_transform_6 i) (hinb6_6 i)).WholeWords (EltTy.packing .f32)
  hrank7 : 0 < grid7.rank
  k7_mult1_dvd : ∀ i : grid7.Coords, 1024 ∣ (k7_mult1 i).toNat
  k7_off1_inb : ∀ i : grid7.Coords, ∀ a, (k7_off1 i) a + S1024x256.size a ≤ S12288x256.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S12288x12288.size a
  hwx7_0 : ∀ i : grid7.Coords, EltTy.bits .bf16 = 32 ∨ (Rect.block (s := S12288x12288) S1024x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S12288x256.size a ≤ S12288x256.size a
  hwx7_1 : ∀ i : grid7.Coords, EltTy.bits .f32 = 32 ∨ (Rect.block (s := S12288x256) S12288x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x256.size a ≤ S12288x256.size a
  hwx7_4 : ∀ i : grid7.Coords, EltTy.bits .f32 = 32 ∨ (Rect.block (s := S12288x256) S1024x256.size (cc7_transform_4 i) (hinb7_4 i)).WholeWords (EltTy.packing .f32)
  hrank8 : 0 < grid8.rank
  k8_mult1_dvd : ∀ i : grid8.Coords, 1024 ∣ (k8_mult1 i).toNat
  k8_off1_inb : ∀ i : grid8.Coords, ∀ a, (k8_off1 i) a + S1024x256.size a ≤ S12288x256.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S12288x12288.size a
  hwx8_0 : ∀ i : grid8.Coords, EltTy.bits .bf16 = 32 ∨ (Rect.block (s := S12288x12288) S1024x1024.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S12288x256.size a ≤ S12288x256.size a
  hwx8_1 : ∀ i : grid8.Coords, EltTy.bits .f32 = 32 ∨ (Rect.block (s := S12288x256) S12288x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1024x256.size a ≤ S12288x256.size a
  hwx8_4 : ∀ i : grid8.Coords, EltTy.bits .f32 = 32 ∨ (Rect.block (s := S12288x256) S1024x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x256.size a ≤ S12288x256.size a
  hwx8_5 : ∀ i : grid8.Coords, EltTy.bits .f32 = 32 ∨ (Rect.block (s := S12288x256) S1024x256.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1024x256.size a ≤ S12288x256.size a
  hwx8_6 : ∀ i : grid8.Coords, EltTy.bits .f32 = 32 ∨ (Rect.block (s := S12288x256) S1024x256.size (cc8_transform_6 i) (hinb8_6 i)).WholeWords (EltTy.packing .f32)
  hrank9 : 0 < grid9.rank
  k9_mult1_dvd : ∀ i : grid9.Coords, 1024 ∣ (k9_mult1 i).toNat
  k9_off1_inb : ∀ i : grid9.Coords, ∀ a, (k9_off1 i) a + S1024x256.size a ≤ S12288x256.size a
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x1024.size a ≤ S12288x12288.size a
  hwx9_0 : ∀ i : grid9.Coords, EltTy.bits .bf16 = 32 ∨ (Rect.block (s := S12288x12288) S1024x1024.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S12288x256.size a ≤ S12288x256.size a
  hwx9_1 : ∀ i : grid9.Coords, EltTy.bits .f32 = 32 ∨ (Rect.block (s := S12288x256) S12288x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x256.size a ≤ S1x256.size a
  hwx9_3 : ∀ i : grid9.Coords, EltTy.bits .f32 = 32 ∨ (Rect.block (s := S1x256) S1x256.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1024x256.size a ≤ S12288x256.size a
  hwx9_4 : ∀ i : grid9.Coords, EltTy.bits .f32 = 32 ∨ (Rect.block (s := S12288x256) S1024x256.size (cc9_transform_4 i) (hinb9_4 i)).WholeWords (EltTy.packing .f32)
  hrank10 : 0 < grid10.rank
  k10_mult1_dvd : ∀ i : grid10.Coords, 1024 ∣ (k10_mult1 i).toNat
  k10_off1_inb : ∀ i : grid10.Coords, ∀ a, (k10_off1 i) a + S1024x256.size a ≤ S12288x256.size a
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x1024.size a ≤ S12288x12288.size a
  hwx10_0 : ∀ i : grid10.Coords, EltTy.bits .bf16 = 32 ∨ (Rect.block (s := S12288x12288) S1024x1024.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S12288x256.size a ≤ S12288x256.size a
  hwx10_1 : ∀ i : grid10.Coords, EltTy.bits .f32 = 32 ∨ (Rect.block (s := S12288x256) S12288x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x256.size a ≤ S256x256.size a
  hwx10_2 : ∀ i : grid10.Coords, EltTy.bits .f32 = 32 ∨ (Rect.block (s := S256x256) S256x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1024x256.size a ≤ S12288x256.size a
  hwx10_4 : ∀ i : grid10.Coords, EltTy.bits .f32 = 32 ∨ (Rect.block (s := S12288x256) S1024x256.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S1024x256.size a ≤ S12288x256.size a
  hwx10_5 : ∀ i : grid10.Coords, EltTy.bits .f32 = 32 ∨ (Rect.block (s := S12288x256) S1024x256.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S1024x256.size a ≤ S12288x256.size a
  hwx10_6 : ∀ i : grid10.Coords, EltTy.bits .f32 = 32 ∨ (Rect.block (s := S12288x256) S1024x256.size (cc10_transform_6 i) (hinb10_6 i)).WholeWords (EltTy.packing .f32)
  hrank11 : 0 < grid11.rank
  k11_mult1_dvd : ∀ i : grid11.Coords, 1024 ∣ (k11_mult1 i).toNat
  k11_off1_inb : ∀ i : grid11.Coords, ∀ a, (k11_off1 i) a + S1024x256.size a ≤ S12288x256.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x1024.size a ≤ S12288x12288.size a
  hwx11_0 : ∀ i : grid11.Coords, EltTy.bits .bf16 = 32 ∨ (Rect.block (s := S12288x12288) S1024x1024.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S12288x256.size a ≤ S12288x256.size a
  hwx11_1 : ∀ i : grid11.Coords, EltTy.bits .f32 = 32 ∨ (Rect.block (s := S12288x256) S12288x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S256x256.size a ≤ S256x256.size a
  hwx11_2 : ∀ i : grid11.Coords, EltTy.bits .f32 = 32 ∨ (Rect.block (s := S256x256) S256x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1024x256.size a ≤ S12288x256.size a
  hwx11_4 : ∀ i : grid11.Coords, EltTy.bits .f32 = 32 ∨ (Rect.block (s := S12288x256) S1024x256.size (cc11_transform_4 i) (hinb11_4 i)).WholeWords (EltTy.packing .f32)
  hrank12 : 0 < grid12.rank
  k12_mult1_dvd : ∀ i : grid12.Coords, 1024 ∣ (k12_mult1 i).toNat
  k12_off1_inb : ∀ i : grid12.Coords, ∀ a, (k12_off1 i) a + S1024x256.size a ≤ S12288x256.size a
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x1024.size a ≤ S12288x12288.size a
  hwx12_0 : ∀ i : grid12.Coords, EltTy.bits .bf16 = 32 ∨ (Rect.block (s := S12288x12288) S1024x1024.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S12288x256.size a ≤ S12288x256.size a
  hwx12_1 : ∀ i : grid12.Coords, EltTy.bits .f32 = 32 ∨ (Rect.block (s := S12288x256) S12288x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x256.size a ≤ S256x256.size a
  hwx12_2 : ∀ i : grid12.Coords, EltTy.bits .f32 = 32 ∨ (Rect.block (s := S256x256) S256x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x256.size a ≤ S1x256.size a
  hwx12_3 : ∀ i : grid12.Coords, EltTy.bits .f32 = 32 ∨ (Rect.block (s := S1x256) S1x256.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1024x256.size a ≤ S12288x256.size a
  hwx12_4 : ∀ i : grid12.Coords, EltTy.bits .f32 = 32 ∨ (Rect.block (s := S12288x256) S1024x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S1024x256.size a ≤ S12288x256.size a
  hwx12_5 : ∀ i : grid12.Coords, EltTy.bits .f32 = 32 ∨ (Rect.block (s := S12288x256) S1024x256.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S1024x256.size a ≤ S12288x256.size a
  hwx12_6 : ∀ i : grid12.Coords, EltTy.bits .f32 = 32 ∨ (Rect.block (s := S12288x256) S1024x256.size (cc12_transform_6 i) (hinb12_6 i)).WholeWords (EltTy.packing .f32)
  hrank13 : 0 < grid13.rank
  k13_mult1_dvd : ∀ i : grid13.Coords, 1024 ∣ (k13_mult1 i).toNat
  k13_off1_inb : ∀ i : grid13.Coords, ∀ a, (k13_off1 i) a + S1024x256.size a ≤ S12288x256.size a
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x1024.size a ≤ S6144x12288.size a
  hwx13_0 : ∀ i : grid13.Coords, EltTy.bits .bf16 = 32 ∨ (Rect.block (s := S6144x12288) S1024x1024.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S12288x256.size a ≤ S12288x256.size a
  hwx13_1 : ∀ i : grid13.Coords, EltTy.bits .f32 = 32 ∨ (Rect.block (s := S12288x256) S12288x256.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x256.size a ≤ S6144x256.size a
  hwx13_2 : ∀ i : grid13.Coords, EltTy.bits .f32 = 32 ∨ (Rect.block (s := S6144x256) S1024x256.size (cc13_transform_2 i) (hinb13_2 i)).WholeWords (EltTy.packing .f32)

variable [Facts₀]

def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def gather_S6144x256_S12288x3x1_S12288x3x256_2_0_n_n_0_2_1256 : GatherDims S6144x256 S12288x3x1 S12288x3x256 where
  offsetDims := [2]
  collapsedSliceDims := [0]
  operandBatchingDims := []
  startIndicesBatchingDims := []
  startIndexMap := [0]
  indexVectorDim := 2
  sliceSizes := ![1, 256]
  wf := gather_S6144x256_S12288x3x1_S12288x3x256_2_0_n_n_0_2_1256_wf
def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def dot_S6144x512_S512x256_S6144x256_1_0_0_1_n_n : DotDims S6144x512 S512x256 S6144x256 where
  lhsContracting := [1]
  rhsContracting := [0]
  lhsNonContracting := [0]
  rhsNonContracting := [1]
  lhsBatch := []
  rhsBatch := []
  wf := dot_S6144x512_S512x256_S6144x256_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S6144x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S6144x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S6144x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1024x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S1024x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1024x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S6144x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1024x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S6144x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v21) S1024x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v15) S1024x256.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v27) S1024x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v0) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S6144x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v33) S1024x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v0) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33) S6144x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v35) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v38) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v33) S1024x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v27) S1024x256.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v39) S1024x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun _ => false | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v1) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v3) S12288x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v41) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v44) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v45) S1024x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v1) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v45) S12288x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v47) S256x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v50) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v45) S1024x256.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v3) S1024x256.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v51) S1024x256.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun _ => false | 6 => fun i => !(k8_cond2 i == 1#1) | ⟨_ + 7, h⟩ => absurd h (Nat.not_lt.2 (Nat.le_add_left _ _))

abbrev win9_0 : Pipeline.Window sig grid9 :=
  Pipeline.Window.ofSpec (Memref.whole main_v1) S1024x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v51) S12288x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v53) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v56) S1x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v57) S1024x256.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun _ => false | 4 => fun i => !(k9_cond2 i == 1#1) | ⟨_ + 5, h⟩ => absurd h (Nat.not_lt.2 (Nat.le_add_left _ _))

abbrev win10_0 : Pipeline.Window sig grid10 :=
  Pipeline.Window.ofSpec (Memref.whole main_v1) S1024x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v57) S12288x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v59) S256x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v62) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v57) S1024x256.size cc10_transform_4 reads10_4 false false 2 stage10_4 sem10_4
    hrank10 hreads10_4 hinb10_4 nbuf10_4 (Memref.isWhole_whole _) hwx10_4 hstage10_4

abbrev win10_5 : Pipeline.Window sig grid10 :=
  Pipeline.Window.ofSpec (Memref.whole main_v51) S1024x256.size cc10_transform_5 reads10_5 false false 2 stage10_5 sem10_5
    hrank10 hreads10_5 hinb10_5 nbuf10_5 (Memref.isWhole_whole _) hwx10_5 hstage10_5

abbrev win10_6 : Pipeline.Window sig grid10 :=
  Pipeline.Window.ofSpec (Memref.whole main_v63) S1024x256.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev idle10 : Fin 7 → grid10.Coords → Bool := fun | 0 => fun _ => false | 1 => fun _ => false | 2 => fun _ => false | 3 => fun _ => false | 4 => fun _ => false | 5 => fun _ => false | 6 => fun i => !(k10_cond2 i == 1#1) | ⟨_ + 7, h⟩ => absurd h (Nat.not_lt.2 (Nat.le_add_left _ _))

abbrev win11_0 : Pipeline.Window sig grid11 :=
  Pipeline.Window.ofSpec (Memref.whole main_v1) S1024x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v63) S12288x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v65) S256x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v68) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v69) S1024x256.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev idle11 : Fin 5 → grid11.Coords → Bool := fun | 0 => fun _ => false | 1 => fun _ => false | 2 => fun _ => false | 3 => fun _ => false | 4 => fun i => !(k11_cond2 i == 1#1) | ⟨_ + 5, h⟩ => absurd h (Nat.not_lt.2 (Nat.le_add_left _ _))

abbrev win12_0 : Pipeline.Window sig grid12 :=
  Pipeline.Window.ofSpec (Memref.whole main_v1) S1024x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v69) S12288x256.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v71) S256x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v74) S1x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v69) S1024x256.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v63) S1024x256.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v75) S1024x256.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev idle12 : Fin 7 → grid12.Coords → Bool := fun | 0 => fun _ => false | 1 => fun _ => false | 2 => fun _ => false | 3 => fun _ => false | 4 => fun _ => false | 5 => fun _ => false | 6 => fun i => !(k12_cond2 i == 1#1) | ⟨_ + 7, h⟩ => absurd h (Nat.not_lt.2 (Nat.le_add_left _ _))

abbrev win13_0 : Pipeline.Window sig grid13 :=
  Pipeline.Window.ofSpec (Memref.whole main_v2) S1024x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v89) S12288x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v97) S1024x256.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

class Facts : Prop extends Facts₀ where

variable [Facts]
-- ==== ReferenceIdeal.lean ====
abbrev S6144x256 : Shape := ⟨2, ![6144, 256]⟩
abbrev S6144x6144 : Shape := ⟨2, ![6144, 6144]⟩
abbrev S12288x12288 : Shape := ⟨2, ![12288, 12288]⟩
abbrev S6144x12288 : Shape := ⟨2, ![6144, 12288]⟩
abbrev S12288x3 : Shape := ⟨2, ![12288, 3]⟩
abbrev S3x256x256 : Shape := ⟨3, ![3, 256, 256]⟩
abbrev S3x256 : Shape := ⟨2, ![3, 256]⟩
abbrev S256x512 : Shape := ⟨2, ![256, 512]⟩
abbrev S256 : Shape := ⟨1, ![256]⟩
abbrev S12288x6144 : Shape := ⟨2, ![12288, 6144]⟩
abbrev S12288x256 : Shape := ⟨2, ![12288, 256]⟩
abbrev S_ : Shape := ⟨0, ![]⟩
abbrev S1x256x256 : Shape := ⟨3, ![1, 256, 256]⟩
abbrev S256x256 : Shape := ⟨2, ![256, 256]⟩
abbrev S1x256 : Shape := ⟨2, ![1, 256]⟩
abbrev S12288x3x1 : Shape := ⟨3, ![12288, 3, 1]⟩
abbrev S12288x3x256 : Shape := ⟨3, ![12288, 3, 256]⟩
abbrev S12288x1x256 : Shape := ⟨3, ![12288, 1, 256]⟩
abbrev S12288x512 : Shape := ⟨2, ![12288, 512]⟩
abbrev S512x256 : Shape := ⟨2, ![512, 256]⟩
abbrev S6144x512 : Shape := ⟨2, ![6144, 512]⟩

abbrev nBuf : Space → Nat
  | .hbm => 211
  | .vmem => 0
  | .smem => 0
  | _ => 0

abbrev hbmTy0_0 (i : Nat) : BufTy := match i % 128 with
  | 0 => ⟨S6144x256, .f32⟩
  | 1 => ⟨S6144x6144, .f32⟩
  | 2 => ⟨S12288x12288, .f32⟩
  | 3 => ⟨S6144x12288, .f32⟩
  | 4 => ⟨S12288x3, .i32⟩
  | 5 => ⟨S3x256x256, .f32⟩
  | 6 => ⟨S3x256, .f32⟩
  | 7 => ⟨S3x256x256, .f32⟩
  | 8 => ⟨S3x256, .f32⟩
  | 9 => ⟨S3x256x256, .f32⟩
  | 10 => ⟨S3x256, .f32⟩
  | 11 => ⟨S3x256x256, .f32⟩
  | 12 => ⟨S3x256, .f32⟩
  | 13 => ⟨S256x512, .f32⟩
  | 14 => ⟨S256, .f32⟩
  | 15 => ⟨S256x512, .f32⟩
  | 16 => ⟨S256, .f32⟩
  | 17 => ⟨S12288x6144, .f32⟩
  | 18 => ⟨S12288x256, .f32⟩
  | 19 => ⟨S_, .f32⟩
  | 20 => ⟨S12288x256, .f32⟩
  | 21 => ⟨S12288x256, .f32⟩
  | 22 => ⟨S1x256x256, .f32⟩
  | 23 => ⟨S256x256, .f32⟩
  | 24 => ⟨S1x256, .f32⟩
  | 25 => ⟨S256, .f32⟩
  | 26 => ⟨S1x256x256, .f32⟩
  | 27 => ⟨S256x256, .f32⟩
  | 28 => ⟨S1x256, .f32⟩
  | 29 => ⟨S256, .f32⟩
  | 30 => ⟨S6144x256, .f32⟩
  | 31 => ⟨S256x256, .f32⟩
  | 32 => ⟨S6144x256, .f32⟩
  | 33 => ⟨S1x256, .f32⟩
  | 34 => ⟨S6144x256, .f32⟩
  | 35 => ⟨S6144x256, .f32⟩
  | 36 => ⟨S6144x256, .f32⟩
  | 37 => ⟨S256x256, .f32⟩
  | 38 => ⟨S6144x256, .f32⟩
  | 39 => ⟨S1x256, .f32⟩
  | 40 => ⟨S6144x256, .f32⟩
  | 41 => ⟨S6144x256, .f32⟩
  | 42 => ⟨S6144x256, .f32⟩
  | 43 => ⟨S_, .f32⟩
  | 44 => ⟨S6144x256, .f32⟩
  | 45 => ⟨S6144x256, .f32⟩
  | 46 => ⟨S6144x256, .f32⟩
  | 47 => ⟨S1x256x256, .f32⟩
  | 48 => ⟨S256x256, .f32⟩
  | 49 => ⟨S1x256, .f32⟩
  | 50 => ⟨S256, .f32⟩
  | 51 => ⟨S1x256x256, .f32⟩
  | 52 => ⟨S256x256, .f32⟩
  | 53 => ⟨S1x256, .f32⟩
  | 54 => ⟨S256, .f32⟩
  | 55 => ⟨S6144x256, .f32⟩
  | 56 => ⟨S256x256, .f32⟩
  | 57 => ⟨S6144x256, .f32⟩
  | 58 => ⟨S1x256, .f32⟩
  | 59 => ⟨S6144x256, .f32⟩
  | 60 => ⟨S6144x256, .f32⟩
  | 61 => ⟨S6144x256, .f32⟩
  | 62 => ⟨S256x256, .f32⟩
  | 63 => ⟨S6144x256, .f32⟩
  | 64 => ⟨S1x256, .f32⟩
  | 65 => ⟨S6144x256, .f32⟩
  | 66 => ⟨S6144x256, .f32⟩
  | 67 => ⟨S6144x256, .f32⟩
  | 68 => ⟨S_, .f32⟩
  | 69 => ⟨S6144x256, .f32⟩
  | 70 => ⟨S6144x256, .f32⟩
  | 71 => ⟨S6144x256, .f32⟩
  | 72 => ⟨S1x256x256, .f32⟩
  | 73 => ⟨S256x256, .f32⟩
  | 74 => ⟨S1x256, .f32⟩
  | 75 => ⟨S256, .f32⟩
  | 76 => ⟨S1x256x256, .f32⟩
  | 77 => ⟨S256x256, .f32⟩
  | 78 => ⟨S1x256, .f32⟩
  | 79 => ⟨S256, .f32⟩
  | 80 => ⟨S6144x256, .f32⟩
  | 81 => ⟨S256x256, .f32⟩
  | 82 => ⟨S6144x256, .f32⟩
  | 83 => ⟨S1x256, .f32⟩
  | 84 => ⟨S6144x256, .f32⟩
  | 85 => ⟨S6144x256, .f32⟩
  | 86 => ⟨S6144x256, .f32⟩
  | 87 => ⟨S256x256, .f32⟩
  | 88 => ⟨S6144x256, .f32⟩
  | 89 => ⟨S1x256, .f32⟩
  | 90 => ⟨S6144x256, .f32⟩
  | 91 => ⟨S6144x256, .f32⟩
  | 92 => ⟨S6144x256, .f32⟩
  | 93 => ⟨S_, .f32⟩
  | 94 => ⟨S6144x256, .f32⟩
  | 95 => ⟨S6144x256, .f32⟩
  | 96 => ⟨S6144x256, .f32⟩
  | 97 => ⟨S1x256x256, .f32⟩
  | 98 => ⟨S256x256, .f32⟩
  | 99 => ⟨S1x256, .f32⟩
  | 100 => ⟨S256, .f32⟩
  | 101 => ⟨S1x256x256, .f32⟩
  | 102 => ⟨S256x256, .f32⟩
  | 103 => ⟨S1x256, .f32⟩
  | 104 => ⟨S256, .f32⟩
  | 105 => ⟨S12288x256, .f32⟩
  | 106 => ⟨S256x256, .f32⟩
  | 107 => ⟨S12288x256, .f32⟩
  | 108 => ⟨S1x256, .f32⟩
  | 109 => ⟨S12288x256, .f32⟩
  | 110 => ⟨S12288x256, .f32⟩
  | 111 => ⟨S12288x256, .f32⟩
  | 112 => ⟨S256x256, .f32⟩
  | 113 => ⟨S12288x256, .f32⟩
  | 114 => ⟨S1x256, .f32⟩
  | 115 => ⟨S12288x256, .f32⟩
  | 116 => ⟨S12288x256, .f32⟩
  | 117 => ⟨S12288x256, .f32⟩
  | 118 => ⟨S_, .f32⟩
  | 119 => ⟨S12288x256, .f32⟩
  | 120 => ⟨S12288x256, .f32⟩
  | 121 => ⟨S12288x256, .f32⟩
  | 122 => ⟨S1x256x256, .f32⟩
  | 123 => ⟨S256x256, .f32⟩
  | 124 => ⟨S1x256, .f32⟩
  | 125 => ⟨S256, .f32⟩
  | 126 => ⟨S1x256x256, .f32⟩
  | 127 => ⟨S256x256, .f32⟩
  | _ => ⟨S6144x256, .f32⟩

abbrev hbmTy0_1 (i : Nat) : BufTy := match i % 128 with
  | 0 => ⟨S1x256, .f32⟩
  | 1 => ⟨S256, .f32⟩
  | 2 => ⟨S12288x256, .f32⟩
  | 3 => ⟨S256x256, .f32⟩
  | 4 => ⟨S12288x256, .f32⟩
  | 5 => ⟨S1x256, .f32⟩
  | 6 => ⟨S12288x256, .f32⟩
  | 7 => ⟨S12288x256, .f32⟩
  | 8 => ⟨S12288x256, .f32⟩
  | 9 => ⟨S256x256, .f32⟩
  | 10 => ⟨S12288x256, .f32⟩
  | 11 => ⟨S1x256, .f32⟩
  | 12 => ⟨S12288x256, .f32⟩
  | 13 => ⟨S12288x256, .f32⟩
  | 14 => ⟨S12288x256, .f32⟩
  | 15 => ⟨S_, .f32⟩
  | 16 => ⟨S12288x256, .f32⟩
  | 17 => ⟨S12288x256, .f32⟩
  | 18 => ⟨S12288x256, .f32⟩
  | 19 => ⟨S1x256x256, .f32⟩
  | 20 => ⟨S256x256, .f32⟩
  | 21 => ⟨S1x256, .f32⟩
  | 22 => ⟨S256, .f32⟩
  | 23 => ⟨S1x256x256, .f32⟩
  | 24 => ⟨S256x256, .f32⟩
  | 25 => ⟨S1x256, .f32⟩
  | 26 => ⟨S256, .f32⟩
  | 27 => ⟨S12288x256, .f32⟩
  | 28 => ⟨S256x256, .f32⟩
  | 29 => ⟨S12288x256, .f32⟩
  | 30 => ⟨S1x256, .f32⟩
  | 31 => ⟨S12288x256, .f32⟩
  | 32 => ⟨S12288x256, .f32⟩
  | 33 => ⟨S12288x256, .f32⟩
  | 34 => ⟨S256x256, .f32⟩
  | 35 => ⟨S12288x256, .f32⟩
  | 36 => ⟨S1x256, .f32⟩
  | 37 => ⟨S12288x256, .f32⟩
  | 38 => ⟨S12288x256, .f32⟩
  | 39 => ⟨S12288x256, .f32⟩
  | 40 => ⟨S_, .f32⟩
  | 41 => ⟨S12288x256, .f32⟩
  | 42 => ⟨S12288x256, .f32⟩
  | 43 => ⟨S12288x256, .f32⟩
  | 44 => ⟨S_, .i32⟩
  | 45 => ⟨S12288x3, .i32⟩
  | 46 => ⟨S12288x3, .i1⟩
  | 47 => ⟨S_, .i32⟩
  | 48 => ⟨S12288x3, .i32⟩
  | 49 => ⟨S12288x3, .i32⟩
  | 50 => ⟨S12288x3, .i32⟩
  | 51 => ⟨S12288x3x1, .i32⟩
  | 52 => ⟨S12288x3x256, .f32⟩
  | 53 => ⟨S12288x1x256, .f32⟩
  | 54 => ⟨S12288x3x256, .f32⟩
  | 55 => ⟨S12288x3x256, .f32⟩
  | 56 => ⟨S12288x3x256, .f32⟩
  | 57 => ⟨S_, .f32⟩
  | 58 => ⟨S12288x256, .f32⟩
  | 59 => ⟨S_, .f32⟩
  | 60 => ⟨S12288x256, .f32⟩
  | 61 => ⟨S12288x256, .f32⟩
  | 62 => ⟨S12288x512, .f32⟩
  | 63 => ⟨S512x256, .f32⟩
  | 64 => ⟨S12288x256, .f32⟩
  | 65 => ⟨S1x256, .f32⟩
  | 66 => ⟨S12288x256, .f32⟩
  | 67 => ⟨S12288x256, .f32⟩
  | 68 => ⟨S_, .f32⟩
  | 69 => ⟨S12288x256, .f32⟩
  | 70 => ⟨S12288x256, .f32⟩
  | 71 => ⟨S6144x256, .f32⟩
  | 72 => ⟨S6144x512, .f32⟩
  | 73 => ⟨S512x256, .f32⟩
  | 74 => ⟨S6144x256, .f32⟩
  | 75 => ⟨S1x256, .f32⟩
  | 76 => ⟨S6144x256, .f32⟩
  | 77 => ⟨S6144x256, .f32⟩
  | 78 => ⟨S_, .f32⟩
  | 79 => ⟨S6144x256, .f32⟩
  | 80 => ⟨S6144x256, .f32⟩
  | 81 => ⟨S6144x256, .f32⟩
  | 82 => ⟨S12288x256, .f32⟩
  | _ => ⟨S6144x256, .f32⟩

abbrev hbmTy (i : Nat) : BufTy := match i / 128 with
  | 0 => hbmTy0_0 i
  | 1 => hbmTy0_1 i
  | _ => ⟨S6144x256, .f32⟩

abbrev bufTy : (tb : Table) → Fin (tcTables nBuf tb) → BufTy
  | .hbm, ⟨i, _⟩ => hbmTy i
  | _, _ => ⟨S6144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call2_cst : Ref sig .tc := ⟨.hbm, 93, rfl⟩
abbrev main_call2_v0 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_call3_cst : Ref sig .tc := ⟨.hbm, 118, rfl⟩
abbrev main_call3_v0 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_call4_cst : Ref sig .tc := ⟨.hbm, 143, rfl⟩
abbrev main_call4_v0 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_call5_cst : Ref sig .tc := ⟨.hbm, 168, rfl⟩
abbrev main_call5_v0 : Ref sig .tc := ⟨.hbm, 169, rfl⟩
abbrev main_v140 : Ref sig .tc := ⟨.hbm, 170, rfl⟩
abbrev main_v141 : Ref sig .tc := ⟨.hbm, 171, rfl⟩
abbrev main_c : Ref sig .tc := ⟨.hbm, 172, rfl⟩
abbrev main_v142 : Ref sig .tc := ⟨.hbm, 173, rfl⟩
abbrev main_v143 : Ref sig .tc := ⟨.hbm, 174, rfl⟩
abbrev main_c_0 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_1 : Ref sig .tc := ⟨.hbm, 185, rfl⟩
abbrev main_v153 : Ref sig .tc := ⟨.hbm, 186, rfl⟩
abbrev main_cst_2 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_call6_cst : Ref sig .tc := ⟨.hbm, 196, rfl⟩
abbrev main_call6_v0 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_call7_cst : Ref sig .tc := ⟨.hbm, 206, rfl⟩
abbrev main_call7_v0 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩

abbrev nD : Nat := 1
abbrev τ : Topo := Topo.v7x

variable {F : FTy → Type} [FloatOps F]

class Facts₀ : Prop where
  transposes_S6144x12288_S12288x6144_1_0 : S6144x12288.Transposes [1, 0] S12288x6144
  bcast_S_S12288x256 : S_.BroadcastsInDim S12288x256 (![] : Fin 0 → Fin S12288x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  transposes_S256x256_S256x256_1_0 : S256x256.Transposes [1, 0] S256x256
  bcast_S256_S1x256_1 : S256.BroadcastsInDim S1x256 (![1] : Fin 1 → Fin S1x256.rank)
  bcast_S1x256_S6144x256_0_1 : S1x256.BroadcastsInDim S6144x256 (![0, 1] : Fin 2 → Fin S6144x256.rank)
  bcast_S_S6144x256 : S_.BroadcastsInDim S6144x256 (![] : Fin 0 → Fin S6144x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S1x256_S12288x256_0_1 : S1x256.BroadcastsInDim S12288x256 (![0, 1] : Fin 2 → Fin S12288x256.rank)
  bcast_S_S12288x3 : S_.BroadcastsInDim S12288x3 (![] : Fin 0 → Fin S12288x3.rank)
  bcast_S12288x3_S12288x3x1_0_1 : S12288x3.BroadcastsInDim S12288x3x1 (![0, 1] : Fin 2 → Fin S12288x3x1.rank)
  bcast_S12288x256_S12288x1x256_0_2 : S12288x256.BroadcastsInDim S12288x1x256 (![0, 2] : Fin 2 → Fin S12288x1x256.rank)
  bcast_S12288x1x256_S12288x3x256_0_1_2 : S12288x1x256.BroadcastsInDim S12288x3x256 (![0, 1, 2] : Fin 3 → Fin S12288x3x256.rank)
  reducesTo_S12288x3x256_S12288x256_d1 : S12288x3x256.ReducesTo [1] S12288x256
  h_S_ : 0 < S_.numel
  concatenates_S12288x256_S12288x256_S12288x512_d1 : Shape.Concatenates [S12288x256, S12288x256] S12288x512 1
  transposes_S256x512_S512x256_1_0 : S256x512.Transposes [1, 0] S512x256
  concatenates_S6144x256_S6144x256_S6144x512_d1 : Shape.Concatenates [S6144x256, S6144x256] S6144x512 1
  dot_S12288x6144_S6144x256_S12288x256_1_0_0_1_n_n_wf : DotDims.WF S12288x6144 S6144x256 S12288x256 [1] [0] [0] [1] [] []
  dot_S6144x6144_S6144x256_S6144x256_1_0_0_1_n_n_wf : DotDims.WF S6144x6144 S6144x256 S6144x256 [1] [0] [0] [1] [] []
  dot_S6144x256_S256x256_S6144x256_1_0_0_1_n_n_wf : DotDims.WF S6144x256 S256x256 S6144x256 [1] [0] [0] [1] [] []
  dot_S12288x12288_S12288x256_S12288x256_1_0_0_1_n_n_wf : DotDims.WF S12288x12288 S12288x256 S12288x256 [1] [0] [0] [1] [] []
  dot_S12288x256_S256x256_S12288x256_1_0_0_1_n_n_wf : DotDims.WF S12288x256 S256x256 S12288x256 [1] [0] [0] [1] [] []
  gather_S6144x256_S12288x3x1_S12288x3x256_2_0_n_n_0_2_1256_wf : GatherDims.WF S6144x256 S12288x3x1 S12288x3x256 [2] [0] [] [0] [] 2 ![1, 256]
  dot_S12288x512_S512x256_S12288x256_1_0_0_1_n_n_wf : DotDims.WF S12288x512 S512x256 S12288x256 [1] [0] [0] [1] [] []
  dot_S6144x12288_S12288x256_S6144x256_1_0_0_1_n_n_wf : DotDims.WF S6144x12288 S12288x256 S6144x256 [1] [0] [0] [1] [] []
  dot_S6144x512_S512x256_S6144x256_1_0_0_1_n_n_wf : DotDims.WF S6144x512 S512x256 S6144x256 [1] [0] [0] [1] [] []

variable [Facts₀]

def dot_S12288x6144_S6144x256_S12288x256_1_0_0_1_n_n : DotDims S12288x6144 S6144x256 S12288x256 where
  lhsContracting := [1]
  rhsContracting := [0]
  lhsNonContracting := [0]
  rhsNonContracting := [1]
  lhsBatch := []
  rhsBatch := []
  wf := dot_S12288x6144_S6144x256_S12288x256_1_0_0_1_n_n_wf
def dot_S6144x6144_S6144x256_S6144x256_1_0_0_1_n_n : DotDims S6144x6144 S6144x256 S6144x256 where
  lhsContracting := [1]
  rhsContracting := [0]
  lhsNonContracting := [0]
  rhsNonContracting := [1]
  lhsBatch := []
  rhsBatch := []
  wf := dot_S6144x6144_S6144x256_S6144x256_1_0_0_1_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf
def dot_S12288x12288_S12288x256_S12288x256_1_0_0_1_n_n : DotDims S12288x12288 S12288x256 S12288x256 where
  lhsContracting := [1]
  rhsContracting := [0]
  lhsNonContracting := [0]
  rhsNonContracting := [1]
  lhsBatch := []
  rhsBatch := []
  wf := dot_S12288x12288_S12288x256_S12288x256_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def gather_S6144x256_S12288x3x1_S12288x3x256_2_0_n_n_0_2_1256 : GatherDims S6144x256 S12288x3x1 S12288x3x256 where
  offsetDims := [2]
  collapsedSliceDims := [0]
  operandBatchingDims := []
  startIndicesBatchingDims := []
  startIndexMap := [0]
  indexVectorDim := 2
  sliceSizes := ![1, 256]
  wf := gather_S6144x256_S12288x3x1_S12288x3x256_2_0_n_n_0_2_1256_wf
def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf
def dot_S6144x12288_S12288x256_S6144x256_1_0_0_1_n_n : DotDims S6144x12288 S12288x256 S6144x256 where
  lhsContracting := [1]
  rhsContracting := [0]
  lhsNonContracting := [0]
  rhsNonContracting := [1]
  lhsBatch := []
  rhsBatch := []
  wf := dot_S6144x12288_S12288x256_S6144x256_1_0_0_1_n_n_wf
def dot_S6144x512_S512x256_S6144x256_1_0_0_1_n_n : DotDims S6144x512 S512x256 S6144x256 where
  lhsContracting := [1]
  rhsContracting := [0]
  lhsNonContracting := [0]
  rhsNonContracting := [1]
  lhsBatch := []
  rhsBatch := []
  wf := dot_S6144x512_S512x256_S6144x256_1_0_0_1_n_n_wf

class Facts : Prop extends Facts₀ where

variable [Facts]
-- ==== Proof.RefFrame.lean ====
/-
  The reference is a host program with no kernel launch: every weakly fair execution of it runs each of its
  operations once, in order, and writes only the buffers those operations define. Its argument arrays are
  therefore the launch contents at the end. That is read off the program's run (each result at the
  composed term of the arguments, the arguments unchanged) by forgetting what the results hold.
-/
import proofs.«155206_j89000312308227_2_alg».proof.Defs
import proofs.«155206_j89000312308227_2_alg».proof.Proof.Gen.ReferenceIdeal
import proofs.«155206_j89000312308227_2_alg».proof.Proof.Gen.Pre_finite_inputs
import proofs.«155206_j89000312308227_2_alg».proof.Proof.Gen.ReferenceIdeal.Run

noncomputable section

open Idealize.ShloMosaic Idealize.ShloMosaic.TcCoe Idealize.SL.Sem

namespace Cert.Proof.RefFrame

/-- The reference terminates on every weakly fair execution, faults nowhere, and ends with each argument array
    holding what it was launched with. -/
theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

end Cert.Proof.RefFrame

end
-- ==== Proof.Chain.lean ====
/-
  The contents of the program's buffers between its items. The program is a line of thirty-two items: stretches of
  host operations and the fourteen launches. After a host stretch every buffer holds what the stretch's operations
  compute from the contents before it; after launch k every buffer holds what it held before, except the launch's output
  array, which holds what the launch leaves there — a function `L.vk` of the contents the launch was entered from. Those
  functions are a parameter here: the chain is the same whatever the launches compute.
-/
import proofs.«155206_j89000312308227_2_alg».proof.Proof.Gen.KernelIdeal
import proofs.«155206_j89000312308227_2_alg».proof.Proof.Gen.KernelIdeal.Launch
import proofs.«155206_j89000312308227_2_alg».proof.Proof.Gen.KernelIdeal.Regions

set_option maxRecDepth 16384

noncomputable section

namespace Cert.KernelIdeal.Chain

open Cert.KernelIdeal Cert.KernelIdeal.Gen
open Idealize.ShloMosaic Idealize.ShloMosaic.TcCoe
open Idealize.SL Idealize.SL.Sem

variable {F : FTy → Type} [FloatOps F]

/-- A core-indexed family of buffer contents read at the TensorCore's references: what a launch's proof data take. -/
abbrev rd (U : Dev nD → Valuation τ sig (Elt F)) : (c : Dev nD) → (b : Ref sig .tc) → Buf (Elt F) ((c : Thread nD τ).loc b) := fun c b => U c b

/-- What a launch leaves in its output array `r`, from the contents it is entered from. -/
abbrev Leaves (F : FTy → Type) [FloatOps F] (r : Ref sig .tc) : Type :=
  ((c : Dev nD) → (b : Ref sig .tc) → Buf (Elt F) ((c : Thread nD τ).loc b)) → (c : Dev nD) → Buf (Elt F) ((c : Thread nD τ).loc r)

/-- What each of the fourteen launches leaves in its output array. -/
structure LeavesAll (F : FTy → Type) [FloatOps F] where
  v0 : Leaves F main_v3
  v1 : Leaves F main_v9
  v2 : Leaves F main_v15
  v3 : Leaves F main_v21
  v4 : Leaves F main_v27
  v5 : Leaves F main_v33
  v6 : Leaves F main_v39
  v7 : Leaves F main_v45
  v8 : Leaves F main_v51
  v9 : Leaves F main_v57
  v10 : Leaves F main_v63
  v11 : Leaves F main_v69
  v12 : Leaves F main_v75
  v13 : Leaves F main_v97

variable (m : (ℓ : Loc nD τ sig) → Buf (Elt F) ℓ) (L : LeavesAll F)

/-- At launch. -/
def U0 (c : Dev nD) : Valuation τ sig (Elt F) := fun b => m (c, b)
/-- After item 0, the host stretch `hostOps0`. -/
def U1 (c : Dev nD) : Valuation τ sig (Elt F) := StableHlo.after hostOps0 (U0 m c)
/-- After item 1, launch 0: its output array `main_v3` at what the launch leaves. -/
def U2 (c : Dev nD) : Valuation τ sig (Elt F) := Function.update (U1 m c) main_v3 (L.v0 (rd (U1 m)) c)
/-- After item 2, the host stretch `hostOps1`. -/
def U3 (c : Dev nD) : Valuation τ sig (Elt F) := StableHlo.after hostOps1 (U2 m L c)
/-- After item 3, launch 1: its output array `main_v9` at what the launch leaves. -/
def U4 (c : Dev nD) : Valuation τ sig (Elt F) := Function.update (U3 m L c) main_v9 (L.v1 (rd (U3 m L)) c)
/-- After item 4, the host stretch `hostOps2`. -/
def U5 (c : Dev nD) : Valuation τ sig (Elt F) := StableHlo.after hostOps2 (U4 m L c)
/-- After item 5, launch 2: its output array `main_v15` at what the launch leaves. -/
def U6 (c : Dev nD) : Valuation τ sig (Elt F) := Function.update (U5 m L c) main_v15 (L.v2 (rd (U5 m L)) c)
/-- After item 6, the host stretch `hostOps3`. -/
def U7 (c : Dev nD) : Valuation τ sig (Elt F) := StableHlo.after hostOps3 (U6 m L c)
/-- After item 7, launch 3: its output array `main_v21` at what the launch leaves. -/
def U8 (c : Dev nD) : Valuation τ sig (Elt F) := Function.update (U7 m L c) main_v21 (L.v3 (rd (U7 m L)) c)
/-- After item 8, the host stretch `hostOps4`. -/
def U9 (c : Dev nD) : Valuation τ sig (Elt F) := StableHlo.after hostOps4 (U8 m L c)
/-- After item 9, launch 4: its output array `main_v27` at what the launch leaves. -/
def U10 (c : Dev nD) : Valuation τ sig (Elt F) := Function.update (U9 m L c) main_v27 (L.v4 (rd (U9 m L)) c)
/-- After item 10, the host stretch `hostOps5`. -/
def U11 (c : Dev nD) : Valuation τ sig (Elt F) := StableHlo.after hostOps5 (U10 m L c)
/-- After item 11, launch 5: its output array `main_v33` at what the launch leaves. -/
def U12 (c : Dev nD) : Valuation τ sig (Elt F) := Function.update (U11 m L c) main_v33 (L.v5 (rd (U11 m L)) c)
/-- After item 12, the host stretch `hostOps6`. -/
def U13 (c : Dev nD) : Valuation τ sig (Elt F) := StableHlo.after hostOps6 (U12 m L c)
/-- After item 13, launch 6: its output array `main_v39` at what the launch leaves. -/
def U14 (c : Dev nD) : Valuation τ sig (Elt F) := Function.update (U13 m L c) main_v39 (L.v6 (rd (U13 m L)) c)
/-- After item 14, the host stretch `hostOps7`. -/
def U15 (c : Dev nD) : Valuation τ sig (Elt F) := StableHlo.after hostOps7 (U14 m L c)
/-- After item 15, launch 7: its output array `main_v45` at what the launch leaves. -/
def U16 (c : Dev nD) : Valuation τ sig (Elt F) := Function.update (U15 m L c) main_v45 (L.v7 (rd (U15 m L)) c)
/-- After item 16, the host stretch `hostOps8`. -/
def U17 (c : Dev nD) : Valuation τ sig (Elt F) := StableHlo.after hostOps8 (U16 m L c)
/-- After item 17, launch 8: its output array `main_v51` at what the launch leaves. -/
def U18 (c : Dev nD) : Valuation τ sig (Elt F) := Function.update (U17 m L c) main_v51 (L.v8 (rd (U17 m L)) c)
/-- After item 18, the host stretch `hostOps9`. -/
def U19 (c : Dev nD) : Valuation τ sig (Elt F) := StableHlo.after hostOps9 (U18 m L c)
/-- After item 19, launch 9: its output array `main_v57` at what the launch leaves. -/
def U20 (c : Dev nD) : Valuation τ sig (Elt F) := Function.update (U19 m L c) main_v57 (L.v9 (rd (U19 m L)) c)
/-- After item 20, the host stretch `hostOps10`. -/
def U21 (c : Dev nD) : Valuation τ sig (Elt F) := StableHlo.after hostOps10 (U20 m L c)
/-- After item 21, launch 10: its output array `main_v63` at what the launch leaves. -/
def U22 (c : Dev nD) : Valuation τ sig (Elt F) := Function.update (U21 m L c) main_v63 (L.v10 (rd (U21 m L)) c)
/-- After item 22, the host stretch `hostOps11`. -/
def U23 (c : Dev nD) : Valuation τ sig (Elt F) := StableHlo.after hostOps11 (U22 m L c)
/-- After item 23, launch 11: its output array `main_v69` at what the launch leaves. -/
def U24 (c : Dev nD) : Valuation τ sig (Elt F) := Function.update (U23 m L c) main_v69 (L.v11 (rd (U23 m L)) c)
/-- After item 24, the host stretch `hostOps12`. -/
def U25 (c : Dev nD) : Valuation τ sig (Elt F) := StableHlo.after hostOps12 (U24 m L c)
/-- After item 25, launch 12: its output array `main_v75` at what the launch leaves. -/
def U26 (c : Dev nD) : Valuation τ sig (Elt F) := Function.update (U25 m L c) main_v75 (L.v12 (rd (U25 m L)) c)
/-- After item 26, the host stretch `hostOps13`. -/
def U27 (c : Dev nD) : Valuation τ sig (Elt F) := StableHlo.after hostOps13 (U26 m L c)
/-- After item 27, the host stretch `hostOps13_1`. -/
def U28 (c : Dev nD) : Valuation τ sig (Elt F) := StableHlo.after hostOps13_1 (U27 m L c)
/-- After item 28, launch 13: its output array `main_v97` at what the launch leaves. -/
def U29 (c : Dev nD) : Valuation τ sig (Elt F) := Function.update (U28 m L c) main_v97 (L.v13 (rd (U28 m L)) c)
/-- After item 29, the host stretch `hostOps14`. -/
def U30 (c : Dev nD) : Valuation τ sig (Elt F) := StableHlo.after hostOps14 (U29 m L c)
/-- After item 30, the host stretch `hostOps14_1`. -/
def U31 (c : Dev nD) : Valuation τ sig (Elt F) := StableHlo.after hostOps14_1 (U30 m L c)
/-- After item 31, the host stretch `hostOps14_2`. -/
def U32 (c : Dev nD) : Valuation τ sig (Elt F) := StableHlo.after hostOps14_2 (U31 m L c)

/-- The contents the launches leave, as the program's conditional frame asks for them: after item J − 1, buffer by buffer. -/
def outs : Outs (F := F) := fun J r c =>
  match J with
  | 2 => U2 m L c r
  | 4 => U4 m L c r
  | 6 => U6 m L c r
  | 8 => U8 m L c r
  | 10 => U10 m L c r
  | 12 => U12 m L c r
  | 14 => U14 m L c r
  | 16 => U16 m L c r
  | 18 => U18 m L c r
  | 20 => U20 m L c r
  | 22 => U22 m L c r
  | 24 => U24 m L c r
  | 26 => U26 m L c r
  | 29 => U29 m L c r
  | _ => U32 m L c r

theorem V1_eq (c : Dev nD) : V1 m c = U1 m c := rfl
theorem V2_eq (c : Dev nD) : V2 m (outs m L) c = U2 m L c := by
  show Function.update (V1 m c) main_v3 (U2 m L c main_v3) = _
  rw [V1_eq]; unfold U2; rw [Function.update_self]
theorem V3_eq (c : Dev nD) : V3 m (outs m L) c = U3 m L c := by
  show StableHlo.after hostOps1 (V2 m (outs m L) c) = _
  rw [V2_eq]; rfl
theorem V4_eq (c : Dev nD) : V4 m (outs m L) c = U4 m L c := by
  show Function.update (V3 m (outs m L) c) main_v9 (U4 m L c main_v9) = _
  rw [V3_eq]; unfold U4; rw [Function.update_self]
theorem V5_eq (c : Dev nD) : V5 m (outs m L) c = U5 m L c := by
  show StableHlo.after hostOps2 (V4 m (outs m L) c) = _
  rw [V4_eq]; rfl
theorem V6_eq (c : Dev nD) : V6 m (outs m L) c = U6 m L c := by
  show Function.update (V5 m (outs m L) c) main_v15 (U6 m L c main_v15) = _
  rw [V5_eq]; unfold U6; rw [Function.update_self]
theorem V7_eq (c : Dev nD) : V7 m (outs m L) c = U7 m L c := by
  show StableHlo.after hostOps3 (V6 m (outs m L) c) = _
  rw [V6_eq]; rfl
theorem V8_eq (c : Dev nD) : V8 m (outs m L) c = U8 m L c := by
  show Function.update (V7 m (outs m L) c) main_v21 (U8 m L c main_v21) = _
  rw [V7_eq]; unfold U8; rw [Function.update_self]
theorem V9_eq (c : Dev nD) : V9 m (outs m L) c = U9 m L c := by
  show StableHlo.after hostOps4 (V8 m (outs m L) c) = _
  rw [V8_eq]; rfl
theorem V10_eq (c : Dev nD) : V10 m (outs m L) c = U10 m L c := by
  show Function.update (V9 m (outs m L) c) main_v27 (U10 m L c main_v27) = _
  rw [V9_eq]; unfold U10; rw [Function.update_self]
theorem V11_eq (c : Dev nD) : V11 m (outs m L) c = U11 m L c := by
  show StableHlo.after hostOps5 (V10 m (outs m L) c) = _
  rw [V10_eq]; rfl
theorem V12_eq (c : Dev nD) : V12 m (outs m L) c = U12 m L c := by
  show Function.update (V11 m (outs m L) c) main_v33 (U12 m L c main_v33) = _
  rw [V11_eq]; unfold U12; rw [Function.update_self]
theorem V13_eq (c : Dev nD) : V13 m (outs m L) c = U13 m L c := by
  show StableHlo.after hostOps6 (V12 m (outs m L) c) = _
  rw [V12_eq]; rfl
theorem V14_eq (c : Dev nD) : V14 m (outs m L) c = U14 m L c := by
  show Function.update (V13 m (outs m L) c) main_v39 (U14 m L c main_v39) = _
  rw [V13_eq]; unfold U14; rw [Function.update_self]
theorem V15_eq (c : Dev nD) : V15 m (outs m L) c = U15 m L c := by
  show StableHlo.after hostOps7 (V14 m (outs m L) c) = _
  rw [V14_eq]; rfl
theorem V16_eq (c : Dev nD) : V16 m (outs m L) c = U16 m L c := by
  show Function.update (V15 m (outs m L) c) main_v45 (U16 m L c main_v45) = _
  rw [V15_eq]; unfold U16; rw [Function.update_self]
theorem V17_eq (c : Dev nD) : V17 m (outs m L) c = U17 m L c := by
  show StableHlo.after hostOps8 (V16 m (outs m L) c) = _
  rw [V16_eq]; rfl
theorem V18_eq (c : Dev nD) : V18 m (outs m L) c = U18 m L c := by
  show Function.update (V17 m (outs m L) c) main_v51 (U18 m L c main_v51) = _
  rw [V17_eq]; unfold U18; rw [Function.update_self]
theorem V19_eq (c : Dev nD) : V19 m (outs m L) c = U19 m L c := by
  show StableHlo.after hostOps9 (V18 m (outs m L) c) = _
  rw [V18_eq]; rfl
theorem V20_eq (c : Dev nD) : V20 m (outs m L) c = U20 m L c := by
  show Function.update (V19 m (outs m L) c) main_v57 (U20 m L c main_v57) = _
  rw [V19_eq]; unfold U20; rw [Function.update_self]
theorem V21_eq (c : Dev nD) : V21 m (outs m L) c = U21 m L c := by
  show StableHlo.after hostOps10 (V20 m (outs m L) c) = _
  rw [V20_eq]; rfl
theorem V22_eq (c : Dev nD) : V22 m (outs m L) c = U22 m L c := by
  show Function.update (V21 m (outs m L) c) main_v63 (U22 m L c main_v63) = _
  rw [V21_eq]; unfold U22; rw [Function.update_self]
theorem V23_eq (c : Dev nD) : V23 m (outs m L) c = U23 m L c := by
  show StableHlo.after hostOps11 (V22 m (outs m L) c) = _
  rw [V22_eq]; rfl
theorem V24_eq (c : Dev nD) : V24 m (outs m L) c = U24 m L c := by
  show Function.update (V23 m (outs m L) c) main_v69 (U24 m L c main_v69) = _
  rw [V23_eq]; unfold U24; rw [Function.update_self]
theorem V25_eq (c : Dev nD) : V25 m (outs m L) c = U25 m L c := by
  show StableHlo.after hostOps12 (V24 m (outs m L) c) = _
  rw [V24_eq]; rfl
theorem V26_eq (c : Dev nD) : V26 m (outs m L) c = U26 m L c := by
  show Function.update (V25 m (outs m L) c) main_v75 (U26 m L c main_v75) = _
  rw [V25_eq]; unfold U26; rw [Function.update_self]
theorem V27_eq (c : Dev nD) : V27 m (outs m L) c = U27 m L c := by
  show StableHlo.after hostOps13 (V26 m (outs m L) c) = _
  rw [V26_eq]; rfl
theorem V28_eq (c : Dev nD) : V28 m (outs m L) c = U28 m L c := by
  show StableHlo.after hostOps13_1 (V27 m (outs m L) c) = _
  rw [V27_eq]; rfl
theorem V29_eq (c : Dev nD) : V29 m (outs m L) c = U29 m L c := by
  show Function.update (V28 m (outs m L) c) main_v97 (U29 m L c main_v97) = _
  rw [V28_eq]; unfold U29; rw [Function.update_self]
theorem V30_eq (c : Dev nD) : V30 m (outs m L) c = U30 m L c := by
  show StableHlo.after hostOps14 (V29 m (outs m L) c) = _
  rw [V29_eq]; rfl
theorem V31_eq (c : Dev nD) : V31 m (outs m L) c = U31 m L c := by
  show StableHlo.after hostOps14_1 (V30 m (outs m L) c) = _
  rw [V30_eq]; rfl
theorem V32_eq (c : Dev nD) : V32 m (outs m L) c = U32 m L c := by
  show StableHlo.after hostOps14_2 (V31 m (outs m L) c) = _
  rw [V31_eq]; rfl
/-- After launch 0 its output array holds what the launch leaves. -/
theorem U2_out (c : Dev nD) : U2 m L c main_v3 = L.v0 (rd (U1 m)) c := by
  unfold U2; rw [Function.update_self]
/-- Launch 0 changes no other buffer. -/
theorem U2_of_ne (c : Dev nD) (b : Ref sig .tc) (hb : b ≠ main_v3) : U2 m L c b = U1 m c b := by
  unfold U2; exact Function.update_of_ne (StableHlo.devRef_ne_of_ne hb) _ _
/-- After launch 1 its output array holds what the launch leaves. -/
theorem U4_out (c : Dev nD) : U4 m L c main_v9 = L.v1 (rd (U3 m L)) c := by
  unfold U4; rw [Function.update_self]
/-- Launch 1 changes no other buffer. -/
theorem U4_of_ne (c : Dev nD) (b : Ref sig .tc) (hb : b ≠ main_v9) : U4 m L c b = U3 m L c b := by
  unfold U4; exact Function.update_of_ne (StableHlo.devRef_ne_of_ne hb) _ _
/-- After launch 2 its output array holds what the launch leaves. -/
theorem U6_out (c : Dev nD) : U6 m L c main_v15 = L.v2 (rd (U5 m L)) c := by
  unfold U6; rw [Function.update_self]
/-- Launch 2 changes no other buffer. -/
theorem U6_of_ne (c : Dev nD) (b : Ref sig .tc) (hb : b ≠ main_v15) : U6 m L c b = U5 m L c b := by
  unfold U6; exact Function.update_of_ne (StableHlo.devRef_ne_of_ne hb) _ _
/-- After launch 3 its output array holds what the launch leaves. -/
theorem U8_out (c : Dev nD) : U8 m L c main_v21 = L.v3 (rd (U7 m L)) c := by
  unfold U8; rw [Function.update_self]
/-- Launch 3 changes no other buffer. -/
theorem U8_of_ne (c : Dev nD) (b : Ref sig .tc) (hb : b ≠ main_v21) : U8 m L c b = U7 m L c b := by
  unfold U8; exact Function.update_of_ne (StableHlo.devRef_ne_of_ne hb) _ _
/-- After launch 4 its output array holds what the launch leaves. -/
theorem U10_out (c : Dev nD) : U10 m L c main_v27 = L.v4 (rd (U9 m L)) c := by
  unfold U10; rw [Function.update_self]
/-- Launch 4 changes no other buffer. -/
theorem U10_of_ne (c : Dev nD) (b : Ref sig .tc) (hb : b ≠ main_v27) : U10 m L c b = U9 m L c b := by
  unfold U10; exact Function.update_of_ne (StableHlo.devRef_ne_of_ne hb) _ _
/-- After launch 5 its output array holds what the launch leaves. -/
theorem U12_out (c : Dev nD) : U12 m L c main_v33 = L.v5 (rd (U11 m L)) c := by
  unfold U12; rw [Function.update_self]
/-- Launch 5 changes no other buffer. -/
theorem U12_of_ne (c : Dev nD) (b : Ref sig .tc) (hb : b ≠ main_v33) : U12 m L c b = U11 m L c b := by
  unfold U12; exact Function.update_of_ne (StableHlo.devRef_ne_of_ne hb) _ _
/-- After launch 6 its output array holds what the launch leaves. -/
theorem U14_out (c : Dev nD) : U14 m L c main_v39 = L.v6 (rd (U13 m L)) c := by
  unfold U14; rw [Function.update_self]
/-- Launch 6 changes no other buffer. -/
theorem U14_of_ne (c : Dev nD) (b : Ref sig .tc) (hb : b ≠ main_v39) : U14 m L c b = U13 m L c b := by
  unfold U14; exact Function.update_of_ne (StableHlo.devRef_ne_of_ne hb) _ _
/-- After launch 7 its output array holds what the launch leaves. -/
theorem U16_out (c : Dev nD) : U16 m L c main_v45 = L.v7 (rd (U15 m L)) c := by
  unfold U16; rw [Function.update_self]
/-- Launch 7 changes no other buffer. -/
theorem U16_of_ne (c : Dev nD) (b : Ref sig .tc) (hb : b ≠ main_v45) : U16 m L c b = U15 m L c b := by
  unfold U16; exact Function.update_of_ne (StableHlo.devRef_ne_of_ne hb) _ _
/-- After launch 8 its output array holds what the launch leaves. -/
theorem U18_out (c : Dev nD) : U18 m L c main_v51 = L.v8 (rd (U17 m L)) c := by
  unfold U18; rw [Function.update_self]
/-- Launch 8 changes no other buffer. -/
theorem U18_of_ne (c : Dev nD) (b : Ref sig .tc) (hb : b ≠ main_v51) : U18 m L c b = U17 m L c b := by
  unfold U18; exact Function.update_of_ne (StableHlo.devRef_ne_of_ne hb) _ _
/-- After launch 9 its output array holds what the launch leaves. -/
theorem U20_out (c : Dev nD) : U20 m L c main_v57 = L.v9 (rd (U19 m L)) c := by
  unfold U20; rw [Function.update_self]
/-- Launch 9 changes no other buffer. -/
theorem U20_of_ne (c : Dev nD) (b : Ref sig .tc) (hb : b ≠ main_v57) : U20 m L c b = U19 m L c b := by
  unfold U20; exact Function.update_of_ne (StableHlo.devRef_ne_of_ne hb) _ _
/-- After launch 10 its output array holds what the launch leaves. -/
theorem U22_out (c : Dev nD) : U22 m L c main_v63 = L.v10 (rd (U21 m L)) c := by
  unfold U22; rw [Function.update_self]
/-- Launch 10 changes no other buffer. -/
theorem U22_of_ne (c : Dev nD) (b : Ref sig .tc) (hb : b ≠ main_v63) : U22 m L c b = U21 m L c b := by
  unfold U22; exact Function.update_of_ne (StableHlo.devRef_ne_of_ne hb) _ _
/-- After launch 11 its output array holds what the launch leaves. -/
theorem U24_out (c : Dev nD) : U24 m L c main_v69 = L.v11 (rd (U23 m L)) c := by
  unfold U24; rw [Function.update_self]
/-- Launch 11 changes no other buffer. -/
theorem U24_of_ne (c : Dev nD) (b : Ref sig .tc) (hb : b ≠ main_v69) : U24 m L c b = U23 m L c b := by
  unfold U24; exact Function.update_of_ne (StableHlo.devRef_ne_of_ne hb) _ _
/-- After launch 12 its output array holds what the launch leaves. -/
theorem U26_out (c : Dev nD) : U26 m L c main_v75 = L.v12 (rd (U25 m L)) c := by
  unfold U26; rw [Function.update_self]
/-- Launch 12 changes no other buffer. -/
theorem U26_of_ne (c : Dev nD) (b : Ref sig .tc) (hb : b ≠ main_v75) : U26 m L c b = U25 m L c b := by
  unfold U26; exact Function.update_of_ne (StableHlo.devRef_ne_of_ne hb) _ _
/-- After launch 13 its output array holds what the launch leaves. -/
theorem U29_out (c : Dev nD) : U29 m L c main_v97 = L.v13 (rd (U28 m L)) c := by
  unfold U29; rw [Function.update_self]
/-- Launch 13 changes no other buffer. -/
theorem U29_of_ne (c : Dev nD) (b : Ref sig .tc) (hb : b ≠ main_v97) : U29 m L c b = U28 m L c b := by
  unfold U29; exact Function.update_of_ne (StableHlo.devRef_ne_of_ne hb) _ _

end Cert.KernelIdeal.Chain

end
-- ==== Proof.R0Runs.lean ====
/-
  The first launch (one third of the transposed adjacency matrix times the vertex features), one grid point at a
  time. The grid is 12 row blocks by 6 contraction blocks; the body at (m, k) does one of three things, decided by k alone:
    k = 0       the accumulator is set to zero, then the product of the (k, m) tile, contracted over its first
                axis, with rows [1024 k, 1024 k + 1024) of the features is added to it; the output block is not touched;
    0 < k < 5   the product is added to what the point before left in the accumulator; the output block is not touched;
    k = 5       the same, and then the accumulator times one third is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid0.Coords) : Prop := (Scalar.cmpi .ne (Scalar.extui (Scalar.cmpi .eq (BitVec.ofNat 32 (i 1).val) 0#32)) 0#32) = 1#1
/-- The output block is written at this point: the contraction coordinate is 5, the last. -/
abbrev isLast (i : grid0.Coords) : Prop := k0_cond2 i = 1#1

/-- The points whose contraction coordinate is 0 are those ≡ 0 (mod 6): decided over the 72 points. -/
theorem isFirst_iff : ∀ t : Fin cfg0.N, isFirst (grid0.coords t) ↔ t.val % 6 = 0 :=
  (by decide +kernel : ∀ t : Fin grid0.N, isFirst (grid0.coords t) ↔ t.val % 6 = 0)
/-- The points whose contraction coordinate is 5 are those ≡ 5 (mod 6). -/
theorem isLast_iff : ∀ t : Fin cfg0.N, isLast (grid0.coords t) ↔ t.val % 6 = 5 :=
  (by decide +kernel : ∀ t : Fin grid0.N, isLast (grid0.coords t) ↔ t.val % 6 = 5)

/-! ## The body, case by case -/

set_option maxHeartbeats 1000000 in
/-- k = 0. The tile and the features are read and left as they are, the output block is handed back untouched, and
    the accumulator — at anything before — ends with two stores over its whole block: the zero block, then zero plus
    the tile's product. -/
noncomputable def runFirst (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole) (hc0 : isFirst i) (hc1 : ¬isLast i)
    (x0 : Vec F S1024x1024 .bf16) (x1 : Vec F S6144x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 5. The tile and the features are read and left as they are, the output block is handed back untouched, and
    the accumulator, at what the point before left in it (`xs0`), ends with one store over its whole block: `xs0` plus
    the tile's product. -/
noncomputable def runMiddle (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : ¬isLast i)
    (x0 : Vec F S1024x1024 .bf16) (x1 : Vec F S6144x256 .f32) (xs0 : Vec F S1024x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 5. As in the middle for the accumulator; and the output block — at anything before — ends with one store over
    its whole block: the accumulator's new contents times one third. -/
noncomputable def runLast (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : isLast i)
    (x0 : Vec F S1024x1024 .bf16) (x1 : Vec F S6144x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R0

end
-- ==== Proof.R0Acc.lean ====
/-
  The first launch, point after point: what the accumulator and the output block hold after the body at each of
  the 72 grid points. The accumulator is the kernel's own scratch buffer and is not touched between two points, so after
  point n it holds what the case of n stored, computed from what point n - 1 left (or from nothing, when n opens a new row
  block: its contraction coordinate is 0). The output block is only written at the last contraction coordinate; at the
  other points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R0Runs
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The two input windows are never idle. -/
theorem live_tile : ∀ t : Fin cfg0.N, cfg0.idle 0 (grid0.coords t) = false := by decide +kernel
theorem live_feat : ∀ t : Fin cfg0.N, cfg0.idle 1 (grid0.coords t) = false := by decide +kernel
/-- Away from the last contraction coordinate the output window is idle, and its block is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last contraction coordinate it is live. -/
theorem live_out : ∀ t : Fin cfg0.N, isLast (grid0.coords t) → cfg0.idle 2 (grid0.coords t) = false := by decide +kernel

/-! ## The memrefs the body is called with -/

/-- One staging buffer of the output window, through which its contents are stated (the choice does not matter). -/
abbrev VO : View sig .tc .vmem S1024x256 .f32 := (Memref.whole cc0_stg2_0 : Memref sig .tc .vmem S1024x256 .f32).view
/-- Each window's current staging memref at point `t`, spelled as the pipeline passes it, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S6144x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
/-- The accumulator: the kernel's own whole scoped buffer. -/
abbrev accM : Memref sig .tc .vmem S1024x256 .f32 := Memref.whole cc0_scratch0
abbrev VS : View sig .tc .vmem S1024x256 .f32 := accM.view

/-! ## What each case leaves -/

section
variable (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (y : S1024x256.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x256.size (by sl_kernel_rfl) y
/-- What the case k = 0 leaves in the accumulator. -/
def accFirst (hc0 : isFirst i) (hc1 : ¬isLast i) (x0 : Vec F S1024x1024 .bf16) (x1 : Vec F S6144x256 .f32) : Vec F S1024x256 .f32 :=
  VS.read (Elt F) (VS.writes (Elt F) VS.junk (runFirst c i arg2 harg2 arg3 harg3 arg4 harg4 arg5 harg5 hc0 hc1 x0 x1).1)

/-- 0 < k < 5: the accumulator's one store covers its whole block. -/
theorem cover_accMiddle (hc0 : ¬isFirst i) (hc1 : ¬isLast i) (x0 : Vec F S1024x1024 .bf16) (x1 : Vec F S6144x256 .f32) (xs0 : Vec F S1024x256 .f32) (y : S1024x256.Idx) :
    ∃ pc ∈ (runMiddle c i arg2 harg2 arg3 harg3 arg4 harg4 arg5 harg5 hc0 hc1 x0 x1 xs0).1, y ∈ pc.1.set :=
  View.cover_of_tiledL (runMiddle c i arg2 harg2 arg3 harg3 arg4 harg4 arg5 harg5 hc0 hc1 x0 x1 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (xs0 : Vec F S1024x256 .f32) : Vec F S1024x256 .f32 :=
  VS.read (Elt F) (VS.writes (Elt F) VS.junk (runMiddle c i arg2 harg2 arg3 harg3 arg4 harg4 arg5 harg5 hc0 hc1 x0 x1 xs0).1)

/-- k = 5: the output block's one store covers it, and so does the accumulator's. -/
theorem cover_outLast (hc0 : ¬isFirst i) (hc1 : isLast i) (x0 : Vec F S1024x1024 .bf16) (x1 : Vec F S6144x256 .f32) (xs0 : Vec F S1024x256 .f32) (y : S1024x256.Idx) :
    ∃ pc ∈ (runLast c i arg2 harg2 arg3 harg3 arg4 harg4 arg5 harg5 hc0 hc1 x0 x1 xs0).1, y ∈ pc.1.set :=
  View.cover_of_tiledL (runLast c i arg2 harg2 arg3 harg3 arg4 harg4 arg5 harg5 hc0 hc1 x0 x1 xs0).1 S1024x256.size (by sl_kernel_rfl) y
theorem cover_accLast (hc0 : ¬isFirst i) (hc1 : isLast i) (x0 : Vec F S1024x1024 .bf16) (x1 : Vec F S6144x256 .f32) (xs0 : Vec F S1024x256 .f32) (y : S1024x256.Idx) :
    ∃ pc ∈ (runLast c i arg2 harg2 arg3 harg3 arg4 harg4 arg5 harg5 hc0 hc1 x0 x1 xs0).2.1, y ∈ pc.1.set :=
  View.cover_of_tiledL (runLast c i arg2 harg2 arg3 harg3 arg4 harg4 arg5 harg5 hc0 hc1 x0 x1 xs0).2.1 S1024x256.size (by sl_kernel_rfl) y
/-- What the last case leaves in the output block, -/
def outLast (hc0 : ¬isFirst i) (hc1 : isLast i) (x0 : Vec F S1024x1024 .bf16) (x1 : Vec F S6144x256 .f32) (xs0 : Vec F S1024x256 .f32) : Vec F S1024x256 .f32 :=
  VO.read (Elt F) (VO.writes (Elt F) VO.junk (runLast c i arg2 harg2 arg3 harg3 arg4 harg4 arg5 harg5 hc0 hc1 x0 x1 xs0).1)
/-- and in the accumulator. -/
def accLast (hc0 : ¬isFirst i) (hc1 : isLast i) (x0 : Vec F S1024x1024 .bf16) (x1 : Vec F S6144x256 .f32) (xs0 : Vec F S1024x256 .f32) : Vec F S1024x256 .f32 :=
  VS.read (Elt F) (VS.writes (Elt F) VS.junk (runLast c i arg2 harg2 arg3 harg3 arg4 harg4 arg5 harg5 hc0 hc1 x0 x1 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- After the body at position `n`: (the output block, the accumulator). A position ≡ 0 (mod 6) starts from nothing;
    any other continues from the accumulator of the position before; a position ≡ 5 (mod 6) also writes the output. -/
def outsAt (c : Dev nD) : (n : ℕ) → n < cfg0.N → Vec F S1024x256 .f32 × Vec F S1024x256 .f32
  | 0, hn => (idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩))
  | n + 1, hn =>
    if h0 : (n + 1) % 6 = 0 then
      (idleOut, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩))
    else if h5 : (n + 1) % 6 = 5 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2,
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2)
    else
      (idleOut, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (outsAt c n (Nat.lt_of_succ_lt hn)).2)

/-- At a point that opens a row block. -/
theorem outsAt_first (c : Dev nD) (t : Fin cfg0.N) (h0 : t.val % 6 = 0) :
    outsAt W c t.val t.isLt = (idleOut, accFirst c (grid0.coords t) (ms0 t) (hs0 t) (ms1 t) (hs1 t) (ms2 t) (hs2 t) accM (Memref.isWhole_whole _)
      ((isFirst_iff t).mpr h0) (fun h => by have := (isLast_iff t).mp h; omega) (iblk W c 0 t) (iblk W c 1 t)) := by
  obtain ⟨n, hn⟩ := t
  cases n with
  | zero => exact rfl
  | succ n => exact (dif_pos h0).trans rfl

/-- At a point in the middle of a row block: over what the point before left. -/
theorem outsAt_middle (c : Dev nD) (t : Fin cfg0.N) (h0 : ¬t.val % 6 = 0) (h5 : ¬t.val % 6 = 5) :
    outsAt W c t.val t.isLt = (idleOut, accMiddle c (grid0.coords t) (ms0 t) (hs0 t) (ms1 t) (hs1 t) (ms2 t) (hs2 t) accM (Memref.isWhole_whole _)
      (fun h => h0 ((isFirst_iff t).mp h)) (fun h => h5 ((isLast_iff t).mp h)) (iblk W c 0 t) (iblk W c 1 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg0.N) (h0 : ¬t.val % 6 = 0) (h5 : t.val % 6 = 5) :
    outsAt W c t.val t.isLt = (outLast c (grid0.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2,
      accLast c (grid0.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R0

end
-- ==== Proof.R0Data.lean ====
/-
  The first launch's proof data: what the pipeline's bookkeeping is told each staging buffer holds after the body at
  every point (an input window: its block of the array; the output window: the accumulation's first component), the
  invariant carried between points (before the first point the launch's scoped buffers at anything; afterwards the
  accumulator at the accumulation's second component, beside the other scoped buffers), nothing owed, full shares — and
  the body obligation against it: at every point the case the point is in runs from what the data says and leaves what
  the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R0Acc
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ Pipeline.scopedRestBut (Ix := Unit) (Name := ℕ) (U := UR sig nD τ) (Lvl := ℕ) (Val := Elt F) spec0 c [cc0_scratch0]) := by
  rw [scopedRest0_split]; simp only [accM, owns_whole]; try rfl

/-- Before position `n`: at the first point every scoped buffer at anything; later the accumulator at what the point
    before left in it, the other scoped buffers at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare ((outsAt W c n hn).2) ∗ Pipeline.scopedRestBut (Ix := Unit) (Name := ℕ) (U := UR sig nD τ) (Lvl := ℕ) (Val := Elt F) spec0 c [cc0_scratch0])

theorem PhiS_zero (c : Dev nD) (n : ℕ) (h : n ≤ cfg0.N) (hz : n = 0) : PhiS W c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec0 c [cc0_scratch0]) := rfl

theorem PhiS_pos (c : Dev nD) (n : ℕ) (h : n ≤ cfg0.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec0 c [cc0_scratch0]) := by
  cases n with
  | zero => exact absurd rfl hz
  | succ n => rfl

/-! ## The proof data -/

/-- On core `c`: the arrays as the launch finds them; after the body at `t` the tile's and the features' buffers at their
    blocks, the output's at the accumulation's first component; the invariant above; nothing owed; full shares. -/
def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => (outsAt W c t.val t.isLt).1
  Φ t := PhiS W c t.val (Nat.le_of_lt_succ t.isLt)
  q _ := fullShare
  owed _ := 0

theorem A_eq (c : Dev nD) (w : Fin cfg0.W) : (dat W c).A w = W c (Pipeline.arrRef spec0 w) := by
  dsimp only [dat]

theorem PhiS_castSucc (c : Dev nD) (t : Fin cfg0.N) :
    (dat W c).Φ t.castSucc = PhiS W c t.val (Nat.le_of_lt t.isLt) := by
  dsimp only [dat]; simp only [Fin.coe_castSucc]

theorem after0 (c : Dev nD) (t : Fin cfg0.N) : (dat W c).after 0 t = iblk W c 0 t := by dsimp only [dat]
theorem after1 (c : Dev nD) (t : Fin cfg0.N) : (dat W c).after 1 t = iblk W c 1 t := by dsimp only [dat]
theorem after2 (c : Dev nD) (t : Fin cfg0.N) : (dat W c).after 2 t = (outsAt W c t.val t.isLt).1 := by dsimp only [dat]

/-- The tile's current staging buffer holds its block when the body runs (it is fetched at every point). -/
theorem before0 (c : Dev nD) (t : Fin cfg0.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The features' staging buffer holds the whole feature matrix at every point (fetched once; its index never moves). -/
theorem before1 (c : Dev nD) (t : Fin cfg0.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d)))

def bodyPost (c : Dev nD) (t : Fin cfg0.N) : sProp 𝕄 :=
  iprop((dat W c).Φ t.succ ∗ (dat W c).owesAt () t.succ
    ∗ (dat W c).leavesExact 0 t
    ∗ (dat W c).leavesExact 1 t
    ∗ (dat W c).leavesExact 2 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0, before1]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  by_cases h0 : t.val % 6 = 0
  · have hf : isFirst (grid0.coords t) := (isFirst_iff t).mpr h0
    have hnl : ¬isLast (grid0.coords t) := fun h => by have := (isLast_iff t).mp h; omega
    rw [Dat.leavesExact_idle (dat W c) 2 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩⟩
      iapply ((runFirst c (grid0.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
    · rw [PhiS_castSucc W c t, PhiS_pos W c _ _ hz]
      iintro ⟨⟨HS0, Hg⟩, Ho, ⟨%d0, H0⟩, ⟨%d1, H1⟩, ⟨%d2, H2⟩⟩
      iapply ((runFirst c (grid0.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
  · have hnf : ¬isFirst (grid0.coords t) := fun h => h0 ((isFirst_iff t).mp h)
    have hz : t.val ≠ 0 := fun h => h0 (by rw [h])
    by_cases h5 : t.val % 6 = 5
    · have hl : isLast (grid0.coords t) := (isLast_iff t).mpr h5
      rw [show (dat W c).leavesExact 2 t = owns (c : Thread nD τ) (ms2 t) fullShare ((dat W c).after 2 t) from by
        unfold Dat.leavesExact; rw [live_out t hl], after2]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩⟩
      iapply ((runLast c (grid0.coords t) _ _ _ _ _ _ _ _ hnf hl (iblk W c 0 t) (iblk W c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · have hnl : ¬isLast (grid0.coords t) := fun h => h5 ((isLast_iff t).mp h)
      rw [Dat.leavesExact_idle (dat W c) 2 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩⟩
      iapply ((runMiddle c (grid0.coords t) _ _ _ _ _ _ _ _ hnf hnl (iblk W c 0 t) (iblk W c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) W c) (defs₀ (F := F)) Variants.none () Set.univ := fun t => by
  rw [bigSep_W0, bigSep_W0]
  exact sound_body W c t

end Cert.KernelIdeal.R0

end
-- ==== Proof.R1Runs.lean ====
/-
  Launch 1 (a block row of the adjacency matrix times the vertex features, then the projection: times the transposed
  weight matrix, plus the bias row), one grid point at a time. The grid is 6 row blocks by 6 contraction blocks; the
  body at (m, k) does one of three things, decided by k alone:
    k = 0       the accumulator is set to zero, then the product of the (m, k) tile with rows [1024 k, 1024 k + 1024) of
                the features is added to it; the weights, the bias and the output block are not touched;
    0 < k < 5   the product is added to what the point before left in the accumulator; the rest is not touched;
    k = 5       the same, and then the accumulator times the transposed weight matrix, plus the bias row on every row,
                is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid1.Coords) : Prop := (Scalar.cmpi .ne (Scalar.extui (Scalar.cmpi .eq (BitVec.ofNat 32 (i 1).val) 0#32)) 0#32) = 1#1
/-- The output block is written at this point: the contraction coordinate is 5, the last. -/
abbrev isLast (i : grid1.Coords) : Prop := k1_cond2 i = 1#1

/-- The points whose contraction coordinate is 0 are those ≡ 0 (mod 6): decided over the 36 points. -/
theorem isFirst_iff : ∀ t : Fin cfg1.N, isFirst (grid1.coords t) ↔ t.val % 6 = 0 :=
  (by decide +kernel : ∀ t : Fin grid1.N, isFirst (grid1.coords t) ↔ t.val % 6 = 0)
/-- The points whose contraction coordinate is 5 are those ≡ 5 (mod 6). -/
theorem isLast_iff : ∀ t : Fin cfg1.N, isLast (grid1.coords t) ↔ t.val % 6 = 5 :=
  (by decide +kernel : ∀ t : Fin grid1.N, isLast (grid1.coords t) ↔ t.val % 6 = 5)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S6144x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 5. As above for everything but the accumulator, which, at what the point before left in it (`xs0`), ends
    with one store over its whole block: `xs0` plus the tile's product. -/
noncomputable def runMiddle (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S6144x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 5. As in the middle for the accumulator; the weights and the bias are read and left as they are; and the
    output block — at anything before — ends with one store over its whole block: the accumulator's new contents
    times the transposed weights, plus the bias row. -/
noncomputable def runLast (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S6144x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R1

end
-- ==== Proof.R1Acc.lean ====
/-
  Launch 1, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R1Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg1.N, cfg1.idle 0 (grid1.coords t) = false := by decide +kernel
theorem live_feat : ∀ t : Fin cfg1.N, cfg1.idle 1 (grid1.coords t) = false := by decide +kernel
theorem live_wt : ∀ t : Fin cfg1.N, cfg1.idle 2 (grid1.coords t) = false := by decide +kernel
theorem live_bias : ∀ t : Fin cfg1.N, cfg1.idle 3 (grid1.coords t) = false := by decide +kernel
/-- Away from the last contraction coordinate the output window is idle, and its block is not written back. -/
theorem idle_out : ∀ t : Fin cfg1.N, ¬isLast (grid1.coords t) → cfg1.idle 4 (grid1.coords t) = true := by decide +kernel
theorem noFlush_out : ∀ t : Fin cfg1.N, ¬isLast (grid1.coords t) → (cfg1.win 4).flush t = false := by decide +kernel
/-- At the last contraction coordinate it is live. -/
theorem live_out : ∀ t : Fin cfg1.N, isLast (grid1.coords t) → cfg1.idle 4 (grid1.coords t) = false := by decide +kernel

/-! ## The memrefs the body is called with -/

/-- One staging buffer of the output window, through which its contents are stated (the choice does not matter). -/
abbrev VO : View sig .tc .vmem S1024x256 .f32 := (Memref.whole cc1_stg4_0 : Memref sig .tc .vmem S1024x256 .f32).view
/-- Each window's current staging memref at point `t`, spelled as the pipeline passes it, and its wholeness. -/
abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S6144x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x256 .f32 := win1_4.stage (cfg1.slots t 4)
abbrev hs4 (t : Fin cfg1.N) : (ms4 t).IsWhole := hstage1_4 ((cfg1.slots t 4).cast nbuf1_4)
/-- The accumulator: the kernel's own whole scoped buffer. -/
abbrev accM : Memref sig .tc .vmem S1024x256 .f32 := Memref.whole cc1_scratch0
abbrev VS : View sig .tc .vmem S1024x256 .f32 := accM.view

/-! ## What each case leaves -/

section
variable (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- After the body at position `n`: (the output block, the accumulator). A position ≡ 0 (mod 6) starts from nothing;
    any other continues from the accumulator of the position before; a position ≡ 5 (mod 6) also writes the output. -/
def outsAt (c : Dev nD) : (n : ℕ) → n < cfg1.N → Vec F S1024x256 .f32 × Vec F S1024x256 .f32
  | 0, hn => (idleOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 6 = 0 then
      (idleOut, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 6 = 5 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg1.N) (h0 : t.val % 6 = 0) :
    outsAt W c t.val t.isLt = (idleOut, accFirst c (grid1.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg1.N) (h0 : ¬t.val % 6 = 0) (h5 : ¬t.val % 6 = 5) :
    outsAt W c t.val t.isLt = (idleOut, accMiddle c (grid1.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg1.N) (h0 : ¬t.val % 6 = 0) (h5 : t.val % 6 = 5) :
    outsAt W c t.val t.isLt = (outLast c (grid1.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid1.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R1

end
-- ==== Proof.R1Data.lean ====
/-
  Launch 1's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R1Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec1 c : sProp 𝕄)
      = iprop((∃ d, owns (c : Thread nD τ) accM fullShare d) ∗ Pipeline.scopedRestBut (Ix := Unit) (Name := ℕ) (U := UR sig nD τ) (Lvl := ℕ) (Val := Elt F) spec1 c [cc1_scratch0]) := by
  rw [scopedRest1_split]; simp only [accM, owns_whole]; try rfl

/-- Before position `n`: at the first point every scoped buffer at anything; later the accumulator at what the point
    before left in it, the other scoped buffers at anything. -/
def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) accM fullShare ((outsAt W c n hn).2) ∗ Pipeline.scopedRestBut (Ix := Unit) (Name := ℕ) (U := UR sig nD τ) (Lvl := ℕ) (Val := Elt F) spec1 c [cc1_scratch0])

theorem PhiS_zero (c : Dev nD) (n : ℕ) (h : n ≤ cfg1.N) (hz : n = 0) : PhiS W c n h = Pipeline.scopedRest (Ix := Unit) (Name := ℕ) (U := UR sig nD τ) (Lvl := ℕ) (Val := Elt F) spec1 c := by
  subst hz; rfl

theorem PhiS_succ (c : Dev nD) (n : ℕ) (hn : n < cfg1.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec1 c [cc1_scratch0]) := rfl

theorem PhiS_pos (c : Dev nD) (n : ℕ) (h : n ≤ cfg1.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec1 c [cc1_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg1.W) : (dat W c).A w = W c (Pipeline.arrRef spec1 w) := by
  dsimp only [dat]

theorem PhiS_castSucc (c : Dev nD) (t : Fin cfg1.N) :
    (dat W c).Φ t.castSucc = PhiS W c t.val (Nat.le_of_lt t.isLt) := by
  dsimp only [dat]; simp only [Fin.coe_castSucc]

theorem after0 (c : Dev nD) (t : Fin cfg1.N) : (dat W c).after 0 t = iblk W c 0 t := by dsimp only [dat]
theorem after1 (c : Dev nD) (t : Fin cfg1.N) : (dat W c).after 1 t = iblk W c 1 t := by dsimp only [dat]
theorem after2 (c : Dev nD) (t : Fin cfg1.N) : (dat W c).after 2 t = iblk W c 2 t := by dsimp only [dat]
theorem after3 (c : Dev nD) (t : Fin cfg1.N) : (dat W c).after 3 t = iblk W c 3 t := by dsimp only [dat]
theorem after4 (c : Dev nD) (t : Fin cfg1.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg1.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 6 = 0
  · have hf : isFirst (grid1.coords t) := (isFirst_iff t).mpr h0
    have hnl : ¬isLast (grid1.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid1.coords t) := fun h => h0 ((isFirst_iff t).mp h)
    have hz : t.val ≠ 0 := fun h => h0 (by rw [h])
    by_cases h5 : t.val % 6 = 5
    · have hl : isLast (grid1.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid1.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid1.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W1, bigSep_W1]
  exact sound_body W c t

end Cert.KernelIdeal.R1

end
-- ==== Proof.R2Runs.lean ====
/-
  Launch 2 (an adjacency product with the fused epilogue), one grid point at a time. The grid is 6 row blocks by
  6 contraction blocks; the body at (m, k) does one of three things, decided by k alone:
    k = 0       the accumulator is set to zero, then the product of the (m, k) tile with rows [1024 k, 1024 k + 1024) of
                the resident feature matrix (rounded to bf16) is added to it; the output block is not touched;
    0 < k < 5   the product is added to what the point before left in the accumulator; the output block is not touched;
    k = 5       the same, and then the epilogue — the accumulator (rounded to bf16) times the transposed weight (rounded
                to bf16), plus the bias row, plus the first skip block, clamped below at zero, plus the second skip block —
                is stored over the whole output block.
  The weight, the bias row and the two skip blocks are only read at k = 5; every input buffer is left as it was.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid2.Coords) : Prop := (Scalar.cmpi .ne (Scalar.extui (Scalar.cmpi .eq (BitVec.ofNat 32 (i 1).val) 0#32)) 0#32) = 1#1
/-- The output block is written at this point: the contraction coordinate is 5, the last. -/
abbrev isLast (i : grid2.Coords) : Prop := k2_cond2 i = 1#1

/-- The points whose contraction coordinate is 0 are those ≡ 0 (mod 6): decided over the 36 points. -/
theorem isFirst_iff : ∀ t : Fin cfg2.N, isFirst (grid2.coords t) ↔ t.val % 6 = 0 :=
  (by decide +kernel : ∀ t : Fin grid2.N, isFirst (grid2.coords t) ↔ t.val % 6 = 0)
/-- The points whose contraction coordinate is 5 are those ≡ 5 (mod 6). -/
theorem isLast_iff : ∀ t : Fin cfg2.N, isLast (grid2.coords t) ↔ t.val % 6 = 5 :=
  (by decide +kernel : ∀ t : Fin grid2.N, isLast (grid2.coords t) ↔ t.val % 6 = 5)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 5. The six inputs are left as they are, the output block is handed back untouched, and the accumulator, at
    what the point before left in it (`xs0`), ends with one store over its whole block: `xs0` plus the tile's product. -/
noncomputable def runMiddle (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 5. As in the middle for the accumulator; and the output block — at anything before — ends with one store over
    its whole block: the epilogue of the accumulator's new contents, the weight, the bias row and the two skip blocks. -/
noncomputable def runLast (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R2

end
-- ==== Proof.R2Acc.lean ====
/-
  Launch 2, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R2Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg2.N, cfg2.idle 0 (grid2.coords t) = false := by decide +kernel
theorem live_in1 : ∀ t : Fin cfg2.N, cfg2.idle 1 (grid2.coords t) = false := by decide +kernel
theorem live_in2 : ∀ t : Fin cfg2.N, cfg2.idle 2 (grid2.coords t) = false := by decide +kernel
theorem live_in3 : ∀ t : Fin cfg2.N, cfg2.idle 3 (grid2.coords t) = false := by decide +kernel
theorem live_in4 : ∀ t : Fin cfg2.N, cfg2.idle 4 (grid2.coords t) = false := by decide +kernel
theorem live_in5 : ∀ t : Fin cfg2.N, cfg2.idle 5 (grid2.coords t) = false := by decide +kernel
/-- Away from the last contraction coordinate the output window is idle, and its block is not written back. -/
theorem idle_out : ∀ t : Fin cfg2.N, ¬isLast (grid2.coords t) → cfg2.idle 6 (grid2.coords t) = true := by decide +kernel
theorem noFlush_out : ∀ t : Fin cfg2.N, ¬isLast (grid2.coords t) → (cfg2.win 6).flush t = false := by decide +kernel
/-- At the last contraction coordinate it is live. -/
theorem live_out : ∀ t : Fin cfg2.N, isLast (grid2.coords t) → cfg2.idle 6 (grid2.coords t) = false := by decide +kernel

/-! ## The memrefs the body is called with -/

/-- One staging buffer of the output window, through which its contents are stated (the choice does not matter). -/
abbrev VO : View sig .tc .vmem S1024x256 .f32 := (Memref.whole cc2_stg6_0 : Memref sig .tc .vmem S1024x256 .f32).view
/-- Each window's current staging memref at point `t`, spelled as the pipeline passes it, and its wholeness. -/
abbrev ms0 (t : Fin cfg2.N) : Memref sig .tc .vmem S1024x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S6144x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S256x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x256 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1024x256 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1024x256 .f32 := win2_6.stage (cfg2.slots t 6)
abbrev hs6 (t : Fin cfg2.N) : (ms6 t).IsWhole := hstage2_6 ((cfg2.slots t 6).cast nbuf2_6)
/-- The accumulator: the kernel's own whole scoped buffer. -/
abbrev accM : Memref sig .tc .vmem S1024x256 .f32 := Memref.whole cc2_scratch0
abbrev VS : View sig .tc .vmem S1024x256 .f32 := accM.view

/-! ## What each case leaves -/

section
variable (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- After the body at position `n`: (the output block, the accumulator). A position ≡ 0 (mod 6) starts from nothing;
    any other continues from the accumulator of the position before; a position ≡ 5 (mod 6) also writes the output. -/
def outsAt (c : Dev nD) : (n : ℕ) → n < cfg2.N → Vec F S1024x256 .f32 × Vec F S1024x256 .f32
  | 0, hn => (idleOut, accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 6 = 0 then
      (idleOut, accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 6 = 5 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg2.N) (h0 : t.val % 6 = 0) :
    outsAt W c t.val t.isLt = (idleOut, accFirst c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg2.N) (h0 : ¬t.val % 6 = 0) (h5 : ¬t.val % 6 = 5) :
    outsAt W c t.val t.isLt = (idleOut, accMiddle c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg2.N) (h0 : ¬t.val % 6 = 0) (h5 : t.val % 6 = 5) :
    outsAt W c t.val t.isLt = (outLast c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R2

end
-- ==== Proof.R2Data.lean ====
/-
  Launch 2's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R2Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec2 c : sProp 𝕄)
      = iprop((∃ d, owns (c : Thread nD τ) accM fullShare d) ∗ Pipeline.scopedRestBut (Ix := Unit) (Name := ℕ) (U := UR sig nD τ) (Lvl := ℕ) (Val := Elt F) spec2 c [cc2_scratch0]) := by
  rw [scopedRest2_split]; simp only [accM, owns_whole]; try rfl

/-- Before position `n`: at the first point every scoped buffer at anything; later the accumulator at what the point
    before left in it, the other scoped buffers at anything. -/
def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) accM fullShare ((outsAt W c n hn).2) ∗ Pipeline.scopedRestBut (Ix := Unit) (Name := ℕ) (U := UR sig nD τ) (Lvl := ℕ) (Val := Elt F) spec2 c [cc2_scratch0])

theorem PhiS_zero (c : Dev nD) (n : ℕ) (h : n ≤ cfg2.N) (hz : n = 0) : PhiS W c n h = Pipeline.scopedRest (Ix := Unit) (Name := ℕ) (U := UR sig nD τ) (Lvl := ℕ) (Val := Elt F) spec2 c := by
  subst hz; rfl

theorem PhiS_succ (c : Dev nD) (n : ℕ) (hn : n < cfg2.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec2 c [cc2_scratch0]) := rfl

theorem PhiS_pos (c : Dev nD) (n : ℕ) (h : n ≤ cfg2.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec2 c [cc2_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg2 c where
  A w := W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg2.W) : (dat W c).A w = W c (Pipeline.arrRef spec2 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg2.N) :
    (dat W c).Φ t.castSucc = PhiS W c t.val (Nat.le_of_lt t.isLt) := by
  dsimp only [dat]; simp only [Fin.coe_castSucc]

theorem after0 (c : Dev nD) (t : Fin cfg2.N) : (dat W c).after 0 t = iblk W c 0 t := by dsimp only [dat]
theorem after1 (c : Dev nD) (t : Fin cfg2.N) : (dat W c).after 1 t = iblk W c 1 t := by dsimp only [dat]
theorem after2 (c : Dev nD) (t : Fin cfg2.N) : (dat W c).after 2 t = iblk W c 2 t := by dsimp only [dat]
theorem after3 (c : Dev nD) (t : Fin cfg2.N) : (dat W c).after 3 t = iblk W c 3 t := by dsimp only [dat]
theorem after4 (c : Dev nD) (t : Fin cfg2.N) : (dat W c).after 4 t = iblk W c 4 t := by dsimp only [dat]
theorem after5 (c : Dev nD) (t : Fin cfg2.N) : (dat W c).after 5 t = iblk W c 5 t := by dsimp only [dat]
theorem after6 (c : Dev nD) (t : Fin cfg2.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg2.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg2.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg2.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg2.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 6 = 0
  · have hf : isFirst (grid2.coords t) := (isFirst_iff t).mpr h0
    have hnl : ¬isLast (grid2.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid2.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid2.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid2.coords t) := fun h => h0 ((isFirst_iff t).mp h)
    have hz : t.val ≠ 0 := fun h => h0 (by rw [h])
    by_cases h5 : t.val % 6 = 5
    · have hl : isLast (grid2.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid2.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid2.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid2.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W2, bigSep_W2]
  exact sound_body W c t

end Cert.KernelIdeal.R2

end
-- ==== Proof.R3Runs.lean ====
/-
  Launch 3 (a block row of the adjacency matrix times the vertex features, then the projection: times the transposed
  weight matrix, plus the bias row), one grid point at a time. The grid is 6 row blocks by 6 contraction blocks; the
  body at (m, k) does one of three things, decided by k alone:
    k = 0       the accumulator is set to zero, then the product of the (m, k) tile with rows [1024 k, 1024 k + 1024) of
                the features is added to it; the weights, the bias and the output block are not touched;
    0 < k < 5   the product is added to what the point before left in the accumulator; the rest is not touched;
    k = 5       the same, and then the accumulator times the transposed weight matrix, plus the bias row on every row,
                is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid3.Coords) : Prop := (Scalar.cmpi .ne (Scalar.extui (Scalar.cmpi .eq (BitVec.ofNat 32 (i 1).val) 0#32)) 0#32) = 1#1
/-- The output block is written at this point: the contraction coordinate is 5, the last. -/
abbrev isLast (i : grid3.Coords) : Prop := k3_cond2 i = 1#1

/-- The points whose contraction coordinate is 0 are those ≡ 0 (mod 6): decided over the 36 points. -/
theorem isFirst_iff : ∀ t : Fin cfg3.N, isFirst (grid3.coords t) ↔ t.val % 6 = 0 :=
  (by decide +kernel : ∀ t : Fin grid3.N, isFirst (grid3.coords t) ↔ t.val % 6 = 0)
/-- The points whose contraction coordinate is 5 are those ≡ 5 (mod 6). -/
theorem isLast_iff : ∀ t : Fin cfg3.N, isLast (grid3.coords t) ↔ t.val % 6 = 5 :=
  (by decide +kernel : ∀ t : Fin grid3.N, isLast (grid3.coords t) ↔ t.val % 6 = 5)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S6144x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, fun xi4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 5. As above for everything but the accumulator, which, at what the point before left in it (`xs0`), ends
    with one store over its whole block: `xs0` plus the tile's product. -/
noncomputable def runMiddle (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S6144x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, fun xi4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 5. As in the middle for the accumulator; the weights and the bias are read and left as they are; and the
    output block — at anything before — ends with one store over its whole block: the accumulator's new contents
    times the transposed weights, plus the bias row. -/
noncomputable def runLast (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S6144x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R3

end
-- ==== Proof.R3Acc.lean ====
/-
  Launch 3, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R3Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg3.N, cfg3.idle 0 (grid3.coords t) = false := by decide +kernel
theorem live_feat : ∀ t : Fin cfg3.N, cfg3.idle 1 (grid3.coords t) = false := by decide +kernel
theorem live_wt : ∀ t : Fin cfg3.N, cfg3.idle 2 (grid3.coords t) = false := by decide +kernel
theorem live_bias : ∀ t : Fin cfg3.N, cfg3.idle 3 (grid3.coords t) = false := by decide +kernel
/-- Away from the last contraction coordinate the output window is idle, and its block is not written back. -/
theorem idle_out : ∀ t : Fin cfg3.N, ¬isLast (grid3.coords t) → cfg3.idle 4 (grid3.coords t) = true := by decide +kernel
theorem noFlush_out : ∀ t : Fin cfg3.N, ¬isLast (grid3.coords t) → (cfg3.win 4).flush t = false := by decide +kernel
/-- At the last contraction coordinate it is live. -/
theorem live_out : ∀ t : Fin cfg3.N, isLast (grid3.coords t) → cfg3.idle 4 (grid3.coords t) = false := by decide +kernel

/-! ## The memrefs the body is called with -/

/-- One staging buffer of the output window, through which its contents are stated (the choice does not matter). -/
abbrev VO : View sig .tc .vmem S1024x256 .f32 := (Memref.whole cc3_stg4_0 : Memref sig .tc .vmem S1024x256 .f32).view
/-- Each window's current staging memref at point `t`, spelled as the pipeline passes it, and its wholeness. -/
abbrev ms0 (t : Fin cfg3.N) : Memref sig .tc .vmem S1024x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S6144x256 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S256x256 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x256 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1024x256 .f32 := win3_4.stage (cfg3.slots t 4)
abbrev hs4 (t : Fin cfg3.N) : (ms4 t).IsWhole := hstage3_4 ((cfg3.slots t 4).cast nbuf3_4)
/-- The accumulator: the kernel's own whole scoped buffer. -/
abbrev accM : Memref sig .tc .vmem S1024x256 .f32 := Memref.whole cc3_scratch0
abbrev VS : View sig .tc .vmem S1024x256 .f32 := accM.view

/-! ## What each case leaves -/

section
variable (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))

/-- After the body at position `n`: (the output block, the accumulator). A position ≡ 0 (mod 6) starts from nothing;
    any other continues from the accumulator of the position before; a position ≡ 5 (mod 6) also writes the output. -/
def outsAt (c : Dev nD) : (n : ℕ) → n < cfg3.N → Vec F S1024x256 .f32 × Vec F S1024x256 .f32
  | 0, hn => (idleOut, accFirst c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 6 = 0 then
      (idleOut, accFirst c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 6 = 5 then
      (outLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg3.N) (h0 : t.val % 6 = 0) :
    outsAt W c t.val t.isLt = (idleOut, accFirst c (grid3.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg3.N) (h0 : ¬t.val % 6 = 0) (h5 : ¬t.val % 6 = 5) :
    outsAt W c t.val t.isLt = (idleOut, accMiddle c (grid3.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg3.N) (h0 : ¬t.val % 6 = 0) (h5 : t.val % 6 = 5) :
    outsAt W c t.val t.isLt = (outLast c (grid3.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid3.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R3

end
-- ==== Proof.R3Data.lean ====
/-
  Launch 3's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R3Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec3 c : sProp 𝕄)
      = iprop((∃ d, owns (c : Thread nD τ) accM fullShare d) ∗ Pipeline.scopedRestBut (Ix := Unit) (Name := ℕ) (U := UR sig nD τ) (Lvl := ℕ) (Val := Elt F) spec3 c [cc3_scratch0]) := by
  rw [scopedRest3_split]; simp only [accM, owns_whole]; try rfl

/-- Before position `n`: at the first point every scoped buffer at anything; later the accumulator at what the point
    before left in it, the other scoped buffers at anything. -/
def PhiS (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) accM fullShare ((outsAt W c n hn).2) ∗ Pipeline.scopedRestBut (Ix := Unit) (Name := ℕ) (U := UR sig nD τ) (Lvl := ℕ) (Val := Elt F) spec3 c [cc3_scratch0])

theorem PhiS_zero (c : Dev nD) (n : ℕ) (h : n ≤ cfg3.N) (hz : n = 0) : PhiS W c n h = Pipeline.scopedRest (Ix := Unit) (Name := ℕ) (U := UR sig nD τ) (Lvl := ℕ) (Val := Elt F) spec3 c := by
  subst hz; rfl

theorem PhiS_succ (c : Dev nD) (n : ℕ) (hn : n < cfg3.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec3 c [cc3_scratch0]) := rfl

theorem PhiS_pos (c : Dev nD) (n : ℕ) (h : n ≤ cfg3.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec3 c [cc3_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg3 c where
  A w := W c (Pipeline.arrRef spec3 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg3.W) : (dat W c).A w = W c (Pipeline.arrRef spec3 w) := by
  dsimp only [dat]

theorem PhiS_castSucc (c : Dev nD) (t : Fin cfg3.N) :
    (dat W c).Φ t.castSucc = PhiS W c t.val (Nat.le_of_lt t.isLt) := by
  dsimp only [dat]; simp only [Fin.coe_castSucc]

theorem after0 (c : Dev nD) (t : Fin cfg3.N) : (dat W c).after 0 t = iblk W c 0 t := by dsimp only [dat]
theorem after1 (c : Dev nD) (t : Fin cfg3.N) : (dat W c).after 1 t = iblk W c 1 t := by dsimp only [dat]
theorem after2 (c : Dev nD) (t : Fin cfg3.N) : (dat W c).after 2 t = iblk W c 2 t := by dsimp only [dat]
theorem after3 (c : Dev nD) (t : Fin cfg3.N) : (dat W c).after 3 t = iblk W c 3 t := by dsimp only [dat]
theorem after4 (c : Dev nD) (t : Fin cfg3.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg3.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg3.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg3.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 6 = 0
  · have hf : isFirst (grid3.coords t) := (isFirst_iff t).mpr h0
    have hnl : ¬isLast (grid3.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid3.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid3.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid3.coords t) := fun h => h0 ((isFirst_iff t).mp h)
    have hz : t.val ≠ 0 := fun h => h0 (by rw [h])
    by_cases h5 : t.val % 6 = 5
    · have hl : isLast (grid3.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid3.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid3.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid3.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W3, bigSep_W3]
  exact sound_body W c t

end Cert.KernelIdeal.R3

end
-- ==== Proof.R4Runs.lean ====
/-
  Launch 4 (an adjacency product with the fused epilogue), one grid point at a time. The grid is 6 row blocks by
  6 contraction blocks; the body at (m, k) does one of three things, decided by k alone:
    k = 0       the accumulator is set to zero, then the product of the (m, k) tile with rows [1024 k, 1024 k + 1024) of
                the resident feature matrix (rounded to bf16) is added to it; the output block is not touched;
    0 < k < 5   the product is added to what the point before left in the accumulator; the output block is not touched;
    k = 5       the same, and then the epilogue — the accumulator (rounded to bf16) times the transposed weight (rounded
                to bf16), plus the bias row, plus the first skip block, clamped below at zero, plus the second skip block —
                is stored over the whole output block.
  The weight, the bias row and the two skip blocks are only read at k = 5; every input buffer is left as it was.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid4.Coords) : Prop := (Scalar.cmpi .ne (Scalar.extui (Scalar.cmpi .eq (BitVec.ofNat 32 (i 1).val) 0#32)) 0#32) = 1#1
/-- The output block is written at this point: the contraction coordinate is 5, the last. -/
abbrev isLast (i : grid4.Coords) : Prop := k4_cond2 i = 1#1

/-- The points whose contraction coordinate is 0 are those ≡ 0 (mod 6): decided over the 36 points. -/
theorem isFirst_iff : ∀ t : Fin cfg4.N, isFirst (grid4.coords t) ↔ t.val % 6 = 0 :=
  (by decide +kernel : ∀ t : Fin grid4.N, isFirst (grid4.coords t) ↔ t.val % 6 = 0)
/-- The points whose contraction coordinate is 5 are those ≡ 5 (mod 6). -/
theorem isLast_iff : ∀ t : Fin cfg4.N, isLast (grid4.coords t) ↔ t.val % 6 = 5 :=
  (by decide +kernel : ∀ t : Fin grid4.N, isLast (grid4.coords t) ↔ t.val % 6 = 5)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 5. The six inputs are left as they are, the output block is handed back untouched, and the accumulator, at
    what the point before left in it (`xs0`), ends with one store over its whole block: `xs0` plus the tile's product. -/
noncomputable def runMiddle (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 5. As in the middle for the accumulator; and the output block — at anything before — ends with one store over
    its whole block: the epilogue of the accumulator's new contents, the weight, the bias row and the two skip blocks. -/
noncomputable def runLast (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R4

end
-- ==== Proof.R4Acc.lean ====
/-
  Launch 4, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R4Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg4.N, cfg4.idle 0 (grid4.coords t) = false := by decide +kernel
theorem live_in1 : ∀ t : Fin cfg4.N, cfg4.idle 1 (grid4.coords t) = false := by decide +kernel
theorem live_in2 : ∀ t : Fin cfg4.N, cfg4.idle 2 (grid4.coords t) = false := by decide +kernel
theorem live_in3 : ∀ t : Fin cfg4.N, cfg4.idle 3 (grid4.coords t) = false := by decide +kernel
theorem live_in4 : ∀ t : Fin cfg4.N, cfg4.idle 4 (grid4.coords t) = false := by decide +kernel
theorem live_in5 : ∀ t : Fin cfg4.N, cfg4.idle 5 (grid4.coords t) = false := by decide +kernel
/-- Away from the last contraction coordinate the output window is idle, and its block is not written back. -/
theorem idle_out : ∀ t : Fin cfg4.N, ¬isLast (grid4.coords t) → cfg4.idle 6 (grid4.coords t) = true := by decide +kernel
theorem noFlush_out : ∀ t : Fin cfg4.N, ¬isLast (grid4.coords t) → (cfg4.win 6).flush t = false := by decide +kernel
/-- At the last contraction coordinate it is live. -/
theorem live_out : ∀ t : Fin cfg4.N, isLast (grid4.coords t) → cfg4.idle 6 (grid4.coords t) = false := by decide +kernel

/-! ## The memrefs the body is called with -/

/-- One staging buffer of the output window, through which its contents are stated (the choice does not matter). -/
abbrev VO : View sig .tc .vmem S1024x256 .f32 := (Memref.whole cc4_stg6_0 : Memref sig .tc .vmem S1024x256 .f32).view
/-- Each window's current staging memref at point `t`, spelled as the pipeline passes it, and its wholeness. -/
abbrev ms0 (t : Fin cfg4.N) : Memref sig .tc .vmem S1024x1024 .bf16 := win4_0.stage (cfg4.slots t 0)
abbrev hs0 (t : Fin cfg4.N) : (ms0 t).IsWhole := hstage4_0 ((cfg4.slots t 0).cast nbuf4_0)
abbrev ms1 (t : Fin cfg4.N) : Memref sig .tc .vmem S6144x256 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S256x256 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S1x256 .f32 := win4_3.stage (cfg4.slots t 3)
abbrev hs3 (t : Fin cfg4.N) : (ms3 t).IsWhole := hstage4_3 ((cfg4.slots t 3).cast nbuf4_3)
abbrev ms4 (t : Fin cfg4.N) : Memref sig .tc .vmem S1024x256 .f32 := win4_4.stage (cfg4.slots t 4)
abbrev hs4 (t : Fin cfg4.N) : (ms4 t).IsWhole := hstage4_4 ((cfg4.slots t 4).cast nbuf4_4)
abbrev ms5 (t : Fin cfg4.N) : Memref sig .tc .vmem S1024x256 .f32 := win4_5.stage (cfg4.slots t 5)
abbrev hs5 (t : Fin cfg4.N) : (ms5 t).IsWhole := hstage4_5 ((cfg4.slots t 5).cast nbuf4_5)
abbrev ms6 (t : Fin cfg4.N) : Memref sig .tc .vmem S1024x256 .f32 := win4_6.stage (cfg4.slots t 6)
abbrev hs6 (t : Fin cfg4.N) : (ms6 t).IsWhole := hstage4_6 ((cfg4.slots t 6).cast nbuf4_6)
/-- The accumulator: the kernel's own whole scoped buffer. -/
abbrev accM : Memref sig .tc .vmem S1024x256 .f32 := Memref.whole cc4_scratch0
abbrev VS : View sig .tc .vmem S1024x256 .f32 := accM.view

/-! ## What each case leaves -/

section
variable (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))

/-- After the body at position `n`: (the output block, the accumulator). A position ≡ 0 (mod 6) starts from nothing;
    any other continues from the accumulator of the position before; a position ≡ 5 (mod 6) also writes the output. -/
def outsAt (c : Dev nD) : (n : ℕ) → n < cfg4.N → Vec F S1024x256 .f32 × Vec F S1024x256 .f32
  | 0, hn => (idleOut, accFirst c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 6 = 0 then
      (idleOut, accFirst c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 6 = 5 then
      (outLast c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg4.N) (h0 : t.val % 6 = 0) :
    outsAt W c t.val t.isLt = (idleOut, accFirst c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg4.N) (h0 : ¬t.val % 6 = 0) (h5 : ¬t.val % 6 = 5) :
    outsAt W c t.val t.isLt = (idleOut, accMiddle c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg4.N) (h0 : ¬t.val % 6 = 0) (h5 : t.val % 6 = 5) :
    outsAt W c t.val t.isLt = (outLast c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R4

end
-- ==== Proof.R4Data.lean ====
/-
  Launch 4's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R4Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec4 c : sProp 𝕄)
      = iprop((∃ d, owns (c : Thread nD τ) accM fullShare d) ∗ Pipeline.scopedRestBut (Ix := Unit) (Name := ℕ) (U := UR sig nD τ) (Lvl := ℕ) (Val := Elt F) spec4 c [cc4_scratch0]) := by
  rw [scopedRest4_split]; simp only [accM, owns_whole]; try rfl

/-- Before position `n`: at the first point every scoped buffer at anything; later the accumulator at what the point
    before left in it, the other scoped buffers at anything. -/
def PhiS (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) accM fullShare ((outsAt W c n hn).2) ∗ Pipeline.scopedRestBut (Ix := Unit) (Name := ℕ) (U := UR sig nD τ) (Lvl := ℕ) (Val := Elt F) spec4 c [cc4_scratch0])

theorem PhiS_zero (c : Dev nD) (n : ℕ) (h : n ≤ cfg4.N) (hz : n = 0) : PhiS W c n h = Pipeline.scopedRest (Ix := Unit) (Name := ℕ) (U := UR sig nD τ) (Lvl := ℕ) (Val := Elt F) spec4 c := by
  subst hz; rfl

theorem PhiS_succ (c : Dev nD) (n : ℕ) (hn : n < cfg4.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec4 c [cc4_scratch0]) := rfl

theorem PhiS_pos (c : Dev nD) (n : ℕ) (h : n ≤ cfg4.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec4 c [cc4_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg4 c where
  A w := W c (Pipeline.arrRef spec4 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg4.W) : (dat W c).A w = W c (Pipeline.arrRef spec4 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg4.N) :
    (dat W c).Φ t.castSucc = PhiS W c t.val (Nat.le_of_lt t.isLt) := by
  dsimp only [dat]; simp only [Fin.coe_castSucc]

theorem after0 (c : Dev nD) (t : Fin cfg4.N) : (dat W c).after 0 t = iblk W c 0 t := by dsimp only [dat]
theorem after1 (c : Dev nD) (t : Fin cfg4.N) : (dat W c).after 1 t = iblk W c 1 t := by dsimp only [dat]
theorem after2 (c : Dev nD) (t : Fin cfg4.N) : (dat W c).after 2 t = iblk W c 2 t := by dsimp only [dat]
theorem after3 (c : Dev nD) (t : Fin cfg4.N) : (dat W c).after 3 t = iblk W c 3 t := by dsimp only [dat]
theorem after4 (c : Dev nD) (t : Fin cfg4.N) : (dat W c).after 4 t = iblk W c 4 t := by dsimp only [dat]
theorem after5 (c : Dev nD) (t : Fin cfg4.N) : (dat W c).after 5 t = iblk W c 5 t := by dsimp only [dat]
theorem after6 (c : Dev nD) (t : Fin cfg4.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg4.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg4.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg4.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg4.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg4.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg4.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg4.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg4.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 6 = 0
  · have hf : isFirst (grid4.coords t) := (isFirst_iff t).mpr h0
    have hnl : ¬isLast (grid4.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid4.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid4.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid4.coords t) := fun h => h0 ((isFirst_iff t).mp h)
    have hz : t.val ≠ 0 := fun h => h0 (by rw [h])
    by_cases h5 : t.val % 6 = 5
    · have hl : isLast (grid4.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid4.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid4.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid4.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W4, bigSep_W4]
  exact sound_body W c t

end Cert.KernelIdeal.R4

end
-- ==== Proof.R5Runs.lean ====
/-
  Launch 5 (a block row of the adjacency matrix times the vertex features, then the projection: times the transposed
  weight matrix, plus the bias row), one grid point at a time. The grid is 6 row blocks by 6 contraction blocks; the
  body at (m, k) does one of three things, decided by k alone:
    k = 0       the accumulator is set to zero, then the product of the (m, k) tile with rows [1024 k, 1024 k + 1024) of
                the features is added to it; the weights, the bias and the output block are not touched;
    0 < k < 5   the product is added to what the point before left in the accumulator; the rest is not touched;
    k = 5       the same, and then the accumulator times the transposed weight matrix, plus the bias row on every row,
                is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid5.Coords) : Prop := (Scalar.cmpi .ne (Scalar.extui (Scalar.cmpi .eq (BitVec.ofNat 32 (i 1).val) 0#32)) 0#32) = 1#1
/-- The output block is written at this point: the contraction coordinate is 5, the last. -/
abbrev isLast (i : grid5.Coords) : Prop := k5_cond2 i = 1#1

/-- The points whose contraction coordinate is 0 are those ≡ 0 (mod 6): decided over the 36 points. -/
theorem isFirst_iff : ∀ t : Fin cfg5.N, isFirst (grid5.coords t) ↔ t.val % 6 = 0 :=
  (by decide +kernel : ∀ t : Fin grid5.N, isFirst (grid5.coords t) ↔ t.val % 6 = 0)
/-- The points whose contraction coordinate is 5 are those ≡ 5 (mod 6). -/
theorem isLast_iff : ∀ t : Fin cfg5.N, isLast (grid5.coords t) ↔ t.val % 6 = 5 :=
  (by decide +kernel : ∀ t : Fin grid5.N, isLast (grid5.coords t) ↔ t.val % 6 = 5)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S6144x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, fun xi4 E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 5. As above for everything but the accumulator, which, at what the point before left in it (`xs0`), ends
    with one store over its whole block: `xs0` plus the tile's product. -/
noncomputable def runMiddle (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S6144x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, fun xi4 E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 5. As in the middle for the accumulator; the weights and the bias are read and left as they are; and the
    output block — at anything before — ends with one store over its whole block: the accumulator's new contents
    times the transposed weights, plus the bias row. -/
noncomputable def runLast (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S6144x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, ?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R5

end
-- ==== Proof.R5Acc.lean ====
/-
  Launch 5, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R5Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg5.N, cfg5.idle 0 (grid5.coords t) = false := by decide +kernel
theorem live_feat : ∀ t : Fin cfg5.N, cfg5.idle 1 (grid5.coords t) = false := by decide +kernel
theorem live_wt : ∀ t : Fin cfg5.N, cfg5.idle 2 (grid5.coords t) = false := by decide +kernel
theorem live_bias : ∀ t : Fin cfg5.N, cfg5.idle 3 (grid5.coords t) = false := by decide +kernel
/-- Away from the last contraction coordinate the output window is idle, and its block is not written back. -/
theorem idle_out : ∀ t : Fin cfg5.N, ¬isLast (grid5.coords t) → cfg5.idle 4 (grid5.coords t) = true := by decide +kernel
theorem noFlush_out : ∀ t : Fin cfg5.N, ¬isLast (grid5.coords t) → (cfg5.win 4).flush t = false := by decide +kernel
/-- At the last contraction coordinate it is live. -/
theorem live_out : ∀ t : Fin cfg5.N, isLast (grid5.coords t) → cfg5.idle 4 (grid5.coords t) = false := by decide +kernel

/-! ## The memrefs the body is called with -/

/-- One staging buffer of the output window, through which its contents are stated (the choice does not matter). -/
abbrev VO : View sig .tc .vmem S1024x256 .f32 := (Memref.whole cc5_stg4_0 : Memref sig .tc .vmem S1024x256 .f32).view
/-- Each window's current staging memref at point `t`, spelled as the pipeline passes it, and its wholeness. -/
abbrev ms0 (t : Fin cfg5.N) : Memref sig .tc .vmem S1024x1024 .bf16 := win5_0.stage (cfg5.slots t 0)
abbrev hs0 (t : Fin cfg5.N) : (ms0 t).IsWhole := hstage5_0 ((cfg5.slots t 0).cast nbuf5_0)
abbrev ms1 (t : Fin cfg5.N) : Memref sig .tc .vmem S6144x256 .f32 := win5_1.stage (cfg5.slots t 1)
abbrev hs1 (t : Fin cfg5.N) : (ms1 t).IsWhole := hstage5_1 ((cfg5.slots t 1).cast nbuf5_1)
abbrev ms2 (t : Fin cfg5.N) : Memref sig .tc .vmem S256x256 .f32 := win5_2.stage (cfg5.slots t 2)
abbrev hs2 (t : Fin cfg5.N) : (ms2 t).IsWhole := hstage5_2 ((cfg5.slots t 2).cast nbuf5_2)
abbrev ms3 (t : Fin cfg5.N) : Memref sig .tc .vmem S1x256 .f32 := win5_3.stage (cfg5.slots t 3)
abbrev hs3 (t : Fin cfg5.N) : (ms3 t).IsWhole := hstage5_3 ((cfg5.slots t 3).cast nbuf5_3)
abbrev ms4 (t : Fin cfg5.N) : Memref sig .tc .vmem S1024x256 .f32 := win5_4.stage (cfg5.slots t 4)
abbrev hs4 (t : Fin cfg5.N) : (ms4 t).IsWhole := hstage5_4 ((cfg5.slots t 4).cast nbuf5_4)
/-- The accumulator: the kernel's own whole scoped buffer. -/
abbrev accM : Memref sig .tc .vmem S1024x256 .f32 := Memref.whole cc5_scratch0
abbrev VS : View sig .tc .vmem S1024x256 .f32 := accM.view

/-! ## What each case leaves -/

section
variable (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg5.W) (t : Fin cfg5.N) : ((cfg5.win w).xblock (cfg5.grid.coords t)).Idx → Elt F (cfg5.win w).elt :=
  ((cfg5.win w).blk t).view.read (Elt F) (W c (Pipeline.arrRef spec5 w))

/-- After the body at position `n`: (the output block, the accumulator). A position ≡ 0 (mod 6) starts from nothing;
    any other continues from the accumulator of the position before; a position ≡ 5 (mod 6) also writes the output. -/
def outsAt (c : Dev nD) : (n : ℕ) → n < cfg5.N → Vec F S1024x256 .f32 × Vec F S1024x256 .f32
  | 0, hn => (idleOut, accFirst c (grid5.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 6 = 0 then
      (idleOut, accFirst c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 6 = 5 then
      (outLast c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg5.N) (h0 : t.val % 6 = 0) :
    outsAt W c t.val t.isLt = (idleOut, accFirst c (grid5.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg5.N) (h0 : ¬t.val % 6 = 0) (h5 : ¬t.val % 6 = 5) :
    outsAt W c t.val t.isLt = (idleOut, accMiddle c (grid5.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg5.N) (h0 : ¬t.val % 6 = 0) (h5 : t.val % 6 = 5) :
    outsAt W c t.val t.isLt = (outLast c (grid5.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid5.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R5

end
-- ==== Proof.R5Data.lean ====
/-
  Launch 5's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R5Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec5 c : sProp 𝕄)
      = iprop((∃ d, owns (c : Thread nD τ) accM fullShare d) ∗ Pipeline.scopedRestBut (Ix := Unit) (Name := ℕ) (U := UR sig nD τ) (Lvl := ℕ) (Val := Elt F) spec5 c [cc5_scratch0]) := by
  rw [scopedRest5_split]; simp only [accM, owns_whole]; try rfl

/-- Before position `n`: at the first point every scoped buffer at anything; later the accumulator at what the point
    before left in it, the other scoped buffers at anything. -/
def PhiS (c : Dev nD) : (n : ℕ) → n ≤ cfg5.N → sProp 𝕄
  | 0, _ => Pipeline.scopedRest (Ix := Unit) (Name := ℕ) (U := UR sig nD τ) (Lvl := ℕ) (Val := Elt F) spec5 c
  | n + 1, hn => iprop(owns (c : Thread nD τ) accM fullShare ((outsAt W c n hn).2) ∗ Pipeline.scopedRestBut (Ix := Unit) (Name := ℕ) (U := UR sig nD τ) (Lvl := ℕ) (Val := Elt F) spec5 c [cc5_scratch0])

theorem PhiS_zero (c : Dev nD) (n : ℕ) (h : n ≤ cfg5.N) (hz : n = 0) : PhiS W c n h = Pipeline.scopedRest (Ix := Unit) (Name := ℕ) (U := UR sig nD τ) (Lvl := ℕ) (Val := Elt F) spec5 c := by
  subst hz; rfl

theorem PhiS_succ (c : Dev nD) (n : ℕ) (hn : n < cfg5.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec5 c [cc5_scratch0]) := rfl

theorem PhiS_pos (c : Dev nD) (n : ℕ) (h : n ≤ cfg5.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec5 c [cc5_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg5 c where
  A w := W c (Pipeline.arrRef spec5 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg5.W) : (dat W c).A w = W c (Pipeline.arrRef spec5 w) := by
  dsimp only [dat]

theorem PhiS_castSucc (c : Dev nD) (t : Fin cfg5.N) :
    (dat W c).Φ t.castSucc = PhiS W c t.val (Nat.le_of_lt t.isLt) := by
  dsimp only [dat]; simp only [Fin.coe_castSucc]

theorem after0 (c : Dev nD) (t : Fin cfg5.N) : (dat W c).after 0 t = iblk W c 0 t := by dsimp only [dat]
theorem after1 (c : Dev nD) (t : Fin cfg5.N) : (dat W c).after 1 t = iblk W c 1 t := by dsimp only [dat]
theorem after2 (c : Dev nD) (t : Fin cfg5.N) : (dat W c).after 2 t = iblk W c 2 t := by dsimp only [dat]
theorem after3 (c : Dev nD) (t : Fin cfg5.N) : (dat W c).after 3 t = iblk W c 3 t := by dsimp only [dat]
theorem after4 (c : Dev nD) (t : Fin cfg5.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg5.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg5.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg5.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg5.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg5.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg5.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg5.N) :
    bodyPre W c t ⊢ wp frame (wpE (defs₀ (F := F)) Variants.none c none) Set.univ (bodyAt5 t) (fun _ => bodyPost W c t) := by
  unfold bodyPre bodyPost bodyAt5
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 6 = 0
  · have hf : isFirst (grid5.coords t) := (isFirst_iff t).mpr h0
    have hnl : ¬isLast (grid5.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid5.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid5.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid5.coords t) := fun h => h0 ((isFirst_iff t).mp h)
    have hz : t.val ≠ 0 := fun h => h0 (by rw [h])
    by_cases h5 : t.val % 6 = 5
    · have hl : isLast (grid5.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid5.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid5.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid5.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W5, bigSep_W5]
  exact sound_body W c t

end Cert.KernelIdeal.R5

end
-- ==== Proof.R6Runs.lean ====
/-
  Launch 6 (an adjacency product with the fused epilogue), one grid point at a time. The grid is 6 row blocks by
  6 contraction blocks; the body at (m, k) does one of three things, decided by k alone:
    k = 0       the accumulator is set to zero, then the product of the (m, k) tile with rows [1024 k, 1024 k + 1024) of
                the resident feature matrix (rounded to bf16) is added to it; the output block is not touched;
    0 < k < 5   the product is added to what the point before left in the accumulator; the output block is not touched;
    k = 5       the same, and then the epilogue — the accumulator (rounded to bf16) times the transposed weight (rounded
                to bf16), plus the bias row, plus the first skip block, clamped below at zero, plus the second skip block —
                is stored over the whole output block.
  The weight, the bias row and the two skip blocks are only read at k = 5; every input buffer is left as it was.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid6.Coords) : Prop := (Scalar.cmpi .ne (Scalar.extui (Scalar.cmpi .eq (BitVec.ofNat 32 (i 1).val) 0#32)) 0#32) = 1#1
/-- The output block is written at this point: the contraction coordinate is 5, the last. -/
abbrev isLast (i : grid6.Coords) : Prop := k6_cond2 i = 1#1

/-- The points whose contraction coordinate is 0 are those ≡ 0 (mod 6): decided over the 36 points. -/
theorem isFirst_iff : ∀ t : Fin cfg6.N, isFirst (grid6.coords t) ↔ t.val % 6 = 0 :=
  (by decide +kernel : ∀ t : Fin grid6.N, isFirst (grid6.coords t) ↔ t.val % 6 = 0)
/-- The points whose contraction coordinate is 5 are those ≡ 5 (mod 6). -/
theorem isLast_iff : ∀ t : Fin cfg6.N, isLast (grid6.coords t) ↔ t.val % 6 = 5 :=
  (by decide +kernel : ∀ t : Fin grid6.N, isLast (grid6.coords t) ↔ t.val % 6 = 5)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8 arg9 harg9) K } := by
  refine ⟨?_, fun xi6 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 5. The six inputs are left as they are, the output block is handed back untouched, and the accumulator, at
    what the point before left in it (`xs0`), ends with one store over its whole block: `xs0` plus the tile's product. -/
noncomputable def runMiddle (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8 arg9 harg9) K } := by
  refine ⟨?_, fun xi6 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 5. As in the middle for the accumulator; and the output block — at anything before — ends with one store over
    its whole block: the epilogue of the accumulator's new contents, the weight, the bias row and the two skip blocks. -/
noncomputable def runLast (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8 arg9 harg9) K } := by
  refine ⟨?_, ?_, fun E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R6

end
-- ==== Proof.R6Acc.lean ====
/-
  Launch 6, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R6Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg6.N, cfg6.idle 0 (grid6.coords t) = false := by decide +kernel
theorem live_in1 : ∀ t : Fin cfg6.N, cfg6.idle 1 (grid6.coords t) = false := by decide +kernel
theorem live_in2 : ∀ t : Fin cfg6.N, cfg6.idle 2 (grid6.coords t) = false := by decide +kernel
theorem live_in3 : ∀ t : Fin cfg6.N, cfg6.idle 3 (grid6.coords t) = false := by decide +kernel
theorem live_in4 : ∀ t : Fin cfg6.N, cfg6.idle 4 (grid6.coords t) = false := by decide +kernel
theorem live_in5 : ∀ t : Fin cfg6.N, cfg6.idle 5 (grid6.coords t) = false := by decide +kernel
/-- Away from the last contraction coordinate the output window is idle, and its block is not written back. -/
theorem idle_out : ∀ t : Fin cfg6.N, ¬isLast (grid6.coords t) → cfg6.idle 6 (grid6.coords t) = true := by decide +kernel
theorem noFlush_out : ∀ t : Fin cfg6.N, ¬isLast (grid6.coords t) → (cfg6.win 6).flush t = false := by decide +kernel
/-- At the last contraction coordinate it is live. -/
theorem live_out : ∀ t : Fin cfg6.N, isLast (grid6.coords t) → cfg6.idle 6 (grid6.coords t) = false := by decide +kernel

/-! ## The memrefs the body is called with -/

/-- One staging buffer of the output window, through which its contents are stated (the choice does not matter). -/
abbrev VO : View sig .tc .vmem S1024x256 .f32 := (Memref.whole cc6_stg6_0 : Memref sig .tc .vmem S1024x256 .f32).view
/-- Each window's current staging memref at point `t`, spelled as the pipeline passes it, and its wholeness. -/
abbrev ms0 (t : Fin cfg6.N) : Memref sig .tc .vmem S1024x1024 .bf16 := win6_0.stage (cfg6.slots t 0)
abbrev hs0 (t : Fin cfg6.N) : (ms0 t).IsWhole := hstage6_0 ((cfg6.slots t 0).cast nbuf6_0)
abbrev ms1 (t : Fin cfg6.N) : Memref sig .tc .vmem S6144x256 .f32 := win6_1.stage (cfg6.slots t 1)
abbrev hs1 (t : Fin cfg6.N) : (ms1 t).IsWhole := hstage6_1 ((cfg6.slots t 1).cast nbuf6_1)
abbrev ms2 (t : Fin cfg6.N) : Memref sig .tc .vmem S256x256 .f32 := win6_2.stage (cfg6.slots t 2)
abbrev hs2 (t : Fin cfg6.N) : (ms2 t).IsWhole := hstage6_2 ((cfg6.slots t 2).cast nbuf6_2)
abbrev ms3 (t : Fin cfg6.N) : Memref sig .tc .vmem S1x256 .f32 := win6_3.stage (cfg6.slots t 3)
abbrev hs3 (t : Fin cfg6.N) : (ms3 t).IsWhole := hstage6_3 ((cfg6.slots t 3).cast nbuf6_3)
abbrev ms4 (t : Fin cfg6.N) : Memref sig .tc .vmem S1024x256 .f32 := win6_4.stage (cfg6.slots t 4)
abbrev hs4 (t : Fin cfg6.N) : (ms4 t).IsWhole := hstage6_4 ((cfg6.slots t 4).cast nbuf6_4)
abbrev ms5 (t : Fin cfg6.N) : Memref sig .tc .vmem S1024x256 .f32 := win6_5.stage (cfg6.slots t 5)
abbrev hs5 (t : Fin cfg6.N) : (ms5 t).IsWhole := hstage6_5 ((cfg6.slots t 5).cast nbuf6_5)
abbrev ms6 (t : Fin cfg6.N) : Memref sig .tc .vmem S1024x256 .f32 := win6_6.stage (cfg6.slots t 6)
abbrev hs6 (t : Fin cfg6.N) : (ms6 t).IsWhole := hstage6_6 ((cfg6.slots t 6).cast nbuf6_6)
/-- The accumulator: the kernel's own whole scoped buffer. -/
abbrev accM : Memref sig .tc .vmem S1024x256 .f32 := Memref.whole cc6_scratch0
abbrev VS : View sig .tc .vmem S1024x256 .f32 := accM.view

/-! ## What each case leaves -/

section
variable (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg6.W) (t : Fin cfg6.N) : ((cfg6.win w).xblock (cfg6.grid.coords t)).Idx → Elt F (cfg6.win w).elt :=
  ((cfg6.win w).blk t).view.read (Elt F) (W c (Pipeline.arrRef spec6 w))

/-- After the body at position `n`: (the output block, the accumulator). A position ≡ 0 (mod 6) starts from nothing;
    any other continues from the accumulator of the position before; a position ≡ 5 (mod 6) also writes the output. -/
def outsAt (c : Dev nD) : (n : ℕ) → n < cfg6.N → Vec F S1024x256 .f32 × Vec F S1024x256 .f32
  | 0, hn => (idleOut, accFirst c (grid6.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 6 = 0 then
      (idleOut, accFirst c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 6 = 5 then
      (outLast c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg6.N) (h0 : t.val % 6 = 0) :
    outsAt W c t.val t.isLt = (idleOut, accFirst c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg6.N) (h0 : ¬t.val % 6 = 0) (h5 : ¬t.val % 6 = 5) :
    outsAt W c t.val t.isLt = (idleOut, accMiddle c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg6.N) (h0 : ¬t.val % 6 = 0) (h5 : t.val % 6 = 5) :
    outsAt W c t.val t.isLt = (outLast c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R6

end
-- ==== Proof.R6Data.lean ====
/-
  Launch 6's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R6Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec6 c : sProp 𝕄)
      = iprop((∃ d, owns (c : Thread nD τ) accM fullShare d) ∗ Pipeline.scopedRestBut (Ix := Unit) (Name := ℕ) (U := UR sig nD τ) (Lvl := ℕ) (Val := Elt F) spec6 c [cc6_scratch0]) := by
  rw [scopedRest6_split]; simp only [accM, owns_whole]; try rfl

/-- Before position `n`: at the first point every scoped buffer at anything; later the accumulator at what the point
    before left in it, the other scoped buffers at anything. -/
def PhiS (c : Dev nD) : (n : ℕ) → n ≤ cfg6.N → sProp 𝕄
  | 0, _ => Pipeline.scopedRest (Ix := Unit) (Name := ℕ) (U := UR sig nD τ) (Lvl := ℕ) (Val := Elt F) spec6 c
  | n + 1, hn => iprop(owns (c : Thread nD τ) accM fullShare ((outsAt W c n hn).2) ∗ Pipeline.scopedRestBut (Ix := Unit) (Name := ℕ) (U := UR sig nD τ) (Lvl := ℕ) (Val := Elt F) spec6 c [cc6_scratch0])

theorem PhiS_zero (c : Dev nD) (n : ℕ) (h : n ≤ cfg6.N) (hz : n = 0) : PhiS W c n h = Pipeline.scopedRest (Ix := Unit) (Name := ℕ) (U := UR sig nD τ) (Lvl := ℕ) (Val := Elt F) spec6 c := by
  subst hz; rfl

theorem PhiS_succ (c : Dev nD) (n : ℕ) (hn : n < cfg6.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec6 c [cc6_scratch0]) := rfl

theorem PhiS_pos (c : Dev nD) (n : ℕ) (h : n ≤ cfg6.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec6 c [cc6_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg6 c where
  A w := W c (Pipeline.arrRef spec6 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg6.W) : (dat W c).A w = W c (Pipeline.arrRef spec6 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg6.N) :
    (dat W c).Φ t.castSucc = PhiS W c t.val (Nat.le_of_lt t.isLt) := by
  dsimp only [dat]; simp only [Fin.coe_castSucc]

theorem after0 (c : Dev nD) (t : Fin cfg6.N) : (dat W c).after 0 t = iblk W c 0 t := by dsimp only [dat]
theorem after1 (c : Dev nD) (t : Fin cfg6.N) : (dat W c).after 1 t = iblk W c 1 t := by dsimp only [dat]
theorem after2 (c : Dev nD) (t : Fin cfg6.N) : (dat W c).after 2 t = iblk W c 2 t := by dsimp only [dat]
theorem after3 (c : Dev nD) (t : Fin cfg6.N) : (dat W c).after 3 t = iblk W c 3 t := by dsimp only [dat]
theorem after4 (c : Dev nD) (t : Fin cfg6.N) : (dat W c).after 4 t = iblk W c 4 t := by dsimp only [dat]
theorem after5 (c : Dev nD) (t : Fin cfg6.N) : (dat W c).after 5 t = iblk W c 5 t := by dsimp only [dat]
theorem after6 (c : Dev nD) (t : Fin cfg6.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg6.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg6.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg6.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg6.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg6.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg6.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg6.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg6.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg6.N) :
    bodyPre W c t ⊢ wp frame (wpE (defs₀ (F := F)) Variants.none c none) Set.univ (bodyAt6 t) (fun _ => bodyPost W c t) := by
  unfold bodyPre bodyPost bodyAt6
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 6 = 0
  · have hf : isFirst (grid6.coords t) := (isFirst_iff t).mpr h0
    have hnl : ¬isLast (grid6.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid6.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid6.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid6.coords t) := fun h => h0 ((isFirst_iff t).mp h)
    have hz : t.val ≠ 0 := fun h => h0 (by rw [h])
    by_cases h5 : t.val % 6 = 5
    · have hl : isLast (grid6.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid6.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid6.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid6.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W6, bigSep_W6]
  exact sound_body W c t

end Cert.KernelIdeal.R6

end
-- ==== Proof.R7Runs.lean ====
/-
  Launch 7 (a block row of the adjacency matrix times the vertex features, then the projection: times the transposed
  weight matrix, plus the bias row), one grid point at a time. The grid is 12 row blocks by 12 contraction blocks; the
  body at (m, k) does one of three things, decided by k alone:
    k = 0       the accumulator is set to zero, then the product of the (m, k) tile with rows [1024 k, 1024 k + 1024) of
                the features is added to it; the weights, the bias and the output block are not touched;
    0 < k < 11   the product is added to what the point before left in the accumulator; the rest is not touched;
    k = 11       the same, and then the accumulator times the transposed weight matrix, plus the bias row on every row,
                is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid7.Coords) : Prop := (Scalar.cmpi .ne (Scalar.extui (Scalar.cmpi .eq (BitVec.ofNat 32 (i 1).val) 0#32)) 0#32) = 1#1
/-- The output block is written at this point: the contraction coordinate is 11, the last. -/
abbrev isLast (i : grid7.Coords) : Prop := k7_cond2 i = 1#1

/-- The points whose contraction coordinate is 0 are those ≡ 0 (mod 12): decided over the 144 points. -/
theorem isFirst_iff : ∀ t : Fin cfg7.N, isFirst (grid7.coords t) ↔ t.val % 12 = 0 :=
  (by decide +kernel : ∀ t : Fin grid7.N, isFirst (grid7.coords t) ↔ t.val % 12 = 0)
/-- The points whose contraction coordinate is 11 are those ≡ 11 (mod 12). -/
theorem isLast_iff : ∀ t : Fin cfg7.N, isLast (grid7.coords t) ↔ t.val % 12 = 11 :=
  (by decide +kernel : ∀ t : Fin grid7.N, isLast (grid7.coords t) ↔ t.val % 12 = 11)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S12288x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7_kernel i arg2 harg2 arg3 harg3 arg4 harg4 arg5 harg5 arg6 harg6 arg7 harg7) K } := by
  refine ⟨?_, fun xi4 E K => ?run⟩
  case run =>
    simp only [cc7_kernel_eq_skeleton]; unfold cc7_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 11. As above for everything but the accumulator, which, at what the point before left in it (`xs0`), ends
    with one store over its whole block: `xs0` plus the tile's product. -/
noncomputable def runMiddle (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S12288x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7_kernel i arg2 harg2 arg3 harg3 arg4 harg4 arg5 harg5 arg6 harg6 arg7 harg7) K } := by
  refine ⟨?_, fun xi4 E K => ?run⟩
  case run =>
    simp only [cc7_kernel_eq_skeleton]; unfold cc7_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 11. As in the middle for the accumulator; the weights and the bias are read and left as they are; and the
    output block — at anything before — ends with one store over its whole block: the accumulator's new contents
    times the transposed weights, plus the bias row. -/
noncomputable def runLast (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S12288x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc7_kernel i arg2 harg2 arg3 harg3 arg4 harg4 arg5 harg5 arg6 harg6 arg7 harg7) K } := by
  refine ⟨?_, ?_, fun E K => ?run⟩
  case run =>
    simp only [cc7_kernel_eq_skeleton]; unfold cc7_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R7

end
-- ==== Proof.R7Acc.lean ====
/-
  Launch 7, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R7Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg7.N, cfg7.idle 0 (grid7.coords t) = false := by decide +kernel
theorem live_feat : ∀ t : Fin cfg7.N, cfg7.idle 1 (grid7.coords t) = false := by decide +kernel
theorem live_wt : ∀ t : Fin cfg7.N, cfg7.idle 2 (grid7.coords t) = false := by decide +kernel
theorem live_bias : ∀ t : Fin cfg7.N, cfg7.idle 3 (grid7.coords t) = false := by decide +kernel
/-- Away from the last contraction coordinate the output window is idle, and its block is not written back. -/
theorem idle_out : ∀ t : Fin cfg7.N, ¬isLast (grid7.coords t) → cfg7.idle 4 (grid7.coords t) = true := by decide +kernel
theorem noFlush_out : ∀ t : Fin cfg7.N, ¬isLast (grid7.coords t) → (cfg7.win 4).flush t = false := by decide +kernel
/-- At the last contraction coordinate it is live. -/
theorem live_out : ∀ t : Fin cfg7.N, isLast (grid7.coords t) → cfg7.idle 4 (grid7.coords t) = false := by decide +kernel

/-! ## The memrefs the body is called with -/

/-- One staging buffer of the output window, through which its contents are stated (the choice does not matter). -/
abbrev VO : View sig .tc .vmem S1024x256 .f32 := (Memref.whole cc7_stg4_0 : Memref sig .tc .vmem S1024x256 .f32).view
/-- Each window's current staging memref at point `t`, spelled as the pipeline passes it, and its wholeness. -/
abbrev ms0 (t : Fin cfg7.N) : Memref sig .tc .vmem S1024x1024 .bf16 := win7_0.stage (cfg7.slots t 0)
abbrev hs0 (t : Fin cfg7.N) : (ms0 t).IsWhole := hstage7_0 ((cfg7.slots t 0).cast nbuf7_0)
abbrev ms1 (t : Fin cfg7.N) : Memref sig .tc .vmem S12288x256 .f32 := win7_1.stage (cfg7.slots t 1)
abbrev hs1 (t : Fin cfg7.N) : (ms1 t).IsWhole := hstage7_1 ((cfg7.slots t 1).cast nbuf7_1)
abbrev ms2 (t : Fin cfg7.N) : Memref sig .tc .vmem S256x256 .f32 := win7_2.stage (cfg7.slots t 2)
abbrev hs2 (t : Fin cfg7.N) : (ms2 t).IsWhole := hstage7_2 ((cfg7.slots t 2).cast nbuf7_2)
abbrev ms3 (t : Fin cfg7.N) : Memref sig .tc .vmem S1x256 .f32 := win7_3.stage (cfg7.slots t 3)
abbrev hs3 (t : Fin cfg7.N) : (ms3 t).IsWhole := hstage7_3 ((cfg7.slots t 3).cast nbuf7_3)
abbrev ms4 (t : Fin cfg7.N) : Memref sig .tc .vmem S1024x256 .f32 := win7_4.stage (cfg7.slots t 4)
abbrev hs4 (t : Fin cfg7.N) : (ms4 t).IsWhole := hstage7_4 ((cfg7.slots t 4).cast nbuf7_4)
/-- The accumulator: the kernel's own whole scoped buffer. -/
abbrev accM : Memref sig .tc .vmem S1024x256 .f32 := Memref.whole cc7_scratch0
abbrev VS : View sig .tc .vmem S1024x256 .f32 := accM.view

/-! ## What each case leaves -/

section
variable (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg7.W) (t : Fin cfg7.N) : ((cfg7.win w).xblock (cfg7.grid.coords t)).Idx → Elt F (cfg7.win w).elt :=
  ((cfg7.win w).blk t).view.read (Elt F) (W c (Pipeline.arrRef spec7 w))

/-- After the body at position `n`: (the output block, the accumulator). A position ≡ 0 (mod 12) starts from nothing;
    any other continues from the accumulator of the position before; a position ≡ 11 (mod 12) also writes the output. -/
def outsAt (c : Dev nD) : (n : ℕ) → n < cfg7.N → Vec F S1024x256 .f32 × Vec F S1024x256 .f32
  | 0, hn => (idleOut, accFirst c (grid7.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 12 = 0 then
      (idleOut, accFirst c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 12 = 11 then
      (outLast c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg7.N) (h0 : t.val % 12 = 0) :
    outsAt W c t.val t.isLt = (idleOut, accFirst c (grid7.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg7.N) (h0 : ¬t.val % 12 = 0) (h5 : ¬t.val % 12 = 11) :
    outsAt W c t.val t.isLt = (idleOut, accMiddle c (grid7.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg7.N) (h0 : ¬t.val % 12 = 0) (h5 : t.val % 12 = 11) :
    outsAt W c t.val t.isLt = (outLast c (grid7.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid7.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R7

end
-- ==== Proof.R7Data.lean ====
/-
  Launch 7's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R7Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec7 c : sProp 𝕄)
      = iprop((∃ d, owns (c : Thread nD τ) accM fullShare d) ∗ Pipeline.scopedRestBut (Ix := Unit) (Name := ℕ) (U := UR sig nD τ) (Lvl := ℕ) (Val := Elt F) spec7 c [cc7_scratch0]) := by
  rw [scopedRest7_split]; simp only [accM, owns_whole]; try rfl

/-- Before position `n`: at the first point every scoped buffer at anything; later the accumulator at what the point
    before left in it, the other scoped buffers at anything. -/
def PhiS (c : Dev nD) : (n : ℕ) → n ≤ cfg7.N → sProp 𝕄
  | 0, _ => Pipeline.scopedRest (Ix := Unit) (Name := ℕ) (U := UR sig nD τ) (Lvl := ℕ) (Val := Elt F) spec7 c
  | n + 1, hn => iprop(owns (c : Thread nD τ) accM fullShare ((outsAt W c n hn).2) ∗ Pipeline.scopedRestBut (Ix := Unit) (Name := ℕ) (U := UR sig nD τ) (Lvl := ℕ) (Val := Elt F) spec7 c [cc7_scratch0])

theorem PhiS_zero (c : Dev nD) (n : ℕ) (h : n ≤ cfg7.N) (hz : n = 0) : PhiS W c n h = Pipeline.scopedRest (Ix := Unit) (Name := ℕ) (U := UR sig nD τ) (Lvl := ℕ) (Val := Elt F) spec7 c := by
  subst hz; rfl

theorem PhiS_succ (c : Dev nD) (n : ℕ) (hn : n < cfg7.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec7 c [cc7_scratch0]) := rfl

theorem PhiS_pos (c : Dev nD) (n : ℕ) (h : n ≤ cfg7.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec7 c [cc7_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg7 c where
  A w := W c (Pipeline.arrRef spec7 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg7.W) : (dat W c).A w = W c (Pipeline.arrRef spec7 w) := by
  dsimp only [dat]

theorem PhiS_castSucc (c : Dev nD) (t : Fin cfg7.N) :
    (dat W c).Φ t.castSucc = PhiS W c t.val (Nat.le_of_lt t.isLt) := by
  dsimp only [dat]; simp only [Fin.coe_castSucc]

theorem after0 (c : Dev nD) (t : Fin cfg7.N) : (dat W c).after 0 t = iblk W c 0 t := by dsimp only [dat]
theorem after1 (c : Dev nD) (t : Fin cfg7.N) : (dat W c).after 1 t = iblk W c 1 t := by dsimp only [dat]
theorem after2 (c : Dev nD) (t : Fin cfg7.N) : (dat W c).after 2 t = iblk W c 2 t := by dsimp only [dat]
theorem after3 (c : Dev nD) (t : Fin cfg7.N) : (dat W c).after 3 t = iblk W c 3 t := by dsimp only [dat]
theorem after4 (c : Dev nD) (t : Fin cfg7.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg7.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg7.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg7.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg7.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg7.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg7.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg7.N) :
    bodyPre W c t ⊢ wp frame (wpE (defs₀ (F := F)) Variants.none c none) Set.univ (bodyAt7 t) (fun _ => bodyPost W c t) := by
  unfold bodyPre bodyPost bodyAt7
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 12 = 0
  · have hf : isFirst (grid7.coords t) := (isFirst_iff t).mpr h0
    have hnl : ¬isLast (grid7.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid7.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid7.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid7.coords t) := fun h => h0 ((isFirst_iff t).mp h)
    have hz : t.val ≠ 0 := fun h => h0 (by rw [h])
    by_cases h5 : t.val % 12 = 11
    · have hl : isLast (grid7.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid7.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid7.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid7.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W7, bigSep_W7]
  exact sound_body W c t

end Cert.KernelIdeal.R7

end
-- ==== Proof.R8Runs.lean ====
/-
  Launch 8 (an adjacency product with the fused epilogue), one grid point at a time. The grid is 12 row blocks by
  12 contraction blocks; the body at (m, k) does one of three things, decided by k alone:
    k = 0       the accumulator is set to zero, then the product of the (m, k) tile with rows [1024 k, 1024 k + 1024) of
                the resident feature matrix (rounded to bf16) is added to it; the output block is not touched;
    0 < k < 11   the product is added to what the point before left in the accumulator; the output block is not touched;
    k = 11       the same, and then the epilogue — the accumulator (rounded to bf16) times the transposed weight (rounded
                to bf16), plus the bias row, plus the first skip block, clamped below at zero, plus the second skip block —
                is stored over the whole output block.
  The weight, the bias row and the two skip blocks are only read at k = 11; every input buffer is left as it was.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid8.Coords) : Prop := (Scalar.cmpi .ne (Scalar.extui (Scalar.cmpi .eq (BitVec.ofNat 32 (i 1).val) 0#32)) 0#32) = 1#1
/-- The output block is written at this point: the contraction coordinate is 11, the last. -/
abbrev isLast (i : grid8.Coords) : Prop := k8_cond2 i = 1#1

/-- The points whose contraction coordinate is 0 are those ≡ 0 (mod 12): decided over the 144 points. -/
theorem isFirst_iff : ∀ t : Fin cfg8.N, isFirst (grid8.coords t) ↔ t.val % 12 = 0 :=
  (by decide +kernel : ∀ t : Fin grid8.N, isFirst (grid8.coords t) ↔ t.val % 12 = 0)
/-- The points whose contraction coordinate is 11 are those ≡ 11 (mod 12). -/
theorem isLast_iff : ∀ t : Fin cfg8.N, isLast (grid8.coords t) ↔ t.val % 12 = 11 :=
  (by decide +kernel : ∀ t : Fin grid8.N, isLast (grid8.coords t) ↔ t.val % 12 = 11)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8_kernel i arg2 harg2 arg3 harg3 arg4 harg4 arg5 harg5 arg6 harg6 arg7 harg7 arg8 harg8 arg9 harg9) K } := by
  refine ⟨?_, fun xi6 E K => ?run⟩
  case run =>
    simp only [cc8_kernel_eq_skeleton]; unfold cc8_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 11. The six inputs are left as they are, the output block is handed back untouched, and the accumulator, at
    what the point before left in it (`xs0`), ends with one store over its whole block: `xs0` plus the tile's product. -/
noncomputable def runMiddle (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8_kernel i arg2 harg2 arg3 harg3 arg4 harg4 arg5 harg5 arg6 harg6 arg7 harg7 arg8 harg8 arg9 harg9) K } := by
  refine ⟨?_, fun xi6 E K => ?run⟩
  case run =>
    simp only [cc8_kernel_eq_skeleton]; unfold cc8_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 11. As in the middle for the accumulator; and the output block — at anything before — ends with one store over
    its whole block: the epilogue of the accumulator's new contents, the weight, the bias row and the two skip blocks. -/
noncomputable def runLast (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc8_kernel i arg2 harg2 arg3 harg3 arg4 harg4 arg5 harg5 arg6 harg6 arg7 harg7 arg8 harg8 arg9 harg9) K } := by
  refine ⟨?_, ?_, fun E K => ?run⟩
  case run =>
    simp only [cc8_kernel_eq_skeleton]; unfold cc8_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R8

end
-- ==== Proof.R8Acc.lean ====
/-
  Launch 8, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R8Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg8.N, cfg8.idle 0 (grid8.coords t) = false := by decide +kernel
theorem live_in1 : ∀ t : Fin cfg8.N, cfg8.idle 1 (grid8.coords t) = false := by decide +kernel
theorem live_in2 : ∀ t : Fin cfg8.N, cfg8.idle 2 (grid8.coords t) = false := by decide +kernel
theorem live_in3 : ∀ t : Fin cfg8.N, cfg8.idle 3 (grid8.coords t) = false := by decide +kernel
theorem live_in4 : ∀ t : Fin cfg8.N, cfg8.idle 4 (grid8.coords t) = false := by decide +kernel
theorem live_in5 : ∀ t : Fin cfg8.N, cfg8.idle 5 (grid8.coords t) = false := by decide +kernel
/-- Away from the last contraction coordinate the output window is idle, and its block is not written back. -/
theorem idle_out : ∀ t : Fin cfg8.N, ¬isLast (grid8.coords t) → cfg8.idle 6 (grid8.coords t) = true := by decide +kernel
theorem noFlush_out : ∀ t : Fin cfg8.N, ¬isLast (grid8.coords t) → (cfg8.win 6).flush t = false := by decide +kernel
/-- At the last contraction coordinate it is live. -/
theorem live_out : ∀ t : Fin cfg8.N, isLast (grid8.coords t) → cfg8.idle 6 (grid8.coords t) = false := by decide +kernel

/-! ## The memrefs the body is called with -/

/-- One staging buffer of the output window, through which its contents are stated (the choice does not matter). -/
abbrev VO : View sig .tc .vmem S1024x256 .f32 := (Memref.whole cc8_stg6_0 : Memref sig .tc .vmem S1024x256 .f32).view
/-- Each window's current staging memref at point `t`, spelled as the pipeline passes it, and its wholeness. -/
abbrev ms0 (t : Fin cfg8.N) : Memref sig .tc .vmem S1024x1024 .bf16 := win8_0.stage (cfg8.slots t 0)
abbrev hs0 (t : Fin cfg8.N) : (ms0 t).IsWhole := hstage8_0 ((cfg8.slots t 0).cast nbuf8_0)
abbrev ms1 (t : Fin cfg8.N) : Memref sig .tc .vmem S12288x256 .f32 := win8_1.stage (cfg8.slots t 1)
abbrev hs1 (t : Fin cfg8.N) : (ms1 t).IsWhole := hstage8_1 ((cfg8.slots t 1).cast nbuf8_1)
abbrev ms2 (t : Fin cfg8.N) : Memref sig .tc .vmem S256x256 .f32 := win8_2.stage (cfg8.slots t 2)
abbrev hs2 (t : Fin cfg8.N) : (ms2 t).IsWhole := hstage8_2 ((cfg8.slots t 2).cast nbuf8_2)
abbrev ms3 (t : Fin cfg8.N) : Memref sig .tc .vmem S1x256 .f32 := win8_3.stage (cfg8.slots t 3)
abbrev hs3 (t : Fin cfg8.N) : (ms3 t).IsWhole := hstage8_3 ((cfg8.slots t 3).cast nbuf8_3)
abbrev ms4 (t : Fin cfg8.N) : Memref sig .tc .vmem S1024x256 .f32 := win8_4.stage (cfg8.slots t 4)
abbrev hs4 (t : Fin cfg8.N) : (ms4 t).IsWhole := hstage8_4 ((cfg8.slots t 4).cast nbuf8_4)
abbrev ms5 (t : Fin cfg8.N) : Memref sig .tc .vmem S1024x256 .f32 := win8_5.stage (cfg8.slots t 5)
abbrev hs5 (t : Fin cfg8.N) : (ms5 t).IsWhole := hstage8_5 ((cfg8.slots t 5).cast nbuf8_5)
abbrev ms6 (t : Fin cfg8.N) : Memref sig .tc .vmem S1024x256 .f32 := win8_6.stage (cfg8.slots t 6)
abbrev hs6 (t : Fin cfg8.N) : (ms6 t).IsWhole := hstage8_6 ((cfg8.slots t 6).cast nbuf8_6)
/-- The accumulator: the kernel's own whole scoped buffer. -/
abbrev accM : Memref sig .tc .vmem S1024x256 .f32 := Memref.whole cc8_scratch0
abbrev VS : View sig .tc .vmem S1024x256 .f32 := accM.view

/-! ## What each case leaves -/

section
variable (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg8.W) (t : Fin cfg8.N) : ((cfg8.win w).xblock (cfg8.grid.coords t)).Idx → Elt F (cfg8.win w).elt :=
  ((cfg8.win w).blk t).view.read (Elt F) (W c (Pipeline.arrRef spec8 w))

/-- After the body at position `n`: (the output block, the accumulator). A position ≡ 0 (mod 12) starts from nothing;
    any other continues from the accumulator of the position before; a position ≡ 11 (mod 12) also writes the output. -/
def outsAt (c : Dev nD) : (n : ℕ) → n < cfg8.N → Vec F S1024x256 .f32 × Vec F S1024x256 .f32
  | 0, hn => (idleOut, accFirst c (grid8.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 12 = 0 then
      (idleOut, accFirst c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 12 = 11 then
      (outLast c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg8.N) (h0 : t.val % 12 = 0) :
    outsAt W c t.val t.isLt = (idleOut, accFirst c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg8.N) (h0 : ¬t.val % 12 = 0) (h5 : ¬t.val % 12 = 11) :
    outsAt W c t.val t.isLt = (idleOut, accMiddle c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg8.N) (h0 : ¬t.val % 12 = 0) (h5 : t.val % 12 = 11) :
    outsAt W c t.val t.isLt = (outLast c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R8

end
-- ==== Proof.R8Data.lean ====
/-
  Launch 8's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R8Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec8 c : sProp 𝕄)
      = iprop((∃ d, owns (c : Thread nD τ) accM fullShare d) ∗ Pipeline.scopedRestBut (Ix := Unit) (Name := ℕ) (U := UR sig nD τ) (Lvl := ℕ) (Val := Elt F) spec8 c [cc8_scratch0]) := by
  rw [scopedRest8_split]; simp only [accM, owns_whole]; try rfl

/-- Before position `n`: at the first point every scoped buffer at anything; later the accumulator at what the point
    before left in it, the other scoped buffers at anything. -/
def PhiS (c : Dev nD) : (n : ℕ) → n ≤ cfg8.N → sProp 𝕄
  | 0, _ => Pipeline.scopedRest (Ix := Unit) (Name := ℕ) (U := UR sig nD τ) (Lvl := ℕ) (Val := Elt F) spec8 c
  | n + 1, hn => iprop(owns (c : Thread nD τ) accM fullShare ((outsAt W c n hn).2) ∗ Pipeline.scopedRestBut (Ix := Unit) (Name := ℕ) (U := UR sig nD τ) (Lvl := ℕ) (Val := Elt F) spec8 c [cc8_scratch0])

theorem PhiS_zero (c : Dev nD) (n : ℕ) (h : n ≤ cfg8.N) (hz : n = 0) : PhiS W c n h = Pipeline.scopedRest (Ix := Unit) (Name := ℕ) (U := UR sig nD τ) (Lvl := ℕ) (Val := Elt F) spec8 c := by
  subst hz; rfl

theorem PhiS_succ (c : Dev nD) (n : ℕ) (hn : n < cfg8.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec8 c [cc8_scratch0]) := rfl

theorem PhiS_pos (c : Dev nD) (n : ℕ) (h : n ≤ cfg8.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec8 c [cc8_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg8 c where
  A w := W c (Pipeline.arrRef spec8 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg8.W) : (dat W c).A w = W c (Pipeline.arrRef spec8 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg8.N) :
    (dat W c).Φ t.castSucc = PhiS W c t.val (Nat.le_of_lt t.isLt) := by
  dsimp only [dat]; simp only [Fin.coe_castSucc]

theorem after0 (c : Dev nD) (t : Fin cfg8.N) : (dat W c).after 0 t = iblk W c 0 t := by dsimp only [dat]
theorem after1 (c : Dev nD) (t : Fin cfg8.N) : (dat W c).after 1 t = iblk W c 1 t := by dsimp only [dat]
theorem after2 (c : Dev nD) (t : Fin cfg8.N) : (dat W c).after 2 t = iblk W c 2 t := by dsimp only [dat]
theorem after3 (c : Dev nD) (t : Fin cfg8.N) : (dat W c).after 3 t = iblk W c 3 t := by dsimp only [dat]
theorem after4 (c : Dev nD) (t : Fin cfg8.N) : (dat W c).after 4 t = iblk W c 4 t := by dsimp only [dat]
theorem after5 (c : Dev nD) (t : Fin cfg8.N) : (dat W c).after 5 t = iblk W c 5 t := by dsimp only [dat]
theorem after6 (c : Dev nD) (t : Fin cfg8.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg8.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg8.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg8.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg8.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg8.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg8.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg8.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg8.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg8.N) :
    bodyPre W c t ⊢ wp frame (wpE (defs₀ (F := F)) Variants.none c none) Set.univ (bodyAt8 t) (fun _ => bodyPost W c t) := by
  unfold bodyPre bodyPost bodyAt8
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 12 = 0
  · have hf : isFirst (grid8.coords t) := (isFirst_iff t).mpr h0
    have hnl : ¬isLast (grid8.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid8.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid8.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid8.coords t) := fun h => h0 ((isFirst_iff t).mp h)
    have hz : t.val ≠ 0 := fun h => h0 (by rw [h])
    by_cases h5 : t.val % 12 = 11
    · have hl : isLast (grid8.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid8.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid8.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid8.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W8, bigSep_W8]
  exact sound_body W c t

end Cert.KernelIdeal.R8

end
-- ==== Proof.R9Runs.lean ====
/-
  Launch 9 (a block row of the adjacency matrix times the vertex features, then the projection: times the transposed
  weight matrix, plus the bias row), one grid point at a time. The grid is 12 row blocks by 12 contraction blocks; the
  body at (m, k) does one of three things, decided by k alone:
    k = 0       the accumulator is set to zero, then the product of the (m, k) tile with rows [1024 k, 1024 k + 1024) of
                the features is added to it; the weights, the bias and the output block are not touched;
    0 < k < 11   the product is added to what the point before left in the accumulator; the rest is not touched;
    k = 11       the same, and then the accumulator times the transposed weight matrix, plus the bias row on every row,
                is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid9.Coords) : Prop := (Scalar.cmpi .ne (Scalar.extui (Scalar.cmpi .eq (BitVec.ofNat 32 (i 1).val) 0#32)) 0#32) = 1#1
/-- The output block is written at this point: the contraction coordinate is 11, the last. -/
abbrev isLast (i : grid9.Coords) : Prop := k9_cond2 i = 1#1

/-- The points whose contraction coordinate is 0 are those ≡ 0 (mod 12): decided over the 144 points. -/
theorem isFirst_iff : ∀ t : Fin cfg9.N, isFirst (grid9.coords t) ↔ t.val % 12 = 0 :=
  (by decide +kernel : ∀ t : Fin grid9.N, isFirst (grid9.coords t) ↔ t.val % 12 = 0)
/-- The points whose contraction coordinate is 11 are those ≡ 11 (mod 12). -/
theorem isLast_iff : ∀ t : Fin cfg9.N, isLast (grid9.coords t) ↔ t.val % 12 = 11 :=
  (by decide +kernel : ∀ t : Fin grid9.N, isLast (grid9.coords t) ↔ t.val % 12 = 11)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S12288x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9_kernel i arg2 harg2 arg3 harg3 arg4 harg4 arg5 harg5 arg6 harg6 arg7 harg7) K } := by
  refine ⟨?_, fun xi4 E K => ?run⟩
  case run =>
    simp only [cc9_kernel_eq_skeleton]; unfold cc9_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 11. As above for everything but the accumulator, which, at what the point before left in it (`xs0`), ends
    with one store over its whole block: `xs0` plus the tile's product. -/
noncomputable def runMiddle (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S12288x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9_kernel i arg2 harg2 arg3 harg3 arg4 harg4 arg5 harg5 arg6 harg6 arg7 harg7) K } := by
  refine ⟨?_, fun xi4 E K => ?run⟩
  case run =>
    simp only [cc9_kernel_eq_skeleton]; unfold cc9_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 11. As in the middle for the accumulator; the weights and the bias are read and left as they are; and the
    output block — at anything before — ends with one store over its whole block: the accumulator's new contents
    times the transposed weights, plus the bias row. -/
noncomputable def runLast (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S12288x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc9_kernel i arg2 harg2 arg3 harg3 arg4 harg4 arg5 harg5 arg6 harg6 arg7 harg7) K } := by
  refine ⟨?_, ?_, fun E K => ?run⟩
  case run =>
    simp only [cc9_kernel_eq_skeleton]; unfold cc9_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R9

end
-- ==== Proof.R9Acc.lean ====
/-
  Launch 9, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R9Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg9.N, cfg9.idle 0 (grid9.coords t) = false := by decide +kernel
theorem live_feat : ∀ t : Fin cfg9.N, cfg9.idle 1 (grid9.coords t) = false := by decide +kernel
theorem live_wt : ∀ t : Fin cfg9.N, cfg9.idle 2 (grid9.coords t) = false := by decide +kernel
theorem live_bias : ∀ t : Fin cfg9.N, cfg9.idle 3 (grid9.coords t) = false := by decide +kernel
/-- Away from the last contraction coordinate the output window is idle, and its block is not written back. -/
theorem idle_out : ∀ t : Fin cfg9.N, ¬isLast (grid9.coords t) → cfg9.idle 4 (grid9.coords t) = true := by decide +kernel
theorem noFlush_out : ∀ t : Fin cfg9.N, ¬isLast (grid9.coords t) → (cfg9.win 4).flush t = false := by decide +kernel
/-- At the last contraction coordinate it is live. -/
theorem live_out : ∀ t : Fin cfg9.N, isLast (grid9.coords t) → cfg9.idle 4 (grid9.coords t) = false := by decide +kernel

/-! ## The memrefs the body is called with -/

/-- One staging buffer of the output window, through which its contents are stated (the choice does not matter). -/
abbrev VO : View sig .tc .vmem S1024x256 .f32 := (Memref.whole cc9_stg4_0 : Memref sig .tc .vmem S1024x256 .f32).view
/-- Each window's current staging memref at point `t`, spelled as the pipeline passes it, and its wholeness. -/
abbrev ms0 (t : Fin cfg9.N) : Memref sig .tc .vmem S1024x1024 .bf16 := win9_0.stage (cfg9.slots t 0)
abbrev hs0 (t : Fin cfg9.N) : (ms0 t).IsWhole := hstage9_0 ((cfg9.slots t 0).cast nbuf9_0)
abbrev ms1 (t : Fin cfg9.N) : Memref sig .tc .vmem S12288x256 .f32 := win9_1.stage (cfg9.slots t 1)
abbrev hs1 (t : Fin cfg9.N) : (ms1 t).IsWhole := hstage9_1 ((cfg9.slots t 1).cast nbuf9_1)
abbrev ms2 (t : Fin cfg9.N) : Memref sig .tc .vmem S256x256 .f32 := win9_2.stage (cfg9.slots t 2)
abbrev hs2 (t : Fin cfg9.N) : (ms2 t).IsWhole := hstage9_2 ((cfg9.slots t 2).cast nbuf9_2)
abbrev ms3 (t : Fin cfg9.N) : Memref sig .tc .vmem S1x256 .f32 := win9_3.stage (cfg9.slots t 3)
abbrev hs3 (t : Fin cfg9.N) : (ms3 t).IsWhole := hstage9_3 ((cfg9.slots t 3).cast nbuf9_3)
abbrev ms4 (t : Fin cfg9.N) : Memref sig .tc .vmem S1024x256 .f32 := win9_4.stage (cfg9.slots t 4)
abbrev hs4 (t : Fin cfg9.N) : (ms4 t).IsWhole := hstage9_4 ((cfg9.slots t 4).cast nbuf9_4)
/-- The accumulator: the kernel's own whole scoped buffer. -/
abbrev accM : Memref sig .tc .vmem S1024x256 .f32 := Memref.whole cc9_scratch0
abbrev VS : View sig .tc .vmem S1024x256 .f32 := accM.view

/-! ## What each case leaves -/

section
variable (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg9.W) (t : Fin cfg9.N) : ((cfg9.win w).xblock (cfg9.grid.coords t)).Idx → Elt F (cfg9.win w).elt :=
  ((cfg9.win w).blk t).view.read (Elt F) (W c (Pipeline.arrRef spec9 w))

/-- After the body at position `n`: (the output block, the accumulator). A position ≡ 0 (mod 12) starts from nothing;
    any other continues from the accumulator of the position before; a position ≡ 11 (mod 12) also writes the output. -/
def outsAt (c : Dev nD) : (n : ℕ) → n < cfg9.N → Vec F S1024x256 .f32 × Vec F S1024x256 .f32
  | 0, hn => (idleOut, accFirst c (grid9.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 12 = 0 then
      (idleOut, accFirst c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 12 = 11 then
      (outLast c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg9.N) (h0 : t.val % 12 = 0) :
    outsAt W c t.val t.isLt = (idleOut, accFirst c (grid9.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg9.N) (h0 : ¬t.val % 12 = 0) (h5 : ¬t.val % 12 = 11) :
    outsAt W c t.val t.isLt = (idleOut, accMiddle c (grid9.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg9.N) (h0 : ¬t.val % 12 = 0) (h5 : t.val % 12 = 11) :
    outsAt W c t.val t.isLt = (outLast c (grid9.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid9.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R9

end
-- ==== Proof.R9Data.lean ====
/-
  Launch 9's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R9Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec9 c : sProp 𝕄)
      = iprop((∃ d, owns (c : Thread nD τ) accM fullShare d) ∗ Pipeline.scopedRestBut (Ix := Unit) (Name := ℕ) (U := UR sig nD τ) (Lvl := ℕ) (Val := Elt F) spec9 c [cc9_scratch0]) := by
  rw [scopedRest9_split]; simp only [accM, owns_whole]; try rfl

/-- Before position `n`: at the first point every scoped buffer at anything; later the accumulator at what the point
    before left in it, the other scoped buffers at anything. -/
def PhiS (c : Dev nD) : (n : ℕ) → n ≤ cfg9.N → sProp 𝕄
  | 0, _ => Pipeline.scopedRest (Ix := Unit) (Name := ℕ) (U := UR sig nD τ) (Lvl := ℕ) (Val := Elt F) spec9 c
  | n + 1, hn => iprop(owns (c : Thread nD τ) accM fullShare ((outsAt W c n hn).2) ∗ Pipeline.scopedRestBut (Ix := Unit) (Name := ℕ) (U := UR sig nD τ) (Lvl := ℕ) (Val := Elt F) spec9 c [cc9_scratch0])

theorem PhiS_zero (c : Dev nD) (n : ℕ) (h : n ≤ cfg9.N) (hz : n = 0) : PhiS W c n h = Pipeline.scopedRest (Ix := Unit) (Name := ℕ) (U := UR sig nD τ) (Lvl := ℕ) (Val := Elt F) spec9 c := by
  subst hz; rfl

theorem PhiS_succ (c : Dev nD) (n : ℕ) (hn : n < cfg9.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec9 c [cc9_scratch0]) := rfl

theorem PhiS_pos (c : Dev nD) (n : ℕ) (h : n ≤ cfg9.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec9 c [cc9_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg9 c where
  A w := W c (Pipeline.arrRef spec9 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg9.W) : (dat W c).A w = W c (Pipeline.arrRef spec9 w) := by
  dsimp only [dat]

theorem PhiS_castSucc (c : Dev nD) (t : Fin cfg9.N) :
    (dat W c).Φ t.castSucc = PhiS W c t.val (Nat.le_of_lt t.isLt) := by
  dsimp only [dat]; simp only [Fin.coe_castSucc]

theorem after0 (c : Dev nD) (t : Fin cfg9.N) : (dat W c).after 0 t = iblk W c 0 t := by dsimp only [dat]
theorem after1 (c : Dev nD) (t : Fin cfg9.N) : (dat W c).after 1 t = iblk W c 1 t := by dsimp only [dat]
theorem after2 (c : Dev nD) (t : Fin cfg9.N) : (dat W c).after 2 t = iblk W c 2 t := by dsimp only [dat]
theorem after3 (c : Dev nD) (t : Fin cfg9.N) : (dat W c).after 3 t = iblk W c 3 t := by dsimp only [dat]
theorem after4 (c : Dev nD) (t : Fin cfg9.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg9.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg9.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg9.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg9.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg9.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg9.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg9.N) :
    bodyPre W c t ⊢ wp frame (wpE (defs₀ (F := F)) Variants.none c none) Set.univ (bodyAt9 t) (fun _ => bodyPost W c t) := by
  unfold bodyPre bodyPost bodyAt9
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 12 = 0
  · have hf : isFirst (grid9.coords t) := (isFirst_iff t).mpr h0
    have hnl : ¬isLast (grid9.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid9.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid9.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid9.coords t) := fun h => h0 ((isFirst_iff t).mp h)
    have hz : t.val ≠ 0 := fun h => h0 (by rw [h])
    by_cases h5 : t.val % 12 = 11
    · have hl : isLast (grid9.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid9.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid9.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid9.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W9, bigSep_W9]
  exact sound_body W c t

end Cert.KernelIdeal.R9

end
-- ==== Proof.R10Runs.lean ====
/-
  Launch 10 (an adjacency product with the fused epilogue), one grid point at a time. The grid is 12 row blocks by
  12 contraction blocks; the body at (m, k) does one of three things, decided by k alone:
    k = 0       the accumulator is set to zero, then the product of the (m, k) tile with rows [1024 k, 1024 k + 1024) of
                the resident feature matrix (rounded to bf16) is added to it; the output block is not touched;
    0 < k < 11   the product is added to what the point before left in the accumulator; the output block is not touched;
    k = 11       the same, and then the epilogue — the accumulator (rounded to bf16) times the transposed weight (rounded
                to bf16), plus the bias row, plus the first skip block, clamped below at zero, plus the second skip block —
                is stored over the whole output block.
  The weight, the bias row and the two skip blocks are only read at k = 11; every input buffer is left as it was.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid10.Coords) : Prop := (Scalar.cmpi .ne (Scalar.extui (Scalar.cmpi .eq (BitVec.ofNat 32 (i 1).val) 0#32)) 0#32) = 1#1
/-- The output block is written at this point: the contraction coordinate is 11, the last. -/
abbrev isLast (i : grid10.Coords) : Prop := k10_cond2 i = 1#1

/-- The points whose contraction coordinate is 0 are those ≡ 0 (mod 12): decided over the 144 points. -/
theorem isFirst_iff : ∀ t : Fin cfg10.N, isFirst (grid10.coords t) ↔ t.val % 12 = 0 :=
  (by decide +kernel : ∀ t : Fin grid10.N, isFirst (grid10.coords t) ↔ t.val % 12 = 0)
/-- The points whose contraction coordinate is 11 are those ≡ 11 (mod 12). -/
theorem isLast_iff : ∀ t : Fin cfg10.N, isLast (grid10.coords t) ↔ t.val % 12 = 11 :=
  (by decide +kernel : ∀ t : Fin grid10.N, isLast (grid10.coords t) ↔ t.val % 12 = 11)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc10_kernel i arg2 harg2 arg3 harg3 arg4 harg4 arg5 harg5 arg6 harg6 arg7 harg7 arg8 harg8 arg9 harg9) K } := by
  refine ⟨?_, fun xi6 E K => ?run⟩
  case run =>
    simp only [cc10_kernel_eq_skeleton]; unfold cc10_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 11. The six inputs are left as they are, the output block is handed back untouched, and the accumulator, at
    what the point before left in it (`xs0`), ends with one store over its whole block: `xs0` plus the tile's product. -/
noncomputable def runMiddle (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc10_kernel i arg2 harg2 arg3 harg3 arg4 harg4 arg5 harg5 arg6 harg6 arg7 harg7 arg8 harg8 arg9 harg9) K } := by
  refine ⟨?_, fun xi6 E K => ?run⟩
  case run =>
    simp only [cc10_kernel_eq_skeleton]; unfold cc10_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 11. As in the middle for the accumulator; and the output block — at anything before — ends with one store over
    its whole block: the epilogue of the accumulator's new contents, the weight, the bias row and the two skip blocks. -/
noncomputable def runLast (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc10_kernel i arg2 harg2 arg3 harg3 arg4 harg4 arg5 harg5 arg6 harg6 arg7 harg7 arg8 harg8 arg9 harg9) K } := by
  refine ⟨?_, ?_, fun E K => ?run⟩
  case run =>
    simp only [cc10_kernel_eq_skeleton]; unfold cc10_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R10

end
-- ==== Proof.R10Acc.lean ====
/-
  Launch 10, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R10Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg10.N, cfg10.idle 0 (grid10.coords t) = false := by decide +kernel
theorem live_in1 : ∀ t : Fin cfg10.N, cfg10.idle 1 (grid10.coords t) = false := by decide +kernel
theorem live_in2 : ∀ t : Fin cfg10.N, cfg10.idle 2 (grid10.coords t) = false := by decide +kernel
theorem live_in3 : ∀ t : Fin cfg10.N, cfg10.idle 3 (grid10.coords t) = false := by decide +kernel
theorem live_in4 : ∀ t : Fin cfg10.N, cfg10.idle 4 (grid10.coords t) = false := by decide +kernel
theorem live_in5 : ∀ t : Fin cfg10.N, cfg10.idle 5 (grid10.coords t) = false := by decide +kernel
/-- Away from the last contraction coordinate the output window is idle, and its block is not written back. -/
theorem idle_out : ∀ t : Fin cfg10.N, ¬isLast (grid10.coords t) → cfg10.idle 6 (grid10.coords t) = true := by decide +kernel
theorem noFlush_out : ∀ t : Fin cfg10.N, ¬isLast (grid10.coords t) → (cfg10.win 6).flush t = false := by decide +kernel
/-- At the last contraction coordinate it is live. -/
theorem live_out : ∀ t : Fin cfg10.N, isLast (grid10.coords t) → cfg10.idle 6 (grid10.coords t) = false := by decide +kernel

/-! ## The memrefs the body is called with -/

/-- One staging buffer of the output window, through which its contents are stated (the choice does not matter). -/
abbrev VO : View sig .tc .vmem S1024x256 .f32 := (Memref.whole cc10_stg6_0 : Memref sig .tc .vmem S1024x256 .f32).view
/-- Each window's current staging memref at point `t`, spelled as the pipeline passes it, and its wholeness. -/
abbrev ms0 (t : Fin cfg10.N) : Memref sig .tc .vmem S1024x1024 .bf16 := win10_0.stage (cfg10.slots t 0)
abbrev hs0 (t : Fin cfg10.N) : (ms0 t).IsWhole := hstage10_0 ((cfg10.slots t 0).cast nbuf10_0)
abbrev ms1 (t : Fin cfg10.N) : Memref sig .tc .vmem S12288x256 .f32 := win10_1.stage (cfg10.slots t 1)
abbrev hs1 (t : Fin cfg10.N) : (ms1 t).IsWhole := hstage10_1 ((cfg10.slots t 1).cast nbuf10_1)
abbrev ms2 (t : Fin cfg10.N) : Memref sig .tc .vmem S256x256 .f32 := win10_2.stage (cfg10.slots t 2)
abbrev hs2 (t : Fin cfg10.N) : (ms2 t).IsWhole := hstage10_2 ((cfg10.slots t 2).cast nbuf10_2)
abbrev ms3 (t : Fin cfg10.N) : Memref sig .tc .vmem S1x256 .f32 := win10_3.stage (cfg10.slots t 3)
abbrev hs3 (t : Fin cfg10.N) : (ms3 t).IsWhole := hstage10_3 ((cfg10.slots t 3).cast nbuf10_3)
abbrev ms4 (t : Fin cfg10.N) : Memref sig .tc .vmem S1024x256 .f32 := win10_4.stage (cfg10.slots t 4)
abbrev hs4 (t : Fin cfg10.N) : (ms4 t).IsWhole := hstage10_4 ((cfg10.slots t 4).cast nbuf10_4)
abbrev ms5 (t : Fin cfg10.N) : Memref sig .tc .vmem S1024x256 .f32 := win10_5.stage (cfg10.slots t 5)
abbrev hs5 (t : Fin cfg10.N) : (ms5 t).IsWhole := hstage10_5 ((cfg10.slots t 5).cast nbuf10_5)
abbrev ms6 (t : Fin cfg10.N) : Memref sig .tc .vmem S1024x256 .f32 := win10_6.stage (cfg10.slots t 6)
abbrev hs6 (t : Fin cfg10.N) : (ms6 t).IsWhole := hstage10_6 ((cfg10.slots t 6).cast nbuf10_6)
/-- The accumulator: the kernel's own whole scoped buffer. -/
abbrev accM : Memref sig .tc .vmem S1024x256 .f32 := Memref.whole cc10_scratch0
abbrev VS : View sig .tc .vmem S1024x256 .f32 := accM.view

/-! ## What each case leaves -/

section
variable (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg10.W) (t : Fin cfg10.N) : ((cfg10.win w).xblock (cfg10.grid.coords t)).Idx → Elt F (cfg10.win w).elt :=
  ((cfg10.win w).blk t).view.read (Elt F) (W c (Pipeline.arrRef spec10 w))

/-- After the body at position `n`: (the output block, the accumulator). A position ≡ 0 (mod 12) starts from nothing;
    any other continues from the accumulator of the position before; a position ≡ 11 (mod 12) also writes the output. -/
def outsAt (c : Dev nD) : (n : ℕ) → n < cfg10.N → Vec F S1024x256 .f32 × Vec F S1024x256 .f32
  | 0, hn => (idleOut, accFirst c (grid10.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 12 = 0 then
      (idleOut, accFirst c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 12 = 11 then
      (outLast c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg10.N) (h0 : t.val % 12 = 0) :
    outsAt W c t.val t.isLt = (idleOut, accFirst c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg10.N) (h0 : ¬t.val % 12 = 0) (h5 : ¬t.val % 12 = 11) :
    outsAt W c t.val t.isLt = (idleOut, accMiddle c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg10.N) (h0 : ¬t.val % 12 = 0) (h5 : t.val % 12 = 11) :
    outsAt W c t.val t.isLt = (outLast c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R10

end
-- ==== Proof.R10Data.lean ====
/-
  Launch 10's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R10Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec10 c : sProp 𝕄)
      = iprop((∃ d, owns (c : Thread nD τ) accM fullShare d) ∗ Pipeline.scopedRestBut (Ix := Unit) (Name := ℕ) (U := UR sig nD τ) (Lvl := ℕ) (Val := Elt F) spec10 c [cc10_scratch0]) := by
  rw [scopedRest10_split]; simp only [accM, owns_whole]; try rfl

/-- Before position `n`: at the first point every scoped buffer at anything; later the accumulator at what the point
    before left in it, the other scoped buffers at anything. -/
def PhiS (c : Dev nD) : (n : ℕ) → n ≤ cfg10.N → sProp 𝕄
  | 0, _ => Pipeline.scopedRest (Ix := Unit) (Name := ℕ) (U := UR sig nD τ) (Lvl := ℕ) (Val := Elt F) spec10 c
  | n + 1, hn => iprop(owns (c : Thread nD τ) accM fullShare ((outsAt W c n hn).2) ∗ Pipeline.scopedRestBut (Ix := Unit) (Name := ℕ) (U := UR sig nD τ) (Lvl := ℕ) (Val := Elt F) spec10 c [cc10_scratch0])

theorem PhiS_zero (c : Dev nD) (n : ℕ) (h : n ≤ cfg10.N) (hz : n = 0) : PhiS W c n h = Pipeline.scopedRest (Ix := Unit) (Name := ℕ) (U := UR sig nD τ) (Lvl := ℕ) (Val := Elt F) spec10 c := by
  subst hz; rfl

theorem PhiS_succ (c : Dev nD) (n : ℕ) (hn : n < cfg10.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec10 c [cc10_scratch0]) := rfl

theorem PhiS_pos (c : Dev nD) (n : ℕ) (h : n ≤ cfg10.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec10 c [cc10_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg10 c where
  A w := W c (Pipeline.arrRef spec10 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg10.W) : (dat W c).A w = W c (Pipeline.arrRef spec10 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg10.N) :
    (dat W c).Φ t.castSucc = PhiS W c t.val (Nat.le_of_lt t.isLt) := by
  dsimp only [dat]; simp only [Fin.coe_castSucc]

theorem after0 (c : Dev nD) (t : Fin cfg10.N) : (dat W c).after 0 t = iblk W c 0 t := by dsimp only [dat]
theorem after1 (c : Dev nD) (t : Fin cfg10.N) : (dat W c).after 1 t = iblk W c 1 t := by dsimp only [dat]
theorem after2 (c : Dev nD) (t : Fin cfg10.N) : (dat W c).after 2 t = iblk W c 2 t := by dsimp only [dat]
theorem after3 (c : Dev nD) (t : Fin cfg10.N) : (dat W c).after 3 t = iblk W c 3 t := by dsimp only [dat]
theorem after4 (c : Dev nD) (t : Fin cfg10.N) : (dat W c).after 4 t = iblk W c 4 t := by dsimp only [dat]
theorem after5 (c : Dev nD) (t : Fin cfg10.N) : (dat W c).after 5 t = iblk W c 5 t := by dsimp only [dat]
theorem after6 (c : Dev nD) (t : Fin cfg10.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg10.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg10.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg10.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg10.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg10.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg10.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg10.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg10.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg10.N) :
    bodyPre W c t ⊢ wp frame (wpE (defs₀ (F := F)) Variants.none c none) Set.univ (bodyAt10 t) (fun _ => bodyPost W c t) := by
  unfold bodyPre bodyPost bodyAt10
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 12 = 0
  · have hf : isFirst (grid10.coords t) := (isFirst_iff t).mpr h0
    have hnl : ¬isLast (grid10.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid10.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid10.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid10.coords t) := fun h => h0 ((isFirst_iff t).mp h)
    have hz : t.val ≠ 0 := fun h => h0 (by rw [h])
    by_cases h5 : t.val % 12 = 11
    · have hl : isLast (grid10.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid10.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid10.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid10.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W10, bigSep_W10]
  exact sound_body W c t

end Cert.KernelIdeal.R10

end
-- ==== Proof.R11Runs.lean ====
/-
  Launch 11 (a block row of the adjacency matrix times the vertex features, then the projection: times the transposed
  weight matrix, plus the bias row), one grid point at a time. The grid is 12 row blocks by 12 contraction blocks; the
  body at (m, k) does one of three things, decided by k alone:
    k = 0       the accumulator is set to zero, then the product of the (m, k) tile with rows [1024 k, 1024 k + 1024) of
                the features is added to it; the weights, the bias and the output block are not touched;
    0 < k < 11   the product is added to what the point before left in the accumulator; the rest is not touched;
    k = 11       the same, and then the accumulator times the transposed weight matrix, plus the bias row on every row,
                is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid11.Coords) : Prop := (Scalar.cmpi .ne (Scalar.extui (Scalar.cmpi .eq (BitVec.ofNat 32 (i 1).val) 0#32)) 0#32) = 1#1
/-- The output block is written at this point: the contraction coordinate is 11, the last. -/
abbrev isLast (i : grid11.Coords) : Prop := k11_cond2 i = 1#1

/-- The points whose contraction coordinate is 0 are those ≡ 0 (mod 12): decided over the 144 points. -/
theorem isFirst_iff : ∀ t : Fin cfg11.N, isFirst (grid11.coords t) ↔ t.val % 12 = 0 :=
  (by decide +kernel : ∀ t : Fin grid11.N, isFirst (grid11.coords t) ↔ t.val % 12 = 0)
/-- The points whose contraction coordinate is 11 are those ≡ 11 (mod 12). -/
theorem isLast_iff : ∀ t : Fin cfg11.N, isLast (grid11.coords t) ↔ t.val % 12 = 11 :=
  (by decide +kernel : ∀ t : Fin grid11.N, isLast (grid11.coords t) ↔ t.val % 12 = 11)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S12288x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11_kernel i arg2 harg2 arg3 harg3 arg4 harg4 arg5 harg5 arg6 harg6 arg7 harg7) K } := by
  refine ⟨?_, fun xi4 E K => ?run⟩
  case run =>
    simp only [cc11_kernel_eq_skeleton]; unfold cc11_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 11. As above for everything but the accumulator, which, at what the point before left in it (`xs0`), ends
    with one store over its whole block: `xs0` plus the tile's product. -/
noncomputable def runMiddle (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S12288x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11_kernel i arg2 harg2 arg3 harg3 arg4 harg4 arg5 harg5 arg6 harg6 arg7 harg7) K } := by
  refine ⟨?_, fun xi4 E K => ?run⟩
  case run =>
    simp only [cc11_kernel_eq_skeleton]; unfold cc11_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 11. As in the middle for the accumulator; the weights and the bias are read and left as they are; and the
    output block — at anything before — ends with one store over its whole block: the accumulator's new contents
    times the transposed weights, plus the bias row. -/
noncomputable def runLast (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S12288x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc11_kernel i arg2 harg2 arg3 harg3 arg4 harg4 arg5 harg5 arg6 harg6 arg7 harg7) K } := by
  refine ⟨?_, ?_, fun E K => ?run⟩
  case run =>
    simp only [cc11_kernel_eq_skeleton]; unfold cc11_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.R11

end
-- ==== Proof.R11Acc.lean ====
/-
  Launch 11, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R11Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg11.N, cfg11.idle 0 (grid11.coords t) = false := by decide +kernel
theorem live_feat : ∀ t : Fin cfg11.N, cfg11.idle 1 (grid11.coords t) = false := by decide +kernel
theorem live_wt : ∀ t : Fin cfg11.N, cfg11.idle 2 (grid11.coords t) = false := by decide +kernel
theorem live_bias : ∀ t : Fin cfg11.N, cfg11.idle 3 (grid11.coords t) = false := by decide +kernel
/-- Away from the last contraction coordinate the output window is idle, and its block is not written back. -/
theorem idle_out : ∀ t : Fin cfg11.N, ¬isLast (grid11.coords t) → cfg11.idle 4 (grid11.coords t) = true := by decide +kernel
theorem noFlush_out : ∀ t : Fin cfg11.N, ¬isLast (grid11.coords t) → (cfg11.win 4).flush t = false := by decide +kernel
/-- At the last contraction coordinate it is live. -/
theorem live_out : ∀ t : Fin cfg11.N, isLast (grid11.coords t) → cfg11.idle 4 (grid11.coords t) = false := by decide +kernel

/-! ## The memrefs the body is called with -/

/-- One staging buffer of the output window, through which its contents are stated (the choice does not matter). -/
abbrev VO : View sig .tc .vmem S1024x256 .f32 := (Memref.whole cc11_stg4_0 : Memref sig .tc .vmem S1024x256 .f32).view
/-- Each window's current staging memref at point `t`, spelled as the pipeline passes it, and its wholeness. -/
abbrev ms0 (t : Fin cfg11.N) : Memref sig .tc .vmem S1024x1024 .bf16 := win11_0.stage (cfg11.slots t 0)
abbrev hs0 (t : Fin cfg11.N) : (ms0 t).IsWhole := hstage11_0 ((cfg11.slots t 0).cast nbuf11_0)
abbrev ms1 (t : Fin cfg11.N) : Memref sig .tc .vmem S12288x256 .f32 := win11_1.stage (cfg11.slots t 1)
abbrev hs1 (t : Fin cfg11.N) : (ms1 t).IsWhole := hstage11_1 ((cfg11.slots t 1).cast nbuf11_1)
abbrev ms2 (t : Fin cfg11.N) : Memref sig .tc .vmem S256x256 .f32 := win11_2.stage (cfg11.slots t 2)
abbrev hs2 (t : Fin cfg11.N) : (ms2 t).IsWhole := hstage11_2 ((cfg11.slots t 2).cast nbuf11_2)
abbrev ms3 (t : Fin cfg11.N) : Memref sig .tc .vmem S1x256 .f32 := win11_3.stage (cfg11.slots t 3)
abbrev hs3 (t : Fin cfg11.N) : (ms3 t).IsWhole := hstage11_3 ((cfg11.slots t 3).cast nbuf11_3)
abbrev ms4 (t : Fin cfg11.N) : Memref sig .tc .vmem S1024x256 .f32 := win11_4.stage (cfg11.slots t 4)
abbrev hs4 (t : Fin cfg11.N) : (ms4 t).IsWhole := hstage11_4 ((cfg11.slots t 4).cast nbuf11_4)
/-- The accumulator: the kernel's own whole scoped buffer. -/
abbrev accM : Memref sig .tc .vmem S1024x256 .f32 := Memref.whole cc11_scratch0
abbrev VS : View sig .tc .vmem S1024x256 .f32 := accM.view

/-! ## What each case leaves -/

section
variable (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg11.W) (t : Fin cfg11.N) : ((cfg11.win w).xblock (cfg11.grid.coords t)).Idx → Elt F (cfg11.win w).elt :=
  ((cfg11.win w).blk t).view.read (Elt F) (W c (Pipeline.arrRef spec11 w))

/-- After the body at position `n`: (the output block, the accumulator). A position ≡ 0 (mod 12) starts from nothing;
    any other continues from the accumulator of the position before; a position ≡ 11 (mod 12) also writes the output. -/
def outsAt (c : Dev nD) : (n : ℕ) → n < cfg11.N → Vec F S1024x256 .f32 × Vec F S1024x256 .f32
  | 0, hn => (idleOut, accFirst c (grid11.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 12 = 0 then
      (idleOut, accFirst c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 12 = 11 then
      (outLast c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg11.N) (h0 : t.val % 12 = 0) :
    outsAt W c t.val t.isLt = (idleOut, accFirst c (grid11.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg11.N) (h0 : ¬t.val % 12 = 0) (h5 : ¬t.val % 12 = 11) :
    outsAt W c t.val t.isLt = (idleOut, accMiddle c (grid11.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg11.N) (h0 : ¬t.val % 12 = 0) (h5 : t.val % 12 = 11) :
    outsAt W c t.val t.isLt = (outLast c (grid11.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid11.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R11

end
-- ==== Proof.R11Data.lean ====
/-
  Launch 11's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R11Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec11 c : sProp 𝕄)
      = iprop((∃ d, owns (c : Thread nD τ) accM fullShare d) ∗ Pipeline.scopedRestBut (Ix := Unit) (Name := ℕ) (U := UR sig nD τ) (Lvl := ℕ) (Val := Elt F) spec11 c [cc11_scratch0]) := by
  rw [scopedRest11_split]; simp only [accM, owns_whole]; try rfl

/-- Before position `n`: at the first point every scoped buffer at anything; later the accumulator at what the point
    before left in it, the other scoped buffers at anything. -/
def PhiS (c : Dev nD) : (n : ℕ) → n ≤ cfg11.N → sProp 𝕄
  | 0, _ => Pipeline.scopedRest (Ix := Unit) (Name := ℕ) (U := UR sig nD τ) (Lvl := ℕ) (Val := Elt F) spec11 c
  | n + 1, hn => iprop(owns (c : Thread nD τ) accM fullShare ((outsAt W c n hn).2) ∗ Pipeline.scopedRestBut (Ix := Unit) (Name := ℕ) (U := UR sig nD τ) (Lvl := ℕ) (Val := Elt F) spec11 c [cc11_scratch0])

theorem PhiS_zero (c : Dev nD) (n : ℕ) (h : n ≤ cfg11.N) (hz : n = 0) : PhiS W c n h = Pipeline.scopedRest (Ix := Unit) (Name := ℕ) (U := UR sig nD τ) (Lvl := ℕ) (Val := Elt F) spec11 c := by
  subst hz; rfl

theorem PhiS_succ (c : Dev nD) (n : ℕ) (hn : n < cfg11.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec11 c [cc11_scratch0]) := rfl

theorem PhiS_pos (c : Dev nD) (n : ℕ) (h : n ≤ cfg11.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec11 c [cc11_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg11 c where
  A w := W c (Pipeline.arrRef spec11 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg11.W) : (dat W c).A w = W c (Pipeline.arrRef spec11 w) := by
  dsimp only [dat]

theorem PhiS_castSucc (c : Dev nD) (t : Fin cfg11.N) :
    (dat W c).Φ t.castSucc = PhiS W c t.val (Nat.le_of_lt t.isLt) := by
  dsimp only [dat]; simp only [Fin.coe_castSucc]

theorem after0 (c : Dev nD) (t : Fin cfg11.N) : (dat W c).after 0 t = iblk W c 0 t := by dsimp only [dat]
theorem after1 (c : Dev nD) (t : Fin cfg11.N) : (dat W c).after 1 t = iblk W c 1 t := by dsimp only [dat]
theorem after2 (c : Dev nD) (t : Fin cfg11.N) : (dat W c).after 2 t = iblk W c 2 t := by dsimp only [dat]
theorem after3 (c : Dev nD) (t : Fin cfg11.N) : (dat W c).after 3 t = iblk W c 3 t := by dsimp only [dat]
theorem after4 (c : Dev nD) (t : Fin cfg11.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg11.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg11.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg11.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg11.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg11.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg11.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg11.N) :
    bodyPre W c t ⊢ wp frame (wpE (defs₀ (F := F)) Variants.none c none) Set.univ (bodyAt11 t) (fun _ => bodyPost W c t) := by
  unfold bodyPre bodyPost bodyAt11
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 12 = 0
  · have hf : isFirst (grid11.coords t) := (isFirst_iff t).mpr h0
    have hnl : ¬isLast (grid11.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid11.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid11.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid11.coords t) := fun h => h0 ((isFirst_iff t).mp h)
    have hz : t.val ≠ 0 := fun h => h0 (by rw [h])
    by_cases h5 : t.val % 12 = 11
    · have hl : isLast (grid11.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid11.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid11.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid11.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W11, bigSep_W11]
  exact sound_body W c t

end Cert.KernelIdeal.R11

end
-- ==== Proof.R12Runs.lean ====
/-
  Launch 12 (an adjacency product with the fused epilogue), one grid point at a time. The grid is 12 row blocks by
  12 contraction blocks; the body at (m, k) does one of three things, decided by k alone:
    k = 0       the accumulator is set to zero, then the product of the (m, k) tile with rows [1024 k, 1024 k + 1024) of
                the resident feature matrix (rounded to bf16) is added to it; the output block is not touched;
    0 < k < 11   the product is added to what the point before left in the accumulator; the output block is not touched;
    k = 11       the same, and then the epilogue — the accumulator (rounded to bf16) times the transposed weight (rounded
                to bf16), plus the bias row, plus the first skip block, clamped below at zero, plus the second skip block —
                is stored over the whole output block.
  The weight, the bias row and the two skip blocks are only read at k = 11; every input buffer is left as it was.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid12.Coords) : Prop := (Scalar.cmpi .ne (Scalar.extui (Scalar.cmpi .eq (BitVec.ofNat 32 (i 1).val) 0#32)) 0#32) = 1#1
/-- The output block is written at this point: the contraction coordinate is 11, the last. -/
abbrev isLast (i : grid12.Coords) : Prop := k12_cond2 i = 1#1

/-- The points whose contraction coordinate is 0 are those ≡ 0 (mod 12): decided over the 144 points. -/
theorem isFirst_iff : ∀ t : Fin cfg12.N, isFirst (grid12.coords t) ↔ t.val % 12 = 0 :=
  (by decide +kernel : ∀ t : Fin grid12.N, isFirst (grid12.coords t) ↔ t.val % 12 = 0)
/-- The points whose contraction coordinate is 11 are those ≡ 11 (mod 12). -/
theorem isLast_iff : ∀ t : Fin cfg12.N, isLast (grid12.coords t) ↔ t.val % 12 = 11 :=
  (by decide +kernel : ∀ t : Fin grid12.N, isLast (grid12.coords t) ↔ t.val % 12 = 11)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc12_kernel i arg2 harg2 arg3 harg3 arg4 harg4 arg5 harg5 arg6 harg6 arg7 harg7 arg8 harg8 arg9 harg9) K } := by
  refine ⟨?_, fun xi6 E K => ?run⟩
  case run =>
    simp only [cc12_kernel_eq_skeleton]; unfold cc12_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 11. The six inputs are left as they are, the output block is handed back untouched, and the accumulator, at
    what the point before left in it (`xs0`), ends with one store over its whole block: `xs0` plus the tile's product. -/
noncomputable def runMiddle (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc12_kernel i arg2 harg2 arg3 harg3 arg4 harg4 arg5 harg5 arg6 harg6 arg7 harg7 arg8 harg8 arg9 harg9) K } := by
  refine ⟨?_, fun xi6 E K => ?run⟩
  case run =>
    simp only [cc12_kernel_eq_skeleton]; unfold cc12_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 11. As in the middle for the accumulator; and the output block — at anything before — ends with one store over
    its whole block: the epilogue of the accumulator's new contents, the weight, the bias row and the two skip blocks. -/
noncomputable def runLast (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc12_kernel i arg2 harg2 arg3 harg3 arg4 harg4 arg5 harg5 arg6 harg6 arg7 harg7 arg8 harg8 arg9 harg9) K } := by
  refine ⟨?_, ?_, fun E K => ?run⟩
  case run =>
    simp only [cc12_kernel_eq_skeleton]; unfold cc12_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R12

end
-- ==== Proof.R12Acc.lean ====
/-
  Launch 12, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R12Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg12.N, cfg12.idle 0 (grid12.coords t) = false := by decide +kernel
theorem live_in1 : ∀ t : Fin cfg12.N, cfg12.idle 1 (grid12.coords t) = false := by decide +kernel
theorem live_in2 : ∀ t : Fin cfg12.N, cfg12.idle 2 (grid12.coords t) = false := by decide +kernel
theorem live_in3 : ∀ t : Fin cfg12.N, cfg12.idle 3 (grid12.coords t) = false := by decide +kernel
theorem live_in4 : ∀ t : Fin cfg12.N, cfg12.idle 4 (grid12.coords t) = false := by decide +kernel
theorem live_in5 : ∀ t : Fin cfg12.N, cfg12.idle 5 (grid12.coords t) = false := by decide +kernel
/-- Away from the last contraction coordinate the output window is idle, and its block is not written back. -/
theorem idle_out : ∀ t : Fin cfg12.N, ¬isLast (grid12.coords t) → cfg12.idle 6 (grid12.coords t) = true := by decide +kernel
theorem noFlush_out : ∀ t : Fin cfg12.N, ¬isLast (grid12.coords t) → (cfg12.win 6).flush t = false := by decide +kernel
/-- At the last contraction coordinate it is live. -/
theorem live_out : ∀ t : Fin cfg12.N, isLast (grid12.coords t) → cfg12.idle 6 (grid12.coords t) = false := by decide +kernel

/-! ## The memrefs the body is called with -/

/-- One staging buffer of the output window, through which its contents are stated (the choice does not matter). -/
abbrev VO : View sig .tc .vmem S1024x256 .f32 := (Memref.whole cc12_stg6_0 : Memref sig .tc .vmem S1024x256 .f32).view
/-- Each window's current staging memref at point `t`, spelled as the pipeline passes it, and its wholeness. -/
abbrev ms0 (t : Fin cfg12.N) : Memref sig .tc .vmem S1024x1024 .bf16 := win12_0.stage (cfg12.slots t 0)
abbrev hs0 (t : Fin cfg12.N) : (ms0 t).IsWhole := hstage12_0 ((cfg12.slots t 0).cast nbuf12_0)
abbrev ms1 (t : Fin cfg12.N) : Memref sig .tc .vmem S12288x256 .f32 := win12_1.stage (cfg12.slots t 1)
abbrev hs1 (t : Fin cfg12.N) : (ms1 t).IsWhole := hstage12_1 ((cfg12.slots t 1).cast nbuf12_1)
abbrev ms2 (t : Fin cfg12.N) : Memref sig .tc .vmem S256x256 .f32 := win12_2.stage (cfg12.slots t 2)
abbrev hs2 (t : Fin cfg12.N) : (ms2 t).IsWhole := hstage12_2 ((cfg12.slots t 2).cast nbuf12_2)
abbrev ms3 (t : Fin cfg12.N) : Memref sig .tc .vmem S1x256 .f32 := win12_3.stage (cfg12.slots t 3)
abbrev hs3 (t : Fin cfg12.N) : (ms3 t).IsWhole := hstage12_3 ((cfg12.slots t 3).cast nbuf12_3)
abbrev ms4 (t : Fin cfg12.N) : Memref sig .tc .vmem S1024x256 .f32 := win12_4.stage (cfg12.slots t 4)
abbrev hs4 (t : Fin cfg12.N) : (ms4 t).IsWhole := hstage12_4 ((cfg12.slots t 4).cast nbuf12_4)
abbrev ms5 (t : Fin cfg12.N) : Memref sig .tc .vmem S1024x256 .f32 := win12_5.stage (cfg12.slots t 5)
abbrev hs5 (t : Fin cfg12.N) : (ms5 t).IsWhole := hstage12_5 ((cfg12.slots t 5).cast nbuf12_5)
abbrev ms6 (t : Fin cfg12.N) : Memref sig .tc .vmem S1024x256 .f32 := win12_6.stage (cfg12.slots t 6)
abbrev hs6 (t : Fin cfg12.N) : (ms6 t).IsWhole := hstage12_6 ((cfg12.slots t 6).cast nbuf12_6)
/-- The accumulator: the kernel's own whole scoped buffer. -/
abbrev accM : Memref sig .tc .vmem S1024x256 .f32 := Memref.whole cc12_scratch0
abbrev VS : View sig .tc .vmem S1024x256 .f32 := accM.view

/-! ## What each case leaves -/

section
variable (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg12.W) (t : Fin cfg12.N) : ((cfg12.win w).xblock (cfg12.grid.coords t)).Idx → Elt F (cfg12.win w).elt :=
  ((cfg12.win w).blk t).view.read (Elt F) (W c (Pipeline.arrRef spec12 w))

/-- After the body at position `n`: (the output block, the accumulator). A position ≡ 0 (mod 12) starts from nothing;
    any other continues from the accumulator of the position before; a position ≡ 11 (mod 12) also writes the output. -/
def outsAt (c : Dev nD) : (n : ℕ) → n < cfg12.N → Vec F S1024x256 .f32 × Vec F S1024x256 .f32
  | 0, hn => (idleOut, accFirst c (grid12.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 12 = 0 then
      (idleOut, accFirst c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 12 = 11 then
      (outLast c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg12.N) (h0 : t.val % 12 = 0) :
    outsAt W c t.val t.isLt = (idleOut, accFirst c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg12.N) (h0 : ¬t.val % 12 = 0) (h5 : ¬t.val % 12 = 11) :
    outsAt W c t.val t.isLt = (idleOut, accMiddle c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg12.N) (h0 : ¬t.val % 12 = 0) (h5 : t.val % 12 = 11) :
    outsAt W c t.val t.isLt = (outLast c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R12

end
-- ==== Proof.R12Data.lean ====
/-
  Launch 12's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R12Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec12 c : sProp 𝕄)
      = iprop((∃ d, owns (c : Thread nD τ) accM fullShare d) ∗ Pipeline.scopedRestBut (Ix := Unit) (Name := ℕ) (U := UR sig nD τ) (Lvl := ℕ) (Val := Elt F) spec12 c [cc12_scratch0]) := by
  rw [scopedRest12_split]; simp only [accM, owns_whole]; try rfl

/-- Before position `n`: at the first point every scoped buffer at anything; later the accumulator at what the point
    before left in it, the other scoped buffers at anything. -/
def PhiS (c : Dev nD) : (n : ℕ) → n ≤ cfg12.N → sProp 𝕄
  | 0, _ => Pipeline.scopedRest (Ix := Unit) (Name := ℕ) (U := UR sig nD τ) (Lvl := ℕ) (Val := Elt F) spec12 c
  | n + 1, hn => iprop(owns (c : Thread nD τ) accM fullShare ((outsAt W c n hn).2) ∗ Pipeline.scopedRestBut (Ix := Unit) (Name := ℕ) (U := UR sig nD τ) (Lvl := ℕ) (Val := Elt F) spec12 c [cc12_scratch0])

theorem PhiS_zero (c : Dev nD) (n : ℕ) (h : n ≤ cfg12.N) (hz : n = 0) : PhiS W c n h = Pipeline.scopedRest (Ix := Unit) (Name := ℕ) (U := UR sig nD τ) (Lvl := ℕ) (Val := Elt F) spec12 c := by
  subst hz; rfl

theorem PhiS_succ (c : Dev nD) (n : ℕ) (hn : n < cfg12.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec12 c [cc12_scratch0]) := rfl

theorem PhiS_pos (c : Dev nD) (n : ℕ) (h : n ≤ cfg12.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec12 c [cc12_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg12 c where
  A w := W c (Pipeline.arrRef spec12 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg12.W) : (dat W c).A w = W c (Pipeline.arrRef spec12 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg12.N) :
    (dat W c).Φ t.castSucc = PhiS W c t.val (Nat.le_of_lt t.isLt) := by
  dsimp only [dat]; simp only [Fin.coe_castSucc]

theorem after0 (c : Dev nD) (t : Fin cfg12.N) : (dat W c).after 0 t = iblk W c 0 t := by dsimp only [dat]
theorem after1 (c : Dev nD) (t : Fin cfg12.N) : (dat W c).after 1 t = iblk W c 1 t := by dsimp only [dat]
theorem after2 (c : Dev nD) (t : Fin cfg12.N) : (dat W c).after 2 t = iblk W c 2 t := by dsimp only [dat]
theorem after3 (c : Dev nD) (t : Fin cfg12.N) : (dat W c).after 3 t = iblk W c 3 t := by dsimp only [dat]
theorem after4 (c : Dev nD) (t : Fin cfg12.N) : (dat W c).after 4 t = iblk W c 4 t := by dsimp only [dat]
theorem after5 (c : Dev nD) (t : Fin cfg12.N) : (dat W c).after 5 t = iblk W c 5 t := by dsimp only [dat]
theorem after6 (c : Dev nD) (t : Fin cfg12.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg12.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg12.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg12.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg12.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg12.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg12.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg12.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg12.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg12.N) :
    bodyPre W c t ⊢ wp frame (wpE (defs₀ (F := F)) Variants.none c none) Set.univ (bodyAt12 t) (fun _ => bodyPost W c t) := by
  unfold bodyPre bodyPost bodyAt12
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 12 = 0
  · have hf : isFirst (grid12.coords t) := (isFirst_iff t).mpr h0
    have hnl : ¬isLast (grid12.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid12.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid12.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid12.coords t) := fun h => h0 ((isFirst_iff t).mp h)
    have hz : t.val ≠ 0 := fun h => h0 (by rw [h])
    by_cases h5 : t.val % 12 = 11
    · have hl : isLast (grid12.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid12.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid12.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid12.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W12, bigSep_W12]
  exact sound_body W c t

end Cert.KernelIdeal.R12

end
-- ==== Proof.R13Runs.lean ====
/-
  The last launch (the vertex-by-face adjacency matrix times the face features), one grid point at a
  time. The grid is 6 row blocks by 12 contraction blocks; the body at (m, k) does one of three things, decided by k alone:
    k = 0       the accumulator is set to zero, then the product of the (m, k) tile with rows [1024 k, 1024 k + 1024) of the features is added to it; the output block is not touched;
    0 < k < 11  the product is added to what the point before left in the accumulator; the output block is not touched;
    k = 11      the same, and then the accumulator is stored over the whole output block.
  Each case is run once, on any whole staging buffers, and leaves the stores it made as a list of pieces.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid13.Coords) : Prop := (Scalar.cmpi .ne (Scalar.extui (Scalar.cmpi .eq (BitVec.ofNat 32 (i 1).val) 0#32)) 0#32) = 1#1
/-- The output block is written at this point: the contraction coordinate is 11, the last. -/
abbrev isLast (i : grid13.Coords) : Prop := k13_cond2 i = 1#1

/-- The points whose contraction coordinate is 0 are those ≡ 0 (mod 12): decided over the 72 points. -/
theorem isFirst_iff : ∀ t : Fin cfg13.N, isFirst (grid13.coords t) ↔ t.val % 12 = 0 :=
  (by decide +kernel : ∀ t : Fin grid13.N, isFirst (grid13.coords t) ↔ t.val % 12 = 0)
/-- The points whose contraction coordinate is 11 are those ≡ 5 (mod 12). -/
theorem isLast_iff : ∀ t : Fin cfg13.N, isLast (grid13.coords t) ↔ t.val % 12 = 11 :=
  (by decide +kernel : ∀ t : Fin grid13.N, isLast (grid13.coords t) ↔ t.val % 12 = 11)

/-! ## The body, case by case -/

set_option maxHeartbeats 1000000 in
/-- k = 0. The tile and the features are read and left as they are, the output block is handed back untouched, and
    the accumulator — at anything before — ends with two stores over its whole block: the zero block, then zero plus
    the tile's product. -/
noncomputable def runFirst (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole) (hc0 : isFirst i) (hc1 : ¬isLast i)
    (x0 : Vec F S1024x1024 .bf16) (x1 : Vec F S12288x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc13_kernel i arg2 harg2 arg3 harg3 arg4 harg4 arg5 harg5) K } := by
  refine ⟨?_, fun xi2 E K => ?run⟩
  case run =>
    simp only [cc13_kernel_eq_skeleton]; unfold cc13_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 11. The tile and the features are read and left as they are, the output block is handed back untouched, and
    the accumulator, at what the point before left in it (`xs0`), ends with one store over its whole block: `xs0` plus
    the tile's product. -/
noncomputable def runMiddle (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : ¬isLast i)
    (x0 : Vec F S1024x1024 .bf16) (x1 : Vec F S12288x256 .f32) (xs0 : Vec F S1024x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc13_kernel i arg2 harg2 arg3 harg3 arg4 harg4 arg5 harg5) K } := by
  refine ⟨?_, fun xi2 E K => ?run⟩
  case run =>
    simp only [cc13_kernel_eq_skeleton]; unfold cc13_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 11. As in the middle for the accumulator; and the output block — at anything before — ends with one store over
    its whole block: the accumulator's new contents. -/
noncomputable def runLast (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : isLast i)
    (x0 : Vec F S1024x1024 .bf16) (x1 : Vec F S12288x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc13_kernel i arg2 harg2 arg3 harg3 arg4 harg4 arg5 harg5) K } := by
  refine ⟨?_, ?_, fun E K => ?run⟩
  case run =>
    simp only [cc13_kernel_eq_skeleton]; unfold cc13_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R13

end
-- ==== Proof.R13Acc.lean ====
/-
  The last launch, point after point: what the accumulator and the output block hold after the body at each of
  the 72 grid points. The accumulator is the kernel's own scratch buffer and is not touched between two points, so after
  point n it holds what the case of n stored, computed from what point n - 1 left (or from nothing, when n opens a new row
  block: its contraction coordinate is 0). The output block is only written at the last contraction coordinate; at the
  other points the pipeline neither writes it back nor reads it, and what is recorded for it there is a placeholder.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R13Runs
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.KernelIdeal.R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The two input windows are never idle. -/
theorem live_tile : ∀ t : Fin cfg13.N, cfg13.idle 0 (grid13.coords t) = false := by decide +kernel
theorem live_feat : ∀ t : Fin cfg13.N, cfg13.idle 1 (grid13.coords t) = false := by decide +kernel
/-- Away from the last contraction coordinate the output window is idle, and its block is not written back. -/
theorem idle_out : ∀ t : Fin cfg13.N, ¬isLast (grid13.coords t) → cfg13.idle 2 (grid13.coords t) = true := by decide +kernel
theorem noFlush_out : ∀ t : Fin cfg13.N, ¬isLast (grid13.coords t) → (cfg13.win 2).flush t = false := by decide +kernel
/-- At the last contraction coordinate it is live. -/
theorem live_out : ∀ t : Fin cfg13.N, isLast (grid13.coords t) → cfg13.idle 2 (grid13.coords t) = false := by decide +kernel

/-! ## The memrefs the body is called with -/

/-- One staging buffer of the output window, through which its contents are stated (the choice does not matter). -/
abbrev VO : View sig .tc .vmem S1024x256 .f32 := (Memref.whole cc13_stg2_0 : Memref sig .tc .vmem S1024x256 .f32).view
/-- Each window's current staging memref at point `t`, spelled as the pipeline passes it, and its wholeness. -/
abbrev ms0 (t : Fin cfg13.N) : Memref sig .tc .vmem S1024x1024 .bf16 := win13_0.stage (cfg13.slots t 0)
abbrev hs0 (t : Fin cfg13.N) : (ms0 t).IsWhole := hstage13_0 ((cfg13.slots t 0).cast nbuf13_0)
abbrev ms1 (t : Fin cfg13.N) : Memref sig .tc .vmem S12288x256 .f32 := win13_1.stage (cfg13.slots t 1)
abbrev hs1 (t : Fin cfg13.N) : (ms1 t).IsWhole := hstage13_1 ((cfg13.slots t 1).cast nbuf13_1)
abbrev ms2 (t : Fin cfg13.N) : Memref sig .tc .vmem S1024x256 .f32 := win13_2.stage (cfg13.slots t 2)
abbrev hs2 (t : Fin cfg13.N) : (ms2 t).IsWhole := hstage13_2 ((cfg13.slots t 2).cast nbuf13_2)
/-- The accumulator: the kernel's own whole scoped buffer. -/
abbrev accM : Memref sig .tc .vmem S1024x256 .f32 := Memref.whole cc13_scratch0
abbrev VS : View sig .tc .vmem S1024x256 .f32 := accM.view

/-! ## What each case leaves -/

section
variable (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (y : S1024x256.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x256.size (by sl_kernel_rfl) y
/-- What the case k = 0 leaves in the accumulator. -/
def accFirst (hc0 : isFirst i) (hc1 : ¬isLast i) (x0 : Vec F S1024x1024 .bf16) (x1 : Vec F S12288x256 .f32) : Vec F S1024x256 .f32 :=
  VS.read (Elt F) (VS.writes (Elt F) VS.junk (runFirst c i arg2 harg2 arg3 harg3 arg4 harg4 arg5 harg5 hc0 hc1 x0 x1).1)

/-- 0 < k < 11: the accumulator's one store covers its whole block. -/
theorem cover_accMiddle (hc0 : ¬isFirst i) (hc1 : ¬isLast i) (x0 : Vec F S1024x1024 .bf16) (x1 : Vec F S12288x256 .f32) (xs0 : Vec F S1024x256 .f32) (y : S1024x256.Idx) :
    ∃ pc ∈ (runMiddle c i arg2 harg2 arg3 harg3 arg4 harg4 arg5 harg5 hc0 hc1 x0 x1 xs0).1, y ∈ pc.1.set :=
  View.cover_of_tiledL (runMiddle c i arg2 harg2 arg3 harg3 arg4 harg4 arg5 harg5 hc0 hc1 x0 x1 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (xs0 : Vec F S1024x256 .f32) : Vec F S1024x256 .f32 :=
  VS.read (Elt F) (VS.writes (Elt F) VS.junk (runMiddle c i arg2 harg2 arg3 harg3 arg4 harg4 arg5 harg5 hc0 hc1 x0 x1 xs0).1)

/-- k = 11: the output block's one store covers it, and so does the accumulator's. -/
theorem cover_outLast (hc0 : ¬isFirst i) (hc1 : isLast i) (x0 : Vec F S1024x1024 .bf16) (x1 : Vec F S12288x256 .f32) (xs0 : Vec F S1024x256 .f32) (y : S1024x256.Idx) :
    ∃ pc ∈ (runLast c i arg2 harg2 arg3 harg3 arg4 harg4 arg5 harg5 hc0 hc1 x0 x1 xs0).1, y ∈ pc.1.set :=
  View.cover_of_tiledL (runLast c i arg2 harg2 arg3 harg3 arg4 harg4 arg5 harg5 hc0 hc1 x0 x1 xs0).1 S1024x256.size (by sl_kernel_rfl) y
theorem cover_accLast (hc0 : ¬isFirst i) (hc1 : isLast i) (x0 : Vec F S1024x1024 .bf16) (x1 : Vec F S12288x256 .f32) (xs0 : Vec F S1024x256 .f32) (y : S1024x256.Idx) :
    ∃ pc ∈ (runLast c i arg2 harg2 arg3 harg3 arg4 harg4 arg5 harg5 hc0 hc1 x0 x1 xs0).2.1, y ∈ pc.1.set :=
  View.cover_of_tiledL (runLast c i arg2 harg2 arg3 harg3 arg4 harg4 arg5 harg5 hc0 hc1 x0 x1 xs0).2.1 S1024x256.size (by sl_kernel_rfl) y
/-- What the last case leaves in the output block, -/
def outLast (hc0 : ¬isFirst i) (hc1 : isLast i) (x0 : Vec F S1024x1024 .bf16) (x1 : Vec F S12288x256 .f32) (xs0 : Vec F S1024x256 .f32) : Vec F S1024x256 .f32 :=
  VO.read (Elt F) (VO.writes (Elt F) VO.junk (runLast c i arg2 harg2 arg3 harg3 arg4 harg4 arg5 harg5 hc0 hc1 x0 x1 xs0).1)
/-- and in the accumulator. -/
def accLast (hc0 : ¬isFirst i) (hc1 : isLast i) (x0 : Vec F S1024x1024 .bf16) (x1 : Vec F S12288x256 .f32) (xs0 : Vec F S1024x256 .f32) : Vec F S1024x256 .f32 :=
  VS.read (Elt F) (VS.writes (Elt F) VS.junk (runLast c i arg2 harg2 arg3 harg3 arg4 harg4 arg5 harg5 hc0 hc1 x0 x1 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg13.W) (t : Fin cfg13.N) : ((cfg13.win w).xblock (cfg13.grid.coords t)).Idx → Elt F (cfg13.win w).elt :=
  ((cfg13.win w).blk t).view.read (Elt F) (W c (Pipeline.arrRef spec13 w))

/-- After the body at position `n`: (the output block, the accumulator). A position ≡ 0 (mod 12) starts from nothing;
    any other continues from the accumulator of the position before; a position ≡ 5 (mod 12) also writes the output. -/
def outsAt (c : Dev nD) : (n : ℕ) → n < cfg13.N → Vec F S1024x256 .f32 × Vec F S1024x256 .f32
  | 0, hn => (idleOut, accFirst c (grid13.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩))
  | n + 1, hn =>
    if h0 : (n + 1) % 12 = 0 then
      (idleOut, accFirst c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩))
    else if h5 : (n + 1) % 12 = 11 then
      (outLast c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2,
        accLast c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2)
    else
      (idleOut, accMiddle c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (outsAt c n (Nat.lt_of_succ_lt hn)).2)

/-- At a point that opens a row block. -/
theorem outsAt_first (c : Dev nD) (t : Fin cfg13.N) (h0 : t.val % 12 = 0) :
    outsAt W c t.val t.isLt = (idleOut, accFirst c (grid13.coords t) (ms0 t) (hs0 t) (ms1 t) (hs1 t) (ms2 t) (hs2 t) accM (Memref.isWhole_whole _)
      ((isFirst_iff t).mpr h0) (fun h => by have := (isLast_iff t).mp h; omega) (iblk W c 0 t) (iblk W c 1 t)) := by
  obtain ⟨n, hn⟩ := t
  cases n with
  | zero => exact rfl
  | succ n => exact (dif_pos h0).trans rfl

/-- At a point in the middle of a row block: over what the point before left. -/
theorem outsAt_middle (c : Dev nD) (t : Fin cfg13.N) (h0 : ¬t.val % 12 = 0) (h5 : ¬t.val % 12 = 11) :
    outsAt W c t.val t.isLt = (idleOut, accMiddle c (grid13.coords t) (ms0 t) (hs0 t) (ms1 t) (hs1 t) (ms2 t) (hs2 t) accM (Memref.isWhole_whole _)
      (fun h => h0 ((isFirst_iff t).mp h)) (fun h => h5 ((isLast_iff t).mp h)) (iblk W c 0 t) (iblk W c 1 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg13.N) (h0 : ¬t.val % 12 = 0) (h5 : t.val % 12 = 11) :
    outsAt W c t.val t.isLt = (outLast c (grid13.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2,
      accLast c (grid13.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.KernelIdeal.R13

end
-- ==== Proof.R13Data.lean ====
/-
  The last launch's proof data: what the pipeline's bookkeeping is told each staging buffer holds after the body at
  every point (an input window: its block of the array; the output window: the accumulation's first component), the
  invariant carried between points (before the first point the launch's scoped buffers at anything; afterwards the
  accumulator at the accumulation's second component, beside the other scoped buffers), nothing owed, full shares — and
  the body obligation against it: at every point the case the point is in runs from what the data says and leaves what
  the data says.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R13Acc
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.KernelIdeal.R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec13 c : sProp 𝕄)
      = iprop((∃ d, owns (c : Thread nD τ) accM fullShare d) ∗ Pipeline.scopedRestBut (Ix := Unit) (Name := ℕ) (U := UR sig nD τ) (Lvl := ℕ) (Val := Elt F) spec13 c [cc13_scratch0]) := by
  rw [scopedRest13_split]; simp only [accM, owns_whole]; try rfl

/-- Before position `n`: at the first point every scoped buffer at anything; later the accumulator at what the point
    before left in it, the other scoped buffers at anything. -/
def PhiS (c : Dev nD) : (n : ℕ) → n ≤ cfg13.N → sProp 𝕄
  | 0, _ => Pipeline.scopedRest (Ix := Unit) (Name := ℕ) (U := UR sig nD τ) (Lvl := ℕ) (Val := Elt F) spec13 c
  | n + 1, hn => iprop(owns (c : Thread nD τ) accM fullShare ((outsAt W c n hn).2) ∗ Pipeline.scopedRestBut (Ix := Unit) (Name := ℕ) (U := UR sig nD τ) (Lvl := ℕ) (Val := Elt F) spec13 c [cc13_scratch0])

theorem PhiS_zero (c : Dev nD) (n : ℕ) (h : n ≤ cfg13.N) (hz : n = 0) : PhiS W c n h = Pipeline.scopedRest (Ix := Unit) (Name := ℕ) (U := UR sig nD τ) (Lvl := ℕ) (Val := Elt F) spec13 c := by
  subst hz; rfl

theorem PhiS_succ (c : Dev nD) (n : ℕ) (hn : n < cfg13.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec13 c [cc13_scratch0]) := rfl

theorem PhiS_pos (c : Dev nD) (n : ℕ) (h : n ≤ cfg13.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec13 c [cc13_scratch0]) := by
  cases n with
  | zero => exact absurd rfl hz
  | succ n => rfl

/-! ## The proof data -/

/-- On core `c`: the arrays as the launch finds them; after the body at `t` the tile's and the features' buffers at their
    blocks, the output's at the accumulation's first component; the invariant above; nothing owed; full shares. -/
def dat (c : Dev nD) : Dat τ (Elt F) Unit ℕ (UR sig nD τ) ℕ cfg13 c where
  A w := W c (Pipeline.arrRef spec13 w)
  after w t := match w with
    | ⟨0, _⟩ => iblk W c 0 t
    | ⟨1, _⟩ => iblk W c 1 t
    | ⟨2, _⟩ => (outsAt W c t.val t.isLt).1
  Φ t := PhiS W c t.val (Nat.le_of_lt_succ t.isLt)
  q _ := fullShare
  owed _ := 0

theorem A_eq (c : Dev nD) (w : Fin cfg13.W) : (dat W c).A w = W c (Pipeline.arrRef spec13 w) := by
  dsimp only [dat]

theorem PhiS_castSucc (c : Dev nD) (t : Fin cfg13.N) :
    (dat W c).Φ t.castSucc = PhiS W c t.val (Nat.le_of_lt t.isLt) := by
  dsimp only [dat]; simp only [Fin.coe_castSucc]

theorem after0 (c : Dev nD) (t : Fin cfg13.N) : (dat W c).after 0 t = iblk W c 0 t := by dsimp only [dat]
theorem after1 (c : Dev nD) (t : Fin cfg13.N) : (dat W c).after 1 t = iblk W c 1 t := by dsimp only [dat]
theorem after2 (c : Dev nD) (t : Fin cfg13.N) : (dat W c).after 2 t = (outsAt W c t.val t.isLt).1 := by dsimp only [dat]

/-- The tile's current staging buffer holds its block when the body runs (it is fetched at every point). -/
theorem before0 (c : Dev nD) (t : Fin cfg13.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The features' staging buffer holds the whole feature matrix at every point (fetched once; its index never moves). -/
theorem before1 (c : Dev nD) (t : Fin cfg13.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg13.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d)))

def bodyPost (c : Dev nD) (t : Fin cfg13.N) : sProp 𝕄 :=
  iprop((dat W c).Φ t.succ ∗ (dat W c).owesAt () t.succ
    ∗ (dat W c).leavesExact 0 t
    ∗ (dat W c).leavesExact 1 t
    ∗ (dat W c).leavesExact 2 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg13.N) :
    bodyPre W c t ⊢ wp frame (wpE (defs₀ (F := F)) Variants.none c none) Set.univ (bodyAt13 t) (fun _ => bodyPost W c t) := by
  unfold bodyPre bodyPost bodyAt13
  simp only [before0, before1]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  by_cases h0 : t.val % 12 = 0
  · have hf : isFirst (grid13.coords t) := (isFirst_iff t).mpr h0
    have hnl : ¬isLast (grid13.coords t) := fun h => by have := (isLast_iff t).mp h; omega
    rw [Dat.leavesExact_idle (dat W c) 2 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩⟩
      iapply ((runFirst c (grid13.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
    · rw [PhiS_castSucc W c t, PhiS_pos W c _ _ hz]
      iintro ⟨⟨HS0, Hg⟩, Ho, ⟨%d0, H0⟩, ⟨%d1, H1⟩, ⟨%d2, H2⟩⟩
      iapply ((runFirst c (grid13.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
  · have hnf : ¬isFirst (grid13.coords t) := fun h => h0 ((isFirst_iff t).mp h)
    have hz : t.val ≠ 0 := fun h => h0 (by rw [h])
    by_cases h5 : t.val % 12 = 11
    · have hl : isLast (grid13.coords t) := (isLast_iff t).mpr h5
      rw [show (dat W c).leavesExact 2 t = owns (c : Thread nD τ) (ms2 t) fullShare ((dat W c).after 2 t) from by
        unfold Dat.leavesExact; rw [live_out t hl], after2]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩⟩
      iapply ((runLast c (grid13.coords t) _ _ _ _ _ _ _ _ hnf hl (iblk W c 0 t) (iblk W c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · have hnl : ¬isLast (grid13.coords t) := fun h => h5 ((isLast_iff t).mp h)
      rw [Dat.leavesExact_idle (dat W c) 2 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩⟩
      iapply ((runMiddle c (grid13.coords t) _ _ _ _ _ _ _ _ hnf hnl (iblk W c 0 t) (iblk W c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) W c) (defs₀ (F := F)) Variants.none () Set.univ := fun t => by
  rw [bigSep_W13, bigSep_W13]
  exact sound_body W c t

end Cert.KernelIdeal.R13

end
-- ==== Proof.AsmBase.lean ====
/-
  What every launch leaves in its output array (read off its proof data: the array after the last grid point), the
  family of the fourteen launches' proof data — each at the buffer contents its launch is entered from — and what rides
  beside the buffers from item to item: the core's generator register at some state and its debts, none.
-/
import proofs.«155206_j89000312308227_2_alg».proof.Proof.Chain
import proofs.«155206_j89000312308227_2_alg».proof.Proof.R0Data
import proofs.«155206_j89000312308227_2_alg».proof.Proof.R1Data
import proofs.«155206_j89000312308227_2_alg».proof.Proof.R2Data
import proofs.«155206_j89000312308227_2_alg».proof.Proof.R3Data
import proofs.«155206_j89000312308227_2_alg».proof.Proof.R4Data
import proofs.«155206_j89000312308227_2_alg».proof.Proof.R5Data
import proofs.«155206_j89000312308227_2_alg».proof.Proof.R6Data
import proofs.«155206_j89000312308227_2_alg».proof.Proof.R7Data
import proofs.«155206_j89000312308227_2_alg».proof.Proof.R8Data
import proofs.«155206_j89000312308227_2_alg».proof.Proof.R9Data
import proofs.«155206_j89000312308227_2_alg».proof.Proof.R10Data
import proofs.«155206_j89000312308227_2_alg».proof.Proof.R11Data
import proofs.«155206_j89000312308227_2_alg».proof.Proof.R12Data
import proofs.«155206_j89000312308227_2_alg».proof.Proof.R13Data
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What each launch leaves in its output array: its proof data's array after the last grid point. -/
def leaves (F : FTy → Type) [FloatOps F] : LeavesAll F where
    v0 := fun W c => (R0.dat (F := F) W c).arrAt 2 cfg0.N
    v1 := fun W c => (R1.dat (F := F) W c).arrAt 4 cfg1.N
    v2 := fun W c => (R2.dat (F := F) W c).arrAt 6 cfg2.N
    v3 := fun W c => (R3.dat (F := F) W c).arrAt 4 cfg3.N
    v4 := fun W c => (R4.dat (F := F) W c).arrAt 6 cfg4.N
    v5 := fun W c => (R5.dat (F := F) W c).arrAt 4 cfg5.N
    v6 := fun W c => (R6.dat (F := F) W c).arrAt 6 cfg6.N
    v7 := fun W c => (R7.dat (F := F) W c).arrAt 4 cfg7.N
    v8 := fun W c => (R8.dat (F := F) W c).arrAt 6 cfg8.N
    v9 := fun W c => (R9.dat (F := F) W c).arrAt 4 cfg9.N
    v10 := fun W c => (R10.dat (F := F) W c).arrAt 6 cfg10.N
    v11 := fun W c => (R11.dat (F := F) W c).arrAt 4 cfg11.N
    v12 := fun W c => (R12.dat (F := F) W c).arrAt 6 cfg12.N
    v13 := fun W c => (R13.dat (F := F) W c).arrAt 2 cfg13.N

abbrev 𝒱₀ : Variants := Variants.none
/-- No core owes another anything: no level is assigned. -/
abbrev Lz : GSem nD τ sig → Finset Unit := fun _ => ∅
abbrev lvz : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)

variable (m : (ℓ : Loc nD τ sig) → Buf (Elt F) ℓ)

/-- The fourteen launches' proof data, each at the contents its launch is entered from. -/
def pdats : (p : Fin 14) → (c : Dev nD) → Dat τ (Elt F) Unit ℕ (UR sig nD τ) ℕ (Pipeline.pin (pcfgs (F := F)) adm p) c
  | ⟨0, _⟩ => fun c => R0.dat (rd (U1 m)) c
  | ⟨1, _⟩ => fun c => R1.dat (rd (U3 m (leaves F))) c
  | ⟨2, _⟩ => fun c => R2.dat (rd (U5 m (leaves F))) c
  | ⟨3, _⟩ => fun c => R3.dat (rd (U7 m (leaves F))) c
  | ⟨4, _⟩ => fun c => R4.dat (rd (U9 m (leaves F))) c
  | ⟨5, _⟩ => fun c => R5.dat (rd (U11 m (leaves F))) c
  | ⟨6, _⟩ => fun c => R6.dat (rd (U13 m (leaves F))) c
  | ⟨7, _⟩ => fun c => R7.dat (rd (U15 m (leaves F))) c
  | ⟨8, _⟩ => fun c => R8.dat (rd (U17 m (leaves F))) c
  | ⟨9, _⟩ => fun c => R9.dat (rd (U19 m (leaves F))) c
  | ⟨10, _⟩ => fun c => R10.dat (rd (U21 m (leaves F))) c
  | ⟨11, _⟩ => fun c => R11.dat (rd (U23 m (leaves F))) c
  | ⟨12, _⟩ => fun c => R12.dat (rd (U25 m (leaves F))) c
  | ⟨13, _⟩ => fun c => R13.dat (rd (U28 m (leaves F))) c

end Cert.KernelIdeal.Asm

end
-- ==== Proof.Seg0.lean ====
/-
  Launch 0 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v0 (W) (c : Dev nD) : (leaves F).v0 W c = (R0.dat (F := F) W c).arrAt 2 cfg0.N := rfl

/-- The output array after the launch is what the launch leaves: its proof data's array after the last grid point. -/
theorem hF0_out (c : Dev nD) : (pdats m 0 c).arrAt 2 cfg0.N = rd (U2 m (leaves F)) c (Pipeline.arrRef spec0 2) :=
  ((U2_out m (leaves F) c).trans (leaves_v0 _ c)).symm

set_option maxHeartbeats 3200000 in
/-- At the exit every array of the launch holds the next item's contents: the output array what the launch leaves, an
    input array what it held (the launch changes no other buffer). -/
theorem hF0 (c : Dev nD) (w : Fin cfg0.W) : (pdats m 0 c).arrAt w cfg0.N = rd (U2 m (leaves F)) c (Pipeline.arrRef spec0 w) := by
  match w with
  | ⟨0, _⟩ => exact ((pdats m 0 c).arrAt_in 0 rfl _).trans ((R0.A_eq _ c 0).trans (U2_of_ne m (leaves F) c (Pipeline.arrRef spec0 0) (by decide)).symm)
  | ⟨1, _⟩ => exact ((pdats m 0 c).arrAt_in 1 rfl _).trans ((R0.A_eq _ c 1).trans (U2_of_ne m (leaves F) c (Pipeline.arrRef spec0 1) (by decide)).symm)
  | ⟨2, _⟩ => exact hF0_out m c

theorem out_ref0 : Pipeline.arrRef spec0 2 = main_v3 := rfl

theorem hrest0 (c : Dev nD) : ∀ b, b ∉ Finset.univ.image (Pipeline.arrRef spec0) → rd (U2 m (leaves F)) c b = rd (U1 m) c b :=
  fun b hb => U2_of_ne m (leaves F) c b fun e => hb (Finset.mem_image.mpr ⟨2, Finset.mem_univ _, out_ref0.trans e.symm⟩)

/-- After the last grid point the invariant gives the scoped buffers back at anything. -/
theorem hout0 (c : Dev nD) : (pdats m 0 c).Φ (Fin.last cfg0.N) ⊢ (Pipeline.scopedRest (Ix := Unit) (Name := ℕ) (U := UR sig nD τ) (Lvl := ℕ) (Val := Elt F) spec0 c : sProp 𝕄) := by
  rw [show (pdats m 0 c).Φ (Fin.last cfg0.N) = R0.PhiS (rd (U1 m)) c cfg0.N (Nat.le_refl _) from rfl,
    R0.PhiS_pos _ c _ _ (by have h : cfg0.N = 72 := N_0; omega), R0.scoped_eq]
  iintro ⟨HS, Hg⟩
  isplitl [HS]
  · iexists _; iexact HS
  iexact Hg

set_option backward.isDefEq.respectTransparency.types false in
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (R0.body_obligation (rd (U1 m)) c).loose
  hwaits := Pipeline.hwaits_of_owed_zero _ _ _ _ Lz lvz 0 fun _ _ => rfl
  pre c := iprop(StableHlo.held (c : Thread nD τ) (Pipeline.ucRefs τ sig) (U1 m c) ∗ Rr c)
  post c := iprop(StableHlo.held (c : Thread nD τ) (Pipeline.ucRefs τ sig) (U2 m (leaves F) c) ∗ Rr c)
  X c := iprop(emp)
  Y c := iprop(emp)
  Z c := iprop(Pipeline.unscopedRest (Ix := Unit) (Name := ℕ) (U := UR sig nD τ) (Lvl := ℕ) spec0 c (rd (U1 m) c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none]
    iintro H
    isplitr; · iempintro
    isplitr; · iempintro
    iapply (hout0 m c); iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U1 m) c) (rd (U2 m (leaves F)) c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg1.lean ====
/-
  Launch 1 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v1 (W) (c : Dev nD) : (leaves F).v1 W c = (R1.dat (F := F) W c).arrAt 4 cfg1.N := rfl

/-- The output array after the launch is what the launch leaves: its proof data's array after the last grid point. -/
theorem hF1_out (c : Dev nD) : (pdats m 1 c).arrAt 4 cfg1.N = rd (U4 m (leaves F)) c (Pipeline.arrRef spec1 4) :=
  ((U4_out m (leaves F) c).trans (leaves_v1 _ c)).symm

set_option maxHeartbeats 3200000 in
/-- At the exit every array of the launch holds the next item's contents: the output array what the launch leaves, an
    input array what it held (the launch changes no other buffer). -/
theorem hF1 (c : Dev nD) (w : Fin cfg1.W) : (pdats m 1 c).arrAt w cfg1.N = rd (U4 m (leaves F)) c (Pipeline.arrRef spec1 w) := by
  match w with
  | ⟨0, _⟩ => exact ((pdats m 1 c).arrAt_in 0 rfl _).trans ((R1.A_eq _ c 0).trans (U4_of_ne m (leaves F) c (Pipeline.arrRef spec1 0) (by decide)).symm)
  | ⟨1, _⟩ => exact ((pdats m 1 c).arrAt_in 1 rfl _).trans ((R1.A_eq _ c 1).trans (U4_of_ne m (leaves F) c (Pipeline.arrRef spec1 1) (by decide)).symm)
  | ⟨2, _⟩ => exact ((pdats m 1 c).arrAt_in 2 rfl _).trans ((R1.A_eq _ c 2).trans (U4_of_ne m (leaves F) c (Pipeline.arrRef spec1 2) (by decide)).symm)
  | ⟨3, _⟩ => exact ((pdats m 1 c).arrAt_in 3 rfl _).trans ((R1.A_eq _ c 3).trans (U4_of_ne m (leaves F) c (Pipeline.arrRef spec1 3) (by decide)).symm)
  | ⟨4, _⟩ => exact hF1_out m c

theorem out_ref1 : Pipeline.arrRef spec1 4 = main_v9 := rfl

theorem hrest1 (c : Dev nD) : ∀ b, b ∉ Finset.univ.image (Pipeline.arrRef spec1) → rd (U4 m (leaves F)) c b = rd (U3 m (leaves F)) c b :=
  fun b hb => U4_of_ne m (leaves F) c b fun e => hb (Finset.mem_image.mpr ⟨4, Finset.mem_univ _, out_ref1.trans e.symm⟩)

/-- After the last grid point the invariant gives the scoped buffers back at anything. -/
theorem hout1 (c : Dev nD) : (pdats m 1 c).Φ (Fin.last cfg1.N) ⊢ (Pipeline.scopedRest (Ix := Unit) (Name := ℕ) (U := UR sig nD τ) (Lvl := ℕ) (Val := Elt F) spec1 c : sProp 𝕄) := by
  rw [show (pdats m 1 c).Φ (Fin.last cfg1.N) = R1.PhiS (rd (U3 m (leaves F))) c cfg1.N (Nat.le_refl _) from rfl,
    R1.PhiS_pos _ c _ _ (by have h : cfg1.N = 36 := N_1; omega), R1.scoped_eq]
  iintro ⟨HS, Hg⟩
  isplitl [HS]
  · iexists _; iexact HS
  iexact Hg

set_option backward.isDefEq.respectTransparency.types false in
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (R1.body_obligation (rd (U3 m (leaves F))) c).loose
  hwaits := Pipeline.hwaits_of_owed_zero _ _ _ _ Lz lvz 1 fun _ _ => rfl
  pre c := iprop(StableHlo.held (c : Thread nD τ) (Pipeline.ucRefs τ sig) (U3 m (leaves F) c) ∗ Rr c)
  post c := iprop(StableHlo.held (c : Thread nD τ) (Pipeline.ucRefs τ sig) (U4 m (leaves F) c) ∗ Rr c)
  X c := iprop(emp)
  Y c := iprop(emp)
  Z c := iprop(Pipeline.unscopedRest (Ix := Unit) (Name := ℕ) (U := UR sig nD τ) (Lvl := ℕ) spec1 c (rd (U3 m (leaves F)) c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U3 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩
    iexact Hr
  hout c := by
    rw [Pipeline.ownSems0_none]
    iintro H
    isplitr; · iempintro
    isplitr; · iempintro
    iapply (hout1 m c); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U3 m (leaves F)) c) (rd (U4 m (leaves F)) c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.LibSharedLaunch.lean ====
/-
  The frame run of a one-region program whose windows may SHARE an array, stated once for any program.

  When a kernel is handed one array through several input windows, the buffers behind its windows are fewer than
  the windows, and the launch cannot give each window its array at the full share.  What it can do is hand over
  each distinct buffer whole; the certificate then says how each is dealt among the windows on it (`hsplit`): an
  array read by two windows goes half to each (`pointsTo_halves`), and reading needs no more.  Everything else is
  as for distinct arrays: the body obligation at every point, nothing owed, @main up to the region, and an
  invariant that is just the core's scoped buffers that are no staging buffer.  The conclusion is the same post as
  for distinct arrays: every window's array at what the write-backs make of it, every other unscoped buffer as the
  region found it.

  `arrays_eq_shares` restates the windows' holdings buffer by buffer, each whole at its window's share, which is the
  form in which `hsplit` is proved.
-/
import Idealize.ShloMosaic.Lib.Pipeline.Frame
import Idealize.ShloMosaic.Lib.Pipeline.Kit
import Idealize.ShloMosaic.Lib.Pipeline.Launch

noncomputable section

namespace Cert.Lib.SharedLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UR sig nD τ) ℕ

/-- A buffer whole at the full share is the same buffer at the left half share and at the right half share. -/
theorem pointsTo_halves (ℓ : Loc nD τ sig) (f : Buf Val ℓ) :
    ((ℓ ↦{fullShare} f) : sProp 𝕄) ⊢ iprop((ℓ ↦{fullShare.left} f) ∗ (ℓ ↦{fullShare.right} f)) :=
  (pointsTo_share (PosShare.mem_left_op_right fullShare)).1

variable {Λ₀ : Idealize.SL.Sem.Labels} {P : Type}

/-- The windows' holdings, each array a whole buffer at its window's share. -/
theorem arrays_eq_shares {cfg : Cfg sig Λ₀} {c : Dev nD} (dat : Dat τ Val Unit ℕ (UR sig nD τ) ℕ cfg c)
    (harr : ∀ w, (cfg.spec w).arr.IsWhole)
    (G : (w : Fin cfg.W) → Buf Val ((cfg.win w).arr.view.loc (c.tc : Thread nD τ))) :
    dat.arrays G
      = bigSep Finset.univ fun w : Fin cfg.W => (((c.tc : Thread nD τ).loc (arrRef cfg.spec w)) ↦{dat.share w} G w : sProp 𝕄) := by
  unfold Dat.arrays
  exact bigSep_congr fun w _ => by rw [(harr w).set_eq_univ]

variable [Fintype P] [DecidableEq P] [∀ e, Nonempty (Val e)]

/-- THE FRAME RUN for windows that may share arrays: from the layout facts that do not ask the arrays distinct, the
    body obligation, @main up to the region and the deal of the distinct buffers among the windows, every weakly fair
    execution terminates without a fault, every window's array ends at `Dat.arrAt … N` and every other unscoped buffer as
    the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main
    (hbody := hbody) (hne := hne) (harr := harr) (hstage := hstage) (howed := howed)
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h => h)

end Cert.Lib.SharedLaunch

end
-- ==== Proof.R2Arr.lean ====
/-
  Launch 2's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R2Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec2) = [main_v0, main_v9, main_v11, main_v14, main_arg0, main_v15].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec2 c V ∗ Pipeline.unscopedRest (Ix := Unit) (Name := ℕ) (U := UR sig nD τ) (Lvl := ℕ) spec2 c V) :=
  Pipeline.PerCore.unscopedBufs_split₀ (fun _ : Dev nD => cfgs) (2 : Fin 14) c winFacts₀2.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v0) ↦{fullShare} V main_v0) ∗ (((c : Thread nD τ).loc main_v9) ↦{fullShare} V main_v9) ∗ (((c : Thread nD τ).loc main_v11) ↦{fullShare} V main_v11) ∗ (((c : Thread nD τ).loc main_v14) ↦{fullShare} V main_v14) ∗ (((c : Thread nD τ).loc main_arg0) ↦{fullShare} V main_arg0) ∗ (((c : Thread nD τ).loc main_v15) ↦{fullShare} V main_v15)) := by
  unfold Pipeline.arrBufs
  exact bigSep_eq_bigSepL_of_eq [main_v0, main_v9, main_v11, main_v14, main_arg0, main_v15] arrRefs_eq (by decide) _

/-- The seven windows' holdings one by one: each array whole at its window's share. -/
theorem arrays_eq (c : Dev nD) (G : (w : Fin cfg2.W) → Buf (Elt F) ((cfg2.win w).arr.view.loc (c : Thread nD τ))) :
    ((dat W c).arrays G : sProp 𝕄)
      = iprop((((c : Thread nD τ).loc main_v0) ↦{fullShare} G 0) ∗ (((c : Thread nD τ).loc main_v9) ↦{fullShare.left} G 1) ∗ (((c : Thread nD τ).loc main_v11) ↦{fullShare} G 2) ∗ (((c : Thread nD τ).loc main_v14) ↦{fullShare} G 3) ∗ (((c : Thread nD τ).loc main_v9) ↦{fullShare.right} G 4) ∗ (((c : Thread nD τ).loc main_arg0) ↦{fullShare} G 5) ∗ (((c : Thread nD τ).loc main_v15) ↦{fullShare} G 6)) := by
  rw [Cert.Lib.SharedLaunch.arrays_eq_shares (dat W c) arr_whole2 G, bigSep_W2]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec2 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg2.W) → Buf (Elt F) ((cfg2.win w).arr.view.loc (c : Thread nD τ))) (hF : ∀ w, Fw w = V' (Pipeline.arrRef spec2 w))
    (hrest : ∀ b, b ∉ Finset.univ.image (Pipeline.arrRef spec2) → V' b = W c b) :
    iprop((dat W c).arrays Fw ∗ Pipeline.unscopedRest (Ix := Unit) (Name := ℕ) (U := UR sig nD τ) (Lvl := ℕ) spec2 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec2 c (W c) : sProp 𝕄) = Pipeline.unscopedRest (Ix := Unit) (Name := ℕ) (U := UR sig nD τ) (Lvl := ℕ) spec2 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.KernelIdeal.R2

end
-- ==== Proof.Seg2.lean ====
/-
  Launch 2 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase
import proofs.«155206_j89000312308227_2_alg».proof.Proof.R2Arr

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v2 (W) (c : Dev nD) : (leaves F).v2 W c = (R2.dat (F := F) W c).arrAt 6 cfg2.N := rfl

/-- The output array after the launch is what the launch leaves: its proof data's array after the last grid point. -/
theorem hF2_out (c : Dev nD) : (pdats m 2 c).arrAt 6 cfg2.N = rd (U6 m (leaves F)) c (Pipeline.arrRef spec2 6) :=
  ((U6_out m (leaves F) c).trans (leaves_v2 _ c)).symm

set_option maxHeartbeats 3200000 in
/-- At the exit every array of the launch holds the next item's contents: the output array what the launch leaves, an
    input array what it held (the launch changes no other buffer). -/
theorem hF2 (c : Dev nD) (w : Fin cfg2.W) : (pdats m 2 c).arrAt w cfg2.N = rd (U6 m (leaves F)) c (Pipeline.arrRef spec2 w) := by
  match w with
  | ⟨0, _⟩ => exact ((pdats m 2 c).arrAt_in 0 rfl _).trans ((R2.A_eq _ c 0).trans (U6_of_ne m (leaves F) c (Pipeline.arrRef spec2 0) (by decide)).symm)
  | ⟨1, _⟩ => exact ((pdats m 2 c).arrAt_in 1 rfl _).trans ((R2.A_eq _ c 1).trans (U6_of_ne m (leaves F) c (Pipeline.arrRef spec2 1) (by decide)).symm)
  | ⟨2, _⟩ => exact ((pdats m 2 c).arrAt_in 2 rfl _).trans ((R2.A_eq _ c 2).trans (U6_of_ne m (leaves F) c (Pipeline.arrRef spec2 2) (by decide)).symm)
  | ⟨3, _⟩ => exact ((pdats m 2 c).arrAt_in 3 rfl _).trans ((R2.A_eq _ c 3).trans (U6_of_ne m (leaves F) c (Pipeline.arrRef spec2 3) (by decide)).symm)
  | ⟨4, _⟩ => exact ((pdats m 2 c).arrAt_in 4 rfl _).trans ((R2.A_eq _ c 4).trans (U6_of_ne m (leaves F) c (Pipeline.arrRef spec2 4) (by decide)).symm)
  | ⟨5, _⟩ => exact ((pdats m 2 c).arrAt_in 5 rfl _).trans ((R2.A_eq _ c 5).trans (U6_of_ne m (leaves F) c (Pipeline.arrRef spec2 5) (by decide)).symm)
  | ⟨6, _⟩ => exact hF2_out m c

theorem out_ref2 : Pipeline.arrRef spec2 6 = main_v15 := rfl

theorem hrest2 (c : Dev nD) : ∀ b, b ∉ Finset.univ.image (Pipeline.arrRef spec2) → rd (U6 m (leaves F)) c b = rd (U5 m (leaves F)) c b :=
  fun b hb => U6_of_ne m (leaves F) c b fun e => hb (Finset.mem_image.mpr ⟨6, Finset.mem_univ _, out_ref2.trans e.symm⟩)

/-- After the last grid point the invariant gives the scoped buffers back at anything. -/
theorem hout2 (c : Dev nD) : (pdats m 2 c).Φ (Fin.last cfg2.N) ⊢ (Pipeline.scopedRest (Ix := Unit) (Name := ℕ) (U := UR sig nD τ) (Lvl := ℕ) (Val := Elt F) spec2 c : sProp 𝕄) := by
  rw [show (pdats m 2 c).Φ (Fin.last cfg2.N) = R2.PhiS (rd (U5 m (leaves F))) c cfg2.N (Nat.le_refl _) from rfl,
    R2.PhiS_pos _ c _ _ (by have h : cfg2.N = 36 := N_2; omega), R2.scoped_eq]
  iintro ⟨HS, Hg⟩
  isplitl [HS]
  · iexists _; iexact HS
  iexact Hg

set_option backward.isDefEq.respectTransparency.types false in
def reg2 : Pipeline.RegionSeg (pcfgs (F := F)) adm (pdats m) () defs₀ 𝒱₀ Lz lvz 2 where
  win := winFacts₀2
  block_pos := block_pos2
  stage_whole := stage_whole2
  K := PEmpty
  osem k := k.elim
  ho := Pipeline.OwnSemFacts.none _
  hbody c := (R2.body_obligation (rd (U5 m (leaves F))) c).loose
  hwaits := Pipeline.hwaits_of_owed_zero _ _ _ _ Lz lvz 2 fun _ _ => rfl
  pre c := iprop(StableHlo.held (c : Thread nD τ) (Pipeline.ucRefs τ sig) (U5 m (leaves F) c) ∗ Rr c)
  post c := iprop(StableHlo.held (c : Thread nD τ) (Pipeline.ucRefs τ sig) (U6 m (leaves F) c) ∗ Rr c)
  X c := iprop(emp)
  Y c := iprop(emp)
  Z c := iprop(Pipeline.unscopedRest (Ix := Unit) (Name := ℕ) (U := UR sig nD τ) (Lvl := ℕ) spec2 c (rd (U5 m (leaves F)) c) ∗ ∃ r, prngReg c r)
  hentry c := by
    rw [Pipeline.ownSems0_none]
    have hsplit := R2.arrays_of_unscopedBufs (rd (U5 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Pipeline.scopedRest (Ix := Unit) (Name := ℕ) (U := UR sig nD τ) (Lvl := ℕ) (Val := Elt F) spec2 c from rfl]
    iintro ⟨-, -, Hr⟩
    iexact Hr
  hout c := by
    rw [Pipeline.ownSems0_none]
    iintro H
    isplitr; · iempintro
    isplitr; · iempintro
    iapply (hout2 m c); iexact H
  hexit c := by
    have hjoin : iprop((pdats m 2 c).arrays ((pdats m 2 c).arrAt · cfg2.N)
          ∗ Pipeline.unscopedRest (Ix := Unit) (Name := ℕ) (U := UR sig nD τ) (Lvl := ℕ) spec2 c (rd (U5 m (leaves F)) c))
        ⊢ (unscopedBufs c (rd (U6 m (leaves F)) c) : sProp 𝕄) :=
      R2.unscopedBufs_of_arrays (rd (U5 m (leaves F))) c (rd (U6 m (leaves F)) c)
        ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg3.lean ====
/-
  Launch 3 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v3 (W) (c : Dev nD) : (leaves F).v3 W c = (R3.dat (F := F) W c).arrAt 4 cfg3.N := rfl

/-- The output array after the launch is what the launch leaves: its proof data's array after the last grid point. -/
theorem hF3_out (c : Dev nD) : (pdats m 3 c).arrAt 4 cfg3.N = rd (U8 m (leaves F)) c (Pipeline.arrRef spec3 4) :=
  ((U8_out m (leaves F) c).trans (leaves_v3 _ c)).symm

set_option maxHeartbeats 3200000 in
/-- At the exit every array of the launch holds the next item's contents: the output array what the launch leaves, an
    input array what it held (the launch changes no other buffer). -/
theorem hF3 (c : Dev nD) (w : Fin cfg3.W) : (pdats m 3 c).arrAt w cfg3.N = rd (U8 m (leaves F)) c (Pipeline.arrRef spec3 w) := by
  match w with
  | ⟨0, _⟩ => exact ((pdats m 3 c).arrAt_in 0 rfl _).trans ((R3.A_eq _ c 0).trans (U8_of_ne m (leaves F) c (Pipeline.arrRef spec3 0) (by decide)).symm)
  | ⟨1, _⟩ => exact ((pdats m 3 c).arrAt_in 1 rfl _).trans ((R3.A_eq _ c 1).trans (U8_of_ne m (leaves F) c (Pipeline.arrRef spec3 1) (by decide)).symm)
  | ⟨2, _⟩ => exact ((pdats m 3 c).arrAt_in 2 rfl _).trans ((R3.A_eq _ c 2).trans (U8_of_ne m (leaves F) c (Pipeline.arrRef spec3 2) (by decide)).symm)
  | ⟨3, _⟩ => exact ((pdats m 3 c).arrAt_in 3 rfl _).trans ((R3.A_eq _ c 3).trans (U8_of_ne m (leaves F) c (Pipeline.arrRef spec3 3) (by decide)).symm)
  | ⟨4, _⟩ => exact hF3_out m c

theorem out_ref3 : Pipeline.arrRef spec3 4 = main_v21 := rfl

theorem hrest3 (c : Dev nD) : ∀ b, b ∉ Finset.univ.image (Pipeline.arrRef spec3) → rd (U8 m (leaves F)) c b = rd (U7 m (leaves F)) c b :=
  fun b hb => U8_of_ne m (leaves F) c b fun e => hb (Finset.mem_image.mpr ⟨4, Finset.mem_univ _, out_ref3.trans e.symm⟩)

/-- After the last grid point the invariant gives the scoped buffers back at anything. -/
theorem hout3 (c : Dev nD) : (pdats m 3 c).Φ (Fin.last cfg3.N) ⊢ (Pipeline.scopedRest (Ix := Unit) (Name := ℕ) (U := UR sig nD τ) (Lvl := ℕ) (Val := Elt F) spec3 c : sProp 𝕄) := by
  rw [show (pdats m 3 c).Φ (Fin.last cfg3.N) = R3.PhiS (rd (U7 m (leaves F))) c cfg3.N (Nat.le_refl _) from rfl,
    R3.PhiS_pos _ c _ _ (by have h : cfg3.N = 36 := N_3; omega), R3.scoped_eq]
  iintro ⟨HS, Hg⟩
  isplitl [HS]
  · iexists _; iexact HS
  iexact Hg

set_option backward.isDefEq.respectTransparency.types false in
def reg3 : Pipeline.RegionSeg (pcfgs (F := F)) adm (pdats m) () defs₀ 𝒱₀ Lz lvz 3 where
  win := launch3.win.to₀
  block_pos := launch3.block_pos
  stage_whole := launch3.stage_whole
  K := PEmpty
  osem k := k.elim
  ho := Pipeline.OwnSemFacts.none _
  hbody c := (R3.body_obligation (rd (U7 m (leaves F))) c).loose
  hwaits := Pipeline.hwaits_of_owed_zero _ _ _ _ Lz lvz 3 fun _ _ => rfl
  pre c := iprop(StableHlo.held (c : Thread nD τ) (Pipeline.ucRefs τ sig) (U7 m (leaves F) c) ∗ Rr c)
  post c := iprop(StableHlo.held (c : Thread nD τ) (Pipeline.ucRefs τ sig) (U8 m (leaves F) c) ∗ Rr c)
  X c := iprop(emp)
  Y c := iprop(emp)
  Z c := iprop(Pipeline.unscopedRest (Ix := Unit) (Name := ℕ) (U := UR sig nD τ) (Lvl := ℕ) spec3 c (rd (U7 m (leaves F)) c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U7 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = Pipeline.scopedRest (Ix := Unit) (Name := ℕ) (U := UR sig nD τ) (Lvl := ℕ) (Val := Elt F) spec3 c from rfl]
    iintro ⟨-, -, Hr⟩
    iexact Hr
  hout c := by
    rw [Pipeline.ownSems0_none]
    iintro H
    isplitr; · iempintro
    isplitr; · iempintro
    iapply (hout3 m c); iexact H
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U7 m (leaves F)) c) (rd (U8 m (leaves F)) c) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.R4Arr.lean ====
/-
  Launch 4's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R4Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec4) = [main_v0, main_v21, main_v23, main_v26, main_v15, main_v27].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec4 c V ∗ Pipeline.unscopedRest (Ix := Unit) (Name := ℕ) (U := UR sig nD τ) (Lvl := ℕ) spec4 c V) :=
  Pipeline.PerCore.unscopedBufs_split₀ (fun _ : Dev nD => cfgs) (4 : Fin 14) c winFacts₀4.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v0) ↦{fullShare} V main_v0) ∗ (((c : Thread nD τ).loc main_v21) ↦{fullShare} V main_v21) ∗ (((c : Thread nD τ).loc main_v23) ↦{fullShare} V main_v23) ∗ (((c : Thread nD τ).loc main_v26) ↦{fullShare} V main_v26) ∗ (((c : Thread nD τ).loc main_v15) ↦{fullShare} V main_v15) ∗ (((c : Thread nD τ).loc main_v27) ↦{fullShare} V main_v27)) := by
  unfold Pipeline.arrBufs
  exact bigSep_eq_bigSepL_of_eq [main_v0, main_v21, main_v23, main_v26, main_v15, main_v27] arrRefs_eq (by decide) _

/-- The seven windows' holdings one by one: each array whole at its window's share. -/
theorem arrays_eq (c : Dev nD) (G : (w : Fin cfg4.W) → Buf (Elt F) ((cfg4.win w).arr.view.loc (c : Thread nD τ))) :
    ((dat W c).arrays G : sProp 𝕄)
      = iprop((((c : Thread nD τ).loc main_v0) ↦{fullShare} G 0) ∗ (((c : Thread nD τ).loc main_v21) ↦{fullShare.left} G 1) ∗ (((c : Thread nD τ).loc main_v23) ↦{fullShare} G 2) ∗ (((c : Thread nD τ).loc main_v26) ↦{fullShare} G 3) ∗ (((c : Thread nD τ).loc main_v21) ↦{fullShare.right} G 4) ∗ (((c : Thread nD τ).loc main_v15) ↦{fullShare} G 5) ∗ (((c : Thread nD τ).loc main_v27) ↦{fullShare} G 6)) := by
  rw [Cert.Lib.SharedLaunch.arrays_eq_shares (dat W c) arr_whole4 G, bigSep_W4]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec4 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg4.W) → Buf (Elt F) ((cfg4.win w).arr.view.loc (c : Thread nD τ))) (hF : ∀ w, Fw w = V' (Pipeline.arrRef spec4 w))
    (hrest : ∀ b, b ∉ Finset.univ.image (Pipeline.arrRef spec4) → V' b = W c b) :
    iprop((dat W c).arrays Fw ∗ Pipeline.unscopedRest (Ix := Unit) (Name := ℕ) (U := UR sig nD τ) (Lvl := ℕ) spec4 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec4 c (W c) : sProp 𝕄) = Pipeline.unscopedRest (Ix := Unit) (Name := ℕ) (U := UR sig nD τ) (Lvl := ℕ) spec4 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.KernelIdeal.R4

end
-- ==== Proof.Seg4.lean ====
/-
  Launch 4 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase
import proofs.«155206_j89000312308227_2_alg».proof.Proof.R4Arr

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v4 (W) (c : Dev nD) : (leaves F).v4 W c = (R4.dat (F := F) W c).arrAt 6 cfg4.N := rfl

/-- The output array after the launch is what the launch leaves: its proof data's array after the last grid point. -/
theorem hF4_out (c : Dev nD) : (pdats m 4 c).arrAt 6 cfg4.N = rd (U10 m (leaves F)) c (Pipeline.arrRef spec4 6) :=
  ((U10_out m (leaves F) c).trans (leaves_v4 _ c)).symm

set_option maxHeartbeats 3200000 in
/-- At the exit every array of the launch holds the next item's contents: the output array what the launch leaves, an
    input array what it held (the launch changes no other buffer). -/
theorem hF4 (c : Dev nD) (w : Fin cfg4.W) : (pdats m 4 c).arrAt w cfg4.N = rd (U10 m (leaves F)) c (Pipeline.arrRef spec4 w) := by
  match w with
  | ⟨0, _⟩ => exact ((pdats m 4 c).arrAt_in 0 rfl _).trans ((R4.A_eq _ c 0).trans (U10_of_ne m (leaves F) c (Pipeline.arrRef spec4 0) (by decide)).symm)
  | ⟨1, _⟩ => exact ((pdats m 4 c).arrAt_in 1 rfl _).trans ((R4.A_eq _ c 1).trans (U10_of_ne m (leaves F) c (Pipeline.arrRef spec4 1) (by decide)).symm)
  | ⟨2, _⟩ => exact ((pdats m 4 c).arrAt_in 2 rfl _).trans ((R4.A_eq _ c 2).trans (U10_of_ne m (leaves F) c (Pipeline.arrRef spec4 2) (by decide)).symm)
  | ⟨3, _⟩ => exact ((pdats m 4 c).arrAt_in 3 rfl _).trans ((R4.A_eq _ c 3).trans (U10_of_ne m (leaves F) c (Pipeline.arrRef spec4 3) (by decide)).symm)
  | ⟨4, _⟩ => exact ((pdats m 4 c).arrAt_in 4 rfl _).trans ((R4.A_eq _ c 4).trans (U10_of_ne m (leaves F) c (Pipeline.arrRef spec4 4) (by decide)).symm)
  | ⟨5, _⟩ => exact ((pdats m 4 c).arrAt_in 5 rfl _).trans ((R4.A_eq _ c 5).trans (U10_of_ne m (leaves F) c (Pipeline.arrRef spec4 5) (by decide)).symm)
  | ⟨6, _⟩ => exact hF4_out m c

theorem out_ref4 : Pipeline.arrRef spec4 6 = main_v27 := rfl

theorem hrest4 (c : Dev nD) : ∀ b, b ∉ Finset.univ.image (Pipeline.arrRef spec4) → rd (U10 m (leaves F)) c b = rd (U9 m (leaves F)) c b :=
  fun b hb => U10_of_ne m (leaves F) c b fun e => hb (Finset.mem_image.mpr ⟨6, Finset.mem_univ _, out_ref4.trans e.symm⟩)

/-- After the last grid point the invariant gives the scoped buffers back at anything. -/
theorem hout4 (c : Dev nD) : (pdats m 4 c).Φ (Fin.last cfg4.N) ⊢ (Pipeline.scopedRest (Ix := Unit) (Name := ℕ) (U := UR sig nD τ) (Lvl := ℕ) (Val := Elt F) spec4 c : sProp 𝕄) := by
  rw [show (pdats m 4 c).Φ (Fin.last cfg4.N) = R4.PhiS (rd (U9 m (leaves F))) c cfg4.N (Nat.le_refl _) from rfl,
    R4.PhiS_pos _ c _ _ (by have h : cfg4.N = 36 := N_4; omega), R4.scoped_eq]
  iintro ⟨HS, Hg⟩
  isplitl [HS]
  · iexists _; iexact HS
  iexact Hg

set_option backward.isDefEq.respectTransparency.types false in
def reg4 : Pipeline.RegionSeg (pcfgs (F := F)) adm (pdats m) () defs₀ 𝒱₀ Lz lvz 4 where
  win := winFacts₀4
  block_pos := block_pos4
  stage_whole := stage_whole4
  K := PEmpty
  osem k := k.elim
  ho := Pipeline.OwnSemFacts.none _
  hbody c := (R4.body_obligation (rd (U9 m (leaves F))) c).loose
  hwaits := Pipeline.hwaits_of_owed_zero _ _ _ _ Lz lvz 4 fun _ _ => rfl
  pre c := iprop(StableHlo.held (c : Thread nD τ) (Pipeline.ucRefs τ sig) (U9 m (leaves F) c) ∗ Rr c)
  post c := iprop(StableHlo.held (c : Thread nD τ) (Pipeline.ucRefs τ sig) (U10 m (leaves F) c) ∗ Rr c)
  X c := iprop(emp)
  Y c := iprop(emp)
  Z c := iprop(Pipeline.unscopedRest (Ix := Unit) (Name := ℕ) (U := UR sig nD τ) (Lvl := ℕ) spec4 c (rd (U9 m (leaves F)) c) ∗ ∃ r, prngReg c r)
  hentry c := by
    rw [Pipeline.ownSems0_none]
    have hsplit := R4.arrays_of_unscopedBufs (rd (U9 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 4 c).Φ 0 = Pipeline.scopedRest (Ix := Unit) (Name := ℕ) (U := UR sig nD τ) (Lvl := ℕ) (Val := Elt F) spec4 c from rfl]
    iintro ⟨-, -, Hr⟩
    iexact Hr
  hout c := by
    rw [Pipeline.ownSems0_none]
    iintro H
    isplitr; · iempintro
    isplitr; · iempintro
    iapply (hout4 m c); iexact H
  hexit c := by
    have hjoin : iprop((pdats m 4 c).arrays ((pdats m 4 c).arrAt · cfg4.N)
          ∗ Pipeline.unscopedRest (Ix := Unit) (Name := ℕ) (U := UR sig nD τ) (Lvl := ℕ) spec4 c (rd (U9 m (leaves F)) c))
        ⊢ (unscopedBufs c (rd (U10 m (leaves F)) c) : sProp 𝕄) :=
      R4.unscopedBufs_of_arrays (rd (U9 m (leaves F))) c (rd (U10 m (leaves F)) c)
        ((pdats m 4 c).arrAt · cfg4.N) (hF4 m c) (hrest4 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg5.lean ====
/-
  Launch 5 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v5 (W) (c : Dev nD) : (leaves F).v5 W c = (R5.dat (F := F) W c).arrAt 4 cfg5.N := rfl

/-- The output array after the launch is what the launch leaves: its proof data's array after the last grid point. -/
theorem hF5_out (c : Dev nD) : (pdats m 5 c).arrAt 4 cfg5.N = rd (U12 m (leaves F)) c (Pipeline.arrRef spec5 4) :=
  ((U12_out m (leaves F) c).trans (leaves_v5 _ c)).symm

set_option maxHeartbeats 3200000 in
/-- At the exit every array of the launch holds the next item's contents: the output array what the launch leaves, an
    input array what it held (the launch changes no other buffer). -/
theorem hF5 (c : Dev nD) (w : Fin cfg5.W) : (pdats m 5 c).arrAt w cfg5.N = rd (U12 m (leaves F)) c (Pipeline.arrRef spec5 w) := by
  match w with
  | ⟨0, _⟩ => exact ((pdats m 5 c).arrAt_in 0 rfl _).trans ((R5.A_eq _ c 0).trans (U12_of_ne m (leaves F) c (Pipeline.arrRef spec5 0) (by decide)).symm)
  | ⟨1, _⟩ => exact ((pdats m 5 c).arrAt_in 1 rfl _).trans ((R5.A_eq _ c 1).trans (U12_of_ne m (leaves F) c (Pipeline.arrRef spec5 1) (by decide)).symm)
  | ⟨2, _⟩ => exact ((pdats m 5 c).arrAt_in 2 rfl _).trans ((R5.A_eq _ c 2).trans (U12_of_ne m (leaves F) c (Pipeline.arrRef spec5 2) (by decide)).symm)
  | ⟨3, _⟩ => exact ((pdats m 5 c).arrAt_in 3 rfl _).trans ((R5.A_eq _ c 3).trans (U12_of_ne m (leaves F) c (Pipeline.arrRef spec5 3) (by decide)).symm)
  | ⟨4, _⟩ => exact hF5_out m c

theorem out_ref5 : Pipeline.arrRef spec5 4 = main_v33 := rfl

theorem hrest5 (c : Dev nD) : ∀ b, b ∉ Finset.univ.image (Pipeline.arrRef spec5) → rd (U12 m (leaves F)) c b = rd (U11 m (leaves F)) c b :=
  fun b hb => U12_of_ne m (leaves F) c b fun e => hb (Finset.mem_image.mpr ⟨4, Finset.mem_univ _, out_ref5.trans e.symm⟩)

/-- After the last grid point the invariant gives the scoped buffers back at anything. -/
theorem hout5 (c : Dev nD) : (pdats m 5 c).Φ (Fin.last cfg5.N) ⊢ (Pipeline.scopedRest (Ix := Unit) (Name := ℕ) (U := UR sig nD τ) (Lvl := ℕ) (Val := Elt F) spec5 c : sProp 𝕄) := by
  rw [show (pdats m 5 c).Φ (Fin.last cfg5.N) = R5.PhiS (rd (U11 m (leaves F))) c cfg5.N (Nat.le_refl _) from rfl,
    R5.PhiS_pos _ c _ _ (by have h : cfg5.N = 36 := N_5; omega), R5.scoped_eq]
  iintro ⟨HS, Hg⟩
  isplitl [HS]
  · iexists _; iexact HS
  iexact Hg

set_option backward.isDefEq.respectTransparency.types false in
def reg5 : Pipeline.RegionSeg (pcfgs (F := F)) adm (pdats m) () defs₀ 𝒱₀ Lz lvz 5 where
  win := launch5.win.to₀
  block_pos := launch5.block_pos
  stage_whole := launch5.stage_whole
  K := PEmpty
  osem k := k.elim
  ho := Pipeline.OwnSemFacts.none _
  hbody c := (R5.body_obligation (rd (U11 m (leaves F))) c).loose
  hwaits := Pipeline.hwaits_of_owed_zero _ _ _ _ Lz lvz 5 fun _ _ => rfl
  pre c := iprop(StableHlo.held (c : Thread nD τ) (Pipeline.ucRefs τ sig) (U11 m (leaves F) c) ∗ Rr c)
  post c := iprop(StableHlo.held (c : Thread nD τ) (Pipeline.ucRefs τ sig) (U12 m (leaves F) c) ∗ Rr c)
  X c := iprop(emp)
  Y c := iprop(emp)
  Z c := iprop(Pipeline.unscopedRest (Ix := Unit) (Name := ℕ) (U := UR sig nD τ) (Lvl := ℕ) spec5 c (rd (U11 m (leaves F)) c) ∗ ∃ r, prngReg c r)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (U11 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 5 c).Φ 0 = Pipeline.scopedRest (Ix := Unit) (Name := ℕ) (U := UR sig nD τ) (Lvl := ℕ) (Val := Elt F) spec5 c from rfl]
    iintro ⟨-, -, Hr⟩
    iexact Hr
  hout c := by
    rw [Pipeline.ownSems0_none]
    iintro H
    isplitr; · iempintro
    isplitr; · iempintro
    iapply (hout5 m c); iexact H
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (U11 m (leaves F)) c) (rd (U12 m (leaves F)) c) ((pdats m 5 c).arrAt · cfg5.N) (hF5 m c) (hrest5 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.R6Arr.lean ====
/-
  Launch 6's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R6Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec6) = [main_v0, main_v33, main_v35, main_v38, main_v27, main_v39].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec6 c V ∗ Pipeline.unscopedRest (Ix := Unit) (Name := ℕ) (U := UR sig nD τ) (Lvl := ℕ) spec6 c V) :=
  Pipeline.PerCore.unscopedBufs_split₀ (fun _ : Dev nD => cfgs) (6 : Fin 14) c winFacts₀6.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec6 c V : sProp 𝕄)
      = iprop((((c : Thread nD τ).loc main_v0) ↦{fullShare} V main_v0) ∗ (((c : Thread nD τ).loc main_v33) ↦{fullShare} V main_v33) ∗ (((c : Thread nD τ).loc main_v35) ↦{fullShare} V main_v35) ∗ (((c : Thread nD τ).loc main_v38) ↦{fullShare} V main_v38) ∗ (((c : Thread nD τ).loc main_v27) ↦{fullShare} V main_v27) ∗ (((c : Thread nD τ).loc main_v39) ↦{fullShare} V main_v39)) := by
  unfold Pipeline.arrBufs
  exact bigSep_eq_bigSepL_of_eq [main_v0, main_v33, main_v35, main_v38, main_v27, main_v39] arrRefs_eq (by decide) _

/-- The seven windows' holdings one by one: each array whole at its window's share. -/
theorem arrays_eq (c : Dev nD) (G : (w : Fin cfg6.W) → Buf (Elt F) ((cfg6.win w).arr.view.loc (c : Thread nD τ))) :
    ((dat W c).arrays G : sProp 𝕄)
      = iprop((((c : Thread nD τ).loc main_v0) ↦{fullShare} G 0) ∗ (((c : Thread nD τ).loc main_v33) ↦{fullShare.left} G 1) ∗ (((c : Thread nD τ).loc main_v35) ↦{fullShare} G 2) ∗ (((c : Thread nD τ).loc main_v38) ↦{fullShare} G 3) ∗ (((c : Thread nD τ).loc main_v33) ↦{fullShare.right} G 4) ∗ (((c : Thread nD τ).loc main_v27) ↦{fullShare} G 5) ∗ (((c : Thread nD τ).loc main_v39) ↦{fullShare} G 6)) := by
  rw [Cert.Lib.SharedLaunch.arrays_eq_shares (dat W c) arr_whole6 G, bigSep_W6]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec6 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg6.W) → Buf (Elt F) ((cfg6.win w).arr.view.loc (c : Thread nD τ))) (hF : ∀ w, Fw w = V' (Pipeline.arrRef spec6 w))
    (hrest : ∀ b, b ∉ Finset.univ.image (Pipeline.arrRef spec6) → V' b = W c b) :
    iprop((dat W c).arrays Fw ∗ Pipeline.unscopedRest (Ix := Unit) (Name := ℕ) (U := UR sig nD τ) (Lvl := ℕ) spec6 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec6 c (W c) : sProp 𝕄) = Pipeline.unscopedRest (Ix := Unit) (Name := ℕ) (U := UR sig nD τ) (Lvl := ℕ) spec6 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.KernelIdeal.R6

end
-- ==== Proof.Seg6.lean ====
/-
  Launch 6 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase
import proofs.«155206_j89000312308227_2_alg».proof.Proof.R6Arr

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v6 (W) (c : Dev nD) : (leaves F).v6 W c = (R6.dat (F := F) W c).arrAt 6 cfg6.N := rfl

/-- The output array after the launch is what the launch leaves: its proof data's array after the last grid point. -/
theorem hF6_out (c : Dev nD) : (pdats m 6 c).arrAt 6 cfg6.N = rd (U14 m (leaves F)) c (Pipeline.arrRef spec6 6) :=
  ((U14_out m (leaves F) c).trans (leaves_v6 _ c)).symm

set_option maxHeartbeats 3200000 in
/-- At the exit every array of the launch holds the next item's contents: the output array what the launch leaves, an
    input array what it held (the launch changes no other buffer). -/
theorem hF6 (c : Dev nD) (w : Fin cfg6.W) : (pdats m 6 c).arrAt w cfg6.N = rd (U14 m (leaves F)) c (Pipeline.arrRef spec6 w) := by
  match w with
  | ⟨0, _⟩ => exact ((pdats m 6 c).arrAt_in 0 rfl _).trans ((R6.A_eq _ c 0).trans (U14_of_ne m (leaves F) c (Pipeline.arrRef spec6 0) (by decide)).symm)
  | ⟨1, _⟩ => exact ((pdats m 6 c).arrAt_in 1 rfl _).trans ((R6.A_eq _ c 1).trans (U14_of_ne m (leaves F) c (Pipeline.arrRef spec6 1) (by decide)).symm)
  | ⟨2, _⟩ => exact ((pdats m 6 c).arrAt_in 2 rfl _).trans ((R6.A_eq _ c 2).trans (U14_of_ne m (leaves F) c (Pipeline.arrRef spec6 2) (by decide)).symm)
  | ⟨3, _⟩ => exact ((pdats m 6 c).arrAt_in 3 rfl _).trans ((R6.A_eq _ c 3).trans (U14_of_ne m (leaves F) c (Pipeline.arrRef spec6 3) (by decide)).symm)
  | ⟨4, _⟩ => exact ((pdats m 6 c).arrAt_in 4 rfl _).trans ((R6.A_eq _ c 4).trans (U14_of_ne m (leaves F) c (Pipeline.arrRef spec6 4) (by decide)).symm)
  | ⟨5, _⟩ => exact ((pdats m 6 c).arrAt_in 5 rfl _).trans ((R6.A_eq _ c 5).trans (U14_of_ne m (leaves F) c (Pipeline.arrRef spec6 5) (by decide)).symm)
  | ⟨6, _⟩ => exact hF6_out m c

theorem out_ref6 : Pipeline.arrRef spec6 6 = main_v39 := rfl

theorem hrest6 (c : Dev nD) : ∀ b, b ∉ Finset.univ.image (Pipeline.arrRef spec6) → rd (U14 m (leaves F)) c b = rd (U13 m (leaves F)) c b :=
  fun b hb => U14_of_ne m (leaves F) c b fun e => hb (Finset.mem_image.mpr ⟨6, Finset.mem_univ _, out_ref6.trans e.symm⟩)

/-- After the last grid point the invariant gives the scoped buffers back at anything. -/
theorem hout6 (c : Dev nD) : (pdats m 6 c).Φ (Fin.last cfg6.N) ⊢ (Pipeline.scopedRest (Ix := Unit) (Name := ℕ) (U := UR sig nD τ) (Lvl := ℕ) (Val := Elt F) spec6 c : sProp 𝕄) := by
  rw [show (pdats m 6 c).Φ (Fin.last cfg6.N) = R6.PhiS (rd (U13 m (leaves F))) c cfg6.N (Nat.le_refl _) from rfl,
    R6.PhiS_pos _ c _ _ (by have h : cfg6.N = 36 := N_6; omega), R6.scoped_eq]
  iintro ⟨HS, Hg⟩
  isplitl [HS]
  · iexists _; iexact HS
  iexact Hg

set_option backward.isDefEq.respectTransparency.types false in
def reg6 : Pipeline.RegionSeg (pcfgs (F := F)) adm (pdats m) () defs₀ 𝒱₀ Lz lvz 6 where
  win := winFacts₀6
  block_pos := block_pos6
  stage_whole := stage_whole6
  K := PEmpty
  osem k := k.elim
  ho := Pipeline.OwnSemFacts.none _
  hbody c := (R6.body_obligation (rd (U13 m (leaves F))) c).loose
  hwaits := Pipeline.hwaits_of_owed_zero _ _ _ _ Lz lvz 6 fun _ _ => rfl
  pre c := iprop(StableHlo.held (c : Thread nD τ) (Pipeline.ucRefs τ sig) (U13 m (leaves F) c) ∗ Rr c)
  post c := iprop(StableHlo.held (c : Thread nD τ) (Pipeline.ucRefs τ sig) (U14 m (leaves F) c) ∗ Rr c)
  X c := iprop(emp)
  Y c := iprop(emp)
  Z c := iprop(Pipeline.unscopedRest (Ix := Unit) (Name := ℕ) (U := UR sig nD τ) (Lvl := ℕ) spec6 c (rd (U13 m (leaves F)) c) ∗ ∃ r, prngReg c r)
  hentry c := by
    rw [Pipeline.ownSems0_none]
    have hsplit := R6.arrays_of_unscopedBufs (rd (U13 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 6 c).Φ 0 = Pipeline.scopedRest (Ix := Unit) (Name := ℕ) (U := UR sig nD τ) (Lvl := ℕ) (Val := Elt F) spec6 c from rfl]
    iintro ⟨-, -, Hr⟩
    iexact Hr
  hout c := by
    rw [Pipeline.ownSems0_none]
    iintro H
    isplitr; · iempintro
    isplitr; · iempintro
    iapply (hout6 m c); iexact H
  hexit c := by
    have hjoin : iprop((pdats m 6 c).arrays ((pdats m 6 c).arrAt · cfg6.N)
          ∗ Pipeline.unscopedRest (Ix := Unit) (Name := ℕ) (U := UR sig nD τ) (Lvl := ℕ) spec6 c (rd (U13 m (leaves F)) c))
        ⊢ (unscopedBufs c (rd (U14 m (leaves F)) c) : sProp 𝕄) :=
      R6.unscopedBufs_of_arrays (rd (U13 m (leaves F))) c (rd (U14 m (leaves F)) c)
        ((pdats m 6 c).arrAt · cfg6.N) (hF6 m c) (hrest6 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg7.lean ====
/-
  Launch 7 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v7 (W) (c : Dev nD) : (leaves F).v7 W c = (R7.dat (F := F) W c).arrAt 4 cfg7.N := rfl

/-- The output array after the launch is what the launch leaves: its proof data's array after the last grid point. -/
theorem hF7_out (c : Dev nD) : (pdats m 7 c).arrAt 4 cfg7.N = rd (U16 m (leaves F)) c (Pipeline.arrRef spec7 4) :=
  ((U16_out m (leaves F) c).trans (leaves_v7 _ c)).symm

set_option maxHeartbeats 3200000 in
/-- At the exit every array of the launch holds the next item's contents: the output array what the launch leaves, an
    input array what it held (the launch changes no other buffer). -/
theorem hF7 (c : Dev nD) (w : Fin cfg7.W) : (pdats m 7 c).arrAt w cfg7.N = rd (U16 m (leaves F)) c (Pipeline.arrRef spec7 w) := by
  match w with
  | ⟨0, _⟩ => exact ((pdats m 7 c).arrAt_in 0 rfl _).trans ((R7.A_eq _ c 0).trans (U16_of_ne m (leaves F) c (Pipeline.arrRef spec7 0) (by decide)).symm)
  | ⟨1, _⟩ => exact ((pdats m 7 c).arrAt_in 1 rfl _).trans ((R7.A_eq _ c 1).trans (U16_of_ne m (leaves F) c (Pipeline.arrRef spec7 1) (by decide)).symm)
  | ⟨2, _⟩ => exact ((pdats m 7 c).arrAt_in 2 rfl _).trans ((R7.A_eq _ c 2).trans (U16_of_ne m (leaves F) c (Pipeline.arrRef spec7 2) (by decide)).symm)
  | ⟨3, _⟩ => exact ((pdats m 7 c).arrAt_in 3 rfl _).trans ((R7.A_eq _ c 3).trans (U16_of_ne m (leaves F) c (Pipeline.arrRef spec7 3) (by decide)).symm)
  | ⟨4, _⟩ => exact hF7_out m c

theorem out_ref7 : Pipeline.arrRef spec7 4 = main_v45 := rfl

theorem hrest7 (c : Dev nD) : ∀ b, b ∉ Finset.univ.image (Pipeline.arrRef spec7) → rd (U16 m (leaves F)) c b = rd (U15 m (leaves F)) c b :=
  fun b hb => U16_of_ne m (leaves F) c b fun e => hb (Finset.mem_image.mpr ⟨4, Finset.mem_univ _, out_ref7.trans e.symm⟩)

/-- After the last grid point the invariant gives the scoped buffers back at anything. -/
theorem hout7 (c : Dev nD) : (pdats m 7 c).Φ (Fin.last cfg7.N) ⊢ (Pipeline.scopedRest (Ix := Unit) (Name := ℕ) (U := UR sig nD τ) (Lvl := ℕ) (Val := Elt F) spec7 c : sProp 𝕄) := by
  rw [show (pdats m 7 c).Φ (Fin.last cfg7.N) = R7.PhiS (rd (U15 m (leaves F))) c cfg7.N (Nat.le_refl _) from rfl,
    R7.PhiS_pos _ c _ _ (by have h : cfg7.N = 144 := N_7; omega), R7.scoped_eq]
  iintro ⟨HS, Hg⟩
  isplitl [HS]
  · iexists _; iexact HS
  iexact Hg

set_option backward.isDefEq.respectTransparency.types false in
def reg7 : Pipeline.RegionSeg (pcfgs (F := F)) adm (pdats m) () defs₀ 𝒱₀ Lz lvz 7 where
  win := launch7.win.to₀
  block_pos := launch7.block_pos
  stage_whole := launch7.stage_whole
  K := PEmpty
  osem k := k.elim
  ho := Pipeline.OwnSemFacts.none _
  hbody c := (R7.body_obligation (rd (U15 m (leaves F))) c).loose
  hwaits := Pipeline.hwaits_of_owed_zero _ _ _ _ Lz lvz 7 fun _ _ => rfl
  pre c := iprop(StableHlo.held (c : Thread nD τ) (Pipeline.ucRefs τ sig) (U15 m (leaves F) c) ∗ Rr c)
  post c := iprop(StableHlo.held (c : Thread nD τ) (Pipeline.ucRefs τ sig) (U16 m (leaves F) c) ∗ Rr c)
  X c := iprop(emp)
  Y c := iprop(emp)
  Z c := iprop(Pipeline.unscopedRest (Ix := Unit) (Name := ℕ) (U := UR sig nD τ) (Lvl := ℕ) spec7 c (rd (U15 m (leaves F)) c) ∗ ∃ r, prngReg c r)
  hentry c := by
    rw [Pipeline.ownSems0_none]
    have hsplit := Pipeline.arrays_of_unscopedBufs (p := 7) (pcfgs (F := F)) adm (pdats m) launch7.win launch7.arr_whole c
      ((pdats m 7 c).share_full fun _ => rfl) (rd (U15 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 7 c).Φ 0 = Pipeline.scopedRest (Ix := Unit) (Name := ℕ) (U := UR sig nD τ) (Lvl := ℕ) (Val := Elt F) spec7 c from rfl]
    iintro ⟨-, -, Hr⟩
    iexact Hr
  hout c := by
    rw [Pipeline.ownSems0_none]
    iintro H
    isplitr; · iempintro
    isplitr; · iempintro
    iapply (hout7 m c); iexact H
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (rd (U15 m (leaves F)) c) (rd (U16 m (leaves F)) c) ((pdats m 7 c).arrAt · cfg7.N) (hF7 m c) (hrest7 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.R8Arr.lean ====
/-
  Launch 8's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R8Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec8) = [main_v1, main_v45, main_v47, main_v50, main_v3, main_v51].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec8 c V ∗ Pipeline.unscopedRest (Ix := Unit) (Name := ℕ) (U := UR sig nD τ) (Lvl := ℕ) spec8 c V) :=
  Pipeline.PerCore.unscopedBufs_split₀ (fun _ : Dev nD => cfgs) (8 : Fin 14) c winFacts₀8.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec8 c V : sProp 𝕄)
      = iprop((((c : Thread nD τ).loc main_v1) ↦{fullShare} V main_v1) ∗ (((c : Thread nD τ).loc main_v45) ↦{fullShare} V main_v45) ∗ (((c : Thread nD τ).loc main_v47) ↦{fullShare} V main_v47) ∗ (((c : Thread nD τ).loc main_v50) ↦{fullShare} V main_v50) ∗ (((c : Thread nD τ).loc main_v3) ↦{fullShare} V main_v3) ∗ (((c : Thread nD τ).loc main_v51) ↦{fullShare} V main_v51)) := by
  unfold Pipeline.arrBufs
  exact bigSep_eq_bigSepL_of_eq [main_v1, main_v45, main_v47, main_v50, main_v3, main_v51] arrRefs_eq (by decide) _

/-- The seven windows' holdings one by one: each array whole at its window's share. -/
theorem arrays_eq (c : Dev nD) (G : (w : Fin cfg8.W) → Buf (Elt F) ((cfg8.win w).arr.view.loc (c : Thread nD τ))) :
    ((dat W c).arrays G : sProp 𝕄)
      = iprop((((c : Thread nD τ).loc main_v1) ↦{fullShare} G 0) ∗ (((c : Thread nD τ).loc main_v45) ↦{fullShare.left} G 1) ∗ (((c : Thread nD τ).loc main_v47) ↦{fullShare} G 2) ∗ (((c : Thread nD τ).loc main_v50) ↦{fullShare} G 3) ∗ (((c : Thread nD τ).loc main_v45) ↦{fullShare.right} G 4) ∗ (((c : Thread nD τ).loc main_v3) ↦{fullShare} G 5) ∗ (((c : Thread nD τ).loc main_v51) ↦{fullShare} G 6)) := by
  rw [Cert.Lib.SharedLaunch.arrays_eq_shares (dat W c) arr_whole8 G, bigSep_W8]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec8 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg8.W) → Buf (Elt F) ((cfg8.win w).arr.view.loc (c : Thread nD τ))) (hF : ∀ w, Fw w = V' (Pipeline.arrRef spec8 w))
    (hrest : ∀ b, b ∉ Finset.univ.image (Pipeline.arrRef spec8) → V' b = W c b) :
    iprop((dat W c).arrays Fw ∗ Pipeline.unscopedRest (Ix := Unit) (Name := ℕ) (U := UR sig nD τ) (Lvl := ℕ) spec8 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec8 c (W c) : sProp 𝕄) = Pipeline.unscopedRest (Ix := Unit) (Name := ℕ) (U := UR sig nD τ) (Lvl := ℕ) spec8 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.KernelIdeal.R8

end
-- ==== Proof.Seg8.lean ====
/-
  Launch 8 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase
import proofs.«155206_j89000312308227_2_alg».proof.Proof.R8Arr

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v8 (W) (c : Dev nD) : (leaves F).v8 W c = (R8.dat (F := F) W c).arrAt 6 cfg8.N := rfl

/-- The output array after the launch is what the launch leaves: its proof data's array after the last grid point. -/
theorem hF8_out (c : Dev nD) : (pdats m 8 c).arrAt 6 cfg8.N = rd (U18 m (leaves F)) c (Pipeline.arrRef spec8 6) :=
  ((U18_out m (leaves F) c).trans (leaves_v8 _ c)).symm

set_option maxHeartbeats 3200000 in
/-- At the exit every array of the launch holds the next item's contents: the output array what the launch leaves, an
    input array what it held (the launch changes no other buffer). -/
theorem hF8 (c : Dev nD) (w : Fin cfg8.W) : (pdats m 8 c).arrAt w cfg8.N = rd (U18 m (leaves F)) c (Pipeline.arrRef spec8 w) := by
  match w with
  | ⟨0, _⟩ => exact ((pdats m 8 c).arrAt_in 0 rfl _).trans ((R8.A_eq _ c 0).trans (U18_of_ne m (leaves F) c (Pipeline.arrRef spec8 0) (by decide)).symm)
  | ⟨1, _⟩ => exact ((pdats m 8 c).arrAt_in 1 rfl _).trans ((R8.A_eq _ c 1).trans (U18_of_ne m (leaves F) c (Pipeline.arrRef spec8 1) (by decide)).symm)
  | ⟨2, _⟩ => exact ((pdats m 8 c).arrAt_in 2 rfl _).trans ((R8.A_eq _ c 2).trans (U18_of_ne m (leaves F) c (Pipeline.arrRef spec8 2) (by decide)).symm)
  | ⟨3, _⟩ => exact ((pdats m 8 c).arrAt_in 3 rfl _).trans ((R8.A_eq _ c 3).trans (U18_of_ne m (leaves F) c (Pipeline.arrRef spec8 3) (by decide)).symm)
  | ⟨4, _⟩ => exact ((pdats m 8 c).arrAt_in 4 rfl _).trans ((R8.A_eq _ c 4).trans (U18_of_ne m (leaves F) c (Pipeline.arrRef spec8 4) (by decide)).symm)
  | ⟨5, _⟩ => exact ((pdats m 8 c).arrAt_in 5 rfl _).trans ((R8.A_eq _ c 5).trans (U18_of_ne m (leaves F) c (Pipeline.arrRef spec8 5) (by decide)).symm)
  | ⟨6, _⟩ => exact hF8_out m c

theorem out_ref8 : Pipeline.arrRef spec8 6 = main_v51 := rfl

theorem hrest8 (c : Dev nD) : ∀ b, b ∉ Finset.univ.image (Pipeline.arrRef spec8) → rd (U18 m (leaves F)) c b = rd (U17 m (leaves F)) c b :=
  fun b hb => U18_of_ne m (leaves F) c b fun e => hb (Finset.mem_image.mpr ⟨6, Finset.mem_univ _, out_ref8.trans e.symm⟩)

/-- After the last grid point the invariant gives the scoped buffers back at anything. -/
theorem hout8 (c : Dev nD) : (pdats m 8 c).Φ (Fin.last cfg8.N) ⊢ (Pipeline.scopedRest (Ix := Unit) (Name := ℕ) (U := UR sig nD τ) (Lvl := ℕ) (Val := Elt F) spec8 c : sProp 𝕄) := by
  rw [show (pdats m 8 c).Φ (Fin.last cfg8.N) = R8.PhiS (rd (U17 m (leaves F))) c cfg8.N (Nat.le_refl _) from rfl,
    R8.PhiS_pos _ c _ _ (by have h : cfg8.N = 144 := N_8; omega), R8.scoped_eq]
  iintro ⟨HS, Hg⟩
  isplitl [HS]
  · iexists _; iexact HS
  iexact Hg

set_option backward.isDefEq.respectTransparency.types false in
def reg8 : Pipeline.RegionSeg (pcfgs (F := F)) adm (pdats m) () defs₀ 𝒱₀ Lz lvz 8 where
  win := winFacts₀8
  block_pos := block_pos8
  stage_whole := stage_whole8
  K := PEmpty
  osem k := k.elim
  ho := Pipeline.OwnSemFacts.none _
  hbody c := (R8.body_obligation (rd (U17 m (leaves F))) c).loose
  hwaits := Pipeline.hwaits_of_owed_zero _ _ _ _ Lz lvz 8 fun _ _ => rfl
  pre c := iprop(StableHlo.held (c : Thread nD τ) (Pipeline.ucRefs τ sig) (U17 m (leaves F) c) ∗ Rr c)
  post c := iprop(StableHlo.held (c : Thread nD τ) (Pipeline.ucRefs τ sig) (U18 m (leaves F) c) ∗ Rr c)
  X c := iprop(emp)
  Y c := iprop(emp)
  Z c := iprop(Pipeline.unscopedRest (Ix := Unit) (Name := ℕ) (U := UR sig nD τ) (Lvl := ℕ) spec8 c (rd (U17 m (leaves F)) c) ∗ ∃ r, prngReg c r)
  hentry c := by
    rw [Pipeline.ownSems0_none]
    have hsplit := R8.arrays_of_unscopedBufs (rd (U17 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 8 c).Φ 0 = Pipeline.scopedRest (Ix := Unit) (Name := ℕ) (U := UR sig nD τ) (Lvl := ℕ) (Val := Elt F) spec8 c from rfl]
    iintro ⟨-, -, Hr⟩
    iexact Hr
  hout c := by
    rw [Pipeline.ownSems0_none]
    iintro H
    isplitr; · iempintro
    isplitr; · iempintro
    iapply (hout8 m c); iexact H
  hexit c := by
    have hjoin : iprop((pdats m 8 c).arrays ((pdats m 8 c).arrAt · cfg8.N)
          ∗ Pipeline.unscopedRest (Ix := Unit) (Name := ℕ) (U := UR sig nD τ) (Lvl := ℕ) spec8 c (rd (U17 m (leaves F)) c))
        ⊢ (unscopedBufs c (rd (U18 m (leaves F)) c) : sProp 𝕄) :=
      R8.unscopedBufs_of_arrays (rd (U17 m (leaves F))) c (rd (U18 m (leaves F)) c)
        ((pdats m 8 c).arrAt · cfg8.N) (hF8 m c) (hrest8 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg9.lean ====
/-
  Launch 9 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v9 (W) (c : Dev nD) : (leaves F).v9 W c = (R9.dat (F := F) W c).arrAt 4 cfg9.N := rfl

/-- The output array after the launch is what the launch leaves: its proof data's array after the last grid point. -/
theorem hF9_out (c : Dev nD) : (pdats m 9 c).arrAt 4 cfg9.N = rd (U20 m (leaves F)) c (Pipeline.arrRef spec9 4) :=
  ((U20_out m (leaves F) c).trans (leaves_v9 _ c)).symm

set_option maxHeartbeats 3200000 in
/-- At the exit every array of the launch holds the next item's contents: the output array what the launch leaves, an
    input array what it held (the launch changes no other buffer). -/
theorem hF9 (c : Dev nD) (w : Fin cfg9.W) : (pdats m 9 c).arrAt w cfg9.N = rd (U20 m (leaves F)) c (Pipeline.arrRef spec9 w) := by
  match w with
  | ⟨0, _⟩ => exact ((pdats m 9 c).arrAt_in 0 rfl _).trans ((R9.A_eq _ c 0).trans (U20_of_ne m (leaves F) c (Pipeline.arrRef spec9 0) (by decide)).symm)
  | ⟨1, _⟩ => exact ((pdats m 9 c).arrAt_in 1 rfl _).trans ((R9.A_eq _ c 1).trans (U20_of_ne m (leaves F) c (Pipeline.arrRef spec9 1) (by decide)).symm)
  | ⟨2, _⟩ => exact ((pdats m 9 c).arrAt_in 2 rfl _).trans ((R9.A_eq _ c 2).trans (U20_of_ne m (leaves F) c (Pipeline.arrRef spec9 2) (by decide)).symm)
  | ⟨3, _⟩ => exact ((pdats m 9 c).arrAt_in 3 rfl _).trans ((R9.A_eq _ c 3).trans (U20_of_ne m (leaves F) c (Pipeline.arrRef spec9 3) (by decide)).symm)
  | ⟨4, _⟩ => exact hF9_out m c

theorem out_ref9 : Pipeline.arrRef spec9 4 = main_v57 := rfl

theorem hrest9 (c : Dev nD) : ∀ b, b ∉ Finset.univ.image (Pipeline.arrRef spec9) → rd (U20 m (leaves F)) c b = rd (U19 m (leaves F)) c b :=
  fun b hb => U20_of_ne m (leaves F) c b fun e => hb (Finset.mem_image.mpr ⟨4, Finset.mem_univ _, out_ref9.trans e.symm⟩)

/-- After the last grid point the invariant gives the scoped buffers back at anything. -/
theorem hout9 (c : Dev nD) : (pdats m 9 c).Φ (Fin.last cfg9.N) ⊢ (Pipeline.scopedRest (Ix := Unit) (Name := ℕ) (U := UR sig nD τ) (Lvl := ℕ) (Val := Elt F) spec9 c : sProp 𝕄) := by
  rw [show (pdats m 9 c).Φ (Fin.last cfg9.N) = R9.PhiS (rd (U19 m (leaves F))) c cfg9.N (Nat.le_refl _) from rfl,
    R9.PhiS_pos _ c _ _ (by have h : cfg9.N = 144 := N_9; omega), R9.scoped_eq]
  iintro ⟨HS, Hg⟩
  isplitl [HS]
  · iexists _; iexact HS
  iexact Hg

set_option backward.isDefEq.respectTransparency.types false in
def reg9 : Pipeline.RegionSeg (pcfgs (F := F)) adm (pdats m) () defs₀ 𝒱₀ Lz lvz 9 where
  win := launch9.win.to₀
  block_pos := launch9.block_pos
  stage_whole := launch9.stage_whole
  K := PEmpty
  osem k := k.elim
  ho := Pipeline.OwnSemFacts.none _
  hbody c := (R9.body_obligation (rd (U19 m (leaves F))) c).loose
  hwaits := Pipeline.hwaits_of_owed_zero _ _ _ _ Lz lvz 9 fun _ _ => rfl
  pre c := iprop(StableHlo.held (c : Thread nD τ) (Pipeline.ucRefs τ sig) (U19 m (leaves F) c) ∗ Rr c)
  post c := iprop(StableHlo.held (c : Thread nD τ) (Pipeline.ucRefs τ sig) (U20 m (leaves F) c) ∗ Rr c)
  X c := iprop(emp)
  Y c := iprop(emp)
  Z c := iprop(Pipeline.unscopedRest (Ix := Unit) (Name := ℕ) (U := UR sig nD τ) (Lvl := ℕ) spec9 c (rd (U19 m (leaves F)) c) ∗ ∃ r, prngReg c r)
  hentry c := by
    rw [Pipeline.ownSems0_none]
    have hsplit := Pipeline.arrays_of_unscopedBufs (p := 9) (pcfgs (F := F)) adm (pdats m) launch9.win launch9.arr_whole c
      ((pdats m 9 c).share_full fun _ => rfl) (rd (U19 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 9 c).Φ 0 = Pipeline.scopedRest (Ix := Unit) (Name := ℕ) (U := UR sig nD τ) (Lvl := ℕ) (Val := Elt F) spec9 c from rfl]
    iintro ⟨-, -, Hr⟩
    iexact Hr
  hout c := by
    rw [Pipeline.ownSems0_none]
    iintro H
    isplitr; · iempintro
    isplitr; · iempintro
    iapply (hout9 m c); iexact H
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (rd (U19 m (leaves F)) c) (rd (U20 m (leaves F)) c) ((pdats m 9 c).arrAt · cfg9.N) (hF9 m c) (hrest9 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.R10Arr.lean ====
/-
  Launch 10's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R10Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec10) = [main_v1, main_v57, main_v59, main_v62, main_v51, main_v63].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec10 c V ∗ Pipeline.unscopedRest (Ix := Unit) (Name := ℕ) (U := UR sig nD τ) (Lvl := ℕ) spec10 c V) :=
  Pipeline.PerCore.unscopedBufs_split₀ (fun _ : Dev nD => cfgs) (10 : Fin 14) c winFacts₀10.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec10 c V : sProp 𝕄)
      = iprop((((c : Thread nD τ).loc main_v1) ↦{fullShare} V main_v1) ∗ (((c : Thread nD τ).loc main_v57) ↦{fullShare} V main_v57) ∗ (((c : Thread nD τ).loc main_v59) ↦{fullShare} V main_v59) ∗ (((c : Thread nD τ).loc main_v62) ↦{fullShare} V main_v62) ∗ (((c : Thread nD τ).loc main_v51) ↦{fullShare} V main_v51) ∗ (((c : Thread nD τ).loc main_v63) ↦{fullShare} V main_v63)) := by
  unfold Pipeline.arrBufs
  exact bigSep_eq_bigSepL_of_eq [main_v1, main_v57, main_v59, main_v62, main_v51, main_v63] arrRefs_eq (by decide) _

/-- The seven windows' holdings one by one: each array whole at its window's share. -/
theorem arrays_eq (c : Dev nD) (G : (w : Fin cfg10.W) → Buf (Elt F) ((cfg10.win w).arr.view.loc (c : Thread nD τ))) :
    ((dat W c).arrays G : sProp 𝕄)
      = iprop((((c : Thread nD τ).loc main_v1) ↦{fullShare} G 0) ∗ (((c : Thread nD τ).loc main_v57) ↦{fullShare.left} G 1) ∗ (((c : Thread nD τ).loc main_v59) ↦{fullShare} G 2) ∗ (((c : Thread nD τ).loc main_v62) ↦{fullShare} G 3) ∗ (((c : Thread nD τ).loc main_v57) ↦{fullShare.right} G 4) ∗ (((c : Thread nD τ).loc main_v51) ↦{fullShare} G 5) ∗ (((c : Thread nD τ).loc main_v63) ↦{fullShare} G 6)) := by
  rw [Cert.Lib.SharedLaunch.arrays_eq_shares (dat W c) arr_whole10 G, bigSep_W10]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec10 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg10.W) → Buf (Elt F) ((cfg10.win w).arr.view.loc (c : Thread nD τ))) (hF : ∀ w, Fw w = V' (Pipeline.arrRef spec10 w))
    (hrest : ∀ b, b ∉ Finset.univ.image (Pipeline.arrRef spec10) → V' b = W c b) :
    iprop((dat W c).arrays Fw ∗ Pipeline.unscopedRest (Ix := Unit) (Name := ℕ) (U := UR sig nD τ) (Lvl := ℕ) spec10 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec10 c (W c) : sProp 𝕄) = Pipeline.unscopedRest (Ix := Unit) (Name := ℕ) (U := UR sig nD τ) (Lvl := ℕ) spec10 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.KernelIdeal.R10

end
-- ==== Proof.Seg10.lean ====
/-
  Launch 10 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase
import proofs.«155206_j89000312308227_2_alg».proof.Proof.R10Arr

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v10 (W) (c : Dev nD) : (leaves F).v10 W c = (R10.dat (F := F) W c).arrAt 6 cfg10.N := rfl

/-- The output array after the launch is what the launch leaves: its proof data's array after the last grid point. -/
theorem hF10_out (c : Dev nD) : (pdats m 10 c).arrAt 6 cfg10.N = rd (U22 m (leaves F)) c (Pipeline.arrRef spec10 6) :=
  ((U22_out m (leaves F) c).trans (leaves_v10 _ c)).symm

set_option maxHeartbeats 3200000 in
/-- At the exit every array of the launch holds the next item's contents: the output array what the launch leaves, an
    input array what it held (the launch changes no other buffer). -/
theorem hF10 (c : Dev nD) (w : Fin cfg10.W) : (pdats m 10 c).arrAt w cfg10.N = rd (U22 m (leaves F)) c (Pipeline.arrRef spec10 w) := by
  match w with
  | ⟨0, _⟩ => exact ((pdats m 10 c).arrAt_in 0 rfl _).trans ((R10.A_eq _ c 0).trans (U22_of_ne m (leaves F) c (Pipeline.arrRef spec10 0) (by decide)).symm)
  | ⟨1, _⟩ => exact ((pdats m 10 c).arrAt_in 1 rfl _).trans ((R10.A_eq _ c 1).trans (U22_of_ne m (leaves F) c (Pipeline.arrRef spec10 1) (by decide)).symm)
  | ⟨2, _⟩ => exact ((pdats m 10 c).arrAt_in 2 rfl _).trans ((R10.A_eq _ c 2).trans (U22_of_ne m (leaves F) c (Pipeline.arrRef spec10 2) (by decide)).symm)
  | ⟨3, _⟩ => exact ((pdats m 10 c).arrAt_in 3 rfl _).trans ((R10.A_eq _ c 3).trans (U22_of_ne m (leaves F) c (Pipeline.arrRef spec10 3) (by decide)).symm)
  | ⟨4, _⟩ => exact ((pdats m 10 c).arrAt_in 4 rfl _).trans ((R10.A_eq _ c 4).trans (U22_of_ne m (leaves F) c (Pipeline.arrRef spec10 4) (by decide)).symm)
  | ⟨5, _⟩ => exact ((pdats m 10 c).arrAt_in 5 rfl _).trans ((R10.A_eq _ c 5).trans (U22_of_ne m (leaves F) c (Pipeline.arrRef spec10 5) (by decide)).symm)
  | ⟨6, _⟩ => exact hF10_out m c

theorem out_ref10 : Pipeline.arrRef spec10 6 = main_v63 := rfl

theorem hrest10 (c : Dev nD) : ∀ b, b ∉ Finset.univ.image (Pipeline.arrRef spec10) → rd (U22 m (leaves F)) c b = rd (U21 m (leaves F)) c b :=
  fun b hb => U22_of_ne m (leaves F) c b fun e => hb (Finset.mem_image.mpr ⟨6, Finset.mem_univ _, out_ref10.trans e.symm⟩)

/-- After the last grid point the invariant gives the scoped buffers back at anything. -/
theorem hout10 (c : Dev nD) : (pdats m 10 c).Φ (Fin.last cfg10.N) ⊢ (Pipeline.scopedRest (Ix := Unit) (Name := ℕ) (U := UR sig nD τ) (Lvl := ℕ) (Val := Elt F) spec10 c : sProp 𝕄) := by
  rw [show (pdats m 10 c).Φ (Fin.last cfg10.N) = R10.PhiS (rd (U21 m (leaves F))) c cfg10.N (Nat.le_refl _) from rfl,
    R10.PhiS_pos _ c _ _ (by have h : cfg10.N = 144 := N_10; omega), R10.scoped_eq]
  iintro ⟨HS, Hg⟩
  isplitl [HS]
  · iexists _; iexact HS
  iexact Hg

set_option backward.isDefEq.respectTransparency.types false in
def reg10 : Pipeline.RegionSeg (pcfgs (F := F)) adm (pdats m) () defs₀ 𝒱₀ Lz lvz 10 where
  win := winFacts₀10
  block_pos := block_pos10
  stage_whole := stage_whole10
  K := PEmpty
  osem k := k.elim
  ho := Pipeline.OwnSemFacts.none _
  hbody c := (R10.body_obligation (rd (U21 m (leaves F))) c).loose
  hwaits := Pipeline.hwaits_of_owed_zero _ _ _ _ Lz lvz 10 fun _ _ => rfl
  pre c := iprop(StableHlo.held (c : Thread nD τ) (Pipeline.ucRefs τ sig) (U21 m (leaves F) c) ∗ Rr c)
  post c := iprop(StableHlo.held (c : Thread nD τ) (Pipeline.ucRefs τ sig) (U22 m (leaves F) c) ∗ Rr c)
  X c := iprop(emp)
  Y c := iprop(emp)
  Z c := iprop(Pipeline.unscopedRest (Ix := Unit) (Name := ℕ) (U := UR sig nD τ) (Lvl := ℕ) spec10 c (rd (U21 m (leaves F)) c) ∗ ∃ r, prngReg c r)
  hentry c := by
    rw [Pipeline.ownSems0_none]
    have hsplit := R10.arrays_of_unscopedBufs (rd (U21 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 10 c).Φ 0 = Pipeline.scopedRest (Ix := Unit) (Name := ℕ) (U := UR sig nD τ) (Lvl := ℕ) (Val := Elt F) spec10 c from rfl]
    iintro ⟨-, -, Hr⟩
    iexact Hr
  hout c := by
    rw [Pipeline.ownSems0_none]
    iintro H
    isplitr; · iempintro
    isplitr; · iempintro
    iapply (hout10 m c); iexact H
  hexit c := by
    have hjoin : iprop((pdats m 10 c).arrays ((pdats m 10 c).arrAt · cfg10.N)
          ∗ Pipeline.unscopedRest (Ix := Unit) (Name := ℕ) (U := UR sig nD τ) (Lvl := ℕ) spec10 c (rd (U21 m (leaves F)) c))
        ⊢ (unscopedBufs c (rd (U22 m (leaves F)) c) : sProp 𝕄) :=
      R10.unscopedBufs_of_arrays (rd (U21 m (leaves F))) c (rd (U22 m (leaves F)) c)
        ((pdats m 10 c).arrAt · cfg10.N) (hF10 m c) (hrest10 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg11.lean ====
/-
  Launch 11 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v11 (W) (c : Dev nD) : (leaves F).v11 W c = (R11.dat (F := F) W c).arrAt 4 cfg11.N := rfl

/-- The output array after the launch is what the launch leaves: its proof data's array after the last grid point. -/
theorem hF11_out (c : Dev nD) : (pdats m 11 c).arrAt 4 cfg11.N = rd (U24 m (leaves F)) c (Pipeline.arrRef spec11 4) :=
  ((U24_out m (leaves F) c).trans (leaves_v11 _ c)).symm

set_option maxHeartbeats 3200000 in
/-- At the exit every array of the launch holds the next item's contents: the output array what the launch leaves, an
    input array what it held (the launch changes no other buffer). -/
theorem hF11 (c : Dev nD) (w : Fin cfg11.W) : (pdats m 11 c).arrAt w cfg11.N = rd (U24 m (leaves F)) c (Pipeline.arrRef spec11 w) := by
  match w with
  | ⟨0, _⟩ => exact ((pdats m 11 c).arrAt_in 0 rfl _).trans ((R11.A_eq _ c 0).trans (U24_of_ne m (leaves F) c (Pipeline.arrRef spec11 0) (by decide)).symm)
  | ⟨1, _⟩ => exact ((pdats m 11 c).arrAt_in 1 rfl _).trans ((R11.A_eq _ c 1).trans (U24_of_ne m (leaves F) c (Pipeline.arrRef spec11 1) (by decide)).symm)
  | ⟨2, _⟩ => exact ((pdats m 11 c).arrAt_in 2 rfl _).trans ((R11.A_eq _ c 2).trans (U24_of_ne m (leaves F) c (Pipeline.arrRef spec11 2) (by decide)).symm)
  | ⟨3, _⟩ => exact ((pdats m 11 c).arrAt_in 3 rfl _).trans ((R11.A_eq _ c 3).trans (U24_of_ne m (leaves F) c (Pipeline.arrRef spec11 3) (by decide)).symm)
  | ⟨4, _⟩ => exact hF11_out m c

theorem out_ref11 : Pipeline.arrRef spec11 4 = main_v69 := rfl

theorem hrest11 (c : Dev nD) : ∀ b, b ∉ Finset.univ.image (Pipeline.arrRef spec11) → rd (U24 m (leaves F)) c b = rd (U23 m (leaves F)) c b :=
  fun b hb => U24_of_ne m (leaves F) c b fun e => hb (Finset.mem_image.mpr ⟨4, Finset.mem_univ _, out_ref11.trans e.symm⟩)

/-- After the last grid point the invariant gives the scoped buffers back at anything. -/
theorem hout11 (c : Dev nD) : (pdats m 11 c).Φ (Fin.last cfg11.N) ⊢ (Pipeline.scopedRest (Ix := Unit) (Name := ℕ) (U := UR sig nD τ) (Lvl := ℕ) (Val := Elt F) spec11 c : sProp 𝕄) := by
  rw [show (pdats m 11 c).Φ (Fin.last cfg11.N) = R11.PhiS (rd (U23 m (leaves F))) c cfg11.N (Nat.le_refl _) from rfl,
    R11.PhiS_pos _ c _ _ (by have h : cfg11.N = 144 := N_11; omega), R11.scoped_eq]
  iintro ⟨HS, Hg⟩
  isplitl [HS]
  · iexists _; iexact HS
  iexact Hg

set_option backward.isDefEq.respectTransparency.types false in
def reg11 : Pipeline.RegionSeg (pcfgs (F := F)) adm (pdats m) () defs₀ 𝒱₀ Lz lvz 11 where
  win := launch11.win.to₀
  block_pos := launch11.block_pos
  stage_whole := launch11.stage_whole
  K := PEmpty
  osem k := k.elim
  ho := Pipeline.OwnSemFacts.none _
  hbody c := (R11.body_obligation (rd (U23 m (leaves F))) c).loose
  hwaits := Pipeline.hwaits_of_owed_zero _ _ _ _ Lz lvz 11 fun _ _ => rfl
  pre c := iprop(StableHlo.held (c : Thread nD τ) (Pipeline.ucRefs τ sig) (U23 m (leaves F) c) ∗ Rr c)
  post c := iprop(StableHlo.held (c : Thread nD τ) (Pipeline.ucRefs τ sig) (U24 m (leaves F) c) ∗ Rr c)
  X c := iprop(emp)
  Y c := iprop(emp)
  Z c := iprop(Pipeline.unscopedRest (Ix := Unit) (Name := ℕ) (U := UR sig nD τ) (Lvl := ℕ) spec11 c (rd (U23 m (leaves F)) c) ∗ ∃ r, prngReg c r)
  hentry c := by
    rw [Pipeline.ownSems0_none]
    have hsplit := Pipeline.arrays_of_unscopedBufs (p := 11) (pcfgs (F := F)) adm (pdats m) launch11.win launch11.arr_whole c
      ((pdats m 11 c).share_full fun _ => rfl) (rd (U23 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 11 c).Φ 0 = Pipeline.scopedRest (Ix := Unit) (Name := ℕ) (U := UR sig nD τ) (Lvl := ℕ) (Val := Elt F) spec11 c from rfl]
    iintro ⟨-, -, Hr⟩
    iexact Hr
  hout c := by
    rw [Pipeline.ownSems0_none]
    iintro H
    isplitr; · iempintro
    isplitr; · iempintro
    iapply (hout11 m c); iexact H
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (rd (U23 m (leaves F)) c) (rd (U24 m (leaves F)) c) ((pdats m 11 c).arrAt · cfg11.N) (hF11 m c) (hrest11 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.R12Arr.lean ====
/-
  Launch 12's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R12Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec12) = [main_v1, main_v69, main_v71, main_v74, main_v63, main_v75].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec12 c V ∗ Pipeline.unscopedRest (Ix := Unit) (Name := ℕ) (U := UR sig nD τ) (Lvl := ℕ) spec12 c V) :=
  Pipeline.PerCore.unscopedBufs_split₀ (fun _ : Dev nD => cfgs) (12 : Fin 14) c winFacts₀12.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec12 c V : sProp 𝕄)
      = iprop((((c : Thread nD τ).loc main_v1) ↦{fullShare} V main_v1) ∗ (((c : Thread nD τ).loc main_v69) ↦{fullShare} V main_v69) ∗ (((c : Thread nD τ).loc main_v71) ↦{fullShare} V main_v71) ∗ (((c : Thread nD τ).loc main_v74) ↦{fullShare} V main_v74) ∗ (((c : Thread nD τ).loc main_v63) ↦{fullShare} V main_v63) ∗ (((c : Thread nD τ).loc main_v75) ↦{fullShare} V main_v75)) := by
  unfold Pipeline.arrBufs
  exact bigSep_eq_bigSepL_of_eq [main_v1, main_v69, main_v71, main_v74, main_v63, main_v75] arrRefs_eq (by decide) _

/-- The seven windows' holdings one by one: each array whole at its window's share. -/
theorem arrays_eq (c : Dev nD) (G : (w : Fin cfg12.W) → Buf (Elt F) ((cfg12.win w).arr.view.loc (c : Thread nD τ))) :
    ((dat W c).arrays G : sProp 𝕄)
      = iprop((((c : Thread nD τ).loc main_v1) ↦{fullShare} G 0) ∗ (((c : Thread nD τ).loc main_v69) ↦{fullShare.left} G 1) ∗ (((c : Thread nD τ).loc main_v71) ↦{fullShare} G 2) ∗ (((c : Thread nD τ).loc main_v74) ↦{fullShare} G 3) ∗ (((c : Thread nD τ).loc main_v69) ↦{fullShare.right} G 4) ∗ (((c : Thread nD τ).loc main_v63) ↦{fullShare} G 5) ∗ (((c : Thread nD τ).loc main_v75) ↦{fullShare} G 6)) := by
  rw [Cert.Lib.SharedLaunch.arrays_eq_shares (dat W c) arr_whole12 G, bigSep_W12]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec12 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg12.W) → Buf (Elt F) ((cfg12.win w).arr.view.loc (c : Thread nD τ))) (hF : ∀ w, Fw w = V' (Pipeline.arrRef spec12 w))
    (hrest : ∀ b, b ∉ Finset.univ.image (Pipeline.arrRef spec12) → V' b = W c b) :
    iprop((dat W c).arrays Fw ∗ Pipeline.unscopedRest (Ix := Unit) (Name := ℕ) (U := UR sig nD τ) (Lvl := ℕ) spec12 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec12 c (W c) : sProp 𝕄) = Pipeline.unscopedRest (Ix := Unit) (Name := ℕ) (U := UR sig nD τ) (Lvl := ℕ) spec12 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.KernelIdeal.R12

end
-- ==== Proof.Seg12.lean ====
/-
  Launch 12 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase
import proofs.«155206_j89000312308227_2_alg».proof.Proof.R12Arr

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v12 (W) (c : Dev nD) : (leaves F).v12 W c = (R12.dat (F := F) W c).arrAt 6 cfg12.N := rfl

/-- The output array after the launch is what the launch leaves: its proof data's array after the last grid point. -/
theorem hF12_out (c : Dev nD) : (pdats m 12 c).arrAt 6 cfg12.N = rd (U26 m (leaves F)) c (Pipeline.arrRef spec12 6) :=
  ((U26_out m (leaves F) c).trans (leaves_v12 _ c)).symm

set_option maxHeartbeats 3200000 in
/-- At the exit every array of the launch holds the next item's contents: the output array what the launch leaves, an
    input array what it held (the launch changes no other buffer). -/
theorem hF12 (c : Dev nD) (w : Fin cfg12.W) : (pdats m 12 c).arrAt w cfg12.N = rd (U26 m (leaves F)) c (Pipeline.arrRef spec12 w) := by
  match w with
  | ⟨0, _⟩ => exact ((pdats m 12 c).arrAt_in 0 rfl _).trans ((R12.A_eq _ c 0).trans (U26_of_ne m (leaves F) c (Pipeline.arrRef spec12 0) (by decide)).symm)
  | ⟨1, _⟩ => exact ((pdats m 12 c).arrAt_in 1 rfl _).trans ((R12.A_eq _ c 1).trans (U26_of_ne m (leaves F) c (Pipeline.arrRef spec12 1) (by decide)).symm)
  | ⟨2, _⟩ => exact ((pdats m 12 c).arrAt_in 2 rfl _).trans ((R12.A_eq _ c 2).trans (U26_of_ne m (leaves F) c (Pipeline.arrRef spec12 2) (by decide)).symm)
  | ⟨3, _⟩ => exact ((pdats m 12 c).arrAt_in 3 rfl _).trans ((R12.A_eq _ c 3).trans (U26_of_ne m (leaves F) c (Pipeline.arrRef spec12 3) (by decide)).symm)
  | ⟨4, _⟩ => exact ((pdats m 12 c).arrAt_in 4 rfl _).trans ((R12.A_eq _ c 4).trans (U26_of_ne m (leaves F) c (Pipeline.arrRef spec12 4) (by decide)).symm)
  | ⟨5, _⟩ => exact ((pdats m 12 c).arrAt_in 5 rfl _).trans ((R12.A_eq _ c 5).trans (U26_of_ne m (leaves F) c (Pipeline.arrRef spec12 5) (by decide)).symm)
  | ⟨6, _⟩ => exact hF12_out m c

theorem out_ref12 : Pipeline.arrRef spec12 6 = main_v75 := rfl

theorem hrest12 (c : Dev nD) : ∀ b, b ∉ Finset.univ.image (Pipeline.arrRef spec12) → rd (U26 m (leaves F)) c b = rd (U25 m (leaves F)) c b :=
  fun b hb => U26_of_ne m (leaves F) c b fun e => hb (Finset.mem_image.mpr ⟨6, Finset.mem_univ _, out_ref12.trans e.symm⟩)

/-- After the last grid point the invariant gives the scoped buffers back at anything. -/
theorem hout12 (c : Dev nD) : (pdats m 12 c).Φ (Fin.last cfg12.N) ⊢ (Pipeline.scopedRest (Ix := Unit) (Name := ℕ) (U := UR sig nD τ) (Lvl := ℕ) (Val := Elt F) spec12 c : sProp 𝕄) := by
  rw [show (pdats m 12 c).Φ (Fin.last cfg12.N) = R12.PhiS (rd (U25 m (leaves F))) c cfg12.N (Nat.le_refl _) from rfl,
    R12.PhiS_pos _ c _ _ (by have h : cfg12.N = 144 := N_12; omega), R12.scoped_eq]
  iintro ⟨HS, Hg⟩
  isplitl [HS]
  · iexists _; iexact HS
  iexact Hg

set_option backward.isDefEq.respectTransparency.types false in
def reg12 : Pipeline.RegionSeg (pcfgs (F := F)) adm (pdats m) () defs₀ 𝒱₀ Lz lvz 12 where
  win := winFacts₀12
  block_pos := block_pos12
  stage_whole := stage_whole12
  K := PEmpty
  osem k := k.elim
  ho := Pipeline.OwnSemFacts.none _
  hbody c := (R12.body_obligation (rd (U25 m (leaves F))) c).loose
  hwaits := Pipeline.hwaits_of_owed_zero _ _ _ _ Lz lvz 12 fun _ _ => rfl
  pre c := iprop(StableHlo.held (c : Thread nD τ) (Pipeline.ucRefs τ sig) (U25 m (leaves F) c) ∗ Rr c)
  post c := iprop(StableHlo.held (c : Thread nD τ) (Pipeline.ucRefs τ sig) (U26 m (leaves F) c) ∗ Rr c)
  X c := iprop(emp)
  Y c := iprop(emp)
  Z c := iprop(Pipeline.unscopedRest (Ix := Unit) (Name := ℕ) (U := UR sig nD τ) (Lvl := ℕ) spec12 c (rd (U25 m (leaves F)) c) ∗ ∃ r, prngReg c r)
  hentry c := by
    rw [Pipeline.ownSems0_none]
    have hsplit := R12.arrays_of_unscopedBufs (rd (U25 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 12 c).Φ 0 = Pipeline.scopedRest (Ix := Unit) (Name := ℕ) (U := UR sig nD τ) (Lvl := ℕ) (Val := Elt F) spec12 c from rfl]
    iintro ⟨-, -, Hr⟩
    iexact Hr
  hout c := by
    rw [Pipeline.ownSems0_none]
    iintro H
    isplitr; · iempintro
    isplitr; · iempintro
    iapply (hout12 m c); iexact H
  hexit c := by
    have hjoin : iprop((pdats m 12 c).arrays ((pdats m 12 c).arrAt · cfg12.N)
          ∗ Pipeline.unscopedRest (Ix := Unit) (Name := ℕ) (U := UR sig nD τ) (Lvl := ℕ) spec12 c (rd (U25 m (leaves F)) c))
        ⊢ (unscopedBufs c (rd (U26 m (leaves F)) c) : sProp 𝕄) :=
      R12.unscopedBufs_of_arrays (rd (U25 m (leaves F))) c (rd (U26 m (leaves F)) c)
        ((pdats m 12 c).arrAt · cfg12.N) (hF12 m c) (hrest12 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.Seg13.lean ====
/-
  Launch 13 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.AsmBase

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v13 (W) (c : Dev nD) : (leaves F).v13 W c = (R13.dat (F := F) W c).arrAt 2 cfg13.N := rfl

/-- The output array after the launch is what the launch leaves: its proof data's array after the last grid point. -/
theorem hF13_out (c : Dev nD) : (pdats m 13 c).arrAt 2 cfg13.N = rd (U29 m (leaves F)) c (Pipeline.arrRef spec13 2) :=
  ((U29_out m (leaves F) c).trans (leaves_v13 _ c)).symm

set_option maxHeartbeats 3200000 in
/-- At the exit every array of the launch holds the next item's contents: the output array what the launch leaves, an
    input array what it held (the launch changes no other buffer). -/
theorem hF13 (c : Dev nD) (w : Fin cfg13.W) : (pdats m 13 c).arrAt w cfg13.N = rd (U29 m (leaves F)) c (Pipeline.arrRef spec13 w) := by
  match w with
  | ⟨0, _⟩ => exact ((pdats m 13 c).arrAt_in 0 rfl _).trans ((R13.A_eq _ c 0).trans (U29_of_ne m (leaves F) c (Pipeline.arrRef spec13 0) (by decide)).symm)
  | ⟨1, _⟩ => exact ((pdats m 13 c).arrAt_in 1 rfl _).trans ((R13.A_eq _ c 1).trans (U29_of_ne m (leaves F) c (Pipeline.arrRef spec13 1) (by decide)).symm)
  | ⟨2, _⟩ => exact hF13_out m c

theorem out_ref13 : Pipeline.arrRef spec13 2 = main_v97 := rfl

theorem hrest13 (c : Dev nD) : ∀ b, b ∉ Finset.univ.image (Pipeline.arrRef spec13) → rd (U29 m (leaves F)) c b = rd (U28 m (leaves F)) c b :=
  fun b hb => U29_of_ne m (leaves F) c b fun e => hb (Finset.mem_image.mpr ⟨2, Finset.mem_univ _, out_ref13.trans e.symm⟩)

/-- After the last grid point the invariant gives the scoped buffers back at anything. -/
theorem hout13 (c : Dev nD) : (pdats m 13 c).Φ (Fin.last cfg13.N) ⊢ (Pipeline.scopedRest (Ix := Unit) (Name := ℕ) (U := UR sig nD τ) (Lvl := ℕ) (Val := Elt F) spec13 c : sProp 𝕄) := by
  rw [show (pdats m 13 c).Φ (Fin.last cfg13.N) = R13.PhiS (rd (U28 m (leaves F))) c cfg13.N (Nat.le_refl _) from rfl,
    R13.PhiS_pos _ c _ _ (by have h : cfg13.N = 72 := N_13; omega), R13.scoped_eq]
  iintro ⟨HS, Hg⟩
  isplitl [HS]
  · iexists _; iexact HS
  iexact Hg

set_option backward.isDefEq.respectTransparency.types false in
def reg13 : Pipeline.RegionSeg (pcfgs (F := F)) adm (pdats m) () defs₀ 𝒱₀ Lz lvz 13 where
  win := launch13.win.to₀
  block_pos := launch13.block_pos
  stage_whole := launch13.stage_whole
  K := PEmpty
  osem k := k.elim
  ho := Pipeline.OwnSemFacts.none _
  hbody c := (R13.body_obligation (rd (U28 m (leaves F))) c).loose
  hwaits := Pipeline.hwaits_of_owed_zero _ _ _ _ Lz lvz 13 fun _ _ => rfl
  pre c := iprop(StableHlo.held (c : Thread nD τ) (Pipeline.ucRefs τ sig) (U28 m (leaves F) c) ∗ Rr c)
  post c := iprop(StableHlo.held (c : Thread nD τ) (Pipeline.ucRefs τ sig) (U29 m (leaves F) c) ∗ Rr c)
  X c := iprop(emp)
  Y c := iprop(emp)
  Z c := iprop(Pipeline.unscopedRest (Ix := Unit) (Name := ℕ) (U := UR sig nD τ) (Lvl := ℕ) spec13 c (rd (U28 m (leaves F)) c) ∗ ∃ r, prngReg c r)
  hentry c := by
    rw [Pipeline.ownSems0_none]
    have hsplit := Pipeline.arrays_of_unscopedBufs (p := 13) (pcfgs (F := F)) adm (pdats m) launch13.win launch13.arr_whole c
      ((pdats m 13 c).share_full fun _ => rfl) (rd (U28 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 13 c).Φ 0 = Pipeline.scopedRest (Ix := Unit) (Name := ℕ) (U := UR sig nD τ) (Lvl := ℕ) (Val := Elt F) spec13 c from rfl]
    iintro ⟨-, -, Hr⟩
    iexact Hr
  hout c := by
    rw [Pipeline.ownSems0_none]
    iintro H
    isplitr; · iempintro
    isplitr; · iempintro
    iapply (hout13 m c); iexact H
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (rd (U28 m (leaves F)) c) (rd (U29 m (leaves F)) c) ((pdats m 13 c).arrAt · cfg13.N) (hF13 m c) (hrest13 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Asm

end
-- ==== Proof.RunAll.lean ====
/-
  The whole program's run from its fourteen launches' records: every weakly fair execution terminates, faults nowhere,
  ends with each result buffer at the last contents of the chain of buffer contents between the items, and with each
  argument array as launched. The items' thread states chain because each record is entered from, and left at,
  the chain's contents; the generator register and the (empty) debts ride beside the buffers from item to item.
-/
import proofs.«155206_j89000312308227_2_alg».proof.Proof.RunCond
import proofs.«155206_j89000312308227_2_alg».proof.Proof.Seg0
import proofs.«155206_j89000312308227_2_alg».proof.Proof.Seg1
import proofs.«155206_j89000312308227_2_alg».proof.Proof.Seg2
import proofs.«155206_j89000312308227_2_alg».proof.Proof.Seg3
import proofs.«155206_j89000312308227_2_alg».proof.Proof.Seg4
import proofs.«155206_j89000312308227_2_alg».proof.Proof.Seg5
import proofs.«155206_j89000312308227_2_alg».proof.Proof.Seg6
import proofs.«155206_j89000312308227_2_alg».proof.Proof.Seg7
import proofs.«155206_j89000312308227_2_alg».proof.Proof.Seg8
import proofs.«155206_j89000312308227_2_alg».proof.Proof.Seg9
import proofs.«155206_j89000312308227_2_alg».proof.Proof.Seg10
import proofs.«155206_j89000312308227_2_alg».proof.Proof.Seg11
import proofs.«155206_j89000312308227_2_alg».proof.Proof.Seg12
import proofs.«155206_j89000312308227_2_alg».proof.Proof.Seg13

set_option maxRecDepth 16384

noncomputable section

namespace Cert.KernelIdeal.Asm

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch leaves beside the buffers on every core — the unscoped semaphores at zero, no debts, the launch credit,
    the generator register as seeded — gives, core by core, the generator register at some state and no debts. -/
theorem launch_rest_core (c : Dev nD) :
    iprop(unscopedSems0 c ∗ owes (c : Thread nD τ) (0 : CellTallies nD τ sig Unit) ∅
        ∗ Pipeline.launchCred (fun _ => (0 : CellTallies nD τ sig Unit)) c ∗ prngReg c (ρ c) ∗ (iprop(emp) : sProp 𝕄))
      ⊢ (Rr c : sProp 𝕄) := by
  iintro ⟨-, HO, -, Hp, -⟩
  isplitl [Hp]; · iexists _; iexact Hp
  iexists ∅; iexact HO

/-- The same on every core at once. -/
theorem launch_rest :
    (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (iprop(emp) : sProp 𝕄)))
      ⊢ (bigSep Finset.univ (fun c : Dev nD => Rr c) : sProp 𝕄) :=
  bigSep_mono fun c _ => launch_rest_core ρ c

set_option backward.isDefEq.respectTransparency.types false in
set_option maxHeartbeats 1600000 in
theorem run_all : θ_run defs (onTc (τ := τ) (main (F := F))) ⟨m, fun _ => 0, ρ⟩ (fun r => ∀ c : Dev nD,
      r.2.mem ((c.tc : Thread nD τ).loc main_v105) = U32 m (leaves F) c main_v105
      ∧ r.2.mem ((c.tc : Thread nD τ).loc main_v106) = U32 m (leaves F) c main_v106
      ∧ r.2.mem ((c.tc : Thread nD τ).loc main_arg0) = U32 m (leaves F) c main_arg0
      ∧ r.2.mem ((c.tc : Thread nD τ).loc main_v15) = U32 m (leaves F) c main_v15
      ∧ r.2.mem ((c.tc : Thread nD τ).loc main_v27) = U32 m (leaves F) c main_v27
      ∧ r.2.mem ((c.tc : Thread nD τ).loc main_v3) = U32 m (leaves F) c main_v3
      ∧ r.2.mem ((c.tc : Thread nD τ).loc main_v51) = U32 m (leaves F) c main_v51
      ∧ r.2.mem ((c.tc : Thread nD τ).loc main_v63) = U32 m (leaves F) c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  have h := RunCond.run_cond m (emb₁ : Emb (UR sig nD τ) 𝕄) () 𝒱₀ Lz lvz (fun _ _ => rfl) ρ (outs m (leaves F)) (pdats m)
      (O₀ := fun _ => 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rr c)
      (hE0 := by
        iintro ⟨H, -⟩
        imodintro
        iapply (launch_rest ρ)
        iexact H)
      (hE14 := fun c => by
        iintro ⟨-, H⟩
        iexact H)
      (reg0 m) (fun c => by rw [V1_eq m c]; exact .rfl) (fun c => by rw [V2_eq m (leaves F) c]; exact .rfl)
      (reg1 m) (fun c => by rw [V3_eq m (leaves F) c]; exact .rfl) (fun c => by rw [V4_eq m (leaves F) c]; exact .rfl)
      (reg2 m) (fun c => by rw [V5_eq m (leaves F) c]; exact .rfl) (fun c => by rw [V6_eq m (leaves F) c]; exact .rfl)
      (reg3 m) (fun c => by rw [V7_eq m (leaves F) c]; exact .rfl) (fun c => by rw [V8_eq m (leaves F) c]; exact .rfl)
      (reg4 m) (fun c => by rw [V9_eq m (leaves F) c]; exact .rfl) (fun c => by rw [V10_eq m (leaves F) c]; exact .rfl)
      (reg5 m) (fun c => by rw [V11_eq m (leaves F) c]; exact .rfl) (fun c => by rw [V12_eq m (leaves F) c]; exact .rfl)
      (reg6 m) (fun c => by rw [V13_eq m (leaves F) c]; exact .rfl) (fun c => by rw [V14_eq m (leaves F) c]; exact .rfl)
      (reg7 m) (fun c => by rw [V15_eq m (leaves F) c]; exact .rfl) (fun c => by rw [V16_eq m (leaves F) c]; exact .rfl)
      (reg8 m) (fun c => by rw [V17_eq m (leaves F) c]; exact .rfl) (fun c => by rw [V18_eq m (leaves F) c]; exact .rfl)
      (reg9 m) (fun c => by rw [V19_eq m (leaves F) c]; exact .rfl) (fun c => by rw [V20_eq m (leaves F) c]; exact .rfl)
      (reg10 m) (fun c => by rw [V21_eq m (leaves F) c]; exact .rfl) (fun c => by rw [V22_eq m (leaves F) c]; exact .rfl)
      (reg11 m) (fun c => by rw [V23_eq m (leaves F) c]; exact .rfl) (fun c => by rw [V24_eq m (leaves F) c]; exact .rfl)
      (reg12 m) (fun c => by rw [V25_eq m (leaves F) c]; exact .rfl) (fun c => by rw [V26_eq m (leaves F) c]; exact .rfl)
      (reg13 m) (fun c => by rw [V28_eq m (leaves F) c]; exact .rfl) (fun c => by rw [V29_eq m (leaves F) c]; exact .rfl)
  refine (θ_run defs _ _).mono (fun r hr c => ?_) h
  have hc := hr c
  rw [V32_eq m (leaves F) c] at hc
  exact hc

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2.2.2.2.2.2.2.2) (run_all m ρ)

end Cert.KernelIdeal.Asm

end
-- ==== Proof.KChain.lean ====
/-
  The contents of the program's buffers between its items. The program is a line of thirty-two items: stretches of
  host operations and the fourteen launches. After a host stretch every buffer holds what the stretch's operations
  compute from the contents before it; after launch k every buffer holds what it held before, except the launch's output
  array, which holds what the launch leaves there — a function `L.vk` of the contents the launch was entered from. Those
  functions are a parameter here: the chain is the same whatever the launches compute.
-/
import proofs.«155206_j89000312308227_2_alg».proof.Proof.Gen.Kernel
import proofs.«155206_j89000312308227_2_alg».proof.Proof.Gen.Kernel.Launch
import proofs.«155206_j89000312308227_2_alg».proof.Proof.Gen.Kernel.Regions

set_option maxRecDepth 16384

noncomputable section

namespace Cert.Kernel.Chain

open Cert.Kernel Cert.Kernel.Gen
open Idealize.ShloMosaic Idealize.ShloMosaic.TcCoe
open Idealize.SL Idealize.SL.Sem

variable {F : FTy → Type} [FloatOps F]

/-- A core-indexed family of buffer contents read at the TensorCore's references: what a launch's proof data take. -/
abbrev rd (U : Dev nD → Valuation τ sig (Elt F)) : (c : Dev nD) → (b : Ref sig .tc) → Buf (Elt F) ((c : Thread nD τ).loc b) := fun c b => U c b

/-- What a launch leaves in its output array `r`, from the contents it is entered from. -/
abbrev Leaves (F : FTy → Type) [FloatOps F] (r : Ref sig .tc) : Type :=
  ((c : Dev nD) → (b : Ref sig .tc) → Buf (Elt F) ((c : Thread nD τ).loc b)) → (c : Dev nD) → Buf (Elt F) ((c : Thread nD τ).loc r)

/-- What each of the fourteen launches leaves in its output array. -/
structure LeavesAll (F : FTy → Type) [FloatOps F] where
  v0 : Leaves F main_v3
  v1 : Leaves F main_v9
  v2 : Leaves F main_v15
  v3 : Leaves F main_v21
  v4 : Leaves F main_v27
  v5 : Leaves F main_v33
  v6 : Leaves F main_v39
  v7 : Leaves F main_v45
  v8 : Leaves F main_v51
  v9 : Leaves F main_v57
  v10 : Leaves F main_v63
  v11 : Leaves F main_v69
  v12 : Leaves F main_v75
  v13 : Leaves F main_v97

variable (m : (ℓ : Loc nD τ sig) → Buf (Elt F) ℓ) (L : LeavesAll F)

/-- At launch. -/
def U0 (c : Dev nD) : Valuation τ sig (Elt F) := fun b => m (c, b)
/-- After item 0, the host stretch `hostOps0`. -/
def U1 (c : Dev nD) : Valuation τ sig (Elt F) := StableHlo.after hostOps0 (U0 m c)
/-- After item 1, launch 0: its output array `main_v3` at what the launch leaves. -/
def U2 (c : Dev nD) : Valuation τ sig (Elt F) := Function.update (U1 m c) main_v3 (L.v0 (rd (U1 m)) c)
/-- After item 2, the host stretch `hostOps1`. -/
def U3 (c : Dev nD) : Valuation τ sig (Elt F) := StableHlo.after hostOps1 (U2 m L c)
/-- After item 3, launch 1: its output array `main_v9` at what the launch leaves. -/
def U4 (c : Dev nD) : Valuation τ sig (Elt F) := Function.update (U3 m L c) main_v9 (L.v1 (rd (U3 m L)) c)
/-- After item 4, the host stretch `hostOps2`. -/
def U5 (c : Dev nD) : Valuation τ sig (Elt F) := StableHlo.after hostOps2 (U4 m L c)
/-- After item 5, launch 2: its output array `main_v15` at what the launch leaves. -/
def U6 (c : Dev nD) : Valuation τ sig (Elt F) := Function.update (U5 m L c) main_v15 (L.v2 (rd (U5 m L)) c)
/-- After item 6, the host stretch `hostOps3`. -/
def U7 (c : Dev nD) : Valuation τ sig (Elt F) := StableHlo.after hostOps3 (U6 m L c)
/-- After item 7, launch 3: its output array `main_v21` at what the launch leaves. -/
def U8 (c : Dev nD) : Valuation τ sig (Elt F) := Function.update (U7 m L c) main_v21 (L.v3 (rd (U7 m L)) c)
/-- After item 8, the host stretch `hostOps4`. -/
def U9 (c : Dev nD) : Valuation τ sig (Elt F) := StableHlo.after hostOps4 (U8 m L c)
/-- After item 9, launch 4: its output array `main_v27` at what the launch leaves. -/
def U10 (c : Dev nD) : Valuation τ sig (Elt F) := Function.update (U9 m L c) main_v27 (L.v4 (rd (U9 m L)) c)
/-- After item 10, the host stretch `hostOps5`. -/
def U11 (c : Dev nD) : Valuation τ sig (Elt F) := StableHlo.after hostOps5 (U10 m L c)
/-- After item 11, launch 5: its output array `main_v33` at what the launch leaves. -/
def U12 (c : Dev nD) : Valuation τ sig (Elt F) := Function.update (U11 m L c) main_v33 (L.v5 (rd (U11 m L)) c)
/-- After item 12, the host stretch `hostOps6`. -/
def U13 (c : Dev nD) : Valuation τ sig (Elt F) := StableHlo.after hostOps6 (U12 m L c)
/-- After item 13, launch 6: its output array `main_v39` at what the launch leaves. -/
def U14 (c : Dev nD) : Valuation τ sig (Elt F) := Function.update (U13 m L c) main_v39 (L.v6 (rd (U13 m L)) c)
/-- After item 14, the host stretch `hostOps7`. -/
def U15 (c : Dev nD) : Valuation τ sig (Elt F) := StableHlo.after hostOps7 (U14 m L c)
/-- After item 15, launch 7: its output array `main_v45` at what the launch leaves. -/
def U16 (c : Dev nD) : Valuation τ sig (Elt F) := Function.update (U15 m L c) main_v45 (L.v7 (rd (U15 m L)) c)
/-- After item 16, the host stretch `hostOps8`. -/
def U17 (c : Dev nD) : Valuation τ sig (Elt F) := StableHlo.after hostOps8 (U16 m L c)
/-- After item 17, launch 8: its output array `main_v51` at what the launch leaves. -/
def U18 (c : Dev nD) : Valuation τ sig (Elt F) := Function.update (U17 m L c) main_v51 (L.v8 (rd (U17 m L)) c)
/-- After item 18, the host stretch `hostOps9`. -/
def U19 (c : Dev nD) : Valuation τ sig (Elt F) := StableHlo.after hostOps9 (U18 m L c)
/-- After item 19, launch 9: its output array `main_v57` at what the launch leaves. -/
def U20 (c : Dev nD) : Valuation τ sig (Elt F) := Function.update (U19 m L c) main_v57 (L.v9 (rd (U19 m L)) c)
/-- After item 20, the host stretch `hostOps10`. -/
def U21 (c : Dev nD) : Valuation τ sig (Elt F) := StableHlo.after hostOps10 (U20 m L c)
/-- After item 21, launch 10: its output array `main_v63` at what the launch leaves. -/
def U22 (c : Dev nD) : Valuation τ sig (Elt F) := Function.update (U21 m L c) main_v63 (L.v10 (rd (U21 m L)) c)
/-- After item 22, the host stretch `hostOps11`. -/
def U23 (c : Dev nD) : Valuation τ sig (Elt F) := StableHlo.after hostOps11 (U22 m L c)
/-- After item 23, launch 11: its output array `main_v69` at what the launch leaves. -/
def U24 (c : Dev nD) : Valuation τ sig (Elt F) := Function.update (U23 m L c) main_v69 (L.v11 (rd (U23 m L)) c)
/-- After item 24, the host stretch `hostOps12`. -/
def U25 (c : Dev nD) : Valuation τ sig (Elt F) := StableHlo.after hostOps12 (U24 m L c)
/-- After item 25, launch 12: its output array `main_v75` at what the launch leaves. -/
def U26 (c : Dev nD) : Valuation τ sig (Elt F) := Function.update (U25 m L c) main_v75 (L.v12 (rd (U25 m L)) c)
/-- After item 26, the host stretch `hostOps13`. -/
def U27 (c : Dev nD) : Valuation τ sig (Elt F) := StableHlo.after hostOps13 (U26 m L c)
/-- After item 27, the host stretch `hostOps13_1`. -/
def U28 (c : Dev nD) : Valuation τ sig (Elt F) := StableHlo.after hostOps13_1 (U27 m L c)
/-- After item 28, launch 13: its output array `main_v97` at what the launch leaves. -/
def U29 (c : Dev nD) : Valuation τ sig (Elt F) := Function.update (U28 m L c) main_v97 (L.v13 (rd (U28 m L)) c)
/-- After item 29, the host stretch `hostOps14`. -/
def U30 (c : Dev nD) : Valuation τ sig (Elt F) := StableHlo.after hostOps14 (U29 m L c)
/-- After item 30, the host stretch `hostOps14_1`. -/
def U31 (c : Dev nD) : Valuation τ sig (Elt F) := StableHlo.after hostOps14_1 (U30 m L c)
/-- After item 31, the host stretch `hostOps14_2`. -/
def U32 (c : Dev nD) : Valuation τ sig (Elt F) := StableHlo.after hostOps14_2 (U31 m L c)

/-- The contents the launches leave, as the program's conditional frame asks for them: after item J − 1, buffer by buffer. -/
def outs : Outs (F := F) := fun J r c =>
  match J with
  | 2 => U2 m L c r
  | 4 => U4 m L c r
  | 6 => U6 m L c r
  | 8 => U8 m L c r
  | 10 => U10 m L c r
  | 12 => U12 m L c r
  | 14 => U14 m L c r
  | 16 => U16 m L c r
  | 18 => U18 m L c r
  | 20 => U20 m L c r
  | 22 => U22 m L c r
  | 24 => U24 m L c r
  | 26 => U26 m L c r
  | 29 => U29 m L c r
  | _ => U32 m L c r

theorem V1_eq (c : Dev nD) : V1 m c = U1 m c := rfl
theorem V2_eq (c : Dev nD) : V2 m (outs m L) c = U2 m L c := by
  show Function.update (V1 m c) main_v3 (U2 m L c main_v3) = _
  rw [V1_eq]; unfold U2; rw [Function.update_self]
theorem V3_eq (c : Dev nD) : V3 m (outs m L) c = U3 m L c := by
  show StableHlo.after hostOps1 (V2 m (outs m L) c) = _
  rw [V2_eq]; rfl
theorem V4_eq (c : Dev nD) : V4 m (outs m L) c = U4 m L c := by
  show Function.update (V3 m (outs m L) c) main_v9 (U4 m L c main_v9) = _
  rw [V3_eq]; unfold U4; rw [Function.update_self]
theorem V5_eq (c : Dev nD) : V5 m (outs m L) c = U5 m L c := by
  show StableHlo.after hostOps2 (V4 m (outs m L) c) = _
  rw [V4_eq]; rfl
theorem V6_eq (c : Dev nD) : V6 m (outs m L) c = U6 m L c := by
  show Function.update (V5 m (outs m L) c) main_v15 (U6 m L c main_v15) = _
  rw [V5_eq]; unfold U6; rw [Function.update_self]
theorem V7_eq (c : Dev nD) : V7 m (outs m L) c = U7 m L c := by
  show StableHlo.after hostOps3 (V6 m (outs m L) c) = _
  rw [V6_eq]; rfl
theorem V8_eq (c : Dev nD) : V8 m (outs m L) c = U8 m L c := by
  show Function.update (V7 m (outs m L) c) main_v21 (U8 m L c main_v21) = _
  rw [V7_eq]; unfold U8; rw [Function.update_self]
theorem V9_eq (c : Dev nD) : V9 m (outs m L) c = U9 m L c := by
  show StableHlo.after hostOps4 (V8 m (outs m L) c) = _
  rw [V8_eq]; rfl
theorem V10_eq (c : Dev nD) : V10 m (outs m L) c = U10 m L c := by
  show Function.update (V9 m (outs m L) c) main_v27 (U10 m L c main_v27) = _
  rw [V9_eq]; unfold U10; rw [Function.update_self]
theorem V11_eq (c : Dev nD) : V11 m (outs m L) c = U11 m L c := by
  show StableHlo.after hostOps5 (V10 m (outs m L) c) = _
  rw [V10_eq]; rfl
theorem V12_eq (c : Dev nD) : V12 m (outs m L) c = U12 m L c := by
  show Function.update (V11 m (outs m L) c) main_v33 (U12 m L c main_v33) = _
  rw [V11_eq]; unfold U12; rw [Function.update_self]
theorem V13_eq (c : Dev nD) : V13 m (outs m L) c = U13 m L c := by
  show StableHlo.after hostOps6 (V12 m (outs m L) c) = _
  rw [V12_eq]; rfl
theorem V14_eq (c : Dev nD) : V14 m (outs m L) c = U14 m L c := by
  show Function.update (V13 m (outs m L) c) main_v39 (U14 m L c main_v39) = _
  rw [V13_eq]; unfold U14; rw [Function.update_self]
theorem V15_eq (c : Dev nD) : V15 m (outs m L) c = U15 m L c := by
  show StableHlo.after hostOps7 (V14 m (outs m L) c) = _
  rw [V14_eq]; rfl
theorem V16_eq (c : Dev nD) : V16 m (outs m L) c = U16 m L c := by
  show Function.update (V15 m (outs m L) c) main_v45 (U16 m L c main_v45) = _
  rw [V15_eq]; unfold U16; rw [Function.update_self]
theorem V17_eq (c : Dev nD) : V17 m (outs m L) c = U17 m L c := by
  show StableHlo.after hostOps8 (V16 m (outs m L) c) = _
  rw [V16_eq]; rfl
theorem V18_eq (c : Dev nD) : V18 m (outs m L) c = U18 m L c := by
  show Function.update (V17 m (outs m L) c) main_v51 (U18 m L c main_v51) = _
  rw [V17_eq]; unfold U18; rw [Function.update_self]
theorem V19_eq (c : Dev nD) : V19 m (outs m L) c = U19 m L c := by
  show StableHlo.after hostOps9 (V18 m (outs m L) c) = _
  rw [V18_eq]; rfl
theorem V20_eq (c : Dev nD) : V20 m (outs m L) c = U20 m L c := by
  show Function.update (V19 m (outs m L) c) main_v57 (U20 m L c main_v57) = _
  rw [V19_eq]; unfold U20; rw [Function.update_self]
theorem V21_eq (c : Dev nD) : V21 m (outs m L) c = U21 m L c := by
  show StableHlo.after hostOps10 (V20 m (outs m L) c) = _
  rw [V20_eq]; rfl
theorem V22_eq (c : Dev nD) : V22 m (outs m L) c = U22 m L c := by
  show Function.update (V21 m (outs m L) c) main_v63 (U22 m L c main_v63) = _
  rw [V21_eq]; unfold U22; rw [Function.update_self]
theorem V23_eq (c : Dev nD) : V23 m (outs m L) c = U23 m L c := by
  show StableHlo.after hostOps11 (V22 m (outs m L) c) = _
  rw [V22_eq]; rfl
theorem V24_eq (c : Dev nD) : V24 m (outs m L) c = U24 m L c := by
  show Function.update (V23 m (outs m L) c) main_v69 (U24 m L c main_v69) = _
  rw [V23_eq]; unfold U24; rw [Function.update_self]
theorem V25_eq (c : Dev nD) : V25 m (outs m L) c = U25 m L c := by
  show StableHlo.after hostOps12 (V24 m (outs m L) c) = _
  rw [V24_eq]; rfl
theorem V26_eq (c : Dev nD) : V26 m (outs m L) c = U26 m L c := by
  show Function.update (V25 m (outs m L) c) main_v75 (U26 m L c main_v75) = _
  rw [V25_eq]; unfold U26; rw [Function.update_self]
theorem V27_eq (c : Dev nD) : V27 m (outs m L) c = U27 m L c := by
  show StableHlo.after hostOps13 (V26 m (outs m L) c) = _
  rw [V26_eq]; rfl
theorem V28_eq (c : Dev nD) : V28 m (outs m L) c = U28 m L c := by
  show StableHlo.after hostOps13_1 (V27 m (outs m L) c) = _
  rw [V27_eq]; rfl
theorem V29_eq (c : Dev nD) : V29 m (outs m L) c = U29 m L c := by
  show Function.update (V28 m (outs m L) c) main_v97 (U29 m L c main_v97) = _
  rw [V28_eq]; unfold U29; rw [Function.update_self]
theorem V30_eq (c : Dev nD) : V30 m (outs m L) c = U30 m L c := by
  show StableHlo.after hostOps14 (V29 m (outs m L) c) = _
  rw [V29_eq]; rfl
theorem V31_eq (c : Dev nD) : V31 m (outs m L) c = U31 m L c := by
  show StableHlo.after hostOps14_1 (V30 m (outs m L) c) = _
  rw [V30_eq]; rfl
theorem V32_eq (c : Dev nD) : V32 m (outs m L) c = U32 m L c := by
  show StableHlo.after hostOps14_2 (V31 m (outs m L) c) = _
  rw [V31_eq]; rfl
/-- After launch 0 its output array holds what the launch leaves. -/
theorem U2_out (c : Dev nD) : U2 m L c main_v3 = L.v0 (rd (U1 m)) c := by
  unfold U2; rw [Function.update_self]
/-- Launch 0 changes no other buffer. -/
theorem U2_of_ne (c : Dev nD) (b : Ref sig .tc) (hb : b ≠ main_v3) : U2 m L c b = U1 m c b := by
  unfold U2; exact Function.update_of_ne (StableHlo.devRef_ne_of_ne hb) _ _
/-- After launch 1 its output array holds what the launch leaves. -/
theorem U4_out (c : Dev nD) : U4 m L c main_v9 = L.v1 (rd (U3 m L)) c := by
  unfold U4; rw [Function.update_self]
/-- Launch 1 changes no other buffer. -/
theorem U4_of_ne (c : Dev nD) (b : Ref sig .tc) (hb : b ≠ main_v9) : U4 m L c b = U3 m L c b := by
  unfold U4; exact Function.update_of_ne (StableHlo.devRef_ne_of_ne hb) _ _
/-- After launch 2 its output array holds what the launch leaves. -/
theorem U6_out (c : Dev nD) : U6 m L c main_v15 = L.v2 (rd (U5 m L)) c := by
  unfold U6; rw [Function.update_self]
/-- Launch 2 changes no other buffer. -/
theorem U6_of_ne (c : Dev nD) (b : Ref sig .tc) (hb : b ≠ main_v15) : U6 m L c b = U5 m L c b := by
  unfold U6; exact Function.update_of_ne (StableHlo.devRef_ne_of_ne hb) _ _
/-- After launch 3 its output array holds what the launch leaves. -/
theorem U8_out (c : Dev nD) : U8 m L c main_v21 = L.v3 (rd (U7 m L)) c := by
  unfold U8; rw [Function.update_self]
/-- Launch 3 changes no other buffer. -/
theorem U8_of_ne (c : Dev nD) (b : Ref sig .tc) (hb : b ≠ main_v21) : U8 m L c b = U7 m L c b := by
  unfold U8; exact Function.update_of_ne (StableHlo.devRef_ne_of_ne hb) _ _
/-- After launch 4 its output array holds what the launch leaves. -/
theorem U10_out (c : Dev nD) : U10 m L c main_v27 = L.v4 (rd (U9 m L)) c := by
  unfold U10; rw [Function.update_self]
/-- Launch 4 changes no other buffer. -/
theorem U10_of_ne (c : Dev nD) (b : Ref sig .tc) (hb : b ≠ main_v27) : U10 m L c b = U9 m L c b := by
  unfold U10; exact Function.update_of_ne (StableHlo.devRef_ne_of_ne hb) _ _
/-- After launch 5 its output array holds what the launch leaves. -/
theorem U12_out (c : Dev nD) : U12 m L c main_v33 = L.v5 (rd (U11 m L)) c := by
  unfold U12; rw [Function.update_self]
/-- Launch 5 changes no other buffer. -/
theorem U12_of_ne (c : Dev nD) (b : Ref sig .tc) (hb : b ≠ main_v33) : U12 m L c b = U11 m L c b := by
  unfold U12; exact Function.update_of_ne (StableHlo.devRef_ne_of_ne hb) _ _
/-- After launch 6 its output array holds what the launch leaves. -/
theorem U14_out (c : Dev nD) : U14 m L c main_v39 = L.v6 (rd (U13 m L)) c := by
  unfold U14; rw [Function.update_self]
/-- Launch 6 changes no other buffer. -/
theorem U14_of_ne (c : Dev nD) (b : Ref sig .tc) (hb : b ≠ main_v39) : U14 m L c b = U13 m L c b := by
  unfold U14; exact Function.update_of_ne (StableHlo.devRef_ne_of_ne hb) _ _
/-- After launch 7 its output array holds what the launch leaves. -/
theorem U16_out (c : Dev nD) : U16 m L c main_v45 = L.v7 (rd (U15 m L)) c := by
  unfold U16; rw [Function.update_self]
/-- Launch 7 changes no other buffer. -/
theorem U16_of_ne (c : Dev nD) (b : Ref sig .tc) (hb : b ≠ main_v45) : U16 m L c b = U15 m L c b := by
  unfold U16; exact Function.update_of_ne (StableHlo.devRef_ne_of_ne hb) _ _
/-- After launch 8 its output array holds what the launch leaves. -/
theorem U18_out (c : Dev nD) : U18 m L c main_v51 = L.v8 (rd (U17 m L)) c := by
  unfold U18; rw [Function.update_self]
/-- Launch 8 changes no other buffer. -/
theorem U18_of_ne (c : Dev nD) (b : Ref sig .tc) (hb : b ≠ main_v51) : U18 m L c b = U17 m L c b := by
  unfold U18; exact Function.update_of_ne (StableHlo.devRef_ne_of_ne hb) _ _
/-- After launch 9 its output array holds what the launch leaves. -/
theorem U20_out (c : Dev nD) : U20 m L c main_v57 = L.v9 (rd (U19 m L)) c := by
  unfold U20; rw [Function.update_self]
/-- Launch 9 changes no other buffer. -/
theorem U20_of_ne (c : Dev nD) (b : Ref sig .tc) (hb : b ≠ main_v57) : U20 m L c b = U19 m L c b := by
  unfold U20; exact Function.update_of_ne (StableHlo.devRef_ne_of_ne hb) _ _
/-- After launch 10 its output array holds what the launch leaves. -/
theorem U22_out (c : Dev nD) : U22 m L c main_v63 = L.v10 (rd (U21 m L)) c := by
  unfold U22; rw [Function.update_self]
/-- Launch 10 changes no other buffer. -/
theorem U22_of_ne (c : Dev nD) (b : Ref sig .tc) (hb : b ≠ main_v63) : U22 m L c b = U21 m L c b := by
  unfold U22; exact Function.update_of_ne (StableHlo.devRef_ne_of_ne hb) _ _
/-- After launch 11 its output array holds what the launch leaves. -/
theorem U24_out (c : Dev nD) : U24 m L c main_v69 = L.v11 (rd (U23 m L)) c := by
  unfold U24; rw [Function.update_self]
/-- Launch 11 changes no other buffer. -/
theorem U24_of_ne (c : Dev nD) (b : Ref sig .tc) (hb : b ≠ main_v69) : U24 m L c b = U23 m L c b := by
  unfold U24; exact Function.update_of_ne (StableHlo.devRef_ne_of_ne hb) _ _
/-- After launch 12 its output array holds what the launch leaves. -/
theorem U26_out (c : Dev nD) : U26 m L c main_v75 = L.v12 (rd (U25 m L)) c := by
  unfold U26; rw [Function.update_self]
/-- Launch 12 changes no other buffer. -/
theorem U26_of_ne (c : Dev nD) (b : Ref sig .tc) (hb : b ≠ main_v75) : U26 m L c b = U25 m L c b := by
  unfold U26; exact Function.update_of_ne (StableHlo.devRef_ne_of_ne hb) _ _
/-- After launch 13 its output array holds what the launch leaves. -/
theorem U29_out (c : Dev nD) : U29 m L c main_v97 = L.v13 (rd (U28 m L)) c := by
  unfold U29; rw [Function.update_self]
/-- Launch 13 changes no other buffer. -/
theorem U29_of_ne (c : Dev nD) (b : Ref sig .tc) (hb : b ≠ main_v97) : U29 m L c b = U28 m L c b := by
  unfold U29; exact Function.update_of_ne (StableHlo.devRef_ne_of_ne hb) _ _

end Cert.Kernel.Chain

end
-- ==== Proof.KR0Runs.lean ====
/-
  The first launch (one third of the transposed adjacency matrix times the vertex features), one grid point at a
  time. The grid is 12 row blocks by 6 contraction blocks; the body at (m, k) does one of three things, decided by k alone:
    k = 0       the accumulator is set to zero, then the product of the (k, m) tile, contracted over its first
                axis, with rows [1024 k, 1024 k + 1024) of the features is added to it; the output block is not touched;
    0 < k < 5   the product is added to what the point before left in the accumulator; the output block is not touched;
    k = 5       the same, and then the accumulator times one third is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid0.Coords) : Prop := (Scalar.cmpi .ne (Scalar.extui (Scalar.cmpi .eq (BitVec.ofNat 32 (i 1).val) 0#32)) 0#32) = 1#1
/-- The output block is written at this point: the contraction coordinate is 5, the last. -/
abbrev isLast (i : grid0.Coords) : Prop := k0_cond2 i = 1#1

/-- The points whose contraction coordinate is 0 are those ≡ 0 (mod 6): decided over the 72 points. -/
theorem isFirst_iff : ∀ t : Fin cfg0.N, isFirst (grid0.coords t) ↔ t.val % 6 = 0 :=
  (by decide +kernel : ∀ t : Fin grid0.N, isFirst (grid0.coords t) ↔ t.val % 6 = 0)
/-- The points whose contraction coordinate is 5 are those ≡ 5 (mod 6). -/
theorem isLast_iff : ∀ t : Fin cfg0.N, isLast (grid0.coords t) ↔ t.val % 6 = 5 :=
  (by decide +kernel : ∀ t : Fin grid0.N, isLast (grid0.coords t) ↔ t.val % 6 = 5)

/-! ## The body, case by case -/

set_option maxHeartbeats 1000000 in
/-- k = 0. The tile and the features are read and left as they are, the output block is handed back untouched, and
    the accumulator — at anything before — ends with two stores over its whole block: the zero block, then zero plus
    the tile's product. -/
noncomputable def runFirst (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole) (hc0 : isFirst i) (hc1 : ¬isLast i)
    (x0 : Vec F S1024x1024 .bf16) (x1 : Vec F S6144x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 5. The tile and the features are read and left as they are, the output block is handed back untouched, and
    the accumulator, at what the point before left in it (`xs0`), ends with one store over its whole block: `xs0` plus
    the tile's product. -/
noncomputable def runMiddle (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : ¬isLast i)
    (x0 : Vec F S1024x1024 .bf16) (x1 : Vec F S6144x256 .f32) (xs0 : Vec F S1024x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 5. As in the middle for the accumulator; and the output block — at anything before — ends with one store over
    its whole block: the accumulator's new contents times one third. -/
noncomputable def runLast (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : isLast i)
    (x0 : Vec F S1024x1024 .bf16) (x1 : Vec F S6144x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.R0

end
-- ==== Proof.KR0Acc.lean ====
/-
  The first launch, point after point: what the accumulator and the output block hold after the body at each of
  the 72 grid points. The accumulator is the kernel's own scratch buffer and is not touched between two points, so after
  point n it holds what the case of n stored, computed from what point n - 1 left (or from nothing, when n opens a new row
  block: its contraction coordinate is 0). The output block is only written at the last contraction coordinate; at the
  other points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR0Runs
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The two input windows are never idle. -/
theorem live_tile : ∀ t : Fin cfg0.N, cfg0.idle 0 (grid0.coords t) = false := by decide +kernel
theorem live_feat : ∀ t : Fin cfg0.N, cfg0.idle 1 (grid0.coords t) = false := by decide +kernel
/-- Away from the last contraction coordinate the output window is idle, and its block is not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
/-- At the last contraction coordinate it is live. -/
theorem live_out : ∀ t : Fin cfg0.N, isLast (grid0.coords t) → cfg0.idle 2 (grid0.coords t) = false := by decide +kernel

/-! ## The memrefs the body is called with -/

/-- One staging buffer of the output window, through which its contents are stated (the choice does not matter). -/
abbrev VO : View sig .tc .vmem S1024x256 .f32 := (Memref.whole cc0_stg2_0 : Memref sig .tc .vmem S1024x256 .f32).view
/-- Each window's current staging memref at point `t`, spelled as the pipeline passes it, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S6144x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
/-- The accumulator: the kernel's own whole scoped buffer. -/
abbrev accM : Memref sig .tc .vmem S1024x256 .f32 := Memref.whole cc0_scratch0
abbrev VS : View sig .tc .vmem S1024x256 .f32 := accM.view

/-! ## What each case leaves -/

section
variable (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (y : S1024x256.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x256.size (by sl_kernel_rfl) y
/-- What the case k = 0 leaves in the accumulator. -/
def accFirst (hc0 : isFirst i) (hc1 : ¬isLast i) (x0 : Vec F S1024x1024 .bf16) (x1 : Vec F S6144x256 .f32) : Vec F S1024x256 .f32 :=
  VS.read (Elt F) (VS.writes (Elt F) VS.junk (runFirst c i arg2 harg2 arg3 harg3 arg4 harg4 arg5 harg5 hc0 hc1 x0 x1).1)

/-- 0 < k < 5: the accumulator's one store covers its whole block. -/
theorem cover_accMiddle (hc0 : ¬isFirst i) (hc1 : ¬isLast i) (x0 : Vec F S1024x1024 .bf16) (x1 : Vec F S6144x256 .f32) (xs0 : Vec F S1024x256 .f32) (y : S1024x256.Idx) :
    ∃ pc ∈ (runMiddle c i arg2 harg2 arg3 harg3 arg4 harg4 arg5 harg5 hc0 hc1 x0 x1 xs0).1, y ∈ pc.1.set :=
  View.cover_of_tiledL (runMiddle c i arg2 harg2 arg3 harg3 arg4 harg4 arg5 harg5 hc0 hc1 x0 x1 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (xs0 : Vec F S1024x256 .f32) : Vec F S1024x256 .f32 :=
  VS.read (Elt F) (VS.writes (Elt F) VS.junk (runMiddle c i arg2 harg2 arg3 harg3 arg4 harg4 arg5 harg5 hc0 hc1 x0 x1 xs0).1)

/-- k = 5: the output block's one store covers it, and so does the accumulator's. -/
theorem cover_outLast (hc0 : ¬isFirst i) (hc1 : isLast i) (x0 : Vec F S1024x1024 .bf16) (x1 : Vec F S6144x256 .f32) (xs0 : Vec F S1024x256 .f32) (y : S1024x256.Idx) :
    ∃ pc ∈ (runLast c i arg2 harg2 arg3 harg3 arg4 harg4 arg5 harg5 hc0 hc1 x0 x1 xs0).1, y ∈ pc.1.set :=
  View.cover_of_tiledL (runLast c i arg2 harg2 arg3 harg3 arg4 harg4 arg5 harg5 hc0 hc1 x0 x1 xs0).1 S1024x256.size (by sl_kernel_rfl) y
theorem cover_accLast (hc0 : ¬isFirst i) (hc1 : isLast i) (x0 : Vec F S1024x1024 .bf16) (x1 : Vec F S6144x256 .f32) (xs0 : Vec F S1024x256 .f32) (y : S1024x256.Idx) :
    ∃ pc ∈ (runLast c i arg2 harg2 arg3 harg3 arg4 harg4 arg5 harg5 hc0 hc1 x0 x1 xs0).2.1, y ∈ pc.1.set :=
  View.cover_of_tiledL (runLast c i arg2 harg2 arg3 harg3 arg4 harg4 arg5 harg5 hc0 hc1 x0 x1 xs0).2.1 S1024x256.size (by sl_kernel_rfl) y
/-- What the last case leaves in the output block, -/
def outLast (hc0 : ¬isFirst i) (hc1 : isLast i) (x0 : Vec F S1024x1024 .bf16) (x1 : Vec F S6144x256 .f32) (xs0 : Vec F S1024x256 .f32) : Vec F S1024x256 .f32 :=
  VO.read (Elt F) (VO.writes (Elt F) VO.junk (runLast c i arg2 harg2 arg3 harg3 arg4 harg4 arg5 harg5 hc0 hc1 x0 x1 xs0).1)
/-- and in the accumulator. -/
def accLast (hc0 : ¬isFirst i) (hc1 : isLast i) (x0 : Vec F S1024x1024 .bf16) (x1 : Vec F S6144x256 .f32) (xs0 : Vec F S1024x256 .f32) : Vec F S1024x256 .f32 :=
  VS.read (Elt F) (VS.writes (Elt F) VS.junk (runLast c i arg2 harg2 arg3 harg3 arg4 harg4 arg5 harg5 hc0 hc1 x0 x1 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- After the body at position `n`: (the output block, the accumulator). A position ≡ 0 (mod 6) starts from nothing;
    any other continues from the accumulator of the position before; a position ≡ 5 (mod 6) also writes the output. -/
def outsAt (c : Dev nD) : (n : ℕ) → n < cfg0.N → Vec F S1024x256 .f32 × Vec F S1024x256 .f32
  | 0, hn => (idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩))
  | n + 1, hn =>
    if h0 : (n + 1) % 6 = 0 then
      (idleOut, accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩))
    else if h5 : (n + 1) % 6 = 5 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2,
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2)
    else
      (idleOut, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (outsAt c n (Nat.lt_of_succ_lt hn)).2)

/-- At a point that opens a row block. -/
theorem outsAt_first (c : Dev nD) (t : Fin cfg0.N) (h0 : t.val % 6 = 0) :
    outsAt W c t.val t.isLt = (idleOut, accFirst c (grid0.coords t) (ms0 t) (hs0 t) (ms1 t) (hs1 t) (ms2 t) (hs2 t) accM (Memref.isWhole_whole _)
      ((isFirst_iff t).mpr h0) (fun h => by have := (isLast_iff t).mp h; omega) (iblk W c 0 t) (iblk W c 1 t)) := by
  obtain ⟨n, hn⟩ := t
  cases n with
  | zero => exact rfl
  | succ n => exact (dif_pos h0).trans rfl

/-- At a point in the middle of a row block: over what the point before left. -/
theorem outsAt_middle (c : Dev nD) (t : Fin cfg0.N) (h0 : ¬t.val % 6 = 0) (h5 : ¬t.val % 6 = 5) :
    outsAt W c t.val t.isLt = (idleOut, accMiddle c (grid0.coords t) (ms0 t) (hs0 t) (ms1 t) (hs1 t) (ms2 t) (hs2 t) accM (Memref.isWhole_whole _)
      (fun h => h0 ((isFirst_iff t).mp h)) (fun h => h5 ((isLast_iff t).mp h)) (iblk W c 0 t) (iblk W c 1 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg0.N) (h0 : ¬t.val % 6 = 0) (h5 : t.val % 6 = 5) :
    outsAt W c t.val t.isLt = (outLast c (grid0.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2,
      accLast c (grid0.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R0

end
-- ==== Proof.KR0Data.lean ====
/-
  The first launch's proof data: what the pipeline's bookkeeping is told each staging buffer holds after the body at
  every point (an input window: its block of the array; the output window: the accumulation's first component), the
  invariant carried between points (before the first point the launch's scoped buffers at anything; afterwards the
  accumulator at the accumulation's second component, beside the other scoped buffers), nothing owed, full shares — and
  the body obligation against it: at every point the case the point is in runs from what the data says and leaves what
  the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR0Acc
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ Pipeline.scopedRestBut (Ix := Unit) (Name := ℕ) (U := UR sig nD τ) (Lvl := ℕ) (Val := Elt F) spec0 c [cc0_scratch0]) := by
  rw [scopedRest0_split]; simp only [accM, owns_whole]; try rfl

/-- Before position `n`: at the first point every scoped buffer at anything; later the accumulator at what the point
    before left in it, the other scoped buffers at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) accM fullShare ((outsAt W c n hn).2) ∗ Pipeline.scopedRestBut (Ix := Unit) (Name := ℕ) (U := UR sig nD τ) (Lvl := ℕ) (Val := Elt F) spec0 c [cc0_scratch0])

theorem PhiS_zero (c : Dev nD) (n : ℕ) (h : n ≤ cfg0.N) (hz : n = 0) : PhiS W c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec0 c [cc0_scratch0]) := rfl

theorem PhiS_pos (c : Dev nD) (n : ℕ) (h : n ≤ cfg0.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec0 c [cc0_scratch0]) := by
  cases n with
  | zero => exact absurd rfl hz
  | succ n => rfl

/-! ## The proof data -/

/-- On core `c`: the arrays as the launch finds them; after the body at `t` the tile's and the features' buffers at their
    blocks, the output's at the accumulation's first component; the invariant above; nothing owed; full shares. -/
def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => (outsAt W c t.val t.isLt).1
  Φ t := PhiS W c t.val (Nat.le_of_lt_succ t.isLt)
  q _ := fullShare
  owed _ := 0

theorem A_eq (c : Dev nD) (w : Fin cfg0.W) : (dat W c).A w = W c (Pipeline.arrRef spec0 w) := by
  dsimp only [dat]

theorem PhiS_castSucc (c : Dev nD) (t : Fin cfg0.N) :
    (dat W c).Φ t.castSucc = PhiS W c t.val (Nat.le_of_lt t.isLt) := by
  dsimp only [dat]; simp only [Fin.coe_castSucc]

theorem after0 (c : Dev nD) (t : Fin cfg0.N) : (dat W c).after 0 t = iblk W c 0 t := by dsimp only [dat]
theorem after1 (c : Dev nD) (t : Fin cfg0.N) : (dat W c).after 1 t = iblk W c 1 t := by dsimp only [dat]
theorem after2 (c : Dev nD) (t : Fin cfg0.N) : (dat W c).after 2 t = (outsAt W c t.val t.isLt).1 := by dsimp only [dat]

/-- The tile's current staging buffer holds its block when the body runs (it is fetched at every point). -/
theorem before0 (c : Dev nD) (t : Fin cfg0.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The features' staging buffer holds the whole feature matrix at every point (fetched once; its index never moves). -/
theorem before1 (c : Dev nD) (t : Fin cfg0.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d)))

def bodyPost (c : Dev nD) (t : Fin cfg0.N) : sProp 𝕄 :=
  iprop((dat W c).Φ t.succ ∗ (dat W c).owesAt () t.succ
    ∗ (dat W c).leavesExact 0 t
    ∗ (dat W c).leavesExact 1 t
    ∗ (dat W c).leavesExact 2 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0, before1]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  by_cases h0 : t.val % 6 = 0
  · have hf : isFirst (grid0.coords t) := (isFirst_iff t).mpr h0
    have hnl : ¬isLast (grid0.coords t) := fun h => by have := (isLast_iff t).mp h; omega
    rw [Dat.leavesExact_idle (dat W c) 2 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩⟩
      iapply ((runFirst c (grid0.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
    · rw [PhiS_castSucc W c t, PhiS_pos W c _ _ hz]
      iintro ⟨⟨HS0, Hg⟩, Ho, ⟨%d0, H0⟩, ⟨%d1, H1⟩, ⟨%d2, H2⟩⟩
      iapply ((runFirst c (grid0.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
  · have hnf : ¬isFirst (grid0.coords t) := fun h => h0 ((isFirst_iff t).mp h)
    have hz : t.val ≠ 0 := fun h => h0 (by rw [h])
    by_cases h5 : t.val % 6 = 5
    · have hl : isLast (grid0.coords t) := (isLast_iff t).mpr h5
      rw [show (dat W c).leavesExact 2 t = owns (c : Thread nD τ) (ms2 t) fullShare ((dat W c).after 2 t) from by
        unfold Dat.leavesExact; rw [live_out t hl], after2]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩⟩
      iapply ((runLast c (grid0.coords t) _ _ _ _ _ _ _ _ hnf hl (iblk W c 0 t) (iblk W c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · have hnl : ¬isLast (grid0.coords t) := fun h => h5 ((isLast_iff t).mp h)
      rw [Dat.leavesExact_idle (dat W c) 2 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩⟩
      iapply ((runMiddle c (grid0.coords t) _ _ _ _ _ _ _ _ hnf hnl (iblk W c 0 t) (iblk W c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) W c) (defs₀ (F := F)) Variants.none () Set.univ := fun t => by
  rw [bigSep_W0, bigSep_W0]
  exact sound_body W c t

end Cert.Kernel.R0

end
-- ==== Proof.KR1Runs.lean ====
/-
  Launch 1 (a block row of the adjacency matrix times the vertex features, then the projection: times the transposed
  weight matrix, plus the bias row), one grid point at a time. The grid is 6 row blocks by 6 contraction blocks; the
  body at (m, k) does one of three things, decided by k alone:
    k = 0       the accumulator is set to zero, then the product of the (m, k) tile with rows [1024 k, 1024 k + 1024) of
                the features is added to it; the weights, the bias and the output block are not touched;
    0 < k < 5   the product is added to what the point before left in the accumulator; the rest is not touched;
    k = 5       the same, and then the accumulator times the transposed weight matrix, plus the bias row on every row,
                is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid1.Coords) : Prop := (Scalar.cmpi .ne (Scalar.extui (Scalar.cmpi .eq (BitVec.ofNat 32 (i 1).val) 0#32)) 0#32) = 1#1
/-- The output block is written at this point: the contraction coordinate is 5, the last. -/
abbrev isLast (i : grid1.Coords) : Prop := k1_cond2 i = 1#1

/-- The points whose contraction coordinate is 0 are those ≡ 0 (mod 6): decided over the 36 points. -/
theorem isFirst_iff : ∀ t : Fin cfg1.N, isFirst (grid1.coords t) ↔ t.val % 6 = 0 :=
  (by decide +kernel : ∀ t : Fin grid1.N, isFirst (grid1.coords t) ↔ t.val % 6 = 0)
/-- The points whose contraction coordinate is 5 are those ≡ 5 (mod 6). -/
theorem isLast_iff : ∀ t : Fin cfg1.N, isLast (grid1.coords t) ↔ t.val % 6 = 5 :=
  (by decide +kernel : ∀ t : Fin grid1.N, isLast (grid1.coords t) ↔ t.val % 6 = 5)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S6144x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 5. As above for everything but the accumulator, which, at what the point before left in it (`xs0`), ends
    with one store over its whole block: `xs0` plus the tile's product. -/
noncomputable def runMiddle (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S6144x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi4 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 5. As in the middle for the accumulator; the weights and the bias are read and left as they are; and the
    output block — at anything before — ends with one store over its whole block: the accumulator's new contents
    times the transposed weights, plus the bias row. -/
noncomputable def runLast (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S6144x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R1

end
-- ==== Proof.KR1Acc.lean ====
/-
  Launch 1, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR1Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg1.N, cfg1.idle 0 (grid1.coords t) = false := by decide +kernel
theorem live_feat : ∀ t : Fin cfg1.N, cfg1.idle 1 (grid1.coords t) = false := by decide +kernel
theorem live_wt : ∀ t : Fin cfg1.N, cfg1.idle 2 (grid1.coords t) = false := by decide +kernel
theorem live_bias : ∀ t : Fin cfg1.N, cfg1.idle 3 (grid1.coords t) = false := by decide +kernel
/-- Away from the last contraction coordinate the output window is idle, and its block is not written back. -/
theorem idle_out : ∀ t : Fin cfg1.N, ¬isLast (grid1.coords t) → cfg1.idle 4 (grid1.coords t) = true := by decide +kernel
theorem noFlush_out : ∀ t : Fin cfg1.N, ¬isLast (grid1.coords t) → (cfg1.win 4).flush t = false := by decide +kernel
/-- At the last contraction coordinate it is live. -/
theorem live_out : ∀ t : Fin cfg1.N, isLast (grid1.coords t) → cfg1.idle 4 (grid1.coords t) = false := by decide +kernel

/-! ## The memrefs the body is called with -/

/-- One staging buffer of the output window, through which its contents are stated (the choice does not matter). -/
abbrev VO : View sig .tc .vmem S1024x256 .f32 := (Memref.whole cc1_stg4_0 : Memref sig .tc .vmem S1024x256 .f32).view
/-- Each window's current staging memref at point `t`, spelled as the pipeline passes it, and its wholeness. -/
abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S6144x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x256 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x256 .f32 := win1_4.stage (cfg1.slots t 4)
abbrev hs4 (t : Fin cfg1.N) : (ms4 t).IsWhole := hstage1_4 ((cfg1.slots t 4).cast nbuf1_4)
/-- The accumulator: the kernel's own whole scoped buffer. -/
abbrev accM : Memref sig .tc .vmem S1024x256 .f32 := Memref.whole cc1_scratch0
abbrev VS : View sig .tc .vmem S1024x256 .f32 := accM.view

/-! ## What each case leaves -/

section
variable (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- After the body at position `n`: (the output block, the accumulator). A position ≡ 0 (mod 6) starts from nothing;
    any other continues from the accumulator of the position before; a position ≡ 5 (mod 6) also writes the output. -/
def outsAt (c : Dev nD) : (n : ℕ) → n < cfg1.N → Vec F S1024x256 .f32 × Vec F S1024x256 .f32
  | 0, hn => (idleOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 6 = 0 then
      (idleOut, accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 6 = 5 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg1.N) (h0 : t.val % 6 = 0) :
    outsAt W c t.val t.isLt = (idleOut, accFirst c (grid1.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg1.N) (h0 : ¬t.val % 6 = 0) (h5 : ¬t.val % 6 = 5) :
    outsAt W c t.val t.isLt = (idleOut, accMiddle c (grid1.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg1.N) (h0 : ¬t.val % 6 = 0) (h5 : t.val % 6 = 5) :
    outsAt W c t.val t.isLt = (outLast c (grid1.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid1.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R1

end
-- ==== Proof.KR1Data.lean ====
/-
  Launch 1's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR1Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec1 c : sProp 𝕄)
      = iprop((∃ d, owns (c : Thread nD τ) accM fullShare d) ∗ Pipeline.scopedRestBut (Ix := Unit) (Name := ℕ) (U := UR sig nD τ) (Lvl := ℕ) (Val := Elt F) spec1 c [cc1_scratch0]) := by
  rw [scopedRest1_split]; simp only [accM, owns_whole]; try rfl

/-- Before position `n`: at the first point every scoped buffer at anything; later the accumulator at what the point
    before left in it, the other scoped buffers at anything. -/
def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) accM fullShare ((outsAt W c n hn).2) ∗ Pipeline.scopedRestBut (Ix := Unit) (Name := ℕ) (U := UR sig nD τ) (Lvl := ℕ) (Val := Elt F) spec1 c [cc1_scratch0])

theorem PhiS_zero (c : Dev nD) (n : ℕ) (h : n ≤ cfg1.N) (hz : n = 0) : PhiS W c n h = Pipeline.scopedRest (Ix := Unit) (Name := ℕ) (U := UR sig nD τ) (Lvl := ℕ) (Val := Elt F) spec1 c := by
  subst hz; rfl

theorem PhiS_succ (c : Dev nD) (n : ℕ) (hn : n < cfg1.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec1 c [cc1_scratch0]) := rfl

theorem PhiS_pos (c : Dev nD) (n : ℕ) (h : n ≤ cfg1.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec1 c [cc1_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg1 c where
  A w := W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg1.W) : (dat W c).A w = W c (Pipeline.arrRef spec1 w) := by
  dsimp only [dat]

theorem PhiS_castSucc (c : Dev nD) (t : Fin cfg1.N) :
    (dat W c).Φ t.castSucc = PhiS W c t.val (Nat.le_of_lt t.isLt) := by
  dsimp only [dat]; simp only [Fin.coe_castSucc]

theorem after0 (c : Dev nD) (t : Fin cfg1.N) : (dat W c).after 0 t = iblk W c 0 t := by dsimp only [dat]
theorem after1 (c : Dev nD) (t : Fin cfg1.N) : (dat W c).after 1 t = iblk W c 1 t := by dsimp only [dat]
theorem after2 (c : Dev nD) (t : Fin cfg1.N) : (dat W c).after 2 t = iblk W c 2 t := by dsimp only [dat]
theorem after3 (c : Dev nD) (t : Fin cfg1.N) : (dat W c).after 3 t = iblk W c 3 t := by dsimp only [dat]
theorem after4 (c : Dev nD) (t : Fin cfg1.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg1.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg1.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 6 = 0
  · have hf : isFirst (grid1.coords t) := (isFirst_iff t).mpr h0
    have hnl : ¬isLast (grid1.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid1.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid1.coords t) := fun h => h0 ((isFirst_iff t).mp h)
    have hz : t.val ≠ 0 := fun h => h0 (by rw [h])
    by_cases h5 : t.val % 6 = 5
    · have hl : isLast (grid1.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid1.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid1.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W1, bigSep_W1]
  exact sound_body W c t

end Cert.Kernel.R1

end
-- ==== Proof.KR2Runs.lean ====
/-
  Launch 2 (an adjacency product with the fused epilogue), one grid point at a time. The grid is 6 row blocks by
  6 contraction blocks; the body at (m, k) does one of three things, decided by k alone:
    k = 0       the accumulator is set to zero, then the product of the (m, k) tile with rows [1024 k, 1024 k + 1024) of
                the resident feature matrix (rounded to bf16) is added to it; the output block is not touched;
    0 < k < 5   the product is added to what the point before left in the accumulator; the output block is not touched;
    k = 5       the same, and then the epilogue — the accumulator (rounded to bf16) times the transposed weight (rounded
                to bf16), plus the bias row, plus the first skip block, clamped below at zero, plus the second skip block —
                is stored over the whole output block.
  The weight, the bias row and the two skip blocks are only read at k = 5; every input buffer is left as it was.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid2.Coords) : Prop := (Scalar.cmpi .ne (Scalar.extui (Scalar.cmpi .eq (BitVec.ofNat 32 (i 1).val) 0#32)) 0#32) = 1#1
/-- The output block is written at this point: the contraction coordinate is 5, the last. -/
abbrev isLast (i : grid2.Coords) : Prop := k2_cond2 i = 1#1

/-- The points whose contraction coordinate is 0 are those ≡ 0 (mod 6): decided over the 36 points. -/
theorem isFirst_iff : ∀ t : Fin cfg2.N, isFirst (grid2.coords t) ↔ t.val % 6 = 0 :=
  (by decide +kernel : ∀ t : Fin grid2.N, isFirst (grid2.coords t) ↔ t.val % 6 = 0)
/-- The points whose contraction coordinate is 5 are those ≡ 5 (mod 6). -/
theorem isLast_iff : ∀ t : Fin cfg2.N, isLast (grid2.coords t) ↔ t.val % 6 = 5 :=
  (by decide +kernel : ∀ t : Fin grid2.N, isLast (grid2.coords t) ↔ t.val % 6 = 5)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 5. The six inputs are left as they are, the output block is handed back untouched, and the accumulator, at
    what the point before left in it (`xs0`), ends with one store over its whole block: `xs0` plus the tile's product. -/
noncomputable def runMiddle (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, fun xi6 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 5. As in the middle for the accumulator; and the output block — at anything before — ends with one store over
    its whole block: the epilogue of the accumulator's new contents, the weight, the bias row and the two skip blocks. -/
noncomputable def runLast (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2_kernel i arg2 harg2 arg3 harg3 arg4 harg4 arg5 harg5 arg6 harg6 arg7 harg7 arg8 harg8 arg9 harg9) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R2

end
-- ==== Proof.KR2Acc.lean ====
/-
  Launch 2, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR2Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg2.N, cfg2.idle 0 (grid2.coords t) = false := by decide +kernel
theorem live_in1 : ∀ t : Fin cfg2.N, cfg2.idle 1 (grid2.coords t) = false := by decide +kernel
theorem live_in2 : ∀ t : Fin cfg2.N, cfg2.idle 2 (grid2.coords t) = false := by decide +kernel
theorem live_in3 : ∀ t : Fin cfg2.N, cfg2.idle 3 (grid2.coords t) = false := by decide +kernel
theorem live_in4 : ∀ t : Fin cfg2.N, cfg2.idle 4 (grid2.coords t) = false := by decide +kernel
theorem live_in5 : ∀ t : Fin cfg2.N, cfg2.idle 5 (grid2.coords t) = false := by decide +kernel
/-- Away from the last contraction coordinate the output window is idle, and its block is not written back. -/
theorem idle_out : ∀ t : Fin cfg2.N, ¬isLast (grid2.coords t) → cfg2.idle 6 (grid2.coords t) = true := by decide +kernel
theorem noFlush_out : ∀ t : Fin cfg2.N, ¬isLast (grid2.coords t) → (cfg2.win 6).flush t = false := by decide +kernel
/-- At the last contraction coordinate it is live. -/
theorem live_out : ∀ t : Fin cfg2.N, isLast (grid2.coords t) → cfg2.idle 6 (grid2.coords t) = false := by decide +kernel

/-! ## The memrefs the body is called with -/

/-- One staging buffer of the output window, through which its contents are stated (the choice does not matter). -/
abbrev VO : View sig .tc .vmem S1024x256 .f32 := (Memref.whole cc2_stg6_0 : Memref sig .tc .vmem S1024x256 .f32).view
/-- Each window's current staging memref at point `t`, spelled as the pipeline passes it, and its wholeness. -/
abbrev ms0 (t : Fin cfg2.N) : Memref sig .tc .vmem S1024x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S6144x256 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S256x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x256 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1024x256 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1024x256 .f32 := win2_6.stage (cfg2.slots t 6)
abbrev hs6 (t : Fin cfg2.N) : (ms6 t).IsWhole := hstage2_6 ((cfg2.slots t 6).cast nbuf2_6)
/-- The accumulator: the kernel's own whole scoped buffer. -/
abbrev accM : Memref sig .tc .vmem S1024x256 .f32 := Memref.whole cc2_scratch0
abbrev VS : View sig .tc .vmem S1024x256 .f32 := accM.view

/-! ## What each case leaves -/

section
variable (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- After the body at position `n`: (the output block, the accumulator). A position ≡ 0 (mod 6) starts from nothing;
    any other continues from the accumulator of the position before; a position ≡ 5 (mod 6) also writes the output. -/
def outsAt (c : Dev nD) : (n : ℕ) → n < cfg2.N → Vec F S1024x256 .f32 × Vec F S1024x256 .f32
  | 0, hn => (idleOut, accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 6 = 0 then
      (idleOut, accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 6 = 5 then
      (outLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg2.N) (h0 : t.val % 6 = 0) :
    outsAt W c t.val t.isLt = (idleOut, accFirst c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg2.N) (h0 : ¬t.val % 6 = 0) (h5 : ¬t.val % 6 = 5) :
    outsAt W c t.val t.isLt = (idleOut, accMiddle c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg2.N) (h0 : ¬t.val % 6 = 0) (h5 : t.val % 6 = 5) :
    outsAt W c t.val t.isLt = (outLast c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R2

end
-- ==== Proof.KR2Data.lean ====
/-
  Launch 2's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR2Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec2 c : sProp 𝕄)
      = iprop((∃ d, owns (c : Thread nD τ) accM fullShare d) ∗ Pipeline.scopedRestBut (Ix := Unit) (Name := ℕ) (U := UR sig nD τ) (Lvl := ℕ) (Val := Elt F) spec2 c [cc2_scratch0]) := by
  rw [scopedRest2_split]; simp only [accM, owns_whole]; try rfl

/-- Before position `n`: at the first point every scoped buffer at anything; later the accumulator at what the point
    before left in it, the other scoped buffers at anything. -/
def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) accM fullShare ((outsAt W c n hn).2) ∗ Pipeline.scopedRestBut (Ix := Unit) (Name := ℕ) (U := UR sig nD τ) (Lvl := ℕ) (Val := Elt F) spec2 c [cc2_scratch0])

theorem PhiS_zero (c : Dev nD) (n : ℕ) (h : n ≤ cfg2.N) (hz : n = 0) : PhiS W c n h = Pipeline.scopedRest (Ix := Unit) (Name := ℕ) (U := UR sig nD τ) (Lvl := ℕ) (Val := Elt F) spec2 c := by
  subst hz; rfl

theorem PhiS_succ (c : Dev nD) (n : ℕ) (hn : n < cfg2.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec2 c [cc2_scratch0]) := rfl

theorem PhiS_pos (c : Dev nD) (n : ℕ) (h : n ≤ cfg2.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec2 c [cc2_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg2 c where
  A w := W c (Pipeline.arrRef spec2 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg2.W) : (dat W c).A w = W c (Pipeline.arrRef spec2 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg2.N) :
    (dat W c).Φ t.castSucc = PhiS W c t.val (Nat.le_of_lt t.isLt) := by
  dsimp only [dat]; simp only [Fin.coe_castSucc]

theorem after0 (c : Dev nD) (t : Fin cfg2.N) : (dat W c).after 0 t = iblk W c 0 t := by dsimp only [dat]
theorem after1 (c : Dev nD) (t : Fin cfg2.N) : (dat W c).after 1 t = iblk W c 1 t := by dsimp only [dat]
theorem after2 (c : Dev nD) (t : Fin cfg2.N) : (dat W c).after 2 t = iblk W c 2 t := by dsimp only [dat]
theorem after3 (c : Dev nD) (t : Fin cfg2.N) : (dat W c).after 3 t = iblk W c 3 t := by dsimp only [dat]
theorem after4 (c : Dev nD) (t : Fin cfg2.N) : (dat W c).after 4 t = iblk W c 4 t := by dsimp only [dat]
theorem after5 (c : Dev nD) (t : Fin cfg2.N) : (dat W c).after 5 t = iblk W c 5 t := by dsimp only [dat]
theorem after6 (c : Dev nD) (t : Fin cfg2.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg2.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg2.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg2.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg2.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg2.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg2.N) :
    bodyPre W c t ⊢ wp frame (wpE (defs₀ (F := F)) Variants.none c none) Set.univ (bodyAt2 t) (fun _ => bodyPost W c t) := by
  unfold bodyPre bodyPost bodyAt2
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 6 = 0
  · have hf : isFirst (grid2.coords t) := (isFirst_iff t).mpr h0
    have hnl : ¬isLast (grid2.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid2.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid2.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid2.coords t) := fun h => h0 ((isFirst_iff t).mp h)
    have hz : t.val ≠ 0 := fun h => h0 (by rw [h])
    by_cases h5 : t.val % 6 = 5
    · have hl : isLast (grid2.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid2.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid2.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid2.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W2, bigSep_W2]
  exact sound_body W c t

end Cert.Kernel.R2

end
-- ==== Proof.KR3Runs.lean ====
/-
  Launch 3 (a block row of the adjacency matrix times the vertex features, then the projection: times the transposed
  weight matrix, plus the bias row), one grid point at a time. The grid is 6 row blocks by 6 contraction blocks; the
  body at (m, k) does one of three things, decided by k alone:
    k = 0       the accumulator is set to zero, then the product of the (m, k) tile with rows [1024 k, 1024 k + 1024) of
                the features is added to it; the weights, the bias and the output block are not touched;
    0 < k < 5   the product is added to what the point before left in the accumulator; the rest is not touched;
    k = 5       the same, and then the accumulator times the transposed weight matrix, plus the bias row on every row,
                is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid3.Coords) : Prop := (Scalar.cmpi .ne (Scalar.extui (Scalar.cmpi .eq (BitVec.ofNat 32 (i 1).val) 0#32)) 0#32) = 1#1
/-- The output block is written at this point: the contraction coordinate is 5, the last. -/
abbrev isLast (i : grid3.Coords) : Prop := k3_cond2 i = 1#1

/-- The points whose contraction coordinate is 0 are those ≡ 0 (mod 6): decided over the 36 points. -/
theorem isFirst_iff : ∀ t : Fin cfg3.N, isFirst (grid3.coords t) ↔ t.val % 6 = 0 :=
  (by decide +kernel : ∀ t : Fin grid3.N, isFirst (grid3.coords t) ↔ t.val % 6 = 0)
/-- The points whose contraction coordinate is 5 are those ≡ 5 (mod 6). -/
theorem isLast_iff : ∀ t : Fin cfg3.N, isLast (grid3.coords t) ↔ t.val % 6 = 5 :=
  (by decide +kernel : ∀ t : Fin grid3.N, isLast (grid3.coords t) ↔ t.val % 6 = 5)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S6144x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, fun xi4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 5. As above for everything but the accumulator, which, at what the point before left in it (`xs0`), ends
    with one store over its whole block: `xs0` plus the tile's product. -/
noncomputable def runMiddle (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S6144x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, fun xi4 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 5. As in the middle for the accumulator; the weights and the bias are read and left as they are; and the
    output block — at anything before — ends with one store over its whole block: the accumulator's new contents
    times the transposed weights, plus the bias row. -/
noncomputable def runLast (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S6144x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R3

end
-- ==== Proof.KR3Acc.lean ====
/-
  Launch 3, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR3Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg3.N, cfg3.idle 0 (grid3.coords t) = false := by decide +kernel
theorem live_feat : ∀ t : Fin cfg3.N, cfg3.idle 1 (grid3.coords t) = false := by decide +kernel
theorem live_wt : ∀ t : Fin cfg3.N, cfg3.idle 2 (grid3.coords t) = false := by decide +kernel
theorem live_bias : ∀ t : Fin cfg3.N, cfg3.idle 3 (grid3.coords t) = false := by decide +kernel
/-- Away from the last contraction coordinate the output window is idle, and its block is not written back. -/
theorem idle_out : ∀ t : Fin cfg3.N, ¬isLast (grid3.coords t) → cfg3.idle 4 (grid3.coords t) = true := by decide +kernel
theorem noFlush_out : ∀ t : Fin cfg3.N, ¬isLast (grid3.coords t) → (cfg3.win 4).flush t = false := by decide +kernel
/-- At the last contraction coordinate it is live. -/
theorem live_out : ∀ t : Fin cfg3.N, isLast (grid3.coords t) → cfg3.idle 4 (grid3.coords t) = false := by decide +kernel

/-! ## The memrefs the body is called with -/

/-- One staging buffer of the output window, through which its contents are stated (the choice does not matter). -/
abbrev VO : View sig .tc .vmem S1024x256 .f32 := (Memref.whole cc3_stg4_0 : Memref sig .tc .vmem S1024x256 .f32).view
/-- Each window's current staging memref at point `t`, spelled as the pipeline passes it, and its wholeness. -/
abbrev ms0 (t : Fin cfg3.N) : Memref sig .tc .vmem S1024x1024 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S6144x256 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S256x256 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x256 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1024x256 .f32 := win3_4.stage (cfg3.slots t 4)
abbrev hs4 (t : Fin cfg3.N) : (ms4 t).IsWhole := hstage3_4 ((cfg3.slots t 4).cast nbuf3_4)
/-- The accumulator: the kernel's own whole scoped buffer. -/
abbrev accM : Memref sig .tc .vmem S1024x256 .f32 := Memref.whole cc3_scratch0
abbrev VS : View sig .tc .vmem S1024x256 .f32 := accM.view

/-! ## What each case leaves -/

section
variable (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))

/-- After the body at position `n`: (the output block, the accumulator). A position ≡ 0 (mod 6) starts from nothing;
    any other continues from the accumulator of the position before; a position ≡ 5 (mod 6) also writes the output. -/
def outsAt (c : Dev nD) : (n : ℕ) → n < cfg3.N → Vec F S1024x256 .f32 × Vec F S1024x256 .f32
  | 0, hn => (idleOut, accFirst c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 6 = 0 then
      (idleOut, accFirst c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 6 = 5 then
      (outLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg3.N) (h0 : t.val % 6 = 0) :
    outsAt W c t.val t.isLt = (idleOut, accFirst c (grid3.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg3.N) (h0 : ¬t.val % 6 = 0) (h5 : ¬t.val % 6 = 5) :
    outsAt W c t.val t.isLt = (idleOut, accMiddle c (grid3.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg3.N) (h0 : ¬t.val % 6 = 0) (h5 : t.val % 6 = 5) :
    outsAt W c t.val t.isLt = (outLast c (grid3.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid3.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R3

end
-- ==== Proof.KR3Data.lean ====
/-
  Launch 3's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR3Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec3 c : sProp 𝕄)
      = iprop((∃ d, owns (c : Thread nD τ) accM fullShare d) ∗ Pipeline.scopedRestBut (Ix := Unit) (Name := ℕ) (U := UR sig nD τ) (Lvl := ℕ) (Val := Elt F) spec3 c [cc3_scratch0]) := by
  rw [scopedRest3_split]; simp only [accM, owns_whole]; try rfl

/-- Before position `n`: at the first point every scoped buffer at anything; later the accumulator at what the point
    before left in it, the other scoped buffers at anything. -/
def PhiS (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) accM fullShare ((outsAt W c n hn).2) ∗ Pipeline.scopedRestBut (Ix := Unit) (Name := ℕ) (U := UR sig nD τ) (Lvl := ℕ) (Val := Elt F) spec3 c [cc3_scratch0])

theorem PhiS_zero (c : Dev nD) (n : ℕ) (h : n ≤ cfg3.N) (hz : n = 0) : PhiS W c n h = Pipeline.scopedRest (Ix := Unit) (Name := ℕ) (U := UR sig nD τ) (Lvl := ℕ) (Val := Elt F) spec3 c := by
  subst hz; rfl

theorem PhiS_succ (c : Dev nD) (n : ℕ) (hn : n < cfg3.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec3 c [cc3_scratch0]) := rfl

theorem PhiS_pos (c : Dev nD) (n : ℕ) (h : n ≤ cfg3.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec3 c [cc3_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg3 c where
  A w := W c (Pipeline.arrRef spec3 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg3.W) : (dat W c).A w = W c (Pipeline.arrRef spec3 w) := by
  dsimp only [dat]

theorem PhiS_castSucc (c : Dev nD) (t : Fin cfg3.N) :
    (dat W c).Φ t.castSucc = PhiS W c t.val (Nat.le_of_lt t.isLt) := by
  dsimp only [dat]; simp only [Fin.coe_castSucc]

theorem after0 (c : Dev nD) (t : Fin cfg3.N) : (dat W c).after 0 t = iblk W c 0 t := by dsimp only [dat]
theorem after1 (c : Dev nD) (t : Fin cfg3.N) : (dat W c).after 1 t = iblk W c 1 t := by dsimp only [dat]
theorem after2 (c : Dev nD) (t : Fin cfg3.N) : (dat W c).after 2 t = iblk W c 2 t := by dsimp only [dat]
theorem after3 (c : Dev nD) (t : Fin cfg3.N) : (dat W c).after 3 t = iblk W c 3 t := by dsimp only [dat]
theorem after4 (c : Dev nD) (t : Fin cfg3.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg3.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg3.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg3.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg3.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg3.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg3.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg3.N) :
    bodyPre W c t ⊢ wp frame (wpE (defs₀ (F := F)) Variants.none c none) Set.univ (bodyAt3 t) (fun _ => bodyPost W c t) := by
  unfold bodyPre bodyPost bodyAt3
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 6 = 0
  · have hf : isFirst (grid3.coords t) := (isFirst_iff t).mpr h0
    have hnl : ¬isLast (grid3.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid3.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid3.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid3.coords t) := fun h => h0 ((isFirst_iff t).mp h)
    have hz : t.val ≠ 0 := fun h => h0 (by rw [h])
    by_cases h5 : t.val % 6 = 5
    · have hl : isLast (grid3.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid3.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid3.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid3.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W3, bigSep_W3]
  exact sound_body W c t

end Cert.Kernel.R3

end
-- ==== Proof.KR4Runs.lean ====
/-
  Launch 4 (an adjacency product with the fused epilogue), one grid point at a time. The grid is 6 row blocks by
  6 contraction blocks; the body at (m, k) does one of three things, decided by k alone:
    k = 0       the accumulator is set to zero, then the product of the (m, k) tile with rows [1024 k, 1024 k + 1024) of
                the resident feature matrix (rounded to bf16) is added to it; the output block is not touched;
    0 < k < 5   the product is added to what the point before left in the accumulator; the output block is not touched;
    k = 5       the same, and then the epilogue — the accumulator (rounded to bf16) times the transposed weight (rounded
                to bf16), plus the bias row, plus the first skip block, clamped below at zero, plus the second skip block —
                is stored over the whole output block.
  The weight, the bias row and the two skip blocks are only read at k = 5; every input buffer is left as it was.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid4.Coords) : Prop := (Scalar.cmpi .ne (Scalar.extui (Scalar.cmpi .eq (BitVec.ofNat 32 (i 1).val) 0#32)) 0#32) = 1#1
/-- The output block is written at this point: the contraction coordinate is 5, the last. -/
abbrev isLast (i : grid4.Coords) : Prop := k4_cond2 i = 1#1

/-- The points whose contraction coordinate is 0 are those ≡ 0 (mod 6): decided over the 36 points. -/
theorem isFirst_iff : ∀ t : Fin cfg4.N, isFirst (grid4.coords t) ↔ t.val % 6 = 0 :=
  (by decide +kernel : ∀ t : Fin grid4.N, isFirst (grid4.coords t) ↔ t.val % 6 = 0)
/-- The points whose contraction coordinate is 5 are those ≡ 5 (mod 6). -/
theorem isLast_iff : ∀ t : Fin cfg4.N, isLast (grid4.coords t) ↔ t.val % 6 = 5 :=
  (by decide +kernel : ∀ t : Fin grid4.N, isLast (grid4.coords t) ↔ t.val % 6 = 5)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 5. The six inputs are left as they are, the output block is handed back untouched, and the accumulator, at
    what the point before left in it (`xs0`), ends with one store over its whole block: `xs0` plus the tile's product. -/
noncomputable def runMiddle (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, fun xi6 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 5. As in the middle for the accumulator; and the output block — at anything before — ends with one store over
    its whole block: the epilogue of the accumulator's new contents, the weight, the bias row and the two skip blocks. -/
noncomputable def runLast (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4_kernel i arg2 harg2 arg3 harg3 arg4 harg4 arg5 harg5 arg6 harg6 arg7 harg7 arg8 harg8 arg9 harg9) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R4

end
-- ==== Proof.KR4Acc.lean ====
/-
  Launch 4, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR4Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg4.N, cfg4.idle 0 (grid4.coords t) = false := by decide +kernel
theorem live_in1 : ∀ t : Fin cfg4.N, cfg4.idle 1 (grid4.coords t) = false := by decide +kernel
theorem live_in2 : ∀ t : Fin cfg4.N, cfg4.idle 2 (grid4.coords t) = false := by decide +kernel
theorem live_in3 : ∀ t : Fin cfg4.N, cfg4.idle 3 (grid4.coords t) = false := by decide +kernel
theorem live_in4 : ∀ t : Fin cfg4.N, cfg4.idle 4 (grid4.coords t) = false := by decide +kernel
theorem live_in5 : ∀ t : Fin cfg4.N, cfg4.idle 5 (grid4.coords t) = false := by decide +kernel
/-- Away from the last contraction coordinate the output window is idle, and its block is not written back. -/
theorem idle_out : ∀ t : Fin cfg4.N, ¬isLast (grid4.coords t) → cfg4.idle 6 (grid4.coords t) = true := by decide +kernel
theorem noFlush_out : ∀ t : Fin cfg4.N, ¬isLast (grid4.coords t) → (cfg4.win 6).flush t = false := by decide +kernel
/-- At the last contraction coordinate it is live. -/
theorem live_out : ∀ t : Fin cfg4.N, isLast (grid4.coords t) → cfg4.idle 6 (grid4.coords t) = false := by decide +kernel

/-! ## The memrefs the body is called with -/

/-- One staging buffer of the output window, through which its contents are stated (the choice does not matter). -/
abbrev VO : View sig .tc .vmem S1024x256 .f32 := (Memref.whole cc4_stg6_0 : Memref sig .tc .vmem S1024x256 .f32).view
/-- Each window's current staging memref at point `t`, spelled as the pipeline passes it, and its wholeness. -/
abbrev ms0 (t : Fin cfg4.N) : Memref sig .tc .vmem S1024x1024 .bf16 := win4_0.stage (cfg4.slots t 0)
abbrev hs0 (t : Fin cfg4.N) : (ms0 t).IsWhole := hstage4_0 ((cfg4.slots t 0).cast nbuf4_0)
abbrev ms1 (t : Fin cfg4.N) : Memref sig .tc .vmem S6144x256 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S256x256 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S1x256 .f32 := win4_3.stage (cfg4.slots t 3)
abbrev hs3 (t : Fin cfg4.N) : (ms3 t).IsWhole := hstage4_3 ((cfg4.slots t 3).cast nbuf4_3)
abbrev ms4 (t : Fin cfg4.N) : Memref sig .tc .vmem S1024x256 .f32 := win4_4.stage (cfg4.slots t 4)
abbrev hs4 (t : Fin cfg4.N) : (ms4 t).IsWhole := hstage4_4 ((cfg4.slots t 4).cast nbuf4_4)
abbrev ms5 (t : Fin cfg4.N) : Memref sig .tc .vmem S1024x256 .f32 := win4_5.stage (cfg4.slots t 5)
abbrev hs5 (t : Fin cfg4.N) : (ms5 t).IsWhole := hstage4_5 ((cfg4.slots t 5).cast nbuf4_5)
abbrev ms6 (t : Fin cfg4.N) : Memref sig .tc .vmem S1024x256 .f32 := win4_6.stage (cfg4.slots t 6)
abbrev hs6 (t : Fin cfg4.N) : (ms6 t).IsWhole := hstage4_6 ((cfg4.slots t 6).cast nbuf4_6)
/-- The accumulator: the kernel's own whole scoped buffer. -/
abbrev accM : Memref sig .tc .vmem S1024x256 .f32 := Memref.whole cc4_scratch0
abbrev VS : View sig .tc .vmem S1024x256 .f32 := accM.view

/-! ## What each case leaves -/

section
variable (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))

/-- After the body at position `n`: (the output block, the accumulator). A position ≡ 0 (mod 6) starts from nothing;
    any other continues from the accumulator of the position before; a position ≡ 5 (mod 6) also writes the output. -/
def outsAt (c : Dev nD) : (n : ℕ) → n < cfg4.N → Vec F S1024x256 .f32 × Vec F S1024x256 .f32
  | 0, hn => (idleOut, accFirst c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 6 = 0 then
      (idleOut, accFirst c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 6 = 5 then
      (outLast c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg4.N) (h0 : t.val % 6 = 0) :
    outsAt W c t.val t.isLt = (idleOut, accFirst c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg4.N) (h0 : ¬t.val % 6 = 0) (h5 : ¬t.val % 6 = 5) :
    outsAt W c t.val t.isLt = (idleOut, accMiddle c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg4.N) (h0 : ¬t.val % 6 = 0) (h5 : t.val % 6 = 5) :
    outsAt W c t.val t.isLt = (outLast c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R4

end
-- ==== Proof.KR4Data.lean ====
/-
  Launch 4's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR4Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec4 c : sProp 𝕄)
      = iprop((∃ d, owns (c : Thread nD τ) accM fullShare d) ∗ Pipeline.scopedRestBut (Ix := Unit) (Name := ℕ) (U := UR sig nD τ) (Lvl := ℕ) (Val := Elt F) spec4 c [cc4_scratch0]) := by
  rw [scopedRest4_split]; simp only [accM, owns_whole]; try rfl

/-- Before position `n`: at the first point every scoped buffer at anything; later the accumulator at what the point
    before left in it, the other scoped buffers at anything. -/
def PhiS (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) accM fullShare ((outsAt W c n hn).2) ∗ Pipeline.scopedRestBut (Ix := Unit) (Name := ℕ) (U := UR sig nD τ) (Lvl := ℕ) (Val := Elt F) spec4 c [cc4_scratch0])

theorem PhiS_zero (c : Dev nD) (n : ℕ) (h : n ≤ cfg4.N) (hz : n = 0) : PhiS W c n h = Pipeline.scopedRest (Ix := Unit) (Name := ℕ) (U := UR sig nD τ) (Lvl := ℕ) (Val := Elt F) spec4 c := by
  subst hz; rfl

theorem PhiS_succ (c : Dev nD) (n : ℕ) (hn : n < cfg4.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec4 c [cc4_scratch0]) := rfl

theorem PhiS_pos (c : Dev nD) (n : ℕ) (h : n ≤ cfg4.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec4 c [cc4_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg4 c where
  A w := W c (Pipeline.arrRef spec4 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg4.W) : (dat W c).A w = W c (Pipeline.arrRef spec4 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg4.N) :
    (dat W c).Φ t.castSucc = PhiS W c t.val (Nat.le_of_lt t.isLt) := by
  dsimp only [dat]; simp only [Fin.coe_castSucc]

theorem after0 (c : Dev nD) (t : Fin cfg4.N) : (dat W c).after 0 t = iblk W c 0 t := by dsimp only [dat]
theorem after1 (c : Dev nD) (t : Fin cfg4.N) : (dat W c).after 1 t = iblk W c 1 t := by dsimp only [dat]
theorem after2 (c : Dev nD) (t : Fin cfg4.N) : (dat W c).after 2 t = iblk W c 2 t := by dsimp only [dat]
theorem after3 (c : Dev nD) (t : Fin cfg4.N) : (dat W c).after 3 t = iblk W c 3 t := by dsimp only [dat]
theorem after4 (c : Dev nD) (t : Fin cfg4.N) : (dat W c).after 4 t = iblk W c 4 t := by dsimp only [dat]
theorem after5 (c : Dev nD) (t : Fin cfg4.N) : (dat W c).after 5 t = iblk W c 5 t := by dsimp only [dat]
theorem after6 (c : Dev nD) (t : Fin cfg4.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg4.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg4.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg4.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg4.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg4.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg4.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg4.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg4.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg4.N) :
    bodyPre W c t ⊢ wp frame (wpE (defs₀ (F := F)) Variants.none c none) Set.univ (bodyAt4 t) (fun _ => bodyPost W c t) := by
  unfold bodyPre bodyPost bodyAt4
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 6 = 0
  · have hf : isFirst (grid4.coords t) := (isFirst_iff t).mpr h0
    have hnl : ¬isLast (grid4.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid4.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid4.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid4.coords t) := fun h => h0 ((isFirst_iff t).mp h)
    have hz : t.val ≠ 0 := fun h => h0 (by rw [h])
    by_cases h5 : t.val % 6 = 5
    · have hl : isLast (grid4.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid4.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid4.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid4.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W4, bigSep_W4]
  exact sound_body W c t

end Cert.Kernel.R4

end
-- ==== Proof.KR5Runs.lean ====
/-
  Launch 5 (a block row of the adjacency matrix times the vertex features, then the projection: times the transposed
  weight matrix, plus the bias row), one grid point at a time. The grid is 6 row blocks by 6 contraction blocks; the
  body at (m, k) does one of three things, decided by k alone:
    k = 0       the accumulator is set to zero, then the product of the (m, k) tile with rows [1024 k, 1024 k + 1024) of
                the features is added to it; the weights, the bias and the output block are not touched;
    0 < k < 5   the product is added to what the point before left in the accumulator; the rest is not touched;
    k = 5       the same, and then the accumulator times the transposed weight matrix, plus the bias row on every row,
                is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid5.Coords) : Prop := (Scalar.cmpi .ne (Scalar.extui (Scalar.cmpi .eq (BitVec.ofNat 32 (i 1).val) 0#32)) 0#32) = 1#1
/-- The output block is written at this point: the contraction coordinate is 5, the last. -/
abbrev isLast (i : grid5.Coords) : Prop := k5_cond2 i = 1#1

/-- The points whose contraction coordinate is 0 are those ≡ 0 (mod 6): decided over the 36 points. -/
theorem isFirst_iff : ∀ t : Fin cfg5.N, isFirst (grid5.coords t) ↔ t.val % 6 = 0 :=
  (by decide +kernel : ∀ t : Fin grid5.N, isFirst (grid5.coords t) ↔ t.val % 6 = 0)
/-- The points whose contraction coordinate is 5 are those ≡ 5 (mod 6). -/
theorem isLast_iff : ∀ t : Fin cfg5.N, isLast (grid5.coords t) ↔ t.val % 6 = 5 :=
  (by decide +kernel : ∀ t : Fin grid5.N, isLast (grid5.coords t) ↔ t.val % 6 = 5)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S6144x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, fun xi4 E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 5. As above for everything but the accumulator, which, at what the point before left in it (`xs0`), ends
    with one store over its whole block: `xs0` plus the tile's product. -/
noncomputable def runMiddle (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S6144x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, fun xi4 E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 5. As in the middle for the accumulator; the weights and the bias are read and left as they are; and the
    output block — at anything before — ends with one store over its whole block: the accumulator's new contents
    times the transposed weights, plus the bias row. -/
noncomputable def runLast (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S6144x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, ?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R5

end
-- ==== Proof.KR5Acc.lean ====
/-
  Launch 5, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR5Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg5.N, cfg5.idle 0 (grid5.coords t) = false := by decide +kernel
theorem live_feat : ∀ t : Fin cfg5.N, cfg5.idle 1 (grid5.coords t) = false := by decide +kernel
theorem live_wt : ∀ t : Fin cfg5.N, cfg5.idle 2 (grid5.coords t) = false := by decide +kernel
theorem live_bias : ∀ t : Fin cfg5.N, cfg5.idle 3 (grid5.coords t) = false := by decide +kernel
/-- Away from the last contraction coordinate the output window is idle, and its block is not written back. -/
theorem idle_out : ∀ t : Fin cfg5.N, ¬isLast (grid5.coords t) → cfg5.idle 4 (grid5.coords t) = true := by decide +kernel
theorem noFlush_out : ∀ t : Fin cfg5.N, ¬isLast (grid5.coords t) → (cfg5.win 4).flush t = false := by decide +kernel
/-- At the last contraction coordinate it is live. -/
theorem live_out : ∀ t : Fin cfg5.N, isLast (grid5.coords t) → cfg5.idle 4 (grid5.coords t) = false := by decide +kernel

/-! ## The memrefs the body is called with -/

/-- One staging buffer of the output window, through which its contents are stated (the choice does not matter). -/
abbrev VO : View sig .tc .vmem S1024x256 .f32 := (Memref.whole cc5_stg4_0 : Memref sig .tc .vmem S1024x256 .f32).view
/-- Each window's current staging memref at point `t`, spelled as the pipeline passes it, and its wholeness. -/
abbrev ms0 (t : Fin cfg5.N) : Memref sig .tc .vmem S1024x1024 .bf16 := win5_0.stage (cfg5.slots t 0)
abbrev hs0 (t : Fin cfg5.N) : (ms0 t).IsWhole := hstage5_0 ((cfg5.slots t 0).cast nbuf5_0)
abbrev ms1 (t : Fin cfg5.N) : Memref sig .tc .vmem S6144x256 .f32 := win5_1.stage (cfg5.slots t 1)
abbrev hs1 (t : Fin cfg5.N) : (ms1 t).IsWhole := hstage5_1 ((cfg5.slots t 1).cast nbuf5_1)
abbrev ms2 (t : Fin cfg5.N) : Memref sig .tc .vmem S256x256 .f32 := win5_2.stage (cfg5.slots t 2)
abbrev hs2 (t : Fin cfg5.N) : (ms2 t).IsWhole := hstage5_2 ((cfg5.slots t 2).cast nbuf5_2)
abbrev ms3 (t : Fin cfg5.N) : Memref sig .tc .vmem S1x256 .f32 := win5_3.stage (cfg5.slots t 3)
abbrev hs3 (t : Fin cfg5.N) : (ms3 t).IsWhole := hstage5_3 ((cfg5.slots t 3).cast nbuf5_3)
abbrev ms4 (t : Fin cfg5.N) : Memref sig .tc .vmem S1024x256 .f32 := win5_4.stage (cfg5.slots t 4)
abbrev hs4 (t : Fin cfg5.N) : (ms4 t).IsWhole := hstage5_4 ((cfg5.slots t 4).cast nbuf5_4)
/-- The accumulator: the kernel's own whole scoped buffer. -/
abbrev accM : Memref sig .tc .vmem S1024x256 .f32 := Memref.whole cc5_scratch0
abbrev VS : View sig .tc .vmem S1024x256 .f32 := accM.view

/-! ## What each case leaves -/

section
variable (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg5.W) (t : Fin cfg5.N) : ((cfg5.win w).xblock (cfg5.grid.coords t)).Idx → Elt F (cfg5.win w).elt :=
  ((cfg5.win w).blk t).view.read (Elt F) (W c (Pipeline.arrRef spec5 w))

/-- After the body at position `n`: (the output block, the accumulator). A position ≡ 0 (mod 6) starts from nothing;
    any other continues from the accumulator of the position before; a position ≡ 5 (mod 6) also writes the output. -/
def outsAt (c : Dev nD) : (n : ℕ) → n < cfg5.N → Vec F S1024x256 .f32 × Vec F S1024x256 .f32
  | 0, hn => (idleOut, accFirst c (grid5.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 6 = 0 then
      (idleOut, accFirst c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 6 = 5 then
      (outLast c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid5.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg5.N) (h0 : t.val % 6 = 0) :
    outsAt W c t.val t.isLt = (idleOut, accFirst c (grid5.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg5.N) (h0 : ¬t.val % 6 = 0) (h5 : ¬t.val % 6 = 5) :
    outsAt W c t.val t.isLt = (idleOut, accMiddle c (grid5.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg5.N) (h0 : ¬t.val % 6 = 0) (h5 : t.val % 6 = 5) :
    outsAt W c t.val t.isLt = (outLast c (grid5.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid5.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R5

end
-- ==== Proof.KR5Data.lean ====
/-
  Launch 5's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR5Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec5 c : sProp 𝕄)
      = iprop((∃ d, owns (c : Thread nD τ) accM fullShare d) ∗ Pipeline.scopedRestBut (Ix := Unit) (Name := ℕ) (U := UR sig nD τ) (Lvl := ℕ) (Val := Elt F) spec5 c [cc5_scratch0]) := by
  rw [scopedRest5_split]; simp only [accM, owns_whole]; try rfl

/-- Before position `n`: at the first point every scoped buffer at anything; later the accumulator at what the point
    before left in it, the other scoped buffers at anything. -/
def PhiS (c : Dev nD) : (n : ℕ) → n ≤ cfg5.N → sProp 𝕄
  | 0, _ => Pipeline.scopedRest (Ix := Unit) (Name := ℕ) (U := UR sig nD τ) (Lvl := ℕ) (Val := Elt F) spec5 c
  | n + 1, hn => iprop(owns (c : Thread nD τ) accM fullShare ((outsAt W c n hn).2) ∗ Pipeline.scopedRestBut (Ix := Unit) (Name := ℕ) (U := UR sig nD τ) (Lvl := ℕ) (Val := Elt F) spec5 c [cc5_scratch0])

theorem PhiS_zero (c : Dev nD) (n : ℕ) (h : n ≤ cfg5.N) (hz : n = 0) : PhiS W c n h = Pipeline.scopedRest (Ix := Unit) (Name := ℕ) (U := UR sig nD τ) (Lvl := ℕ) (Val := Elt F) spec5 c := by
  subst hz; rfl

theorem PhiS_succ (c : Dev nD) (n : ℕ) (hn : n < cfg5.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec5 c [cc5_scratch0]) := rfl

theorem PhiS_pos (c : Dev nD) (n : ℕ) (h : n ≤ cfg5.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec5 c [cc5_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg5 c where
  A w := W c (Pipeline.arrRef spec5 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg5.W) : (dat W c).A w = W c (Pipeline.arrRef spec5 w) := by
  dsimp only [dat]

theorem PhiS_castSucc (c : Dev nD) (t : Fin cfg5.N) :
    (dat W c).Φ t.castSucc = PhiS W c t.val (Nat.le_of_lt t.isLt) := by
  dsimp only [dat]; simp only [Fin.coe_castSucc]

theorem after0 (c : Dev nD) (t : Fin cfg5.N) : (dat W c).after 0 t = iblk W c 0 t := by dsimp only [dat]
theorem after1 (c : Dev nD) (t : Fin cfg5.N) : (dat W c).after 1 t = iblk W c 1 t := by dsimp only [dat]
theorem after2 (c : Dev nD) (t : Fin cfg5.N) : (dat W c).after 2 t = iblk W c 2 t := by dsimp only [dat]
theorem after3 (c : Dev nD) (t : Fin cfg5.N) : (dat W c).after 3 t = iblk W c 3 t := by dsimp only [dat]
theorem after4 (c : Dev nD) (t : Fin cfg5.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg5.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg5.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg5.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg5.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg5.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg5.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg5.N) :
    bodyPre W c t ⊢ wp frame (wpE (defs₀ (F := F)) Variants.none c none) Set.univ (bodyAt5 t) (fun _ => bodyPost W c t) := by
  unfold bodyPre bodyPost bodyAt5
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 6 = 0
  · have hf : isFirst (grid5.coords t) := (isFirst_iff t).mpr h0
    have hnl : ¬isLast (grid5.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid5.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid5.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid5.coords t) := fun h => h0 ((isFirst_iff t).mp h)
    have hz : t.val ≠ 0 := fun h => h0 (by rw [h])
    by_cases h5 : t.val % 6 = 5
    · have hl : isLast (grid5.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid5.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid5.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid5.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W5, bigSep_W5]
  exact sound_body W c t

end Cert.Kernel.R5

end
-- ==== Proof.KR6Runs.lean ====
/-
  Launch 6 (an adjacency product with the fused epilogue), one grid point at a time. The grid is 6 row blocks by
  6 contraction blocks; the body at (m, k) does one of three things, decided by k alone:
    k = 0       the accumulator is set to zero, then the product of the (m, k) tile with rows [1024 k, 1024 k + 1024) of
                the resident feature matrix (rounded to bf16) is added to it; the output block is not touched;
    0 < k < 5   the product is added to what the point before left in the accumulator; the output block is not touched;
    k = 5       the same, and then the epilogue — the accumulator (rounded to bf16) times the transposed weight (rounded
                to bf16), plus the bias row, plus the first skip block, clamped below at zero, plus the second skip block —
                is stored over the whole output block.
  The weight, the bias row and the two skip blocks are only read at k = 5; every input buffer is left as it was.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid6.Coords) : Prop := (Scalar.cmpi .ne (Scalar.extui (Scalar.cmpi .eq (BitVec.ofNat 32 (i 1).val) 0#32)) 0#32) = 1#1
/-- The output block is written at this point: the contraction coordinate is 5, the last. -/
abbrev isLast (i : grid6.Coords) : Prop := k6_cond2 i = 1#1

/-- The points whose contraction coordinate is 0 are those ≡ 0 (mod 6): decided over the 36 points. -/
theorem isFirst_iff : ∀ t : Fin cfg6.N, isFirst (grid6.coords t) ↔ t.val % 6 = 0 :=
  (by decide +kernel : ∀ t : Fin grid6.N, isFirst (grid6.coords t) ↔ t.val % 6 = 0)
/-- The points whose contraction coordinate is 5 are those ≡ 5 (mod 6). -/
theorem isLast_iff : ∀ t : Fin cfg6.N, isLast (grid6.coords t) ↔ t.val % 6 = 5 :=
  (by decide +kernel : ∀ t : Fin grid6.N, isLast (grid6.coords t) ↔ t.val % 6 = 5)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8 arg9 harg9) K } := by
  refine ⟨?_, fun xi6 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 5. The six inputs are left as they are, the output block is handed back untouched, and the accumulator, at
    what the point before left in it (`xs0`), ends with one store over its whole block: `xs0` plus the tile's product. -/
noncomputable def runMiddle (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8 arg9 harg9) K } := by
  refine ⟨?_, fun xi6 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 5. As in the middle for the accumulator; and the output block — at anything before — ends with one store over
    its whole block: the epilogue of the accumulator's new contents, the weight, the bias row and the two skip blocks. -/
noncomputable def runLast (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8 arg9 harg9) K } := by
  refine ⟨?_, ?_, fun E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R6

end
-- ==== Proof.KR6Acc.lean ====
/-
  Launch 6, point after point: what the accumulator and the output block hold after the body at each of the 36
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR6Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg6.N, cfg6.idle 0 (grid6.coords t) = false := by decide +kernel
theorem live_in1 : ∀ t : Fin cfg6.N, cfg6.idle 1 (grid6.coords t) = false := by decide +kernel
theorem live_in2 : ∀ t : Fin cfg6.N, cfg6.idle 2 (grid6.coords t) = false := by decide +kernel
theorem live_in3 : ∀ t : Fin cfg6.N, cfg6.idle 3 (grid6.coords t) = false := by decide +kernel
theorem live_in4 : ∀ t : Fin cfg6.N, cfg6.idle 4 (grid6.coords t) = false := by decide +kernel
theorem live_in5 : ∀ t : Fin cfg6.N, cfg6.idle 5 (grid6.coords t) = false := by decide +kernel
/-- Away from the last contraction coordinate the output window is idle, and its block is not written back. -/
theorem idle_out : ∀ t : Fin cfg6.N, ¬isLast (grid6.coords t) → cfg6.idle 6 (grid6.coords t) = true := by decide +kernel
theorem noFlush_out : ∀ t : Fin cfg6.N, ¬isLast (grid6.coords t) → (cfg6.win 6).flush t = false := by decide +kernel
/-- At the last contraction coordinate it is live. -/
theorem live_out : ∀ t : Fin cfg6.N, isLast (grid6.coords t) → cfg6.idle 6 (grid6.coords t) = false := by decide +kernel

/-! ## The memrefs the body is called with -/

/-- One staging buffer of the output window, through which its contents are stated (the choice does not matter). -/
abbrev VO : View sig .tc .vmem S1024x256 .f32 := (Memref.whole cc6_stg6_0 : Memref sig .tc .vmem S1024x256 .f32).view
/-- Each window's current staging memref at point `t`, spelled as the pipeline passes it, and its wholeness. -/
abbrev ms0 (t : Fin cfg6.N) : Memref sig .tc .vmem S1024x1024 .bf16 := win6_0.stage (cfg6.slots t 0)
abbrev hs0 (t : Fin cfg6.N) : (ms0 t).IsWhole := hstage6_0 ((cfg6.slots t 0).cast nbuf6_0)
abbrev ms1 (t : Fin cfg6.N) : Memref sig .tc .vmem S6144x256 .f32 := win6_1.stage (cfg6.slots t 1)
abbrev hs1 (t : Fin cfg6.N) : (ms1 t).IsWhole := hstage6_1 ((cfg6.slots t 1).cast nbuf6_1)
abbrev ms2 (t : Fin cfg6.N) : Memref sig .tc .vmem S256x256 .f32 := win6_2.stage (cfg6.slots t 2)
abbrev hs2 (t : Fin cfg6.N) : (ms2 t).IsWhole := hstage6_2 ((cfg6.slots t 2).cast nbuf6_2)
abbrev ms3 (t : Fin cfg6.N) : Memref sig .tc .vmem S1x256 .f32 := win6_3.stage (cfg6.slots t 3)
abbrev hs3 (t : Fin cfg6.N) : (ms3 t).IsWhole := hstage6_3 ((cfg6.slots t 3).cast nbuf6_3)
abbrev ms4 (t : Fin cfg6.N) : Memref sig .tc .vmem S1024x256 .f32 := win6_4.stage (cfg6.slots t 4)
abbrev hs4 (t : Fin cfg6.N) : (ms4 t).IsWhole := hstage6_4 ((cfg6.slots t 4).cast nbuf6_4)
abbrev ms5 (t : Fin cfg6.N) : Memref sig .tc .vmem S1024x256 .f32 := win6_5.stage (cfg6.slots t 5)
abbrev hs5 (t : Fin cfg6.N) : (ms5 t).IsWhole := hstage6_5 ((cfg6.slots t 5).cast nbuf6_5)
abbrev ms6 (t : Fin cfg6.N) : Memref sig .tc .vmem S1024x256 .f32 := win6_6.stage (cfg6.slots t 6)
abbrev hs6 (t : Fin cfg6.N) : (ms6 t).IsWhole := hstage6_6 ((cfg6.slots t 6).cast nbuf6_6)
/-- The accumulator: the kernel's own whole scoped buffer. -/
abbrev accM : Memref sig .tc .vmem S1024x256 .f32 := Memref.whole cc6_scratch0
abbrev VS : View sig .tc .vmem S1024x256 .f32 := accM.view

/-! ## What each case leaves -/

section
variable (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 5: the accumulator's one store covers its whole block. -/
theorem cover_accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 5: the output block's one store covers it, and so does the accumulator's. -/
theorem cover_outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg6.W) (t : Fin cfg6.N) : ((cfg6.win w).xblock (cfg6.grid.coords t)).Idx → Elt F (cfg6.win w).elt :=
  ((cfg6.win w).blk t).view.read (Elt F) (W c (Pipeline.arrRef spec6 w))

/-- After the body at position `n`: (the output block, the accumulator). A position ≡ 0 (mod 6) starts from nothing;
    any other continues from the accumulator of the position before; a position ≡ 5 (mod 6) also writes the output. -/
def outsAt (c : Dev nD) : (n : ℕ) → n < cfg6.N → Vec F S1024x256 .f32 × Vec F S1024x256 .f32
  | 0, hn => (idleOut, accFirst c (grid6.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 6 = 0 then
      (idleOut, accFirst c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 6 = 5 then
      (outLast c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid6.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg6.N) (h0 : t.val % 6 = 0) :
    outsAt W c t.val t.isLt = (idleOut, accFirst c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg6.N) (h0 : ¬t.val % 6 = 0) (h5 : ¬t.val % 6 = 5) :
    outsAt W c t.val t.isLt = (idleOut, accMiddle c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg6.N) (h0 : ¬t.val % 6 = 0) (h5 : t.val % 6 = 5) :
    outsAt W c t.val t.isLt = (outLast c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R6

end
-- ==== Proof.KR6Data.lean ====
/-
  Launch 6's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR6Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec6 c : sProp 𝕄)
      = iprop((∃ d, owns (c : Thread nD τ) accM fullShare d) ∗ Pipeline.scopedRestBut (Ix := Unit) (Name := ℕ) (U := UR sig nD τ) (Lvl := ℕ) (Val := Elt F) spec6 c [cc6_scratch0]) := by
  rw [scopedRest6_split]; simp only [accM, owns_whole]; try rfl

/-- Before position `n`: at the first point every scoped buffer at anything; later the accumulator at what the point
    before left in it, the other scoped buffers at anything. -/
def PhiS (c : Dev nD) : (n : ℕ) → n ≤ cfg6.N → sProp 𝕄
  | 0, _ => Pipeline.scopedRest (Ix := Unit) (Name := ℕ) (U := UR sig nD τ) (Lvl := ℕ) (Val := Elt F) spec6 c
  | n + 1, hn => iprop(owns (c : Thread nD τ) accM fullShare ((outsAt W c n hn).2) ∗ Pipeline.scopedRestBut (Ix := Unit) (Name := ℕ) (U := UR sig nD τ) (Lvl := ℕ) (Val := Elt F) spec6 c [cc6_scratch0])

theorem PhiS_zero (c : Dev nD) (n : ℕ) (h : n ≤ cfg6.N) (hz : n = 0) : PhiS W c n h = Pipeline.scopedRest (Ix := Unit) (Name := ℕ) (U := UR sig nD τ) (Lvl := ℕ) (Val := Elt F) spec6 c := by
  subst hz; rfl

theorem PhiS_succ (c : Dev nD) (n : ℕ) (hn : n < cfg6.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec6 c [cc6_scratch0]) := rfl

theorem PhiS_pos (c : Dev nD) (n : ℕ) (h : n ≤ cfg6.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec6 c [cc6_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg6 c where
  A w := W c (Pipeline.arrRef spec6 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg6.W) : (dat W c).A w = W c (Pipeline.arrRef spec6 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg6.N) :
    (dat W c).Φ t.castSucc = PhiS W c t.val (Nat.le_of_lt t.isLt) := by
  dsimp only [dat]; simp only [Fin.coe_castSucc]

theorem after0 (c : Dev nD) (t : Fin cfg6.N) : (dat W c).after 0 t = iblk W c 0 t := by dsimp only [dat]
theorem after1 (c : Dev nD) (t : Fin cfg6.N) : (dat W c).after 1 t = iblk W c 1 t := by dsimp only [dat]
theorem after2 (c : Dev nD) (t : Fin cfg6.N) : (dat W c).after 2 t = iblk W c 2 t := by dsimp only [dat]
theorem after3 (c : Dev nD) (t : Fin cfg6.N) : (dat W c).after 3 t = iblk W c 3 t := by dsimp only [dat]
theorem after4 (c : Dev nD) (t : Fin cfg6.N) : (dat W c).after 4 t = iblk W c 4 t := by dsimp only [dat]
theorem after5 (c : Dev nD) (t : Fin cfg6.N) : (dat W c).after 5 t = iblk W c 5 t := by dsimp only [dat]
theorem after6 (c : Dev nD) (t : Fin cfg6.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg6.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg6.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg6.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg6.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg6.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg6.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg6.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg6.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg6.N) :
    bodyPre W c t ⊢ wp frame (wpE (defs₀ (F := F)) Variants.none c none) Set.univ (bodyAt6 t) (fun _ => bodyPost W c t) := by
  unfold bodyPre bodyPost bodyAt6
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 6 = 0
  · have hf : isFirst (grid6.coords t) := (isFirst_iff t).mpr h0
    have hnl : ¬isLast (grid6.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid6.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid6.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid6.coords t) := fun h => h0 ((isFirst_iff t).mp h)
    have hz : t.val ≠ 0 := fun h => h0 (by rw [h])
    by_cases h5 : t.val % 6 = 5
    · have hl : isLast (grid6.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid6.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid6.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid6.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W6, bigSep_W6]
  exact sound_body W c t

end Cert.Kernel.R6

end
-- ==== Proof.KR7Runs.lean ====
/-
  Launch 7 (a block row of the adjacency matrix times the vertex features, then the projection: times the transposed
  weight matrix, plus the bias row), one grid point at a time. The grid is 12 row blocks by 12 contraction blocks; the
  body at (m, k) does one of three things, decided by k alone:
    k = 0       the accumulator is set to zero, then the product of the (m, k) tile with rows [1024 k, 1024 k + 1024) of
                the features is added to it; the weights, the bias and the output block are not touched;
    0 < k < 11   the product is added to what the point before left in the accumulator; the rest is not touched;
    k = 11       the same, and then the accumulator times the transposed weight matrix, plus the bias row on every row,
                is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid7.Coords) : Prop := (Scalar.cmpi .ne (Scalar.extui (Scalar.cmpi .eq (BitVec.ofNat 32 (i 1).val) 0#32)) 0#32) = 1#1
/-- The output block is written at this point: the contraction coordinate is 11, the last. -/
abbrev isLast (i : grid7.Coords) : Prop := k7_cond2 i = 1#1

/-- The points whose contraction coordinate is 0 are those ≡ 0 (mod 12): decided over the 144 points. -/
theorem isFirst_iff : ∀ t : Fin cfg7.N, isFirst (grid7.coords t) ↔ t.val % 12 = 0 :=
  (by decide +kernel : ∀ t : Fin grid7.N, isFirst (grid7.coords t) ↔ t.val % 12 = 0)
/-- The points whose contraction coordinate is 11 are those ≡ 11 (mod 12). -/
theorem isLast_iff : ∀ t : Fin cfg7.N, isLast (grid7.coords t) ↔ t.val % 12 = 11 :=
  (by decide +kernel : ∀ t : Fin grid7.N, isLast (grid7.coords t) ↔ t.val % 12 = 11)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S12288x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7_kernel i arg2 harg2 arg3 harg3 arg4 harg4 arg5 harg5 arg6 harg6 arg7 harg7) K } := by
  refine ⟨?_, fun xi4 E K => ?run⟩
  case run =>
    simp only [cc7_kernel_eq_skeleton]; unfold cc7_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 11. As above for everything but the accumulator, which, at what the point before left in it (`xs0`), ends
    with one store over its whole block: `xs0` plus the tile's product. -/
noncomputable def runMiddle (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S12288x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc7_kernel i arg2 harg2 arg3 harg3 arg4 harg4 arg5 harg5 arg6 harg6 arg7 harg7) K } := by
  refine ⟨?_, fun xi4 E K => ?run⟩
  case run =>
    simp only [cc7_kernel_eq_skeleton]; unfold cc7_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 11. As in the middle for the accumulator; the weights and the bias are read and left as they are; and the
    output block — at anything before — ends with one store over its whole block: the accumulator's new contents
    times the transposed weights, plus the bias row. -/
noncomputable def runLast (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S12288x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc7_kernel i arg2 harg2 arg3 harg3 arg4 harg4 arg5 harg5 arg6 harg6 arg7 harg7) K } := by
  refine ⟨?_, ?_, fun E K => ?run⟩
  case run =>
    simp only [cc7_kernel_eq_skeleton]; unfold cc7_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R7

end
-- ==== Proof.KR7Acc.lean ====
/-
  Launch 7, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR7Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg7.N, cfg7.idle 0 (grid7.coords t) = false := by decide +kernel
theorem live_feat : ∀ t : Fin cfg7.N, cfg7.idle 1 (grid7.coords t) = false := by decide +kernel
theorem live_wt : ∀ t : Fin cfg7.N, cfg7.idle 2 (grid7.coords t) = false := by decide +kernel
theorem live_bias : ∀ t : Fin cfg7.N, cfg7.idle 3 (grid7.coords t) = false := by decide +kernel
/-- Away from the last contraction coordinate the output window is idle, and its block is not written back. -/
theorem idle_out : ∀ t : Fin cfg7.N, ¬isLast (grid7.coords t) → cfg7.idle 4 (grid7.coords t) = true := by decide +kernel
theorem noFlush_out : ∀ t : Fin cfg7.N, ¬isLast (grid7.coords t) → (cfg7.win 4).flush t = false := by decide +kernel
/-- At the last contraction coordinate it is live. -/
theorem live_out : ∀ t : Fin cfg7.N, isLast (grid7.coords t) → cfg7.idle 4 (grid7.coords t) = false := by decide +kernel

/-! ## The memrefs the body is called with -/

/-- One staging buffer of the output window, through which its contents are stated (the choice does not matter). -/
abbrev VO : View sig .tc .vmem S1024x256 .f32 := (Memref.whole cc7_stg4_0 : Memref sig .tc .vmem S1024x256 .f32).view
/-- Each window's current staging memref at point `t`, spelled as the pipeline passes it, and its wholeness. -/
abbrev ms0 (t : Fin cfg7.N) : Memref sig .tc .vmem S1024x1024 .bf16 := win7_0.stage (cfg7.slots t 0)
abbrev hs0 (t : Fin cfg7.N) : (ms0 t).IsWhole := hstage7_0 ((cfg7.slots t 0).cast nbuf7_0)
abbrev ms1 (t : Fin cfg7.N) : Memref sig .tc .vmem S12288x256 .f32 := win7_1.stage (cfg7.slots t 1)
abbrev hs1 (t : Fin cfg7.N) : (ms1 t).IsWhole := hstage7_1 ((cfg7.slots t 1).cast nbuf7_1)
abbrev ms2 (t : Fin cfg7.N) : Memref sig .tc .vmem S256x256 .f32 := win7_2.stage (cfg7.slots t 2)
abbrev hs2 (t : Fin cfg7.N) : (ms2 t).IsWhole := hstage7_2 ((cfg7.slots t 2).cast nbuf7_2)
abbrev ms3 (t : Fin cfg7.N) : Memref sig .tc .vmem S1x256 .f32 := win7_3.stage (cfg7.slots t 3)
abbrev hs3 (t : Fin cfg7.N) : (ms3 t).IsWhole := hstage7_3 ((cfg7.slots t 3).cast nbuf7_3)
abbrev ms4 (t : Fin cfg7.N) : Memref sig .tc .vmem S1024x256 .f32 := win7_4.stage (cfg7.slots t 4)
abbrev hs4 (t : Fin cfg7.N) : (ms4 t).IsWhole := hstage7_4 ((cfg7.slots t 4).cast nbuf7_4)
/-- The accumulator: the kernel's own whole scoped buffer. -/
abbrev accM : Memref sig .tc .vmem S1024x256 .f32 := Memref.whole cc7_scratch0
abbrev VS : View sig .tc .vmem S1024x256 .f32 := accM.view

/-! ## What each case leaves -/

section
variable (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg7.W) (t : Fin cfg7.N) : ((cfg7.win w).xblock (cfg7.grid.coords t)).Idx → Elt F (cfg7.win w).elt :=
  ((cfg7.win w).blk t).view.read (Elt F) (W c (Pipeline.arrRef spec7 w))

/-- After the body at position `n`: (the output block, the accumulator). A position ≡ 0 (mod 12) starts from nothing;
    any other continues from the accumulator of the position before; a position ≡ 11 (mod 12) also writes the output. -/
def outsAt (c : Dev nD) : (n : ℕ) → n < cfg7.N → Vec F S1024x256 .f32 × Vec F S1024x256 .f32
  | 0, hn => (idleOut, accFirst c (grid7.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 12 = 0 then
      (idleOut, accFirst c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 12 = 11 then
      (outLast c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid7.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg7.N) (h0 : t.val % 12 = 0) :
    outsAt W c t.val t.isLt = (idleOut, accFirst c (grid7.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg7.N) (h0 : ¬t.val % 12 = 0) (h5 : ¬t.val % 12 = 11) :
    outsAt W c t.val t.isLt = (idleOut, accMiddle c (grid7.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg7.N) (h0 : ¬t.val % 12 = 0) (h5 : t.val % 12 = 11) :
    outsAt W c t.val t.isLt = (outLast c (grid7.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid7.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R7

end
-- ==== Proof.KR7Data.lean ====
/-
  Launch 7's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR7Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec7 c : sProp 𝕄)
      = iprop((∃ d, owns (c : Thread nD τ) accM fullShare d) ∗ Pipeline.scopedRestBut (Ix := Unit) (Name := ℕ) (U := UR sig nD τ) (Lvl := ℕ) (Val := Elt F) spec7 c [cc7_scratch0]) := by
  rw [scopedRest7_split]; simp only [accM, owns_whole]; try rfl

/-- Before position `n`: at the first point every scoped buffer at anything; later the accumulator at what the point
    before left in it, the other scoped buffers at anything. -/
def PhiS (c : Dev nD) : (n : ℕ) → n ≤ cfg7.N → sProp 𝕄
  | 0, _ => Pipeline.scopedRest (Ix := Unit) (Name := ℕ) (U := UR sig nD τ) (Lvl := ℕ) (Val := Elt F) spec7 c
  | n + 1, hn => iprop(owns (c : Thread nD τ) accM fullShare ((outsAt W c n hn).2) ∗ Pipeline.scopedRestBut (Ix := Unit) (Name := ℕ) (U := UR sig nD τ) (Lvl := ℕ) (Val := Elt F) spec7 c [cc7_scratch0])

theorem PhiS_zero (c : Dev nD) (n : ℕ) (h : n ≤ cfg7.N) (hz : n = 0) : PhiS W c n h = Pipeline.scopedRest (Ix := Unit) (Name := ℕ) (U := UR sig nD τ) (Lvl := ℕ) (Val := Elt F) spec7 c := by
  subst hz; rfl

theorem PhiS_succ (c : Dev nD) (n : ℕ) (hn : n < cfg7.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec7 c [cc7_scratch0]) := rfl

theorem PhiS_pos (c : Dev nD) (n : ℕ) (h : n ≤ cfg7.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec7 c [cc7_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg7 c where
  A w := W c (Pipeline.arrRef spec7 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg7.W) : (dat W c).A w = W c (Pipeline.arrRef spec7 w) := by
  dsimp only [dat]

theorem PhiS_castSucc (c : Dev nD) (t : Fin cfg7.N) :
    (dat W c).Φ t.castSucc = PhiS W c t.val (Nat.le_of_lt t.isLt) := by
  dsimp only [dat]; simp only [Fin.coe_castSucc]

theorem after0 (c : Dev nD) (t : Fin cfg7.N) : (dat W c).after 0 t = iblk W c 0 t := by dsimp only [dat]
theorem after1 (c : Dev nD) (t : Fin cfg7.N) : (dat W c).after 1 t = iblk W c 1 t := by dsimp only [dat]
theorem after2 (c : Dev nD) (t : Fin cfg7.N) : (dat W c).after 2 t = iblk W c 2 t := by dsimp only [dat]
theorem after3 (c : Dev nD) (t : Fin cfg7.N) : (dat W c).after 3 t = iblk W c 3 t := by dsimp only [dat]
theorem after4 (c : Dev nD) (t : Fin cfg7.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg7.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg7.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg7.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg7.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg7.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg7.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg7.N) :
    bodyPre W c t ⊢ wp frame (wpE (defs₀ (F := F)) Variants.none c none) Set.univ (bodyAt7 t) (fun _ => bodyPost W c t) := by
  unfold bodyPre bodyPost bodyAt7
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 12 = 0
  · have hf : isFirst (grid7.coords t) := (isFirst_iff t).mpr h0
    have hnl : ¬isLast (grid7.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid7.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid7.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid7.coords t) := fun h => h0 ((isFirst_iff t).mp h)
    have hz : t.val ≠ 0 := fun h => h0 (by rw [h])
    by_cases h5 : t.val % 12 = 11
    · have hl : isLast (grid7.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid7.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid7.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid7.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W7, bigSep_W7]
  exact sound_body W c t

end Cert.Kernel.R7

end
-- ==== Proof.KR8Runs.lean ====
/-
  Launch 8 (an adjacency product with the fused epilogue), one grid point at a time. The grid is 12 row blocks by
  12 contraction blocks; the body at (m, k) does one of three things, decided by k alone:
    k = 0       the accumulator is set to zero, then the product of the (m, k) tile with rows [1024 k, 1024 k + 1024) of
                the resident feature matrix (rounded to bf16) is added to it; the output block is not touched;
    0 < k < 11   the product is added to what the point before left in the accumulator; the output block is not touched;
    k = 11       the same, and then the epilogue — the accumulator (rounded to bf16) times the transposed weight (rounded
                to bf16), plus the bias row, plus the first skip block, clamped below at zero, plus the second skip block —
                is stored over the whole output block.
  The weight, the bias row and the two skip blocks are only read at k = 11; every input buffer is left as it was.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid8.Coords) : Prop := (Scalar.cmpi .ne (Scalar.extui (Scalar.cmpi .eq (BitVec.ofNat 32 (i 1).val) 0#32)) 0#32) = 1#1
/-- The output block is written at this point: the contraction coordinate is 11, the last. -/
abbrev isLast (i : grid8.Coords) : Prop := k8_cond2 i = 1#1

/-- The points whose contraction coordinate is 0 are those ≡ 0 (mod 12): decided over the 144 points. -/
theorem isFirst_iff : ∀ t : Fin cfg8.N, isFirst (grid8.coords t) ↔ t.val % 12 = 0 :=
  (by decide +kernel : ∀ t : Fin grid8.N, isFirst (grid8.coords t) ↔ t.val % 12 = 0)
/-- The points whose contraction coordinate is 11 are those ≡ 11 (mod 12). -/
theorem isLast_iff : ∀ t : Fin cfg8.N, isLast (grid8.coords t) ↔ t.val % 12 = 11 :=
  (by decide +kernel : ∀ t : Fin grid8.N, isLast (grid8.coords t) ↔ t.val % 12 = 11)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8_kernel i arg2 harg2 arg3 harg3 arg4 harg4 arg5 harg5 arg6 harg6 arg7 harg7 arg8 harg8 arg9 harg9) K } := by
  refine ⟨?_, fun xi6 E K => ?run⟩
  case run =>
    simp only [cc8_kernel_eq_skeleton]; unfold cc8_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 11. The six inputs are left as they are, the output block is handed back untouched, and the accumulator, at
    what the point before left in it (`xs0`), ends with one store over its whole block: `xs0` plus the tile's product. -/
noncomputable def runMiddle (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8_kernel i arg2 harg2 arg3 harg3 arg4 harg4 arg5 harg5 arg6 harg6 arg7 harg7 arg8 harg8 arg9 harg9) K } := by
  refine ⟨?_, fun xi6 E K => ?run⟩
  case run =>
    simp only [cc8_kernel_eq_skeleton]; unfold cc8_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 11. As in the middle for the accumulator; and the output block — at anything before — ends with one store over
    its whole block: the epilogue of the accumulator's new contents, the weight, the bias row and the two skip blocks. -/
noncomputable def runLast (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc8_kernel i arg2 harg2 arg3 harg3 arg4 harg4 arg5 harg5 arg6 harg6 arg7 harg7 arg8 harg8 arg9 harg9) K } := by
  refine ⟨?_, ?_, fun E K => ?run⟩
  case run =>
    simp only [cc8_kernel_eq_skeleton]; unfold cc8_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R8

end
-- ==== Proof.KR8Acc.lean ====
/-
  Launch 8, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR8Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg8.N, cfg8.idle 0 (grid8.coords t) = false := by decide +kernel
theorem live_in1 : ∀ t : Fin cfg8.N, cfg8.idle 1 (grid8.coords t) = false := by decide +kernel
theorem live_in2 : ∀ t : Fin cfg8.N, cfg8.idle 2 (grid8.coords t) = false := by decide +kernel
theorem live_in3 : ∀ t : Fin cfg8.N, cfg8.idle 3 (grid8.coords t) = false := by decide +kernel
theorem live_in4 : ∀ t : Fin cfg8.N, cfg8.idle 4 (grid8.coords t) = false := by decide +kernel
theorem live_in5 : ∀ t : Fin cfg8.N, cfg8.idle 5 (grid8.coords t) = false := by decide +kernel
/-- Away from the last contraction coordinate the output window is idle, and its block is not written back. -/
theorem idle_out : ∀ t : Fin cfg8.N, ¬isLast (grid8.coords t) → cfg8.idle 6 (grid8.coords t) = true := by decide +kernel
theorem noFlush_out : ∀ t : Fin cfg8.N, ¬isLast (grid8.coords t) → (cfg8.win 6).flush t = false := by decide +kernel
/-- At the last contraction coordinate it is live. -/
theorem live_out : ∀ t : Fin cfg8.N, isLast (grid8.coords t) → cfg8.idle 6 (grid8.coords t) = false := by decide +kernel

/-! ## The memrefs the body is called with -/

/-- One staging buffer of the output window, through which its contents are stated (the choice does not matter). -/
abbrev VO : View sig .tc .vmem S1024x256 .f32 := (Memref.whole cc8_stg6_0 : Memref sig .tc .vmem S1024x256 .f32).view
/-- Each window's current staging memref at point `t`, spelled as the pipeline passes it, and its wholeness. -/
abbrev ms0 (t : Fin cfg8.N) : Memref sig .tc .vmem S1024x1024 .bf16 := win8_0.stage (cfg8.slots t 0)
abbrev hs0 (t : Fin cfg8.N) : (ms0 t).IsWhole := hstage8_0 ((cfg8.slots t 0).cast nbuf8_0)
abbrev ms1 (t : Fin cfg8.N) : Memref sig .tc .vmem S12288x256 .f32 := win8_1.stage (cfg8.slots t 1)
abbrev hs1 (t : Fin cfg8.N) : (ms1 t).IsWhole := hstage8_1 ((cfg8.slots t 1).cast nbuf8_1)
abbrev ms2 (t : Fin cfg8.N) : Memref sig .tc .vmem S256x256 .f32 := win8_2.stage (cfg8.slots t 2)
abbrev hs2 (t : Fin cfg8.N) : (ms2 t).IsWhole := hstage8_2 ((cfg8.slots t 2).cast nbuf8_2)
abbrev ms3 (t : Fin cfg8.N) : Memref sig .tc .vmem S1x256 .f32 := win8_3.stage (cfg8.slots t 3)
abbrev hs3 (t : Fin cfg8.N) : (ms3 t).IsWhole := hstage8_3 ((cfg8.slots t 3).cast nbuf8_3)
abbrev ms4 (t : Fin cfg8.N) : Memref sig .tc .vmem S1024x256 .f32 := win8_4.stage (cfg8.slots t 4)
abbrev hs4 (t : Fin cfg8.N) : (ms4 t).IsWhole := hstage8_4 ((cfg8.slots t 4).cast nbuf8_4)
abbrev ms5 (t : Fin cfg8.N) : Memref sig .tc .vmem S1024x256 .f32 := win8_5.stage (cfg8.slots t 5)
abbrev hs5 (t : Fin cfg8.N) : (ms5 t).IsWhole := hstage8_5 ((cfg8.slots t 5).cast nbuf8_5)
abbrev ms6 (t : Fin cfg8.N) : Memref sig .tc .vmem S1024x256 .f32 := win8_6.stage (cfg8.slots t 6)
abbrev hs6 (t : Fin cfg8.N) : (ms6 t).IsWhole := hstage8_6 ((cfg8.slots t 6).cast nbuf8_6)
/-- The accumulator: the kernel's own whole scoped buffer. -/
abbrev accM : Memref sig .tc .vmem S1024x256 .f32 := Memref.whole cc8_scratch0
abbrev VS : View sig .tc .vmem S1024x256 .f32 := accM.view

/-! ## What each case leaves -/

section
variable (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg8.W) (t : Fin cfg8.N) : ((cfg8.win w).xblock (cfg8.grid.coords t)).Idx → Elt F (cfg8.win w).elt :=
  ((cfg8.win w).blk t).view.read (Elt F) (W c (Pipeline.arrRef spec8 w))

/-- After the body at position `n`: (the output block, the accumulator). A position ≡ 0 (mod 12) starts from nothing;
    any other continues from the accumulator of the position before; a position ≡ 11 (mod 12) also writes the output. -/
def outsAt (c : Dev nD) : (n : ℕ) → n < cfg8.N → Vec F S1024x256 .f32 × Vec F S1024x256 .f32
  | 0, hn => (idleOut, accFirst c (grid8.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 12 = 0 then
      (idleOut, accFirst c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 12 = 11 then
      (outLast c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid8.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg8.N) (h0 : t.val % 12 = 0) :
    outsAt W c t.val t.isLt = (idleOut, accFirst c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg8.N) (h0 : ¬t.val % 12 = 0) (h5 : ¬t.val % 12 = 11) :
    outsAt W c t.val t.isLt = (idleOut, accMiddle c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg8.N) (h0 : ¬t.val % 12 = 0) (h5 : t.val % 12 = 11) :
    outsAt W c t.val t.isLt = (outLast c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R8

end
-- ==== Proof.KR8Data.lean ====
/-
  Launch 8's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR8Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec8 c : sProp 𝕄)
      = iprop((∃ d, owns (c : Thread nD τ) accM fullShare d) ∗ Pipeline.scopedRestBut (Ix := Unit) (Name := ℕ) (U := UR sig nD τ) (Lvl := ℕ) (Val := Elt F) spec8 c [cc8_scratch0]) := by
  rw [scopedRest8_split]; simp only [accM, owns_whole]; try rfl

/-- Before position `n`: at the first point every scoped buffer at anything; later the accumulator at what the point
    before left in it, the other scoped buffers at anything. -/
def PhiS (c : Dev nD) : (n : ℕ) → n ≤ cfg8.N → sProp 𝕄
  | 0, _ => Pipeline.scopedRest (Ix := Unit) (Name := ℕ) (U := UR sig nD τ) (Lvl := ℕ) (Val := Elt F) spec8 c
  | n + 1, hn => iprop(owns (c : Thread nD τ) accM fullShare ((outsAt W c n hn).2) ∗ Pipeline.scopedRestBut (Ix := Unit) (Name := ℕ) (U := UR sig nD τ) (Lvl := ℕ) (Val := Elt F) spec8 c [cc8_scratch0])

theorem PhiS_zero (c : Dev nD) (n : ℕ) (h : n ≤ cfg8.N) (hz : n = 0) : PhiS W c n h = Pipeline.scopedRest (Ix := Unit) (Name := ℕ) (U := UR sig nD τ) (Lvl := ℕ) (Val := Elt F) spec8 c := by
  subst hz; rfl

theorem PhiS_succ (c : Dev nD) (n : ℕ) (hn : n < cfg8.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec8 c [cc8_scratch0]) := rfl

theorem PhiS_pos (c : Dev nD) (n : ℕ) (h : n ≤ cfg8.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec8 c [cc8_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg8 c where
  A w := W c (Pipeline.arrRef spec8 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg8.W) : (dat W c).A w = W c (Pipeline.arrRef spec8 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg8.N) :
    (dat W c).Φ t.castSucc = PhiS W c t.val (Nat.le_of_lt t.isLt) := by
  dsimp only [dat]; simp only [Fin.coe_castSucc]

theorem after0 (c : Dev nD) (t : Fin cfg8.N) : (dat W c).after 0 t = iblk W c 0 t := by dsimp only [dat]
theorem after1 (c : Dev nD) (t : Fin cfg8.N) : (dat W c).after 1 t = iblk W c 1 t := by dsimp only [dat]
theorem after2 (c : Dev nD) (t : Fin cfg8.N) : (dat W c).after 2 t = iblk W c 2 t := by dsimp only [dat]
theorem after3 (c : Dev nD) (t : Fin cfg8.N) : (dat W c).after 3 t = iblk W c 3 t := by dsimp only [dat]
theorem after4 (c : Dev nD) (t : Fin cfg8.N) : (dat W c).after 4 t = iblk W c 4 t := by dsimp only [dat]
theorem after5 (c : Dev nD) (t : Fin cfg8.N) : (dat W c).after 5 t = iblk W c 5 t := by dsimp only [dat]
theorem after6 (c : Dev nD) (t : Fin cfg8.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg8.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg8.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg8.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg8.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg8.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg8.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg8.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg8.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg8.N) :
    bodyPre W c t ⊢ wp frame (wpE (defs₀ (F := F)) Variants.none c none) Set.univ (bodyAt8 t) (fun _ => bodyPost W c t) := by
  unfold bodyPre bodyPost bodyAt8
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 12 = 0
  · have hf : isFirst (grid8.coords t) := (isFirst_iff t).mpr h0
    have hnl : ¬isLast (grid8.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid8.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid8.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid8.coords t) := fun h => h0 ((isFirst_iff t).mp h)
    have hz : t.val ≠ 0 := fun h => h0 (by rw [h])
    by_cases h5 : t.val % 12 = 11
    · have hl : isLast (grid8.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid8.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid8.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid8.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W8, bigSep_W8]
  exact sound_body W c t

end Cert.Kernel.R8

end
-- ==== Proof.KR9Runs.lean ====
/-
  Launch 9 (a block row of the adjacency matrix times the vertex features, then the projection: times the transposed
  weight matrix, plus the bias row), one grid point at a time. The grid is 12 row blocks by 12 contraction blocks; the
  body at (m, k) does one of three things, decided by k alone:
    k = 0       the accumulator is set to zero, then the product of the (m, k) tile with rows [1024 k, 1024 k + 1024) of
                the features is added to it; the weights, the bias and the output block are not touched;
    0 < k < 11   the product is added to what the point before left in the accumulator; the rest is not touched;
    k = 11       the same, and then the accumulator times the transposed weight matrix, plus the bias row on every row,
                is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid9.Coords) : Prop := (Scalar.cmpi .ne (Scalar.extui (Scalar.cmpi .eq (BitVec.ofNat 32 (i 1).val) 0#32)) 0#32) = 1#1
/-- The output block is written at this point: the contraction coordinate is 11, the last. -/
abbrev isLast (i : grid9.Coords) : Prop := k9_cond2 i = 1#1

/-- The points whose contraction coordinate is 0 are those ≡ 0 (mod 12): decided over the 144 points. -/
theorem isFirst_iff : ∀ t : Fin cfg9.N, isFirst (grid9.coords t) ↔ t.val % 12 = 0 :=
  (by decide +kernel : ∀ t : Fin grid9.N, isFirst (grid9.coords t) ↔ t.val % 12 = 0)
/-- The points whose contraction coordinate is 11 are those ≡ 11 (mod 12). -/
theorem isLast_iff : ∀ t : Fin cfg9.N, isLast (grid9.coords t) ↔ t.val % 12 = 11 :=
  (by decide +kernel : ∀ t : Fin grid9.N, isLast (grid9.coords t) ↔ t.val % 12 = 11)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S12288x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9_kernel i arg2 harg2 arg3 harg3 arg4 harg4 arg5 harg5 arg6 harg6 arg7 harg7) K } := by
  refine ⟨?_, fun xi4 E K => ?run⟩
  case run =>
    simp only [cc9_kernel_eq_skeleton]; unfold cc9_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 11. As above for everything but the accumulator, which, at what the point before left in it (`xs0`), ends
    with one store over its whole block: `xs0` plus the tile's product. -/
noncomputable def runMiddle (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S12288x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc9_kernel i arg2 harg2 arg3 harg3 arg4 harg4 arg5 harg5 arg6 harg6 arg7 harg7) K } := by
  refine ⟨?_, fun xi4 E K => ?run⟩
  case run =>
    simp only [cc9_kernel_eq_skeleton]; unfold cc9_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 11. As in the middle for the accumulator; the weights and the bias are read and left as they are; and the
    output block — at anything before — ends with one store over its whole block: the accumulator's new contents
    times the transposed weights, plus the bias row. -/
noncomputable def runLast (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S12288x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc9_kernel i arg2 harg2 arg3 harg3 arg4 harg4 arg5 harg5 arg6 harg6 arg7 harg7) K } := by
  refine ⟨?_, ?_, fun E K => ?run⟩
  case run =>
    simp only [cc9_kernel_eq_skeleton]; unfold cc9_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R9

end
-- ==== Proof.KR9Acc.lean ====
/-
  Launch 9, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR9Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg9.N, cfg9.idle 0 (grid9.coords t) = false := by decide +kernel
theorem live_feat : ∀ t : Fin cfg9.N, cfg9.idle 1 (grid9.coords t) = false := by decide +kernel
theorem live_wt : ∀ t : Fin cfg9.N, cfg9.idle 2 (grid9.coords t) = false := by decide +kernel
theorem live_bias : ∀ t : Fin cfg9.N, cfg9.idle 3 (grid9.coords t) = false := by decide +kernel
/-- Away from the last contraction coordinate the output window is idle, and its block is not written back. -/
theorem idle_out : ∀ t : Fin cfg9.N, ¬isLast (grid9.coords t) → cfg9.idle 4 (grid9.coords t) = true := by decide +kernel
theorem noFlush_out : ∀ t : Fin cfg9.N, ¬isLast (grid9.coords t) → (cfg9.win 4).flush t = false := by decide +kernel
/-- At the last contraction coordinate it is live. -/
theorem live_out : ∀ t : Fin cfg9.N, isLast (grid9.coords t) → cfg9.idle 4 (grid9.coords t) = false := by decide +kernel

/-! ## The memrefs the body is called with -/

/-- One staging buffer of the output window, through which its contents are stated (the choice does not matter). -/
abbrev VO : View sig .tc .vmem S1024x256 .f32 := (Memref.whole cc9_stg4_0 : Memref sig .tc .vmem S1024x256 .f32).view
/-- Each window's current staging memref at point `t`, spelled as the pipeline passes it, and its wholeness. -/
abbrev ms0 (t : Fin cfg9.N) : Memref sig .tc .vmem S1024x1024 .bf16 := win9_0.stage (cfg9.slots t 0)
abbrev hs0 (t : Fin cfg9.N) : (ms0 t).IsWhole := hstage9_0 ((cfg9.slots t 0).cast nbuf9_0)
abbrev ms1 (t : Fin cfg9.N) : Memref sig .tc .vmem S12288x256 .f32 := win9_1.stage (cfg9.slots t 1)
abbrev hs1 (t : Fin cfg9.N) : (ms1 t).IsWhole := hstage9_1 ((cfg9.slots t 1).cast nbuf9_1)
abbrev ms2 (t : Fin cfg9.N) : Memref sig .tc .vmem S256x256 .f32 := win9_2.stage (cfg9.slots t 2)
abbrev hs2 (t : Fin cfg9.N) : (ms2 t).IsWhole := hstage9_2 ((cfg9.slots t 2).cast nbuf9_2)
abbrev ms3 (t : Fin cfg9.N) : Memref sig .tc .vmem S1x256 .f32 := win9_3.stage (cfg9.slots t 3)
abbrev hs3 (t : Fin cfg9.N) : (ms3 t).IsWhole := hstage9_3 ((cfg9.slots t 3).cast nbuf9_3)
abbrev ms4 (t : Fin cfg9.N) : Memref sig .tc .vmem S1024x256 .f32 := win9_4.stage (cfg9.slots t 4)
abbrev hs4 (t : Fin cfg9.N) : (ms4 t).IsWhole := hstage9_4 ((cfg9.slots t 4).cast nbuf9_4)
/-- The accumulator: the kernel's own whole scoped buffer. -/
abbrev accM : Memref sig .tc .vmem S1024x256 .f32 := Memref.whole cc9_scratch0
abbrev VS : View sig .tc .vmem S1024x256 .f32 := accM.view

/-! ## What each case leaves -/

section
variable (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg9.W) (t : Fin cfg9.N) : ((cfg9.win w).xblock (cfg9.grid.coords t)).Idx → Elt F (cfg9.win w).elt :=
  ((cfg9.win w).blk t).view.read (Elt F) (W c (Pipeline.arrRef spec9 w))

/-- After the body at position `n`: (the output block, the accumulator). A position ≡ 0 (mod 12) starts from nothing;
    any other continues from the accumulator of the position before; a position ≡ 11 (mod 12) also writes the output. -/
def outsAt (c : Dev nD) : (n : ℕ) → n < cfg9.N → Vec F S1024x256 .f32 × Vec F S1024x256 .f32
  | 0, hn => (idleOut, accFirst c (grid9.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 12 = 0 then
      (idleOut, accFirst c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 12 = 11 then
      (outLast c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid9.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg9.N) (h0 : t.val % 12 = 0) :
    outsAt W c t.val t.isLt = (idleOut, accFirst c (grid9.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg9.N) (h0 : ¬t.val % 12 = 0) (h5 : ¬t.val % 12 = 11) :
    outsAt W c t.val t.isLt = (idleOut, accMiddle c (grid9.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg9.N) (h0 : ¬t.val % 12 = 0) (h5 : t.val % 12 = 11) :
    outsAt W c t.val t.isLt = (outLast c (grid9.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid9.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R9

end
-- ==== Proof.KR9Data.lean ====
/-
  Launch 9's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR9Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec9 c : sProp 𝕄)
      = iprop((∃ d, owns (c : Thread nD τ) accM fullShare d) ∗ Pipeline.scopedRestBut (Ix := Unit) (Name := ℕ) (U := UR sig nD τ) (Lvl := ℕ) (Val := Elt F) spec9 c [cc9_scratch0]) := by
  rw [scopedRest9_split]; simp only [accM, owns_whole]; try rfl

/-- Before position `n`: at the first point every scoped buffer at anything; later the accumulator at what the point
    before left in it, the other scoped buffers at anything. -/
def PhiS (c : Dev nD) : (n : ℕ) → n ≤ cfg9.N → sProp 𝕄
  | 0, _ => Pipeline.scopedRest (Ix := Unit) (Name := ℕ) (U := UR sig nD τ) (Lvl := ℕ) (Val := Elt F) spec9 c
  | n + 1, hn => iprop(owns (c : Thread nD τ) accM fullShare ((outsAt W c n hn).2) ∗ Pipeline.scopedRestBut (Ix := Unit) (Name := ℕ) (U := UR sig nD τ) (Lvl := ℕ) (Val := Elt F) spec9 c [cc9_scratch0])

theorem PhiS_zero (c : Dev nD) (n : ℕ) (h : n ≤ cfg9.N) (hz : n = 0) : PhiS W c n h = Pipeline.scopedRest (Ix := Unit) (Name := ℕ) (U := UR sig nD τ) (Lvl := ℕ) (Val := Elt F) spec9 c := by
  subst hz; rfl

theorem PhiS_succ (c : Dev nD) (n : ℕ) (hn : n < cfg9.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec9 c [cc9_scratch0]) := rfl

theorem PhiS_pos (c : Dev nD) (n : ℕ) (h : n ≤ cfg9.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec9 c [cc9_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg9 c where
  A w := W c (Pipeline.arrRef spec9 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg9.W) : (dat W c).A w = W c (Pipeline.arrRef spec9 w) := by
  dsimp only [dat]

theorem PhiS_castSucc (c : Dev nD) (t : Fin cfg9.N) :
    (dat W c).Φ t.castSucc = PhiS W c t.val (Nat.le_of_lt t.isLt) := by
  dsimp only [dat]; simp only [Fin.coe_castSucc]

theorem after0 (c : Dev nD) (t : Fin cfg9.N) : (dat W c).after 0 t = iblk W c 0 t := by dsimp only [dat]
theorem after1 (c : Dev nD) (t : Fin cfg9.N) : (dat W c).after 1 t = iblk W c 1 t := by dsimp only [dat]
theorem after2 (c : Dev nD) (t : Fin cfg9.N) : (dat W c).after 2 t = iblk W c 2 t := by dsimp only [dat]
theorem after3 (c : Dev nD) (t : Fin cfg9.N) : (dat W c).after 3 t = iblk W c 3 t := by dsimp only [dat]
theorem after4 (c : Dev nD) (t : Fin cfg9.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg9.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg9.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg9.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg9.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg9.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg9.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg9.N) :
    bodyPre W c t ⊢ wp frame (wpE (defs₀ (F := F)) Variants.none c none) Set.univ (bodyAt9 t) (fun _ => bodyPost W c t) := by
  unfold bodyPre bodyPost bodyAt9
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 12 = 0
  · have hf : isFirst (grid9.coords t) := (isFirst_iff t).mpr h0
    have hnl : ¬isLast (grid9.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid9.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid9.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid9.coords t) := fun h => h0 ((isFirst_iff t).mp h)
    have hz : t.val ≠ 0 := fun h => h0 (by rw [h])
    by_cases h5 : t.val % 12 = 11
    · have hl : isLast (grid9.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid9.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid9.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid9.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W9, bigSep_W9]
  exact sound_body W c t

end Cert.Kernel.R9

end
-- ==== Proof.KR10Runs.lean ====
/-
  Launch 10 (an adjacency product with the fused epilogue), one grid point at a time. The grid is 12 row blocks by
  12 contraction blocks; the body at (m, k) does one of three things, decided by k alone:
    k = 0       the accumulator is set to zero, then the product of the (m, k) tile with rows [1024 k, 1024 k + 1024) of
                the resident feature matrix (rounded to bf16) is added to it; the output block is not touched;
    0 < k < 11   the product is added to what the point before left in the accumulator; the output block is not touched;
    k = 11       the same, and then the epilogue — the accumulator (rounded to bf16) times the transposed weight (rounded
                to bf16), plus the bias row, plus the first skip block, clamped below at zero, plus the second skip block —
                is stored over the whole output block.
  The weight, the bias row and the two skip blocks are only read at k = 11; every input buffer is left as it was.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid10.Coords) : Prop := (Scalar.cmpi .ne (Scalar.extui (Scalar.cmpi .eq (BitVec.ofNat 32 (i 1).val) 0#32)) 0#32) = 1#1
/-- The output block is written at this point: the contraction coordinate is 11, the last. -/
abbrev isLast (i : grid10.Coords) : Prop := k10_cond2 i = 1#1

/-- The points whose contraction coordinate is 0 are those ≡ 0 (mod 12): decided over the 144 points. -/
theorem isFirst_iff : ∀ t : Fin cfg10.N, isFirst (grid10.coords t) ↔ t.val % 12 = 0 :=
  (by decide +kernel : ∀ t : Fin grid10.N, isFirst (grid10.coords t) ↔ t.val % 12 = 0)
/-- The points whose contraction coordinate is 11 are those ≡ 11 (mod 12). -/
theorem isLast_iff : ∀ t : Fin cfg10.N, isLast (grid10.coords t) ↔ t.val % 12 = 11 :=
  (by decide +kernel : ∀ t : Fin grid10.N, isLast (grid10.coords t) ↔ t.val % 12 = 11)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc10_kernel i arg2 harg2 arg3 harg3 arg4 harg4 arg5 harg5 arg6 harg6 arg7 harg7 arg8 harg8 arg9 harg9) K } := by
  refine ⟨?_, fun xi6 E K => ?run⟩
  case run =>
    simp only [cc10_kernel_eq_skeleton]; unfold cc10_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 11. The six inputs are left as they are, the output block is handed back untouched, and the accumulator, at
    what the point before left in it (`xs0`), ends with one store over its whole block: `xs0` plus the tile's product. -/
noncomputable def runMiddle (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc10_kernel i arg2 harg2 arg3 harg3 arg4 harg4 arg5 harg5 arg6 harg6 arg7 harg7 arg8 harg8 arg9 harg9) K } := by
  refine ⟨?_, fun xi6 E K => ?run⟩
  case run =>
    simp only [cc10_kernel_eq_skeleton]; unfold cc10_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 11. As in the middle for the accumulator; and the output block — at anything before — ends with one store over
    its whole block: the epilogue of the accumulator's new contents, the weight, the bias row and the two skip blocks. -/
noncomputable def runLast (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc10_kernel i arg2 harg2 arg3 harg3 arg4 harg4 arg5 harg5 arg6 harg6 arg7 harg7 arg8 harg8 arg9 harg9) K } := by
  refine ⟨?_, ?_, fun E K => ?run⟩
  case run =>
    simp only [cc10_kernel_eq_skeleton]; unfold cc10_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R10

end
-- ==== Proof.KR10Acc.lean ====
/-
  Launch 10, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR10Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg10.N, cfg10.idle 0 (grid10.coords t) = false := by decide +kernel
theorem live_in1 : ∀ t : Fin cfg10.N, cfg10.idle 1 (grid10.coords t) = false := by decide +kernel
theorem live_in2 : ∀ t : Fin cfg10.N, cfg10.idle 2 (grid10.coords t) = false := by decide +kernel
theorem live_in3 : ∀ t : Fin cfg10.N, cfg10.idle 3 (grid10.coords t) = false := by decide +kernel
theorem live_in4 : ∀ t : Fin cfg10.N, cfg10.idle 4 (grid10.coords t) = false := by decide +kernel
theorem live_in5 : ∀ t : Fin cfg10.N, cfg10.idle 5 (grid10.coords t) = false := by decide +kernel
/-- Away from the last contraction coordinate the output window is idle, and its block is not written back. -/
theorem idle_out : ∀ t : Fin cfg10.N, ¬isLast (grid10.coords t) → cfg10.idle 6 (grid10.coords t) = true := by decide +kernel
theorem noFlush_out : ∀ t : Fin cfg10.N, ¬isLast (grid10.coords t) → (cfg10.win 6).flush t = false := by decide +kernel
/-- At the last contraction coordinate it is live. -/
theorem live_out : ∀ t : Fin cfg10.N, isLast (grid10.coords t) → cfg10.idle 6 (grid10.coords t) = false := by decide +kernel

/-! ## The memrefs the body is called with -/

/-- One staging buffer of the output window, through which its contents are stated (the choice does not matter). -/
abbrev VO : View sig .tc .vmem S1024x256 .f32 := (Memref.whole cc10_stg6_0 : Memref sig .tc .vmem S1024x256 .f32).view
/-- Each window's current staging memref at point `t`, spelled as the pipeline passes it, and its wholeness. -/
abbrev ms0 (t : Fin cfg10.N) : Memref sig .tc .vmem S1024x1024 .bf16 := win10_0.stage (cfg10.slots t 0)
abbrev hs0 (t : Fin cfg10.N) : (ms0 t).IsWhole := hstage10_0 ((cfg10.slots t 0).cast nbuf10_0)
abbrev ms1 (t : Fin cfg10.N) : Memref sig .tc .vmem S12288x256 .f32 := win10_1.stage (cfg10.slots t 1)
abbrev hs1 (t : Fin cfg10.N) : (ms1 t).IsWhole := hstage10_1 ((cfg10.slots t 1).cast nbuf10_1)
abbrev ms2 (t : Fin cfg10.N) : Memref sig .tc .vmem S256x256 .f32 := win10_2.stage (cfg10.slots t 2)
abbrev hs2 (t : Fin cfg10.N) : (ms2 t).IsWhole := hstage10_2 ((cfg10.slots t 2).cast nbuf10_2)
abbrev ms3 (t : Fin cfg10.N) : Memref sig .tc .vmem S1x256 .f32 := win10_3.stage (cfg10.slots t 3)
abbrev hs3 (t : Fin cfg10.N) : (ms3 t).IsWhole := hstage10_3 ((cfg10.slots t 3).cast nbuf10_3)
abbrev ms4 (t : Fin cfg10.N) : Memref sig .tc .vmem S1024x256 .f32 := win10_4.stage (cfg10.slots t 4)
abbrev hs4 (t : Fin cfg10.N) : (ms4 t).IsWhole := hstage10_4 ((cfg10.slots t 4).cast nbuf10_4)
abbrev ms5 (t : Fin cfg10.N) : Memref sig .tc .vmem S1024x256 .f32 := win10_5.stage (cfg10.slots t 5)
abbrev hs5 (t : Fin cfg10.N) : (ms5 t).IsWhole := hstage10_5 ((cfg10.slots t 5).cast nbuf10_5)
abbrev ms6 (t : Fin cfg10.N) : Memref sig .tc .vmem S1024x256 .f32 := win10_6.stage (cfg10.slots t 6)
abbrev hs6 (t : Fin cfg10.N) : (ms6 t).IsWhole := hstage10_6 ((cfg10.slots t 6).cast nbuf10_6)
/-- The accumulator: the kernel's own whole scoped buffer. -/
abbrev accM : Memref sig .tc .vmem S1024x256 .f32 := Memref.whole cc10_scratch0
abbrev VS : View sig .tc .vmem S1024x256 .f32 := accM.view

/-! ## What each case leaves -/

section
variable (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg10.W) (t : Fin cfg10.N) : ((cfg10.win w).xblock (cfg10.grid.coords t)).Idx → Elt F (cfg10.win w).elt :=
  ((cfg10.win w).blk t).view.read (Elt F) (W c (Pipeline.arrRef spec10 w))

/-- After the body at position `n`: (the output block, the accumulator). A position ≡ 0 (mod 12) starts from nothing;
    any other continues from the accumulator of the position before; a position ≡ 11 (mod 12) also writes the output. -/
def outsAt (c : Dev nD) : (n : ℕ) → n < cfg10.N → Vec F S1024x256 .f32 × Vec F S1024x256 .f32
  | 0, hn => (idleOut, accFirst c (grid10.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 12 = 0 then
      (idleOut, accFirst c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 12 = 11 then
      (outLast c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid10.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg10.N) (h0 : t.val % 12 = 0) :
    outsAt W c t.val t.isLt = (idleOut, accFirst c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg10.N) (h0 : ¬t.val % 12 = 0) (h5 : ¬t.val % 12 = 11) :
    outsAt W c t.val t.isLt = (idleOut, accMiddle c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg10.N) (h0 : ¬t.val % 12 = 0) (h5 : t.val % 12 = 11) :
    outsAt W c t.val t.isLt = (outLast c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R10

end
-- ==== Proof.KR10Data.lean ====
/-
  Launch 10's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR10Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec10 c : sProp 𝕄)
      = iprop((∃ d, owns (c : Thread nD τ) accM fullShare d) ∗ Pipeline.scopedRestBut (Ix := Unit) (Name := ℕ) (U := UR sig nD τ) (Lvl := ℕ) (Val := Elt F) spec10 c [cc10_scratch0]) := by
  rw [scopedRest10_split]; simp only [accM, owns_whole]; try rfl

/-- Before position `n`: at the first point every scoped buffer at anything; later the accumulator at what the point
    before left in it, the other scoped buffers at anything. -/
def PhiS (c : Dev nD) : (n : ℕ) → n ≤ cfg10.N → sProp 𝕄
  | 0, _ => Pipeline.scopedRest (Ix := Unit) (Name := ℕ) (U := UR sig nD τ) (Lvl := ℕ) (Val := Elt F) spec10 c
  | n + 1, hn => iprop(owns (c : Thread nD τ) accM fullShare ((outsAt W c n hn).2) ∗ Pipeline.scopedRestBut (Ix := Unit) (Name := ℕ) (U := UR sig nD τ) (Lvl := ℕ) (Val := Elt F) spec10 c [cc10_scratch0])

theorem PhiS_zero (c : Dev nD) (n : ℕ) (h : n ≤ cfg10.N) (hz : n = 0) : PhiS W c n h = Pipeline.scopedRest (Ix := Unit) (Name := ℕ) (U := UR sig nD τ) (Lvl := ℕ) (Val := Elt F) spec10 c := by
  subst hz; rfl

theorem PhiS_succ (c : Dev nD) (n : ℕ) (hn : n < cfg10.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec10 c [cc10_scratch0]) := rfl

theorem PhiS_pos (c : Dev nD) (n : ℕ) (h : n ≤ cfg10.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec10 c [cc10_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg10 c where
  A w := W c (Pipeline.arrRef spec10 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg10.W) : (dat W c).A w = W c (Pipeline.arrRef spec10 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg10.N) :
    (dat W c).Φ t.castSucc = PhiS W c t.val (Nat.le_of_lt t.isLt) := by
  dsimp only [dat]; simp only [Fin.coe_castSucc]

theorem after0 (c : Dev nD) (t : Fin cfg10.N) : (dat W c).after 0 t = iblk W c 0 t := by dsimp only [dat]
theorem after1 (c : Dev nD) (t : Fin cfg10.N) : (dat W c).after 1 t = iblk W c 1 t := by dsimp only [dat]
theorem after2 (c : Dev nD) (t : Fin cfg10.N) : (dat W c).after 2 t = iblk W c 2 t := by dsimp only [dat]
theorem after3 (c : Dev nD) (t : Fin cfg10.N) : (dat W c).after 3 t = iblk W c 3 t := by dsimp only [dat]
theorem after4 (c : Dev nD) (t : Fin cfg10.N) : (dat W c).after 4 t = iblk W c 4 t := by dsimp only [dat]
theorem after5 (c : Dev nD) (t : Fin cfg10.N) : (dat W c).after 5 t = iblk W c 5 t := by dsimp only [dat]
theorem after6 (c : Dev nD) (t : Fin cfg10.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg10.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg10.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg10.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg10.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg10.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg10.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg10.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg10.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg10.N) :
    bodyPre W c t ⊢ wp frame (wpE (defs₀ (F := F)) Variants.none c none) Set.univ (bodyAt10 t) (fun _ => bodyPost W c t) := by
  unfold bodyPre bodyPost bodyAt10
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 12 = 0
  · have hf : isFirst (grid10.coords t) := (isFirst_iff t).mpr h0
    have hnl : ¬isLast (grid10.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid10.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid10.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid10.coords t) := fun h => h0 ((isFirst_iff t).mp h)
    have hz : t.val ≠ 0 := fun h => h0 (by rw [h])
    by_cases h5 : t.val % 12 = 11
    · have hl : isLast (grid10.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid10.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid10.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid10.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W10, bigSep_W10]
  exact sound_body W c t

end Cert.Kernel.R10

end
-- ==== Proof.KR11Runs.lean ====
/-
  Launch 11 (a block row of the adjacency matrix times the vertex features, then the projection: times the transposed
  weight matrix, plus the bias row), one grid point at a time. The grid is 12 row blocks by 12 contraction blocks; the
  body at (m, k) does one of three things, decided by k alone:
    k = 0       the accumulator is set to zero, then the product of the (m, k) tile with rows [1024 k, 1024 k + 1024) of
                the features is added to it; the weights, the bias and the output block are not touched;
    0 < k < 11   the product is added to what the point before left in the accumulator; the rest is not touched;
    k = 11       the same, and then the accumulator times the transposed weight matrix, plus the bias row on every row,
                is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid11.Coords) : Prop := (Scalar.cmpi .ne (Scalar.extui (Scalar.cmpi .eq (BitVec.ofNat 32 (i 1).val) 0#32)) 0#32) = 1#1
/-- The output block is written at this point: the contraction coordinate is 11, the last. -/
abbrev isLast (i : grid11.Coords) : Prop := k11_cond2 i = 1#1

/-- The points whose contraction coordinate is 0 are those ≡ 0 (mod 12): decided over the 144 points. -/
theorem isFirst_iff : ∀ t : Fin cfg11.N, isFirst (grid11.coords t) ↔ t.val % 12 = 0 :=
  (by decide +kernel : ∀ t : Fin grid11.N, isFirst (grid11.coords t) ↔ t.val % 12 = 0)
/-- The points whose contraction coordinate is 11 are those ≡ 11 (mod 12). -/
theorem isLast_iff : ∀ t : Fin cfg11.N, isLast (grid11.coords t) ↔ t.val % 12 = 11 :=
  (by decide +kernel : ∀ t : Fin grid11.N, isLast (grid11.coords t) ↔ t.val % 12 = 11)

/-! ## The body, case by case -/

set_option maxHeartbeats 1000000 in
/-- k = 0. The tile and the features are read and left as they are; the weights, the bias and the output block are
    handed back untouched; the accumulator — at anything before — ends with two stores over its whole block: the zero
    block, then zero plus the tile's product. -/
noncomputable def runFirst (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : isFirst i) (hc1 : ¬isLast i)
    (x0 : Vec F S1024x1024 .bf16) (x1 : Vec F S12288x256 .f32) (x2 : Vec F S256x256 .f32) (x3 : Vec F S1x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11_kernel i arg2 harg2 arg3 harg3 arg4 harg4 arg5 harg5 arg6 harg6 arg7 harg7) K } := by
  refine ⟨?_, fun xi4 E K => ?run⟩
  case run =>
    simp only [cc11_kernel_eq_skeleton]; unfold cc11_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- 0 < k < 11. As above for everything but the accumulator, which, at what the point before left in it (`xs0`), ends
    with one store over its whole block: `xs0` plus the tile's product. -/
noncomputable def runMiddle (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : ¬isLast i)
    (x0 : Vec F S1024x1024 .bf16) (x1 : Vec F S12288x256 .f32) (x2 : Vec F S256x256 .f32) (x3 : Vec F S1x256 .f32) (xs0 : Vec F S1024x256 .f32) :
    { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc11_kernel i arg2 harg2 arg3 harg3 arg4 harg4 arg5 harg5 arg6 harg6 arg7 harg7) K } := by
  refine ⟨?_, fun xi4 E K => ?run⟩
  case run =>
    simp only [cc11_kernel_eq_skeleton]; unfold cc11_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- k = 11. As in the middle for the accumulator; the weights and the bias are read and left as they are; and the
    output block — at anything before — ends with one store over its whole block: the accumulator's new contents
    times the transposed weights, plus the bias row. -/
noncomputable def runLast (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬isFirst i) (hc1 : isLast i)
    (x0 : Vec F S1024x1024 .bf16) (x1 : Vec F S12288x256 .f32) (x2 : Vec F S256x256 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc11_kernel i arg2 harg2 arg3 harg3 arg4 harg4 arg5 harg5 arg6 harg6 arg7 harg7) K } := by
  refine ⟨?_, ?_, fun E K => ?run⟩
  case run =>
    simp only [cc11_kernel_eq_skeleton]; unfold cc11_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.R11

end
-- ==== Proof.KR11Acc.lean ====
/-
  Launch 11, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR11Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The four input windows are never idle. -/
theorem live_tile : ∀ t : Fin cfg11.N, cfg11.idle 0 (grid11.coords t) = false := by decide +kernel
theorem live_feat : ∀ t : Fin cfg11.N, cfg11.idle 1 (grid11.coords t) = false := by decide +kernel
theorem live_wt : ∀ t : Fin cfg11.N, cfg11.idle 2 (grid11.coords t) = false := by decide +kernel
theorem live_bias : ∀ t : Fin cfg11.N, cfg11.idle 3 (grid11.coords t) = false := by decide +kernel
/-- Away from the last contraction coordinate the output window is idle, and its block is not written back. -/
theorem idle_out : ∀ t : Fin cfg11.N, ¬isLast (grid11.coords t) → cfg11.idle 4 (grid11.coords t) = true := by decide +kernel
theorem noFlush_out : ∀ t : Fin cfg11.N, ¬isLast (grid11.coords t) → (cfg11.win 4).flush t = false := by decide +kernel
/-- At the last contraction coordinate it is live. -/
theorem live_out : ∀ t : Fin cfg11.N, isLast (grid11.coords t) → cfg11.idle 4 (grid11.coords t) = false := by decide +kernel

/-! ## The memrefs the body is called with -/

/-- One staging buffer of the output window, through which its contents are stated (the choice does not matter). -/
abbrev VO : View sig .tc .vmem S1024x256 .f32 := (Memref.whole cc11_stg4_0 : Memref sig .tc .vmem S1024x256 .f32).view
/-- Each window's current staging memref at point `t`, spelled as the pipeline passes it, and its wholeness. -/
abbrev ms0 (t : Fin cfg11.N) : Memref sig .tc .vmem S1024x1024 .bf16 := win11_0.stage (cfg11.slots t 0)
abbrev hs0 (t : Fin cfg11.N) : (ms0 t).IsWhole := hstage11_0 ((cfg11.slots t 0).cast nbuf11_0)
abbrev ms1 (t : Fin cfg11.N) : Memref sig .tc .vmem S12288x256 .f32 := win11_1.stage (cfg11.slots t 1)
abbrev hs1 (t : Fin cfg11.N) : (ms1 t).IsWhole := hstage11_1 ((cfg11.slots t 1).cast nbuf11_1)
abbrev ms2 (t : Fin cfg11.N) : Memref sig .tc .vmem S256x256 .f32 := win11_2.stage (cfg11.slots t 2)
abbrev hs2 (t : Fin cfg11.N) : (ms2 t).IsWhole := hstage11_2 ((cfg11.slots t 2).cast nbuf11_2)
abbrev ms3 (t : Fin cfg11.N) : Memref sig .tc .vmem S1x256 .f32 := win11_3.stage (cfg11.slots t 3)
abbrev hs3 (t : Fin cfg11.N) : (ms3 t).IsWhole := hstage11_3 ((cfg11.slots t 3).cast nbuf11_3)
abbrev ms4 (t : Fin cfg11.N) : Memref sig .tc .vmem S1024x256 .f32 := win11_4.stage (cfg11.slots t 4)
abbrev hs4 (t : Fin cfg11.N) : (ms4 t).IsWhole := hstage11_4 ((cfg11.slots t 4).cast nbuf11_4)
/-- The accumulator: the kernel's own whole scoped buffer. -/
abbrev accM : Memref sig .tc .vmem S1024x256 .f32 := Memref.whole cc11_scratch0
abbrev VS : View sig .tc .vmem S1024x256 .f32 := accM.view

/-! ## What each case leaves -/

section
variable (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (y : S1024x256.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) : Vec F S1024x256 .f32 :=
  VS.read (Elt F) (VS.writes (Elt F) VS.junk (runFirst c i arg2 harg2 arg3 harg3 arg4 harg4 arg5 harg5 arg6 harg6 arg7 harg7 hc0 hc1 x0 x1 x2 x3).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runMiddle c i arg2 harg2 arg3 harg3 arg4 harg4 arg5 harg5 arg6 harg6 arg7 harg7 hc0 hc1 x0 x1 x2 x3 xs0).1, y ∈ pc.1.set :=
  View.cover_of_tiledL (runMiddle c i arg2 harg2 arg3 harg3 arg4 harg4 arg5 harg5 arg6 harg6 arg7 harg7 hc0 hc1 x0 x1 x2 x3 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 hc0 hc1 x0 x1 x2 x3 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).1, y ∈ pc.1.set :=
  View.cover_of_tiledL (runLast c i arg2 harg2 arg3 harg3 arg4 harg4 arg5 harg5 arg6 harg6 arg7 harg7 hc0 hc1 x0 x1 x2 x3 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) (y : S1024x256.Idx) :
    ∃ pc ∈ (runLast c i arg2 harg2 arg3 harg3 arg4 harg4 arg5 harg5 arg6 harg6 arg7 harg7 hc0 hc1 x0 x1 x2 x3 xs0).2.1, y ∈ pc.1.set :=
  View.cover_of_tiledL (runLast c i arg2 harg2 arg3 harg3 arg4 harg4 arg5 harg5 arg6 harg6 arg7 harg7 hc0 hc1 x0 x1 x2 x3 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 hc0 hc1 x0 x1 x2 x3 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 hc0 hc1 x0 x1 x2 x3 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg11.W) (t : Fin cfg11.N) : ((cfg11.win w).xblock (cfg11.grid.coords t)).Idx → Elt F (cfg11.win w).elt :=
  ((cfg11.win w).blk t).view.read (Elt F) (W c (Pipeline.arrRef spec11 w))

/-- After the body at position `n`: (the output block, the accumulator). A position ≡ 0 (mod 12) starts from nothing;
    any other continues from the accumulator of the position before; a position ≡ 11 (mod 12) also writes the output. -/
def outsAt (c : Dev nD) : (n : ℕ) → n < cfg11.N → Vec F S1024x256 .f32 × Vec F S1024x256 .f32
  | 0, hn => (idleOut, accFirst c (grid11.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩))
  | n + 1, hn =>
    if h0 : (n + 1) % 12 = 0 then
      (idleOut, accFirst c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩))
    else if h5 : (n + 1) % 12 = 11 then
      (outLast c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2,
        accLast c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)
    else
      (idleOut, accMiddle c (grid11.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (outsAt c n (Nat.lt_of_succ_lt hn)).2)

/-- At a point that opens a row block. -/
theorem outsAt_first (c : Dev nD) (t : Fin cfg11.N) (h0 : t.val % 12 = 0) :
    outsAt W c t.val t.isLt = (idleOut, accFirst c (grid11.coords t) (ms0 t) (hs0 t) (ms1 t) (hs1 t) (ms2 t) (hs2 t) (ms3 t) (hs3 t) (ms4 t) (hs4 t) accM (Memref.isWhole_whole _)
      ((isFirst_iff t).mpr h0) (fun h => by have := (isLast_iff t).mp h; omega) (iblk W c 0 t) (iblk W c 1 t) (iblk W c 2 t) (iblk W c 3 t)) := by
  obtain ⟨n, hn⟩ := t
  cases n with
  | zero => exact rfl
  | succ n => exact (dif_pos h0).trans rfl

/-- At a point in the middle of a row block: over what the point before left. -/
theorem outsAt_middle (c : Dev nD) (t : Fin cfg11.N) (h0 : ¬t.val % 12 = 0) (h5 : ¬t.val % 12 = 11) :
    outsAt W c t.val t.isLt = (idleOut, accMiddle c (grid11.coords t) (ms0 t) (hs0 t) (ms1 t) (hs1 t) (ms2 t) (hs2 t) (ms3 t) (hs3 t) (ms4 t) (hs4 t) accM (Memref.isWhole_whole _)
      (fun h => h0 ((isFirst_iff t).mp h)) (fun h => h5 ((isLast_iff t).mp h)) (iblk W c 0 t) (iblk W c 1 t) (iblk W c 2 t) (iblk W c 3 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg11.N) (h0 : ¬t.val % 12 = 0) (h5 : t.val % 12 = 11) :
    outsAt W c t.val t.isLt = (outLast c (grid11.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2,
      accLast c (grid11.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h5) (iblk W c 0 t) (iblk W c 1 t) (iblk W c 2 t) (iblk W c 3 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R11

end
-- ==== Proof.KR11Data.lean ====
/-
  Launch 11's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, full shares — and the body
  obligation against it: at every point the case the point is in runs from what the data says and leaves what the data
  says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR11Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec11 c : sProp 𝕄)
      = iprop((∃ d, owns (c : Thread nD τ) accM fullShare d) ∗ Pipeline.scopedRestBut (Ix := Unit) (Name := ℕ) (U := UR sig nD τ) (Lvl := ℕ) (Val := Elt F) spec11 c [cc11_scratch0]) := by
  rw [scopedRest11_split]; simp only [accM, owns_whole]; try rfl

/-- Before position `n`: at the first point every scoped buffer at anything; later the accumulator at what the point
    before left in it, the other scoped buffers at anything. -/
def PhiS (c : Dev nD) : (n : ℕ) → n ≤ cfg11.N → sProp 𝕄
  | 0, _ => Pipeline.scopedRest (Ix := Unit) (Name := ℕ) (U := UR sig nD τ) (Lvl := ℕ) (Val := Elt F) spec11 c
  | n + 1, hn => iprop(owns (c : Thread nD τ) accM fullShare ((outsAt W c n hn).2) ∗ Pipeline.scopedRestBut (Ix := Unit) (Name := ℕ) (U := UR sig nD τ) (Lvl := ℕ) (Val := Elt F) spec11 c [cc11_scratch0])

theorem PhiS_zero (c : Dev nD) (n : ℕ) (h : n ≤ cfg11.N) (hz : n = 0) : PhiS W c n h = Pipeline.scopedRest (Ix := Unit) (Name := ℕ) (U := UR sig nD τ) (Lvl := ℕ) (Val := Elt F) spec11 c := by
  subst hz; rfl

theorem PhiS_succ (c : Dev nD) (n : ℕ) (hn : n < cfg11.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec11 c [cc11_scratch0]) := rfl

theorem PhiS_pos (c : Dev nD) (n : ℕ) (h : n ≤ cfg11.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec11 c [cc11_scratch0]) := by
  cases n with
  | zero => exact absurd rfl hz
  | succ n => rfl

/-! ## The proof data -/

/-- On core `c`: the arrays as the launch finds them; after the body at `t` each input's buffer at its block, the
    output's at the accumulation's first component; the invariant above; nothing owed; full shares. -/
def dat (c : Dev nD) : Dat τ (Elt F) Unit ℕ (UR sig nD τ) ℕ cfg11 c where
  A w := W c (Pipeline.arrRef spec11 w)
  after w t := match w with
    | ⟨0, _⟩ => iblk W c 0 t
    | ⟨1, _⟩ => iblk W c 1 t
    | ⟨2, _⟩ => iblk W c 2 t
    | ⟨3, _⟩ => iblk W c 3 t
    | ⟨4, _⟩ => (outsAt W c t.val t.isLt).1
  Φ t := PhiS W c t.val (Nat.le_of_lt_succ t.isLt)
  q _ := fullShare
  owed _ := 0

theorem A_eq (c : Dev nD) (w : Fin cfg11.W) : (dat W c).A w = W c (Pipeline.arrRef spec11 w) := by
  dsimp only [dat]

theorem PhiS_castSucc (c : Dev nD) (t : Fin cfg11.N) :
    (dat W c).Φ t.castSucc = PhiS W c t.val (Nat.le_of_lt t.isLt) := by
  dsimp only [dat]; simp only [Fin.coe_castSucc]

theorem after0 (c : Dev nD) (t : Fin cfg11.N) : (dat W c).after 0 t = iblk W c 0 t := by dsimp only [dat]
theorem after1 (c : Dev nD) (t : Fin cfg11.N) : (dat W c).after 1 t = iblk W c 1 t := by dsimp only [dat]
theorem after2 (c : Dev nD) (t : Fin cfg11.N) : (dat W c).after 2 t = iblk W c 2 t := by dsimp only [dat]
theorem after3 (c : Dev nD) (t : Fin cfg11.N) : (dat W c).after 3 t = iblk W c 3 t := by dsimp only [dat]
theorem after4 (c : Dev nD) (t : Fin cfg11.N) : (dat W c).after 4 t = (outsAt W c t.val t.isLt).1 := by dsimp only [dat]

/-- Each input's current staging buffer holds its block when the body runs: the tile is fetched at every point; the
    features, the weights and the bias are fetched once and their block index never moves. -/
theorem before0 (c : Dev nD) (t : Fin cfg11.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg11.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg11.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg11.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg11.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d)))

def bodyPost (c : Dev nD) (t : Fin cfg11.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg11.N) :
    bodyPre W c t ⊢ wp frame (wpE (defs₀ (F := F)) Variants.none c none) Set.univ (bodyAt11 t) (fun _ => bodyPost W c t) := by
  unfold bodyPre bodyPost bodyAt11
  simp only [before0, before1, before2, before3]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  rw [show (dat W c).leavesExact 2 t = owns (c : Thread nD τ) (ms2 t) fullShare ((dat W c).after 2 t) from by
    unfold Dat.leavesExact; rw [live_wt t], after2]
  rw [show (dat W c).leavesExact 3 t = owns (c : Thread nD τ) (ms3 t) fullShare ((dat W c).after 3 t) from by
    unfold Dat.leavesExact; rw [live_bias t], after3]
  by_cases h0 : t.val % 12 = 0
  · have hf : isFirst (grid11.coords t) := (isFirst_iff t).mpr h0
    have hnl : ¬isLast (grid11.coords t) := fun h => by have := (isLast_iff t).mp h; omega
    rw [Dat.leavesExact_idle (dat W c) 4 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩⟩
      iapply ((runFirst c (grid11.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runFirst c (grid11.coords t) _ _ _ _ _ _ _ _ _ _ _ _ hf hnl (iblk W c 0 t) (iblk W c 1 t) (iblk W c 2 t) (iblk W c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hnf : ¬isFirst (grid11.coords t) := fun h => h0 ((isFirst_iff t).mp h)
    have hz : t.val ≠ 0 := fun h => h0 (by rw [h])
    by_cases h5 : t.val % 12 = 11
    · have hl : isLast (grid11.coords t) := (isLast_iff t).mpr h5
      rw [show (dat W c).leavesExact 4 t = owns (c : Thread nD τ) (ms4 t) fullShare ((dat W c).after 4 t) from by
        unfold Dat.leavesExact; rw [live_out t hl], after4]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runLast c (grid11.coords t) _ _ _ _ _ _ _ _ _ _ _ _ hnf hl (iblk W c 0 t) (iblk W c 1 t) (iblk W c 2 t) (iblk W c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_outLast c _ _ _ _ _ _ _ _ _ _ _ _ _ _ _ _ _ _ _ _)
    · have hnl : ¬isLast (grid11.coords t) := fun h => h5 ((isLast_iff t).mp h)
      rw [Dat.leavesExact_idle (dat W c) 4 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩⟩
      iapply ((runMiddle c (grid11.coords t) _ _ _ _ _ _ _ _ _ _ _ _ hnf hnl (iblk W c 0 t) (iblk W c 1 t) (iblk W c 2 t) (iblk W c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) W c) (defs₀ (F := F)) Variants.none () Set.univ := fun t => by
  rw [bigSep_W11, bigSep_W11]
  exact sound_body W c t

end Cert.Kernel.R11

end
-- ==== Proof.KR12Runs.lean ====
/-
  Launch 12 (an adjacency product with the fused epilogue), one grid point at a time. The grid is 12 row blocks by
  12 contraction blocks; the body at (m, k) does one of three things, decided by k alone:
    k = 0       the accumulator is set to zero, then the product of the (m, k) tile with rows [1024 k, 1024 k + 1024) of
                the resident feature matrix (rounded to bf16) is added to it; the output block is not touched;
    0 < k < 11   the product is added to what the point before left in the accumulator; the output block is not touched;
    k = 11       the same, and then the epilogue — the accumulator (rounded to bf16) times the transposed weight (rounded
                to bf16), plus the bias row, plus the first skip block, clamped below at zero, plus the second skip block —
                is stored over the whole output block.
  The weight, the bias row and the two skip blocks are only read at k = 11; every input buffer is left as it was.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid12.Coords) : Prop := (Scalar.cmpi .ne (Scalar.extui (Scalar.cmpi .eq (BitVec.ofNat 32 (i 1).val) 0#32)) 0#32) = 1#1
/-- The output block is written at this point: the contraction coordinate is 11, the last. -/
abbrev isLast (i : grid12.Coords) : Prop := k12_cond2 i = 1#1

/-- The points whose contraction coordinate is 0 are those ≡ 0 (mod 12): decided over the 144 points. -/
theorem isFirst_iff : ∀ t : Fin cfg12.N, isFirst (grid12.coords t) ↔ t.val % 12 = 0 :=
  (by decide +kernel : ∀ t : Fin grid12.N, isFirst (grid12.coords t) ↔ t.val % 12 = 0)
/-- The points whose contraction coordinate is 11 are those ≡ 11 (mod 12). -/
theorem isLast_iff : ∀ t : Fin cfg12.N, isLast (grid12.coords t) ↔ t.val % 12 = 11 :=
  (by decide +kernel : ∀ t : Fin grid12.N, isLast (grid12.coords t) ↔ t.val % 12 = 11)

/-! ## The body, case by case -/

set_option maxHeartbeats 1000000 in
/-- k = 0. The six inputs are left as they are, the output block is handed back untouched, and the accumulator — at
    anything before — ends with two stores over its whole block: the zero block, then zero plus the tile's product. -/
noncomputable def runFirst (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc12_kernel i arg2 harg2 arg3 harg3 arg4 harg4 arg5 harg5 arg6 harg6 arg7 harg7 arg8 harg8 arg9 harg9) K } := by
  refine ⟨?_, fun xi6 E K => ?run⟩
  case run =>
    simp only [cc12_kernel_eq_skeleton]; unfold cc12_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- 0 < k < 11. The six inputs are left as they are, the output block is handed back untouched, and the accumulator, at
    what the point before left in it (`xs0`), ends with one store over its whole block: `xs0` plus the tile's product. -/
noncomputable def runMiddle (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : ¬isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc12_kernel i arg2 harg2 arg3 harg3 arg4 harg4 arg5 harg5 arg6 harg6 arg7 harg7 arg8 harg8 arg9 harg9) K } := by
  refine ⟨?_, fun xi6 E K => ?run⟩
  case run =>
    simp only [cc12_kernel_eq_skeleton]; unfold cc12_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 1000000 in
/-- k = 11. As in the middle for the accumulator; and the output block — at anything before — ends with one store over
    its whole block: the epilogue of the accumulator's new contents, the weight, the bias row and the two skip blocks. -/
noncomputable def runLast (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬isFirst i) (hc1 : isLast i)
    (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc12_kernel i arg2 harg2 arg3 harg3 arg4 harg4 arg5 harg5 arg6 harg6 arg7 harg7 arg8 harg8 arg9 harg9) K } := by
  refine ⟨?_, ?_, fun E K => ?run⟩
  case run =>
    simp only [cc12_kernel_eq_skeleton]; unfold cc12_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R12

end
-- ==== Proof.KR12Acc.lean ====
/-
  Launch 12, point after point: what the accumulator and the output block hold after the body at each of the 144
  grid points. The accumulator is the kernel's own scratch buffer and is not touched between two points, so after point n
  it holds what the case of n stored, computed from what point n - 1 left (or from nothing, when n opens a new row block:
  its contraction coordinate is 0). The output block is only written at the last contraction coordinate; at the other
  points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR12Runs
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The six input windows are never idle. -/
theorem live_in0 : ∀ t : Fin cfg12.N, cfg12.idle 0 (grid12.coords t) = false := by decide +kernel
theorem live_in1 : ∀ t : Fin cfg12.N, cfg12.idle 1 (grid12.coords t) = false := by decide +kernel
theorem live_in2 : ∀ t : Fin cfg12.N, cfg12.idle 2 (grid12.coords t) = false := by decide +kernel
theorem live_in3 : ∀ t : Fin cfg12.N, cfg12.idle 3 (grid12.coords t) = false := by decide +kernel
theorem live_in4 : ∀ t : Fin cfg12.N, cfg12.idle 4 (grid12.coords t) = false := by decide +kernel
theorem live_in5 : ∀ t : Fin cfg12.N, cfg12.idle 5 (grid12.coords t) = false := by decide +kernel
/-- Away from the last contraction coordinate the output window is idle, and its block is not written back. -/
theorem idle_out : ∀ t : Fin cfg12.N, ¬isLast (grid12.coords t) → cfg12.idle 6 (grid12.coords t) = true := by decide +kernel
theorem noFlush_out : ∀ t : Fin cfg12.N, ¬isLast (grid12.coords t) → (cfg12.win 6).flush t = false := by decide +kernel
/-- At the last contraction coordinate it is live. -/
theorem live_out : ∀ t : Fin cfg12.N, isLast (grid12.coords t) → cfg12.idle 6 (grid12.coords t) = false := by decide +kernel

/-! ## The memrefs the body is called with -/

/-- One staging buffer of the output window, through which its contents are stated (the choice does not matter). -/
abbrev VO : View sig .tc .vmem S1024x256 .f32 := (Memref.whole cc12_stg6_0 : Memref sig .tc .vmem S1024x256 .f32).view
/-- Each window's current staging memref at point `t`, spelled as the pipeline passes it, and its wholeness. -/
abbrev ms0 (t : Fin cfg12.N) : Memref sig .tc .vmem S1024x1024 .bf16 := win12_0.stage (cfg12.slots t 0)
abbrev hs0 (t : Fin cfg12.N) : (ms0 t).IsWhole := hstage12_0 ((cfg12.slots t 0).cast nbuf12_0)
abbrev ms1 (t : Fin cfg12.N) : Memref sig .tc .vmem S12288x256 .f32 := win12_1.stage (cfg12.slots t 1)
abbrev hs1 (t : Fin cfg12.N) : (ms1 t).IsWhole := hstage12_1 ((cfg12.slots t 1).cast nbuf12_1)
abbrev ms2 (t : Fin cfg12.N) : Memref sig .tc .vmem S256x256 .f32 := win12_2.stage (cfg12.slots t 2)
abbrev hs2 (t : Fin cfg12.N) : (ms2 t).IsWhole := hstage12_2 ((cfg12.slots t 2).cast nbuf12_2)
abbrev ms3 (t : Fin cfg12.N) : Memref sig .tc .vmem S1x256 .f32 := win12_3.stage (cfg12.slots t 3)
abbrev hs3 (t : Fin cfg12.N) : (ms3 t).IsWhole := hstage12_3 ((cfg12.slots t 3).cast nbuf12_3)
abbrev ms4 (t : Fin cfg12.N) : Memref sig .tc .vmem S1024x256 .f32 := win12_4.stage (cfg12.slots t 4)
abbrev hs4 (t : Fin cfg12.N) : (ms4 t).IsWhole := hstage12_4 ((cfg12.slots t 4).cast nbuf12_4)
abbrev ms5 (t : Fin cfg12.N) : Memref sig .tc .vmem S1024x256 .f32 := win12_5.stage (cfg12.slots t 5)
abbrev hs5 (t : Fin cfg12.N) : (ms5 t).IsWhole := hstage12_5 ((cfg12.slots t 5).cast nbuf12_5)
abbrev ms6 (t : Fin cfg12.N) : Memref sig .tc .vmem S1024x256 .f32 := win12_6.stage (cfg12.slots t 6)
abbrev hs6 (t : Fin cfg12.N) : (ms6 t).IsWhole := hstage12_6 ((cfg12.slots t 6).cast nbuf12_6)
/-- The accumulator: the kernel's own whole scoped buffer. -/
abbrev accM : Memref sig .tc .vmem S1024x256 .f32 := Memref.whole cc12_scratch0
abbrev VS : View sig .tc .vmem S1024x256 .f32 := accM.view

/-! ## What each case leaves -/

section
variable (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (y : S1024x256.Idx) :
    ∃ pc ∈ (runFirst c i arg2 harg2 arg3 harg3 arg4 harg4 arg5 harg5 arg6 harg6 arg7 harg7 arg8 harg8 arg9 harg9 hc0 hc1 x0 x1 x2 x3 x4 x5).1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).1 S1024x256.size (by sl_kernel_rfl) y
/-- What the case k = 0 leaves in the accumulator. -/
def accFirst (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) : Vec F S1024x256 .f32 :=
  VS.read (Elt F) (VS.writes (Elt F) VS.junk (runFirst c i arg2 harg2 arg3 harg3 arg4 harg4 arg5 harg5 arg6 harg6 arg7 harg7 arg8 harg8 arg9 harg9 hc0 hc1 x0 x1 x2 x3 x4 x5).1)

/-- 0 < k < 11: the accumulator's one store covers its whole block. -/
theorem cover_accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runMiddle c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runMiddle c i arg2 harg2 arg3 harg3 arg4 harg4 arg5 harg5 arg6 harg6 arg7 harg7 arg8 harg8 arg9 harg9 hc0 hc1 x0 x1 x2 x3 x4 x5 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runMiddle c i arg2 harg2 arg3 harg3 arg4 harg4 arg5 harg5 arg6 harg6 arg7 harg7 arg8 harg8 arg9 harg9 hc0 hc1 x0 x1 x2 x3 x4 x5 xs0).1)

/-- k = 11: the output block's one store covers it, and so does the accumulator's. -/
theorem cover_outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).1 S1024x256.size (by sl_kernel_rfl) y
theorem cover_accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) (y : S1024x256.Idx) :
    ∃ pc ∈ (runLast c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs0).2.1 S1024x256.size (by sl_kernel_rfl) y
/-- What the last case leaves in the output block, -/
def outLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VO.read (Elt F) (VO.writes (Elt F) VO.junk (runLast c i arg2 harg2 arg3 harg3 arg4 harg4 arg5 harg5 arg6 harg6 arg7 harg7 arg8 harg8 arg9 harg9 hc0 hc1 x0 x1 x2 x3 x4 x5 xs0).1)
/-- and in the accumulator. -/
def accLast (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) : Vec F S1024x256 .f32 :=
  VS.read (Elt F) (VS.writes (Elt F) VS.junk (runLast c i arg2 harg2 arg3 harg3 arg4 harg4 arg5 harg5 arg6 harg6 arg7 harg7 arg8 harg8 arg9 harg9 hc0 hc1 x0 x1 x2 x3 x4 x5 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg12.W) (t : Fin cfg12.N) : ((cfg12.win w).xblock (cfg12.grid.coords t)).Idx → Elt F (cfg12.win w).elt :=
  ((cfg12.win w).blk t).view.read (Elt F) (W c (Pipeline.arrRef spec12 w))

/-- After the body at position `n`: (the output block, the accumulator). A position ≡ 0 (mod 12) starts from nothing;
    any other continues from the accumulator of the position before; a position ≡ 11 (mod 12) also writes the output. -/
def outsAt (c : Dev nD) : (n : ℕ) → n < cfg12.N → Vec F S1024x256 .f32 × Vec F S1024x256 .f32
  | 0, hn => (idleOut, accFirst c (grid12.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩) (iblk W c 2 ⟨0, hn⟩) (iblk W c 3 ⟨0, hn⟩) (iblk W c 4 ⟨0, hn⟩) (iblk W c 5 ⟨0, hn⟩))
  | n + 1, hn =>
    if h0 : (n + 1) % 12 = 0 then
      (idleOut, accFirst c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩))
    else if h5 : (n + 1) % 12 = 11 then
      (outLast c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2,
        accLast c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)
    else
      (idleOut, accMiddle c (grid12.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (iblk W c 2 ⟨n + 1, hn⟩) (iblk W c 3 ⟨n + 1, hn⟩) (iblk W c 4 ⟨n + 1, hn⟩) (iblk W c 5 ⟨n + 1, hn⟩) (outsAt c n (Nat.lt_of_succ_lt hn)).2)

/-- At a point that opens a row block. -/
theorem outsAt_first (c : Dev nD) (t : Fin cfg12.N) (h0 : t.val % 12 = 0) :
    outsAt W c t.val t.isLt = (idleOut, accFirst c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      ((isFirst_iff t).mpr h0) (fun h => by have := (isLast_iff t).mp h; omega) (iblk W c 0 t) (iblk W c 1 t) (iblk W c 2 t) (iblk W c 3 t) (iblk W c 4 t) (iblk W c 5 t)) := by
  obtain ⟨n, hn⟩ := t
  cases n with
  | zero => exact rfl
  | succ n => exact (dif_pos h0).trans rfl

/-- At a point in the middle of a row block: over what the point before left. -/
theorem outsAt_middle (c : Dev nD) (t : Fin cfg12.N) (h0 : ¬t.val % 12 = 0) (h5 : ¬t.val % 12 = 11) :
    outsAt W c t.val t.isLt = (idleOut, accMiddle c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg12.N) (h0 : ¬t.val % 12 = 0) (h5 : t.val % 12 = 11) :
    outsAt W c t.val t.isLt = (outLast c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2,
      accLast c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
        (fun h => h0 ((isFirst_iff t).mp h)) ((isLast_iff t).mpr h5) (iblk W c 0 t) (iblk W c 1 t) (iblk W c 2 t) (iblk W c 3 t) (iblk W c 4 t) (iblk W c 5 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R12

end
-- ==== Proof.KR12Data.lean ====
/-
  Launch 12's proof data: what the pipeline's bookkeeping is told each staging buffer holds after the body at every
  point (an input window: its block of the array; the output window: the accumulation's first component), the invariant
  carried between points (before the first point the launch's scoped buffers at anything; afterwards the accumulator at
  the accumulation's second component, beside the other scoped buffers), nothing owed, and the shares the arrays are held
  at — full ones, except that the feature operand and the first skip operand are one array, read through two windows,
  which is held at its two halves — and the body obligation against it: at every point the case the point is in runs
  from what the data says and leaves what the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR12Acc
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec12 c : sProp 𝕄)
      = iprop((∃ d, owns (c : Thread nD τ) accM fullShare d) ∗ Pipeline.scopedRestBut (Ix := Unit) (Name := ℕ) (U := UR sig nD τ) (Lvl := ℕ) (Val := Elt F) spec12 c [cc12_scratch0]) := by
  rw [scopedRest12_split]; simp only [accM, owns_whole]; try rfl

/-- Before position `n`: at the first point every scoped buffer at anything; later the accumulator at what the point
    before left in it, the other scoped buffers at anything. -/
def PhiS (c : Dev nD) : (n : ℕ) → n ≤ cfg12.N → sProp 𝕄
  | 0, _ => Pipeline.scopedRest (Ix := Unit) (Name := ℕ) (U := UR sig nD τ) (Lvl := ℕ) (Val := Elt F) spec12 c
  | n + 1, hn => iprop(owns (c : Thread nD τ) accM fullShare ((outsAt W c n hn).2) ∗ Pipeline.scopedRestBut (Ix := Unit) (Name := ℕ) (U := UR sig nD τ) (Lvl := ℕ) (Val := Elt F) spec12 c [cc12_scratch0])

theorem PhiS_zero (c : Dev nD) (n : ℕ) (h : n ≤ cfg12.N) (hz : n = 0) : PhiS W c n h = Pipeline.scopedRest (Ix := Unit) (Name := ℕ) (U := UR sig nD τ) (Lvl := ℕ) (Val := Elt F) spec12 c := by
  subst hz; rfl

theorem PhiS_succ (c : Dev nD) (n : ℕ) (hn : n < cfg12.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec12 c [cc12_scratch0]) := rfl

theorem PhiS_pos (c : Dev nD) (n : ℕ) (h : n ≤ cfg12.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec12 c [cc12_scratch0]) := by
  cases n with
  | zero => exact absurd rfl hz
  | succ n => rfl

/-! ## The proof data -/

/-- On core `c`: the arrays as the launch finds them; after the body at `t` the six inputs' buffers at their blocks, the
    output's at the accumulation's first component; the invariant above; nothing owed; every array at the full share but
    the one read through both the feature window (1) and the first skip window (4): its left and its right half. -/
def dat (c : Dev nD) : Dat τ (Elt F) Unit ℕ (UR sig nD τ) ℕ cfg12 c where
  A w := W c (Pipeline.arrRef spec12 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => (outsAt W c t.val t.isLt).1
  Φ t := PhiS W c t.val (Nat.le_of_lt_succ t.isLt)
  q w := match w with
    | ⟨0, _⟩ => fullShare
    | ⟨1, _⟩ => fullShare.left
    | ⟨2, _⟩ => fullShare
    | ⟨3, _⟩ => fullShare
    | ⟨4, _⟩ => fullShare.right
    | ⟨5, _⟩ => fullShare
    | ⟨6, _⟩ => fullShare
  owed _ := 0

theorem A_eq (c : Dev nD) (w : Fin cfg12.W) : (dat W c).A w = W c (Pipeline.arrRef spec12 w) := by
  dsimp only [dat]

/-- The shares: the two windows on one array hold its two halves, which make the whole. -/
theorem q_feat (c : Dev nD) : (dat W c).q 1 = fullShare.left := by dsimp only [dat]
theorem q_res1 (c : Dev nD) : (dat W c).q 4 = fullShare.right := by dsimp only [dat]
theorem q_halves : fullShare ∈ PCS.op (fullShare.left : PosShare TreeShare) fullShare.right := PosShare.mem_left_op_right fullShare

theorem PhiS_castSucc (c : Dev nD) (t : Fin cfg12.N) :
    (dat W c).Φ t.castSucc = PhiS W c t.val (Nat.le_of_lt t.isLt) := by
  dsimp only [dat]; simp only [Fin.coe_castSucc]

theorem after0 (c : Dev nD) (t : Fin cfg12.N) : (dat W c).after 0 t = iblk W c 0 t := by dsimp only [dat]
theorem after1 (c : Dev nD) (t : Fin cfg12.N) : (dat W c).after 1 t = iblk W c 1 t := by dsimp only [dat]
theorem after2 (c : Dev nD) (t : Fin cfg12.N) : (dat W c).after 2 t = iblk W c 2 t := by dsimp only [dat]
theorem after3 (c : Dev nD) (t : Fin cfg12.N) : (dat W c).after 3 t = iblk W c 3 t := by dsimp only [dat]
theorem after4 (c : Dev nD) (t : Fin cfg12.N) : (dat W c).after 4 t = iblk W c 4 t := by dsimp only [dat]
theorem after5 (c : Dev nD) (t : Fin cfg12.N) : (dat W c).after 5 t = iblk W c 5 t := by dsimp only [dat]
theorem after6 (c : Dev nD) (t : Fin cfg12.N) : (dat W c).after 6 t = (outsAt W c t.val t.isLt).1 := by dsimp only [dat]

/-- Each input's current staging buffer holds its block of the array when the body runs: fetched at this point, or at an
    earlier one since which its block index has not moved. -/
theorem before0 (c : Dev nD) (t : Fin cfg12.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg12.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg12.N) (d) : (dat W c).before 2 t d = iblk W c 2 t :=
  ((dat W c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg12.N) (d) : (dat W c).before 3 t d = iblk W c 3 t :=
  ((dat W c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg12.N) (d) : (dat W c).before 4 t d = iblk W c 4 t :=
  ((dat W c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg12.N) (d) : (dat W c).before 5 t d = iblk W c 5 t :=
  ((dat W c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body obligation -/

def bodyPre (c : Dev nD) (t : Fin cfg12.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d))
    ∗ (∃ d, owns (c : Thread nD τ) (ms3 t) fullShare ((dat W c).before 3 t d))
    ∗ (∃ d, owns (c : Thread nD τ) (ms4 t) fullShare ((dat W c).before 4 t d))
    ∗ (∃ d, owns (c : Thread nD τ) (ms5 t) fullShare ((dat W c).before 5 t d))
    ∗ (∃ d, owns (c : Thread nD τ) (ms6 t) fullShare ((dat W c).before 6 t d)))

def bodyPost (c : Dev nD) (t : Fin cfg12.N) : sProp 𝕄 :=
  iprop((dat W c).Φ t.succ ∗ (dat W c).owesAt () t.succ
    ∗ (dat W c).leavesExact 0 t
    ∗ (dat W c).leavesExact 1 t
    ∗ (dat W c).leavesExact 2 t
    ∗ (dat W c).leavesExact 3 t
    ∗ (dat W c).leavesExact 4 t
    ∗ (dat W c).leavesExact 5 t
    ∗ (dat W c).leavesExact 6 t)

set_option maxHeartbeats 4800000 in
/-- The body at any point. Its position modulo 12 says which case it is in; the inputs' buffers hold their blocks; the
    invariant hands over the accumulator at what the point before left (at anything at the very first point, and a point
    that opens a row block does not look at it) and takes it back at this point's contents, read back through the cover. -/
theorem sound_body (c : Dev nD) (t : Fin cfg12.N) :
    bodyPre W c t ⊢ wp frame (wpE (defs₀ (F := F)) Variants.none c none) Set.univ (bodyAt12 t) (fun _ => bodyPost W c t) := by
  unfold bodyPre bodyPost bodyAt12
  simp only [before0, before1, before2, before3, before4, before5]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_in0 t], after0]
  rw [show (dat W c).leavesExact 1 t = owns (c : Thread nD τ) (ms1 t) fullShare ((dat W c).after 1 t) from by
    unfold Dat.leavesExact; rw [live_in1 t], after1]
  rw [show (dat W c).leavesExact 2 t = owns (c : Thread nD τ) (ms2 t) fullShare ((dat W c).after 2 t) from by
    unfold Dat.leavesExact; rw [live_in2 t], after2]
  rw [show (dat W c).leavesExact 3 t = owns (c : Thread nD τ) (ms3 t) fullShare ((dat W c).after 3 t) from by
    unfold Dat.leavesExact; rw [live_in3 t], after3]
  rw [show (dat W c).leavesExact 4 t = owns (c : Thread nD τ) (ms4 t) fullShare ((dat W c).after 4 t) from by
    unfold Dat.leavesExact; rw [live_in4 t], after4]
  rw [show (dat W c).leavesExact 5 t = owns (c : Thread nD τ) (ms5 t) fullShare ((dat W c).after 5 t) from by
    unfold Dat.leavesExact; rw [live_in5 t], after5]
  by_cases h0 : t.val % 12 = 0
  · have hf : isFirst (grid12.coords t) := (isFirst_iff t).mpr h0
    have hnl : ¬isLast (grid12.coords t) := fun h => by have := (isLast_iff t).mp h; omega
    rw [Dat.leavesExact_idle (dat W c) 6 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid12.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid12.coords t) _ _ _ _ _ _ _ _ _ _ _ _ _ _ _ _ hf hnl (iblk W c 0 t) (iblk W c 1 t) (iblk W c 2 t) (iblk W c 3 t) (iblk W c 4 t) (iblk W c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hnf : ¬isFirst (grid12.coords t) := fun h => h0 ((isFirst_iff t).mp h)
    have hz : t.val ≠ 0 := fun h => h0 (by rw [h])
    by_cases h5 : t.val % 12 = 11
    · have hl : isLast (grid12.coords t) := (isLast_iff t).mpr h5
      rw [show (dat W c).leavesExact 6 t = owns (c : Thread nD τ) (ms6 t) fullShare ((dat W c).after 6 t) from by
        unfold Dat.leavesExact; rw [live_out t hl], after6]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid12.coords t) _ _ _ _ _ _ _ _ _ _ _ _ _ _ _ _ hnf hl (iblk W c 0 t) (iblk W c 1 t) (iblk W c 2 t) (iblk W c 3 t) (iblk W c 4 t) (iblk W c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_outLast c _ _ _ _ _ _ _ _ _ _ _ _ _ _ _ _ _ _ _ _ _ _ _ _ _ _)
    · have hnl : ¬isLast (grid12.coords t) := fun h => h5 ((isLast_iff t).mp h)
      rw [Dat.leavesExact_idle (dat W c) 6 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid12.coords t) _ _ _ _ _ _ _ _ _ _ _ _ _ _ _ _ hnf hnl (iblk W c 0 t) (iblk W c 1 t) (iblk W c 2 t) (iblk W c 3 t) (iblk W c 4 t) (iblk W c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) W c) (defs₀ (F := F)) Variants.none () Set.univ := fun t => by
  rw [bigSep_W12, bigSep_W12]
  exact sound_body W c t

end Cert.Kernel.R12

end
-- ==== Proof.KR13Runs.lean ====
/-
  The last launch (the vertex-by-face adjacency matrix times the face features), one grid point at a
  time. The grid is 6 row blocks by 12 contraction blocks; the body at (m, k) does one of three things, decided by k alone:
    k = 0       the accumulator is set to zero, then the product of the (m, k) tile with rows [1024 k, 1024 k + 1024) of the features is added to it; the output block is not touched;
    0 < k < 11  the product is added to what the point before left in the accumulator; the output block is not touched;
    k = 11      the same, and then the accumulator is stored over the whole output block.
  Each case is run once, on any whole staging buffers, and leaves the stores it made as a list of pieces.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The accumulator is reset at this point: the contraction coordinate is 0. -/
abbrev isFirst (i : grid13.Coords) : Prop := (Scalar.cmpi .ne (Scalar.extui (Scalar.cmpi .eq (BitVec.ofNat 32 (i 1).val) 0#32)) 0#32) = 1#1
/-- The output block is written at this point: the contraction coordinate is 11, the last. -/
abbrev isLast (i : grid13.Coords) : Prop := k13_cond2 i = 1#1

/-- The points whose contraction coordinate is 0 are those ≡ 0 (mod 12): decided over the 72 points. -/
theorem isFirst_iff : ∀ t : Fin cfg13.N, isFirst (grid13.coords t) ↔ t.val % 12 = 0 :=
  (by decide +kernel : ∀ t : Fin grid13.N, isFirst (grid13.coords t) ↔ t.val % 12 = 0)
/-- The points whose contraction coordinate is 11 are those ≡ 5 (mod 12). -/
theorem isLast_iff : ∀ t : Fin cfg13.N, isLast (grid13.coords t) ↔ t.val % 12 = 11 :=
  (by decide +kernel : ∀ t : Fin grid13.N, isLast (grid13.coords t) ↔ t.val % 12 = 11)

/-! ## The body, case by case -/

set_option maxHeartbeats 1000000 in
/-- k = 0. The tile and the features are read and left as they are, the output block is handed back untouched, and
    the accumulator — at anything before — ends with two stores over its whole block: the zero block, then zero plus
    the tile's product. -/
noncomputable def runFirst (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole) (hc0 : isFirst i) (hc1 : ¬isLast i)
    (x0 : Vec F S1024x1024 .bf16) (x1 : Vec F S12288x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc13_kernel i arg2 harg2 arg3 harg3 arg4 harg4 arg5 harg5) K } := by
  refine ⟨?_, fun xi2 E K => ?run⟩
  case run =>
    simp only [cc13_kernel_eq_skeleton]; unfold cc13_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < k < 11. The tile and the features are read and left as they are, the output block is handed back untouched, and
    the accumulator, at what the point before left in it (`xs0`), ends with one store over its whole block: `xs0` plus
    the tile's product. -/
noncomputable def runMiddle (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : ¬isLast i)
    (x0 : Vec F S1024x1024 .bf16) (x1 : Vec F S12288x256 .f32) (xs0 : Vec F S1024x256 .f32) :
    { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc13_kernel i arg2 harg2 arg3 harg3 arg4 harg4 arg5 harg5) K } := by
  refine ⟨?_, fun xi2 E K => ?run⟩
  case run =>
    simp only [cc13_kernel_eq_skeleton]; unfold cc13_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- k = 11. As in the middle for the accumulator; and the output block — at anything before — ends with one store over
    its whole block: the accumulator's new contents. -/
noncomputable def runLast (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole) (hc0 : ¬isFirst i) (hc1 : isLast i)
    (x0 : Vec F S1024x1024 .bf16) (x1 : Vec F S12288x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc13_kernel i arg2 harg2 arg3 harg3 arg4 harg4 arg5 harg5) K } := by
  refine ⟨?_, ?_, fun E K => ?run⟩
  case run =>
    simp only [cc13_kernel_eq_skeleton]; unfold cc13_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.R13

end
-- ==== Proof.KR13Acc.lean ====
/-
  The last launch, point after point: what the accumulator and the output block hold after the body at each of
  the 72 grid points. The accumulator is the kernel's own scratch buffer and is not touched between two points, so after
  point n it holds what the case of n stored, computed from what point n - 1 left (or from nothing, when n opens a new row
  block: its contraction coordinate is 0). The output block is only written at the last contraction coordinate; at the
  other points the pipeline neither writes it back nor reads it, and what is recorded for it there is a placeholder.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR13Runs
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.Kernel.R13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The output window is live exactly at the last contraction coordinate -/

/-- The two input windows are never idle. -/
theorem live_tile : ∀ t : Fin cfg13.N, cfg13.idle 0 (grid13.coords t) = false := by decide +kernel
theorem live_feat : ∀ t : Fin cfg13.N, cfg13.idle 1 (grid13.coords t) = false := by decide +kernel
/-- Away from the last contraction coordinate the output window is idle, and its block is not written back. -/
theorem idle_out : ∀ t : Fin cfg13.N, ¬isLast (grid13.coords t) → cfg13.idle 2 (grid13.coords t) = true := by decide +kernel
theorem noFlush_out : ∀ t : Fin cfg13.N, ¬isLast (grid13.coords t) → (cfg13.win 2).flush t = false := by decide +kernel
/-- At the last contraction coordinate it is live. -/
theorem live_out : ∀ t : Fin cfg13.N, isLast (grid13.coords t) → cfg13.idle 2 (grid13.coords t) = false := by decide +kernel

/-! ## The memrefs the body is called with -/

/-- One staging buffer of the output window, through which its contents are stated (the choice does not matter). -/
abbrev VO : View sig .tc .vmem S1024x256 .f32 := (Memref.whole cc13_stg2_0 : Memref sig .tc .vmem S1024x256 .f32).view
/-- Each window's current staging memref at point `t`, spelled as the pipeline passes it, and its wholeness. -/
abbrev ms0 (t : Fin cfg13.N) : Memref sig .tc .vmem S1024x1024 .bf16 := win13_0.stage (cfg13.slots t 0)
abbrev hs0 (t : Fin cfg13.N) : (ms0 t).IsWhole := hstage13_0 ((cfg13.slots t 0).cast nbuf13_0)
abbrev ms1 (t : Fin cfg13.N) : Memref sig .tc .vmem S12288x256 .f32 := win13_1.stage (cfg13.slots t 1)
abbrev hs1 (t : Fin cfg13.N) : (ms1 t).IsWhole := hstage13_1 ((cfg13.slots t 1).cast nbuf13_1)
abbrev ms2 (t : Fin cfg13.N) : Memref sig .tc .vmem S1024x256 .f32 := win13_2.stage (cfg13.slots t 2)
abbrev hs2 (t : Fin cfg13.N) : (ms2 t).IsWhole := hstage13_2 ((cfg13.slots t 2).cast nbuf13_2)
/-- The accumulator: the kernel's own whole scoped buffer. -/
abbrev accM : Memref sig .tc .vmem S1024x256 .f32 := Memref.whole cc13_scratch0
abbrev VS : View sig .tc .vmem S1024x256 .f32 := accM.view

/-! ## What each case leaves -/

section
variable (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole)

/-- The placeholder recorded for the output block at a point that does not write it. -/
def idleOut : Vec F S1024x256 .f32 := VO.read (Elt F) (VO.writes (Elt F) VO.junk [])

/-- k = 0: the accumulator's two stores each cover its whole block. -/
theorem cover_accFirst (hc0 : isFirst i) (hc1 : ¬isLast i) (x0 : Vec F S1024x1024 .bf16) (x1 : Vec F S12288x256 .f32) (y : S1024x256.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x256.size (by sl_kernel_rfl) y
/-- What the case k = 0 leaves in the accumulator. -/
def accFirst (hc0 : isFirst i) (hc1 : ¬isLast i) (x0 : Vec F S1024x1024 .bf16) (x1 : Vec F S12288x256 .f32) : Vec F S1024x256 .f32 :=
  VS.read (Elt F) (VS.writes (Elt F) VS.junk (runFirst c i arg2 harg2 arg3 harg3 arg4 harg4 arg5 harg5 hc0 hc1 x0 x1).1)

/-- 0 < k < 11: the accumulator's one store covers its whole block. -/
theorem cover_accMiddle (hc0 : ¬isFirst i) (hc1 : ¬isLast i) (x0 : Vec F S1024x1024 .bf16) (x1 : Vec F S12288x256 .f32) (xs0 : Vec F S1024x256 .f32) (y : S1024x256.Idx) :
    ∃ pc ∈ (runMiddle c i arg2 harg2 arg3 harg3 arg4 harg4 arg5 harg5 hc0 hc1 x0 x1 xs0).1, y ∈ pc.1.set :=
  View.cover_of_tiledL (runMiddle c i arg2 harg2 arg3 harg3 arg4 harg4 arg5 harg5 hc0 hc1 x0 x1 xs0).1 S1024x256.size (by sl_kernel_rfl) y
/-- What a middle case leaves in the accumulator, over what the point before left (`xs0`). -/
def accMiddle (hc0 : ¬isFirst i) (hc1 : ¬isLast i) (x0 : Vec F S1024x1024 .bf16) (x1 : Vec F S12288x256 .f32) (xs0 : Vec F S1024x256 .f32) : Vec F S1024x256 .f32 :=
  VS.read (Elt F) (VS.writes (Elt F) VS.junk (runMiddle c i arg2 harg2 arg3 harg3 arg4 harg4 arg5 harg5 hc0 hc1 x0 x1 xs0).1)

/-- k = 11: the output block's one store covers it, and so does the accumulator's. -/
theorem cover_outLast (hc0 : ¬isFirst i) (hc1 : isLast i) (x0 : Vec F S1024x1024 .bf16) (x1 : Vec F S12288x256 .f32) (xs0 : Vec F S1024x256 .f32) (y : S1024x256.Idx) :
    ∃ pc ∈ (runLast c i arg2 harg2 arg3 harg3 arg4 harg4 arg5 harg5 hc0 hc1 x0 x1 xs0).1, y ∈ pc.1.set :=
  View.cover_of_tiledL (runLast c i arg2 harg2 arg3 harg3 arg4 harg4 arg5 harg5 hc0 hc1 x0 x1 xs0).1 S1024x256.size (by sl_kernel_rfl) y
theorem cover_accLast (hc0 : ¬isFirst i) (hc1 : isLast i) (x0 : Vec F S1024x1024 .bf16) (x1 : Vec F S12288x256 .f32) (xs0 : Vec F S1024x256 .f32) (y : S1024x256.Idx) :
    ∃ pc ∈ (runLast c i arg2 harg2 arg3 harg3 arg4 harg4 arg5 harg5 hc0 hc1 x0 x1 xs0).2.1, y ∈ pc.1.set :=
  View.cover_of_tiledL (runLast c i arg2 harg2 arg3 harg3 arg4 harg4 arg5 harg5 hc0 hc1 x0 x1 xs0).2.1 S1024x256.size (by sl_kernel_rfl) y
/-- What the last case leaves in the output block, -/
def outLast (hc0 : ¬isFirst i) (hc1 : isLast i) (x0 : Vec F S1024x1024 .bf16) (x1 : Vec F S12288x256 .f32) (xs0 : Vec F S1024x256 .f32) : Vec F S1024x256 .f32 :=
  VO.read (Elt F) (VO.writes (Elt F) VO.junk (runLast c i arg2 harg2 arg3 harg3 arg4 harg4 arg5 harg5 hc0 hc1 x0 x1 xs0).1)
/-- and in the accumulator. -/
def accLast (hc0 : ¬isFirst i) (hc1 : isLast i) (x0 : Vec F S1024x1024 .bf16) (x1 : Vec F S12288x256 .f32) (xs0 : Vec F S1024x256 .f32) : Vec F S1024x256 .f32 :=
  VS.read (Elt F) (VS.writes (Elt F) VS.junk (runLast c i arg2 harg2 arg3 harg3 arg4 harg4 arg5 harg5 hc0 hc1 x0 x1 xs0).2.1)

end

/-! ## The accumulation over the grid -/

variable (W : (c : Dev nD) → (b : Ref sig .tc) → Buf (Elt F) ((c : Thread nD τ).loc b))

/-- Window `w`'s block at point `t`, read off its array as the launch finds it (`W`). -/
def iblk (c : Dev nD) (w : Fin cfg13.W) (t : Fin cfg13.N) : ((cfg13.win w).xblock (cfg13.grid.coords t)).Idx → Elt F (cfg13.win w).elt :=
  ((cfg13.win w).blk t).view.read (Elt F) (W c (Pipeline.arrRef spec13 w))

/-- After the body at position `n`: (the output block, the accumulator). A position ≡ 0 (mod 12) starts from nothing;
    any other continues from the accumulator of the position before; a position ≡ 5 (mod 12) also writes the output. -/
def outsAt (c : Dev nD) : (n : ℕ) → n < cfg13.N → Vec F S1024x256 .f32 × Vec F S1024x256 .f32
  | 0, hn => (idleOut, accFirst c (grid13.coords ⟨0, hn⟩) (ms0 ⟨0, hn⟩) (hs0 ⟨0, hn⟩) (ms1 ⟨0, hn⟩) (hs1 ⟨0, hn⟩) (ms2 ⟨0, hn⟩) (hs2 ⟨0, hn⟩) accM (Memref.isWhole_whole _)
      ((isFirst_iff ⟨0, hn⟩).mpr (Nat.zero_mod _)) (fun h => by have := (isLast_iff ⟨0, hn⟩).mp h; (try dsimp only at this); omega) (iblk W c 0 ⟨0, hn⟩) (iblk W c 1 ⟨0, hn⟩))
  | n + 1, hn =>
    if h0 : (n + 1) % 12 = 0 then
      (idleOut, accFirst c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        ((isFirst_iff ⟨n + 1, hn⟩).mpr h0) (fun h => by have := (isLast_iff ⟨n + 1, hn⟩).mp h; (try dsimp only at this); omega) (iblk W c 0 ⟨n + 1, hn⟩) (iblk W c 1 ⟨n + 1, hn⟩))
    else if h5 : (n + 1) % 12 = 11 then
      (outLast c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2,
        accLast c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
          (fun h => h0 ((isFirst_iff ⟨n + 1, hn⟩).mp h)) ((isLast_iff ⟨n + 1, hn⟩).mpr h5) (iblk W c 0 ⟨n + 1, hn⟩) (iblk W c 1 ⟨n + 1, hn⟩) (outsAt c n (Nat.lt_of_succ_lt hn)).2)
    else
      (idleOut, accMiddle c (grid13.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) accM (Memref.isWhole_whole _)
        (fun h => h0 ((isFirst_iff ⟨n + 1, hn⟩).mp h)) (fun h => h5 ((isLast_iff ⟨n + 1, hn⟩).mp h)) (iblk W c 0 ⟨n + 1, hn⟩) (iblk W c 1 ⟨n + 1, hn⟩) (outsAt c n (Nat.lt_of_succ_lt hn)).2)

/-- At a point that opens a row block. -/
theorem outsAt_first (c : Dev nD) (t : Fin cfg13.N) (h0 : t.val % 12 = 0) :
    outsAt W c t.val t.isLt = (idleOut, accFirst c (grid13.coords t) (ms0 t) (hs0 t) (ms1 t) (hs1 t) (ms2 t) (hs2 t) accM (Memref.isWhole_whole _)
      ((isFirst_iff t).mpr h0) (fun h => by have := (isLast_iff t).mp h; omega) (iblk W c 0 t) (iblk W c 1 t)) := by
  obtain ⟨n, hn⟩ := t
  cases n with
  | zero => exact rfl
  | succ n => exact (dif_pos h0).trans rfl

/-- At a point in the middle of a row block: over what the point before left. -/
theorem outsAt_middle (c : Dev nD) (t : Fin cfg13.N) (h0 : ¬t.val % 12 = 0) (h5 : ¬t.val % 12 = 11) :
    outsAt W c t.val t.isLt = (idleOut, accMiddle c (grid13.coords t) (ms0 t) (hs0 t) (ms1 t) (hs1 t) (ms2 t) (hs2 t) accM (Memref.isWhole_whole _)
      (fun h => h0 ((isFirst_iff t).mp h)) (fun h => h5 ((isLast_iff t).mp h)) (iblk W c 0 t) (iblk W c 1 t)
      (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h5).trans rfl)

/-- At a point that closes a row block: over what the point before left, and the output block is written. -/
theorem outsAt_last (c : Dev nD) (t : Fin cfg13.N) (h0 : ¬t.val % 12 = 0) (h5 : t.val % 12 = 11) :
    outsAt W c t.val t.isLt = (outLast c (grid13.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2,
      accLast c (grid13.coords t) (ms0 t) (hs0 t) (ms1 t) (hs1 t) (ms2 t) (hs2 t) accM (Memref.isWhole_whole _)
        (fun h => h0 ((isFirst_iff t).mp h)) ((isLast_iff t).mpr h5) (iblk W c 0 t) (iblk W c 1 t)
        (outsAt W c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h5).trans rfl)

end Cert.Kernel.R13

end
-- ==== Proof.KR13Data.lean ====
/-
  The last launch's proof data: what the pipeline's bookkeeping is told each staging buffer holds after the body at
  every point (an input window: its block of the array; the output window: the accumulation's first component), the
  invariant carried between points (before the first point the launch's scoped buffers at anything; afterwards the
  accumulator at the accumulation's second component, beside the other scoped buffers), nothing owed, full shares — and
  the body obligation against it: at every point the case the point is in runs from what the data says and leaves what
  the data says.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR13Acc
import Idealize.ShloMosaic.Lib.Pipeline.Frame
import Idealize.ShloMosaic.Lib.Ring
import Idealize.ShloMosaic.Lib.Tactic
import Idealize.ShloMosaic.Lib.Pipeline.FrameBody
import Idealize.ShloMosaic.Lib.Exec

set_option maxRecDepth 16384

noncomputable section

namespace Cert.Kernel.R13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The invariant between points -/

/-- The launch's scoped buffers with the accumulator named: a memref owned at some contents. -/
theorem scoped_eq (c : Dev nD) :
    (Pipeline.scopedRest (Ix := Unit) (Name := ℕ) (U := UR sig nD τ) (Lvl := ℕ) (Val := Elt F) spec13 c : sProp 𝕄)
      = iprop((∃ d, owns (c : Thread nD τ) accM fullShare d) ∗ Pipeline.scopedRestBut (Ix := Unit) (Name := ℕ) (U := UR sig nD τ) (Lvl := ℕ) (Val := Elt F) spec13 c [cc13_scratch0]) := by
  rw [scopedRest13_split]; simp only [accM, owns_whole]; try rfl

/-- Before position `n`: at the first point every scoped buffer at anything; later the accumulator at what the point
    before left in it, the other scoped buffers at anything. -/
def PhiS (c : Dev nD) : (n : ℕ) → n ≤ cfg13.N → sProp 𝕄
  | 0, _ => Pipeline.scopedRest (Ix := Unit) (Name := ℕ) (U := UR sig nD τ) (Lvl := ℕ) (Val := Elt F) spec13 c
  | n + 1, hn => iprop(owns (c : Thread nD τ) accM fullShare ((outsAt W c n hn).2) ∗ Pipeline.scopedRestBut (Ix := Unit) (Name := ℕ) (U := UR sig nD τ) (Lvl := ℕ) (Val := Elt F) spec13 c [cc13_scratch0])

theorem PhiS_zero (c : Dev nD) (n : ℕ) (h : n ≤ cfg13.N) (hz : n = 0) : PhiS W c n h = Pipeline.scopedRest (Ix := Unit) (Name := ℕ) (U := UR sig nD τ) (Lvl := ℕ) (Val := Elt F) spec13 c := by
  subst hz; rfl

theorem PhiS_succ (c : Dev nD) (n : ℕ) (hn : n < cfg13.N) :
    PhiS W c (n + 1) hn = iprop(owns (c : Thread nD τ) accM fullShare ((outsAt W c n hn).2) ∗ Pipeline.scopedRestBut (Ix := Unit) (Name := ℕ) (U := UR sig nD τ) (Lvl := ℕ) (Val := Elt F) spec13 c [cc13_scratch0]) := rfl

theorem PhiS_pos (c : Dev nD) (n : ℕ) (h : n ≤ cfg13.N) (hz : n ≠ 0) :
    PhiS W c n h = iprop(owns (c : Thread nD τ) accM fullShare ((outsAt W c (n - 1) (by omega)).2) ∗ Pipeline.scopedRestBut (Ix := Unit) (Name := ℕ) (U := UR sig nD τ) (Lvl := ℕ) (Val := Elt F) spec13 c [cc13_scratch0]) := by
  cases n with
  | zero => exact absurd rfl hz
  | succ n => rfl

/-! ## The proof data -/

/-- On core `c`: the arrays as the launch finds them; after the body at `t` the tile's and the features' buffers at their
    blocks, the output's at the accumulation's first component; the invariant above; nothing owed; full shares. -/
def dat (c : Dev nD) : Dat τ (Elt F) Unit ℕ (UR sig nD τ) ℕ cfg13 c where
  A w := W c (Pipeline.arrRef spec13 w)
  after w t := match w with
    | ⟨0, _⟩ => iblk W c 0 t
    | ⟨1, _⟩ => iblk W c 1 t
    | ⟨2, _⟩ => (outsAt W c t.val t.isLt).1
  Φ t := PhiS W c t.val (Nat.le_of_lt_succ t.isLt)
  q _ := fullShare
  owed _ := 0

theorem A_eq (c : Dev nD) (w : Fin cfg13.W) : (dat W c).A w = W c (Pipeline.arrRef spec13 w) := by
  dsimp only [dat]

theorem PhiS_castSucc (c : Dev nD) (t : Fin cfg13.N) :
    (dat W c).Φ t.castSucc = PhiS W c t.val (Nat.le_of_lt t.isLt) := by
  dsimp only [dat]; simp only [Fin.coe_castSucc]

theorem after0 (c : Dev nD) (t : Fin cfg13.N) : (dat W c).after 0 t = iblk W c 0 t := by dsimp only [dat]
theorem after1 (c : Dev nD) (t : Fin cfg13.N) : (dat W c).after 1 t = iblk W c 1 t := by dsimp only [dat]
theorem after2 (c : Dev nD) (t : Fin cfg13.N) : (dat W c).after 2 t = (outsAt W c t.val t.isLt).1 := by dsimp only [dat]

/-- The tile's current staging buffer holds its block when the body runs (it is fetched at every point). -/
theorem before0 (c : Dev nD) (t : Fin cfg13.N) (d) : (dat W c).before 0 t d = iblk W c 0 t :=
  ((dat W c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The features' staging buffer holds the whole feature matrix at every point (fetched once; its index never moves). -/
theorem before1 (c : Dev nD) (t : Fin cfg13.N) (d) : (dat W c).before 1 t d = iblk W c 1 t :=
  ((dat W c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg13.N) : sProp 𝕄 :=
  iprop((dat W c).Φ t.castSucc ∗ (dat W c).owesAt () t.castSucc
    ∗ (∃ d, owns (c : Thread nD τ) (ms0 t) fullShare ((dat W c).before 0 t d))
    ∗ (∃ d, owns (c : Thread nD τ) (ms1 t) fullShare ((dat W c).before 1 t d))
    ∗ (∃ d, owns (c : Thread nD τ) (ms2 t) fullShare ((dat W c).before 2 t d)))

def bodyPost (c : Dev nD) (t : Fin cfg13.N) : sProp 𝕄 :=
  iprop((dat W c).Φ t.succ ∗ (dat W c).owesAt () t.succ
    ∗ (dat W c).leavesExact 0 t
    ∗ (dat W c).leavesExact 1 t
    ∗ (dat W c).leavesExact 2 t)

set_option maxHeartbeats 4800000 in
/-- The body at any point. Its position modulo 6 says which case it is in; the inputs' buffers hold their blocks; the
    invariant hands over the accumulator at what the point before left (at anything at the very first point, and a point
    that opens a row block does not look at it) and takes it back at this point's contents, read back through the cover. -/
theorem sound_body (c : Dev nD) (t : Fin cfg13.N) :
    bodyPre W c t ⊢ wp frame (wpE (defs₀ (F := F)) Variants.none c none) Set.univ (bodyAt13 t) (fun _ => bodyPost W c t) := by
  unfold bodyPre bodyPost bodyAt13
  simp only [before0, before1]
  rw [show (dat W c).owesAt () t.succ = (dat W c).owesAt () t.castSucc from rfl]
  rw [show (dat W c).Φ t.succ = PhiS W c (t.val + 1) t.isLt from rfl, PhiS_succ]
  rw [show (dat W c).leavesExact 0 t = owns (c : Thread nD τ) (ms0 t) fullShare ((dat W c).after 0 t) from by
    unfold Dat.leavesExact; rw [live_tile t], after0]
  rw [show (dat W c).leavesExact 1 t = owns (c : Thread nD τ) (ms1 t) fullShare ((dat W c).after 1 t) from by
    unfold Dat.leavesExact; rw [live_feat t], after1]
  by_cases h0 : t.val % 12 = 0
  · have hf : isFirst (grid13.coords t) := (isFirst_iff t).mpr h0
    have hnl : ¬isLast (grid13.coords t) := fun h => by have := (isLast_iff t).mp h; omega
    rw [Dat.leavesExact_idle (dat W c) 2 t (idle_out t hnl) (noFlush_out t hnl)]
    rw [outsAt_first W c t h0]
    unfold accFirst; (try dsimp only)
    by_cases hz : t.val = 0
    · rw [PhiS_castSucc W c t, PhiS_zero W c _ _ hz, scoped_eq]
      iintro ⟨⟨HS0, Hg⟩, Ho, ⟨%d0, H0⟩, ⟨%d1, H1⟩, ⟨%d2, H2⟩⟩
      iapply ((runFirst c (grid13.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
    · rw [PhiS_castSucc W c t, PhiS_pos W c _ _ hz]
      iintro ⟨⟨HS0, Hg⟩, Ho, ⟨%d0, H0⟩, ⟨%d1, H1⟩, ⟨%d2, H2⟩⟩
      iapply ((runFirst c (grid13.coords t) _ _ _ _ _ _ _ _ hf hnl (iblk W c 0 t) (iblk W c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accFirst c _ _ _ _ _ _ _ _ _ _ _ _ _)
        iexact Hg
      isplitl [Ho]; · iexact Ho
      isplitl [H0]; · iexact H0
      isplitl [H1]; · iexact H1
      iexists _; iexact H2
  · have hnf : ¬isFirst (grid13.coords t) := fun h => h0 ((isFirst_iff t).mp h)
    have hz : t.val ≠ 0 := fun h => h0 (by rw [h])
    by_cases h5 : t.val % 12 = 11
    · have hl : isLast (grid13.coords t) := (isLast_iff t).mpr h5
      rw [show (dat W c).leavesExact 2 t = owns (c : Thread nD τ) (ms2 t) fullShare ((dat W c).after 2 t) from by
        unfold Dat.leavesExact; rw [live_out t hl], after2]
      rw [outsAt_last W c t h0 h5]
      unfold outLast accLast; (try dsimp only)
      rw [PhiS_castSucc W c t, PhiS_pos W c _ _ hz]
      iintro ⟨⟨HS0, Hg⟩, Ho, ⟨%d0, H0⟩, ⟨%d1, H1⟩, ⟨%d2, H2⟩⟩
      iapply ((runLast c (grid13.coords t) _ _ _ _ _ _ _ _ hnf hl (iblk W c 0 t) (iblk W c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_outLast c _ _ _ _ _ _ _ _ _ _ _ _ _ _)
    · have hnl : ¬isLast (grid13.coords t) := fun h => h5 ((isLast_iff t).mp h)
      rw [Dat.leavesExact_idle (dat W c) 2 t (idle_out t hnl) (noFlush_out t hnl)]
      rw [outsAt_middle W c t h0 h5]
      unfold accMiddle; (try dsimp only)
      rw [PhiS_castSucc W c t, PhiS_pos W c _ _ hz]
      iintro ⟨⟨HS0, Hg⟩, Ho, ⟨%d0, H0⟩, ⟨%d1, H1⟩, ⟨%d2, H2⟩⟩
      iapply ((runMiddle c (grid13.coords t) _ _ _ _ _ _ _ _ hnf hnl (iblk W c 0 t) (iblk W c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (cover_accMiddle c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) W c) (defs₀ (F := F)) Variants.none () Set.univ := fun t => by
  rw [bigSep_W13, bigSep_W13]
  exact sound_body W c t

end Cert.Kernel.R13

end
-- ==== Proof.KAsmBase.lean ====
/-
  What every launch leaves in its output array (read off its proof data: the array after the last grid point), the
  family of the fourteen launches' proof data — each at the buffer contents its launch is entered from — and what rides
  beside the buffers from item to item: the core's generator register at some state and its debts, none.
-/
import proofs.«155206_j89000312308227_2_alg».proof.Proof.KChain
import proofs.«155206_j89000312308227_2_alg».proof.Proof.KR0Data
import proofs.«155206_j89000312308227_2_alg».proof.Proof.KR1Data
import proofs.«155206_j89000312308227_2_alg».proof.Proof.KR2Data
import proofs.«155206_j89000312308227_2_alg».proof.Proof.KR3Data
import proofs.«155206_j89000312308227_2_alg».proof.Proof.KR4Data
import proofs.«155206_j89000312308227_2_alg».proof.Proof.KR5Data
import proofs.«155206_j89000312308227_2_alg».proof.Proof.KR6Data
import proofs.«155206_j89000312308227_2_alg».proof.Proof.KR7Data
import proofs.«155206_j89000312308227_2_alg».proof.Proof.KR8Data
import proofs.«155206_j89000312308227_2_alg».proof.Proof.KR9Data
import proofs.«155206_j89000312308227_2_alg».proof.Proof.KR10Data
import proofs.«155206_j89000312308227_2_alg».proof.Proof.KR11Data
import proofs.«155206_j89000312308227_2_alg».proof.Proof.KR12Data
import proofs.«155206_j89000312308227_2_alg».proof.Proof.KR13Data
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What each launch leaves in its output array: its proof data's array after the last grid point. -/
def leaves (F : FTy → Type) [FloatOps F] : LeavesAll F where
    v0 := fun W c => (R0.dat (F := F) W c).arrAt 2 cfg0.N
    v1 := fun W c => (R1.dat (F := F) W c).arrAt 4 cfg1.N
    v2 := fun W c => (R2.dat (F := F) W c).arrAt 6 cfg2.N
    v3 := fun W c => (R3.dat (F := F) W c).arrAt 4 cfg3.N
    v4 := fun W c => (R4.dat (F := F) W c).arrAt 6 cfg4.N
    v5 := fun W c => (R5.dat (F := F) W c).arrAt 4 cfg5.N
    v6 := fun W c => (R6.dat (F := F) W c).arrAt 6 cfg6.N
    v7 := fun W c => (R7.dat (F := F) W c).arrAt 4 cfg7.N
    v8 := fun W c => (R8.dat (F := F) W c).arrAt 6 cfg8.N
    v9 := fun W c => (R9.dat (F := F) W c).arrAt 4 cfg9.N
    v10 := fun W c => (R10.dat (F := F) W c).arrAt 6 cfg10.N
    v11 := fun W c => (R11.dat (F := F) W c).arrAt 4 cfg11.N
    v12 := fun W c => (R12.dat (F := F) W c).arrAt 6 cfg12.N
    v13 := fun W c => (R13.dat (F := F) W c).arrAt 2 cfg13.N

abbrev 𝒱₀ : Variants := Variants.none
/-- No core owes another anything: no level is assigned. -/
abbrev Lz : GSem nD τ sig → Finset Unit := fun _ => ∅
abbrev lvz : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)

variable (m : (ℓ : Loc nD τ sig) → Buf (Elt F) ℓ)

/-- The fourteen launches' proof data, each at the contents its launch is entered from. -/
def pdats : (p : Fin 14) → (c : Dev nD) → Dat τ (Elt F) Unit ℕ (UR sig nD τ) ℕ (Pipeline.pin (pcfgs (F := F)) adm p) c
  | ⟨0, _⟩ => fun c => R0.dat (rd (U1 m)) c
  | ⟨1, _⟩ => fun c => R1.dat (rd (U3 m (leaves F))) c
  | ⟨2, _⟩ => fun c => R2.dat (rd (U5 m (leaves F))) c
  | ⟨3, _⟩ => fun c => R3.dat (rd (U7 m (leaves F))) c
  | ⟨4, _⟩ => fun c => R4.dat (rd (U9 m (leaves F))) c
  | ⟨5, _⟩ => fun c => R5.dat (rd (U11 m (leaves F))) c
  | ⟨6, _⟩ => fun c => R6.dat (rd (U13 m (leaves F))) c
  | ⟨7, _⟩ => fun c => R7.dat (rd (U15 m (leaves F))) c
  | ⟨8, _⟩ => fun c => R8.dat (rd (U17 m (leaves F))) c
  | ⟨9, _⟩ => fun c => R9.dat (rd (U19 m (leaves F))) c
  | ⟨10, _⟩ => fun c => R10.dat (rd (U21 m (leaves F))) c
  | ⟨11, _⟩ => fun c => R11.dat (rd (U23 m (leaves F))) c
  | ⟨12, _⟩ => fun c => R12.dat (rd (U25 m (leaves F))) c
  | ⟨13, _⟩ => fun c => R13.dat (rd (U28 m (leaves F))) c

end Cert.Kernel.Asm

end
-- ==== Proof.KSeg0.lean ====
/-
  Launch 0 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v0 (W) (c : Dev nD) : (leaves F).v0 W c = (R0.dat (F := F) W c).arrAt 2 cfg0.N := rfl

/-- The output array after the launch is what the launch leaves: its proof data's array after the last grid point. -/
theorem hF0_out (c : Dev nD) : (pdats m 0 c).arrAt 2 cfg0.N = rd (U2 m (leaves F)) c (Pipeline.arrRef spec0 2) :=
  ((U2_out m (leaves F) c).trans (leaves_v0 _ c)).symm

set_option maxHeartbeats 3200000 in
/-- At the exit every array of the launch holds the next item's contents: the output array what the launch leaves, an
    input array what it held (the launch changes no other buffer). -/
theorem hF0 (c : Dev nD) (w : Fin cfg0.W) : (pdats m 0 c).arrAt w cfg0.N = rd (U2 m (leaves F)) c (Pipeline.arrRef spec0 w) := by
  match w with
  | ⟨0, _⟩ => exact ((pdats m 0 c).arrAt_in 0 rfl _).trans ((R0.A_eq _ c 0).trans (U2_of_ne m (leaves F) c (Pipeline.arrRef spec0 0) (by decide)).symm)
  | ⟨1, _⟩ => exact ((pdats m 0 c).arrAt_in 1 rfl _).trans ((R0.A_eq _ c 1).trans (U2_of_ne m (leaves F) c (Pipeline.arrRef spec0 1) (by decide)).symm)
  | ⟨2, _⟩ => exact hF0_out m c

theorem out_ref0 : Pipeline.arrRef spec0 2 = main_v3 := rfl

theorem hrest0 (c : Dev nD) : ∀ b, b ∉ Finset.univ.image (Pipeline.arrRef spec0) → rd (U2 m (leaves F)) c b = rd (U1 m) c b :=
  fun b hb => U2_of_ne m (leaves F) c b fun e => hb (Finset.mem_image.mpr ⟨2, Finset.mem_univ _, out_ref0.trans e.symm⟩)

/-- After the last grid point the invariant gives the scoped buffers back at anything. -/
theorem hout0 (c : Dev nD) : (pdats m 0 c).Φ (Fin.last cfg0.N) ⊢ (Pipeline.scopedRest (Ix := Unit) (Name := ℕ) (U := UR sig nD τ) (Lvl := ℕ) (Val := Elt F) spec0 c : sProp 𝕄) := by
  rw [show (pdats m 0 c).Φ (Fin.last cfg0.N) = R0.PhiS (rd (U1 m)) c cfg0.N (Nat.le_refl _) from rfl,
    R0.PhiS_pos _ c _ _ (by have h : cfg0.N = 72 := N_0; omega), R0.scoped_eq]
  iintro ⟨HS, Hg⟩
  isplitl [HS]
  · iexists _; iexact HS
  iexact Hg

set_option backward.isDefEq.respectTransparency.types false in
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (R0.body_obligation (rd (U1 m)) c).loose
  hwaits := Pipeline.hwaits_of_owed_zero _ _ _ _ Lz lvz 0 fun _ _ => rfl
  pre c := iprop(StableHlo.held (c : Thread nD τ) (Pipeline.ucRefs τ sig) (U1 m c) ∗ Rr c)
  post c := iprop(StableHlo.held (c : Thread nD τ) (Pipeline.ucRefs τ sig) (U2 m (leaves F) c) ∗ Rr c)
  X c := iprop(emp)
  Y c := iprop(emp)
  Z c := iprop(Pipeline.unscopedRest (Ix := Unit) (Name := ℕ) (U := UR sig nD τ) (Lvl := ℕ) spec0 c (rd (U1 m) c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none]
    iintro H
    isplitr; · iempintro
    isplitr; · iempintro
    iapply (hout0 m c); iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (U1 m) c) (rd (U2 m (leaves F)) c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg1.lean ====
/-
  Launch 1 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v1 (W) (c : Dev nD) : (leaves F).v1 W c = (R1.dat (F := F) W c).arrAt 4 cfg1.N := rfl

/-- The output array after the launch is what the launch leaves: its proof data's array after the last grid point. -/
theorem hF1_out (c : Dev nD) : (pdats m 1 c).arrAt 4 cfg1.N = rd (U4 m (leaves F)) c (Pipeline.arrRef spec1 4) :=
  ((U4_out m (leaves F) c).trans (leaves_v1 _ c)).symm

set_option maxHeartbeats 3200000 in
/-- At the exit every array of the launch holds the next item's contents: the output array what the launch leaves, an
    input array what it held (the launch changes no other buffer). -/
theorem hF1 (c : Dev nD) (w : Fin cfg1.W) : (pdats m 1 c).arrAt w cfg1.N = rd (U4 m (leaves F)) c (Pipeline.arrRef spec1 w) := by
  match w with
  | ⟨0, _⟩ => exact ((pdats m 1 c).arrAt_in 0 rfl _).trans ((R1.A_eq _ c 0).trans (U4_of_ne m (leaves F) c (Pipeline.arrRef spec1 0) (by decide)).symm)
  | ⟨1, _⟩ => exact ((pdats m 1 c).arrAt_in 1 rfl _).trans ((R1.A_eq _ c 1).trans (U4_of_ne m (leaves F) c (Pipeline.arrRef spec1 1) (by decide)).symm)
  | ⟨2, _⟩ => exact ((pdats m 1 c).arrAt_in 2 rfl _).trans ((R1.A_eq _ c 2).trans (U4_of_ne m (leaves F) c (Pipeline.arrRef spec1 2) (by decide)).symm)
  | ⟨3, _⟩ => exact ((pdats m 1 c).arrAt_in 3 rfl _).trans ((R1.A_eq _ c 3).trans (U4_of_ne m (leaves F) c (Pipeline.arrRef spec1 3) (by decide)).symm)
  | ⟨4, _⟩ => exact hF1_out m c

theorem out_ref1 : Pipeline.arrRef spec1 4 = main_v9 := rfl

theorem hrest1 (c : Dev nD) : ∀ b, b ∉ Finset.univ.image (Pipeline.arrRef spec1) → rd (U4 m (leaves F)) c b = rd (U3 m (leaves F)) c b :=
  fun b hb => U4_of_ne m (leaves F) c b fun e => hb (Finset.mem_image.mpr ⟨4, Finset.mem_univ _, out_ref1.trans e.symm⟩)

/-- After the last grid point the invariant gives the scoped buffers back at anything. -/
theorem hout1 (c : Dev nD) : (pdats m 1 c).Φ (Fin.last cfg1.N) ⊢ (Pipeline.scopedRest (Ix := Unit) (Name := ℕ) (U := UR sig nD τ) (Lvl := ℕ) (Val := Elt F) spec1 c : sProp 𝕄) := by
  rw [show (pdats m 1 c).Φ (Fin.last cfg1.N) = R1.PhiS (rd (U3 m (leaves F))) c cfg1.N (Nat.le_refl _) from rfl,
    R1.PhiS_pos _ c _ _ (by have h : cfg1.N = 36 := N_1; omega), R1.scoped_eq]
  iintro ⟨HS, Hg⟩
  isplitl [HS]
  · iexists _; iexact HS
  iexact Hg

set_option backward.isDefEq.respectTransparency.types false in
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (R1.body_obligation (rd (U3 m (leaves F))) c).loose
  hwaits := Pipeline.hwaits_of_owed_zero _ _ _ _ Lz lvz 1 fun _ _ => rfl
  pre c := iprop(StableHlo.held (c : Thread nD τ) (Pipeline.ucRefs τ sig) (U3 m (leaves F) c) ∗ Rr c)
  post c := iprop(StableHlo.held (c : Thread nD τ) (Pipeline.ucRefs τ sig) (U4 m (leaves F) c) ∗ Rr c)
  X c := iprop(emp)
  Y c := iprop(emp)
  Z c := iprop(Pipeline.unscopedRest (Ix := Unit) (Name := ℕ) (U := UR sig nD τ) (Lvl := ℕ) spec1 c (rd (U3 m (leaves F)) c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (U3 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Pipeline.scopedRest (Ix := Unit) (Name := ℕ) (U := UR sig nD τ) (Lvl := ℕ) (Val := Elt F) spec1 c from rfl]
    iintro ⟨-, -, Hr⟩
    iexact Hr
  hout c := by
    rw [Pipeline.ownSems0_none]
    iintro H
    isplitr; · iempintro
    isplitr; · iempintro
    iapply (hout1 m c); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (U3 m (leaves F)) c) (rd (U4 m (leaves F)) c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KR2Arr.lean ====
/-
  Launch 2's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR2Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec2) = [main_v0, main_v9, main_v11, main_v14, main_arg0, main_v15].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec2 c V ∗ Pipeline.unscopedRest (Ix := Unit) (Name := ℕ) (U := UR sig nD τ) (Lvl := ℕ) spec2 c V) :=
  Pipeline.PerCore.unscopedBufs_split₀ (fun _ : Dev nD => cfgs) (2 : Fin 14) c winFacts₀2.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v0) ↦{fullShare} V main_v0) ∗ (((c : Thread nD τ).loc main_v9) ↦{fullShare} V main_v9) ∗ (((c : Thread nD τ).loc main_v11) ↦{fullShare} V main_v11) ∗ (((c : Thread nD τ).loc main_v14) ↦{fullShare} V main_v14) ∗ (((c : Thread nD τ).loc main_arg0) ↦{fullShare} V main_arg0) ∗ (((c : Thread nD τ).loc main_v15) ↦{fullShare} V main_v15)) := by
  unfold Pipeline.arrBufs
  exact bigSep_eq_bigSepL_of_eq [main_v0, main_v9, main_v11, main_v14, main_arg0, main_v15] arrRefs_eq (by decide) _

/-- The seven windows' holdings one by one: each array whole at its window's share. -/
theorem arrays_eq (c : Dev nD) (G : (w : Fin cfg2.W) → Buf (Elt F) ((cfg2.win w).arr.view.loc (c : Thread nD τ))) :
    ((dat W c).arrays G : sProp 𝕄)
      = iprop((((c : Thread nD τ).loc main_v0) ↦{fullShare} G 0) ∗ (((c : Thread nD τ).loc main_v9) ↦{fullShare.left} G 1) ∗ (((c : Thread nD τ).loc main_v11) ↦{fullShare} G 2) ∗ (((c : Thread nD τ).loc main_v14) ↦{fullShare} G 3) ∗ (((c : Thread nD τ).loc main_v9) ↦{fullShare.right} G 4) ∗ (((c : Thread nD τ).loc main_arg0) ↦{fullShare} G 5) ∗ (((c : Thread nD τ).loc main_v15) ↦{fullShare} G 6)) := by
  rw [Cert.Lib.SharedLaunch.arrays_eq_shares (dat W c) arr_whole2 G, bigSep_W2]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec2 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg2.W) → Buf (Elt F) ((cfg2.win w).arr.view.loc (c : Thread nD τ))) (hF : ∀ w, Fw w = V' (Pipeline.arrRef spec2 w))
    (hrest : ∀ b, b ∉ Finset.univ.image (Pipeline.arrRef spec2) → V' b = W c b) :
    iprop((dat W c).arrays Fw ∗ Pipeline.unscopedRest (Ix := Unit) (Name := ℕ) (U := UR sig nD τ) (Lvl := ℕ) spec2 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec2 c (W c) : sProp 𝕄) = Pipeline.unscopedRest (Ix := Unit) (Name := ℕ) (U := UR sig nD τ) (Lvl := ℕ) spec2 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.Kernel.R2

end
-- ==== Proof.KSeg2.lean ====
/-
  Launch 2 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase
import proofs.«155206_j89000312308227_2_alg».proof.Proof.KR2Arr

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v2 (W) (c : Dev nD) : (leaves F).v2 W c = (R2.dat (F := F) W c).arrAt 6 cfg2.N := rfl

/-- The output array after the launch is what the launch leaves: its proof data's array after the last grid point. -/
theorem hF2_out (c : Dev nD) : (pdats m 2 c).arrAt 6 cfg2.N = rd (U6 m (leaves F)) c (Pipeline.arrRef spec2 6) :=
  ((U6_out m (leaves F) c).trans (leaves_v2 _ c)).symm

set_option maxHeartbeats 3200000 in
/-- At the exit every array of the launch holds the next item's contents: the output array what the launch leaves, an
    input array what it held (the launch changes no other buffer). -/
theorem hF2 (c : Dev nD) (w : Fin cfg2.W) : (pdats m 2 c).arrAt w cfg2.N = rd (U6 m (leaves F)) c (Pipeline.arrRef spec2 w) := by
  match w with
  | ⟨0, _⟩ => exact ((pdats m 2 c).arrAt_in 0 rfl _).trans ((R2.A_eq _ c 0).trans (U6_of_ne m (leaves F) c (Pipeline.arrRef spec2 0) (by decide)).symm)
  | ⟨1, _⟩ => exact ((pdats m 2 c).arrAt_in 1 rfl _).trans ((R2.A_eq _ c 1).trans (U6_of_ne m (leaves F) c (Pipeline.arrRef spec2 1) (by decide)).symm)
  | ⟨2, _⟩ => exact ((pdats m 2 c).arrAt_in 2 rfl _).trans ((R2.A_eq _ c 2).trans (U6_of_ne m (leaves F) c (Pipeline.arrRef spec2 2) (by decide)).symm)
  | ⟨3, _⟩ => exact ((pdats m 2 c).arrAt_in 3 rfl _).trans ((R2.A_eq _ c 3).trans (U6_of_ne m (leaves F) c (Pipeline.arrRef spec2 3) (by decide)).symm)
  | ⟨4, _⟩ => exact ((pdats m 2 c).arrAt_in 4 rfl _).trans ((R2.A_eq _ c 4).trans (U6_of_ne m (leaves F) c (Pipeline.arrRef spec2 4) (by decide)).symm)
  | ⟨5, _⟩ => exact ((pdats m 2 c).arrAt_in 5 rfl _).trans ((R2.A_eq _ c 5).trans (U6_of_ne m (leaves F) c (Pipeline.arrRef spec2 5) (by decide)).symm)
  | ⟨6, _⟩ => exact hF2_out m c

theorem out_ref2 : Pipeline.arrRef spec2 6 = main_v15 := rfl

theorem hrest2 (c : Dev nD) : ∀ b, b ∉ Finset.univ.image (Pipeline.arrRef spec2) → rd (U6 m (leaves F)) c b = rd (U5 m (leaves F)) c b :=
  fun b hb => U6_of_ne m (leaves F) c b fun e => hb (Finset.mem_image.mpr ⟨6, Finset.mem_univ _, out_ref2.trans e.symm⟩)

/-- After the last grid point the invariant gives the scoped buffers back at anything. -/
theorem hout2 (c : Dev nD) : (pdats m 2 c).Φ (Fin.last cfg2.N) ⊢ (Pipeline.scopedRest (Ix := Unit) (Name := ℕ) (U := UR sig nD τ) (Lvl := ℕ) (Val := Elt F) spec2 c : sProp 𝕄) := by
  rw [show (pdats m 2 c).Φ (Fin.last cfg2.N) = R2.PhiS (rd (U5 m (leaves F))) c cfg2.N (Nat.le_refl _) from rfl,
    R2.PhiS_pos _ c _ _ (by have h : cfg2.N = 36 := N_2; omega), R2.scoped_eq]
  iintro ⟨HS, Hg⟩
  isplitl [HS]
  · iexists _; iexact HS
  iexact Hg

set_option backward.isDefEq.respectTransparency.types false in
def reg2 : Pipeline.RegionSeg (pcfgs (F := F)) adm (pdats m) () defs₀ 𝒱₀ Lz lvz 2 where
  win := winFacts₀2
  block_pos := block_pos2
  stage_whole := stage_whole2
  K := PEmpty
  osem k := k.elim
  ho := Pipeline.OwnSemFacts.none _
  hbody c := (R2.body_obligation (rd (U5 m (leaves F))) c).loose
  hwaits := Pipeline.hwaits_of_owed_zero _ _ _ _ Lz lvz 2 fun _ _ => rfl
  pre c := iprop(StableHlo.held (c : Thread nD τ) (Pipeline.ucRefs τ sig) (U5 m (leaves F) c) ∗ Rr c)
  post c := iprop(StableHlo.held (c : Thread nD τ) (Pipeline.ucRefs τ sig) (U6 m (leaves F) c) ∗ Rr c)
  X c := iprop(emp)
  Y c := iprop(emp)
  Z c := iprop(Pipeline.unscopedRest (Ix := Unit) (Name := ℕ) (U := UR sig nD τ) (Lvl := ℕ) spec2 c (rd (U5 m (leaves F)) c) ∗ ∃ r, prngReg c r)
  hentry c := by
    rw [Pipeline.ownSems0_none]
    have hsplit := R2.arrays_of_unscopedBufs (rd (U5 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Pipeline.scopedRest (Ix := Unit) (Name := ℕ) (U := UR sig nD τ) (Lvl := ℕ) (Val := Elt F) spec2 c from rfl]
    iintro ⟨-, -, Hr⟩
    iexact Hr
  hout c := by
    rw [Pipeline.ownSems0_none]
    iintro H
    isplitr; · iempintro
    isplitr; · iempintro
    iapply (hout2 m c); iexact H
  hexit c := by
    have hjoin : iprop((pdats m 2 c).arrays ((pdats m 2 c).arrAt · cfg2.N)
          ∗ Pipeline.unscopedRest (Ix := Unit) (Name := ℕ) (U := UR sig nD τ) (Lvl := ℕ) spec2 c (rd (U5 m (leaves F)) c))
        ⊢ (unscopedBufs c (rd (U6 m (leaves F)) c) : sProp 𝕄) :=
      R2.unscopedBufs_of_arrays (rd (U5 m (leaves F))) c (rd (U6 m (leaves F)) c)
        ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg3.lean ====
/-
  Launch 3 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v3 (W) (c : Dev nD) : (leaves F).v3 W c = (R3.dat (F := F) W c).arrAt 4 cfg3.N := rfl

/-- The output array after the launch is what the launch leaves: its proof data's array after the last grid point. -/
theorem hF3_out (c : Dev nD) : (pdats m 3 c).arrAt 4 cfg3.N = rd (U8 m (leaves F)) c (Pipeline.arrRef spec3 4) :=
  ((U8_out m (leaves F) c).trans (leaves_v3 _ c)).symm

set_option maxHeartbeats 3200000 in
/-- At the exit every array of the launch holds the next item's contents: the output array what the launch leaves, an
    input array what it held (the launch changes no other buffer). -/
theorem hF3 (c : Dev nD) (w : Fin cfg3.W) : (pdats m 3 c).arrAt w cfg3.N = rd (U8 m (leaves F)) c (Pipeline.arrRef spec3 w) := by
  match w with
  | ⟨0, _⟩ => exact ((pdats m 3 c).arrAt_in 0 rfl _).trans ((R3.A_eq _ c 0).trans (U8_of_ne m (leaves F) c (Pipeline.arrRef spec3 0) (by decide)).symm)
  | ⟨1, _⟩ => exact ((pdats m 3 c).arrAt_in 1 rfl _).trans ((R3.A_eq _ c 1).trans (U8_of_ne m (leaves F) c (Pipeline.arrRef spec3 1) (by decide)).symm)
  | ⟨2, _⟩ => exact ((pdats m 3 c).arrAt_in 2 rfl _).trans ((R3.A_eq _ c 2).trans (U8_of_ne m (leaves F) c (Pipeline.arrRef spec3 2) (by decide)).symm)
  | ⟨3, _⟩ => exact ((pdats m 3 c).arrAt_in 3 rfl _).trans ((R3.A_eq _ c 3).trans (U8_of_ne m (leaves F) c (Pipeline.arrRef spec3 3) (by decide)).symm)
  | ⟨4, _⟩ => exact hF3_out m c

theorem out_ref3 : Pipeline.arrRef spec3 4 = main_v21 := rfl

theorem hrest3 (c : Dev nD) : ∀ b, b ∉ Finset.univ.image (Pipeline.arrRef spec3) → rd (U8 m (leaves F)) c b = rd (U7 m (leaves F)) c b :=
  fun b hb => U8_of_ne m (leaves F) c b fun e => hb (Finset.mem_image.mpr ⟨4, Finset.mem_univ _, out_ref3.trans e.symm⟩)

/-- After the last grid point the invariant gives the scoped buffers back at anything. -/
theorem hout3 (c : Dev nD) : (pdats m 3 c).Φ (Fin.last cfg3.N) ⊢ (Pipeline.scopedRest (Ix := Unit) (Name := ℕ) (U := UR sig nD τ) (Lvl := ℕ) (Val := Elt F) spec3 c : sProp 𝕄) := by
  rw [show (pdats m 3 c).Φ (Fin.last cfg3.N) = R3.PhiS (rd (U7 m (leaves F))) c cfg3.N (Nat.le_refl _) from rfl,
    R3.PhiS_pos _ c _ _ (by have h : cfg3.N = 36 := N_3; omega), R3.scoped_eq]
  iintro ⟨HS, Hg⟩
  isplitl [HS]
  · iexists _; iexact HS
  iexact Hg

set_option backward.isDefEq.respectTransparency.types false in
def reg3 : Pipeline.RegionSeg (pcfgs (F := F)) adm (pdats m) () defs₀ 𝒱₀ Lz lvz 3 where
  win := launch3.win.to₀
  block_pos := launch3.block_pos
  stage_whole := launch3.stage_whole
  K := PEmpty
  osem k := k.elim
  ho := Pipeline.OwnSemFacts.none _
  hbody c := (R3.body_obligation (rd (U7 m (leaves F))) c).loose
  hwaits := Pipeline.hwaits_of_owed_zero _ _ _ _ Lz lvz 3 fun _ _ => rfl
  pre c := iprop(StableHlo.held (c : Thread nD τ) (Pipeline.ucRefs τ sig) (U7 m (leaves F) c) ∗ Rr c)
  post c := iprop(StableHlo.held (c : Thread nD τ) (Pipeline.ucRefs τ sig) (U8 m (leaves F) c) ∗ Rr c)
  X c := iprop(emp)
  Y c := iprop(emp)
  Z c := iprop(Pipeline.unscopedRest (Ix := Unit) (Name := ℕ) (U := UR sig nD τ) (Lvl := ℕ) spec3 c (rd (U7 m (leaves F)) c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (U7 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = Pipeline.scopedRest (Ix := Unit) (Name := ℕ) (U := UR sig nD τ) (Lvl := ℕ) (Val := Elt F) spec3 c from rfl]
    iintro ⟨-, -, Hr⟩
    iexact Hr
  hout c := by
    rw [Pipeline.ownSems0_none]
    iintro H
    isplitr; · iempintro
    isplitr; · iempintro
    iapply (hout3 m c); iexact H
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (U7 m (leaves F)) c) (rd (U8 m (leaves F)) c) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KR4Arr.lean ====
/-
  Launch 4's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR4Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec4) = [main_v0, main_v21, main_v23, main_v26, main_v15, main_v27].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec4 c V ∗ Pipeline.unscopedRest (Ix := Unit) (Name := ℕ) (U := UR sig nD τ) (Lvl := ℕ) spec4 c V) :=
  Pipeline.PerCore.unscopedBufs_split₀ (fun _ : Dev nD => cfgs) (4 : Fin 14) c winFacts₀4.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec4 c V : sProp 𝕄)
      = iprop((((c : Thread nD τ).loc main_v0) ↦{fullShare} V main_v0) ∗ (((c : Thread nD τ).loc main_v21) ↦{fullShare} V main_v21) ∗ (((c : Thread nD τ).loc main_v23) ↦{fullShare} V main_v23) ∗ (((c : Thread nD τ).loc main_v26) ↦{fullShare} V main_v26) ∗ (((c : Thread nD τ).loc main_v15) ↦{fullShare} V main_v15) ∗ (((c : Thread nD τ).loc main_v27) ↦{fullShare} V main_v27)) := by
  unfold Pipeline.arrBufs
  exact bigSep_eq_bigSepL_of_eq [main_v0, main_v21, main_v23, main_v26, main_v15, main_v27] arrRefs_eq (by decide) _

/-- The seven windows' holdings one by one: each array whole at its window's share. -/
theorem arrays_eq (c : Dev nD) (G : (w : Fin cfg4.W) → Buf (Elt F) ((cfg4.win w).arr.view.loc (c : Thread nD τ))) :
    ((dat W c).arrays G : sProp 𝕄)
      = iprop((((c : Thread nD τ).loc main_v0) ↦{fullShare} G 0) ∗ (((c : Thread nD τ).loc main_v21) ↦{fullShare.left} G 1) ∗ (((c : Thread nD τ).loc main_v23) ↦{fullShare} G 2) ∗ (((c : Thread nD τ).loc main_v26) ↦{fullShare} G 3) ∗ (((c : Thread nD τ).loc main_v21) ↦{fullShare.right} G 4) ∗ (((c : Thread nD τ).loc main_v15) ↦{fullShare} G 5) ∗ (((c : Thread nD τ).loc main_v27) ↦{fullShare} G 6)) := by
  rw [Cert.Lib.SharedLaunch.arrays_eq_shares (dat W c) arr_whole4 G, bigSep_W4]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec4 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg4.W) → Buf (Elt F) ((cfg4.win w).arr.view.loc (c : Thread nD τ))) (hF : ∀ w, Fw w = V' (Pipeline.arrRef spec4 w))
    (hrest : ∀ b, b ∉ Finset.univ.image (Pipeline.arrRef spec4) → V' b = W c b) :
    iprop((dat W c).arrays Fw ∗ Pipeline.unscopedRest (Ix := Unit) (Name := ℕ) (U := UR sig nD τ) (Lvl := ℕ) spec4 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec4 c (W c) : sProp 𝕄) = Pipeline.unscopedRest (Ix := Unit) (Name := ℕ) (U := UR sig nD τ) (Lvl := ℕ) spec4 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.Kernel.R4

end
-- ==== Proof.KSeg4.lean ====
/-
  Launch 4 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase
import proofs.«155206_j89000312308227_2_alg».proof.Proof.KR4Arr

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v4 (W) (c : Dev nD) : (leaves F).v4 W c = (R4.dat (F := F) W c).arrAt 6 cfg4.N := rfl

/-- The output array after the launch is what the launch leaves: its proof data's array after the last grid point. -/
theorem hF4_out (c : Dev nD) : (pdats m 4 c).arrAt 6 cfg4.N = rd (U10 m (leaves F)) c (Pipeline.arrRef spec4 6) :=
  ((U10_out m (leaves F) c).trans (leaves_v4 _ c)).symm

set_option maxHeartbeats 3200000 in
/-- At the exit every array of the launch holds the next item's contents: the output array what the launch leaves, an
    input array what it held (the launch changes no other buffer). -/
theorem hF4 (c : Dev nD) (w : Fin cfg4.W) : (pdats m 4 c).arrAt w cfg4.N = rd (U10 m (leaves F)) c (Pipeline.arrRef spec4 w) := by
  match w with
  | ⟨0, _⟩ => exact ((pdats m 4 c).arrAt_in 0 rfl _).trans ((R4.A_eq _ c 0).trans (U10_of_ne m (leaves F) c (Pipeline.arrRef spec4 0) (by decide)).symm)
  | ⟨1, _⟩ => exact ((pdats m 4 c).arrAt_in 1 rfl _).trans ((R4.A_eq _ c 1).trans (U10_of_ne m (leaves F) c (Pipeline.arrRef spec4 1) (by decide)).symm)
  | ⟨2, _⟩ => exact ((pdats m 4 c).arrAt_in 2 rfl _).trans ((R4.A_eq _ c 2).trans (U10_of_ne m (leaves F) c (Pipeline.arrRef spec4 2) (by decide)).symm)
  | ⟨3, _⟩ => exact ((pdats m 4 c).arrAt_in 3 rfl _).trans ((R4.A_eq _ c 3).trans (U10_of_ne m (leaves F) c (Pipeline.arrRef spec4 3) (by decide)).symm)
  | ⟨4, _⟩ => exact ((pdats m 4 c).arrAt_in 4 rfl _).trans ((R4.A_eq _ c 4).trans (U10_of_ne m (leaves F) c (Pipeline.arrRef spec4 4) (by decide)).symm)
  | ⟨5, _⟩ => exact ((pdats m 4 c).arrAt_in 5 rfl _).trans ((R4.A_eq _ c 5).trans (U10_of_ne m (leaves F) c (Pipeline.arrRef spec4 5) (by decide)).symm)
  | ⟨6, _⟩ => exact hF4_out m c

theorem out_ref4 : Pipeline.arrRef spec4 6 = main_v27 := rfl

theorem hrest4 (c : Dev nD) : ∀ b, b ∉ Finset.univ.image (Pipeline.arrRef spec4) → rd (U10 m (leaves F)) c b = rd (U9 m (leaves F)) c b :=
  fun b hb => U10_of_ne m (leaves F) c b fun e => hb (Finset.mem_image.mpr ⟨6, Finset.mem_univ _, out_ref4.trans e.symm⟩)

/-- After the last grid point the invariant gives the scoped buffers back at anything. -/
theorem hout4 (c : Dev nD) : (pdats m 4 c).Φ (Fin.last cfg4.N) ⊢ (Pipeline.scopedRest (Ix := Unit) (Name := ℕ) (U := UR sig nD τ) (Lvl := ℕ) (Val := Elt F) spec4 c : sProp 𝕄) := by
  rw [show (pdats m 4 c).Φ (Fin.last cfg4.N) = R4.PhiS (rd (U9 m (leaves F))) c cfg4.N (Nat.le_refl _) from rfl,
    R4.PhiS_pos _ c _ _ (by have h : cfg4.N = 36 := N_4; omega), R4.scoped_eq]
  iintro ⟨HS, Hg⟩
  isplitl [HS]
  · iexists _; iexact HS
  iexact Hg

set_option backward.isDefEq.respectTransparency.types false in
def reg4 : Pipeline.RegionSeg (pcfgs (F := F)) adm (pdats m) () defs₀ 𝒱₀ Lz lvz 4 where
  win := winFacts₀4
  block_pos := block_pos4
  stage_whole := stage_whole4
  K := PEmpty
  osem k := k.elim
  ho := Pipeline.OwnSemFacts.none _
  hbody c := (R4.body_obligation (rd (U9 m (leaves F))) c).loose
  hwaits := Pipeline.hwaits_of_owed_zero _ _ _ _ Lz lvz 4 fun _ _ => rfl
  pre c := iprop(StableHlo.held (c : Thread nD τ) (Pipeline.ucRefs τ sig) (U9 m (leaves F) c) ∗ Rr c)
  post c := iprop(StableHlo.held (c : Thread nD τ) (Pipeline.ucRefs τ sig) (U10 m (leaves F) c) ∗ Rr c)
  X c := iprop(emp)
  Y c := iprop(emp)
  Z c := iprop(Pipeline.unscopedRest (Ix := Unit) (Name := ℕ) (U := UR sig nD τ) (Lvl := ℕ) spec4 c (rd (U9 m (leaves F)) c) ∗ ∃ r, prngReg c r)
  hentry c := by
    rw [Pipeline.ownSems0_none]
    have hsplit := R4.arrays_of_unscopedBufs (rd (U9 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 4 c).Φ 0 = Pipeline.scopedRest (Ix := Unit) (Name := ℕ) (U := UR sig nD τ) (Lvl := ℕ) (Val := Elt F) spec4 c from rfl]
    iintro ⟨-, -, Hr⟩
    iexact Hr
  hout c := by
    rw [Pipeline.ownSems0_none]
    iintro H
    isplitr; · iempintro
    isplitr; · iempintro
    iapply (hout4 m c); iexact H
  hexit c := by
    have hjoin : iprop((pdats m 4 c).arrays ((pdats m 4 c).arrAt · cfg4.N)
          ∗ Pipeline.unscopedRest (Ix := Unit) (Name := ℕ) (U := UR sig nD τ) (Lvl := ℕ) spec4 c (rd (U9 m (leaves F)) c))
        ⊢ (unscopedBufs c (rd (U10 m (leaves F)) c) : sProp 𝕄) :=
      R4.unscopedBufs_of_arrays (rd (U9 m (leaves F))) c (rd (U10 m (leaves F)) c)
        ((pdats m 4 c).arrAt · cfg4.N) (hF4 m c) (hrest4 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg5.lean ====
/-
  Launch 5 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v5 (W) (c : Dev nD) : (leaves F).v5 W c = (R5.dat (F := F) W c).arrAt 4 cfg5.N := rfl

/-- The output array after the launch is what the launch leaves: its proof data's array after the last grid point. -/
theorem hF5_out (c : Dev nD) : (pdats m 5 c).arrAt 4 cfg5.N = rd (U12 m (leaves F)) c (Pipeline.arrRef spec5 4) :=
  ((U12_out m (leaves F) c).trans (leaves_v5 _ c)).symm

set_option maxHeartbeats 3200000 in
/-- At the exit every array of the launch holds the next item's contents: the output array what the launch leaves, an
    input array what it held (the launch changes no other buffer). -/
theorem hF5 (c : Dev nD) (w : Fin cfg5.W) : (pdats m 5 c).arrAt w cfg5.N = rd (U12 m (leaves F)) c (Pipeline.arrRef spec5 w) := by
  match w with
  | ⟨0, _⟩ => exact ((pdats m 5 c).arrAt_in 0 rfl _).trans ((R5.A_eq _ c 0).trans (U12_of_ne m (leaves F) c (Pipeline.arrRef spec5 0) (by decide)).symm)
  | ⟨1, _⟩ => exact ((pdats m 5 c).arrAt_in 1 rfl _).trans ((R5.A_eq _ c 1).trans (U12_of_ne m (leaves F) c (Pipeline.arrRef spec5 1) (by decide)).symm)
  | ⟨2, _⟩ => exact ((pdats m 5 c).arrAt_in 2 rfl _).trans ((R5.A_eq _ c 2).trans (U12_of_ne m (leaves F) c (Pipeline.arrRef spec5 2) (by decide)).symm)
  | ⟨3, _⟩ => exact ((pdats m 5 c).arrAt_in 3 rfl _).trans ((R5.A_eq _ c 3).trans (U12_of_ne m (leaves F) c (Pipeline.arrRef spec5 3) (by decide)).symm)
  | ⟨4, _⟩ => exact hF5_out m c

theorem out_ref5 : Pipeline.arrRef spec5 4 = main_v33 := rfl

theorem hrest5 (c : Dev nD) : ∀ b, b ∉ Finset.univ.image (Pipeline.arrRef spec5) → rd (U12 m (leaves F)) c b = rd (U11 m (leaves F)) c b :=
  fun b hb => U12_of_ne m (leaves F) c b fun e => hb (Finset.mem_image.mpr ⟨4, Finset.mem_univ _, out_ref5.trans e.symm⟩)

/-- After the last grid point the invariant gives the scoped buffers back at anything. -/
theorem hout5 (c : Dev nD) : (pdats m 5 c).Φ (Fin.last cfg5.N) ⊢ (Pipeline.scopedRest (Ix := Unit) (Name := ℕ) (U := UR sig nD τ) (Lvl := ℕ) (Val := Elt F) spec5 c : sProp 𝕄) := by
  rw [show (pdats m 5 c).Φ (Fin.last cfg5.N) = R5.PhiS (rd (U11 m (leaves F))) c cfg5.N (Nat.le_refl _) from rfl,
    R5.PhiS_pos _ c _ _ (by have h : cfg5.N = 36 := N_5; omega), R5.scoped_eq]
  iintro ⟨HS, Hg⟩
  isplitl [HS]
  · iexists _; iexact HS
  iexact Hg

set_option backward.isDefEq.respectTransparency.types false in
def reg5 : Pipeline.RegionSeg (pcfgs (F := F)) adm (pdats m) () defs₀ 𝒱₀ Lz lvz 5 where
  win := launch5.win.to₀
  block_pos := launch5.block_pos
  stage_whole := launch5.stage_whole
  K := PEmpty
  osem k := k.elim
  ho := Pipeline.OwnSemFacts.none _
  hbody c := (R5.body_obligation (rd (U11 m (leaves F))) c).loose
  hwaits := Pipeline.hwaits_of_owed_zero _ _ _ _ Lz lvz 5 fun _ _ => rfl
  pre c := iprop(StableHlo.held (c : Thread nD τ) (Pipeline.ucRefs τ sig) (U11 m (leaves F) c) ∗ Rr c)
  post c := iprop(StableHlo.held (c : Thread nD τ) (Pipeline.ucRefs τ sig) (U12 m (leaves F) c) ∗ Rr c)
  X c := iprop(emp)
  Y c := iprop(emp)
  Z c := iprop(Pipeline.unscopedRest (Ix := Unit) (Name := ℕ) (U := UR sig nD τ) (Lvl := ℕ) spec5 c (rd (U11 m (leaves F)) c) ∗ ∃ r, prngReg c r)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (U11 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 5 c).Φ 0 = Pipeline.scopedRest (Ix := Unit) (Name := ℕ) (U := UR sig nD τ) (Lvl := ℕ) (Val := Elt F) spec5 c from rfl]
    iintro ⟨-, -, Hr⟩
    iexact Hr
  hout c := by
    rw [Pipeline.ownSems0_none]
    iintro H
    isplitr; · iempintro
    isplitr; · iempintro
    iapply (hout5 m c); iexact H
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (U11 m (leaves F)) c) (rd (U12 m (leaves F)) c) ((pdats m 5 c).arrAt · cfg5.N) (hF5 m c) (hrest5 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KR6Arr.lean ====
/-
  Launch 6's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR6Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec6) = [main_v0, main_v33, main_v35, main_v38, main_v27, main_v39].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec6 c V ∗ Pipeline.unscopedRest (Ix := Unit) (Name := ℕ) (U := UR sig nD τ) (Lvl := ℕ) spec6 c V) :=
  Pipeline.PerCore.unscopedBufs_split₀ (fun _ : Dev nD => cfgs) (6 : Fin 14) c winFacts₀6.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec6 c V : sProp 𝕄)
      = iprop((((c : Thread nD τ).loc main_v0) ↦{fullShare} V main_v0) ∗ (((c : Thread nD τ).loc main_v33) ↦{fullShare} V main_v33) ∗ (((c : Thread nD τ).loc main_v35) ↦{fullShare} V main_v35) ∗ (((c : Thread nD τ).loc main_v38) ↦{fullShare} V main_v38) ∗ (((c : Thread nD τ).loc main_v27) ↦{fullShare} V main_v27) ∗ (((c : Thread nD τ).loc main_v39) ↦{fullShare} V main_v39)) := by
  unfold Pipeline.arrBufs
  exact bigSep_eq_bigSepL_of_eq [main_v0, main_v33, main_v35, main_v38, main_v27, main_v39] arrRefs_eq (by decide) _

/-- The seven windows' holdings one by one: each array whole at its window's share. -/
theorem arrays_eq (c : Dev nD) (G : (w : Fin cfg6.W) → Buf (Elt F) ((cfg6.win w).arr.view.loc (c : Thread nD τ))) :
    ((dat W c).arrays G : sProp 𝕄)
      = iprop((((c : Thread nD τ).loc main_v0) ↦{fullShare} G 0) ∗ (((c : Thread nD τ).loc main_v33) ↦{fullShare.left} G 1) ∗ (((c : Thread nD τ).loc main_v35) ↦{fullShare} G 2) ∗ (((c : Thread nD τ).loc main_v38) ↦{fullShare} G 3) ∗ (((c : Thread nD τ).loc main_v33) ↦{fullShare.right} G 4) ∗ (((c : Thread nD τ).loc main_v27) ↦{fullShare} G 5) ∗ (((c : Thread nD τ).loc main_v39) ↦{fullShare} G 6)) := by
  rw [Cert.Lib.SharedLaunch.arrays_eq_shares (dat W c) arr_whole6 G, bigSep_W6]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec6 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg6.W) → Buf (Elt F) ((cfg6.win w).arr.view.loc (c : Thread nD τ))) (hF : ∀ w, Fw w = V' (Pipeline.arrRef spec6 w))
    (hrest : ∀ b, b ∉ Finset.univ.image (Pipeline.arrRef spec6) → V' b = W c b) :
    iprop((dat W c).arrays Fw ∗ Pipeline.unscopedRest (Ix := Unit) (Name := ℕ) (U := UR sig nD τ) (Lvl := ℕ) spec6 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec6 c (W c) : sProp 𝕄) = Pipeline.unscopedRest (Ix := Unit) (Name := ℕ) (U := UR sig nD τ) (Lvl := ℕ) spec6 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.Kernel.R6

end
-- ==== Proof.KSeg6.lean ====
/-
  Launch 6 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase
import proofs.«155206_j89000312308227_2_alg».proof.Proof.KR6Arr

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v6 (W) (c : Dev nD) : (leaves F).v6 W c = (R6.dat (F := F) W c).arrAt 6 cfg6.N := rfl

/-- The output array after the launch is what the launch leaves: its proof data's array after the last grid point. -/
theorem hF6_out (c : Dev nD) : (pdats m 6 c).arrAt 6 cfg6.N = rd (U14 m (leaves F)) c (Pipeline.arrRef spec6 6) :=
  ((U14_out m (leaves F) c).trans (leaves_v6 _ c)).symm

set_option maxHeartbeats 3200000 in
/-- At the exit every array of the launch holds the next item's contents: the output array what the launch leaves, an
    input array what it held (the launch changes no other buffer). -/
theorem hF6 (c : Dev nD) (w : Fin cfg6.W) : (pdats m 6 c).arrAt w cfg6.N = rd (U14 m (leaves F)) c (Pipeline.arrRef spec6 w) := by
  match w with
  | ⟨0, _⟩ => exact ((pdats m 6 c).arrAt_in 0 rfl _).trans ((R6.A_eq _ c 0).trans (U14_of_ne m (leaves F) c (Pipeline.arrRef spec6 0) (by decide)).symm)
  | ⟨1, _⟩ => exact ((pdats m 6 c).arrAt_in 1 rfl _).trans ((R6.A_eq _ c 1).trans (U14_of_ne m (leaves F) c (Pipeline.arrRef spec6 1) (by decide)).symm)
  | ⟨2, _⟩ => exact ((pdats m 6 c).arrAt_in 2 rfl _).trans ((R6.A_eq _ c 2).trans (U14_of_ne m (leaves F) c (Pipeline.arrRef spec6 2) (by decide)).symm)
  | ⟨3, _⟩ => exact ((pdats m 6 c).arrAt_in 3 rfl _).trans ((R6.A_eq _ c 3).trans (U14_of_ne m (leaves F) c (Pipeline.arrRef spec6 3) (by decide)).symm)
  | ⟨4, _⟩ => exact ((pdats m 6 c).arrAt_in 4 rfl _).trans ((R6.A_eq _ c 4).trans (U14_of_ne m (leaves F) c (Pipeline.arrRef spec6 4) (by decide)).symm)
  | ⟨5, _⟩ => exact ((pdats m 6 c).arrAt_in 5 rfl _).trans ((R6.A_eq _ c 5).trans (U14_of_ne m (leaves F) c (Pipeline.arrRef spec6 5) (by decide)).symm)
  | ⟨6, _⟩ => exact hF6_out m c

theorem out_ref6 : Pipeline.arrRef spec6 6 = main_v39 := rfl

theorem hrest6 (c : Dev nD) : ∀ b, b ∉ Finset.univ.image (Pipeline.arrRef spec6) → rd (U14 m (leaves F)) c b = rd (U13 m (leaves F)) c b :=
  fun b hb => U14_of_ne m (leaves F) c b fun e => hb (Finset.mem_image.mpr ⟨6, Finset.mem_univ _, out_ref6.trans e.symm⟩)

/-- After the last grid point the invariant gives the scoped buffers back at anything. -/
theorem hout6 (c : Dev nD) : (pdats m 6 c).Φ (Fin.last cfg6.N) ⊢ (Pipeline.scopedRest (Ix := Unit) (Name := ℕ) (U := UR sig nD τ) (Lvl := ℕ) (Val := Elt F) spec6 c : sProp 𝕄) := by
  rw [show (pdats m 6 c).Φ (Fin.last cfg6.N) = R6.PhiS (rd (U13 m (leaves F))) c cfg6.N (Nat.le_refl _) from rfl,
    R6.PhiS_pos _ c _ _ (by have h : cfg6.N = 36 := N_6; omega), R6.scoped_eq]
  iintro ⟨HS, Hg⟩
  isplitl [HS]
  · iexists _; iexact HS
  iexact Hg

set_option backward.isDefEq.respectTransparency.types false in
def reg6 : Pipeline.RegionSeg (pcfgs (F := F)) adm (pdats m) () defs₀ 𝒱₀ Lz lvz 6 where
  win := winFacts₀6
  block_pos := block_pos6
  stage_whole := stage_whole6
  K := PEmpty
  osem k := k.elim
  ho := Pipeline.OwnSemFacts.none _
  hbody c := (R6.body_obligation (rd (U13 m (leaves F))) c).loose
  hwaits := Pipeline.hwaits_of_owed_zero _ _ _ _ Lz lvz 6 fun _ _ => rfl
  pre c := iprop(StableHlo.held (c : Thread nD τ) (Pipeline.ucRefs τ sig) (U13 m (leaves F) c) ∗ Rr c)
  post c := iprop(StableHlo.held (c : Thread nD τ) (Pipeline.ucRefs τ sig) (U14 m (leaves F) c) ∗ Rr c)
  X c := iprop(emp)
  Y c := iprop(emp)
  Z c := iprop(Pipeline.unscopedRest (Ix := Unit) (Name := ℕ) (U := UR sig nD τ) (Lvl := ℕ) spec6 c (rd (U13 m (leaves F)) c) ∗ ∃ r, prngReg c r)
  hentry c := by
    rw [Pipeline.ownSems0_none]
    have hsplit := R6.arrays_of_unscopedBufs (rd (U13 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 6 c).Φ 0 = Pipeline.scopedRest (Ix := Unit) (Name := ℕ) (U := UR sig nD τ) (Lvl := ℕ) (Val := Elt F) spec6 c from rfl]
    iintro ⟨-, -, Hr⟩
    iexact Hr
  hout c := by
    rw [Pipeline.ownSems0_none]
    iintro H
    isplitr; · iempintro
    isplitr; · iempintro
    iapply (hout6 m c); iexact H
  hexit c := by
    have hjoin : iprop((pdats m 6 c).arrays ((pdats m 6 c).arrAt · cfg6.N)
          ∗ Pipeline.unscopedRest (Ix := Unit) (Name := ℕ) (U := UR sig nD τ) (Lvl := ℕ) spec6 c (rd (U13 m (leaves F)) c))
        ⊢ (unscopedBufs c (rd (U14 m (leaves F)) c) : sProp 𝕄) :=
      R6.unscopedBufs_of_arrays (rd (U13 m (leaves F))) c (rd (U14 m (leaves F)) c)
        ((pdats m 6 c).arrAt · cfg6.N) (hF6 m c) (hrest6 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg7.lean ====
/-
  Launch 7 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v7 (W) (c : Dev nD) : (leaves F).v7 W c = (R7.dat (F := F) W c).arrAt 4 cfg7.N := rfl

/-- The output array after the launch is what the launch leaves: its proof data's array after the last grid point. -/
theorem hF7_out (c : Dev nD) : (pdats m 7 c).arrAt 4 cfg7.N = rd (U16 m (leaves F)) c (Pipeline.arrRef spec7 4) :=
  ((U16_out m (leaves F) c).trans (leaves_v7 _ c)).symm

set_option maxHeartbeats 3200000 in
/-- At the exit every array of the launch holds the next item's contents: the output array what the launch leaves, an
    input array what it held (the launch changes no other buffer). -/
theorem hF7 (c : Dev nD) (w : Fin cfg7.W) : (pdats m 7 c).arrAt w cfg7.N = rd (U16 m (leaves F)) c (Pipeline.arrRef spec7 w) := by
  match w with
  | ⟨0, _⟩ => exact ((pdats m 7 c).arrAt_in 0 rfl _).trans ((R7.A_eq _ c 0).trans (U16_of_ne m (leaves F) c (Pipeline.arrRef spec7 0) (by decide)).symm)
  | ⟨1, _⟩ => exact ((pdats m 7 c).arrAt_in 1 rfl _).trans ((R7.A_eq _ c 1).trans (U16_of_ne m (leaves F) c (Pipeline.arrRef spec7 1) (by decide)).symm)
  | ⟨2, _⟩ => exact ((pdats m 7 c).arrAt_in 2 rfl _).trans ((R7.A_eq _ c 2).trans (U16_of_ne m (leaves F) c (Pipeline.arrRef spec7 2) (by decide)).symm)
  | ⟨3, _⟩ => exact ((pdats m 7 c).arrAt_in 3 rfl _).trans ((R7.A_eq _ c 3).trans (U16_of_ne m (leaves F) c (Pipeline.arrRef spec7 3) (by decide)).symm)
  | ⟨4, _⟩ => exact hF7_out m c

theorem out_ref7 : Pipeline.arrRef spec7 4 = main_v45 := rfl

theorem hrest7 (c : Dev nD) : ∀ b, b ∉ Finset.univ.image (Pipeline.arrRef spec7) → rd (U16 m (leaves F)) c b = rd (U15 m (leaves F)) c b :=
  fun b hb => U16_of_ne m (leaves F) c b fun e => hb (Finset.mem_image.mpr ⟨4, Finset.mem_univ _, out_ref7.trans e.symm⟩)

/-- After the last grid point the invariant gives the scoped buffers back at anything. -/
theorem hout7 (c : Dev nD) : (pdats m 7 c).Φ (Fin.last cfg7.N) ⊢ (Pipeline.scopedRest (Ix := Unit) (Name := ℕ) (U := UR sig nD τ) (Lvl := ℕ) (Val := Elt F) spec7 c : sProp 𝕄) := by
  rw [show (pdats m 7 c).Φ (Fin.last cfg7.N) = R7.PhiS (rd (U15 m (leaves F))) c cfg7.N (Nat.le_refl _) from rfl,
    R7.PhiS_pos _ c _ _ (by have h : cfg7.N = 144 := N_7; omega), R7.scoped_eq]
  iintro ⟨HS, Hg⟩
  isplitl [HS]
  · iexists _; iexact HS
  iexact Hg

set_option backward.isDefEq.respectTransparency.types false in
def reg7 : Pipeline.RegionSeg (pcfgs (F := F)) adm (pdats m) () defs₀ 𝒱₀ Lz lvz 7 where
  win := launch7.win.to₀
  block_pos := launch7.block_pos
  stage_whole := launch7.stage_whole
  K := PEmpty
  osem k := k.elim
  ho := Pipeline.OwnSemFacts.none _
  hbody c := (R7.body_obligation (rd (U15 m (leaves F))) c).loose
  hwaits := Pipeline.hwaits_of_owed_zero _ _ _ _ Lz lvz 7 fun _ _ => rfl
  pre c := iprop(StableHlo.held (c : Thread nD τ) (Pipeline.ucRefs τ sig) (U15 m (leaves F) c) ∗ Rr c)
  post c := iprop(StableHlo.held (c : Thread nD τ) (Pipeline.ucRefs τ sig) (U16 m (leaves F) c) ∗ Rr c)
  X c := iprop(emp)
  Y c := iprop(emp)
  Z c := iprop(Pipeline.unscopedRest (Ix := Unit) (Name := ℕ) (U := UR sig nD τ) (Lvl := ℕ) spec7 c (rd (U15 m (leaves F)) c) ∗ ∃ r, prngReg c r)
  hentry c := by
    rw [Pipeline.ownSems0_none]
    have hsplit := Pipeline.arrays_of_unscopedBufs (p := 7) (pcfgs (F := F)) adm (pdats m) launch7.win launch7.arr_whole c
      ((pdats m 7 c).share_full fun _ => rfl) (rd (U15 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 7 c).Φ 0 = Pipeline.scopedRest (Ix := Unit) (Name := ℕ) (U := UR sig nD τ) (Lvl := ℕ) (Val := Elt F) spec7 c from rfl]
    iintro ⟨-, -, Hr⟩
    iexact Hr
  hout c := by
    rw [Pipeline.ownSems0_none]
    iintro H
    isplitr; · iempintro
    isplitr; · iempintro
    iapply (hout7 m c); iexact H
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (rd (U15 m (leaves F)) c) (rd (U16 m (leaves F)) c) ((pdats m 7 c).arrAt · cfg7.N) (hF7 m c) (hrest7 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KR8Arr.lean ====
/-
  Launch 8's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR8Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec8) = [main_v1, main_v45, main_v47, main_v50, main_v3, main_v51].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec8 c V ∗ Pipeline.unscopedRest (Ix := Unit) (Name := ℕ) (U := UR sig nD τ) (Lvl := ℕ) spec8 c V) :=
  Pipeline.PerCore.unscopedBufs_split₀ (fun _ : Dev nD => cfgs) (8 : Fin 14) c winFacts₀8.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec8 c V : sProp 𝕄)
      = iprop((((c : Thread nD τ).loc main_v1) ↦{fullShare} V main_v1) ∗ (((c : Thread nD τ).loc main_v45) ↦{fullShare} V main_v45) ∗ (((c : Thread nD τ).loc main_v47) ↦{fullShare} V main_v47) ∗ (((c : Thread nD τ).loc main_v50) ↦{fullShare} V main_v50) ∗ (((c : Thread nD τ).loc main_v3) ↦{fullShare} V main_v3) ∗ (((c : Thread nD τ).loc main_v51) ↦{fullShare} V main_v51)) := by
  unfold Pipeline.arrBufs
  exact bigSep_eq_bigSepL_of_eq [main_v1, main_v45, main_v47, main_v50, main_v3, main_v51] arrRefs_eq (by decide) _

/-- The seven windows' holdings one by one: each array whole at its window's share. -/
theorem arrays_eq (c : Dev nD) (G : (w : Fin cfg8.W) → Buf (Elt F) ((cfg8.win w).arr.view.loc (c : Thread nD τ))) :
    ((dat W c).arrays G : sProp 𝕄)
      = iprop((((c : Thread nD τ).loc main_v1) ↦{fullShare} G 0) ∗ (((c : Thread nD τ).loc main_v45) ↦{fullShare.left} G 1) ∗ (((c : Thread nD τ).loc main_v47) ↦{fullShare} G 2) ∗ (((c : Thread nD τ).loc main_v50) ↦{fullShare} G 3) ∗ (((c : Thread nD τ).loc main_v45) ↦{fullShare.right} G 4) ∗ (((c : Thread nD τ).loc main_v3) ↦{fullShare} G 5) ∗ (((c : Thread nD τ).loc main_v51) ↦{fullShare} G 6)) := by
  rw [Cert.Lib.SharedLaunch.arrays_eq_shares (dat W c) arr_whole8 G, bigSep_W8]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec8 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg8.W) → Buf (Elt F) ((cfg8.win w).arr.view.loc (c : Thread nD τ))) (hF : ∀ w, Fw w = V' (Pipeline.arrRef spec8 w))
    (hrest : ∀ b, b ∉ Finset.univ.image (Pipeline.arrRef spec8) → V' b = W c b) :
    iprop((dat W c).arrays Fw ∗ Pipeline.unscopedRest (Ix := Unit) (Name := ℕ) (U := UR sig nD τ) (Lvl := ℕ) spec8 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec8 c (W c) : sProp 𝕄) = Pipeline.unscopedRest (Ix := Unit) (Name := ℕ) (U := UR sig nD τ) (Lvl := ℕ) spec8 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.Kernel.R8

end
-- ==== Proof.KSeg8.lean ====
/-
  Launch 8 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase
import proofs.«155206_j89000312308227_2_alg».proof.Proof.KR8Arr

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v8 (W) (c : Dev nD) : (leaves F).v8 W c = (R8.dat (F := F) W c).arrAt 6 cfg8.N := rfl

/-- The output array after the launch is what the launch leaves: its proof data's array after the last grid point. -/
theorem hF8_out (c : Dev nD) : (pdats m 8 c).arrAt 6 cfg8.N = rd (U18 m (leaves F)) c (Pipeline.arrRef spec8 6) :=
  ((U18_out m (leaves F) c).trans (leaves_v8 _ c)).symm

set_option maxHeartbeats 3200000 in
/-- At the exit every array of the launch holds the next item's contents: the output array what the launch leaves, an
    input array what it held (the launch changes no other buffer). -/
theorem hF8 (c : Dev nD) (w : Fin cfg8.W) : (pdats m 8 c).arrAt w cfg8.N = rd (U18 m (leaves F)) c (Pipeline.arrRef spec8 w) := by
  match w with
  | ⟨0, _⟩ => exact ((pdats m 8 c).arrAt_in 0 rfl _).trans ((R8.A_eq _ c 0).trans (U18_of_ne m (leaves F) c (Pipeline.arrRef spec8 0) (by decide)).symm)
  | ⟨1, _⟩ => exact ((pdats m 8 c).arrAt_in 1 rfl _).trans ((R8.A_eq _ c 1).trans (U18_of_ne m (leaves F) c (Pipeline.arrRef spec8 1) (by decide)).symm)
  | ⟨2, _⟩ => exact ((pdats m 8 c).arrAt_in 2 rfl _).trans ((R8.A_eq _ c 2).trans (U18_of_ne m (leaves F) c (Pipeline.arrRef spec8 2) (by decide)).symm)
  | ⟨3, _⟩ => exact ((pdats m 8 c).arrAt_in 3 rfl _).trans ((R8.A_eq _ c 3).trans (U18_of_ne m (leaves F) c (Pipeline.arrRef spec8 3) (by decide)).symm)
  | ⟨4, _⟩ => exact ((pdats m 8 c).arrAt_in 4 rfl _).trans ((R8.A_eq _ c 4).trans (U18_of_ne m (leaves F) c (Pipeline.arrRef spec8 4) (by decide)).symm)
  | ⟨5, _⟩ => exact ((pdats m 8 c).arrAt_in 5 rfl _).trans ((R8.A_eq _ c 5).trans (U18_of_ne m (leaves F) c (Pipeline.arrRef spec8 5) (by decide)).symm)
  | ⟨6, _⟩ => exact hF8_out m c

theorem out_ref8 : Pipeline.arrRef spec8 6 = main_v51 := rfl

theorem hrest8 (c : Dev nD) : ∀ b, b ∉ Finset.univ.image (Pipeline.arrRef spec8) → rd (U18 m (leaves F)) c b = rd (U17 m (leaves F)) c b :=
  fun b hb => U18_of_ne m (leaves F) c b fun e => hb (Finset.mem_image.mpr ⟨6, Finset.mem_univ _, out_ref8.trans e.symm⟩)

/-- After the last grid point the invariant gives the scoped buffers back at anything. -/
theorem hout8 (c : Dev nD) : (pdats m 8 c).Φ (Fin.last cfg8.N) ⊢ (Pipeline.scopedRest (Ix := Unit) (Name := ℕ) (U := UR sig nD τ) (Lvl := ℕ) (Val := Elt F) spec8 c : sProp 𝕄) := by
  rw [show (pdats m 8 c).Φ (Fin.last cfg8.N) = R8.PhiS (rd (U17 m (leaves F))) c cfg8.N (Nat.le_refl _) from rfl,
    R8.PhiS_pos _ c _ _ (by have h : cfg8.N = 144 := N_8; omega), R8.scoped_eq]
  iintro ⟨HS, Hg⟩
  isplitl [HS]
  · iexists _; iexact HS
  iexact Hg

set_option backward.isDefEq.respectTransparency.types false in
def reg8 : Pipeline.RegionSeg (pcfgs (F := F)) adm (pdats m) () defs₀ 𝒱₀ Lz lvz 8 where
  win := winFacts₀8
  block_pos := block_pos8
  stage_whole := stage_whole8
  K := PEmpty
  osem k := k.elim
  ho := Pipeline.OwnSemFacts.none _
  hbody c := (R8.body_obligation (rd (U17 m (leaves F))) c).loose
  hwaits := Pipeline.hwaits_of_owed_zero _ _ _ _ Lz lvz 8 fun _ _ => rfl
  pre c := iprop(StableHlo.held (c : Thread nD τ) (Pipeline.ucRefs τ sig) (U17 m (leaves F) c) ∗ Rr c)
  post c := iprop(StableHlo.held (c : Thread nD τ) (Pipeline.ucRefs τ sig) (U18 m (leaves F) c) ∗ Rr c)
  X c := iprop(emp)
  Y c := iprop(emp)
  Z c := iprop(Pipeline.unscopedRest (Ix := Unit) (Name := ℕ) (U := UR sig nD τ) (Lvl := ℕ) spec8 c (rd (U17 m (leaves F)) c) ∗ ∃ r, prngReg c r)
  hentry c := by
    rw [Pipeline.ownSems0_none]
    have hsplit := R8.arrays_of_unscopedBufs (rd (U17 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 8 c).Φ 0 = Pipeline.scopedRest (Ix := Unit) (Name := ℕ) (U := UR sig nD τ) (Lvl := ℕ) (Val := Elt F) spec8 c from rfl]
    iintro ⟨-, -, Hr⟩
    iexact Hr
  hout c := by
    rw [Pipeline.ownSems0_none]
    iintro H
    isplitr; · iempintro
    isplitr; · iempintro
    iapply (hout8 m c); iexact H
  hexit c := by
    have hjoin : iprop((pdats m 8 c).arrays ((pdats m 8 c).arrAt · cfg8.N)
          ∗ Pipeline.unscopedRest (Ix := Unit) (Name := ℕ) (U := UR sig nD τ) (Lvl := ℕ) spec8 c (rd (U17 m (leaves F)) c))
        ⊢ (unscopedBufs c (rd (U18 m (leaves F)) c) : sProp 𝕄) :=
      R8.unscopedBufs_of_arrays (rd (U17 m (leaves F))) c (rd (U18 m (leaves F)) c)
        ((pdats m 8 c).arrAt · cfg8.N) (hF8 m c) (hrest8 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg9.lean ====
/-
  Launch 9 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v9 (W) (c : Dev nD) : (leaves F).v9 W c = (R9.dat (F := F) W c).arrAt 4 cfg9.N := rfl

/-- The output array after the launch is what the launch leaves: its proof data's array after the last grid point. -/
theorem hF9_out (c : Dev nD) : (pdats m 9 c).arrAt 4 cfg9.N = rd (U20 m (leaves F)) c (Pipeline.arrRef spec9 4) :=
  ((U20_out m (leaves F) c).trans (leaves_v9 _ c)).symm

set_option maxHeartbeats 3200000 in
/-- At the exit every array of the launch holds the next item's contents: the output array what the launch leaves, an
    input array what it held (the launch changes no other buffer). -/
theorem hF9 (c : Dev nD) (w : Fin cfg9.W) : (pdats m 9 c).arrAt w cfg9.N = rd (U20 m (leaves F)) c (Pipeline.arrRef spec9 w) := by
  match w with
  | ⟨0, _⟩ => exact ((pdats m 9 c).arrAt_in 0 rfl _).trans ((R9.A_eq _ c 0).trans (U20_of_ne m (leaves F) c (Pipeline.arrRef spec9 0) (by decide)).symm)
  | ⟨1, _⟩ => exact ((pdats m 9 c).arrAt_in 1 rfl _).trans ((R9.A_eq _ c 1).trans (U20_of_ne m (leaves F) c (Pipeline.arrRef spec9 1) (by decide)).symm)
  | ⟨2, _⟩ => exact ((pdats m 9 c).arrAt_in 2 rfl _).trans ((R9.A_eq _ c 2).trans (U20_of_ne m (leaves F) c (Pipeline.arrRef spec9 2) (by decide)).symm)
  | ⟨3, _⟩ => exact ((pdats m 9 c).arrAt_in 3 rfl _).trans ((R9.A_eq _ c 3).trans (U20_of_ne m (leaves F) c (Pipeline.arrRef spec9 3) (by decide)).symm)
  | ⟨4, _⟩ => exact hF9_out m c

theorem out_ref9 : Pipeline.arrRef spec9 4 = main_v57 := rfl

theorem hrest9 (c : Dev nD) : ∀ b, b ∉ Finset.univ.image (Pipeline.arrRef spec9) → rd (U20 m (leaves F)) c b = rd (U19 m (leaves F)) c b :=
  fun b hb => U20_of_ne m (leaves F) c b fun e => hb (Finset.mem_image.mpr ⟨4, Finset.mem_univ _, out_ref9.trans e.symm⟩)

/-- After the last grid point the invariant gives the scoped buffers back at anything. -/
theorem hout9 (c : Dev nD) : (pdats m 9 c).Φ (Fin.last cfg9.N) ⊢ (Pipeline.scopedRest (Ix := Unit) (Name := ℕ) (U := UR sig nD τ) (Lvl := ℕ) (Val := Elt F) spec9 c : sProp 𝕄) := by
  rw [show (pdats m 9 c).Φ (Fin.last cfg9.N) = R9.PhiS (rd (U19 m (leaves F))) c cfg9.N (Nat.le_refl _) from rfl,
    R9.PhiS_pos _ c _ _ (by have h : cfg9.N = 144 := N_9; omega), R9.scoped_eq]
  iintro ⟨HS, Hg⟩
  isplitl [HS]
  · iexists _; iexact HS
  iexact Hg

set_option backward.isDefEq.respectTransparency.types false in
def reg9 : Pipeline.RegionSeg (pcfgs (F := F)) adm (pdats m) () defs₀ 𝒱₀ Lz lvz 9 where
  win := launch9.win.to₀
  block_pos := launch9.block_pos
  stage_whole := launch9.stage_whole
  K := PEmpty
  osem k := k.elim
  ho := Pipeline.OwnSemFacts.none _
  hbody c := (R9.body_obligation (rd (U19 m (leaves F))) c).loose
  hwaits := Pipeline.hwaits_of_owed_zero _ _ _ _ Lz lvz 9 fun _ _ => rfl
  pre c := iprop(StableHlo.held (c : Thread nD τ) (Pipeline.ucRefs τ sig) (U19 m (leaves F) c) ∗ Rr c)
  post c := iprop(StableHlo.held (c : Thread nD τ) (Pipeline.ucRefs τ sig) (U20 m (leaves F) c) ∗ Rr c)
  X c := iprop(emp)
  Y c := iprop(emp)
  Z c := iprop(Pipeline.unscopedRest (Ix := Unit) (Name := ℕ) (U := UR sig nD τ) (Lvl := ℕ) spec9 c (rd (U19 m (leaves F)) c) ∗ ∃ r, prngReg c r)
  hentry c := by
    rw [Pipeline.ownSems0_none]
    have hsplit := Pipeline.arrays_of_unscopedBufs (p := 9) (pcfgs (F := F)) adm (pdats m) launch9.win launch9.arr_whole c
      ((pdats m 9 c).share_full fun _ => rfl) (rd (U19 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 9 c).Φ 0 = Pipeline.scopedRest (Ix := Unit) (Name := ℕ) (U := UR sig nD τ) (Lvl := ℕ) (Val := Elt F) spec9 c from rfl]
    iintro ⟨-, -, Hr⟩
    iexact Hr
  hout c := by
    rw [Pipeline.ownSems0_none]
    iintro H
    isplitr; · iempintro
    isplitr; · iempintro
    iapply (hout9 m c); iexact H
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (rd (U19 m (leaves F)) c) (rd (U20 m (leaves F)) c) ((pdats m 9 c).arrAt · cfg9.N) (hF9 m c) (hrest9 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KR10Arr.lean ====
/-
  Launch 10's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR10Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec10) = [main_v1, main_v57, main_v59, main_v62, main_v51, main_v63].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec10 c V ∗ Pipeline.unscopedRest (Ix := Unit) (Name := ℕ) (U := UR sig nD τ) (Lvl := ℕ) spec10 c V) :=
  Pipeline.PerCore.unscopedBufs_split₀ (fun _ : Dev nD => cfgs) (10 : Fin 14) c winFacts₀10.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec10 c V : sProp 𝕄)
      = iprop((((c : Thread nD τ).loc main_v1) ↦{fullShare} V main_v1) ∗ (((c : Thread nD τ).loc main_v57) ↦{fullShare} V main_v57) ∗ (((c : Thread nD τ).loc main_v59) ↦{fullShare} V main_v59) ∗ (((c : Thread nD τ).loc main_v62) ↦{fullShare} V main_v62) ∗ (((c : Thread nD τ).loc main_v51) ↦{fullShare} V main_v51) ∗ (((c : Thread nD τ).loc main_v63) ↦{fullShare} V main_v63)) := by
  unfold Pipeline.arrBufs
  exact bigSep_eq_bigSepL_of_eq [main_v1, main_v57, main_v59, main_v62, main_v51, main_v63] arrRefs_eq (by decide) _

/-- The seven windows' holdings one by one: each array whole at its window's share. -/
theorem arrays_eq (c : Dev nD) (G : (w : Fin cfg10.W) → Buf (Elt F) ((cfg10.win w).arr.view.loc (c : Thread nD τ))) :
    ((dat W c).arrays G : sProp 𝕄)
      = iprop((((c : Thread nD τ).loc main_v1) ↦{fullShare} G 0) ∗ (((c : Thread nD τ).loc main_v57) ↦{fullShare.left} G 1) ∗ (((c : Thread nD τ).loc main_v59) ↦{fullShare} G 2) ∗ (((c : Thread nD τ).loc main_v62) ↦{fullShare} G 3) ∗ (((c : Thread nD τ).loc main_v57) ↦{fullShare.right} G 4) ∗ (((c : Thread nD τ).loc main_v51) ↦{fullShare} G 5) ∗ (((c : Thread nD τ).loc main_v63) ↦{fullShare} G 6)) := by
  rw [Cert.Lib.SharedLaunch.arrays_eq_shares (dat W c) arr_whole10 G, bigSep_W10]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec10 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg10.W) → Buf (Elt F) ((cfg10.win w).arr.view.loc (c : Thread nD τ))) (hF : ∀ w, Fw w = V' (Pipeline.arrRef spec10 w))
    (hrest : ∀ b, b ∉ Finset.univ.image (Pipeline.arrRef spec10) → V' b = W c b) :
    iprop((dat W c).arrays Fw ∗ Pipeline.unscopedRest (Ix := Unit) (Name := ℕ) (U := UR sig nD τ) (Lvl := ℕ) spec10 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec10 c (W c) : sProp 𝕄) = Pipeline.unscopedRest (Ix := Unit) (Name := ℕ) (U := UR sig nD τ) (Lvl := ℕ) spec10 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.Kernel.R10

end
-- ==== Proof.KSeg10.lean ====
/-
  Launch 10 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase
import proofs.«155206_j89000312308227_2_alg».proof.Proof.KR10Arr

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v10 (W) (c : Dev nD) : (leaves F).v10 W c = (R10.dat (F := F) W c).arrAt 6 cfg10.N := rfl

/-- The output array after the launch is what the launch leaves: its proof data's array after the last grid point. -/
theorem hF10_out (c : Dev nD) : (pdats m 10 c).arrAt 6 cfg10.N = rd (U22 m (leaves F)) c (Pipeline.arrRef spec10 6) :=
  ((U22_out m (leaves F) c).trans (leaves_v10 _ c)).symm

set_option maxHeartbeats 3200000 in
/-- At the exit every array of the launch holds the next item's contents: the output array what the launch leaves, an
    input array what it held (the launch changes no other buffer). -/
theorem hF10 (c : Dev nD) (w : Fin cfg10.W) : (pdats m 10 c).arrAt w cfg10.N = rd (U22 m (leaves F)) c (Pipeline.arrRef spec10 w) := by
  match w with
  | ⟨0, _⟩ => exact ((pdats m 10 c).arrAt_in 0 rfl _).trans ((R10.A_eq _ c 0).trans (U22_of_ne m (leaves F) c (Pipeline.arrRef spec10 0) (by decide)).symm)
  | ⟨1, _⟩ => exact ((pdats m 10 c).arrAt_in 1 rfl _).trans ((R10.A_eq _ c 1).trans (U22_of_ne m (leaves F) c (Pipeline.arrRef spec10 1) (by decide)).symm)
  | ⟨2, _⟩ => exact ((pdats m 10 c).arrAt_in 2 rfl _).trans ((R10.A_eq _ c 2).trans (U22_of_ne m (leaves F) c (Pipeline.arrRef spec10 2) (by decide)).symm)
  | ⟨3, _⟩ => exact ((pdats m 10 c).arrAt_in 3 rfl _).trans ((R10.A_eq _ c 3).trans (U22_of_ne m (leaves F) c (Pipeline.arrRef spec10 3) (by decide)).symm)
  | ⟨4, _⟩ => exact ((pdats m 10 c).arrAt_in 4 rfl _).trans ((R10.A_eq _ c 4).trans (U22_of_ne m (leaves F) c (Pipeline.arrRef spec10 4) (by decide)).symm)
  | ⟨5, _⟩ => exact ((pdats m 10 c).arrAt_in 5 rfl _).trans ((R10.A_eq _ c 5).trans (U22_of_ne m (leaves F) c (Pipeline.arrRef spec10 5) (by decide)).symm)
  | ⟨6, _⟩ => exact hF10_out m c

theorem out_ref10 : Pipeline.arrRef spec10 6 = main_v63 := rfl

theorem hrest10 (c : Dev nD) : ∀ b, b ∉ Finset.univ.image (Pipeline.arrRef spec10) → rd (U22 m (leaves F)) c b = rd (U21 m (leaves F)) c b :=
  fun b hb => U22_of_ne m (leaves F) c b fun e => hb (Finset.mem_image.mpr ⟨6, Finset.mem_univ _, out_ref10.trans e.symm⟩)

/-- After the last grid point the invariant gives the scoped buffers back at anything. -/
theorem hout10 (c : Dev nD) : (pdats m 10 c).Φ (Fin.last cfg10.N) ⊢ (Pipeline.scopedRest (Ix := Unit) (Name := ℕ) (U := UR sig nD τ) (Lvl := ℕ) (Val := Elt F) spec10 c : sProp 𝕄) := by
  rw [show (pdats m 10 c).Φ (Fin.last cfg10.N) = R10.PhiS (rd (U21 m (leaves F))) c cfg10.N (Nat.le_refl _) from rfl,
    R10.PhiS_pos _ c _ _ (by have h : cfg10.N = 144 := N_10; omega), R10.scoped_eq]
  iintro ⟨HS, Hg⟩
  isplitl [HS]
  · iexists _; iexact HS
  iexact Hg

set_option backward.isDefEq.respectTransparency.types false in
def reg10 : Pipeline.RegionSeg (pcfgs (F := F)) adm (pdats m) () defs₀ 𝒱₀ Lz lvz 10 where
  win := winFacts₀10
  block_pos := block_pos10
  stage_whole := stage_whole10
  K := PEmpty
  osem k := k.elim
  ho := Pipeline.OwnSemFacts.none _
  hbody c := (R10.body_obligation (rd (U21 m (leaves F))) c).loose
  hwaits := Pipeline.hwaits_of_owed_zero _ _ _ _ Lz lvz 10 fun _ _ => rfl
  pre c := iprop(StableHlo.held (c : Thread nD τ) (Pipeline.ucRefs τ sig) (U21 m (leaves F) c) ∗ Rr c)
  post c := iprop(StableHlo.held (c : Thread nD τ) (Pipeline.ucRefs τ sig) (U22 m (leaves F) c) ∗ Rr c)
  X c := iprop(emp)
  Y c := iprop(emp)
  Z c := iprop(Pipeline.unscopedRest (Ix := Unit) (Name := ℕ) (U := UR sig nD τ) (Lvl := ℕ) spec10 c (rd (U21 m (leaves F)) c) ∗ ∃ r, prngReg c r)
  hentry c := by
    rw [Pipeline.ownSems0_none]
    have hsplit := R10.arrays_of_unscopedBufs (rd (U21 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 10 c).Φ 0 = Pipeline.scopedRest (Ix := Unit) (Name := ℕ) (U := UR sig nD τ) (Lvl := ℕ) (Val := Elt F) spec10 c from rfl]
    iintro ⟨-, -, Hr⟩
    iexact Hr
  hout c := by
    rw [Pipeline.ownSems0_none]
    iintro H
    isplitr; · iempintro
    isplitr; · iempintro
    iapply (hout10 m c); iexact H
  hexit c := by
    have hjoin : iprop((pdats m 10 c).arrays ((pdats m 10 c).arrAt · cfg10.N)
          ∗ Pipeline.unscopedRest (Ix := Unit) (Name := ℕ) (U := UR sig nD τ) (Lvl := ℕ) spec10 c (rd (U21 m (leaves F)) c))
        ⊢ (unscopedBufs c (rd (U22 m (leaves F)) c) : sProp 𝕄) :=
      R10.unscopedBufs_of_arrays (rd (U21 m (leaves F))) c (rd (U22 m (leaves F)) c)
        ((pdats m 10 c).arrAt · cfg10.N) (hF10 m c) (hrest10 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg11.lean ====
/-
  Launch 11 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v11 (W) (c : Dev nD) : (leaves F).v11 W c = (R11.dat (F := F) W c).arrAt 4 cfg11.N := rfl

/-- The output array after the launch is what the launch leaves: its proof data's array after the last grid point. -/
theorem hF11_out (c : Dev nD) : (pdats m 11 c).arrAt 4 cfg11.N = rd (U24 m (leaves F)) c (Pipeline.arrRef spec11 4) :=
  ((U24_out m (leaves F) c).trans (leaves_v11 _ c)).symm

set_option maxHeartbeats 3200000 in
/-- At the exit every array of the launch holds the next item's contents: the output array what the launch leaves, an
    input array what it held (the launch changes no other buffer). -/
theorem hF11 (c : Dev nD) (w : Fin cfg11.W) : (pdats m 11 c).arrAt w cfg11.N = rd (U24 m (leaves F)) c (Pipeline.arrRef spec11 w) := by
  match w with
  | ⟨0, _⟩ => exact ((pdats m 11 c).arrAt_in 0 rfl _).trans ((R11.A_eq _ c 0).trans (U24_of_ne m (leaves F) c (Pipeline.arrRef spec11 0) (by decide)).symm)
  | ⟨1, _⟩ => exact ((pdats m 11 c).arrAt_in 1 rfl _).trans ((R11.A_eq _ c 1).trans (U24_of_ne m (leaves F) c (Pipeline.arrRef spec11 1) (by decide)).symm)
  | ⟨2, _⟩ => exact ((pdats m 11 c).arrAt_in 2 rfl _).trans ((R11.A_eq _ c 2).trans (U24_of_ne m (leaves F) c (Pipeline.arrRef spec11 2) (by decide)).symm)
  | ⟨3, _⟩ => exact ((pdats m 11 c).arrAt_in 3 rfl _).trans ((R11.A_eq _ c 3).trans (U24_of_ne m (leaves F) c (Pipeline.arrRef spec11 3) (by decide)).symm)
  | ⟨4, _⟩ => exact hF11_out m c

theorem out_ref11 : Pipeline.arrRef spec11 4 = main_v69 := rfl

theorem hrest11 (c : Dev nD) : ∀ b, b ∉ Finset.univ.image (Pipeline.arrRef spec11) → rd (U24 m (leaves F)) c b = rd (U23 m (leaves F)) c b :=
  fun b hb => U24_of_ne m (leaves F) c b fun e => hb (Finset.mem_image.mpr ⟨4, Finset.mem_univ _, out_ref11.trans e.symm⟩)

/-- After the last grid point the invariant gives the scoped buffers back at anything. -/
theorem hout11 (c : Dev nD) : (pdats m 11 c).Φ (Fin.last cfg11.N) ⊢ (Pipeline.scopedRest (Ix := Unit) (Name := ℕ) (U := UR sig nD τ) (Lvl := ℕ) (Val := Elt F) spec11 c : sProp 𝕄) := by
  rw [show (pdats m 11 c).Φ (Fin.last cfg11.N) = R11.PhiS (rd (U23 m (leaves F))) c cfg11.N (Nat.le_refl _) from rfl,
    R11.PhiS_pos _ c _ _ (by have h : cfg11.N = 144 := N_11; omega), R11.scoped_eq]
  iintro ⟨HS, Hg⟩
  isplitl [HS]
  · iexists _; iexact HS
  iexact Hg

set_option backward.isDefEq.respectTransparency.types false in
def reg11 : Pipeline.RegionSeg (pcfgs (F := F)) adm (pdats m) () defs₀ 𝒱₀ Lz lvz 11 where
  win := launch11.win.to₀
  block_pos := launch11.block_pos
  stage_whole := launch11.stage_whole
  K := PEmpty
  osem k := k.elim
  ho := Pipeline.OwnSemFacts.none _
  hbody c := (R11.body_obligation (rd (U23 m (leaves F))) c).loose
  hwaits := Pipeline.hwaits_of_owed_zero _ _ _ _ Lz lvz 11 fun _ _ => rfl
  pre c := iprop(StableHlo.held (c : Thread nD τ) (Pipeline.ucRefs τ sig) (U23 m (leaves F) c) ∗ Rr c)
  post c := iprop(StableHlo.held (c : Thread nD τ) (Pipeline.ucRefs τ sig) (U24 m (leaves F) c) ∗ Rr c)
  X c := iprop(emp)
  Y c := iprop(emp)
  Z c := iprop(Pipeline.unscopedRest (Ix := Unit) (Name := ℕ) (U := UR sig nD τ) (Lvl := ℕ) spec11 c (rd (U23 m (leaves F)) c) ∗ ∃ r, prngReg c r)
  hentry c := by
    rw [Pipeline.ownSems0_none]
    have hsplit := Pipeline.arrays_of_unscopedBufs (p := 11) (pcfgs (F := F)) adm (pdats m) launch11.win launch11.arr_whole c
      ((pdats m 11 c).share_full fun _ => rfl) (rd (U23 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 11 c).Φ 0 = Pipeline.scopedRest (Ix := Unit) (Name := ℕ) (U := UR sig nD τ) (Lvl := ℕ) (Val := Elt F) spec11 c from rfl]
    iintro ⟨-, -, Hr⟩
    iexact Hr
  hout c := by
    rw [Pipeline.ownSems0_none]
    iintro H
    isplitr; · iempintro
    isplitr; · iempintro
    iapply (hout11 m c); iexact H
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (rd (U23 m (leaves F)) c) (rd (U24 m (leaves F)) c) ((pdats m 11 c).arrAt · cfg11.N) (hF11 m c) (hrest11 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KR12Arr.lean ====
/-
  Launch 12's arrays against the core's unscoped buffers. The seven windows stand on six buffers — the feature operand
  and the first skip operand are one array — so at entry the core's unscoped buffers are dealt as: each of the six
  buffers whole, the shared one cut into its two half shares, one for each of its windows; the rest untouched. At exit
  the two halves, which hold the same contents, are joined again.
-/
import proofs.«155206_j89000312308227_2_alg».proof.Proof.Gen.Kernel
import proofs.«155206_j89000312308227_2_alg».proof.Proof.Gen.Kernel.Skeleton
import proofs.«155206_j89000312308227_2_alg».proof.Proof.Gen.Kernel.Launch
import proofs.«155206_j89000312308227_2_alg».proof.Proof.Gen.Kernel.Points
import proofs.«155206_j89000312308227_2_alg».proof.Proof.KR12Data
import proofs.«155206_j89000312308227_2_alg».proof.Proof.LibSharedLaunch
import Idealize.ShloMosaic.Lib.Pipeline.Frame
import Idealize.ShloMosaic.Lib.Pipeline.FrameBody
import Idealize.ShloMosaic.Lib.Exec
import Idealize.ShloMosaic.Lib.Ring
import Idealize.ShloMosaic.Lib.Tactic

set_option maxRecDepth 16384

noncomputable section

namespace Cert.Kernel.R12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSep bigSepL bigSep_congr bigSep_sdiff_split bigSep_eq_bigSepL_of_eq)

variable (W : (c : Dev nD) → (b : Ref sig .tc) → Buf (Elt F) ((c : Thread nD τ).loc b))

/-- The buffers behind the seven windows are these six. -/
theorem arrRefs_eq : Finset.univ.image (Pipeline.arrRef spec12) = [main_v1, main_v69, main_v71, main_v74, main_v63, main_v75].toFinset := by decide

/-- The core's unscoped buffers: the six behind the windows, and the rest. -/
theorem unscopedBufs_split (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec12 c V ∗ Pipeline.unscopedRest (Ix := Unit) (Name := ℕ) (U := UR sig nD τ) (Lvl := ℕ) spec12 c V) :=
  Pipeline.PerCore.unscopedBufs_split₀ (fun _ : Dev nD => cfgs) (12 : Fin 14) c winFacts₀12.arr_unscoped V

/-- The six buffers one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec12 c V : sProp 𝕄)
      = iprop((((c : Thread nD τ).loc main_v1) ↦{fullShare} V main_v1) ∗ (((c : Thread nD τ).loc main_v69) ↦{fullShare} V main_v69) ∗ (((c : Thread nD τ).loc main_v71) ↦{fullShare} V main_v71) ∗ (((c : Thread nD τ).loc main_v74) ↦{fullShare} V main_v74) ∗ (((c : Thread nD τ).loc main_v63) ↦{fullShare} V main_v63) ∗ (((c : Thread nD τ).loc main_v75) ↦{fullShare} V main_v75)) := by
  unfold Pipeline.arrBufs
  exact bigSep_eq_bigSepL_of_eq [main_v1, main_v69, main_v71, main_v74, main_v63, main_v75] arrRefs_eq (by decide) _

/-- The seven windows' holdings one by one: each array whole at its window's share. -/
theorem arrays_eq (c : Dev nD) (G : (w : Fin cfg12.W) → Buf (Elt F) ((cfg12.win w).arr.view.loc (c : Thread nD τ))) :
    ((dat W c).arrays G : sProp 𝕄)
      = iprop((((c : Thread nD τ).loc main_v1) ↦{fullShare} G 0) ∗ (((c : Thread nD τ).loc main_v69) ↦{fullShare.left} G 1) ∗ (((c : Thread nD τ).loc main_v71) ↦{fullShare} G 2) ∗ (((c : Thread nD τ).loc main_v74) ↦{fullShare} G 3) ∗ (((c : Thread nD τ).loc main_v69) ↦{fullShare.right} G 4) ∗ (((c : Thread nD τ).loc main_v63) ↦{fullShare} G 5) ∗ (((c : Thread nD τ).loc main_v75) ↦{fullShare} G 6)) := by
  rw [Cert.Lib.SharedLaunch.arrays_eq_shares (dat W c) arr_whole12 G, bigSep_W12]
  rfl

/-- ENTRY: the core's unscoped buffers as the launch finds them are the windows' arrays at the proof data's entry
    contents, the shared array at its two halves, and the unscoped rest. -/
theorem arrays_of_unscopedBufs (c : Dev nD) :
    (unscopedBufs c (W c) : sProp 𝕄) ⊢ iprop((dat W c).arrays (dat W c).A ∗ Pipeline.unscopedRest (Ix := Unit) (Name := ℕ) (U := UR sig nD τ) (Lvl := ℕ) spec12 c (W c)) := by
  rw [unscopedBufs_split c (W c), arrBufs_eq, arrays_eq]
  simp only [A_eq]
  iintro ⟨⟨H0, H1, H2, H3, H5, H6⟩, HR⟩
  ihave H1 := (pointsTo_share (PosShare.mem_left_op_right fullShare)).1 $$ H1
  icases H1 with ⟨H1, H4⟩
  isplitr [HR]
  swap; · iexact HR
  isplitl [H0]; · iexact H0
  isplitl [H1]; · iexact H1
  isplitl [H2]; · iexact H2
  isplitl [H3]; · iexact H3
  isplitl [H4]; · iexact H4
  isplitl [H5]; · iexact H5
  iexact H6

/-- EXIT: the windows' arrays at contents `Fw` and the unscoped rest as the launch found it are the core's unscoped
    buffers at any valuation that has the arrays at `Fw` and agrees with the launch's off them. The two windows on the
    shared array hold the same contents, so its halves join. -/
theorem unscopedBufs_of_arrays (c : Dev nD) (V' : (b : Ref sig .tc) → Buf (Elt F) ((c : Thread nD τ).loc b))
    (Fw : (w : Fin cfg12.W) → Buf (Elt F) ((cfg12.win w).arr.view.loc (c : Thread nD τ))) (hF : ∀ w, Fw w = V' (Pipeline.arrRef spec12 w))
    (hrest : ∀ b, b ∉ Finset.univ.image (Pipeline.arrRef spec12) → V' b = W c b) :
    iprop((dat W c).arrays Fw ∗ Pipeline.unscopedRest (Ix := Unit) (Name := ℕ) (U := UR sig nD τ) (Lvl := ℕ) spec12 c (W c)) ⊢ (unscopedBufs c V' : sProp 𝕄) := by
  rw [unscopedBufs_split c V', arrBufs_eq, arrays_eq]
  rw [show (Pipeline.unscopedRest (Ix := Unit) (Name := ℕ) (U := UR sig nD τ) (Lvl := ℕ) spec12 c (W c) : sProp 𝕄) = Pipeline.unscopedRest (Ix := Unit) (Name := ℕ) (U := UR sig nD τ) (Lvl := ℕ) spec12 c V' from by
    unfold Pipeline.unscopedRest
    exact bigSep_congr fun b hb => by rw [hrest b (Finset.mem_sdiff.mp hb).2]]
  rw [hF 0, hF 1, hF 2, hF 3, hF 4, hF 5, hF 6]
  iintro ⟨⟨H0, H1, H2, H3, H4, H5, H6⟩, HR⟩
  isplitr [HR]
  swap; · iexact HR
  isplitl [H0]; · iexact H0
  isplitl [H1 H4]
  · iapply (pointsTo_share (PosShare.mem_left_op_right fullShare)).2
    isplitl [H1]; · iexact H1
    iexact H4
  isplitl [H2]; · iexact H2
  isplitl [H3]; · iexact H3
  isplitl [H5]; · iexact H5
  iexact H6

end Cert.Kernel.R12

end
-- ==== Proof.KSeg12.lean ====
/-
  Launch 12 as one item of the program. It is entered with every buffer at the contents the item before left and the core
  owing nothing; the arrays its windows read and write are taken out of the buffers and handed to the pipeline (the array that two of
  its windows read is dealt between them, half to each, and put together again at the exit), the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase
import proofs.«155206_j89000312308227_2_alg».proof.Proof.KR12Arr

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v12 (W) (c : Dev nD) : (leaves F).v12 W c = (R12.dat (F := F) W c).arrAt 6 cfg12.N := rfl

/-- The output array after the launch is what the launch leaves: its proof data's array after the last grid point. -/
theorem hF12_out (c : Dev nD) : (pdats m 12 c).arrAt 6 cfg12.N = rd (U26 m (leaves F)) c (Pipeline.arrRef spec12 6) :=
  ((U26_out m (leaves F) c).trans (leaves_v12 _ c)).symm

set_option maxHeartbeats 3200000 in
/-- At the exit every array of the launch holds the next item's contents: the output array what the launch leaves, an
    input array what it held (the launch changes no other buffer). -/
theorem hF12 (c : Dev nD) (w : Fin cfg12.W) : (pdats m 12 c).arrAt w cfg12.N = rd (U26 m (leaves F)) c (Pipeline.arrRef spec12 w) := by
  match w with
  | ⟨0, _⟩ => exact ((pdats m 12 c).arrAt_in 0 rfl _).trans ((R12.A_eq _ c 0).trans (U26_of_ne m (leaves F) c (Pipeline.arrRef spec12 0) (by decide)).symm)
  | ⟨1, _⟩ => exact ((pdats m 12 c).arrAt_in 1 rfl _).trans ((R12.A_eq _ c 1).trans (U26_of_ne m (leaves F) c (Pipeline.arrRef spec12 1) (by decide)).symm)
  | ⟨2, _⟩ => exact ((pdats m 12 c).arrAt_in 2 rfl _).trans ((R12.A_eq _ c 2).trans (U26_of_ne m (leaves F) c (Pipeline.arrRef spec12 2) (by decide)).symm)
  | ⟨3, _⟩ => exact ((pdats m 12 c).arrAt_in 3 rfl _).trans ((R12.A_eq _ c 3).trans (U26_of_ne m (leaves F) c (Pipeline.arrRef spec12 3) (by decide)).symm)
  | ⟨4, _⟩ => exact ((pdats m 12 c).arrAt_in 4 rfl _).trans ((R12.A_eq _ c 4).trans (U26_of_ne m (leaves F) c (Pipeline.arrRef spec12 4) (by decide)).symm)
  | ⟨5, _⟩ => exact ((pdats m 12 c).arrAt_in 5 rfl _).trans ((R12.A_eq _ c 5).trans (U26_of_ne m (leaves F) c (Pipeline.arrRef spec12 5) (by decide)).symm)
  | ⟨6, _⟩ => exact hF12_out m c

theorem out_ref12 : Pipeline.arrRef spec12 6 = main_v75 := rfl

theorem hrest12 (c : Dev nD) : ∀ b, b ∉ Finset.univ.image (Pipeline.arrRef spec12) → rd (U26 m (leaves F)) c b = rd (U25 m (leaves F)) c b :=
  fun b hb => U26_of_ne m (leaves F) c b fun e => hb (Finset.mem_image.mpr ⟨6, Finset.mem_univ _, out_ref12.trans e.symm⟩)

/-- After the last grid point the invariant gives the scoped buffers back at anything. -/
theorem hout12 (c : Dev nD) : (pdats m 12 c).Φ (Fin.last cfg12.N) ⊢ (Pipeline.scopedRest (Ix := Unit) (Name := ℕ) (U := UR sig nD τ) (Lvl := ℕ) (Val := Elt F) spec12 c : sProp 𝕄) := by
  rw [show (pdats m 12 c).Φ (Fin.last cfg12.N) = R12.PhiS (rd (U25 m (leaves F))) c cfg12.N (Nat.le_refl _) from rfl,
    R12.PhiS_pos _ c _ _ (by have h : cfg12.N = 144 := N_12; omega), R12.scoped_eq]
  iintro ⟨HS, Hg⟩
  isplitl [HS]
  · iexists _; iexact HS
  iexact Hg

set_option backward.isDefEq.respectTransparency.types false in
def reg12 : Pipeline.RegionSeg (pcfgs (F := F)) adm (pdats m) () defs₀ 𝒱₀ Lz lvz 12 where
  win := winFacts₀12
  block_pos := block_pos12
  stage_whole := stage_whole12
  K := PEmpty
  osem k := k.elim
  ho := Pipeline.OwnSemFacts.none _
  hbody c := (R12.body_obligation (rd (U25 m (leaves F))) c).loose
  hwaits := Pipeline.hwaits_of_owed_zero _ _ _ _ Lz lvz 12 fun _ _ => rfl
  pre c := iprop(StableHlo.held (c : Thread nD τ) (Pipeline.ucRefs τ sig) (U25 m (leaves F) c) ∗ Rr c)
  post c := iprop(StableHlo.held (c : Thread nD τ) (Pipeline.ucRefs τ sig) (U26 m (leaves F) c) ∗ Rr c)
  X c := iprop(emp)
  Y c := iprop(emp)
  Z c := iprop(Pipeline.unscopedRest (Ix := Unit) (Name := ℕ) (U := UR sig nD τ) (Lvl := ℕ) spec12 c (rd (U25 m (leaves F)) c) ∗ ∃ r, prngReg c r)
  hentry c := by
    rw [Pipeline.ownSems0_none]
    have hsplit := R12.arrays_of_unscopedBufs (rd (U25 m (leaves F))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 12 c).Φ 0 = Pipeline.scopedRest (Ix := Unit) (Name := ℕ) (U := UR sig nD τ) (Lvl := ℕ) (Val := Elt F) spec12 c from rfl]
    iintro ⟨-, -, Hr⟩
    iexact Hr
  hout c := by
    rw [Pipeline.ownSems0_none]
    iintro H
    isplitr; · iempintro
    isplitr; · iempintro
    iapply (hout12 m c); iexact H
  hexit c := by
    have hjoin : iprop((pdats m 12 c).arrays ((pdats m 12 c).arrAt · cfg12.N)
          ∗ Pipeline.unscopedRest (Ix := Unit) (Name := ℕ) (U := UR sig nD τ) (Lvl := ℕ) spec12 c (rd (U25 m (leaves F)) c))
        ⊢ (unscopedBufs c (rd (U26 m (leaves F)) c) : sProp 𝕄) :=
      R12.unscopedBufs_of_arrays (rd (U25 m (leaves F))) c (rd (U26 m (leaves F)) c)
        ((pdats m 12 c).arrAt · cfg12.N) (hF12 m c) (hrest12 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KSeg13.lean ====
/-
  Launch 13 as one item of the program. It is entered with every buffer at the contents the item before left and the core
  owing nothing; the arrays its windows read and write are taken out of the buffers and handed to the pipeline, the rest
  (and the generator register) wait beside it; the pipeline's invariant starts from the scoped buffers at anything and
  ends there, the accumulator's last contents forgotten; at the exit the arrays come back — the inputs as they were, the
  output array at what the write-backs made of it — and with the rest they are every buffer at the next item's contents.
-/
import proofs.«155206_j89000312308227_2_alg».proof.Proof.KAsmBase

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem leaves_v13 (W) (c : Dev nD) : (leaves F).v13 W c = (R13.dat (F := F) W c).arrAt 2 cfg13.N := rfl

/-- The output array after the launch is what the launch leaves: its proof data's array after the last grid point. -/
theorem hF13_out (c : Dev nD) : (pdats m 13 c).arrAt 2 cfg13.N = rd (U29 m (leaves F)) c (Pipeline.arrRef spec13 2) :=
  ((U29_out m (leaves F) c).trans (leaves_v13 _ c)).symm

set_option maxHeartbeats 3200000 in
/-- At the exit every array of the launch holds the next item's contents: the output array what the launch leaves, an
    input array what it held (the launch changes no other buffer). -/
theorem hF13 (c : Dev nD) (w : Fin cfg13.W) : (pdats m 13 c).arrAt w cfg13.N = rd (U29 m (leaves F)) c (Pipeline.arrRef spec13 w) := by
  match w with
  | ⟨0, _⟩ => exact ((pdats m 13 c).arrAt_in 0 rfl _).trans ((R13.A_eq _ c 0).trans (U29_of_ne m (leaves F) c (Pipeline.arrRef spec13 0) (by decide)).symm)
  | ⟨1, _⟩ => exact ((pdats m 13 c).arrAt_in 1 rfl _).trans ((R13.A_eq _ c 1).trans (U29_of_ne m (leaves F) c (Pipeline.arrRef spec13 1) (by decide)).symm)
  | ⟨2, _⟩ => exact hF13_out m c

theorem out_ref13 : Pipeline.arrRef spec13 2 = main_v97 := rfl

theorem hrest13 (c : Dev nD) : ∀ b, b ∉ Finset.univ.image (Pipeline.arrRef spec13) → rd (U29 m (leaves F)) c b = rd (U28 m (leaves F)) c b :=
  fun b hb => U29_of_ne m (leaves F) c b fun e => hb (Finset.mem_image.mpr ⟨2, Finset.mem_univ _, out_ref13.trans e.symm⟩)

/-- After the last grid point the invariant gives the scoped buffers back at anything. -/
theorem hout13 (c : Dev nD) : (pdats m 13 c).Φ (Fin.last cfg13.N) ⊢ (Pipeline.scopedRest (Ix := Unit) (Name := ℕ) (U := UR sig nD τ) (Lvl := ℕ) (Val := Elt F) spec13 c : sProp 𝕄) := by
  rw [show (pdats m 13 c).Φ (Fin.last cfg13.N) = R13.PhiS (rd (U28 m (leaves F))) c cfg13.N (Nat.le_refl _) from rfl,
    R13.PhiS_pos _ c _ _ (by have h : cfg13.N = 72 := N_13; omega), R13.scoped_eq]
  iintro ⟨HS, Hg⟩
  isplitl [HS]
  · iexists _; iexact HS
  iexact Hg

set_option backward.isDefEq.respectTransparency.types false in
def reg13 : Pipeline.RegionSeg (pcfgs (F := F)) adm (pdats m) () defs₀ 𝒱₀ Lz lvz 13 where
  win := launch13.win.to₀
  block_pos := launch13.block_pos
  stage_whole := launch13.stage_whole
  K := PEmpty
  osem k := k.elim
  ho := Pipeline.OwnSemFacts.none _
  hbody c := (R13.body_obligation (rd (U28 m (leaves F))) c).loose
  hwaits := Pipeline.hwaits_of_owed_zero _ _ _ _ Lz lvz 13 fun _ _ => rfl
  pre c := iprop(StableHlo.held (c : Thread nD τ) (Pipeline.ucRefs τ sig) (U28 m (leaves F) c) ∗ Rr c)
  post c := iprop(StableHlo.held (c : Thread nD τ) (Pipeline.ucRefs τ sig) (U29 m (leaves F) c) ∗ Rr c)
  X c := iprop(emp)
  Y c := iprop(emp)
  Z c := iprop(Pipeline.unscopedRest (Ix := Unit) (Name := ℕ) (U := UR sig nD τ) (Lvl := ℕ) spec13 c (rd (U28 m (leaves F)) c) ∗ ∃ r, prngReg c r)
  hentry c := by
    rw [Pipeline.ownSems0_none]
    have hsplit := Pipeline.arrays_of_unscopedBufs (p := 13) (pcfgs (F := F)) adm (pdats m) launch13.win launch13.arr_whole c
      ((pdats m 13 c).share_full fun _ => rfl) (rd (U28 m (leaves F)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 13 c).Φ 0 = Pipeline.scopedRest (Ix := Unit) (Name := ℕ) (U := UR sig nD τ) (Lvl := ℕ) (Val := Elt F) spec13 c from rfl]
    iintro ⟨-, -, Hr⟩
    iexact Hr
  hout c := by
    rw [Pipeline.ownSems0_none]
    iintro H
    isplitr; · iempintro
    isplitr; · iempintro
    iapply (hout13 m c); iexact H
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (rd (U28 m (leaves F)) c) (rd (U29 m (leaves F)) c) ((pdats m 13 c).arrAt · cfg13.N) (hF13 m c) (hrest13 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Asm

end
-- ==== Proof.KRunAll.lean ====
/-
  The whole program's run from its fourteen launches' records: every weakly fair execution terminates, faults nowhere,
  and ends with each argument array as launched. The items' thread states chain because each record is entered from, and left at,
  the chain's contents; the generator register and the (empty) debts ride beside the buffers from item to item.
-/
import proofs.«155206_j89000312308227_2_alg».proof.Proof.KSeg0
import proofs.«155206_j89000312308227_2_alg».proof.Proof.KSeg1
import proofs.«155206_j89000312308227_2_alg».proof.Proof.KSeg2
import proofs.«155206_j89000312308227_2_alg».proof.Proof.KSeg3
import proofs.«155206_j89000312308227_2_alg».proof.Proof.KSeg4
import proofs.«155206_j89000312308227_2_alg».proof.Proof.KSeg5
import proofs.«155206_j89000312308227_2_alg».proof.Proof.KSeg6
import proofs.«155206_j89000312308227_2_alg».proof.Proof.KSeg7
import proofs.«155206_j89000312308227_2_alg».proof.Proof.KSeg8
import proofs.«155206_j89000312308227_2_alg».proof.Proof.KSeg9
import proofs.«155206_j89000312308227_2_alg».proof.Proof.KSeg10
import proofs.«155206_j89000312308227_2_alg».proof.Proof.KSeg11
import proofs.«155206_j89000312308227_2_alg».proof.Proof.KSeg12
import proofs.«155206_j89000312308227_2_alg».proof.Proof.KSeg13

set_option maxRecDepth 16384

noncomputable section

namespace Cert.Kernel.Asm

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch leaves beside the buffers on every core — the unscoped semaphores at zero, no debts, the launch credit,
    the generator register as seeded — gives, core by core, the generator register at some state and no debts. -/
theorem launch_rest_core (c : Dev nD) :
    iprop(unscopedSems0 c ∗ owes (c : Thread nD τ) (0 : CellTallies nD τ sig Unit) ∅
        ∗ Pipeline.launchCred (fun _ => (0 : CellTallies nD τ sig Unit)) c ∗ prngReg c (ρ c) ∗ (iprop(emp) : sProp 𝕄))
      ⊢ (Rr c : sProp 𝕄) := by
  iintro ⟨-, HO, -, Hp, -⟩
  isplitl [Hp]; · iexists _; iexact Hp
  iexists ∅; iexact HO

/-- The same on every core at once. -/
theorem launch_rest :
    (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (iprop(emp) : sProp 𝕄)))
      ⊢ (bigSep Finset.univ (fun c : Dev nD => Rr c) : sProp 𝕄) :=
  bigSep_mono fun c _ => launch_rest_core ρ c

set_option backward.isDefEq.respectTransparency.types false in
set_option maxHeartbeats 1600000 in
theorem run_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  have h := Gen.frame_cond m (emb₁ : Emb (UR sig nD τ) 𝕄) () 𝒱₀ Lz lvz (fun _ _ => rfl) ρ (outs m (leaves F)) (pdats m)
      (O₀ := fun _ => 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => Rr c)
      (hE0 := by
        iintro ⟨H, -⟩
        imodintro
        iapply (launch_rest ρ)
        iexact H)
      (hE14 := fun c => by
        iintro ⟨-, H⟩
        iexact H)
      (reg0 m) (fun c => by rw [V1_eq m c]; exact .rfl) (fun c => by rw [V2_eq m (leaves F) c]; exact .rfl)
      (reg1 m) (fun c => by rw [V3_eq m (leaves F) c]; exact .rfl) (fun c => by rw [V4_eq m (leaves F) c]; exact .rfl)
      (reg2 m) (fun c => by rw [V5_eq m (leaves F) c]; exact .rfl) (fun c => by rw [V6_eq m (leaves F) c]; exact .rfl)
      (reg3 m) (fun c => by rw [V7_eq m (leaves F) c]; exact .rfl) (fun c => by rw [V8_eq m (leaves F) c]; exact .rfl)
      (reg4 m) (fun c => by rw [V9_eq m (leaves F) c]; exact .rfl) (fun c => by rw [V10_eq m (leaves F) c]; exact .rfl)
      (reg5 m) (fun c => by rw [V11_eq m (leaves F) c]; exact .rfl) (fun c => by rw [V12_eq m (leaves F) c]; exact .rfl)
      (reg6 m) (fun c => by rw [V13_eq m (leaves F) c]; exact .rfl) (fun c => by rw [V14_eq m (leaves F) c]; exact .rfl)
      (reg7 m) (fun c => by rw [V15_eq m (leaves F) c]; exact .rfl) (fun c => by rw [V16_eq m (leaves F) c]; exact .rfl)
      (reg8 m) (fun c => by rw [V17_eq m (leaves F) c]; exact .rfl) (fun c => by rw [V18_eq m (leaves F) c]; exact .rfl)
      (reg9 m) (fun c => by rw [V19_eq m (leaves F) c]; exact .rfl) (fun c => by rw [V20_eq m (leaves F) c]; exact .rfl)
      (reg10 m) (fun c => by rw [V21_eq m (leaves F) c]; exact .rfl) (fun c => by rw [V22_eq m (leaves F) c]; exact .rfl)
      (reg11 m) (fun c => by rw [V23_eq m (leaves F) c]; exact .rfl) (fun c => by rw [V24_eq m (leaves F) c]; exact .rfl)
      (reg12 m) (fun c => by rw [V25_eq m (leaves F) c]; exact .rfl) (fun c => by rw [V26_eq m (leaves F) c]; exact .rfl)
      (reg13 m) (fun c => by rw [V28_eq m (leaves F) c]; exact .rfl) (fun c => by rw [V29_eq m (leaves F) c]; exact .rfl)
  exact h

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_all m ρ

end Cert.Kernel.Asm

end
-- ==== Proof.BridgeTailOps.lean ====
/-
  The host operations after the last layer, named as whole functions of the arrays they start from, and what the
  kernel program's buffers hold after each of its last host stretches in those terms. The face mean is
  mean over the three vertices of |x_p[face vertex] - x_d|; the two output heads are relu ([x, y] · Wᵀ + b). Nothing
  here opens a gather, a concatenate or a sum: the functions are only named, so that the same names can be put on the
  reference's stages.
-/
import proofs.«155206_j89000312308227_2_alg».proof.Proof.Chain
import Idealize.ShloMosaic.PureOps.Ideal
import Idealize.ShloMosaic.Lib.ValueIdx

set_option maxRecDepth 16384

noncomputable section

namespace Cert.KernelIdeal.Bridge

open Cert.KernelIdeal Cert.KernelIdeal.Gen Cert.KernelIdeal.Chain
open Idealize.ShloMosaic Idealize.ShloMosaic.TcCoe
open Idealize.SL Idealize.SL.Sem

variable {F : FTy → Type} [FloatOps F]

/-- The face vertices with negative entries wrapped around (index + 6144 where the index is negative), as a column. -/
def faceIdx (a4 : (⟨S12288x3, .i32⟩ : BufTy).Contents (Elt F)) : (⟨S12288x3x1, .i32⟩ : BufTy).Contents (Elt F) :=
  broadcastInDim S12288x3x1 ![0, 1] bcast_S12288x3_S12288x3x1_0_1
    (select (cmpi .slt a4 (broadcastInDim S12288x3 ![] bcast_S_S12288x3 (constantI S_ 32 0#32)))
      (addi a4 (broadcastInDim S12288x3 ![] bcast_S_S12288x3 (constantI S_ 32 6144#32))) a4)

/-- The face mean: for every face and feature, the mean over the face's three vertices of |x_p at the vertex - x_d at the face|. -/
def faceMean (xp : (⟨S6144x256, .f32⟩ : BufTy).Contents (Elt F)) (xd : (⟨S12288x256, .f32⟩ : BufTy).Contents (Elt F))
    (a4 : (⟨S12288x3, .i32⟩ : BufTy).Contents (Elt F)) : (⟨S12288x256, .f32⟩ : BufTy).Contents (Elt F) :=
  Host.divf
    (Host.reduceAdd
      (Host.absf (subf (Host.gather gather_S6144x256_S12288x3x1_S12288x3x256_2_0_n_n_0_2_1256 xp (faceIdx a4))
        (broadcastInDim S12288x3x256 ![0, 1, 2] bcast_S12288x1x256_S12288x3x256_0_1_2
          (broadcastInDim S12288x1x256 ![0, 2] bcast_S12288x256_S12288x1x256_0_2 xd))))
      (constant S_ .f32 0x00000000#32) reducesTo_S12288x3x256_S12288x256_d1 h_S_)
    (broadcastInDim S12288x256 ![] bcast_S_S12288x256 (constant S_ .f32 0x40400000#32))

/-- The dual output head before its skip term: relu ([x_d, f] · Wᵀ + b). -/
def dualHead (xd f : (⟨S12288x256, .f32⟩ : BufTy).Contents (Elt F)) (w : (⟨S256x512, .f32⟩ : BufTy).Contents (Elt F))
    (b : (⟨S256, .f32⟩ : BufTy).Contents (Elt F)) : (⟨S12288x256, .f32⟩ : BufTy).Contents (Elt F) :=
  maximumf
    (addf (Host.dotGeneral dot_S12288x512_S512x256_S12288x256_1_0_0_1_n_n none
        (concatenate S12288x512 1 [⟨S12288x256, xd⟩, ⟨S12288x256, f⟩] concatenates_S12288x256_S12288x256_S12288x512_d1)
        (transpose S512x256 [1, 0] w transposes_S256x512_S512x256_1_0))
      (broadcastInDim S12288x256 ![0, 1] bcast_S1x256_S12288x256_0_1 (broadcastInDim S1x256 ![1] bcast_S256_S1x256_1 b)))
    (broadcastInDim S12288x256 ![] bcast_S_S12288x256 (constant S_ .f32 0x00000000#32))

/-- The primal output head before its skip term: relu ([x_p, A · f] · Wᵀ + b). -/
def primalHead (xp mp : (⟨S6144x256, .f32⟩ : BufTy).Contents (Elt F)) (w : (⟨S256x512, .f32⟩ : BufTy).Contents (Elt F))
    (b : (⟨S256, .f32⟩ : BufTy).Contents (Elt F)) : (⟨S6144x256, .f32⟩ : BufTy).Contents (Elt F) :=
  maximumf
    (addf (Host.dotGeneral dot_S6144x512_S512x256_S6144x256_1_0_0_1_n_n none
        (concatenate S6144x512 1 [⟨S6144x256, xp⟩, ⟨S6144x256, mp⟩] concatenates_S6144x256_S6144x256_S6144x512_d1)
        (transpose S512x256 [1, 0] w transposes_S256x512_S512x256_1_0))
      (broadcastInDim S6144x256 ![0, 1] bcast_S1x256_S6144x256_0_1 (broadcastInDim S1x256 ![1] bcast_S256_S1x256_1 b)))
    (broadcastInDim S6144x256 ![] bcast_S_S6144x256 (constant S_ .f32 0x00000000#32))

/-- Joining two arrays along an axis respects equality of the two arrays. -/
theorem concat2_congr {α : Type} {t : Shape} {a : Fin t.rank} {s1 s2 : Shape} {x x' : s1.Idx → α} {y y' : s2.Idx → α}
    (h : Shape.Concatenates [s1, s2] t a) (hx : x = x') (hy : y = y') :
    concatenate t a [⟨s1, x⟩, ⟨s2, y⟩] h = concatenate t a [⟨s1, x'⟩, ⟨s2, y'⟩] h := by subst hx; subst hy; rfl

variable (m : (ℓ : Loc nD τ sig) → Buf (Elt F) ℓ) (L : LeavesAll F)

/-- After the stretch that follows the last layer, the face-mean buffer holds the face mean of the two streams. -/
theorem U27_v89 (c : Dev nD) :
    (U27 m L c main_v89 : (⟨S12288x256, .f32⟩ : BufTy).Contents (Elt F))
      = faceMean (U26 m L c main_v39) (U26 m L c main_v75) (U26 m L c main_arg4) := by
  unfold U27 hostOps13
  after_results_simp
  rfl

/-! ## Buffers an item does not write -/

theorem U27_of (c : Dev nD) (r : Ref sig .tc) (h : r ∉ hostOps13_W) : U27 m L c r = U26 m L c r :=
  StableHlo.after_of_writes_sub hostOps13 _ hostOps13_writes h
theorem U28_of (c : Dev nD) (r : Ref sig .tc) (h : r ∉ hostOps13_1_W) : U28 m L c r = U27 m L c r :=
  StableHlo.after_of_writes_sub hostOps13_1 _ hostOps13_1_writes h
theorem U30_of (c : Dev nD) (r : Ref sig .tc) (h : r ∉ hostOps14_W) : U30 m L c r = U29 m L c r :=
  StableHlo.after_of_writes_sub hostOps14 _ hostOps14_writes h
theorem U31_of (c : Dev nD) (r : Ref sig .tc) (h : r ∉ hostOps14_1_W) : U31 m L c r = U30 m L c r :=
  StableHlo.after_of_writes_sub hostOps14_1 _ hostOps14_1_writes h
theorem U32_of (c : Dev nD) (r : Ref sig .tc) (h : r ∉ hostOps14_2_W) : U32 m L c r = U31 m L c r :=
  StableHlo.after_of_writes_sub hostOps14_2 _ hostOps14_2_writes h

/-- A buffer none of the last six items writes holds at the end what it held after the last layer. -/
theorem U32_of_U26 (c : Dev nD) (r : Ref sig .tc) (h13 : r ∉ hostOps13_W) (h13' : r ∉ hostOps13_1_W) (h97 : r ≠ main_v97)
    (h14 : r ∉ hostOps14_W) (h14' : r ∉ hostOps14_1_W) (h14'' : r ∉ hostOps14_2_W) : U32 m L c r = U26 m L c r :=
  (U32_of m L c r h14'').trans <| (U31_of m L c r h14').trans <| (U30_of m L c r h14).trans <| (U29_of_ne m L c r h97).trans <|
    (U28_of m L c r h13').trans (U27_of m L c r h13)

/-! ## The dual head -/

/-- After the dual head's relu, its buffer holds the head of x_d and the face mean. -/
theorem U28_v96 (c : Dev nD) :
    (U28 m L c main_v96 : (⟨S12288x256, .f32⟩ : BufTy).Contents (Elt F))
      = dualHead (U26 m L c main_v75) (faceMean (U26 m L c main_v39) (U26 m L c main_v75) (U26 m L c main_arg4))
          (U26 m L c main_arg15) (U26 m L c main_arg16) := by
  unfold U28 hostOps13_1
  after_results_simp
  simp only [cast_eq]
  unfold U27 hostOps13
  after_results_simp
  unfold dualHead
  refine congrArg (fun z => maximumf (addf (Host.dotGeneral dot_S12288x512_S512x256_S12288x256_1_0_0_1_n_n none z _) _) _) ?_
  refine concat2_congr _ ?_ ?_
  · after_results_simp
  · after_results_simp
    rfl

/-! ## The primal head and the two results -/

/-- The primal head's buffer after its relu, from the contents launch 13 leaves. -/
theorem U31_v104 (c : Dev nD) :
    (U31 m L c main_v104 : (⟨S6144x256, .f32⟩ : BufTy).Contents (Elt F))
      = primalHead (U29 m L c main_v39) (U29 m L c main_v97) (U29 m L c main_arg13) (U29 m L c main_arg14) := by
  unfold U31 hostOps14_1
  after_results_simp
  simp only [cast_eq]
  unfold U30 hostOps14
  after_results_simp
  unfold primalHead
  refine congrArg (fun z => maximumf (addf (Host.dotGeneral dot_S6144x512_S512x256_S6144x256_1_0_0_1_n_n none z _) _) _) ?_
  refine concat2_congr _ ?_ ?_
  · after_results_simp
  · after_results_simp

/-- The first result: the primal head plus x_p. -/
theorem U32_v105 (c : Dev nD) :
    (U32 m L c main_v105 : (⟨S6144x256, .f32⟩ : BufTy).Contents (Elt F))
      = addf (U31 m L c main_v104 : (⟨S6144x256, .f32⟩ : BufTy).Contents (Elt F)) (U31 m L c main_v39) := by
  unfold U32 hostOps14_2
  after_results_simp

/-- The second result: the dual head plus x_d. -/
theorem U32_v106 (c : Dev nD) :
    (U32 m L c main_v106 : (⟨S12288x256, .f32⟩ : BufTy).Contents (Elt F))
      = addf (U31 m L c main_v96 : (⟨S12288x256, .f32⟩ : BufTy).Contents (Elt F)) (U31 m L c main_v75) := by
  unfold U32 hostOps14_2
  after_results_simp

end Cert.KernelIdeal.Bridge

end
-- ==== Proof.RefRead.lean ====
/-
  The reference's run read one operation at a time: this module only brings the read-at-an-index lemmas of the
  reference's stages into scope for the modules that compare its stages with the kernel program's launches.
-/
import proofs.«155206_j89000312308227_2_alg».proof.Proof.Gen.ReferenceIdeal.Run
import proofs.«155206_j89000312308227_2_alg».proof.Proof.Gen.ReferenceIdeal.Read
-- ==== Proof.BridgeTailRef.lean ====
/-
  The reference's stages after the last layer, under the names the kernel program's last host stretches were given:
  its face mean, its two output heads and its two final sums are the same functions, applied to its own two streams.
  Each equation only folds the stage's definition; no operation is opened.
-/
import proofs.«155206_j89000312308227_2_alg».proof.Proof.BridgeTailOps
import proofs.«155206_j89000312308227_2_alg».proof.Proof.RefRead

set_option maxRecDepth 16384

noncomputable section

namespace Cert.KernelIdeal.Bridge

open Cert.KernelIdeal Cert.KernelIdeal.Gen Cert.KernelIdeal.Chain
open Idealize.ShloMosaic Idealize.ShloMosaic.TcCoe

variable {F : FTy → Type} [FloatOps F]
variable (x0 : (⟨Cert.ReferenceIdeal.S6144x256, .f32⟩ : BufTy).Contents (Elt F)) (x1 : (⟨Cert.ReferenceIdeal.S6144x6144, .f32⟩ : BufTy).Contents (Elt F)) (x2 : (⟨Cert.ReferenceIdeal.S12288x12288, .f32⟩ : BufTy).Contents (Elt F)) (x3 : (⟨Cert.ReferenceIdeal.S6144x12288, .f32⟩ : BufTy).Contents (Elt F)) (x4 : (⟨Cert.ReferenceIdeal.S12288x3, .i32⟩ : BufTy).Contents (Elt F)) (x5 : (⟨Cert.ReferenceIdeal.S3x256x256, .f32⟩ : BufTy).Contents (Elt F)) (x6 : (⟨Cert.ReferenceIdeal.S3x256, .f32⟩ : BufTy).Contents (Elt F)) (x7 : (⟨Cert.ReferenceIdeal.S3x256x256, .f32⟩ : BufTy).Contents (Elt F)) (x8 : (⟨Cert.ReferenceIdeal.S3x256, .f32⟩ : BufTy).Contents (Elt F)) (x9 : (⟨Cert.ReferenceIdeal.S3x256x256, .f32⟩ : BufTy).Contents (Elt F)) (x10 : (⟨Cert.ReferenceIdeal.S3x256, .f32⟩ : BufTy).Contents (Elt F)) (x11 : (⟨Cert.ReferenceIdeal.S3x256x256, .f32⟩ : BufTy).Contents (Elt F)) (x12 : (⟨Cert.ReferenceIdeal.S3x256, .f32⟩ : BufTy).Contents (Elt F)) (x13 : (⟨Cert.ReferenceIdeal.S256x512, .f32⟩ : BufTy).Contents (Elt F)) (x14 : (⟨Cert.ReferenceIdeal.S256, .f32⟩ : BufTy).Contents (Elt F)) (x15 : (⟨Cert.ReferenceIdeal.S256x512, .f32⟩ : BufTy).Contents (Elt F)) (x16 : (⟨Cert.ReferenceIdeal.S256, .f32⟩ : BufTy).Contents (Elt F))

/-- The reference's face mean is the face mean of its two streams. -/
theorem ref_faceMean : (Cert.ReferenceIdeal.Read.val_main_v155 (F := F) x0 x1 x2 x3 x4 x5 x6 x7 x8 x9 x10 x11 x12) = faceMean (Cert.ReferenceIdeal.Read.val_main_v72 x0 x1 x5 x6 x7 x8) (Cert.ReferenceIdeal.Read.val_main_v141 x0 x2 x3 x9 x10 x11 x12) x4 := rfl

/-- The reference's dual head. -/
theorem ref_dualHead : Cert.ReferenceIdeal.Read.val_main_v162 (F := F) x0 x1 x2 x3 x4 x5 x6 x7 x8 x9 x10 x11 x12 x15 x16 = dualHead (Cert.ReferenceIdeal.Read.val_main_v141 x0 x2 x3 x9 x10 x11 x12) (Cert.ReferenceIdeal.Read.val_main_v155 x0 x1 x2 x3 x4 x5 x6 x7 x8 x9 x10 x11 x12) x15 x16 := rfl

/-- The reference's primal head. -/
theorem ref_primalHead : Cert.ReferenceIdeal.Read.val_main_v170 (F := F) x0 x1 x2 x3 x4 x5 x6 x7 x8 x9 x10 x11 x12 x13 x14 = primalHead (Cert.ReferenceIdeal.Read.val_main_v72 x0 x1 x5 x6 x7 x8) (Cert.ReferenceIdeal.Read.val_main_v163 x0 x1 x2 x3 x4 x5 x6 x7 x8 x9 x10 x11 x12) x13 x14 := rfl

/-- The reference's first result. -/
theorem ref_v171 : Cert.ReferenceIdeal.Read.val_main_v171 (F := F) x0 x1 x2 x3 x4 x5 x6 x7 x8 x9 x10 x11 x12 x13 x14
    = addf (Cert.ReferenceIdeal.Read.val_main_v170 (F := F) x0 x1 x2 x3 x4 x5 x6 x7 x8 x9 x10 x11 x12 x13 x14) (Cert.ReferenceIdeal.Read.val_main_v72 x0 x1 x5 x6 x7 x8) := rfl

/-- The reference's second result. -/
theorem ref_v172 : Cert.ReferenceIdeal.Read.val_main_v172 (F := F) x0 x1 x2 x3 x4 x5 x6 x7 x8 x9 x10 x11 x12 x15 x16
    = addf (Cert.ReferenceIdeal.Read.val_main_v162 (F := F) x0 x1 x2 x3 x4 x5 x6 x7 x8 x9 x10 x11 x12 x15 x16) (Cert.ReferenceIdeal.Read.val_main_v141 x0 x2 x3 x9 x10 x11 x12) := rfl

end Cert.KernelIdeal.Bridge

end
-- ==== Proof.Iface.lean ====
/-
  What each of the fourteen launches has to leave in its output array, entry by entry over the extended reals, as a
  function of the arrays it is entered with. Four forms:
    initial     out (p, e) = (Σ_f A (f, p) · X (f, e)) · (one third, as the binary literal)       (launch 0)
    plain       out (p, e) = Σ_f A (p, f) · X (f, e)                                                (launch 13)
    projected   out (p, j) = Σ_d (Σ_f A (p, f) · X (f, d)) · Wm (j, d) + b (0, j)                   (launches 1, 3, …, 11)
    joined      out (p, j) = max (r₁ (p, j) + (Σ_d (Σ_f A (p, f) · X (f, d)) · Wm (j, d) + b (0, j))) 0 + r₂ (p, j)
                                                                                                    (launches 2, 4, …, 12)
  with A the adjacency matrix (a change of float format is the identity), X the features, Wm a weight matrix (out, in),
  b a bias row, r₁ r₂ the two skip terms. The sums run over the whole contraction extent.
-/
import proofs.«155206_j89000312308227_2_alg».proof.Proof.Chain
import Idealize.ShloMosaic.PureOps.Ideal
import Idealize.ShloMosaic.Lib.ValueIdx

noncomputable section

namespace Cert.KernelIdeal.Iface

open Cert.KernelIdeal Cert.KernelIdeal.Gen Cert.KernelIdeal.Chain
open Idealize.ShloMosaic Idealize.ShloMosaic.TcCoe Idealize.ShloMosaic.ValueIdx
open scoped BigOperators

/-- A matrix of extended reals with `a` rows and `b` columns. -/
abbrev Mat (a b : ℕ) : Type := (⟨2, ![a, b]⟩ : Shape).Idx → EReal

/-- The factor of launch 0: the binary literal nearest one third, read as the real it denotes. -/
def third : EReal := (Scalar.ofBits (F := Ideal) .f32 0x3EAAAAAB#32)

def InitForm {M K : ℕ} (A : Mat K M) (X : Mat K 256) (out : Mat M 256) : Prop :=
  ∀ (p : Fin M) (e : Fin 256), out (ix2 p e) = (∑ f : Fin K, A (ix2 f p) * X (ix2 f e)) * third

def PlainForm {M K : ℕ} (A : Mat M K) (X : Mat K 256) (out : Mat M 256) : Prop :=
  ∀ (p : Fin M) (e : Fin 256), out (ix2 p e) = ∑ f : Fin K, A (ix2 p f) * X (ix2 f e)

def LinForm {M K : ℕ} (A : Mat M K) (X : Mat K 256) (Wm : Mat 256 256) (b : Mat 1 256) (out : Mat M 256) : Prop :=
  ∀ (p : Fin M) (j : Fin 256), out (ix2 p j) = (∑ d : Fin 256, (∑ f : Fin K, A (ix2 p f) * X (ix2 f d)) * Wm (ix2 j d)) + b (ix2 0 j)

def FusedForm {M K : ℕ} (A : Mat M K) (X : Mat K 256) (Wm : Mat 256 256) (b : Mat 1 256) (r₁ r₂ : Mat M 256) (out : Mat M 256) : Prop :=
  ∀ (p : Fin M) (j : Fin 256), out (ix2 p j)
    = max (r₁ (ix2 p j) + ((∑ d : Fin 256, (∑ f : Fin K, A (ix2 p f) * X (ix2 f d)) * Wm (ix2 j d)) + b (ix2 0 j))) 0 + r₂ (ix2 p j)

/-- Buffer contents on every core, read at the TensorCore's references. -/
abbrev Vl : Type := (c : Dev nD) → (b : Ref sig .tc) → Buf (Elt Ideal) ((c : Thread nD τ).loc b)

/-- Launch 0 (init): operands main_v2, main_arg0; output main_v3. -/
def Is0 (v : Leaves Ideal main_v3) : Prop := ∀ (W : Vl) (c : Dev nD), InitForm (M := 12288) (K := 6144) (W c main_v2) (W c main_arg0) (v W c)
/-- Launch 1 (lin): operands main_v0, main_arg0, main_v5, main_v8; output main_v9. -/
def Is1 (v : Leaves Ideal main_v9) : Prop := ∀ (W : Vl) (c : Dev nD), LinForm (M := 6144) (K := 6144) (W c main_v0) (W c main_arg0) (W c main_v5) (W c main_v8) (v W c)
/-- Launch 2 (fused): operands main_v0, main_v9, main_v11, main_v14, main_v9, main_arg0; output main_v15. -/
def Is2 (v : Leaves Ideal main_v15) : Prop := ∀ (W : Vl) (c : Dev nD), FusedForm (M := 6144) (K := 6144) (W c main_v0) (W c main_v9) (W c main_v11) (W c main_v14) (W c main_v9) (W c main_arg0) (v W c)
/-- Launch 3 (lin): operands main_v0, main_v15, main_v17, main_v20; output main_v21. -/
def Is3 (v : Leaves Ideal main_v21) : Prop := ∀ (W : Vl) (c : Dev nD), LinForm (M := 6144) (K := 6144) (W c main_v0) (W c main_v15) (W c main_v17) (W c main_v20) (v W c)
/-- Launch 4 (fused): operands main_v0, main_v21, main_v23, main_v26, main_v21, main_v15; output main_v27. -/
def Is4 (v : Leaves Ideal main_v27) : Prop := ∀ (W : Vl) (c : Dev nD), FusedForm (M := 6144) (K := 6144) (W c main_v0) (W c main_v21) (W c main_v23) (W c main_v26) (W c main_v21) (W c main_v15) (v W c)
/-- Launch 5 (lin): operands main_v0, main_v27, main_v29, main_v32; output main_v33. -/
def Is5 (v : Leaves Ideal main_v33) : Prop := ∀ (W : Vl) (c : Dev nD), LinForm (M := 6144) (K := 6144) (W c main_v0) (W c main_v27) (W c main_v29) (W c main_v32) (v W c)
/-- Launch 6 (fused): operands main_v0, main_v33, main_v35, main_v38, main_v33, main_v27; output main_v39. -/
def Is6 (v : Leaves Ideal main_v39) : Prop := ∀ (W : Vl) (c : Dev nD), FusedForm (M := 6144) (K := 6144) (W c main_v0) (W c main_v33) (W c main_v35) (W c main_v38) (W c main_v33) (W c main_v27) (v W c)
/-- Launch 7 (lin): operands main_v1, main_v3, main_v41, main_v44; output main_v45. -/
def Is7 (v : Leaves Ideal main_v45) : Prop := ∀ (W : Vl) (c : Dev nD), LinForm (M := 12288) (K := 12288) (W c main_v1) (W c main_v3) (W c main_v41) (W c main_v44) (v W c)
/-- Launch 8 (fused): operands main_v1, main_v45, main_v47, main_v50, main_v45, main_v3; output main_v51. -/
def Is8 (v : Leaves Ideal main_v51) : Prop := ∀ (W : Vl) (c : Dev nD), FusedForm (M := 12288) (K := 12288) (W c main_v1) (W c main_v45) (W c main_v47) (W c main_v50) (W c main_v45) (W c main_v3) (v W c)
/-- Launch 9 (lin): operands main_v1, main_v51, main_v53, main_v56; output main_v57. -/
def Is9 (v : Leaves Ideal main_v57) : Prop := ∀ (W : Vl) (c : Dev nD), LinForm (M := 12288) (K := 12288) (W c main_v1) (W c main_v51) (W c main_v53) (W c main_v56) (v W c)
/-- Launch 10 (fused): operands main_v1, main_v57, main_v59, main_v62, main_v57, main_v51; output main_v63. -/
def Is10 (v : Leaves Ideal main_v63) : Prop := ∀ (W : Vl) (c : Dev nD), FusedForm (M := 12288) (K := 12288) (W c main_v1) (W c main_v57) (W c main_v59) (W c main_v62) (W c main_v57) (W c main_v51) (v W c)
/-- Launch 11 (lin): operands main_v1, main_v63, main_v65, main_v68; output main_v69. -/
def Is11 (v : Leaves Ideal main_v69) : Prop := ∀ (W : Vl) (c : Dev nD), LinForm (M := 12288) (K := 12288) (W c main_v1) (W c main_v63) (W c main_v65) (W c main_v68) (v W c)
/-- Launch 12 (fused): operands main_v1, main_v69, main_v71, main_v74, main_v69, main_v63; output main_v75. -/
def Is12 (v : Leaves Ideal main_v75) : Prop := ∀ (W : Vl) (c : Dev nD), FusedForm (M := 12288) (K := 12288) (W c main_v1) (W c main_v69) (W c main_v71) (W c main_v74) (W c main_v69) (W c main_v63) (v W c)
/-- Launch 13 (plain): operands main_v2, main_v89; output main_v97. -/
def Is13 (v : Leaves Ideal main_v97) : Prop := ∀ (W : Vl) (c : Dev nD), PlainForm (M := 6144) (K := 12288) (W c main_v2) (W c main_v89) (v W c)

/-- All fourteen at once. -/
def Good (L : LeavesAll Ideal) : Prop :=
  Is0 L.v0 ∧ Is1 L.v1 ∧ Is2 L.v2 ∧ Is3 L.v3 ∧ Is4 L.v4 ∧ Is5 L.v5 ∧ Is6 L.v6 ∧ Is7 L.v7 ∧ Is8 L.v8 ∧ Is9 L.v9 ∧ Is10 L.v10 ∧ Is11 L.v11 ∧ Is12 L.v12 ∧ Is13 L.v13

end Cert.KernelIdeal.Iface

end
-- ==== Proof.BridgeTailMap.lean ====
/-
  The last launch against the reference's one matrix product. The launch multiplies the copy of the third adjacency
  matrix made before the first launch (a change of float format: the identity over the extended reals; no later item
  writes the copy) with the face mean, entry (p, e) = Σ_f A (p, f) · mean (f, e); the reference's product of the matrix
  with its own face mean is the same sum, term by term, once the two face means are equal.
-/
import proofs.«155206_j89000312308227_2_alg».proof.Proof.BridgeTailOps
import proofs.«155206_j89000312308227_2_alg».proof.Proof.Iface
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators

section
variable {F : FTy → Type} [FloatOps F]
variable (m : (ℓ : Loc nD τ sig) → Buf (Elt F) ℓ) (L : LeavesAll F)

/-- No item between the first stretch and the last launch writes the copy of the third adjacency matrix. -/
theorem U28_v2 (c : Dev nD) : U28 m L c main_v2 = U1 m c main_v2 := by
  rw [← V28_eq m L c]
  exact (V28_of m (outs m L) c main_v2 (by decide)).trans <| (V27_of m (outs m L) c main_v2 (by decide)).trans <| (V26_of m (outs m L) c main_v2 (by decide)).trans <| (V25_of m (outs m L) c main_v2 (by decide)).trans <| (V24_of m (outs m L) c main_v2 (by decide)).trans <| (V23_of m (outs m L) c main_v2 (by decide)).trans <| (V22_of m (outs m L) c main_v2 (by decide)).trans <| (V21_of m (outs m L) c main_v2 (by decide)).trans <| (V20_of m (outs m L) c main_v2 (by decide)).trans <| (V19_of m (outs m L) c main_v2 (by decide)).trans <| (V18_of m (outs m L) c main_v2 (by decide)).trans <| (V17_of m (outs m L) c main_v2 (by decide)).trans <| (V16_of m (outs m L) c main_v2 (by decide)).trans <| (V15_of m (outs m L) c main_v2 (by decide)).trans <| (V14_of m (outs m L) c main_v2 (by decide)).trans <| (V13_of m (outs m L) c main_v2 (by decide)).trans <| (V12_of m (outs m L) c main_v2 (by decide)).trans <| (V11_of m (outs m L) c main_v2 (by decide)).trans <| (V10_of m (outs m L) c main_v2 (by decide)).trans <| (V9_of m (outs m L) c main_v2 (by decide)).trans <| (V8_of m (outs m L) c main_v2 (by decide)).trans <| (V7_of m (outs m L) c main_v2 (by decide)).trans <| (V6_of m (outs m L) c main_v2 (by decide)).trans <| (V5_of m (outs m L) c main_v2 (by decide)).trans <| (V4_of m (outs m L) c main_v2 (by decide)).trans <| (V3_of m (outs m L) c main_v2 (by decide)).trans <| (V2_of m (outs m L) c main_v2 (by decide)).trans <| rfl

/-- The copy is the change of float format of the third argument. -/
theorem U1_v2 (c : Dev nD) :
    (U1 m c main_v2 : (⟨S6144x12288, .bf16⟩ : BufTy).Contents (Elt F))
      = truncf .bf16 (m ((c : Thread nD τ).loc main_arg3) : (⟨S6144x12288, .f32⟩ : BufTy).Contents (Elt F)) bitsLt_bf16_f32 := by
  unfold U1 hostOps0
  after_results
  rfl
end

variable (m : (ℓ : Loc nD τ sig) → Buf (Elt Ideal) ℓ) (L : LeavesAll Ideal)

/-- Over the extended reals the copy is the third argument, entry by entry. -/
theorem adj3 (c : Dev nD) (i : S6144x12288.Idx) :
    (U28 m L c main_v2 : (⟨S6144x12288, .bf16⟩ : BufTy).Contents (Elt Ideal)) i
      = (m ((c : Thread nD τ).loc main_arg3) : (⟨S6144x12288, .f32⟩ : BufTy).Contents (Elt Ideal)) i := by
  rw [U28_v2, U1_v2]; rfl

/-- The last launch leaves the reference's product, when it is entered with the reference's face mean. -/
theorem mapped_eq (hL : Is13 L.v13) (c : Dev nD) (x0 : (⟨Cert.ReferenceIdeal.S6144x256, .f32⟩ : BufTy).Contents (Elt Ideal)) (x1 : (⟨Cert.ReferenceIdeal.S6144x6144, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x4 : (⟨Cert.ReferenceIdeal.S12288x3, .i32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal))
    (e3 : x3 = m ((c : Thread nD τ).loc main_arg3))
    (hf : (U28 m L c main_v89 : (⟨S12288x256, .f32⟩ : BufTy).Contents (Elt Ideal)) = Cert.ReferenceIdeal.Read.val_main_v155 x0 x1 x2 x3 x4 x5 x6 x7 x8 x9 x10 x11 x12) :
    (U29 m L c main_v97 : (⟨S6144x256, .f32⟩ : BufTy).Contents (Elt Ideal)) = Cert.ReferenceIdeal.Read.val_main_v163 x0 x1 x2 x3 x4 x5 x6 x7 x8 x9 x10 x11 x12 := by
  funext i
  obtain ⟨p, e, rfl⟩ : ∃ (p : Fin 6144) (e : Fin 256), i = ix2 p e := ⟨i 0, i 1, eq_ix2 i⟩
  rw [U29_out]
  refine (hL (rd (U28 m L)) c p e).trans ?_
  rw [Cert.ReferenceIdeal.Read.val_main_v163_apply]
  refine Finset.sum_congr rfl fun k _ => ?_
  have h1 : Cert.ReferenceIdeal.Read.lidx_main_v163 (ix2 p e) k = ix2 p k := by
    funext a; match a with | ⟨0, _⟩ => rfl | ⟨1, _⟩ => rfl
  have h2 : Cert.ReferenceIdeal.Read.ridx_main_v163 (ix2 p e) k = ix2 k e := by
    funext a; match a with | ⟨0, _⟩ => rfl | ⟨1, _⟩ => rfl
  rw [h1, h2, ← hf, e3]
  exact congrArg (· * _) (adj3 m L c (ix2 p k))

end Cert.KernelIdeal.Bridge

end
-- ==== Proof.BridgeTail.lean ====
/-
  The end of the two programs. After the last layer both apply the same host operations to their two streams —
  the face mean, the dual head, the product of the third adjacency matrix with the face mean (the kernel program's last
  launch; one matrix product in the reference), the primal head, the two final sums — so equal streams give equal
  results: each step below puts the kernel program's buffer and the reference's stage under one name applied to equal
  arrays. The six intermediate results and the returned argument are buffers none of the last items writes.
-/
import proofs.«155206_j89000312308227_2_alg».proof.Proof.BridgeTailOps
import proofs.«155206_j89000312308227_2_alg».proof.Proof.BridgeTailRef
import proofs.«155206_j89000312308227_2_alg».proof.Proof.BridgeTailMap

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe
open Idealize.SL Idealize.SL.Sem

variable (m : (ℓ : Loc nD τ sig) → Buf (Elt Ideal) ℓ) (L : LeavesAll Ideal)

/-- A buffer neither of the two stretches after the last layer nor the last launch writes. -/
theorem U29_of_U26 (c : Dev nD) (r : Ref sig .tc) (h13 : r ∉ hostOps13_W) (h13' : r ∉ hostOps13_1_W) (h97 : r ≠ main_v97) :
    U29 m L c r = U26 m L c r :=
  (U29_of_ne m L c r h97).trans <| (U28_of m L c r h13').trans (U27_of m L c r h13)

/-- At the end every buffer holds what the generic chain of items says. -/
theorem U32_eq_V32 (c : Dev nD) (r : Ref sig .tc) : U32 m L c r = V32 m (outs m L) c r := by rw [V32_eq]

theorem U26_arg4 (c : Dev nD) : U26 m L c main_arg4 = m ((c : Thread nD τ).loc main_arg4) :=
  (U32_of_U26 m L c main_arg4 (by decide) (by decide) (by decide) (by decide) (by decide) (by decide)).symm.trans
    ((U32_eq_V32 m L c main_arg4).trans (V32_main_arg4 m (outs m L) c))
theorem U26_arg13 (c : Dev nD) : U26 m L c main_arg13 = m ((c : Thread nD τ).loc main_arg13) :=
  (U32_of_U26 m L c main_arg13 (by decide) (by decide) (by decide) (by decide) (by decide) (by decide)).symm.trans
    ((U32_eq_V32 m L c main_arg13).trans (V32_main_arg13 m (outs m L) c))
theorem U26_arg14 (c : Dev nD) : U26 m L c main_arg14 = m ((c : Thread nD τ).loc main_arg14) :=
  (U32_of_U26 m L c main_arg14 (by decide) (by decide) (by decide) (by decide) (by decide) (by decide)).symm.trans
    ((U32_eq_V32 m L c main_arg14).trans (V32_main_arg14 m (outs m L) c))
theorem U26_arg15 (c : Dev nD) : U26 m L c main_arg15 = m ((c : Thread nD τ).loc main_arg15) :=
  (U32_of_U26 m L c main_arg15 (by decide) (by decide) (by decide) (by decide) (by decide) (by decide)).symm.trans
    ((U32_eq_V32 m L c main_arg15).trans (V32_main_arg15 m (outs m L) c))
theorem U26_arg16 (c : Dev nD) : U26 m L c main_arg16 = m ((c : Thread nD τ).loc main_arg16) :=
  (U32_of_U26 m L c main_arg16 (by decide) (by decide) (by decide) (by decide) (by decide) (by decide)).symm.trans
    ((U32_eq_V32 m L c main_arg16).trans (V32_main_arg16 m (outs m L) c))

section
variable (c : Dev nD) (x0 : (⟨Cert.ReferenceIdeal.S6144x256, .f32⟩ : BufTy).Contents (Elt Ideal)) (x1 : (⟨Cert.ReferenceIdeal.S6144x6144, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x4 : (⟨Cert.ReferenceIdeal.S12288x3, .i32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal)) (x13 : (⟨Cert.ReferenceIdeal.S256x512, .f32⟩ : BufTy).Contents (Elt Ideal)) (x14 : (⟨Cert.ReferenceIdeal.S256, .f32⟩ : BufTy).Contents (Elt Ideal)) (x15 : (⟨Cert.ReferenceIdeal.S256x512, .f32⟩ : BufTy).Contents (Elt Ideal)) (x16 : (⟨Cert.ReferenceIdeal.S256, .f32⟩ : BufTy).Contents (Elt Ideal))
variable (e3 : x3 = m ((c : Thread nD τ).loc main_arg3)) (e4 : x4 = m ((c : Thread nD τ).loc main_arg4))
  (e13 : x13 = m ((c : Thread nD τ).loc main_arg13)) (e14 : x14 = m ((c : Thread nD τ).loc main_arg14))
  (e15 : x15 = m ((c : Thread nD τ).loc main_arg15)) (e16 : x16 = m ((c : Thread nD τ).loc main_arg16))
  (hxp : (U26 m L c main_v39 : (⟨S6144x256, .f32⟩ : BufTy).Contents (Elt Ideal)) = Cert.ReferenceIdeal.Read.val_main_v72 x0 x1 x5 x6 x7 x8)
  (hxd : (U26 m L c main_v75 : (⟨S12288x256, .f32⟩ : BufTy).Contents (Elt Ideal)) = Cert.ReferenceIdeal.Read.val_main_v141 x0 x2 x3 x9 x10 x11 x12)
include e4 hxp hxd

/-- The two face means are equal. -/
theorem faceMean_eq : (U28 m L c main_v89 : (⟨S12288x256, .f32⟩ : BufTy).Contents (Elt Ideal)) = Cert.ReferenceIdeal.Read.val_main_v155 x0 x1 x2 x3 x4 x5 x6 x7 x8 x9 x10 x11 x12 := by
  rw [U28_of m L c main_v89 (by decide), U27_v89, hxp, hxd, U26_arg4, ← e4]
  exact (ref_faceMean x0 x1 x2 x3 x4 x5 x6 x7 x8 x9 x10 x11 x12).symm

include e15 e16 in
/-- The second result: the dual head plus x_d on both sides. -/
theorem out_dual_eq : Cert.ReferenceIdeal.Read.val_main_v172 x0 x1 x2 x3 x4 x5 x6 x7 x8 x9 x10 x11 x12 x15 x16 = (U32 m L c main_v106 : (⟨S12288x256, .f32⟩ : BufTy).Contents (Elt Ideal)) := by
  rw [U32_v106, U31_of m L c main_v96 (by decide), U30_of m L c main_v96 (by decide), U29_of_ne m L c main_v96 (by decide), U28_v96,
    U31_of m L c main_v75 (by decide), U30_of m L c main_v75 (by decide), U29_of_U26 m L c main_v75 (by decide) (by decide) (by decide),
    hxp, hxd, U26_arg4, U26_arg15, U26_arg16, ← e4, ← e15, ← e16, ref_v172, ref_dualHead, ref_faceMean]

include e3 e13 e14 in
/-- The first result: the primal head plus x_p on both sides. -/
theorem out_primal_eq (hL : Is13 L.v13) :
    Cert.ReferenceIdeal.Read.val_main_v171 x0 x1 x2 x3 x4 x5 x6 x7 x8 x9 x10 x11 x12 x13 x14 = (U32 m L c main_v105 : (⟨S6144x256, .f32⟩ : BufTy).Contents (Elt Ideal)) := by
  have hmap := mapped_eq m L hL c x0 x1 x2 x3 x4 x5 x6 x7 x8 x9 x10 x11 x12 e3 (faceMean_eq m L c x0 x1 x2 x3 x4 x5 x6 x7 x8 x9 x10 x11 x12 e4 hxp hxd)
  rw [U32_v105, U31_v104, hmap, U29_of_U26 m L c main_v39 (by decide) (by decide) (by decide),
    U29_of_U26 m L c main_arg13 (by decide) (by decide) (by decide), U29_of_U26 m L c main_arg14 (by decide) (by decide) (by decide),
    U31_of m L c main_v39 (by decide), U30_of m L c main_v39 (by decide), U29_of_U26 m L c main_v39 (by decide) (by decide) (by decide),
    hxp, U26_arg13, U26_arg14, ← e13, ← e14, ref_v171, ref_primalHead]
end

/-- Equal streams after the last layer give equal results: the reference's eight results are what the kernel program's
    eight result buffers hold at the end. -/
theorem results_eq (hL : Good L) (c : Dev nD) (x0 : (⟨Cert.ReferenceIdeal.S6144x256, .f32⟩ : BufTy).Contents (Elt Ideal)) (x1 : (⟨Cert.ReferenceIdeal.S6144x6144, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x4 : (⟨Cert.ReferenceIdeal.S12288x3, .i32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal)) (x13 : (⟨Cert.ReferenceIdeal.S256x512, .f32⟩ : BufTy).Contents (Elt Ideal)) (x14 : (⟨Cert.ReferenceIdeal.S256, .f32⟩ : BufTy).Contents (Elt Ideal)) (x15 : (⟨Cert.ReferenceIdeal.S256x512, .f32⟩ : BufTy).Contents (Elt Ideal)) (x16 : (⟨Cert.ReferenceIdeal.S256, .f32⟩ : BufTy).Contents (Elt Ideal))
    (e0 : x0 = m ((c : Thread nD τ).loc main_arg0)) (e3 : x3 = m ((c : Thread nD τ).loc main_arg3)) (e4 : x4 = m ((c : Thread nD τ).loc main_arg4))
    (e13 : x13 = m ((c : Thread nD τ).loc main_arg13)) (e14 : x14 = m ((c : Thread nD τ).loc main_arg14))
    (e15 : x15 = m ((c : Thread nD τ).loc main_arg15)) (e16 : x16 = m ((c : Thread nD τ).loc main_arg16))
    (hxp : (U26 m L c main_v39 : (⟨S6144x256, .f32⟩ : BufTy).Contents (Elt Ideal)) = Cert.ReferenceIdeal.Read.val_main_v72 x0 x1 x5 x6 x7 x8)
    (hxd : (U26 m L c main_v75 : (⟨S12288x256, .f32⟩ : BufTy).Contents (Elt Ideal)) = Cert.ReferenceIdeal.Read.val_main_v141 x0 x2 x3 x9 x10 x11 x12)
    (h15 : (U26 m L c main_v15 : (⟨S6144x256, .f32⟩ : BufTy).Contents (Elt Ideal)) = Cert.ReferenceIdeal.Read.val_main_v26 x0 x1 x5 x6 x7 x8)
    (h27 : (U26 m L c main_v27 : (⟨S6144x256, .f32⟩ : BufTy).Contents (Elt Ideal)) = Cert.ReferenceIdeal.Read.val_main_v49 x0 x1 x5 x6 x7 x8)
    (h3 : (U26 m L c main_v3 : (⟨S12288x256, .f32⟩ : BufTy).Contents (Elt Ideal)) = Cert.ReferenceIdeal.Read.val_main_v3 x0 x3)
    (h51 : (U26 m L c main_v51 : (⟨S12288x256, .f32⟩ : BufTy).Contents (Elt Ideal)) = Cert.ReferenceIdeal.Read.val_main_v95 x0 x2 x3 x9 x10 x11 x12)
    (h63 : (U26 m L c main_v63 : (⟨S12288x256, .f32⟩ : BufTy).Contents (Elt Ideal)) = Cert.ReferenceIdeal.Read.val_main_v118 x0 x2 x3 x9 x10 x11 x12) :
    Cert.ReferenceIdeal.Read.val_main_v171 x0 x1 x2 x3 x4 x5 x6 x7 x8 x9 x10 x11 x12 x13 x14 = (U32 m L c main_v105 : (⟨S6144x256, .f32⟩ : BufTy).Contents (Elt Ideal))
    ∧ Cert.ReferenceIdeal.Read.val_main_v172 x0 x1 x2 x3 x4 x5 x6 x7 x8 x9 x10 x11 x12 x15 x16 = (U32 m L c main_v106 : (⟨S12288x256, .f32⟩ : BufTy).Contents (Elt Ideal))
    ∧ x0 = (U32 m L c main_arg0 : (⟨S6144x256, .f32⟩ : BufTy).Contents (Elt Ideal))
    ∧ Cert.ReferenceIdeal.Read.val_main_v26 x0 x1 x5 x6 x7 x8 = (U32 m L c main_v15 : (⟨S6144x256, .f32⟩ : BufTy).Contents (Elt Ideal))
    ∧ Cert.ReferenceIdeal.Read.val_main_v49 x0 x1 x5 x6 x7 x8 = (U32 m L c main_v27 : (⟨S6144x256, .f32⟩ : BufTy).Contents (Elt Ideal))
    ∧ Cert.ReferenceIdeal.Read.val_main_v3 x0 x3 = (U32 m L c main_v3 : (⟨S12288x256, .f32⟩ : BufTy).Contents (Elt Ideal))
    ∧ Cert.ReferenceIdeal.Read.val_main_v95 x0 x2 x3 x9 x10 x11 x12 = (U32 m L c main_v51 : (⟨S12288x256, .f32⟩ : BufTy).Contents (Elt Ideal))
    ∧ Cert.ReferenceIdeal.Read.val_main_v118 x0 x2 x3 x9 x10 x11 x12 = (U32 m L c main_v63 : (⟨S12288x256, .f32⟩ : BufTy).Contents (Elt Ideal)) := by
  refine ⟨out_primal_eq m L c x0 x1 x2 x3 x4 x5 x6 x7 x8 x9 x10 x11 x12 x13 x14 e3 e4 e13 e14 hxp hxd hL.2.2.2.2.2.2.2.2.2.2.2.2.2,
    out_dual_eq m L c x0 x1 x2 x3 x4 x5 x6 x7 x8 x9 x10 x11 x12 x15 x16 e4 e15 e16 hxp hxd, ?_, ?_, ?_, ?_, ?_, ?_⟩
  · exact e0.trans (((U32_eq_V32 m L c main_arg0).trans (V32_main_arg0 m (outs m L) c)).symm)
  · exact (h15.symm.trans (U32_of_U26 m L c main_v15 (by decide) (by decide) (by decide) (by decide) (by decide) (by decide)).symm)
  · exact (h27.symm.trans (U32_of_U26 m L c main_v27 (by decide) (by decide) (by decide) (by decide) (by decide) (by decide)).symm)
  · exact (h3.symm.trans (U32_of_U26 m L c main_v3 (by decide) (by decide) (by decide) (by decide) (by decide) (by decide)).symm)
  · exact (h51.symm.trans (U32_of_U26 m L c main_v51 (by decide) (by decide) (by decide) (by decide) (by decide) (by decide)).symm)
  · exact (h63.symm.trans (U32_of_U26 m L c main_v63 (by decide) (by decide) (by decide) (by decide) (by decide) (by decide)).symm)

end Cert.KernelIdeal.Bridge

end
-- ==== Proof.BridgeTailRun.lean ====
/-
  The reference's half of the value claim. The reference's run ends with each of its eight results at a stage of its
  arguments; when the two programs are launched with equal arguments and the layers have been compared (the kernel
  program's two streams and its six intermediate results after the last layer are the reference's stages), those
  stages are what the kernel program's eight result buffers hold at the end.
-/
import proofs.«155206_j89000312308227_2_alg».proof.Proof.BridgeTail
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe
open Idealize.SL Idealize.SL.Sem

variable (m : (ℓ : Loc nD τ sig) → Buf (Elt Ideal) ℓ) (L : LeavesAll Ideal)
variable (m' : (ℓ : Loc Cert.ReferenceIdeal.nD Cert.ReferenceIdeal.τ Cert.ReferenceIdeal.sig) → Buf (Elt Ideal) ℓ)

/-- The two programs are launched with equal arguments on core `c`. -/
def ArgsEq (c : Dev nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- The layers compared on core `c`: after the last layer the kernel program's two streams and its six intermediate
    results are the reference's stages of the reference's arguments. -/
def Streams (c : Dev nD) : Prop :=
  (U26 m L c main_v39 : (⟨S6144x256, .f32⟩ : BufTy).Contents (Elt Ideal)) = Cert.ReferenceIdeal.Read.val_main_v72 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
  ∧ (U26 m L c main_v75 : (⟨S12288x256, .f32⟩ : BufTy).Contents (Elt Ideal)) = Cert.ReferenceIdeal.Read.val_main_v141 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
  ∧ (U26 m L c main_v15 : (⟨S6144x256, .f32⟩ : BufTy).Contents (Elt Ideal)) = Cert.ReferenceIdeal.Read.val_main_v26 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
  ∧ (U26 m L c main_v27 : (⟨S6144x256, .f32⟩ : BufTy).Contents (Elt Ideal)) = Cert.ReferenceIdeal.Read.val_main_v49 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
  ∧ (U26 m L c main_v3 : (⟨S12288x256, .f32⟩ : BufTy).Contents (Elt Ideal)) = Cert.ReferenceIdeal.Read.val_main_v3 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3))
  ∧ (U26 m L c main_v51 : (⟨S12288x256, .f32⟩ : BufTy).Contents (Elt Ideal)) = Cert.ReferenceIdeal.Read.val_main_v95 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
  ∧ (U26 m L c main_v63 : (⟨S12288x256, .f32⟩ : BufTy).Contents (Elt Ideal)) = Cert.ReferenceIdeal.Read.val_main_v118 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))

/-- The reference ends with its eight results equal to the kernel program's eight result buffers at the end, and its
    arguments as launched. -/
theorem ref_run_of (hL : Good L) (g' : Dev Cert.ReferenceIdeal.nD → PrngReg)
    (hargs : ∀ c : Dev nD, ArgsEq m m' c) (hs : ∀ c : Dev nD, Streams m L m' c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = U32 m L c Cert.KernelIdeal.main_v105
          ∧ r.2.mem ((c.tc : Thread Cert.ReferenceIdeal.nD Cert.ReferenceIdeal.τ).loc Cert.ReferenceIdeal.main_v172) = U32 m L c Cert.KernelIdeal.main_v106
          ∧ r.2.mem ((c.tc : Thread Cert.ReferenceIdeal.nD Cert.ReferenceIdeal.τ).loc Cert.ReferenceIdeal.main_arg0) = U32 m L c Cert.KernelIdeal.main_arg0
          ∧ r.2.mem ((c.tc : Thread Cert.ReferenceIdeal.nD Cert.ReferenceIdeal.τ).loc Cert.ReferenceIdeal.main_v26) = U32 m L c Cert.KernelIdeal.main_v15
          ∧ r.2.mem ((c.tc : Thread Cert.ReferenceIdeal.nD Cert.ReferenceIdeal.τ).loc Cert.ReferenceIdeal.main_v49) = U32 m L c Cert.KernelIdeal.main_v27
          ∧ r.2.mem ((c.tc : Thread Cert.ReferenceIdeal.nD Cert.ReferenceIdeal.τ).loc Cert.ReferenceIdeal.main_v3) = U32 m L c Cert.KernelIdeal.main_v3
          ∧ r.2.mem ((c.tc : Thread Cert.ReferenceIdeal.nD Cert.ReferenceIdeal.τ).loc Cert.ReferenceIdeal.main_v95) = U32 m L c Cert.KernelIdeal.main_v51
          ∧ r.2.mem ((c.tc : Thread Cert.ReferenceIdeal.nD Cert.ReferenceIdeal.τ).loc Cert.ReferenceIdeal.main_v118) = U32 m L c Cert.KernelIdeal.main_v63
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run Cert.ReferenceIdeal.defs _ _).mono (fun r h c => by
    obtain ⟨a0, a1, a2, a3, a4, a5, a6, a7, a8, a9, a10, a11, a12, a13, a14, a15, a16⟩ := hargs c
    obtain ⟨hxp, hxd, h15, h27, h3, h51, h63⟩ := hs c
    obtain ⟨r0, r1, r2, r3, r4, r5, r6, r7⟩ := results_eq m L hL c (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
      a0 a3 a4 a13 a14 a15 a16 hxp hxd h15 h27 h3 h51 h63
    obtain ⟨g0, g1, g2, g3, g4, g5, g6, g7, rest⟩ := h c
    exact ⟨g0.trans ((Cert.ReferenceIdeal.Read.val_main_v171_eq m' c).trans r0), g1.trans ((Cert.ReferenceIdeal.Read.val_main_v172_eq m' c).trans r1), g2.trans r2,
      g3.trans ((Cert.ReferenceIdeal.Read.val_main_v26_eq _ _ _ _ _ _).trans r3), g4.trans ((Cert.ReferenceIdeal.Read.val_main_v49_eq m' c).trans r4),
      g5.trans ((Cert.ReferenceIdeal.Read.val_main_v3_eq _ _).trans r5), g6.trans ((Cert.ReferenceIdeal.Read.val_main_v95_eq _ _ _ _ _ _ _).trans r6),
      g7.trans ((Cert.ReferenceIdeal.Read.val_main_v118_eq m' c).trans r7), rest⟩)
    (Cert.ReferenceIdeal.Value.run (F := Ideal) m' g')

end Cert.KernelIdeal.Bridge

end
-- ==== Proof.BridgeKeep.lean ====
/-
  Every item of the program leaves the buffers it does not write: the host stretches (by the list of references each
  writes) and the launches (all but the output array). One lemma per item, for carrying an array's contents along the
  chain of buffer contents.
-/
import proofs.«155206_j89000312308227_2_alg».proof.Proof.Iface

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
variable (m : (ℓ : Loc nD τ sig) → Buf (Elt Ideal) ℓ) (L : LeavesAll Ideal)

/-- The first host stretch leaves every buffer it does not write. -/
theorem U1_keep (c : Dev nD) (r : Ref sig .tc) (h : r ∉ hostOps0_W) : U1 m c r = U0 m c r :=
  StableHlo.after_of_writes_sub hostOps0 _ hostOps0_writes h
/-- Launch 0 leaves every buffer but its output array. -/
theorem U2_keep (c : Dev nD) (r : Ref sig .tc) (h : r ≠ main_v3) : U2 m L c r = U1 m c r := U2_of_ne m L c r h
/-- Host stretch 1 leaves every buffer it does not write. -/
theorem U3_keep (c : Dev nD) (r : Ref sig .tc) (h : r ∉ hostOps1_W) : U3 m L c r = U2 m L c r :=
  StableHlo.after_of_writes_sub hostOps1 _ hostOps1_writes h
/-- Launch 1 leaves every buffer but its output array. -/
theorem U4_keep (c : Dev nD) (r : Ref sig .tc) (h : r ≠ main_v9) : U4 m L c r = U3 m L c r := U4_of_ne m L c r h
/-- Host stretch 2 leaves every buffer it does not write. -/
theorem U5_keep (c : Dev nD) (r : Ref sig .tc) (h : r ∉ hostOps2_W) : U5 m L c r = U4 m L c r :=
  StableHlo.after_of_writes_sub hostOps2 _ hostOps2_writes h
/-- Launch 2 leaves every buffer but its output array. -/
theorem U6_keep (c : Dev nD) (r : Ref sig .tc) (h : r ≠ main_v15) : U6 m L c r = U5 m L c r := U6_of_ne m L c r h
/-- Host stretch 3 leaves every buffer it does not write. -/
theorem U7_keep (c : Dev nD) (r : Ref sig .tc) (h : r ∉ hostOps3_W) : U7 m L c r = U6 m L c r :=
  StableHlo.after_of_writes_sub hostOps3 _ hostOps3_writes h
/-- Launch 3 leaves every buffer but its output array. -/
theorem U8_keep (c : Dev nD) (r : Ref sig .tc) (h : r ≠ main_v21) : U8 m L c r = U7 m L c r := U8_of_ne m L c r h
/-- Host stretch 4 leaves every buffer it does not write. -/
theorem U9_keep (c : Dev nD) (r : Ref sig .tc) (h : r ∉ hostOps4_W) : U9 m L c r = U8 m L c r :=
  StableHlo.after_of_writes_sub hostOps4 _ hostOps4_writes h
/-- Launch 4 leaves every buffer but its output array. -/
theorem U10_keep (c : Dev nD) (r : Ref sig .tc) (h : r ≠ main_v27) : U10 m L c r = U9 m L c r := U10_of_ne m L c r h
/-- Host stretch 5 leaves every buffer it does not write. -/
theorem U11_keep (c : Dev nD) (r : Ref sig .tc) (h : r ∉ hostOps5_W) : U11 m L c r = U10 m L c r :=
  StableHlo.after_of_writes_sub hostOps5 _ hostOps5_writes h
/-- Launch 5 leaves every buffer but its output array. -/
theorem U12_keep (c : Dev nD) (r : Ref sig .tc) (h : r ≠ main_v33) : U12 m L c r = U11 m L c r := U12_of_ne m L c r h
/-- Host stretch 6 leaves every buffer it does not write. -/
theorem U13_keep (c : Dev nD) (r : Ref sig .tc) (h : r ∉ hostOps6_W) : U13 m L c r = U12 m L c r :=
  StableHlo.after_of_writes_sub hostOps6 _ hostOps6_writes h
/-- Launch 6 leaves every buffer but its output array. -/
theorem U14_keep (c : Dev nD) (r : Ref sig .tc) (h : r ≠ main_v39) : U14 m L c r = U13 m L c r := U14_of_ne m L c r h
/-- Host stretch 7 leaves every buffer it does not write. -/
theorem U15_keep (c : Dev nD) (r : Ref sig .tc) (h : r ∉ hostOps7_W) : U15 m L c r = U14 m L c r :=
  StableHlo.after_of_writes_sub hostOps7 _ hostOps7_writes h
/-- Launch 7 leaves every buffer but its output array. -/
theorem U16_keep (c : Dev nD) (r : Ref sig .tc) (h : r ≠ main_v45) : U16 m L c r = U15 m L c r := U16_of_ne m L c r h
/-- Host stretch 8 leaves every buffer it does not write. -/
theorem U17_keep (c : Dev nD) (r : Ref sig .tc) (h : r ∉ hostOps8_W) : U17 m L c r = U16 m L c r :=
  StableHlo.after_of_writes_sub hostOps8 _ hostOps8_writes h
/-- Launch 8 leaves every buffer but its output array. -/
theorem U18_keep (c : Dev nD) (r : Ref sig .tc) (h : r ≠ main_v51) : U18 m L c r = U17 m L c r := U18_of_ne m L c r h
/-- Host stretch 9 leaves every buffer it does not write. -/
theorem U19_keep (c : Dev nD) (r : Ref sig .tc) (h : r ∉ hostOps9_W) : U19 m L c r = U18 m L c r :=
  StableHlo.after_of_writes_sub hostOps9 _ hostOps9_writes h
/-- Launch 9 leaves every buffer but its output array. -/
theorem U20_keep (c : Dev nD) (r : Ref sig .tc) (h : r ≠ main_v57) : U20 m L c r = U19 m L c r := U20_of_ne m L c r h
/-- Host stretch 10 leaves every buffer it does not write. -/
theorem U21_keep (c : Dev nD) (r : Ref sig .tc) (h : r ∉ hostOps10_W) : U21 m L c r = U20 m L c r :=
  StableHlo.after_of_writes_sub hostOps10 _ hostOps10_writes h
/-- Launch 10 leaves every buffer but its output array. -/
theorem U22_keep (c : Dev nD) (r : Ref sig .tc) (h : r ≠ main_v63) : U22 m L c r = U21 m L c r := U22_of_ne m L c r h
/-- Host stretch 11 leaves every buffer it does not write. -/
theorem U23_keep (c : Dev nD) (r : Ref sig .tc) (h : r ∉ hostOps11_W) : U23 m L c r = U22 m L c r :=
  StableHlo.after_of_writes_sub hostOps11 _ hostOps11_writes h
/-- Launch 11 leaves every buffer but its output array. -/
theorem U24_keep (c : Dev nD) (r : Ref sig .tc) (h : r ≠ main_v69) : U24 m L c r = U23 m L c r := U24_of_ne m L c r h
/-- Host stretch 12 leaves every buffer it does not write. -/
theorem U25_keep (c : Dev nD) (r : Ref sig .tc) (h : r ∉ hostOps12_W) : U25 m L c r = U24 m L c r :=
  StableHlo.after_of_writes_sub hostOps12 _ hostOps12_writes h
/-- Launch 12 leaves every buffer but its output array. -/
theorem U26_keep (c : Dev nD) (r : Ref sig .tc) (h : r ≠ main_v75) : U26 m L c r = U25 m L c r := U26_of_ne m L c r h
/-- At launch a buffer holds what the memory holds. -/
theorem U0_eq (c : Dev nD) (r : Ref sig .tc) : U0 m c r = m ((c : Thread nD τ).loc r) := rfl

end Cert.KernelIdeal.Bridge

end
-- ==== Proof.BridgeMath.lean ====
/-
  The four forms a launch leaves, against the reference's stages read one operation at a time: pure statements about
  matrices of extended reals. Each stage is given by its entries; the launch's output is then the last stage, entry by
  entry. Only the commutativity of the product is used (for the scalar factor of the first launch).
-/
import proofs.«155206_j89000312308227_2_alg».proof.Proof.Iface

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators

/-- Two rank-2 indices with the same coordinates are the same index. -/
theorem idx2_ext {n0 n1 : ℕ} (u v : (⟨2, ![n0, n1]⟩ : Shape).Idx) (h0 : u 0 = v 0) (h1 : u 1 = v 1) : u = v := by
  funext a; match a with | ⟨0, _⟩ => exact h0 | ⟨1, _⟩ => exact h1

/-- The scaled transposed product, against the stages transpose, product, scalar broadcast, multiply: the scalar
    multiplies on the other side, and the product of extended reals commutes. -/
theorem init_stage {M K : ℕ} (A : Mat K M) (X : Mat K 256) (out : Mat M 256) (h : InitForm A X out)
    (s0 : Mat M K) (s1 s2 s3 : Mat M 256)
    (h0 : ∀ p f, s0 (ix2 p f) = A (ix2 f p))
    (h1 : ∀ p e, s1 (ix2 p e) = ∑ k : Fin K, s0 (ix2 p k) * X (ix2 k e))
    (h2 : ∀ p e, s2 (ix2 p e) = third)
    (h3 : ∀ p e, s3 (ix2 p e) = s2 (ix2 p e) * s1 (ix2 p e)) : out = s3 := by
  funext i
  obtain ⟨p, e, rfl⟩ : ∃ p e, i = ix2 p e := ⟨i 0, i 1, eq_ix2 i⟩
  rw [h p e, h3, h2, h1, mul_comm]
  simp only [h0]

/-- The projected product, against the stages product, transposed weights, product, bias broadcast, sum. -/
theorem lin_stage {M : ℕ} (A : Mat M M) (X : Mat M 256) (Wm : Mat 256 256) (b : Mat 1 256) (out : Mat M 256)
    (h : LinForm A X Wm b out)
    (s12 s14 s16 s17 : Mat M 256) (s13 : Mat 256 256)
    (h12 : ∀ p d, s12 (ix2 p d) = ∑ k : Fin M, A (ix2 p k) * X (ix2 k d))
    (h13 : ∀ d j, s13 (ix2 d j) = Wm (ix2 j d))
    (h14 : ∀ p j, s14 (ix2 p j) = ∑ k : Fin 256, s12 (ix2 p k) * s13 (ix2 k j))
    (h16 : ∀ p j, s16 (ix2 p j) = b (ix2 0 j))
    (h17 : ∀ p j, s17 (ix2 p j) = s14 (ix2 p j) + s16 (ix2 p j)) : out = s17 := by
  funext i
  obtain ⟨p, j, rfl⟩ : ∃ p j, i = ix2 p j := ⟨i 0, i 1, eq_ix2 i⟩
  rw [h p j, h17, h14, h16]
  simp only [h12, h13]

/-- The joined layer, against the stages product, transposed weights, product, bias broadcast, sum, sum with the first
    skip term, maximum with the zero array, sum with the second skip term. -/
theorem fused_stage {M : ℕ} (A : Mat M M) (X : Mat M 256) (Wm : Mat 256 256) (b : Mat 1 256) (r₁ r₂ out : Mat M 256)
    (h : FusedForm A X Wm b r₁ r₂ out)
    (s18 s20 s22 s23 s24 z s25 s26 : Mat M 256) (s19 : Mat 256 256)
    (h18 : ∀ p d, s18 (ix2 p d) = ∑ k : Fin M, A (ix2 p k) * X (ix2 k d))
    (h19 : ∀ d j, s19 (ix2 d j) = Wm (ix2 j d))
    (h20 : ∀ p j, s20 (ix2 p j) = ∑ k : Fin 256, s18 (ix2 p k) * s19 (ix2 k j))
    (h22 : ∀ p j, s22 (ix2 p j) = b (ix2 0 j))
    (h23 : ∀ p j, s23 (ix2 p j) = s20 (ix2 p j) + s22 (ix2 p j))
    (h24 : ∀ p j, s24 (ix2 p j) = r₁ (ix2 p j) + s23 (ix2 p j))
    (hz : ∀ p j, z (ix2 p j) = 0)
    (h25 : ∀ p j, s25 (ix2 p j) = max (s24 (ix2 p j)) (z (ix2 p j)))
    (h26 : ∀ p j, s26 (ix2 p j) = s25 (ix2 p j) + r₂ (ix2 p j)) : out = s26 := by
  funext i
  obtain ⟨p, j, rfl⟩ : ∃ p j, i = ix2 p j := ⟨i 0, i 1, eq_ix2 i⟩
  rw [h p j, h26, h25, hz, h24, h23, h20, h22]
  simp only [h18, h19]

end Cert.KernelIdeal.Bridge

end
-- ==== Proof.BridgeStreamsD0.lean ====
/-
  Launch 0 against the reference's stages 0 to 3: the transposed adjacency product scaled by one third.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- The transposed adjacency matrix as launch 0 finds it: the argument (the change of float format is the identity). -/
theorem A2_at1 (c : Dev nD) : (U1 m c main_v2 : Mat 6144 12288) = (m ((c : Thread nD τ).loc main_arg3) : Mat 6144 12288) := by
  show (StableHlo.after hostOps0 (U0 m c) main_v2 : Mat 6144 12288) = _
  after_results; rfl
theorem X0_at1 (c : Dev nD) : U1 m c main_arg0 = m ((c : Thread nD τ).loc main_arg0) := by
  rw [U1_keep m c main_arg0 (by decide)]
  rfl

/-- Launch 0 leaves the reference's scaled transposed product (its stage 3). -/
theorem xd0_at2 (hL : Good L) (c : Dev nD) (x0 : (⟨Cert.ReferenceIdeal.S6144x256, .f32⟩ : BufTy).Contents (Elt Ideal)) (x3 : (⟨Cert.ReferenceIdeal.S6144x12288, .f32⟩ : BufTy).Contents (Elt Ideal))
    (e0 : x0 = m ((c : Thread nD τ).loc main_arg0)) (e3 : x3 = m ((c : Thread nD τ).loc main_arg3)) :
    U2 m L c main_v3 = (val_main_v3 (F := Ideal) x0 x3) := by
  rw [U2_out]
  have h : InitForm (M := 12288) (K := 6144) (U1 m c main_v2) (U1 m c main_arg0) (L.v0 (rd (U1 m)) c) := hL.1 (rd (U1 m)) c
  rw [A2_at1 m c, ← e3, X0_at1 m c, ← e0] at h
  refine init_stage _ _ _ h (val_main_v0 (F := Ideal) x3) (val_main_v1 (F := Ideal) x0 x3) (val_main_v2 (F := Ideal)) (val_main_v3 (F := Ideal) x0 x3) ?_ ?_ ?_ ?_
  · intro p f
    rw [val_main_v0_apply, idx2_ext (idx_main_v0 (ix2 p f)) (ix2 f p) rfl rfl]
  · intro p j
    rw [val_main_v1_apply]
    exact Finset.sum_congr rfl fun k _ => by
      rw [idx2_ext (lidx_main_v1 (ix2 p j) k) (ix2 p k) rfl rfl, idx2_ext (ridx_main_v1 (ix2 p j) k) (ix2 k j) rfl rfl]
  · intro p j
    rw [val_main_v2_apply, val_main_cst_apply]
    rfl
  · intro p j; rfl

end Cert.KernelIdeal.Bridge

end
-- ==== Proof.BridgeStreamsP1.lean ====
/-
  The first primal layer: launches 1 and 2 against the reference's stages 12 to 26.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- Host stretch 1: the weight matrix it leaves is the reference's slice-and-reshape of the stacked weights. -/
theorem host1_W (V : Valuation τ sig (Elt Ideal)) :
    StableHlo.after hostOps1 V main_v5 = val_main_v5 (F := Ideal) (V main_arg5) := by
  after_results; rfl
/-- Host stretch 1: the bias row it leaves, read at a column, is the reference's bias vector there. -/
theorem host1_b (V : Valuation τ sig (Elt Ideal)) (j : Fin 256) :
    (StableHlo.after hostOps1 V main_v8 : Mat 1 256) (ix2 0 j) = val_main_v7 (F := Ideal) (V main_arg6) (ix1 j) := by
  have e : StableHlo.after hostOps1 V main_v8 = shapeCast _ (val_main_v7 (F := Ideal) (V main_arg6)) shapeCasts_S256_S1x256 := by
    after_results; rfl
  rw [e]
  exact shapeCast_apply _ _ _ _ (by rw [Shape.rowMajor_val_one, Shape.rowMajor_val_two]; show j.val = 0 * 256 + j.val; omega)
/-- Host stretch 2: the weight matrix it leaves is the reference's slice-and-reshape of the stacked weights. -/
theorem host2_W (V : Valuation τ sig (Elt Ideal)) :
    StableHlo.after hostOps2 V main_v11 = val_main_v9 (F := Ideal) (V main_arg7) := by
  after_results; rfl
/-- Host stretch 2: the bias row it leaves, read at a column, is the reference's bias vector there. -/
theorem host2_b (V : Valuation τ sig (Elt Ideal)) (j : Fin 256) :
    (StableHlo.after hostOps2 V main_v14 : Mat 1 256) (ix2 0 j) = val_main_v11 (F := Ideal) (V main_arg8) (ix1 j) := by
  have e : StableHlo.after hostOps2 V main_v14 = shapeCast _ (val_main_v11 (F := Ideal) (V main_arg8)) shapeCasts_S256_S1x256 := by
    after_results; rfl
  rw [e]
  exact shapeCast_apply _ _ _ _ (by rw [Shape.rowMajor_val_one, Shape.rowMajor_val_two]; show j.val = 0 * 256 + j.val; omega)

/-! ## The arguments and the adjacency matrix as the launches find them -/

theorem U2_arg5 (c : Dev nD) : U2 m L c main_arg5 = m ((c : Thread nD τ).loc main_arg5) := by
  rw [U2_keep m L c main_arg5 (by decide), U1_keep m c main_arg5 (by decide)]
  rfl
theorem U2_arg6 (c : Dev nD) : U2 m L c main_arg6 = m ((c : Thread nD τ).loc main_arg6) := by
  rw [U2_keep m L c main_arg6 (by decide), U1_keep m c main_arg6 (by decide)]
  rfl
theorem U4_arg7 (c : Dev nD) : U4 m L c main_arg7 = m ((c : Thread nD τ).loc main_arg7) := by
  rw [U4_keep m L c main_arg7 (by decide), U3_keep m L c main_arg7 (by decide), U2_keep m L c main_arg7 (by decide), U1_keep m c main_arg7 (by decide)]
  rfl
theorem U4_arg8 (c : Dev nD) : U4 m L c main_arg8 = m ((c : Thread nD τ).loc main_arg8) := by
  rw [U4_keep m L c main_arg8 (by decide), U3_keep m L c main_arg8 (by decide), U2_keep m L c main_arg8 (by decide), U1_keep m c main_arg8 (by decide)]
  rfl
theorem A_at3 (c : Dev nD) : (U3 m L c main_v0 : Mat 6144 6144) = (m ((c : Thread nD τ).loc main_arg1) : Mat 6144 6144) := by
  rw [U3_keep m L c main_v0 (by decide), U2_keep m L c main_v0 (by decide)]
  show (StableHlo.after hostOps0 (U0 m c) main_v0 : Mat 6144 6144) = _
  after_results; rfl
theorem A_at5 (c : Dev nD) : (U5 m L c main_v0 : Mat 6144 6144) = (m ((c : Thread nD τ).loc main_arg1) : Mat 6144 6144) := by
  rw [U5_keep m L c main_v0 (by decide), U4_keep m L c main_v0 (by decide), U3_keep m L c main_v0 (by decide), U2_keep m L c main_v0 (by decide)]
  show (StableHlo.after hostOps0 (U0 m c) main_v0 : Mat 6144 6144) = _
  after_results; rfl

section
variable (c : Dev nD) (x0 : (⟨Cert.ReferenceIdeal.S6144x256, .f32⟩ : BufTy).Contents (Elt Ideal)) (x1 : (⟨Cert.ReferenceIdeal.S6144x6144, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal))
  (e0 : x0 = m ((c : Thread nD τ).loc main_arg0)) (e1 : x1 = m ((c : Thread nD τ).loc main_arg1)) (e5 : x5 = m ((c : Thread nD τ).loc main_arg5)) (e6 : x6 = m ((c : Thread nD τ).loc main_arg6)) (e7 : x7 = m ((c : Thread nD τ).loc main_arg7)) (e8 : x8 = m ((c : Thread nD τ).loc main_arg8))
include e0 e1 e5 e6 e7 e8

theorem W_at3 : U3 m L c main_v5 = val_main_v5 (F := Ideal) x5 := by
  show StableHlo.after hostOps1 (U2 m L c) main_v5 = _
  rw [host1_W, U2_arg5 m L c, ← e5]
theorem Wg_at5 : U5 m L c main_v11 = val_main_v9 (F := Ideal) x7 := by
  show StableHlo.after hostOps2 (U4 m L c) main_v11 = _
  rw [host2_W, U4_arg7 m L c, ← e7]
theorem X_at3 (hX : U2 m L c main_arg0 = x0) : U3 m L c main_arg0 = x0 := by
  rw [U3_keep m L c main_arg0 (by decide)]
  exact hX
theorem X_at5 (hX : U2 m L c main_arg0 = x0) : U5 m L c main_arg0 = x0 := by
  rw [U5_keep m L c main_arg0 (by decide), U4_keep m L c main_arg0 (by decide), U3_keep m L c main_arg0 (by decide)]
  exact hX

/-- Launch 1 leaves the reference's projected product (its stage 17). -/
theorem fc0_eq (hL : Good L) (hX : U2 m L c main_arg0 = x0) :
    U4 m L c main_v9 = (val_main_v17 (F := Ideal) x0 x1 x5 x6) := by
  rw [U4_out]
  have h : LinForm (M := 6144) (K := 6144) (U3 m L c main_v0) (U3 m L c main_arg0) (U3 m L c main_v5) (U3 m L c main_v8) (L.v1 (rd (U3 m L)) c) :=
    hL.2.1 (rd (U3 m L)) c
  rw [A_at3 m L c, ← e1, X_at3 m L c x0 x1 x5 x6 x7 x8 e0 e1 e5 e6 e7 e8 hX, W_at3 m L c x0 x1 x5 x6 x7 x8 e0 e1 e5 e6 e7 e8] at h
  refine lin_stage _ _ _ _ _ h (val_main_v12 (F := Ideal) x0 x1) (val_main_v14 (F := Ideal) x0 x1 x5) (val_main_v16 (F := Ideal) x6) (val_main_v17 (F := Ideal) x0 x1 x5 x6) (val_main_v13 (F := Ideal) x5) ?_ ?_ ?_ ?_ ?_
  ·
    intro p j
    rw [val_main_v12_apply]
    exact Finset.sum_congr rfl fun k _ => by
      rw [idx2_ext (lidx_main_v12 (ix2 p j) k) (ix2 p k) rfl rfl, idx2_ext (ridx_main_v12 (ix2 p j) k) (ix2 k j) rfl rfl]
  ·
    intro d j
    rw [val_main_v13_apply, idx2_ext (idx_main_v13 (ix2 d j)) (ix2 j d) rfl rfl]
  ·
    intro p j
    rw [val_main_v14_apply]
    exact Finset.sum_congr rfl fun k _ => by
      rw [idx2_ext (lidx_main_v14 (ix2 p j) k) (ix2 p k) rfl rfl, idx2_ext (ridx_main_v14 (ix2 p j) k) (ix2 k j) rfl rfl]
  ·
    intro p j
    rw [val_main_v16_apply, val_main_v15_apply]
    show _ = (StableHlo.after hostOps1 (U2 m L c) main_v8 : Mat 1 256) (ix2 0 j)
    rw [host1_b, U2_arg6 m L c, ← e6]
    exact congrArg _ (eq_ix1 _)
  · intro p j; rfl

theorem fc_at5 (hL : Good L) (hX : U2 m L c main_arg0 = x0) : U5 m L c main_v9 = (val_main_v17 (F := Ideal) x0 x1 x5 x6) := by
  rw [U5_keep m L c main_v9 (by decide)]
  exact fc0_eq m L c x0 x1 x5 x6 x7 x8 e0 e1 e5 e6 e7 e8 hL hX

/-- Launch 2 leaves the reference's layer output (its stage 26). -/
theorem out0_eq (hL : Good L) (hX : U2 m L c main_arg0 = x0) :
    U6 m L c main_v15 = (val_main_v26 (F := Ideal) x0 x1 x5 x6 x7 x8) := by
  rw [U6_out]
  have h : FusedForm (M := 6144) (K := 6144) (U5 m L c main_v0) (U5 m L c main_v9) (U5 m L c main_v11) (U5 m L c main_v14) (U5 m L c main_v9) (U5 m L c main_arg0) (L.v2 (rd (U5 m L)) c) :=
    hL.2.2.1 (rd (U5 m L)) c
  rw [A_at5 m L c, ← e1, fc_at5 m L c x0 x1 x5 x6 x7 x8 e0 e1 e5 e6 e7 e8 hL hX, X_at5 m L c x0 x1 x5 x6 x7 x8 e0 e1 e5 e6 e7 e8 hX, Wg_at5 m L c x0 x1 x5 x6 x7 x8 e0 e1 e5 e6 e7 e8] at h
  refine fused_stage _ _ _ _ _ _ _ h (val_main_v18 (F := Ideal) x0 x1 x5 x6) (val_main_v20 (F := Ideal) x0 x1 x5 x6 x7) (val_main_v22 (F := Ideal) x8) (val_main_v23 (F := Ideal) x0 x1 x5 x6 x7 x8) (val_main_v24 (F := Ideal) x0 x1 x5 x6 x7 x8) (val_main_call0_v0 (F := Ideal)) (val_main_v25 (F := Ideal) x0 x1 x5 x6 x7 x8) (val_main_v26 (F := Ideal) x0 x1 x5 x6 x7 x8) (val_main_v19 (F := Ideal) x7) ?_ ?_ ?_ ?_ ?_ ?_ ?_ ?_ ?_
  ·
    intro p j
    rw [val_main_v18_apply]
    exact Finset.sum_congr rfl fun k _ => by
      rw [idx2_ext (lidx_main_v18 (ix2 p j) k) (ix2 p k) rfl rfl, idx2_ext (ridx_main_v18 (ix2 p j) k) (ix2 k j) rfl rfl]
  ·
    intro d j
    rw [val_main_v19_apply, idx2_ext (idx_main_v19 (ix2 d j)) (ix2 j d) rfl rfl]
  ·
    intro p j
    rw [val_main_v20_apply]
    exact Finset.sum_congr rfl fun k _ => by
      rw [idx2_ext (lidx_main_v20 (ix2 p j) k) (ix2 p k) rfl rfl, idx2_ext (ridx_main_v20 (ix2 p j) k) (ix2 k j) rfl rfl]
  ·
    intro p j
    rw [val_main_v22_apply, val_main_v21_apply]
    show _ = (StableHlo.after hostOps2 (U4 m L c) main_v14 : Mat 1 256) (ix2 0 j)
    rw [host2_b, U4_arg8 m L c, ← e8]
    exact congrArg _ (eq_ix1 _)
  · intro p j; rfl
  · intro p j; rfl
  · intro p j
    rw [val_main_call0_v0_apply, val_main_call0_cst_apply]
    exact Idealize.ShloMosaic.Ideal.ofBits_zero_f32
  · intro p j; rfl
  · intro p j; rfl

end

end Cert.KernelIdeal.Bridge

end
-- ==== Proof.BridgeStreamsP2.lean ====
/-
  The second primal layer: launches 3 and 4 against the reference's stages 35 to 49, from a hypothesis on
  the layer's input array.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- Host stretch 3: the weight matrix it leaves is the reference's slice-and-reshape of the stacked weights. -/
theorem host3_W (V : Valuation τ sig (Elt Ideal)) :
    StableHlo.after hostOps3 V main_v17 = val_main_v28 (F := Ideal) (V main_arg5) := by
  after_results; rfl
/-- Host stretch 3: the bias row it leaves, read at a column, is the reference's bias vector there. -/
theorem host3_b (V : Valuation τ sig (Elt Ideal)) (j : Fin 256) :
    (StableHlo.after hostOps3 V main_v20 : Mat 1 256) (ix2 0 j) = val_main_v30 (F := Ideal) (V main_arg6) (ix1 j) := by
  have e : StableHlo.after hostOps3 V main_v20 = shapeCast _ (val_main_v30 (F := Ideal) (V main_arg6)) shapeCasts_S256_S1x256 := by
    after_results; rfl
  rw [e]
  exact shapeCast_apply _ _ _ _ (by rw [Shape.rowMajor_val_one, Shape.rowMajor_val_two]; show j.val = 0 * 256 + j.val; omega)
/-- Host stretch 4: the weight matrix it leaves is the reference's slice-and-reshape of the stacked weights. -/
theorem host4_W (V : Valuation τ sig (Elt Ideal)) :
    StableHlo.after hostOps4 V main_v23 = val_main_v32 (F := Ideal) (V main_arg7) := by
  after_results; rfl
/-- Host stretch 4: the bias row it leaves, read at a column, is the reference's bias vector there. -/
theorem host4_b (V : Valuation τ sig (Elt Ideal)) (j : Fin 256) :
    (StableHlo.after hostOps4 V main_v26 : Mat 1 256) (ix2 0 j) = val_main_v34 (F := Ideal) (V main_arg8) (ix1 j) := by
  have e : StableHlo.after hostOps4 V main_v26 = shapeCast _ (val_main_v34 (F := Ideal) (V main_arg8)) shapeCasts_S256_S1x256 := by
    after_results; rfl
  rw [e]
  exact shapeCast_apply _ _ _ _ (by rw [Shape.rowMajor_val_one, Shape.rowMajor_val_two]; show j.val = 0 * 256 + j.val; omega)

/-! ## The arguments and the adjacency matrix as the launches find them -/

theorem U6_arg5 (c : Dev nD) : U6 m L c main_arg5 = m ((c : Thread nD τ).loc main_arg5) := by
  rw [U6_keep m L c main_arg5 (by decide), U5_keep m L c main_arg5 (by decide), U4_keep m L c main_arg5 (by decide), U3_keep m L c main_arg5 (by decide)]
  rw [U2_keep m L c main_arg5 (by decide), U1_keep m c main_arg5 (by decide)]
  rfl
theorem U6_arg6 (c : Dev nD) : U6 m L c main_arg6 = m ((c : Thread nD τ).loc main_arg6) := by
  rw [U6_keep m L c main_arg6 (by decide), U5_keep m L c main_arg6 (by decide), U4_keep m L c main_arg6 (by decide), U3_keep m L c main_arg6 (by decide)]
  rw [U2_keep m L c main_arg6 (by decide), U1_keep m c main_arg6 (by decide)]
  rfl
theorem U8_arg7 (c : Dev nD) : U8 m L c main_arg7 = m ((c : Thread nD τ).loc main_arg7) := by
  rw [U8_keep m L c main_arg7 (by decide), U7_keep m L c main_arg7 (by decide), U6_keep m L c main_arg7 (by decide), U5_keep m L c main_arg7 (by decide)]
  rw [U4_keep m L c main_arg7 (by decide), U3_keep m L c main_arg7 (by decide), U2_keep m L c main_arg7 (by decide), U1_keep m c main_arg7 (by decide)]
  rfl
theorem U8_arg8 (c : Dev nD) : U8 m L c main_arg8 = m ((c : Thread nD τ).loc main_arg8) := by
  rw [U8_keep m L c main_arg8 (by decide), U7_keep m L c main_arg8 (by decide), U6_keep m L c main_arg8 (by decide), U5_keep m L c main_arg8 (by decide)]
  rw [U4_keep m L c main_arg8 (by decide), U3_keep m L c main_arg8 (by decide), U2_keep m L c main_arg8 (by decide), U1_keep m c main_arg8 (by decide)]
  rfl
theorem A_at7 (c : Dev nD) : (U7 m L c main_v0 : Mat 6144 6144) = (m ((c : Thread nD τ).loc main_arg1) : Mat 6144 6144) := by
  rw [U7_keep m L c main_v0 (by decide), U6_keep m L c main_v0 (by decide), U5_keep m L c main_v0 (by decide), U4_keep m L c main_v0 (by decide)]
  rw [U3_keep m L c main_v0 (by decide), U2_keep m L c main_v0 (by decide)]
  show (StableHlo.after hostOps0 (U0 m c) main_v0 : Mat 6144 6144) = _
  after_results; rfl
theorem A_at9 (c : Dev nD) : (U9 m L c main_v0 : Mat 6144 6144) = (m ((c : Thread nD τ).loc main_arg1) : Mat 6144 6144) := by
  rw [U9_keep m L c main_v0 (by decide), U8_keep m L c main_v0 (by decide), U7_keep m L c main_v0 (by decide), U6_keep m L c main_v0 (by decide)]
  rw [U5_keep m L c main_v0 (by decide), U4_keep m L c main_v0 (by decide), U3_keep m L c main_v0 (by decide), U2_keep m L c main_v0 (by decide)]
  show (StableHlo.after hostOps0 (U0 m c) main_v0 : Mat 6144 6144) = _
  after_results; rfl

section
variable (c : Dev nD) (x0 : (⟨Cert.ReferenceIdeal.S6144x256, .f32⟩ : BufTy).Contents (Elt Ideal)) (x1 : (⟨Cert.ReferenceIdeal.S6144x6144, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal))
  (e0 : x0 = m ((c : Thread nD τ).loc main_arg0)) (e1 : x1 = m ((c : Thread nD τ).loc main_arg1)) (e5 : x5 = m ((c : Thread nD τ).loc main_arg5)) (e6 : x6 = m ((c : Thread nD τ).loc main_arg6)) (e7 : x7 = m ((c : Thread nD τ).loc main_arg7)) (e8 : x8 = m ((c : Thread nD τ).loc main_arg8))
include e0 e1 e5 e6 e7 e8

theorem W_at7 : U7 m L c main_v17 = val_main_v28 (F := Ideal) x5 := by
  show StableHlo.after hostOps3 (U6 m L c) main_v17 = _
  rw [host3_W, U6_arg5 m L c, ← e5]
theorem Wg_at9 : U9 m L c main_v23 = val_main_v32 (F := Ideal) x7 := by
  show StableHlo.after hostOps4 (U8 m L c) main_v23 = _
  rw [host4_W, U8_arg7 m L c, ← e7]
theorem X_at7 (hX : U6 m L c main_v15 = (val_main_v26 (F := Ideal) x0 x1 x5 x6 x7 x8)) : U7 m L c main_v15 = (val_main_v26 (F := Ideal) x0 x1 x5 x6 x7 x8) := by
  rw [U7_keep m L c main_v15 (by decide)]
  exact hX
theorem X_at9 (hX : U6 m L c main_v15 = (val_main_v26 (F := Ideal) x0 x1 x5 x6 x7 x8)) : U9 m L c main_v15 = (val_main_v26 (F := Ideal) x0 x1 x5 x6 x7 x8) := by
  rw [U9_keep m L c main_v15 (by decide), U8_keep m L c main_v15 (by decide), U7_keep m L c main_v15 (by decide)]
  exact hX

/-- Launch 3 leaves the reference's projected product (its stage 40). -/
theorem fc1_eq (hL : Good L) (hX : U6 m L c main_v15 = (val_main_v26 (F := Ideal) x0 x1 x5 x6 x7 x8)) :
    U8 m L c main_v21 = (val_main_v40 (F := Ideal) x0 x1 x5 x6 x7 x8) := by
  rw [U8_out]
  have h : LinForm (M := 6144) (K := 6144) (U7 m L c main_v0) (U7 m L c main_v15) (U7 m L c main_v17) (U7 m L c main_v20) (L.v3 (rd (U7 m L)) c) :=
    hL.2.2.2.1 (rd (U7 m L)) c
  rw [A_at7 m L c, ← e1, X_at7 m L c x0 x1 x5 x6 x7 x8 e0 e1 e5 e6 e7 e8 hX, W_at7 m L c x0 x1 x5 x6 x7 x8 e0 e1 e5 e6 e7 e8] at h
  refine lin_stage _ _ _ _ _ h (val_main_v35 (F := Ideal) x0 x1 x5 x6 x7 x8) (val_main_v37 (F := Ideal) x0 x1 x5 x6 x7 x8) (val_main_v39 (F := Ideal) x6) (val_main_v40 (F := Ideal) x0 x1 x5 x6 x7 x8) (val_main_v36 (F := Ideal) x5) ?_ ?_ ?_ ?_ ?_
  ·
    intro p j
    rw [val_main_v35_apply]
    exact Finset.sum_congr rfl fun k _ => by
      rw [idx2_ext (lidx_main_v35 (ix2 p j) k) (ix2 p k) rfl rfl, idx2_ext (ridx_main_v35 (ix2 p j) k) (ix2 k j) rfl rfl]
  ·
    intro d j
    rw [val_main_v36_apply, idx2_ext (idx_main_v36 (ix2 d j)) (ix2 j d) rfl rfl]
  ·
    intro p j
    rw [val_main_v37_apply]
    exact Finset.sum_congr rfl fun k _ => by
      rw [idx2_ext (lidx_main_v37 (ix2 p j) k) (ix2 p k) rfl rfl, idx2_ext (ridx_main_v37 (ix2 p j) k) (ix2 k j) rfl rfl]
  ·
    intro p j
    rw [val_main_v39_apply, val_main_v38_apply]
    show _ = (StableHlo.after hostOps3 (U6 m L c) main_v20 : Mat 1 256) (ix2 0 j)
    rw [host3_b, U6_arg6 m L c, ← e6]
    exact congrArg _ (eq_ix1 _)
  · intro p j; rfl

theorem fc_at9 (hL : Good L) (hX : U6 m L c main_v15 = (val_main_v26 (F := Ideal) x0 x1 x5 x6 x7 x8)) : U9 m L c main_v21 = (val_main_v40 (F := Ideal) x0 x1 x5 x6 x7 x8) := by
  rw [U9_keep m L c main_v21 (by decide)]
  exact fc1_eq m L c x0 x1 x5 x6 x7 x8 e0 e1 e5 e6 e7 e8 hL hX

/-- Launch 4 leaves the reference's layer output (its stage 49). -/
theorem out1_eq (hL : Good L) (hX : U6 m L c main_v15 = (val_main_v26 (F := Ideal) x0 x1 x5 x6 x7 x8)) :
    U10 m L c main_v27 = (val_main_v49 (F := Ideal) x0 x1 x5 x6 x7 x8) := by
  rw [U10_out]
  have h : FusedForm (M := 6144) (K := 6144) (U9 m L c main_v0) (U9 m L c main_v21) (U9 m L c main_v23) (U9 m L c main_v26) (U9 m L c main_v21) (U9 m L c main_v15) (L.v4 (rd (U9 m L)) c) :=
    hL.2.2.2.2.1 (rd (U9 m L)) c
  rw [A_at9 m L c, ← e1, fc_at9 m L c x0 x1 x5 x6 x7 x8 e0 e1 e5 e6 e7 e8 hL hX, X_at9 m L c x0 x1 x5 x6 x7 x8 e0 e1 e5 e6 e7 e8 hX, Wg_at9 m L c x0 x1 x5 x6 x7 x8 e0 e1 e5 e6 e7 e8] at h
  refine fused_stage _ _ _ _ _ _ _ h (val_main_v41 (F := Ideal) x0 x1 x5 x6 x7 x8) (val_main_v43 (F := Ideal) x0 x1 x5 x6 x7 x8) (val_main_v45 (F := Ideal) x8) (val_main_v46 (F := Ideal) x0 x1 x5 x6 x7 x8) (val_main_v47 (F := Ideal) x0 x1 x5 x6 x7 x8) (val_main_call1_v0 (F := Ideal)) (val_main_v48 (F := Ideal) x0 x1 x5 x6 x7 x8) (val_main_v49 (F := Ideal) x0 x1 x5 x6 x7 x8) (val_main_v42 (F := Ideal) x7) ?_ ?_ ?_ ?_ ?_ ?_ ?_ ?_ ?_
  ·
    intro p j
    rw [val_main_v41_apply]
    exact Finset.sum_congr rfl fun k _ => by
      rw [idx2_ext (lidx_main_v41 (ix2 p j) k) (ix2 p k) rfl rfl, idx2_ext (ridx_main_v41 (ix2 p j) k) (ix2 k j) rfl rfl]
  ·
    intro d j
    rw [val_main_v42_apply, idx2_ext (idx_main_v42 (ix2 d j)) (ix2 j d) rfl rfl]
  ·
    intro p j
    rw [val_main_v43_apply]
    exact Finset.sum_congr rfl fun k _ => by
      rw [idx2_ext (lidx_main_v43 (ix2 p j) k) (ix2 p k) rfl rfl, idx2_ext (ridx_main_v43 (ix2 p j) k) (ix2 k j) rfl rfl]
  ·
    intro p j
    rw [val_main_v45_apply, val_main_v44_apply]
    show _ = (StableHlo.after hostOps4 (U8 m L c) main_v26 : Mat 1 256) (ix2 0 j)
    rw [host4_b, U8_arg8 m L c, ← e8]
    exact congrArg _ (eq_ix1 _)
  · intro p j; rfl
  · intro p j; rfl
  · intro p j
    rw [val_main_call1_v0_apply, val_main_call1_cst_apply]
    exact Idealize.ShloMosaic.Ideal.ofBits_zero_f32
  · intro p j; rfl
  · intro p j; rfl

end

end Cert.KernelIdeal.Bridge

end
-- ==== Proof.BridgeStreamsP3.lean ====
/-
  The third primal layer: launches 5 and 6 against the reference's stages 58 to 72, from a hypothesis on
  the layer's input array.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- Host stretch 5: the weight matrix it leaves is the reference's slice-and-reshape of the stacked weights. -/
theorem host5_W (V : Valuation τ sig (Elt Ideal)) :
    StableHlo.after hostOps5 V main_v29 = val_main_v51 (F := Ideal) (V main_arg5) := by
  after_results; rfl
/-- Host stretch 5: the bias row it leaves, read at a column, is the reference's bias vector there. -/
theorem host5_b (V : Valuation τ sig (Elt Ideal)) (j : Fin 256) :
    (StableHlo.after hostOps5 V main_v32 : Mat 1 256) (ix2 0 j) = val_main_v53 (F := Ideal) (V main_arg6) (ix1 j) := by
  have e : StableHlo.after hostOps5 V main_v32 = shapeCast _ (val_main_v53 (F := Ideal) (V main_arg6)) shapeCasts_S256_S1x256 := by
    after_results; rfl
  rw [e]
  exact shapeCast_apply _ _ _ _ (by rw [Shape.rowMajor_val_one, Shape.rowMajor_val_two]; show j.val = 0 * 256 + j.val; omega)
/-- Host stretch 6: the weight matrix it leaves is the reference's slice-and-reshape of the stacked weights. -/
theorem host6_W (V : Valuation τ sig (Elt Ideal)) :
    StableHlo.after hostOps6 V main_v35 = val_main_v55 (F := Ideal) (V main_arg7) := by
  after_results; rfl
/-- Host stretch 6: the bias row it leaves, read at a column, is the reference's bias vector there. -/
theorem host6_b (V : Valuation τ sig (Elt Ideal)) (j : Fin 256) :
    (StableHlo.after hostOps6 V main_v38 : Mat 1 256) (ix2 0 j) = val_main_v57 (F := Ideal) (V main_arg8) (ix1 j) := by
  have e : StableHlo.after hostOps6 V main_v38 = shapeCast _ (val_main_v57 (F := Ideal) (V main_arg8)) shapeCasts_S256_S1x256 := by
    after_results; rfl
  rw [e]
  exact shapeCast_apply _ _ _ _ (by rw [Shape.rowMajor_val_one, Shape.rowMajor_val_two]; show j.val = 0 * 256 + j.val; omega)

/-! ## The arguments and the adjacency matrix as the launches find them -/

theorem U10_arg5 (c : Dev nD) : U10 m L c main_arg5 = m ((c : Thread nD τ).loc main_arg5) := by
  rw [U10_keep m L c main_arg5 (by decide), U9_keep m L c main_arg5 (by decide), U8_keep m L c main_arg5 (by decide), U7_keep m L c main_arg5 (by decide)]
  rw [U6_keep m L c main_arg5 (by decide), U5_keep m L c main_arg5 (by decide), U4_keep m L c main_arg5 (by decide), U3_keep m L c main_arg5 (by decide)]
  rw [U2_keep m L c main_arg5 (by decide), U1_keep m c main_arg5 (by decide)]
  rfl
theorem U10_arg6 (c : Dev nD) : U10 m L c main_arg6 = m ((c : Thread nD τ).loc main_arg6) := by
  rw [U10_keep m L c main_arg6 (by decide), U9_keep m L c main_arg6 (by decide), U8_keep m L c main_arg6 (by decide), U7_keep m L c main_arg6 (by decide)]
  rw [U6_keep m L c main_arg6 (by decide), U5_keep m L c main_arg6 (by decide), U4_keep m L c main_arg6 (by decide), U3_keep m L c main_arg6 (by decide)]
  rw [U2_keep m L c main_arg6 (by decide), U1_keep m c main_arg6 (by decide)]
  rfl
theorem U12_arg7 (c : Dev nD) : U12 m L c main_arg7 = m ((c : Thread nD τ).loc main_arg7) := by
  rw [U12_keep m L c main_arg7 (by decide), U11_keep m L c main_arg7 (by decide), U10_keep m L c main_arg7 (by decide), U9_keep m L c main_arg7 (by decide)]
  rw [U8_keep m L c main_arg7 (by decide), U7_keep m L c main_arg7 (by decide), U6_keep m L c main_arg7 (by decide), U5_keep m L c main_arg7 (by decide)]
  rw [U4_keep m L c main_arg7 (by decide), U3_keep m L c main_arg7 (by decide), U2_keep m L c main_arg7 (by decide), U1_keep m c main_arg7 (by decide)]
  rfl
theorem U12_arg8 (c : Dev nD) : U12 m L c main_arg8 = m ((c : Thread nD τ).loc main_arg8) := by
  rw [U12_keep m L c main_arg8 (by decide), U11_keep m L c main_arg8 (by decide), U10_keep m L c main_arg8 (by decide), U9_keep m L c main_arg8 (by decide)]
  rw [U8_keep m L c main_arg8 (by decide), U7_keep m L c main_arg8 (by decide), U6_keep m L c main_arg8 (by decide), U5_keep m L c main_arg8 (by decide)]
  rw [U4_keep m L c main_arg8 (by decide), U3_keep m L c main_arg8 (by decide), U2_keep m L c main_arg8 (by decide), U1_keep m c main_arg8 (by decide)]
  rfl
theorem A_at11 (c : Dev nD) : (U11 m L c main_v0 : Mat 6144 6144) = (m ((c : Thread nD τ).loc main_arg1) : Mat 6144 6144) := by
  rw [U11_keep m L c main_v0 (by decide), U10_keep m L c main_v0 (by decide), U9_keep m L c main_v0 (by decide), U8_keep m L c main_v0 (by decide)]
  rw [U7_keep m L c main_v0 (by decide), U6_keep m L c main_v0 (by decide), U5_keep m L c main_v0 (by decide), U4_keep m L c main_v0 (by decide)]
  rw [U3_keep m L c main_v0 (by decide), U2_keep m L c main_v0 (by decide)]
  show (StableHlo.after hostOps0 (U0 m c) main_v0 : Mat 6144 6144) = _
  after_results; rfl
theorem A_at13 (c : Dev nD) : (U13 m L c main_v0 : Mat 6144 6144) = (m ((c : Thread nD τ).loc main_arg1) : Mat 6144 6144) := by
  rw [U13_keep m L c main_v0 (by decide), U12_keep m L c main_v0 (by decide), U11_keep m L c main_v0 (by decide), U10_keep m L c main_v0 (by decide)]
  rw [U9_keep m L c main_v0 (by decide), U8_keep m L c main_v0 (by decide), U7_keep m L c main_v0 (by decide), U6_keep m L c main_v0 (by decide)]
  rw [U5_keep m L c main_v0 (by decide), U4_keep m L c main_v0 (by decide), U3_keep m L c main_v0 (by decide), U2_keep m L c main_v0 (by decide)]
  show (StableHlo.after hostOps0 (U0 m c) main_v0 : Mat 6144 6144) = _
  after_results; rfl

section
variable (c : Dev nD) (x0 : (⟨Cert.ReferenceIdeal.S6144x256, .f32⟩ : BufTy).Contents (Elt Ideal)) (x1 : (⟨Cert.ReferenceIdeal.S6144x6144, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal))
  (e0 : x0 = m ((c : Thread nD τ).loc main_arg0)) (e1 : x1 = m ((c : Thread nD τ).loc main_arg1)) (e5 : x5 = m ((c : Thread nD τ).loc main_arg5)) (e6 : x6 = m ((c : Thread nD τ).loc main_arg6)) (e7 : x7 = m ((c : Thread nD τ).loc main_arg7)) (e8 : x8 = m ((c : Thread nD τ).loc main_arg8))
include e0 e1 e5 e6 e7 e8

theorem W_at11 : U11 m L c main_v29 = val_main_v51 (F := Ideal) x5 := by
  show StableHlo.after hostOps5 (U10 m L c) main_v29 = _
  rw [host5_W, U10_arg5 m L c, ← e5]
theorem Wg_at13 : U13 m L c main_v35 = val_main_v55 (F := Ideal) x7 := by
  show StableHlo.after hostOps6 (U12 m L c) main_v35 = _
  rw [host6_W, U12_arg7 m L c, ← e7]
theorem X_at11 (hX : U10 m L c main_v27 = (val_main_v49 (F := Ideal) x0 x1 x5 x6 x7 x8)) : U11 m L c main_v27 = (val_main_v49 (F := Ideal) x0 x1 x5 x6 x7 x8) := by
  rw [U11_keep m L c main_v27 (by decide)]
  exact hX
theorem X_at13 (hX : U10 m L c main_v27 = (val_main_v49 (F := Ideal) x0 x1 x5 x6 x7 x8)) : U13 m L c main_v27 = (val_main_v49 (F := Ideal) x0 x1 x5 x6 x7 x8) := by
  rw [U13_keep m L c main_v27 (by decide), U12_keep m L c main_v27 (by decide), U11_keep m L c main_v27 (by decide)]
  exact hX

/-- Launch 5 leaves the reference's projected product (its stage 63). -/
theorem fc2_eq (hL : Good L) (hX : U10 m L c main_v27 = (val_main_v49 (F := Ideal) x0 x1 x5 x6 x7 x8)) :
    U12 m L c main_v33 = (val_main_v63 (F := Ideal) x0 x1 x5 x6 x7 x8) := by
  rw [U12_out]
  have h : LinForm (M := 6144) (K := 6144) (U11 m L c main_v0) (U11 m L c main_v27) (U11 m L c main_v29) (U11 m L c main_v32) (L.v5 (rd (U11 m L)) c) :=
    hL.2.2.2.2.2.1 (rd (U11 m L)) c
  rw [A_at11 m L c, ← e1, X_at11 m L c x0 x1 x5 x6 x7 x8 e0 e1 e5 e6 e7 e8 hX, W_at11 m L c x0 x1 x5 x6 x7 x8 e0 e1 e5 e6 e7 e8] at h
  refine lin_stage _ _ _ _ _ h (val_main_v58 (F := Ideal) x0 x1 x5 x6 x7 x8) (val_main_v60 (F := Ideal) x0 x1 x5 x6 x7 x8) (val_main_v62 (F := Ideal) x6) (val_main_v63 (F := Ideal) x0 x1 x5 x6 x7 x8) (val_main_v59 (F := Ideal) x5) ?_ ?_ ?_ ?_ ?_
  ·
    intro p j
    rw [val_main_v58_apply]
    exact Finset.sum_congr rfl fun k _ => by
      rw [idx2_ext (lidx_main_v58 (ix2 p j) k) (ix2 p k) rfl rfl, idx2_ext (ridx_main_v58 (ix2 p j) k) (ix2 k j) rfl rfl]
  ·
    intro d j
    rw [val_main_v59_apply, idx2_ext (idx_main_v59 (ix2 d j)) (ix2 j d) rfl rfl]
  ·
    intro p j
    rw [val_main_v60_apply]
    exact Finset.sum_congr rfl fun k _ => by
      rw [idx2_ext (lidx_main_v60 (ix2 p j) k) (ix2 p k) rfl rfl, idx2_ext (ridx_main_v60 (ix2 p j) k) (ix2 k j) rfl rfl]
  ·
    intro p j
    rw [val_main_v62_apply, val_main_v61_apply]
    show _ = (StableHlo.after hostOps5 (U10 m L c) main_v32 : Mat 1 256) (ix2 0 j)
    rw [host5_b, U10_arg6 m L c, ← e6]
    exact congrArg _ (eq_ix1 _)
  · intro p j; rfl

theorem fc_at13 (hL : Good L) (hX : U10 m L c main_v27 = (val_main_v49 (F := Ideal) x0 x1 x5 x6 x7 x8)) : U13 m L c main_v33 = (val_main_v63 (F := Ideal) x0 x1 x5 x6 x7 x8) := by
  rw [U13_keep m L c main_v33 (by decide)]
  exact fc2_eq m L c x0 x1 x5 x6 x7 x8 e0 e1 e5 e6 e7 e8 hL hX

/-- Launch 6 leaves the reference's layer output (its stage 72). -/
theorem out2_eq (hL : Good L) (hX : U10 m L c main_v27 = (val_main_v49 (F := Ideal) x0 x1 x5 x6 x7 x8)) :
    U14 m L c main_v39 = (val_main_v72 (F := Ideal) x0 x1 x5 x6 x7 x8) := by
  rw [U14_out]
  have h : FusedForm (M := 6144) (K := 6144) (U13 m L c main_v0) (U13 m L c main_v33) (U13 m L c main_v35) (U13 m L c main_v38) (U13 m L c main_v33) (U13 m L c main_v27) (L.v6 (rd (U13 m L)) c) :=
    hL.2.2.2.2.2.2.1 (rd (U13 m L)) c
  rw [A_at13 m L c, ← e1, fc_at13 m L c x0 x1 x5 x6 x7 x8 e0 e1 e5 e6 e7 e8 hL hX, X_at13 m L c x0 x1 x5 x6 x7 x8 e0 e1 e5 e6 e7 e8 hX, Wg_at13 m L c x0 x1 x5 x6 x7 x8 e0 e1 e5 e6 e7 e8] at h
  refine fused_stage _ _ _ _ _ _ _ h (val_main_v64 (F := Ideal) x0 x1 x5 x6 x7 x8) (val_main_v66 (F := Ideal) x0 x1 x5 x6 x7 x8) (val_main_v68 (F := Ideal) x8) (val_main_v69 (F := Ideal) x0 x1 x5 x6 x7 x8) (val_main_v70 (F := Ideal) x0 x1 x5 x6 x7 x8) (val_main_call2_v0 (F := Ideal)) (val_main_v71 (F := Ideal) x0 x1 x5 x6 x7 x8) (val_main_v72 (F := Ideal) x0 x1 x5 x6 x7 x8) (val_main_v65 (F := Ideal) x7) ?_ ?_ ?_ ?_ ?_ ?_ ?_ ?_ ?_
  ·
    intro p j
    rw [val_main_v64_apply]
    exact Finset.sum_congr rfl fun k _ => by
      rw [idx2_ext (lidx_main_v64 (ix2 p j) k) (ix2 p k) rfl rfl, idx2_ext (ridx_main_v64 (ix2 p j) k) (ix2 k j) rfl rfl]
  ·
    intro d j
    rw [val_main_v65_apply, idx2_ext (idx_main_v65 (ix2 d j)) (ix2 j d) rfl rfl]
  ·
    intro p j
    rw [val_main_v66_apply]
    exact Finset.sum_congr rfl fun k _ => by
      rw [idx2_ext (lidx_main_v66 (ix2 p j) k) (ix2 p k) rfl rfl, idx2_ext (ridx_main_v66 (ix2 p j) k) (ix2 k j) rfl rfl]
  ·
    intro p j
    rw [val_main_v68_apply, val_main_v67_apply]
    show _ = (StableHlo.after hostOps6 (U12 m L c) main_v38 : Mat 1 256) (ix2 0 j)
    rw [host6_b, U12_arg8 m L c, ← e8]
    exact congrArg _ (eq_ix1 _)
  · intro p j; rfl
  · intro p j; rfl
  · intro p j
    rw [val_main_call2_v0_apply, val_main_call2_cst_apply]
    exact Idealize.ShloMosaic.Ideal.ofBits_zero_f32
  · intro p j; rfl
  · intro p j; rfl

end

end Cert.KernelIdeal.Bridge

end
-- ==== Proof.BridgeStreamsD1.lean ====
/-
  The first dual layer: launches 7 and 8 against the reference's stages 81 to 95, from a hypothesis on
  the layer's input array.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- Host stretch 7: the weight matrix it leaves is the reference's slice-and-reshape of the stacked weights. -/
theorem host7_W (V : Valuation τ sig (Elt Ideal)) :
    StableHlo.after hostOps7 V main_v41 = val_main_v74 (F := Ideal) (V main_arg9) := by
  after_results; rfl
/-- Host stretch 7: the bias row it leaves, read at a column, is the reference's bias vector there. -/
theorem host7_b (V : Valuation τ sig (Elt Ideal)) (j : Fin 256) :
    (StableHlo.after hostOps7 V main_v44 : Mat 1 256) (ix2 0 j) = val_main_v76 (F := Ideal) (V main_arg10) (ix1 j) := by
  have e : StableHlo.after hostOps7 V main_v44 = shapeCast _ (val_main_v76 (F := Ideal) (V main_arg10)) shapeCasts_S256_S1x256 := by
    after_results; rfl
  rw [e]
  exact shapeCast_apply _ _ _ _ (by rw [Shape.rowMajor_val_one, Shape.rowMajor_val_two]; show j.val = 0 * 256 + j.val; omega)
/-- Host stretch 8: the weight matrix it leaves is the reference's slice-and-reshape of the stacked weights. -/
theorem host8_W (V : Valuation τ sig (Elt Ideal)) :
    StableHlo.after hostOps8 V main_v47 = val_main_v78 (F := Ideal) (V main_arg11) := by
  after_results; rfl
/-- Host stretch 8: the bias row it leaves, read at a column, is the reference's bias vector there. -/
theorem host8_b (V : Valuation τ sig (Elt Ideal)) (j : Fin 256) :
    (StableHlo.after hostOps8 V main_v50 : Mat 1 256) (ix2 0 j) = val_main_v80 (F := Ideal) (V main_arg12) (ix1 j) := by
  have e : StableHlo.after hostOps8 V main_v50 = shapeCast _ (val_main_v80 (F := Ideal) (V main_arg12)) shapeCasts_S256_S1x256 := by
    after_results; rfl
  rw [e]
  exact shapeCast_apply _ _ _ _ (by rw [Shape.rowMajor_val_one, Shape.rowMajor_val_two]; show j.val = 0 * 256 + j.val; omega)

/-! ## The arguments and the adjacency matrix as the launches find them -/

theorem U14_arg9 (c : Dev nD) : U14 m L c main_arg9 = m ((c : Thread nD τ).loc main_arg9) := by
  rw [U14_keep m L c main_arg9 (by decide), U13_keep m L c main_arg9 (by decide), U12_keep m L c main_arg9 (by decide), U11_keep m L c main_arg9 (by decide)]
  rw [U10_keep m L c main_arg9 (by decide), U9_keep m L c main_arg9 (by decide), U8_keep m L c main_arg9 (by decide), U7_keep m L c main_arg9 (by decide)]
  rw [U6_keep m L c main_arg9 (by decide), U5_keep m L c main_arg9 (by decide), U4_keep m L c main_arg9 (by decide), U3_keep m L c main_arg9 (by decide)]
  rw [U2_keep m L c main_arg9 (by decide), U1_keep m c main_arg9 (by decide)]
  rfl
theorem U14_arg10 (c : Dev nD) : U14 m L c main_arg10 = m ((c : Thread nD τ).loc main_arg10) := by
  rw [U14_keep m L c main_arg10 (by decide), U13_keep m L c main_arg10 (by decide), U12_keep m L c main_arg10 (by decide), U11_keep m L c main_arg10 (by decide)]
  rw [U10_keep m L c main_arg10 (by decide), U9_keep m L c main_arg10 (by decide), U8_keep m L c main_arg10 (by decide), U7_keep m L c main_arg10 (by decide)]
  rw [U6_keep m L c main_arg10 (by decide), U5_keep m L c main_arg10 (by decide), U4_keep m L c main_arg10 (by decide), U3_keep m L c main_arg10 (by decide)]
  rw [U2_keep m L c main_arg10 (by decide), U1_keep m c main_arg10 (by decide)]
  rfl
theorem U16_arg11 (c : Dev nD) : U16 m L c main_arg11 = m ((c : Thread nD τ).loc main_arg11) := by
  rw [U16_keep m L c main_arg11 (by decide), U15_keep m L c main_arg11 (by decide), U14_keep m L c main_arg11 (by decide), U13_keep m L c main_arg11 (by decide)]
  rw [U12_keep m L c main_arg11 (by decide), U11_keep m L c main_arg11 (by decide), U10_keep m L c main_arg11 (by decide), U9_keep m L c main_arg11 (by decide)]
  rw [U8_keep m L c main_arg11 (by decide), U7_keep m L c main_arg11 (by decide), U6_keep m L c main_arg11 (by decide), U5_keep m L c main_arg11 (by decide)]
  rw [U4_keep m L c main_arg11 (by decide), U3_keep m L c main_arg11 (by decide), U2_keep m L c main_arg11 (by decide), U1_keep m c main_arg11 (by decide)]
  rfl
theorem U16_arg12 (c : Dev nD) : U16 m L c main_arg12 = m ((c : Thread nD τ).loc main_arg12) := by
  rw [U16_keep m L c main_arg12 (by decide), U15_keep m L c main_arg12 (by decide), U14_keep m L c main_arg12 (by decide), U13_keep m L c main_arg12 (by decide)]
  rw [U12_keep m L c main_arg12 (by decide), U11_keep m L c main_arg12 (by decide), U10_keep m L c main_arg12 (by decide), U9_keep m L c main_arg12 (by decide)]
  rw [U8_keep m L c main_arg12 (by decide), U7_keep m L c main_arg12 (by decide), U6_keep m L c main_arg12 (by decide), U5_keep m L c main_arg12 (by decide)]
  rw [U4_keep m L c main_arg12 (by decide), U3_keep m L c main_arg12 (by decide), U2_keep m L c main_arg12 (by decide), U1_keep m c main_arg12 (by decide)]
  rfl
theorem A_at15 (c : Dev nD) : (U15 m L c main_v1 : Mat 12288 12288) = (m ((c : Thread nD τ).loc main_arg2) : Mat 12288 12288) := by
  rw [U15_keep m L c main_v1 (by decide), U14_keep m L c main_v1 (by decide), U13_keep m L c main_v1 (by decide), U12_keep m L c main_v1 (by decide)]
  rw [U11_keep m L c main_v1 (by decide), U10_keep m L c main_v1 (by decide), U9_keep m L c main_v1 (by decide), U8_keep m L c main_v1 (by decide)]
  rw [U7_keep m L c main_v1 (by decide), U6_keep m L c main_v1 (by decide), U5_keep m L c main_v1 (by decide), U4_keep m L c main_v1 (by decide)]
  rw [U3_keep m L c main_v1 (by decide), U2_keep m L c main_v1 (by decide)]
  show (StableHlo.after hostOps0 (U0 m c) main_v1 : Mat 12288 12288) = _
  after_results; rfl
theorem A_at17 (c : Dev nD) : (U17 m L c main_v1 : Mat 12288 12288) = (m ((c : Thread nD τ).loc main_arg2) : Mat 12288 12288) := by
  rw [U17_keep m L c main_v1 (by decide), U16_keep m L c main_v1 (by decide), U15_keep m L c main_v1 (by decide), U14_keep m L c main_v1 (by decide)]
  rw [U13_keep m L c main_v1 (by decide), U12_keep m L c main_v1 (by decide), U11_keep m L c main_v1 (by decide), U10_keep m L c main_v1 (by decide)]
  rw [U9_keep m L c main_v1 (by decide), U8_keep m L c main_v1 (by decide), U7_keep m L c main_v1 (by decide), U6_keep m L c main_v1 (by decide)]
  rw [U5_keep m L c main_v1 (by decide), U4_keep m L c main_v1 (by decide), U3_keep m L c main_v1 (by decide), U2_keep m L c main_v1 (by decide)]
  show (StableHlo.after hostOps0 (U0 m c) main_v1 : Mat 12288 12288) = _
  after_results; rfl

section
variable (c : Dev nD) (x0 : (⟨Cert.ReferenceIdeal.S6144x256, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal))
  (e0 : x0 = m ((c : Thread nD τ).loc main_arg0)) (e2 : x2 = m ((c : Thread nD τ).loc main_arg2)) (e3 : x3 = m ((c : Thread nD τ).loc main_arg3)) (e9 : x9 = m ((c : Thread nD τ).loc main_arg9)) (e10 : x10 = m ((c : Thread nD τ).loc main_arg10)) (e11 : x11 = m ((c : Thread nD τ).loc main_arg11)) (e12 : x12 = m ((c : Thread nD τ).loc main_arg12))
include e0 e2 e3 e9 e10 e11 e12

theorem W_at15 : U15 m L c main_v41 = val_main_v74 (F := Ideal) x9 := by
  show StableHlo.after hostOps7 (U14 m L c) main_v41 = _
  rw [host7_W, U14_arg9 m L c, ← e9]
theorem Wg_at17 : U17 m L c main_v47 = val_main_v78 (F := Ideal) x11 := by
  show StableHlo.after hostOps8 (U16 m L c) main_v47 = _
  rw [host8_W, U16_arg11 m L c, ← e11]
theorem X_at15 (hX : U14 m L c main_v3 = (val_main_v3 (F := Ideal) x0 x3)) : U15 m L c main_v3 = (val_main_v3 (F := Ideal) x0 x3) := by
  rw [U15_keep m L c main_v3 (by decide)]
  exact hX
theorem X_at17 (hX : U14 m L c main_v3 = (val_main_v3 (F := Ideal) x0 x3)) : U17 m L c main_v3 = (val_main_v3 (F := Ideal) x0 x3) := by
  rw [U17_keep m L c main_v3 (by decide), U16_keep m L c main_v3 (by decide), U15_keep m L c main_v3 (by decide)]
  exact hX

/-- Launch 7 leaves the reference's projected product (its stage 86). -/
theorem fc3_eq (hL : Good L) (hX : U14 m L c main_v3 = (val_main_v3 (F := Ideal) x0 x3)) :
    U16 m L c main_v45 = (val_main_v86 (F := Ideal) x0 x2 x3 x9 x10) := by
  rw [U16_out]
  have h : LinForm (M := 12288) (K := 12288) (U15 m L c main_v1) (U15 m L c main_v3) (U15 m L c main_v41) (U15 m L c main_v44) (L.v7 (rd (U15 m L)) c) :=
    hL.2.2.2.2.2.2.2.1 (rd (U15 m L)) c
  rw [A_at15 m L c, ← e2, X_at15 m L c x0 x2 x3 x9 x10 x11 x12 e0 e2 e3 e9 e10 e11 e12 hX, W_at15 m L c x0 x2 x3 x9 x10 x11 x12 e0 e2 e3 e9 e10 e11 e12] at h
  refine lin_stage _ _ _ _ _ h (val_main_v81 (F := Ideal) x0 x2 x3) (val_main_v83 (F := Ideal) x0 x2 x3 x9) (val_main_v85 (F := Ideal) x10) (val_main_v86 (F := Ideal) x0 x2 x3 x9 x10) (val_main_v82 (F := Ideal) x9) ?_ ?_ ?_ ?_ ?_
  ·
    intro p j
    rw [val_main_v81_apply]
    exact Finset.sum_congr rfl fun k _ => by
      rw [idx2_ext (lidx_main_v81 (ix2 p j) k) (ix2 p k) rfl rfl, idx2_ext (ridx_main_v81 (ix2 p j) k) (ix2 k j) rfl rfl]
  ·
    intro d j
    rw [val_main_v82_apply, idx2_ext (idx_main_v82 (ix2 d j)) (ix2 j d) rfl rfl]
  ·
    intro p j
    rw [val_main_v83_apply]
    exact Finset.sum_congr rfl fun k _ => by
      rw [idx2_ext (lidx_main_v83 (ix2 p j) k) (ix2 p k) rfl rfl, idx2_ext (ridx_main_v83 (ix2 p j) k) (ix2 k j) rfl rfl]
  ·
    intro p j
    rw [val_main_v85_apply, val_main_v84_apply]
    show _ = (StableHlo.after hostOps7 (U14 m L c) main_v44 : Mat 1 256) (ix2 0 j)
    rw [host7_b, U14_arg10 m L c, ← e10]
    exact congrArg _ (eq_ix1 _)
  · intro p j; rfl

theorem fc_at17 (hL : Good L) (hX : U14 m L c main_v3 = (val_main_v3 (F := Ideal) x0 x3)) : U17 m L c main_v45 = (val_main_v86 (F := Ideal) x0 x2 x3 x9 x10) := by
  rw [U17_keep m L c main_v45 (by decide)]
  exact fc3_eq m L c x0 x2 x3 x9 x10 x11 x12 e0 e2 e3 e9 e10 e11 e12 hL hX

/-- Launch 8 leaves the reference's layer output (its stage 95). -/
theorem out3_eq (hL : Good L) (hX : U14 m L c main_v3 = (val_main_v3 (F := Ideal) x0 x3)) :
    U18 m L c main_v51 = (val_main_v95 (F := Ideal) x0 x2 x3 x9 x10 x11 x12) := by
  rw [U18_out]
  have h : FusedForm (M := 12288) (K := 12288) (U17 m L c main_v1) (U17 m L c main_v45) (U17 m L c main_v47) (U17 m L c main_v50) (U17 m L c main_v45) (U17 m L c main_v3) (L.v8 (rd (U17 m L)) c) :=
    hL.2.2.2.2.2.2.2.2.1 (rd (U17 m L)) c
  rw [A_at17 m L c, ← e2, fc_at17 m L c x0 x2 x3 x9 x10 x11 x12 e0 e2 e3 e9 e10 e11 e12 hL hX, X_at17 m L c x0 x2 x3 x9 x10 x11 x12 e0 e2 e3 e9 e10 e11 e12 hX, Wg_at17 m L c x0 x2 x3 x9 x10 x11 x12 e0 e2 e3 e9 e10 e11 e12] at h
  refine fused_stage _ _ _ _ _ _ _ h (val_main_v87 (F := Ideal) x0 x2 x3 x9 x10) (val_main_v89 (F := Ideal) x0 x2 x3 x9 x10 x11) (val_main_v91 (F := Ideal) x12) (val_main_v92 (F := Ideal) x0 x2 x3 x9 x10 x11 x12) (val_main_v93 (F := Ideal) x0 x2 x3 x9 x10 x11 x12) (val_main_call3_v0 (F := Ideal)) (val_main_v94 (F := Ideal) x0 x2 x3 x9 x10 x11 x12) (val_main_v95 (F := Ideal) x0 x2 x3 x9 x10 x11 x12) (val_main_v88 (F := Ideal) x11) ?_ ?_ ?_ ?_ ?_ ?_ ?_ ?_ ?_
  ·
    intro p j
    rw [val_main_v87_apply]
    exact Finset.sum_congr rfl fun k _ => by
      rw [idx2_ext (lidx_main_v87 (ix2 p j) k) (ix2 p k) rfl rfl, idx2_ext (ridx_main_v87 (ix2 p j) k) (ix2 k j) rfl rfl]
  ·
    intro d j
    rw [val_main_v88_apply, idx2_ext (idx_main_v88 (ix2 d j)) (ix2 j d) rfl rfl]
  ·
    intro p j
    rw [val_main_v89_apply]
    exact Finset.sum_congr rfl fun k _ => by
      rw [idx2_ext (lidx_main_v89 (ix2 p j) k) (ix2 p k) rfl rfl, idx2_ext (ridx_main_v89 (ix2 p j) k) (ix2 k j) rfl rfl]
  ·
    intro p j
    rw [val_main_v91_apply, val_main_v90_apply]
    show _ = (StableHlo.after hostOps8 (U16 m L c) main_v50 : Mat 1 256) (ix2 0 j)
    rw [host8_b, U16_arg12 m L c, ← e12]
    exact congrArg _ (eq_ix1 _)
  · intro p j; rfl
  · intro p j; rfl
  · intro p j
    rw [val_main_call3_v0_apply, val_main_call3_cst_apply]
    exact Idealize.ShloMosaic.Ideal.ofBits_zero_f32
  · intro p j; rfl
  · intro p j; rfl

end

end Cert.KernelIdeal.Bridge

end
-- ==== Proof.BridgeStreamsD2.lean ====
/-
  The second dual layer: launches 9 and 10 against the reference's stages 104 to 118, from a hypothesis on
  the layer's input array.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- Host stretch 9: the weight matrix it leaves is the reference's slice-and-reshape of the stacked weights. -/
theorem host9_W (V : Valuation τ sig (Elt Ideal)) :
    StableHlo.after hostOps9 V main_v53 = val_main_v97 (F := Ideal) (V main_arg9) := by
  after_results; rfl
/-- Host stretch 9: the bias row it leaves, read at a column, is the reference's bias vector there. -/
theorem host9_b (V : Valuation τ sig (Elt Ideal)) (j : Fin 256) :
    (StableHlo.after hostOps9 V main_v56 : Mat 1 256) (ix2 0 j) = val_main_v99 (F := Ideal) (V main_arg10) (ix1 j) := by
  have e : StableHlo.after hostOps9 V main_v56 = shapeCast _ (val_main_v99 (F := Ideal) (V main_arg10)) shapeCasts_S256_S1x256 := by
    after_results; rfl
  rw [e]
  exact shapeCast_apply _ _ _ _ (by rw [Shape.rowMajor_val_one, Shape.rowMajor_val_two]; show j.val = 0 * 256 + j.val; omega)
/-- Host stretch 10: the weight matrix it leaves is the reference's slice-and-reshape of the stacked weights. -/
theorem host10_W (V : Valuation τ sig (Elt Ideal)) :
    StableHlo.after hostOps10 V main_v59 = val_main_v101 (F := Ideal) (V main_arg11) := by
  after_results; rfl
/-- Host stretch 10: the bias row it leaves, read at a column, is the reference's bias vector there. -/
theorem host10_b (V : Valuation τ sig (Elt Ideal)) (j : Fin 256) :
    (StableHlo.after hostOps10 V main_v62 : Mat 1 256) (ix2 0 j) = val_main_v103 (F := Ideal) (V main_arg12) (ix1 j) := by
  have e : StableHlo.after hostOps10 V main_v62 = shapeCast _ (val_main_v103 (F := Ideal) (V main_arg12)) shapeCasts_S256_S1x256 := by
    after_results; rfl
  rw [e]
  exact shapeCast_apply _ _ _ _ (by rw [Shape.rowMajor_val_one, Shape.rowMajor_val_two]; show j.val = 0 * 256 + j.val; omega)

/-! ## The arguments and the adjacency matrix as the launches find them -/

theorem U18_arg9 (c : Dev nD) : U18 m L c main_arg9 = m ((c : Thread nD τ).loc main_arg9) := by
  rw [U18_keep m L c main_arg9 (by decide), U17_keep m L c main_arg9 (by decide), U16_keep m L c main_arg9 (by decide), U15_keep m L c main_arg9 (by decide)]
  rw [U14_keep m L c main_arg9 (by decide), U13_keep m L c main_arg9 (by decide), U12_keep m L c main_arg9 (by decide), U11_keep m L c main_arg9 (by decide)]
  rw [U10_keep m L c main_arg9 (by decide), U9_keep m L c main_arg9 (by decide), U8_keep m L c main_arg9 (by decide), U7_keep m L c main_arg9 (by decide)]
  rw [U6_keep m L c main_arg9 (by decide), U5_keep m L c main_arg9 (by decide), U4_keep m L c main_arg9 (by decide), U3_keep m L c main_arg9 (by decide)]
  rw [U2_keep m L c main_arg9 (by decide), U1_keep m c main_arg9 (by decide)]
  rfl
theorem U18_arg10 (c : Dev nD) : U18 m L c main_arg10 = m ((c : Thread nD τ).loc main_arg10) := by
  rw [U18_keep m L c main_arg10 (by decide), U17_keep m L c main_arg10 (by decide), U16_keep m L c main_arg10 (by decide), U15_keep m L c main_arg10 (by decide)]
  rw [U14_keep m L c main_arg10 (by decide), U13_keep m L c main_arg10 (by decide), U12_keep m L c main_arg10 (by decide), U11_keep m L c main_arg10 (by decide)]
  rw [U10_keep m L c main_arg10 (by decide), U9_keep m L c main_arg10 (by decide), U8_keep m L c main_arg10 (by decide), U7_keep m L c main_arg10 (by decide)]
  rw [U6_keep m L c main_arg10 (by decide), U5_keep m L c main_arg10 (by decide), U4_keep m L c main_arg10 (by decide), U3_keep m L c main_arg10 (by decide)]
  rw [U2_keep m L c main_arg10 (by decide), U1_keep m c main_arg10 (by decide)]
  rfl
theorem U20_arg11 (c : Dev nD) : U20 m L c main_arg11 = m ((c : Thread nD τ).loc main_arg11) := by
  rw [U20_keep m L c main_arg11 (by decide), U19_keep m L c main_arg11 (by decide), U18_keep m L c main_arg11 (by decide), U17_keep m L c main_arg11 (by decide)]
  rw [U16_keep m L c main_arg11 (by decide), U15_keep m L c main_arg11 (by decide), U14_keep m L c main_arg11 (by decide), U13_keep m L c main_arg11 (by decide)]
  rw [U12_keep m L c main_arg11 (by decide), U11_keep m L c main_arg11 (by decide), U10_keep m L c main_arg11 (by decide), U9_keep m L c main_arg11 (by decide)]
  rw [U8_keep m L c main_arg11 (by decide), U7_keep m L c main_arg11 (by decide), U6_keep m L c main_arg11 (by decide), U5_keep m L c main_arg11 (by decide)]
  rw [U4_keep m L c main_arg11 (by decide), U3_keep m L c main_arg11 (by decide), U2_keep m L c main_arg11 (by decide), U1_keep m c main_arg11 (by decide)]
  rfl
theorem U20_arg12 (c : Dev nD) : U20 m L c main_arg12 = m ((c : Thread nD τ).loc main_arg12) := by
  rw [U20_keep m L c main_arg12 (by decide), U19_keep m L c main_arg12 (by decide), U18_keep m L c main_arg12 (by decide), U17_keep m L c main_arg12 (by decide)]
  rw [U16_keep m L c main_arg12 (by decide), U15_keep m L c main_arg12 (by decide), U14_keep m L c main_arg12 (by decide), U13_keep m L c main_arg12 (by decide)]
  rw [U12_keep m L c main_arg12 (by decide), U11_keep m L c main_arg12 (by decide), U10_keep m L c main_arg12 (by decide), U9_keep m L c main_arg12 (by decide)]
  rw [U8_keep m L c main_arg12 (by decide), U7_keep m L c main_arg12 (by decide), U6_keep m L c main_arg12 (by decide), U5_keep m L c main_arg12 (by decide)]
  rw [U4_keep m L c main_arg12 (by decide), U3_keep m L c main_arg12 (by decide), U2_keep m L c main_arg12 (by decide), U1_keep m c main_arg12 (by decide)]
  rfl
theorem A_at19 (c : Dev nD) : (U19 m L c main_v1 : Mat 12288 12288) = (m ((c : Thread nD τ).loc main_arg2) : Mat 12288 12288) := by
  rw [U19_keep m L c main_v1 (by decide), U18_keep m L c main_v1 (by decide), U17_keep m L c main_v1 (by decide), U16_keep m L c main_v1 (by decide)]
  rw [U15_keep m L c main_v1 (by decide), U14_keep m L c main_v1 (by decide), U13_keep m L c main_v1 (by decide), U12_keep m L c main_v1 (by decide)]
  rw [U11_keep m L c main_v1 (by decide), U10_keep m L c main_v1 (by decide), U9_keep m L c main_v1 (by decide), U8_keep m L c main_v1 (by decide)]
  rw [U7_keep m L c main_v1 (by decide), U6_keep m L c main_v1 (by decide), U5_keep m L c main_v1 (by decide), U4_keep m L c main_v1 (by decide)]
  rw [U3_keep m L c main_v1 (by decide), U2_keep m L c main_v1 (by decide)]
  show (StableHlo.after hostOps0 (U0 m c) main_v1 : Mat 12288 12288) = _
  after_results; rfl
theorem A_at21 (c : Dev nD) : (U21 m L c main_v1 : Mat 12288 12288) = (m ((c : Thread nD τ).loc main_arg2) : Mat 12288 12288) := by
  rw [U21_keep m L c main_v1 (by decide), U20_keep m L c main_v1 (by decide), U19_keep m L c main_v1 (by decide), U18_keep m L c main_v1 (by decide)]
  rw [U17_keep m L c main_v1 (by decide), U16_keep m L c main_v1 (by decide), U15_keep m L c main_v1 (by decide), U14_keep m L c main_v1 (by decide)]
  rw [U13_keep m L c main_v1 (by decide), U12_keep m L c main_v1 (by decide), U11_keep m L c main_v1 (by decide), U10_keep m L c main_v1 (by decide)]
  rw [U9_keep m L c main_v1 (by decide), U8_keep m L c main_v1 (by decide), U7_keep m L c main_v1 (by decide), U6_keep m L c main_v1 (by decide)]
  rw [U5_keep m L c main_v1 (by decide), U4_keep m L c main_v1 (by decide), U3_keep m L c main_v1 (by decide), U2_keep m L c main_v1 (by decide)]
  show (StableHlo.after hostOps0 (U0 m c) main_v1 : Mat 12288 12288) = _
  after_results; rfl

section
variable (c : Dev nD) (x0 : (⟨Cert.ReferenceIdeal.S6144x256, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal))
  (e0 : x0 = m ((c : Thread nD τ).loc main_arg0)) (e2 : x2 = m ((c : Thread nD τ).loc main_arg2)) (e3 : x3 = m ((c : Thread nD τ).loc main_arg3)) (e9 : x9 = m ((c : Thread nD τ).loc main_arg9)) (e10 : x10 = m ((c : Thread nD τ).loc main_arg10)) (e11 : x11 = m ((c : Thread nD τ).loc main_arg11)) (e12 : x12 = m ((c : Thread nD τ).loc main_arg12))
include e0 e2 e3 e9 e10 e11 e12

theorem W_at19 : U19 m L c main_v53 = val_main_v97 (F := Ideal) x9 := by
  show StableHlo.after hostOps9 (U18 m L c) main_v53 = _
  rw [host9_W, U18_arg9 m L c, ← e9]
theorem Wg_at21 : U21 m L c main_v59 = val_main_v101 (F := Ideal) x11 := by
  show StableHlo.after hostOps10 (U20 m L c) main_v59 = _
  rw [host10_W, U20_arg11 m L c, ← e11]
theorem X_at19 (hX : U18 m L c main_v51 = (val_main_v95 (F := Ideal) x0 x2 x3 x9 x10 x11 x12)) : U19 m L c main_v51 = (val_main_v95 (F := Ideal) x0 x2 x3 x9 x10 x11 x12) := by
  rw [U19_keep m L c main_v51 (by decide)]
  exact hX
theorem X_at21 (hX : U18 m L c main_v51 = (val_main_v95 (F := Ideal) x0 x2 x3 x9 x10 x11 x12)) : U21 m L c main_v51 = (val_main_v95 (F := Ideal) x0 x2 x3 x9 x10 x11 x12) := by
  rw [U21_keep m L c main_v51 (by decide), U20_keep m L c main_v51 (by decide), U19_keep m L c main_v51 (by decide)]
  exact hX

/-- Launch 9 leaves the reference's projected product (its stage 109). -/
theorem fc4_eq (hL : Good L) (hX : U18 m L c main_v51 = (val_main_v95 (F := Ideal) x0 x2 x3 x9 x10 x11 x12)) :
    U20 m L c main_v57 = (val_main_v109 (F := Ideal) x0 x2 x3 x9 x10 x11 x12) := by
  rw [U20_out]
  have h : LinForm (M := 12288) (K := 12288) (U19 m L c main_v1) (U19 m L c main_v51) (U19 m L c main_v53) (U19 m L c main_v56) (L.v9 (rd (U19 m L)) c) :=
    hL.2.2.2.2.2.2.2.2.2.1 (rd (U19 m L)) c
  rw [A_at19 m L c, ← e2, X_at19 m L c x0 x2 x3 x9 x10 x11 x12 e0 e2 e3 e9 e10 e11 e12 hX, W_at19 m L c x0 x2 x3 x9 x10 x11 x12 e0 e2 e3 e9 e10 e11 e12] at h
  refine lin_stage _ _ _ _ _ h (val_main_v104 (F := Ideal) x0 x2 x3 x9 x10 x11 x12) (val_main_v106 (F := Ideal) x0 x2 x3 x9 x10 x11 x12) (val_main_v108 (F := Ideal) x10) (val_main_v109 (F := Ideal) x0 x2 x3 x9 x10 x11 x12) (val_main_v105 (F := Ideal) x9) ?_ ?_ ?_ ?_ ?_
  ·
    intro p j
    rw [val_main_v104_apply]
    exact Finset.sum_congr rfl fun k _ => by
      rw [idx2_ext (lidx_main_v104 (ix2 p j) k) (ix2 p k) rfl rfl, idx2_ext (ridx_main_v104 (ix2 p j) k) (ix2 k j) rfl rfl]
  ·
    intro d j
    rw [val_main_v105_apply, idx2_ext (idx_main_v105 (ix2 d j)) (ix2 j d) rfl rfl]
  ·
    intro p j
    rw [val_main_v106_apply]
    exact Finset.sum_congr rfl fun k _ => by
      rw [idx2_ext (lidx_main_v106 (ix2 p j) k) (ix2 p k) rfl rfl, idx2_ext (ridx_main_v106 (ix2 p j) k) (ix2 k j) rfl rfl]
  ·
    intro p j
    rw [val_main_v108_apply, val_main_v107_apply]
    show _ = (StableHlo.after hostOps9 (U18 m L c) main_v56 : Mat 1 256) (ix2 0 j)
    rw [host9_b, U18_arg10 m L c, ← e10]
    exact congrArg _ (eq_ix1 _)
  · intro p j; rfl

theorem fc_at21 (hL : Good L) (hX : U18 m L c main_v51 = (val_main_v95 (F := Ideal) x0 x2 x3 x9 x10 x11 x12)) : U21 m L c main_v57 = (val_main_v109 (F := Ideal) x0 x2 x3 x9 x10 x11 x12) := by
  rw [U21_keep m L c main_v57 (by decide)]
  exact fc4_eq m L c x0 x2 x3 x9 x10 x11 x12 e0 e2 e3 e9 e10 e11 e12 hL hX

/-- Launch 10 leaves the reference's layer output (its stage 118). -/
theorem out4_eq (hL : Good L) (hX : U18 m L c main_v51 = (val_main_v95 (F := Ideal) x0 x2 x3 x9 x10 x11 x12)) :
    U22 m L c main_v63 = (val_main_v118 (F := Ideal) x0 x2 x3 x9 x10 x11 x12) := by
  rw [U22_out]
  have h : FusedForm (M := 12288) (K := 12288) (U21 m L c main_v1) (U21 m L c main_v57) (U21 m L c main_v59) (U21 m L c main_v62) (U21 m L c main_v57) (U21 m L c main_v51) (L.v10 (rd (U21 m L)) c) :=
    hL.2.2.2.2.2.2.2.2.2.2.1 (rd (U21 m L)) c
  rw [A_at21 m L c, ← e2, fc_at21 m L c x0 x2 x3 x9 x10 x11 x12 e0 e2 e3 e9 e10 e11 e12 hL hX, X_at21 m L c x0 x2 x3 x9 x10 x11 x12 e0 e2 e3 e9 e10 e11 e12 hX, Wg_at21 m L c x0 x2 x3 x9 x10 x11 x12 e0 e2 e3 e9 e10 e11 e12] at h
  refine fused_stage _ _ _ _ _ _ _ h (val_main_v110 (F := Ideal) x0 x2 x3 x9 x10 x11 x12) (val_main_v112 (F := Ideal) x0 x2 x3 x9 x10 x11 x12) (val_main_v114 (F := Ideal) x12) (val_main_v115 (F := Ideal) x0 x2 x3 x9 x10 x11 x12) (val_main_v116 (F := Ideal) x0 x2 x3 x9 x10 x11 x12) (val_main_call4_v0 (F := Ideal)) (val_main_v117 (F := Ideal) x0 x2 x3 x9 x10 x11 x12) (val_main_v118 (F := Ideal) x0 x2 x3 x9 x10 x11 x12) (val_main_v111 (F := Ideal) x11) ?_ ?_ ?_ ?_ ?_ ?_ ?_ ?_ ?_
  ·
    intro p j
    rw [val_main_v110_apply]
    exact Finset.sum_congr rfl fun k _ => by
      rw [idx2_ext (lidx_main_v110 (ix2 p j) k) (ix2 p k) rfl rfl, idx2_ext (ridx_main_v110 (ix2 p j) k) (ix2 k j) rfl rfl]
  ·
    intro d j
    rw [val_main_v111_apply, idx2_ext (idx_main_v111 (ix2 d j)) (ix2 j d) rfl rfl]
  ·
    intro p j
    rw [val_main_v112_apply]
    exact Finset.sum_congr rfl fun k _ => by
      rw [idx2_ext (lidx_main_v112 (ix2 p j) k) (ix2 p k) rfl rfl, idx2_ext (ridx_main_v112 (ix2 p j) k) (ix2 k j) rfl rfl]
  ·
    intro p j
    rw [val_main_v114_apply, val_main_v113_apply]
    show _ = (StableHlo.after hostOps10 (U20 m L c) main_v62 : Mat 1 256) (ix2 0 j)
    rw [host10_b, U20_arg12 m L c, ← e12]
    exact congrArg _ (eq_ix1 _)
  · intro p j; rfl
  · intro p j; rfl
  · intro p j
    rw [val_main_call4_v0_apply, val_main_call4_cst_apply]
    exact Idealize.ShloMosaic.Ideal.ofBits_zero_f32
  · intro p j; rfl
  · intro p j; rfl

end

end Cert.KernelIdeal.Bridge

end
-- ==== Proof.BridgeStreamsD3.lean ====
/-
  The third dual layer: launches 11 and 12 against the reference's stages 127 to 141, from a hypothesis on
  the layer's input array.
-/
import proofs.«155206_j89000312308227_2_alg».proof.Proof.BridgeKeep
import proofs.«155206_j89000312308227_2_alg».proof.Proof.BridgeMath
import proofs.«155206_j89000312308227_2_alg».proof.Proof.RefRead

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-- Host stretch 11: the weight matrix it leaves is the reference's slice-and-reshape of the stacked weights. -/
theorem host11_W (V : Valuation τ sig (Elt Ideal)) :
    StableHlo.after hostOps11 V main_v65 = val_main_v120 (F := Ideal) (V main_arg9) := by
  after_results; rfl
/-- Host stretch 11: the bias row it leaves, read at a column, is the reference's bias vector there. -/
theorem host11_b (V : Valuation τ sig (Elt Ideal)) (j : Fin 256) :
    (StableHlo.after hostOps11 V main_v68 : Mat 1 256) (ix2 0 j) = val_main_v122 (F := Ideal) (V main_arg10) (ix1 j) := by
  have e : StableHlo.after hostOps11 V main_v68 = shapeCast _ (val_main_v122 (F := Ideal) (V main_arg10)) shapeCasts_S256_S1x256 := by
    after_results; rfl
  rw [e]
  exact shapeCast_apply _ _ _ _ (by rw [Shape.rowMajor_val_one, Shape.rowMajor_val_two]; show j.val = 0 * 256 + j.val; omega)
/-- Host stretch 12: the weight matrix it leaves is the reference's slice-and-reshape of the stacked weights. -/
theorem host12_W (V : Valuation τ sig (Elt Ideal)) :
    StableHlo.after hostOps12 V main_v71 = val_main_v124 (F := Ideal) (V main_arg11) := by
  after_results; rfl
/-- Host stretch 12: the bias row it leaves, read at a column, is the reference's bias vector there. -/
theorem host12_b (V : Valuation τ sig (Elt Ideal)) (j : Fin 256) :
    (StableHlo.after hostOps12 V main_v74 : Mat 1 256) (ix2 0 j) = val_main_v126 (F := Ideal) (V main_arg12) (ix1 j) := by
  have e : StableHlo.after hostOps12 V main_v74 = shapeCast _ (val_main_v126 (F := Ideal) (V main_arg12)) shapeCasts_S256_S1x256 := by
    after_results; rfl
  rw [e]
  exact shapeCast_apply _ _ _ _ (by rw [Shape.rowMajor_val_one, Shape.rowMajor_val_two]; show j.val = 0 * 256 + j.val; omega)

/-! ## The arguments and the adjacency matrix as the launches find them -/

theorem U22_arg9 (c : Dev nD) : U22 m L c main_arg9 = m ((c : Thread nD τ).loc main_arg9) := by
  rw [U22_keep m L c main_arg9 (by decide), U21_keep m L c main_arg9 (by decide), U20_keep m L c main_arg9 (by decide), U19_keep m L c main_arg9 (by decide)]
  rw [U18_keep m L c main_arg9 (by decide), U17_keep m L c main_arg9 (by decide), U16_keep m L c main_arg9 (by decide), U15_keep m L c main_arg9 (by decide)]
  rw [U14_keep m L c main_arg9 (by decide), U13_keep m L c main_arg9 (by decide), U12_keep m L c main_arg9 (by decide), U11_keep m L c main_arg9 (by decide)]
  rw [U10_keep m L c main_arg9 (by decide), U9_keep m L c main_arg9 (by decide), U8_keep m L c main_arg9 (by decide), U7_keep m L c main_arg9 (by decide)]
  rw [U6_keep m L c main_arg9 (by decide), U5_keep m L c main_arg9 (by decide), U4_keep m L c main_arg9 (by decide), U3_keep m L c main_arg9 (by decide)]
  rw [U2_keep m L c main_arg9 (by decide), U1_keep m c main_arg9 (by decide)]
  rfl
theorem U22_arg10 (c : Dev nD) : U22 m L c main_arg10 = m ((c : Thread nD τ).loc main_arg10) := by
  rw [U22_keep m L c main_arg10 (by decide), U21_keep m L c main_arg10 (by decide), U20_keep m L c main_arg10 (by decide), U19_keep m L c main_arg10 (by decide)]
  rw [U18_keep m L c main_arg10 (by decide), U17_keep m L c main_arg10 (by decide), U16_keep m L c main_arg10 (by decide), U15_keep m L c main_arg10 (by decide)]
  rw [U14_keep m L c main_arg10 (by decide), U13_keep m L c main_arg10 (by decide), U12_keep m L c main_arg10 (by decide), U11_keep m L c main_arg10 (by decide)]
  rw [U10_keep m L c main_arg10 (by decide), U9_keep m L c main_arg10 (by decide), U8_keep m L c main_arg10 (by decide), U7_keep m L c main_arg10 (by decide)]
  rw [U6_keep m L c main_arg10 (by decide), U5_keep m L c main_arg10 (by decide), U4_keep m L c main_arg10 (by decide), U3_keep m L c main_arg10 (by decide)]
  rw [U2_keep m L c main_arg10 (by decide), U1_keep m c main_arg10 (by decide)]
  rfl
theorem U24_arg11 (c : Dev nD) : U24 m L c main_arg11 = m ((c : Thread nD τ).loc main_arg11) := by
  rw [U24_keep m L c main_arg11 (by decide), U23_keep m L c main_arg11 (by decide), U22_keep m L c main_arg11 (by decide), U21_keep m L c main_arg11 (by decide)]
  rw [U20_keep m L c main_arg11 (by decide), U19_keep m L c main_arg11 (by decide), U18_keep m L c main_arg11 (by decide), U17_keep m L c main_arg11 (by decide)]
  rw [U16_keep m L c main_arg11 (by decide), U15_keep m L c main_arg11 (by decide), U14_keep m L c main_arg11 (by decide), U13_keep m L c main_arg11 (by decide)]
  rw [U12_keep m L c main_arg11 (by decide), U11_keep m L c main_arg11 (by decide), U10_keep m L c main_arg11 (by decide), U9_keep m L c main_arg11 (by decide)]
  rw [U8_keep m L c main_arg11 (by decide), U7_keep m L c main_arg11 (by decide), U6_keep m L c main_arg11 (by decide), U5_keep m L c main_arg11 (by decide)]
  rw [U4_keep m L c main_arg11 (by decide), U3_keep m L c main_arg11 (by decide), U2_keep m L c main_arg11 (by decide), U1_keep m c main_arg11 (by decide)]
  rfl
theorem U24_arg12 (c : Dev nD) : U24 m L c main_arg12 = m ((c : Thread nD τ).loc main_arg12) := by
  rw [U24_keep m L c main_arg12 (by decide), U23_keep m L c main_arg12 (by decide), U22_keep m L c main_arg12 (by decide), U21_keep m L c main_arg12 (by decide)]
  rw [U20_keep m L c main_arg12 (by decide), U19_keep m L c main_arg12 (by decide), U18_keep m L c main_arg12 (by decide), U17_keep m L c main_arg12 (by decide)]
  rw [U16_keep m L c main_arg12 (by decide), U15_keep m L c main_arg12 (by decide), U14_keep m L c main_arg12 (by decide), U13_keep m L c main_arg12 (by decide)]
  rw [U12_keep m L c main_arg12 (by decide), U11_keep m L c main_arg12 (by decide), U10_keep m L c main_arg12 (by decide), U9_keep m L c main_arg12 (by decide)]
  rw [U8_keep m L c main_arg12 (by decide), U7_keep m L c main_arg12 (by decide), U6_keep m L c main_arg12 (by decide), U5_keep m L c main_arg12 (by decide)]
  rw [U4_keep m L c main_arg12 (by decide), U3_keep m L c main_arg12 (by decide), U2_keep m L c main_arg12 (by decide), U1_keep m c main_arg12 (by decide)]
  rfl
theorem A_at23 (c : Dev nD) : (U23 m L c main_v1 : Mat 12288 12288) = (m ((c : Thread nD τ).loc main_arg2) : Mat 12288 12288) := by
  rw [U23_keep m L c main_v1 (by decide), U22_keep m L c main_v1 (by decide), U21_keep m L c main_v1 (by decide), U20_keep m L c main_v1 (by decide)]
  rw [U19_keep m L c main_v1 (by decide), U18_keep m L c main_v1 (by decide), U17_keep m L c main_v1 (by decide), U16_keep m L c main_v1 (by decide)]
  rw [U15_keep m L c main_v1 (by decide), U14_keep m L c main_v1 (by decide), U13_keep m L c main_v1 (by decide), U12_keep m L c main_v1 (by decide)]
  rw [U11_keep m L c main_v1 (by decide), U10_keep m L c main_v1 (by decide), U9_keep m L c main_v1 (by decide), U8_keep m L c main_v1 (by decide)]
  rw [U7_keep m L c main_v1 (by decide), U6_keep m L c main_v1 (by decide), U5_keep m L c main_v1 (by decide), U4_keep m L c main_v1 (by decide)]
  rw [U3_keep m L c main_v1 (by decide), U2_keep m L c main_v1 (by decide)]
  show (StableHlo.after hostOps0 (U0 m c) main_v1 : Mat 12288 12288) = _
  after_results; rfl
theorem A_at25 (c : Dev nD) : (U25 m L c main_v1 : Mat 12288 12288) = (m ((c : Thread nD τ).loc main_arg2) : Mat 12288 12288) := by
  rw [U25_keep m L c main_v1 (by decide), U24_keep m L c main_v1 (by decide), U23_keep m L c main_v1 (by decide), U22_keep m L c main_v1 (by decide)]
  rw [U21_keep m L c main_v1 (by decide), U20_keep m L c main_v1 (by decide), U19_keep m L c main_v1 (by decide), U18_keep m L c main_v1 (by decide)]
  rw [U17_keep m L c main_v1 (by decide), U16_keep m L c main_v1 (by decide), U15_keep m L c main_v1 (by decide), U14_keep m L c main_v1 (by decide)]
  rw [U13_keep m L c main_v1 (by decide), U12_keep m L c main_v1 (by decide), U11_keep m L c main_v1 (by decide), U10_keep m L c main_v1 (by decide)]
  rw [U9_keep m L c main_v1 (by decide), U8_keep m L c main_v1 (by decide), U7_keep m L c main_v1 (by decide), U6_keep m L c main_v1 (by decide)]
  rw [U5_keep m L c main_v1 (by decide), U4_keep m L c main_v1 (by decide), U3_keep m L c main_v1 (by decide), U2_keep m L c main_v1 (by decide)]
  show (StableHlo.after hostOps0 (U0 m c) main_v1 : Mat 12288 12288) = _
  after_results; rfl

section
variable (c : Dev nD) (x0 : (⟨Cert.ReferenceIdeal.S6144x256, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal))
  (e0 : x0 = m ((c : Thread nD τ).loc main_arg0)) (e2 : x2 = m ((c : Thread nD τ).loc main_arg2)) (e3 : x3 = m ((c : Thread nD τ).loc main_arg3)) (e9 : x9 = m ((c : Thread nD τ).loc main_arg9)) (e10 : x10 = m ((c : Thread nD τ).loc main_arg10)) (e11 : x11 = m ((c : Thread nD τ).loc main_arg11)) (e12 : x12 = m ((c : Thread nD τ).loc main_arg12))
include e0 e2 e3 e9 e10 e11 e12

theorem W_at23 : U23 m L c main_v65 = val_main_v120 (F := Ideal) x9 := by
  show StableHlo.after hostOps11 (U22 m L c) main_v65 = _
  rw [host11_W, U22_arg9 m L c, ← e9]
theorem Wg_at25 : U25 m L c main_v71 = val_main_v124 (F := Ideal) x11 := by
  show StableHlo.after hostOps12 (U24 m L c) main_v71 = _
  rw [host12_W, U24_arg11 m L c, ← e11]
theorem X_at23 (hX : U22 m L c main_v63 = (val_main_v118 (F := Ideal) x0 x2 x3 x9 x10 x11 x12)) : U23 m L c main_v63 = (val_main_v118 (F := Ideal) x0 x2 x3 x9 x10 x11 x12) := by
  rw [U23_keep m L c main_v63 (by decide)]
  exact hX
theorem X_at25 (hX : U22 m L c main_v63 = (val_main_v118 (F := Ideal) x0 x2 x3 x9 x10 x11 x12)) : U25 m L c main_v63 = (val_main_v118 (F := Ideal) x0 x2 x3 x9 x10 x11 x12) := by
  rw [U25_keep m L c main_v63 (by decide), U24_keep m L c main_v63 (by decide), U23_keep m L c main_v63 (by decide)]
  exact hX

/-- Launch 11 leaves the reference's projected product (its stage 132). -/
theorem fc5_eq (hL : Good L) (hX : U22 m L c main_v63 = (val_main_v118 (F := Ideal) x0 x2 x3 x9 x10 x11 x12)) :
    U24 m L c main_v69 = (val_main_v132 (F := Ideal) x0 x2 x3 x9 x10 x11 x12) := by
  rw [U24_out]
  have h : LinForm (M := 12288) (K := 12288) (U23 m L c main_v1) (U23 m L c main_v63) (U23 m L c main_v65) (U23 m L c main_v68) (L.v11 (rd (U23 m L)) c) :=
    hL.2.2.2.2.2.2.2.2.2.2.2.1 (rd (U23 m L)) c
  rw [A_at23 m L c, ← e2, X_at23 m L c x0 x2 x3 x9 x10 x11 x12 e0 e2 e3 e9 e10 e11 e12 hX, W_at23 m L c x0 x2 x3 x9 x10 x11 x12 e0 e2 e3 e9 e10 e11 e12] at h
  refine lin_stage _ _ _ _ _ h (val_main_v127 (F := Ideal) x0 x2 x3 x9 x10 x11 x12) (val_main_v129 (F := Ideal) x0 x2 x3 x9 x10 x11 x12) (val_main_v131 (F := Ideal) x10) (val_main_v132 (F := Ideal) x0 x2 x3 x9 x10 x11 x12) (val_main_v128 (F := Ideal) x9) ?_ ?_ ?_ ?_ ?_
  ·
    intro p j
    rw [val_main_v127_apply]
    exact Finset.sum_congr rfl fun k _ => by
      rw [idx2_ext (lidx_main_v127 (ix2 p j) k) (ix2 p k) rfl rfl, idx2_ext (ridx_main_v127 (ix2 p j) k) (ix2 k j) rfl rfl]
  ·
    intro d j
    rw [val_main_v128_apply, idx2_ext (idx_main_v128 (ix2 d j)) (ix2 j d) rfl rfl]
  ·
    intro p j
    rw [val_main_v129_apply]
    exact Finset.sum_congr rfl fun k _ => by
      rw [idx2_ext (lidx_main_v129 (ix2 p j) k) (ix2 p k) rfl rfl, idx2_ext (ridx_main_v129 (ix2 p j) k) (ix2 k j) rfl rfl]
  ·
    intro p j
    rw [val_main_v131_apply, val_main_v130_apply]
    show _ = (StableHlo.after hostOps11 (U22 m L c) main_v68 : Mat 1 256) (ix2 0 j)
    rw [host11_b, U22_arg10 m L c, ← e10]
    exact congrArg _ (eq_ix1 _)
  · intro p j; rfl

theorem fc_at25 (hL : Good L) (hX : U22 m L c main_v63 = (val_main_v118 (F := Ideal) x0 x2 x3 x9 x10 x11 x12)) : U25 m L c main_v69 = (val_main_v132 (F := Ideal) x0 x2 x3 x9 x10 x11 x12) := by
  rw [U25_keep m L c main_v69 (by decide)]
  exact fc5_eq m L c x0 x2 x3 x9 x10 x11 x12 e0 e2 e3 e9 e10 e11 e12 hL hX

/-- Launch 12 leaves the reference's layer output (its stage 141). -/
theorem out5_eq (hL : Good L) (hX : U22 m L c main_v63 = (val_main_v118 (F := Ideal) x0 x2 x3 x9 x10 x11 x12)) :
    U26 m L c main_v75 = (val_main_v141 (F := Ideal) x0 x2 x3 x9 x10 x11 x12) := by
  rw [U26_out]
  have h : FusedForm (M := 12288) (K := 12288) (U25 m L c main_v1) (U25 m L c main_v69) (U25 m L c main_v71) (U25 m L c main_v74) (U25 m L c main_v69) (U25 m L c main_v63) (L.v12 (rd (U25 m L)) c) :=
    hL.2.2.2.2.2.2.2.2.2.2.2.2.1 (rd (U25 m L)) c
  rw [A_at25 m L c, ← e2, fc_at25 m L c x0 x2 x3 x9 x10 x11 x12 e0 e2 e3 e9 e10 e11 e12 hL hX, X_at25 m L c x0 x2 x3 x9 x10 x11 x12 e0 e2 e3 e9 e10 e11 e12 hX, Wg_at25 m L c x0 x2 x3 x9 x10 x11 x12 e0 e2 e3 e9 e10 e11 e12] at h
  refine fused_stage _ _ _ _ _ _ _ h (val_main_v133 (F := Ideal) x0 x2 x3 x9 x10 x11 x12) (val_main_v135 (F := Ideal) x0 x2 x3 x9 x10 x11 x12) (val_main_v137 (F := Ideal) x12) (val_main_v138 (F := Ideal) x0 x2 x3 x9 x10 x11 x12) (val_main_v139 (F := Ideal) x0 x2 x3 x9 x10 x11 x12) (val_main_call5_v0 (F := Ideal)) (val_main_v140 (F := Ideal) x0 x2 x3 x9 x10 x11 x12) (val_main_v141 (F := Ideal) x0 x2 x3 x9 x10 x11 x12) (val_main_v134 (F := Ideal) x11) ?_ ?_ ?_ ?_ ?_ ?_ ?_ ?_ ?_
  ·
    intro p j
    rw [val_main_v133_apply]
    exact Finset.sum_congr rfl fun k _ => by
      rw [idx2_ext (lidx_main_v133 (ix2 p j) k) (ix2 p k) rfl rfl, idx2_ext (ridx_main_v133 (ix2 p j) k) (ix2 k j) rfl rfl]
  ·
    intro d j
    rw [val_main_v134_apply, idx2_ext (idx_main_v134 (ix2 d j)) (ix2 j d) rfl rfl]
  ·
    intro p j
    rw [val_main_v135_apply]
    exact Finset.sum_congr rfl fun k _ => by
      rw [idx2_ext (lidx_main_v135 (ix2 p j) k) (ix2 p k) rfl rfl, idx2_ext (ridx_main_v135 (ix2 p j) k) (ix2 k j) rfl rfl]
  ·
    intro p j
    rw [val_main_v137_apply, val_main_v136_apply]
    show _ = (StableHlo.after hostOps12 (U24 m L c) main_v74 : Mat 1 256) (ix2 0 j)
    rw [host12_b, U24_arg12 m L c, ← e12]
    exact congrArg _ (eq_ix1 _)
  · intro p j; rfl
  · intro p j; rfl
  · intro p j
    rw [val_main_call5_v0_apply, val_main_call5_cst_apply]
    exact Idealize.ShloMosaic.Ideal.ofBits_zero_f32
  · intro p j; rfl
  · intro p j; rfl

end

end Cert.KernelIdeal.Bridge

end
-- ==== Proof.BridgeStreams.lean ====
/-
  The two layer streams of the kernel program against the reference's: after launch 12 the three primal arrays, the
  dual array launch 0 leaves and the three dual arrays hold the reference's stages 26, 49, 72, 3, 95, 118, 141, as
  functions of the arguments. Each layer is its own module, stated from a hypothesis on its input array; here they are
  chained, and each array is carried to the contents after launch 12 (no later item writes it).
-/
import proofs.«155206_j89000312308227_2_alg».proof.Proof.BridgeStreamsD0
import proofs.«155206_j89000312308227_2_alg».proof.Proof.BridgeStreamsP1
import proofs.«155206_j89000312308227_2_alg».proof.Proof.BridgeStreamsP2
import proofs.«155206_j89000312308227_2_alg».proof.Proof.BridgeStreamsP3
import proofs.«155206_j89000312308227_2_alg».proof.Proof.BridgeStreamsD1
import proofs.«155206_j89000312308227_2_alg».proof.Proof.BridgeStreamsD2
import proofs.«155206_j89000312308227_2_alg».proof.Proof.BridgeStreamsD3

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe Idealize.ShloMosaic.ValueIdx
open Idealize.SL Idealize.SL.Sem
open scoped BigOperators
open Cert.ReferenceIdeal.Read

variable (m : (ℓ : Loc nD τ sig) → Buf (Elt Ideal) ℓ) (L : LeavesAll Ideal)

/-! ## The primal stream -/

section Primal
variable (hL : Good L) (c : Dev nD) (x0 : (⟨Cert.ReferenceIdeal.S6144x256, .f32⟩ : BufTy).Contents (Elt Ideal)) (x1 : (⟨Cert.ReferenceIdeal.S6144x6144, .f32⟩ : BufTy).Contents (Elt Ideal)) (x5 : (⟨Cert.ReferenceIdeal.S3x256x256, .f32⟩ : BufTy).Contents (Elt Ideal)) (x6 : (⟨Cert.ReferenceIdeal.S3x256, .f32⟩ : BufTy).Contents (Elt Ideal)) (x7 : (⟨Cert.ReferenceIdeal.S3x256x256, .f32⟩ : BufTy).Contents (Elt Ideal)) (x8 : (⟨Cert.ReferenceIdeal.S3x256, .f32⟩ : BufTy).Contents (Elt Ideal))
  (e0 : x0 = m ((c : Thread nD τ).loc main_arg0)) (e1 : x1 = m ((c : Thread nD τ).loc main_arg1)) (e5 : x5 = m ((c : Thread nD τ).loc main_arg5)) (e6 : x6 = m ((c : Thread nD τ).loc main_arg6)) (e7 : x7 = m ((c : Thread nD τ).loc main_arg7)) (e8 : x8 = m ((c : Thread nD τ).loc main_arg8))
include hL e0 e1 e5 e6 e7 e8

/-- The first layer's input: the primal features as given. -/
theorem xp0_at2 : U2 m L c main_arg0 = x0 := by
  rw [U2_keep m L c main_arg0 (by decide), U1_keep m c main_arg0 (by decide)]
  exact e0.symm
/-- After launch 2: the primal features after one layer. -/
theorem xp1_at6 : U6 m L c main_v15 = (val_main_v26 (F := Ideal) x0 x1 x5 x6 x7 x8) :=
  out0_eq m L c x0 x1 x5 x6 x7 x8 e0 e1 e5 e6 e7 e8 hL (xp0_at2 m L hL c x0 x1 x5 x6 x7 x8 e0 e1 e5 e6 e7 e8)
/-- After launch 4: after two layers. -/
theorem xp2_at10 : U10 m L c main_v27 = (val_main_v49 (F := Ideal) x0 x1 x5 x6 x7 x8) :=
  out1_eq m L c x0 x1 x5 x6 x7 x8 e0 e1 e5 e6 e7 e8 hL (xp1_at6 m L hL c x0 x1 x5 x6 x7 x8 e0 e1 e5 e6 e7 e8)
/-- After launch 6: after three layers. -/
theorem xp3_at14 : U14 m L c main_v39 = (val_main_v72 (F := Ideal) x0 x1 x5 x6 x7 x8) :=
  out2_eq m L c x0 x1 x5 x6 x7 x8 e0 e1 e5 e6 e7 e8 hL (xp2_at10 m L hL c x0 x1 x5 x6 x7 x8 e0 e1 e5 e6 e7 e8)

/-- The three primal arrays after launch 12 (no later item writes them). -/
theorem xp1_eq : U26 m L c main_v15 = (val_main_v26 (F := Ideal) x0 x1 x5 x6 x7 x8) := by
  rw [U26_keep m L c main_v15 (by decide), U25_keep m L c main_v15 (by decide), U24_keep m L c main_v15 (by decide), U23_keep m L c main_v15 (by decide)]
  rw [U22_keep m L c main_v15 (by decide), U21_keep m L c main_v15 (by decide), U20_keep m L c main_v15 (by decide), U19_keep m L c main_v15 (by decide)]
  rw [U18_keep m L c main_v15 (by decide), U17_keep m L c main_v15 (by decide), U16_keep m L c main_v15 (by decide), U15_keep m L c main_v15 (by decide)]
  rw [U14_keep m L c main_v15 (by decide), U13_keep m L c main_v15 (by decide), U12_keep m L c main_v15 (by decide), U11_keep m L c main_v15 (by decide)]
  rw [U10_keep m L c main_v15 (by decide), U9_keep m L c main_v15 (by decide), U8_keep m L c main_v15 (by decide), U7_keep m L c main_v15 (by decide)]
  exact xp1_at6 m L hL c x0 x1 x5 x6 x7 x8 e0 e1 e5 e6 e7 e8
theorem xp2_eq : U26 m L c main_v27 = (val_main_v49 (F := Ideal) x0 x1 x5 x6 x7 x8) := by
  rw [U26_keep m L c main_v27 (by decide), U25_keep m L c main_v27 (by decide), U24_keep m L c main_v27 (by decide), U23_keep m L c main_v27 (by decide)]
  rw [U22_keep m L c main_v27 (by decide), U21_keep m L c main_v27 (by decide), U20_keep m L c main_v27 (by decide), U19_keep m L c main_v27 (by decide)]
  rw [U18_keep m L c main_v27 (by decide), U17_keep m L c main_v27 (by decide), U16_keep m L c main_v27 (by decide), U15_keep m L c main_v27 (by decide)]
  rw [U14_keep m L c main_v27 (by decide), U13_keep m L c main_v27 (by decide), U12_keep m L c main_v27 (by decide), U11_keep m L c main_v27 (by decide)]
  exact xp2_at10 m L hL c x0 x1 x5 x6 x7 x8 e0 e1 e5 e6 e7 e8
theorem xp3_eq : U26 m L c main_v39 = (val_main_v72 (F := Ideal) x0 x1 x5 x6 x7 x8) := by
  rw [U26_keep m L c main_v39 (by decide), U25_keep m L c main_v39 (by decide), U24_keep m L c main_v39 (by decide), U23_keep m L c main_v39 (by decide)]
  rw [U22_keep m L c main_v39 (by decide), U21_keep m L c main_v39 (by decide), U20_keep m L c main_v39 (by decide), U19_keep m L c main_v39 (by decide)]
  rw [U18_keep m L c main_v39 (by decide), U17_keep m L c main_v39 (by decide), U16_keep m L c main_v39 (by decide), U15_keep m L c main_v39 (by decide)]
  exact xp3_at14 m L hL c x0 x1 x5 x6 x7 x8 e0 e1 e5 e6 e7 e8

end Primal

/-! ## The dual stream -/

section Dual0
variable (hL : Good L) (c : Dev nD) (x0 : (⟨Cert.ReferenceIdeal.S6144x256, .f32⟩ : BufTy).Contents (Elt Ideal)) (x3 : (⟨Cert.ReferenceIdeal.S6144x12288, .f32⟩ : BufTy).Contents (Elt Ideal))
  (e0 : x0 = m ((c : Thread nD τ).loc main_arg0)) (e3 : x3 = m ((c : Thread nD τ).loc main_arg3))
include hL e0 e3

/-- The dual features launch 0 leaves, when the dual layers start (after launch 6). -/
theorem xd0_at14 : U14 m L c main_v3 = (val_main_v3 (F := Ideal) x0 x3) := by
  rw [U14_keep m L c main_v3 (by decide), U13_keep m L c main_v3 (by decide), U12_keep m L c main_v3 (by decide), U11_keep m L c main_v3 (by decide)]
  rw [U10_keep m L c main_v3 (by decide), U9_keep m L c main_v3 (by decide), U8_keep m L c main_v3 (by decide), U7_keep m L c main_v3 (by decide)]
  rw [U6_keep m L c main_v3 (by decide), U5_keep m L c main_v3 (by decide), U4_keep m L c main_v3 (by decide), U3_keep m L c main_v3 (by decide)]
  exact xd0_at2 m L hL c x0 x3 e0 e3
theorem xd0_eq : U26 m L c main_v3 = (val_main_v3 (F := Ideal) x0 x3) := by
  rw [U26_keep m L c main_v3 (by decide), U25_keep m L c main_v3 (by decide), U24_keep m L c main_v3 (by decide), U23_keep m L c main_v3 (by decide)]
  rw [U22_keep m L c main_v3 (by decide), U21_keep m L c main_v3 (by decide), U20_keep m L c main_v3 (by decide), U19_keep m L c main_v3 (by decide)]
  rw [U18_keep m L c main_v3 (by decide), U17_keep m L c main_v3 (by decide), U16_keep m L c main_v3 (by decide), U15_keep m L c main_v3 (by decide)]
  exact xd0_at14 m L hL c x0 x3 e0 e3

end Dual0

section Dual
variable (hL : Good L) (c : Dev nD) (x0 : (⟨Cert.ReferenceIdeal.S6144x256, .f32⟩ : BufTy).Contents (Elt Ideal)) (x2 : (⟨Cert.ReferenceIdeal.S12288x12288, .f32⟩ : BufTy).Contents (Elt Ideal)) (x3 : (⟨Cert.ReferenceIdeal.S6144x12288, .f32⟩ : BufTy).Contents (Elt Ideal)) (x9 : (⟨Cert.ReferenceIdeal.S3x256x256, .f32⟩ : BufTy).Contents (Elt Ideal)) (x10 : (⟨Cert.ReferenceIdeal.S3x256, .f32⟩ : BufTy).Contents (Elt Ideal)) (x11 : (⟨Cert.ReferenceIdeal.S3x256x256, .f32⟩ : BufTy).Contents (Elt Ideal)) (x12 : (⟨Cert.ReferenceIdeal.S3x256, .f32⟩ : BufTy).Contents (Elt Ideal))
  (e0 : x0 = m ((c : Thread nD τ).loc main_arg0)) (e2 : x2 = m ((c : Thread nD τ).loc main_arg2)) (e3 : x3 = m ((c : Thread nD τ).loc main_arg3)) (e9 : x9 = m ((c : Thread nD τ).loc main_arg9)) (e10 : x10 = m ((c : Thread nD τ).loc main_arg10)) (e11 : x11 = m ((c : Thread nD τ).loc main_arg11)) (e12 : x12 = m ((c : Thread nD τ).loc main_arg12))
include hL e0 e2 e3 e9 e10 e11 e12

/-- After launch 8: the dual features after one layer. -/
theorem xd1_at18 : U18 m L c main_v51 = (val_main_v95 (F := Ideal) x0 x2 x3 x9 x10 x11 x12) :=
  out3_eq m L c x0 x2 x3 x9 x10 x11 x12 e0 e2 e3 e9 e10 e11 e12 hL (xd0_at14 m L hL c x0 x3 e0 e3)
/-- After launch 10: after two layers. -/
theorem xd2_at22 : U22 m L c main_v63 = (val_main_v118 (F := Ideal) x0 x2 x3 x9 x10 x11 x12) :=
  out4_eq m L c x0 x2 x3 x9 x10 x11 x12 e0 e2 e3 e9 e10 e11 e12 hL (xd1_at18 m L hL c x0 x2 x3 x9 x10 x11 x12 e0 e2 e3 e9 e10 e11 e12)
/-- After launch 12: after three layers. -/
theorem xd3_eq : U26 m L c main_v75 = (val_main_v141 (F := Ideal) x0 x2 x3 x9 x10 x11 x12) :=
  out5_eq m L c x0 x2 x3 x9 x10 x11 x12 e0 e2 e3 e9 e10 e11 e12 hL (xd2_at22 m L hL c x0 x2 x3 x9 x10 x11 x12 e0 e2 e3 e9 e10 e11 e12)

theorem xd1_eq : U26 m L c main_v51 = (val_main_v95 (F := Ideal) x0 x2 x3 x9 x10 x11 x12) := by
  rw [U26_keep m L c main_v51 (by decide), U25_keep m L c main_v51 (by decide), U24_keep m L c main_v51 (by decide), U23_keep m L c main_v51 (by decide)]
  rw [U22_keep m L c main_v51 (by decide), U21_keep m L c main_v51 (by decide), U20_keep m L c main_v51 (by decide), U19_keep m L c main_v51 (by decide)]
  exact xd1_at18 m L hL c x0 x2 x3 x9 x10 x11 x12 e0 e2 e3 e9 e10 e11 e12
theorem xd2_eq : U26 m L c main_v63 = (val_main_v118 (F := Ideal) x0 x2 x3 x9 x10 x11 x12) := by
  rw [U26_keep m L c main_v63 (by decide), U25_keep m L c main_v63 (by decide), U24_keep m L c main_v63 (by decide), U23_keep m L c main_v63 (by decide)]
  exact xd2_at22 m L hL c x0 x2 x3 x9 x10 x11 x12 e0 e2 e3 e9 e10 e11 e12

end Dual

end Cert.KernelIdeal.Bridge

end
-- ==== Proof.BridgeRefRun.lean ====
/-
  The reference's half of the value claim, with the layers' comparison put in: when the two programs are launched
  with equal arguments, the reference ends with its eight results equal to what the kernel program's eight result
  buffers hold at the end, and with its arguments as launched.
-/
import proofs.«155206_j89000312308227_2_alg».proof.Proof.BridgeTailRun
import proofs.«155206_j89000312308227_2_alg».proof.Proof.BridgeStreams

set_option maxRecDepth 16384

noncomputable section

namespace Cert.KernelIdeal.Bridge

open Cert.KernelIdeal Cert.KernelIdeal.Gen Cert.KernelIdeal.Chain Cert.KernelIdeal.Iface
open Idealize.ShloMosaic Idealize.ShloMosaic.TcCoe
open Idealize.SL Idealize.SL.Sem

variable (m : (ℓ : Loc nD τ sig) → Buf (Elt Ideal) ℓ) (L : LeavesAll Ideal)
variable (m' : (ℓ : Loc Cert.ReferenceIdeal.nD Cert.ReferenceIdeal.τ Cert.ReferenceIdeal.sig) → Buf (Elt Ideal) ℓ)

/-- Equal arguments give the layers' comparison on every core. -/
theorem streams_of_args (hL : Good L) (c : Dev nD) (hargs : ArgsEq m m' c) : Streams m L m' c := by
  obtain ⟨a0, a1, a2, a3, a4, a5, a6, a7, a8, a9, a10, a11, a12, a13, a14, a15, a16⟩ := hargs
  exact ⟨xp3_eq m L hL c _ _ _ _ _ _ a0 a1 a5 a6 a7 a8, xd3_eq m L hL c _ _ _ _ _ _ _ a0 a2 a3 a9 a10 a11 a12,
    xp1_eq m L hL c _ _ _ _ _ _ a0 a1 a5 a6 a7 a8, xp2_eq m L hL c _ _ _ _ _ _ a0 a1 a5 a6 a7 a8,
    xd0_eq m L hL c _ _ a0 a3, xd1_eq m L hL c _ _ _ _ _ _ _ a0 a2 a3 a9 a10 a11 a12,
    xd2_eq m L hL c _ _ _ _ _ _ _ a0 a2 a3 a9 a10 a11 a12⟩

/-- The reference ends with its eight results equal to the kernel program's eight result buffers at the end, and its
    arguments as launched. -/
theorem ref_run (hL : Good L) (g' : Dev Cert.ReferenceIdeal.nD → PrngReg) (hargs : ∀ c : Dev nD, ArgsEq m m' c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = U32 m L c Cert.KernelIdeal.main_v105
          ∧ r.2.mem ((c.tc : Thread Cert.ReferenceIdeal.nD Cert.ReferenceIdeal.τ).loc Cert.ReferenceIdeal.main_v172) = U32 m L c Cert.KernelIdeal.main_v106
          ∧ r.2.mem ((c.tc : Thread Cert.ReferenceIdeal.nD Cert.ReferenceIdeal.τ).loc Cert.ReferenceIdeal.main_arg0) = U32 m L c Cert.KernelIdeal.main_arg0
          ∧ r.2.mem ((c.tc : Thread Cert.ReferenceIdeal.nD Cert.ReferenceIdeal.τ).loc Cert.ReferenceIdeal.main_v26) = U32 m L c Cert.KernelIdeal.main_v15
          ∧ r.2.mem ((c.tc : Thread Cert.ReferenceIdeal.nD Cert.ReferenceIdeal.τ).loc Cert.ReferenceIdeal.main_v49) = U32 m L c Cert.KernelIdeal.main_v27
          ∧ r.2.mem ((c.tc : Thread Cert.ReferenceIdeal.nD Cert.ReferenceIdeal.τ).loc Cert.ReferenceIdeal.main_v3) = U32 m L c Cert.KernelIdeal.main_v3
          ∧ r.2.mem ((c.tc : Thread Cert.ReferenceIdeal.nD Cert.ReferenceIdeal.τ).loc Cert.ReferenceIdeal.main_v95) = U32 m L c Cert.KernelIdeal.main_v51
          ∧ r.2.mem ((c.tc : Thread Cert.ReferenceIdeal.nD Cert.ReferenceIdeal.τ).loc Cert.ReferenceIdeal.main_v118) = U32 m L c Cert.KernelIdeal.main_v63
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  ref_run_of m L m' hL g' hargs fun c => streams_of_args m L m' hL c (hargs c)

end Cert.KernelIdeal.Bridge

end
-- ==== Proof.R0Pieces.lean ====
/-
  The first launch's four stored blocks as terms of the blocks the body is entered with, for every float instance:
  at the first contraction coordinate the accumulator ends at the kernel's second payload of the zero block, the tile
  and the 1024 feature rows at the point's offset; at a later coordinate at that payload of what the accumulator held;
  at the last coordinate the output block is the third payload (times one third) of the accumulator's new contents.
  Each is read off the stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R0Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid0.Coords) (arg2 : Memref sig .tc .vmem S1024x1024 .bf16) (harg2 : arg2.IsWhole) (arg3 : Memref sig .tc .vmem S6144x256 .f32) (harg3 : arg3.IsWhole) (arg4 : Memref sig .tc .vmem S1024x256 .f32) (harg4 : arg4.IsWhole) (arg5 : Memref sig .tc .vmem S1024x256 .f32) (harg5 : arg5.IsWhole)

/-- The rows of the features the point contracts against: 1024 rows from the point's offset. -/
abbrev rowsAt (x1 : Vec F S6144x256 .f32) : Vec F S1024x256 .f32 :=
  View.ld x1 (Rect.unit (s := S6144x256) (k0_off1 i) S1024x256.size (k0_off1_inb i))

/-- k = 0: the accumulator ends at zero plus the tile's product. -/
theorem accFirst_eq (hc0 : isFirst i) (hc1 : ¬isLast i) (x0 : Vec F S1024x1024 .bf16) (x1 : Vec F S6144x256 .f32) :
    accFirst c i arg2 harg2 arg3 harg3 arg4 harg4 arg5 harg5 hc0 hc1 x0 x1 = k0_pay2 (k0_pay1 (F := F)) x0 (rowsAt i x1) := by
  unfold accFirst
  rw [View.read_writes_eq_canon _ _ _ (cover_accFirst c i arg2 harg2 arg3 harg3 arg4 harg4 arg5 harg5 hc0 hc1 x0 x1)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (xs0 : Vec F S1024x256 .f32) :
    accMiddle c i arg2 harg2 arg3 harg3 arg4 harg4 arg5 harg5 hc0 hc1 x0 x1 xs0 = k0_pay2 xs0 x0 (rowsAt i x1) := by
  unfold accMiddle
  rw [View.read_writes_eq_canon _ _ _ (cover_accMiddle c i arg2 harg2 arg3 harg3 arg4 harg4 arg5 harg5 hc0 hc1 x0 x1 xs0)]
  unfold runMiddle
  dsimp only
  try sl_unfold_words
  rw [View.canon_unit_zero hz]
  simp only [View.readAt_eq_ld, harg2.read_unread, harg3.read_unread, harg5.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (xs0 : Vec F S1024x256 .f32) :
    accLast c i arg2 harg2 arg3 harg3 arg4 harg4 arg5 harg5 hc0 hc1 x0 x1 xs0 = k0_pay2 xs0 x0 (rowsAt i x1) := by
  unfold accLast
  rw [View.read_writes_eq_canon _ _ _ (cover_accLast c i arg2 harg2 arg3 harg3 arg4 harg4 arg5 harg5 hc0 hc1 x0 x1 xs0)]
  unfold runLast
  dsimp only
  try sl_unfold_words
  rw [View.canon_unit_zero hz]
  simp only [View.readAt_eq_ld, harg2.read_unread, harg3.read_unread, harg5.read_unread, View.ld_unit_zero (S := S1024x1024) hz, View.ld_unit_zero (S := S1024x256) hz]
  rfl

/-- and the output block is that times one third. -/
theorem outLast_eq (hc0 : ¬isFirst i) (hc1 : isLast i) (x0 : Vec F S1024x1024 .bf16) (x1 : Vec F S6144x256 .f32) (xs0 : Vec F S1024x256 .f32) :
    outLast c i arg2 harg2 arg3 harg3 arg4 harg4 arg5 harg5 hc0 hc1 x0 x1 xs0 = k0_pay3 (k0_pay2 xs0 x0 (rowsAt i x1)) := by
  unfold outLast
  rw [View.read_writes_eq_canon _ _ _ (cover_outLast c i arg2 harg2 arg3 harg3 arg4 harg4 arg5 harg5 hc0 hc1 x0 x1 xs0)]
  unfold runLast
  dsimp only
  try sl_unfold_words
  rw [View.canon_unit_zero hz, View.readCov_unit_zero (S := S1024x256) _ hz]
  simp only [View.readAt_eq_ld, harg2.read_unread, harg3.read_unread, harg5.read_unread, View.ld_unit_zero (S := S1024x1024) hz, View.ld_unit_zero (S := S1024x256) hz]
  rfl
end

end Cert.KernelIdeal.R0

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.R0Val.lean ====
/-
  The value of the first launch over the extended reals. Every float operation is exact there and a change of float
  format is the identity, so: the tile's product at (r, e) is the sum over the tile's 1024 contraction indices f of
  tile (f, r) times feature rows (f, e) (the left operand is contracted on its first axis); the accumulator after the
  point with contraction coordinate k of row block m holds, at (r, e), the sum of contraction blocks 0 … k of the
  adjacency column 1024 m + r against feature column e (induction along the row block; adding to zero and regrouping
  finite sums hold for all extended reals, so nothing is assumed finite); the six block sums are the whole contraction;
  the block written back at the last coordinate is that times one third; and the twelve row blocks cover the output.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R0Pieces
import proofs.«155206_j89000312308227_2_alg».proof.Proof.Iface
import proofs.«155206_j89000312308227_2_alg».proof.Proof.LibBlockSums
import Idealize.ShloMosaic.PureOps.Ideal.Laws
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The product record of this launch: the left operand contracted on its first axis -/

/-- The dimension numbers of the tile's product: both operands contracted on their first axes. -/
abbrev D0 : DotDims S1024x1024 S1024x256 S1024x256 := dot_S1024x1024_S1024x256_S1024x256_0_0_1_1_n_n

theorem d0_lhs0 (j : S1024x256.Idx) (q : D0.contr.Idx) : (D0.lhsIdx j q 0).val = (q ⟨0, Nat.one_pos⟩).val :=
  D0.lhsIdx_val_of_single rfl j q

theorem d0_lhs1 (j : S1024x256.Idx) (q : D0.contr.Idx) : (D0.lhsIdx j q 1).val = (j 0).val := by
  unfold DotDims.lhsIdx
  rw [dif_neg (show ¬(1 : Fin 2) ∈ D0.lhsBatch from List.not_mem_nil),
    dif_pos (show (1 : Fin 2) ∈ D0.lhsNonContracting from List.mem_singleton.mpr rfl)]
  rfl

theorem d0_rhs0 (j : S1024x256.Idx) (q : D0.contr.Idx) : (D0.rhsIdx j q 0).val = (q ⟨0, Nat.one_pos⟩).val :=
  D0.rhsIdx_val_of_single rfl j q

theorem d0_rhs1 (j : S1024x256.Idx) (q : D0.contr.Idx) : (D0.rhsIdx j q 1).val = (j 1).val := by
  unfold DotDims.rhsIdx
  rw [dif_neg (show ¬(1 : Fin 2) ∈ D0.rhsBatch from List.not_mem_nil),
    dif_pos (show (1 : Fin 2) ∈ D0.rhsNonContracting from List.mem_singleton.mpr rfl)]
  rfl

/-- The sum over the product's contraction index, re-indexed by the contracted coordinate: at (r, e) the left operand
    is read at (f, r), the right one at (f, e). -/
theorem d0_sum {φ₁ φ₂ : FTy} (L : FVec Ideal S1024x1024 φ₁) (R : FVec Ideal S1024x256 φ₂) (r : Fin 1024) (e : Fin 256) :
    (∑ k : D0.contr.Idx, L (D0.lhsIdx (ix2 r e) k) * R (D0.rhsIdx (ix2 r e) k))
      = ∑ f : Fin 1024, L (ix2 f r) * R (ix2 f e) := by
  rw [← Equiv.sum_comp (contrEquiv1 D0 1024 rfl rfl).symm]
  refine Finset.sum_congr rfl fun f _ => ?_
  have hk := contrEquiv1_symm_val D0 1024 rfl rfl f
  have el : D0.lhsIdx (ix2 r e) ((contrEquiv1 D0 1024 rfl rfl).symm f) = ix2 f r :=
    funext fun a => Fin.ext (by
      match a with
      | ⟨0, _⟩ => exact (d0_lhs0 _ _).trans hk
      | ⟨1, _⟩ => exact d0_lhs1 _ _)
  have er : D0.rhsIdx (ix2 r e) ((contrEquiv1 D0 1024 rfl rfl).symm f) = ix2 f e :=
    funext fun a => Fin.ext (by
      match a with
      | ⟨0, _⟩ => exact (d0_rhs0 _ _).trans hk
      | ⟨1, _⟩ => exact d0_rhs1 _ _)
  rw [el, er]

/-! ## The payloads at an entry, over the extended reals -/

/-- The zero block. -/
theorem pay1_apply (j : S1024x256.Idx) : k0_pay1 (F := Ideal) j = 0 := by
  unfold k0_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k0_pay2 (F := Ideal) v3 v4 v9 (ix2 r e) = v3 (ix2 r e) + ∑ f : Fin 1024, v4 (ix2 f r) * v9 (ix2 f e) := by
  unfold k0_pay2
  simp only [shapeCast_self]
  refine congrArg (v3 (ix2 r e) + ·) ?_
  exact (Ideal.matmul_constant_zero_apply D0 none v4 _ (ix2 r e)).trans (d0_sum v4 _ r e)

/-- The output's store: the accumulator times one third. -/
theorem pay3_apply (v : Vec Ideal S1024x256 .f32) (j : S1024x256.Idx) : k0_pay3 (F := Ideal) v j = v j * Iface.third := rfl

/-! ## The blocks the body is entered with, entry by entry -/

/-- The block indices at point t = 6 m + k: the tile is block (k, m) of the adjacency matrix, the features' one block
    is the whole array, the output block is row block m; the contraction coordinate is k. -/
theorem index_tile : ∀ t : Fin cfg0.N, win0_0.index t 0 = t.val % 6 ∧ win0_0.index t 1 = t.val / 6 :=
  (by decide +kernel : ∀ t : Fin grid0.N, win0_0.index t 0 = t.val % 6 ∧ win0_0.index t 1 = t.val / 6)
theorem index_feat : ∀ t : Fin cfg0.N, win0_1.index t 0 = 0 ∧ win0_1.index t 1 = 0 :=
  (by decide +kernel : ∀ t : Fin grid0.N, win0_1.index t 0 = 0 ∧ win0_1.index t 1 = 0)
theorem index_out : ∀ t : Fin cfg0.N, win0_2.index t 0 = t.val / 6 ∧ win0_2.index t 1 = 0 :=
  (by decide +kernel : ∀ t : Fin grid0.N, win0_2.index t 0 = t.val / 6 ∧ win0_2.index t 1 = 0)
theorem coord1 : ∀ t : Fin cfg0.N, ((grid0.coords t) 1).val = t.val % 6 :=
  (by decide +kernel : ∀ t : Fin grid0.N, ((grid0.coords t) 1).val = t.val % 6)

section
variable (W : (c : Dev nD) → (b : Ref sig .tc) → Buf (Elt F) ((c : Thread nD τ).loc b))

/-- The tile at point t, at (f, r): the adjacency matrix at (1024 k + f, 1024 m + r). -/
theorem tile_apply (c : Dev nD) (t : Fin cfg0.N) (f r : Fin 1024) (g : Fin 6144) (p : Fin 12288)
    (hg : g.val = 1024 * (t.val % 6) + f.val) (hp : p.val = 1024 * (t.val / 6) + r.val) :
    (iblk W c 0 t : Vec F S1024x1024 .bf16) (ix2 f r) = (W c main_v2 : (⟨2, ![6144, 12288]⟩ : Shape).Idx → Elt F .bf16) (ix2 g p) := by
  have hi := index_tile t
  unfold iblk
  rw [View.read_apply]
  show W c main_v2 _ = W c main_v2 _
  congr 1
  funext a
  apply Fin.ext
  match a with
  | ⟨0, _⟩ => show win0_0.index t 0 * 1024 + 1 * f.val = g.val; rw [hi.1, hg]; omega
  | ⟨1, _⟩ => show win0_0.index t 1 * 1024 + 1 * r.val = p.val; rw [hi.2, hp]; omega

/-- The features' block at any point is the feature matrix. -/
theorem feat_apply (c : Dev nD) (t : Fin cfg0.N) (g : Fin 6144) (e : Fin 256) :
    (iblk W c 1 t : Vec F S6144x256 .f32) (ix2 g e) = (W c main_arg0 : S6144x256.Idx → Elt F .f32) (ix2 g e) := by
  have hi := index_feat t
  unfold iblk
  rw [View.read_apply]
  show W c main_arg0 _ = W c main_arg0 _
  congr 1
  funext a
  apply Fin.ext
  match a with
  | ⟨0, _⟩ => show win0_1.index t 0 * 6144 + 1 * g.val = g.val; rw [hi.1]; omega
  | ⟨1, _⟩ => show win0_1.index t 1 * 256 + 1 * e.val = e.val; rw [hi.2]; omega
end

/-- The 1024 rows from the point's offset, at (f, e): the features at (1024 k + f, e). -/
theorem rowsAt_apply (i : grid0.Coords) (x1 : Vec F S6144x256 .f32) (f : Fin 1024) (e : Fin 256) (g : Fin 6144)
    (hg : g.val = 1024 * (i 1).val + f.val) : rowsAt i x1 (ix2 f e) = x1 (ix2 g e) := by
  have h0 : k0_off1 i 0 = 1024 * (i 1).val := by rw [k0_off1_eq i]; rfl
  have h1 : k0_off1 i 1 = 0 := by rw [k0_off1_eq i]; rfl
  show x1 _ = x1 _
  congr 1
  funext a
  apply Fin.ext
  match a with
  | ⟨0, _⟩ => show k0_off1 i 0 + 1 * f.val = g.val; rw [h0, hg]; omega
  | ⟨1, _⟩ => show k0_off1 i 1 + 1 * e.val = e.val; rw [h1]; omega

/-! ## The accumulation, entry by entry -/

section
variable (W : Iface.Vl)

/-- The adjacency matrix and the feature matrix as the launch finds them, and the two input blocks at a point, as
    matrices of extended reals. -/
abbrev adj (c : Dev nD) : Iface.Mat 6144 12288 := W c main_v2
abbrev feat (c : Dev nD) : Iface.Mat 6144 256 := W c main_arg0
abbrev tileAt (c : Dev nD) (t : Fin cfg0.N) : Vec Ideal S1024x1024 .bf16 := iblk W c 0 t
abbrev featAt (c : Dev nD) (t : Fin cfg0.N) : Vec Ideal S6144x256 .f32 := iblk W c 1 t

/-- The n-th term of the contraction at (p, e): adjacency (n, p) times features (n, e); zero past the extent. -/
def term (c : Dev nD) (p : Fin 12288) (e : Fin 256) (n : ℕ) : EReal :=
  if h : n < 6144 then adj W c (ix2 ⟨n, h⟩ p) * feat W c (ix2 ⟨n, h⟩ e) else 0

/-- The sum of the 1024 terms of contraction block j. -/
def blockSum (c : Dev nD) (p : Fin 12288) (e : Fin 256) (j : ℕ) : EReal := ∑ f : Fin 1024, term W c p e (j * 1024 + f.val)

/-- The tile's product at point t = 6 m + k, at (r, e): the sum of contraction block k at (1024 m + r, e). -/
theorem prod_at (c : Dev nD) (t : Fin cfg0.N) (r : Fin 1024) (e : Fin 256) (p : Fin 12288) (hp : p.val = 1024 * (t.val / 6) + r.val) :
    (∑ f : Fin 1024, tileAt W c t (ix2 f r) * rowsAt (grid0.coords t) (featAt W c t) (ix2 f e))
      = blockSum W c p e (t.val % 6) := by
  refine Finset.sum_congr rfl fun f _ => ?_
  have hlt : (t.val % 6) * 1024 + f.val < 6144 := by
    have := f.isLt; have : t.val % 6 < 6 := Nat.mod_lt _ (by omega); omega
  unfold term
  rw [dif_pos hlt]
  exact congrArg₂ (· * ·)
    (tile_apply W c t f r ⟨_, hlt⟩ p (by show (t.val % 6) * 1024 + f.val = 1024 * (t.val % 6) + f.val; omega) hp)
    ((rowsAt_apply (grid0.coords t) _ f e ⟨_, hlt⟩ (by rw [coord1 t]; show (t.val % 6) * 1024 + f.val = 1024 * (t.val % 6) + f.val; omega)).trans
      (feat_apply W c t ⟨_, hlt⟩ e))

set_option maxHeartbeats 4000000 in
/-- At a point that opens a row block the accumulator holds the first block's sum. -/
theorem acc_first (c : Dev nD) (t : Fin cfg0.N) (h0 : t.val % 6 = 0) (r : Fin 1024) (e : Fin 256) (p : Fin 12288)
    (hp : p.val = 1024 * (t.val / 6) + r.val) :
    (outsAt W c t.val t.isLt).2 (ix2 r e) = ∑ j ∈ Finset.range (t.val % 6 + 1), blockSum W c p e j := by
  refine (congrFun (congrArg Prod.snd (outsAt_first W c t h0)) (ix2 r e)).trans ?_
  refine (congrFun (accFirst_eq (F := Ideal) c (grid0.coords t) (ms0 t) (hs0 t) (ms1 t) (hs1 t) (ms2 t) (hs2 t) accM (Memref.isWhole_whole _)
    ((isFirst_iff t).mpr h0) (fun h => by have := (isLast_iff t).mp h; omega) (iblk W c 0 t) (iblk W c 1 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg0.N) (h0 : ¬t.val % 6 = 0) (r : Fin 1024) (e : Fin 256) (p : Fin 12288)
    (hp : p.val = 1024 * (t.val / 6) + r.val) (h' : t.val - 1 < cfg0.N)
    (ih : (outsAt W c (t.val - 1) h').2 (ix2 r e) = ∑ j ∈ Finset.range (t.val % 6), blockSum W c p e j) :
    (outsAt W c t.val t.isLt).2 (ix2 r e) = ∑ j ∈ Finset.range (t.val % 6 + 1), blockSum W c p e j := by
  rw [Finset.sum_range_succ, ← prod_at W c t r e p hp, ← ih]
  by_cases h5 : t.val % 6 = 5
  · refine (congrFun (congrArg Prod.snd (outsAt_last W c t h0 h5)) (ix2 r e)).trans ?_
    refine (congrFun (accLast_eq (F := Ideal) c (grid0.coords t) (ms0 t) (hs0 t) (ms1 t) (hs1 t) (ms2 t) (hs2 t) accM (Memref.isWhole_whole _)
      (fun h => h0 ((isFirst_iff t).mp h)) ((isLast_iff t).mpr h5) (iblk W c 0 t) (iblk W c 1 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid0.coords t) (ms0 t) (hs0 t) (ms1 t) (hs1 t) (ms2 t) (hs2 t) accM (Memref.isWhole_whole _)
      (fun h => h0 ((isFirst_iff t).mp h)) (fun h => h5 ((isLast_iff t).mp h)) (iblk W c 0 t) (iblk W c 1 t)
      (outsAt W c (t.val - 1) (Nat.lt_of_le_of_lt (Nat.sub_le _ _) t.isLt)).2) (ix2 r e)).trans ?_
    exact pay2_apply _ _ _ r e

/-- After the point at position n = 6 m + k the accumulator at (r, e) is the sum of contraction blocks 0 … k at
    (1024 m + r, e). -/
theorem acc_inv (c : Dev nD) : ∀ (n : ℕ) (hn : n < cfg0.N) (r : Fin 1024) (e : Fin 256) (p : Fin 12288),
    p.val = 1024 * (n / 6) + r.val → (outsAt W c n hn).2 (ix2 r e) = ∑ j ∈ Finset.range (n % 6 + 1), blockSum W c p e j
  | 0, hn, r, e, p, hp => acc_first W c ⟨0, hn⟩ rfl r e p hp
  | n + 1, hn, r, e, p, hp => by
    by_cases h0 : (n + 1) % 6 = 0
    · exact acc_first W c ⟨n + 1, hn⟩ h0 r e p hp
    · have ih := acc_inv c n (Nat.lt_of_succ_lt hn) r e p (by
        have : n / 6 = (n + 1) / 6 := by omega
        rw [this]; exact hp)
      have hm : n % 6 + 1 = (n + 1) % 6 := by omega
      rw [hm] at ih
      exact acc_step W c ⟨n + 1, hn⟩ h0 r e p hp (Nat.lt_of_succ_lt hn) ih

/-- The six block sums are the whole contraction. -/
theorem sum_all (c : Dev nD) (p : Fin 12288) (e : Fin 256) :
    ∑ j ∈ Finset.range 6, blockSum W c p e j
      = ∑ f : Fin 6144, adj W c (ix2 f p) * feat W c (ix2 f e) := by
  rw [BlockSums.sum_blocks 6 1024 6144 rfl (fun n : Fin 6144 => adj W c (ix2 n p) * feat W c (ix2 n e))]
  rw [← Fin.sum_univ_eq_sum_range (fun j => blockSum W c p e j) 6]
  refine Finset.sum_congr rfl fun j _ => Finset.sum_congr rfl fun f _ => ?_
  unfold term
  rw [dif_pos (BlockSums.block_row_lt j f)]

set_option maxHeartbeats 4000000 in
/-- At a point that closes a row block the output block at (r, e) is the whole contraction at (1024 m + r, e) times
    one third. -/
theorem out_last (c : Dev nD) (t : Fin cfg0.N) (h5 : t.val % 6 = 5) (r : Fin 1024) (e : Fin 256) (p : Fin 12288)
    (hp : p.val = 1024 * (t.val / 6) + r.val) :
    (outsAt W c t.val t.isLt).1 (ix2 r e)
      = (∑ f : Fin 6144, adj W c (ix2 f p) * feat W c (ix2 f e)) * Iface.third := by
  have h0 : ¬t.val % 6 = 0 := by omega
  have e1 := congrFun (congrArg Prod.fst (outsAt_last W c t h0 h5)) (ix2 r e)
  have e2 := congrFun (congrArg Prod.snd (outsAt_last W c t h0 h5)) (ix2 r e)
  have a := acc_inv W c t.val t.isLt r e p hp
  rw [h5, sum_all] at a
  rw [← a]
  refine e1.trans ?_
  refine (congrFun (outLast_eq (F := Ideal) c (grid0.coords t) (ms0 t) (hs0 t) (ms1 t) (hs1 t) (ms2 t) (hs2 t) accM (Memref.isWhole_whole _)
      (fun h => h0 ((isFirst_iff t).mp h)) ((isLast_iff t).mpr h5) (iblk W c 0 t) (iblk W c 1 t)
      (outsAt W c (t.val - 1) (Nat.lt_of_le_of_lt (Nat.sub_le _ _) t.isLt)).2) (ix2 r e)).trans ?_
  refine (pay3_apply _ _).trans ?_
  refine congrArg (· * Iface.third) ?_
  exact ((congrFun (accLast_eq (F := Ideal) c (grid0.coords t) (ms0 t) (hs0 t) (ms1 t) (hs1 t) (ms2 t) (hs2 t) accM (Memref.isWhole_whole _)
      (fun h => h0 ((isFirst_iff t).mp h)) ((isLast_iff t).mpr h5) (iblk W c 0 t) (iblk W c 1 t)
      (outsAt W c (t.val - 1) (Nat.lt_of_le_of_lt (Nat.sub_le _ _) t.isLt)).2) (ix2 r e)).symm.trans e2.symm)
end

/-! ## What the launch leaves in its output array -/

section
variable (W : Iface.Vl)

/-- Entry (p, e) of the output: the whole contraction of adjacency column p with feature column e, times one third. -/
def result (c : Dev nD) : Buf (Elt Ideal) ((c : Thread nD τ).loc main_v3) :=
  fun i : S12288x256.Idx => (∑ f : Fin 6144, adj W c (ix2 f (i 0)) * feat W c (ix2 f (i 1))) * Iface.third

set_option maxHeartbeats 4000000 in
/-- The block written back at a point that closes a row block is that row block of the result. -/
theorem flushed_eq (c : Dev nD) (t : Fin cfg0.N) (hf : (cfg0.win 2).flush t = true) :
    (dat W c).flushed 2 t = ((cfg0.win 2).blk t).view.read (Elt Ideal) (result W c) := by
  have h5 : t.val % 6 = 5 := (flush0_2 t).mp hf
  show (cfg0.win 2).cut (grid0.coords t) ((dat W c).after 2 t) = _
  rw [after2]
  refine funext fun (y : S1024x256.Idx) => ?_
  obtain ⟨r, e, rfl⟩ : ∃ (r : Fin 1024) (e : Fin 256), y = ix2 r e := ⟨y 0, y 1, eq_ix2 y⟩
  have hx : (cfg0.win 2).xinj (grid0.coords t) (ix2 r e) = (ix2 r e : S1024x256.Idx) :=
    funext fun a => Fin.ext (by match a with | ⟨0, _⟩ => rfl | ⟨1, _⟩ => rfl)
  show (outsAt W c t.val t.isLt).1 ((cfg0.win 2).xinj (grid0.coords t) (ix2 r e)) = _
  rw [hx, View.read_apply]
  show _ = result W c (((cfg0.win 2).blk t).view.emb (ix2 r e))
  have hp : ((((cfg0.win 2).blk t).view.emb (ix2 r e) : S12288x256.Idx) 0).val = 1024 * (t.val / 6) + r.val := by
    show win0_2.index t 0 * 1024 + 1 * r.val = _
    rw [(index_out t).1]; omega
  have he : (((cfg0.win 2).blk t).view.emb (ix2 r e) : S12288x256.Idx) 1 = e := Fin.ext (by
    show win0_2.index t 1 * 256 + 1 * e.val = e.val
    rw [(index_out t).2]; omega)
  refine (out_last W c t h5 r e _ hp).trans ?_
  unfold result
  rw [he]

/-- The row blocks written back cover the array (row p is in the block written at point 6 (p / 1024) + 5), so the
    array ends at the result. -/
theorem final (c : Dev nD) : (dat W c).arrAt 2 cfg0.N = result W c :=
  (dat W c).arrAt_eq_of_cover 2 (result W c) (flushed_eq W c) fun i => by
    have hN : cfg0.N = 72 := N_0
    have h0 : ((i : S12288x256.Idx) 0 : Nat) < 12288 := ((i : S12288x256.Idx) 0).isLt
    have h1 : ((i : S12288x256.Idx) 1 : Nat) < 256 := ((i : S12288x256.Idx) 1).isLt
    have ht : 6 * (((i : S12288x256.Idx) 0 : Nat) / 1024) + 5 < cfg0.N := by rw [hN]; omega
    refine ⟨⟨_, ht⟩, (flush0_2 _).mpr (by show (6 * (((i : S12288x256.Idx) 0 : Nat) / 1024) + 5) % 6 = 5; omega), ?_⟩
    show i ∈ ((View.whole main_v3).slice (win0_2.rect ⟨_, ht⟩)).set
    rw [View.set_slice_whole, Rect.mem_set_unit]
    have hi := index_out ⟨_, ht⟩
    intro a
    match a with
    | ⟨0, _⟩ =>
      show win0_2.index ⟨_, ht⟩ 0 * 1024 ≤ ((i : S12288x256.Idx) 0 : Nat) ∧ ((i : S12288x256.Idx) 0 : Nat) < win0_2.index ⟨_, ht⟩ 0 * 1024 + 1024
      rw [hi.1]
      show (6 * (((i : S12288x256.Idx) 0 : Nat) / 1024) + 5) / 6 * 1024 ≤ _ ∧ _ < (6 * (((i : S12288x256.Idx) 0 : Nat) / 1024) + 5) / 6 * 1024 + 1024
      omega
    | ⟨1, _⟩ =>
      show win0_2.index ⟨_, ht⟩ 1 * 256 ≤ ((i : S12288x256.Idx) 1 : Nat) ∧ ((i : S12288x256.Idx) 1 : Nat) < win0_2.index ⟨_, ht⟩ 1 * 256 + 256
      rw [hi.2]; omega
end

/-- Launch 0 leaves, at (p, e), the sum over the 6144 contraction indices f of adjacency (f, p) times features (f, e),
    times one third. -/
theorem leaves_ok : Iface.Is0 (fun W c => (dat (F := Ideal) W c).arrAt 2 cfg0.N) := by
  intro W c p e
  show ((dat (F := Ideal) W c).arrAt 2 cfg0.N) (ix2 p e) = _
  rw [final W c]
  rfl

end Cert.KernelIdeal.R0

end
-- ==== Proof.R1Pieces.lean ====
/-
  Launch 1's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias) of the
  accumulator's new contents. Each is read off the stores the case made: the last store over a whole block is what the
  block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R1Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid1.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The rows of the features the point contracts against: 1024 rows from the point's offset. -/
abbrev rowsAt (x1 : Vec F S6144x256 .f32) : Vec F S1024x256 .f32 :=
  View.ld x1 (Rect.unit (s := S6144x256) (k1_off1 i) S1024x256.size (k1_off1_inb i))

/-- k = 0: the accumulator ends at zero plus the tile's product. -/
theorem accFirst_eq (hc0 : isFirst i) (hc1 : ¬isLast i) (x0 : Vec F S1024x1024 .bf16) (x1 : Vec F S6144x256 .f32) (x2 : Vec F S256x256 .f32) (x3 : Vec F S1x256 .f32) :
    accFirst c i arg2 harg2 arg3 harg3 arg4 harg4 arg5 harg5 arg6 harg6 arg7 harg7 hc0 hc1 x0 x1 x2 x3 = k1_pay2 (k1_pay1 (F := F)) x0 (rowsAt i x1) := by
  unfold accFirst
  rw [View.read_writes_eq_canon _ _ _ (cover_accFirst c i arg2 harg2 arg3 harg3 arg4 harg4 arg5 harg5 arg6 harg6 arg7 harg7 hc0 hc1 x0 x1 x2 x3)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) :
    accMiddle c i arg2 harg2 arg3 harg3 arg4 harg4 arg5 harg5 arg6 harg6 arg7 harg7 hc0 hc1 x0 x1 x2 x3 xs0 = k1_pay2 xs0 x0 (rowsAt i x1) := by
  unfold accMiddle
  rw [View.read_writes_eq_canon _ _ _ (cover_accMiddle c i arg2 harg2 arg3 harg3 arg4 harg4 arg5 harg5 arg6 harg6 arg7 harg7 hc0 hc1 x0 x1 x2 x3 xs0)]
  unfold runMiddle
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (x2 : Vec F S256x256 .f32) (x3 : Vec F S1x256 .f32) (xs0 : Vec F S1024x256 .f32) :
    accLast c i arg2 harg2 arg3 harg3 arg4 harg4 arg5 harg5 arg6 harg6 arg7 harg7 hc0 hc1 x0 x1 x2 x3 xs0 = k1_pay2 xs0 x0 (rowsAt i x1) := by
  unfold accLast
  rw [View.read_writes_eq_canon _ _ _ (cover_accLast c i arg2 harg2 arg3 harg3 arg4 harg4 arg5 harg5 arg6 harg6 arg7 harg7 hc0 hc1 x0 x1 x2 x3 xs0)]
  unfold runLast
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- and the output block is that, projected by the weights, plus the bias. -/
theorem outLast_eq (hc0 : ¬isFirst i) (hc1 : isLast i) (x0 : Vec F S1024x1024 .bf16) (x1 : Vec F S6144x256 .f32) (x2 : Vec F S256x256 .f32) (x3 : Vec F S1x256 .f32) (xs0 : Vec F S1024x256 .f32) :
    outLast c i arg2 harg2 arg3 harg3 arg4 harg4 arg5 harg5 arg6 harg6 arg7 harg7 hc0 hc1 x0 x1 x2 x3 xs0 = k1_pay3 (k1_pay2 xs0 x0 (rowsAt i x1)) x2 x3 := by
  unfold outLast
  rw [View.read_writes_eq_canon _ _ _ (cover_outLast c i arg2 harg2 arg3 harg3 arg4 harg4 arg5 harg5 arg6 harg6 arg7 harg7 hc0 hc1 x0 x1 x2 x3 xs0)]
  unfold runLast
  dsimp only
  try sl_unfold_words
  rw [View.canon_unit_zero hz, View.readCov_unit_zero (S := S1024x256) _ hz]
  simp only [View.readAt_eq_ld, harg2.read_unread, harg3.read_unread, harg7.read_unread, View.ld_unit_zero (S := S1024x1024) hz, View.ld_unit_zero (S := S1024x256) hz, harg4.read_unread, harg5.read_unread, View.ld_unit_zero (S := S256x256) hz, View.ld_unit_zero (S := S1x256) hz]
  rfl
end

end Cert.KernelIdeal.R1

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.R1Blocks.lean ====
/-
  Launch 1, entry by entry over the extended reals: what each of the kernel's payloads holds at an entry (the
  accumulator's store: what it held plus the sum over the tile's 1024 contraction indices; the output's store: the sum
  over the 256 feature columns of the accumulator times the weight matrix's row, plus the bias), and what each block the
  body is entered with holds at an entry, as an entry of the launch's operand arrays (the tile at point 6 m + k is block
  (m, k) of the adjacency matrix; the features, the weights and the bias are whole arrays).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R1Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k1_pay1 (F := Ideal) j = 0 := by
  unfold k1_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k1_pay2 (F := Ideal) v3 v4 v9 (ix2 r e) = v3 (ix2 r e) + ∑ f : Fin 1024, v4 (ix2 r f) * v9 (ix2 f e) := by
  unfold k1_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`. -/
theorem pay3_apply (v19 : Vec Ideal S1024x256 .f32) (v20 : Vec Ideal S256x256 .f32) (v25 : Vec Ideal S1x256 .f32) (r : Fin 1024) (j : Fin 256) :
    k1_pay3 (F := Ideal) v19 v20 v25 (ix2 r j) = (∑ d : Fin 256, v19 (ix2 r d) * v20 (ix2 j d)) + v25 (ix2 0 j) := by
  unfold k1_pay3
  simp only [shapeCast_self]
  refine congrArg₂ (· + ·) ?_ ?_
  · exact Cert.Lib.MatmulT.matmul_trhs_zero_apply (M := 1024) (K := 256) (N := 256) none _ _ r j
  · exact broadcastTo_apply v25 _ (ix2 r j) (ix2 0 j) (fun a => by
      match a with
      | ⟨0, _⟩ => rfl
      | ⟨1, _⟩ => rfl)

/-! ## The blocks the body is entered with, entry by entry -/

/-- The block indices at point t = 6 m + k: the tile is block (m, k) of the adjacency matrix, the features', the weights'
    and the bias's one block is the whole array, the output block is row block m; the contraction coordinate is k. -/
theorem index_tile : ∀ t : Fin cfg1.N, win1_0.index t 0 = t.val / 6 ∧ win1_0.index t 1 = t.val % 6 :=
  (by decide +kernel : ∀ t : Fin grid1.N, win1_0.index t 0 = t.val / 6 ∧ win1_0.index t 1 = t.val % 6)
theorem index_feat : ∀ t : Fin cfg1.N, win1_1.index t 0 = 0 ∧ win1_1.index t 1 = 0 :=
  (by decide +kernel : ∀ t : Fin grid1.N, win1_1.index t 0 = 0 ∧ win1_1.index t 1 = 0)
theorem index_wt : ∀ t : Fin cfg1.N, win1_2.index t 0 = 0 ∧ win1_2.index t 1 = 0 :=
  (by decide +kernel : ∀ t : Fin grid1.N, win1_2.index t 0 = 0 ∧ win1_2.index t 1 = 0)
theorem index_bias : ∀ t : Fin cfg1.N, win1_3.index t 0 = 0 ∧ win1_3.index t 1 = 0 :=
  (by decide +kernel : ∀ t : Fin grid1.N, win1_3.index t 0 = 0 ∧ win1_3.index t 1 = 0)
theorem index_out : ∀ t : Fin cfg1.N, win1_4.index t 0 = t.val / 6 ∧ win1_4.index t 1 = 0 :=
  (by decide +kernel : ∀ t : Fin grid1.N, win1_4.index t 0 = t.val / 6 ∧ win1_4.index t 1 = 0)
theorem coord1 : ∀ t : Fin cfg1.N, ((grid1.coords t) 1).val = t.val % 6 :=
  (by decide +kernel : ∀ t : Fin grid1.N, ((grid1.coords t) 1).val = t.val % 6)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg1.N) (r f : Fin 1024) (p g : Fin 6144)
    (hp : p.val = 1024 * (t.val / 6) + r.val) (hg : g.val = 1024 * (t.val % 6) + f.val) :
    (iblk W c 0 t : Vec F S1024x1024 .bf16) (ix2 r f) = (W c main_v0 : (⟨2, ![6144, 6144]⟩ : Shape).Idx → Elt F .bf16) (ix2 p g) := by
  have hi := index_tile t
  unfold iblk
  rw [View.read_apply]
  show W c main_v0 _ = W c main_v0 _
  congr 1
  funext a
  apply Fin.ext
  match a with
  | ⟨0, _⟩ => show win1_0.index t 0 * 1024 + 1 * r.val = p.val; rw [hi.1, hp]; omega
  | ⟨1, _⟩ => show win1_0.index t 1 * 1024 + 1 * f.val = g.val; rw [hi.2, hg]; omega

/-- The features' block at any point is the feature matrix. -/
theorem feat_apply (c : Dev nD) (t : Fin cfg1.N) (g : Fin 6144) (e : Fin 256) :
    (iblk W c 1 t : Vec F S6144x256 .f32) (ix2 g e) = (W c main_arg0 : S6144x256.Idx → Elt F .f32) (ix2 g e) := by
  have hi := index_feat t
  unfold iblk
  rw [View.read_apply]
  show W c main_arg0 _ = W c main_arg0 _
  congr 1
  funext a
  apply Fin.ext
  match a with
  | ⟨0, _⟩ => show win1_1.index t 0 * 6144 + 1 * g.val = g.val; rw [hi.1]; omega
  | ⟨1, _⟩ => show win1_1.index t 1 * 256 + 1 * e.val = e.val; rw [hi.2]; omega

/-- The weights' block at any point is the weight matrix. -/
theorem wt_apply (c : Dev nD) (t : Fin cfg1.N) (j d : Fin 256) :
    (iblk W c 2 t : Vec F S256x256 .f32) (ix2 j d) = (W c main_v5 : S256x256.Idx → Elt F .f32) (ix2 j d) := by
  have hi := index_wt t
  unfold iblk
  rw [View.read_apply]
  show W c main_v5 _ = W c main_v5 _
  congr 1
  funext a
  apply Fin.ext
  match a with
  | ⟨0, _⟩ => show win1_2.index t 0 * 256 + 1 * j.val = j.val; rw [hi.1]; omega
  | ⟨1, _⟩ => show win1_2.index t 1 * 256 + 1 * d.val = d.val; rw [hi.2]; omega

/-- The bias's block at any point is the bias row. -/
theorem bias_apply (c : Dev nD) (t : Fin cfg1.N) (z : Fin 1) (j : Fin 256) :
    (iblk W c 3 t : Vec F S1x256 .f32) (ix2 z j) = (W c main_v8 : S1x256.Idx → Elt F .f32) (ix2 z j) := by
  have hi := index_bias t
  unfold iblk
  rw [View.read_apply]
  show W c main_v8 _ = W c main_v8 _
  congr 1
  funext a
  apply Fin.ext
  match a with
  | ⟨0, _⟩ => show win1_3.index t 0 * 1 + 1 * z.val = z.val; rw [hi.1]; omega
  | ⟨1, _⟩ => show win1_3.index t 1 * 256 + 1 * j.val = j.val; rw [hi.2]; omega
end

/-- The 1024 rows from the point's offset, at (f, e): the features at (1024 k + f, e). -/
theorem rowsAt_apply (i : grid1.Coords) (x1 : Vec F S6144x256 .f32) (f : Fin 1024) (e : Fin 256) (g : Fin 6144)
    (hg : g.val = 1024 * (i 1).val + f.val) : rowsAt i x1 (ix2 f e) = x1 (ix2 g e) := by
  have h0 : k1_off1 i 0 = 1024 * (i 1).val := by rw [k1_off1_eq i]; rfl
  have h1 : k1_off1 i 1 = 0 := by rw [k1_off1_eq i]; rfl
  show x1 _ = x1 _
  congr 1
  funext a
  apply Fin.ext
  match a with
  | ⟨0, _⟩ => show k1_off1 i 0 + 1 * f.val = g.val; rw [h0, hg]; omega
  | ⟨1, _⟩ => show k1_off1 i 1 + 1 * e.val = e.val; rw [h1]; omega

end Cert.KernelIdeal.R1

end
-- ==== Proof.R1Val.lean ====
/-
  Launch 1's value over the extended reals: the output array ends, at (p, j), at the sum over the 256 feature columns d
  of (the sum over all 6144 contraction indices f of the adjacency matrix at (p, f) times the features at (f, d)) times
  the weight matrix at (j, d), plus the bias at j.
    * After the point with row block m and contraction coordinate k the accumulator holds, at (r, e), the sum of the
      first k + 1 tiles' contributions to row 1024 m + r: by induction on the point, from what each case stores.
    * At k = 5 the 6 tiles' contributions are the whole contraction sum (a sum over 6144 indices is the sum over 6 blocks
      of 1024), and the output block is its projection by the weights, plus the bias.
    * Row block m is written back at point 6 m + 5; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R1Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : (c : Dev nD) → (b : Ref sig .tc) → Buf (Elt Ideal) ((c : Thread nD τ).loc b))

/-! ## The operand arrays as matrices, and the blocks the body is entered with -/

abbrev AA (c : Dev nD) : Iface.Mat 6144 6144 := W c main_v0
abbrev XX (c : Dev nD) : Iface.Mat 6144 256 := W c main_arg0
abbrev WW (c : Dev nD) : Iface.Mat 256 256 := W c main_v5
abbrev BB (c : Dev nD) : Iface.Mat 1 256 := W c main_v8

abbrev b0 (c : Dev nD) (t : Fin cfg1.N) : Vec Ideal S1024x1024 .bf16 := iblk W c 0 t
abbrev b1 (c : Dev nD) (t : Fin cfg1.N) : Vec Ideal S6144x256 .f32 := iblk W c 1 t
abbrev b2 (c : Dev nD) (t : Fin cfg1.N) : Vec Ideal S256x256 .f32 := iblk W c 2 t
abbrev b3 (c : Dev nD) (t : Fin cfg1.N) : Vec Ideal S1x256 .f32 := iblk W c 3 t

/-- The term of the contraction sum of row `p`, column `d`, at contraction index `n` (zero outside the extents). -/
def term (c : Dev nD) (p : ℕ) (d : Fin 256) (n : ℕ) : EReal :=
  if h : p < 6144 ∧ n < 6144 then AA W c (ix2 ⟨p, h.1⟩ ⟨n, h.2⟩) * XX W c (ix2 ⟨n, h.2⟩ d) else 0

/-- One tile's contribution: the 1024 terms of contraction block `kb`. -/
def tileSum (c : Dev nD) (p : ℕ) (d : Fin 256) (kb : ℕ) : EReal := ∑ f : Fin 1024, term W c p d (kb * 1024 + f.val)

theorem N_val : cfg1.N = 36 := N_1

/-- What the body's product adds at point t: the tile's contribution to row 1024 m + r. -/
theorem tile_sum (c : Dev nD) (t : Fin cfg1.N) (r : Fin 1024) (e : Fin 256) :
    (∑ f : Fin 1024, b0 W c t (ix2 r f) * rowsAt (grid1.coords t) (b1 W c t) (ix2 f e))
      = tileSum W c (1024 * (t.val / 6) + r.val) e (t.val % 6) := by
  unfold tileSum
  refine Finset.sum_congr rfl fun f _ => ?_
  have ht : t.val < 36 := Nat.lt_of_lt_of_eq t.isLt (N_val)
  have hp : 1024 * (t.val / 6) + r.val < 6144 := by have := r.isLt; omega
  have hg : t.val % 6 * 1024 + f.val < 6144 := by have := f.isLt; omega
  unfold term
  rw [dif_pos ⟨hp, hg⟩]
  refine congrArg₂ (· * ·) ?_ ?_
  · exact tile_apply W c t r f ⟨_, hp⟩ ⟨_, hg⟩ rfl (by show t.val % 6 * 1024 + f.val = _; omega)
  · exact (rowsAt_apply (grid1.coords t) (b1 W c t) f e ⟨_, hg⟩ (by rw [coord1 t]; show t.val % 6 * 1024 + f.val = _; omega)).trans
      (feat_apply W c t ⟨_, hg⟩ e)

/-! ## What each point leaves, in the payloads -/

theorem acc_first (c : Dev nD) (t : Fin cfg1.N) (h0 : t.val % 6 = 0) :
    (outsAt W c t.val t.isLt).2 = k1_pay2 (F := Ideal) (k1_pay1 (F := Ideal)) (b0 W c t) (rowsAt (grid1.coords t) (b1 W c t)) := by
  rw [outsAt_first W c t h0]
  dsimp only
  exact accFirst_eq (F := Ideal) c (grid1.coords t) (ms0 t) (hs0 t) (ms1 t) (hs1 t) (ms2 t) (hs2 t) (ms3 t) (hs3 t) (ms4 t) (hs4 t) accM (Memref.isWhole_whole _) ((isFirst_iff t).mpr h0) (fun h => by have := (isLast_iff t).mp h; omega) (iblk W c 0 t) (iblk W c 1 t) (iblk W c 2 t) (iblk W c 3 t)

theorem acc_middle (c : Dev nD) (t : Fin cfg1.N) (h0 : ¬t.val % 6 = 0) (h5 : ¬t.val % 6 = 5) :
    (outsAt W c t.val t.isLt).2 = k1_pay2 (F := Ideal) (outsAt W c (t.val - 1) (Nat.lt_of_le_of_lt (Nat.sub_le _ _) t.isLt)).2 (b0 W c t) (rowsAt (grid1.coords t) (b1 W c t)) := by
  rw [outsAt_middle W c t h0 h5]
  dsimp only
  exact accMiddle_eq (F := Ideal) c (grid1.coords t) (ms0 t) (hs0 t) (ms1 t) (hs1 t) (ms2 t) (hs2 t) (ms3 t) (hs3 t) (ms4 t) (hs4 t) accM (Memref.isWhole_whole _) (fun h => h0 ((isFirst_iff t).mp h)) (fun h => h5 ((isLast_iff t).mp h)) (iblk W c 0 t) (iblk W c 1 t) (iblk W c 2 t) (iblk W c 3 t) (outsAt W c (t.val - 1) (Nat.lt_of_le_of_lt (Nat.sub_le _ _) t.isLt)).2

theorem acc_last (c : Dev nD) (t : Fin cfg1.N) (h0 : ¬t.val % 6 = 0) (h5 : t.val % 6 = 5) :
    (outsAt W c t.val t.isLt).2 = k1_pay2 (F := Ideal) (outsAt W c (t.val - 1) (Nat.lt_of_le_of_lt (Nat.sub_le _ _) t.isLt)).2 (b0 W c t) (rowsAt (grid1.coords t) (b1 W c t)) := by
  rw [outsAt_last W c t h0 h5]
  dsimp only
  exact accLast_eq (F := Ideal) c (grid1.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

theorem out_last (c : Dev nD) (t : Fin cfg1.N) (h0 : ¬t.val % 6 = 0) (h5 : t.val % 6 = 5) :
    (outsAt W c t.val t.isLt).1 = k1_pay3 (F := Ideal) (outsAt W c t.val t.isLt).2 (b2 W c t) (b3 W c t) := by
  rw [acc_last W c t h0 h5, outsAt_last W c t h0 h5]
  dsimp only
  exact outLast_eq (F := Ideal) c (grid1.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

/-! ## The accumulator, point after point -/

/-- After point n (row block n / 6, contraction coordinate n % 6) the accumulator holds the first n % 6 + 1 tiles'
    contributions. -/
theorem acc_inv (c : Dev nD) : ∀ (n : ℕ) (hn : n < cfg1.N) (r : Fin 1024) (e : Fin 256),
    (outsAt W c n hn).2 (ix2 r e) = ∑ kb ∈ Finset.range (n % 6 + 1), tileSum W c (1024 * (n / 6) + r.val) e kb := by
  intro n
  induction n with
  | zero =>
    intro hn r e
    refine (congrFun (acc_first W c ⟨0, hn⟩ rfl) (ix2 r e)).trans ?_
    refine (pay2_apply _ _ _ r e).trans ?_
    rw [pay1_apply, zero_add, tile_sum W c ⟨0, hn⟩ r e]
    exact (Finset.sum_range_one _).symm
  | succ n ih =>
    intro hn r e
    by_cases h0 : (n + 1) % 6 = 0
    · refine (congrFun (acc_first W c ⟨n + 1, hn⟩ h0) (ix2 r e)).trans ?_
      refine (pay2_apply _ _ _ r e).trans ?_
      rw [pay1_apply, zero_add, tile_sum W c ⟨n + 1, hn⟩ r e]
      show tileSum W c (1024 * ((n + 1) / 6) + r.val) e ((n + 1) % 6) = _
      rw [h0]
      exact (Finset.sum_range_one _).symm
    · have hprev := ih (Nat.lt_of_succ_lt hn) r e
      have e1 : n % 6 + 1 = (n + 1) % 6 := by omega
      have e2 : n / 6 = (n + 1) / 6 := by omega
      rw [e1, e2] at hprev
      have hstep : (outsAt W c (n + 1) hn).2 = k1_pay2 (F := Ideal) (outsAt W c n (Nat.lt_of_succ_lt hn)).2 (b0 W c ⟨n + 1, hn⟩) (rowsAt (grid1.coords ⟨n + 1, hn⟩) (b1 W c ⟨n + 1, hn⟩)) := by
        by_cases h5 : (n + 1) % 6 = 5
        · exact acc_last W c ⟨n + 1, hn⟩ h0 h5
        · exact acc_middle W c ⟨n + 1, hn⟩ h0 h5
      refine (congrFun hstep (ix2 r e)).trans ?_
      refine (pay2_apply _ _ _ r e).trans ?_
      rw [Finset.sum_range_succ, hprev, tile_sum W c ⟨n + 1, hn⟩ r e]

/-- The 6 tiles' contributions are the whole contraction sum: a sum over 6144 indices is the sum over 6 blocks of 1024. -/
theorem tiles_total (c : Dev nD) (p : Fin 6144) (d : Fin 256) :
    ∑ kb ∈ Finset.range 6, tileSum W c p.val d kb = ∑ f : Fin 6144, AA W c (ix2 p f) * XX W c (ix2 f d) := by
  rw [← Fin.sum_univ_eq_sum_range (fun kb => tileSum W c p.val d kb) 6]
  rw [BlockSums.sum_blocks 6 1024 6144 (by norm_num) (fun f : Fin 6144 => AA W c (ix2 p f) * XX W c (ix2 f d))]
  refine Finset.sum_congr rfl fun kb _ => ?_
  unfold tileSum
  refine Finset.sum_congr rfl fun f _ => ?_
  have hg : kb.val * 1024 + f.val < 6144 := by have := kb.isLt; have := f.isLt; omega
  unfold term
  rw [dif_pos ⟨p.isLt, hg⟩]

/-! ## The output block at the last contraction coordinate, and the output array -/

/-- What the output array has to hold. -/
def G (c : Dev nD) : Iface.Mat 6144 256 := fun i =>
  (∑ d : Fin 256, (∑ f : Fin 6144, AA W c (ix2 (i 0) f) * XX W c (ix2 f d)) * WW W c (ix2 (i 1) d)) + BB W c (ix2 0 (i 1))

/-- The output block stored at point t = 6 m + 5, at (r, j): `G` at (1024 m + r, j). -/
theorem out_val (c : Dev nD) (t : Fin cfg1.N) (h5 : t.val % 6 = 5) (r : Fin 1024) (j : Fin 256) (p : Fin 6144)
    (hp : p.val = 1024 * (t.val / 6) + r.val) :
    (outsAt W c t.val t.isLt).1 (ix2 r j) = G W c (ix2 p j) := by
  have h0 : ¬t.val % 6 = 0 := by omega
  refine (congrFun (out_last W c t h0 h5) (ix2 r j)).trans ?_
  refine (pay3_apply _ _ _ r j).trans ?_
  refine congrArg₂ (· + ·) (Finset.sum_congr rfl fun d _ => congrArg₂ (· * ·) ?_ (wt_apply W c t j d)) (bias_apply W c t 0 j)
  rw [acc_inv W c t.val t.isLt r d, h5, ← hp]
  exact tiles_total W c p d

/-- Row block m of a matrix, read through the output window's block at point t, at (r, j). -/
theorem out_read (c : Dev nD) (t : Fin cfg1.N) (Gm : Iface.Mat 6144 256) (r : Fin 1024) (j : Fin 256) (p : Fin 6144)
    (hp : p.val = 1024 * (t.val / 6) + r.val) :
    ((cfg1.win 4).blk t).view.read (Elt Ideal) Gm (ix2 r j) = Gm (ix2 p j) := by
  have hi := index_out t
  rw [View.read_apply]
  show Gm _ = Gm _
  congr 1
  funext a
  apply Fin.ext
  match a with
  | ⟨0, _⟩ => show win1_4.index t 0 * 1024 + 1 * r.val = p.val; rw [hi.1, hp]; omega
  | ⟨1, _⟩ => show win1_4.index t 1 * 256 + 1 * j.val = j.val; rw [hi.2]; omega

/-- Every write-back writes its row block of `G`. -/
theorem flushed_eq (c : Dev nD) (t : Fin cfg1.N) (hf : (cfg1.win 4).flush t = true) :
    (dat W c).flushed 4 t = ((cfg1.win 4).blk t).view.read (Elt Ideal) (G W c) := by
  have h5 : t.val % 6 = 5 := (flush1_4 t).mp hf
  have ht : t.val < 36 := Nat.lt_of_lt_of_eq t.isLt N_val
  show (cfg1.win 4).cut (grid1.coords t) ((dat W c).after 4 t) = _
  rw [after4]
  funext y
  obtain ⟨r, j, rfl⟩ : ∃ (r : Fin 1024) (j : Fin 256), y = ix2 r j := ⟨y 0, y 1, eq_ix2 y⟩
  have hp : 1024 * (t.val / 6) + r.val < 6144 := by have := r.isLt; omega
  exact (out_val W c t h5 r j ⟨_, hp⟩ rfl).trans (out_read c t (G W c) r j ⟨_, hp⟩ rfl).symm

/-- The row blocks written back cover the output array: row p is in the block written at point 6 (p / 1024) + 5. -/
theorem cover (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : (i 0).val < 6144 := (i 0).isLt
  have hi1 : (i 1).val < 256 := (i 1).isLt
  have htN : 6 * ((i 0).val / 1024) + 5 < cfg1.N := by rw [N_val]; omega
  refine ⟨⟨6 * ((i 0).val / 1024) + 5, htN⟩, (flush1_4 _).mpr (by show (6 * ((i 0).val / 1024) + 5) % 6 = 5; omega), ?_⟩
  have hidx := index_out ⟨6 * ((i 0).val / 1024) + 5, htN⟩
  show i ∈ ((View.whole main_v9).slice (win1_4.rect ⟨6 * ((i 0).val / 1024) + 5, htN⟩)).set
  rw [View.set_slice_whole, Rect.mem_set_unit]
  intro a
  match a with
  | ⟨0, _⟩ =>
    show win1_4.index ⟨6 * ((i 0).val / 1024) + 5, htN⟩ 0 * 1024 ≤ (i 0).val ∧ (i 0).val < win1_4.index ⟨6 * ((i 0).val / 1024) + 5, htN⟩ 0 * 1024 + 1024
    rw [hidx.1]
    show (6 * ((i 0).val / 1024) + 5) / 6 * 1024 ≤ (i 0).val ∧ (i 0).val < (6 * ((i 0).val / 1024) + 5) / 6 * 1024 + 1024
    omega
  | ⟨1, _⟩ =>
    show win1_4.index ⟨6 * ((i 0).val / 1024) + 5, htN⟩ 1 * 256 ≤ (i 1).val ∧ (i 1).val < win1_4.index ⟨6 * ((i 0).val / 1024) + 5, htN⟩ 1 * 256 + 256
    rw [hidx.2]
    omega

/-- So the output array ends holding `G`. -/
theorem final (c : Dev nD) : (dat W c).arrAt 4 cfg1.N = G W c :=
  (dat W c).arrAt_eq_of_cover 4 (G W c) (flushed_eq W c) (cover c)

/-- The launch's output, entry by entry. -/
theorem leaves_ok : Cert.KernelIdeal.Iface.Is1 (fun W c => (dat (F := Ideal) W c).arrAt 4 cfg1.N) := by
  intro W c p j
  show (dat W c).arrAt 4 cfg1.N (ix2 p j) = _
  rw [final W c]
  rfl

end Cert.KernelIdeal.R1

end
-- ==== Proof.R2Pieces.lean ====
/-
  Launch 2's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias, plus the first
  skip block, clamped below at zero, plus the second skip block) of the accumulator's new contents. Each is read off the
  stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R2Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid2.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The rows of the features the point contracts against: 1024 rows from the point's offset. -/
abbrev rowsAt (x1 : Vec F S6144x256 .f32) : Vec F S1024x256 .f32 :=
  View.ld x1 (Rect.unit (s := S6144x256) (k2_off1 i) S1024x256.size (k2_off1_inb i))

/-- k = 0: the accumulator ends at zero plus the tile's product. -/
theorem accFirst_eq (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) :
    accFirst c i arg2 harg2 arg3 harg3 arg4 harg4 arg5 harg5 arg6 harg6 arg7 harg7 arg8 harg8 arg9 harg9 hc0 hc1 x0 x1 x2 x3 x4 x5 = k2_pay2 (k2_pay1 (F := F)) x0 (rowsAt i x1) := by
  unfold accFirst
  rw [View.read_writes_eq_canon _ _ _ (cover_accFirst c i arg2 harg2 arg3 harg3 arg4 harg4 arg5 harg5 arg6 harg6 arg7 harg7 arg8 harg8 arg9 harg9 hc0 hc1 x0 x1 x2 x3 x4 x5)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    accMiddle c i arg2 harg2 arg3 harg3 arg4 harg4 arg5 harg5 arg6 harg6 arg7 harg7 arg8 harg8 arg9 harg9 hc0 hc1 x0 x1 x2 x3 x4 x5 xs0 = k2_pay2 xs0 x0 (rowsAt i x1) := by
  unfold accMiddle
  rw [View.read_writes_eq_canon _ _ _ (cover_accMiddle c i arg2 harg2 arg3 harg3 arg4 harg4 arg5 harg5 arg6 harg6 arg7 harg7 arg8 harg8 arg9 harg9 hc0 hc1 x0 x1 x2 x3 x4 x5 xs0)]
  unfold runMiddle
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    accLast c i arg2 harg2 arg3 harg3 arg4 harg4 arg5 harg5 arg6 harg6 arg7 harg7 arg8 harg8 arg9 harg9 hc0 hc1 x0 x1 x2 x3 x4 x5 xs0 = k2_pay2 xs0 x0 (rowsAt i x1) := by
  unfold accLast
  rw [View.read_writes_eq_canon _ _ _ (cover_accLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- and the output block is the epilogue of that, the weights, the bias row and the two skip blocks. -/
theorem outLast_eq (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    outLast c i arg2 harg2 arg3 harg3 arg4 harg4 arg5 harg5 arg6 harg6 arg7 harg7 arg8 harg8 arg9 harg9 hc0 hc1 x0 x1 x2 x3 x4 x5 xs0 = k2_pay3 (k2_pay2 xs0 x0 (rowsAt i x1)) x2 x3 x4 x5 := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz, View.readCov_unit_zero (S := S1024x256) _ hz]
  simp only [View.readAt_eq_ld, harg2.read_unread, harg3.read_unread, harg9.read_unread, View.ld_unit_zero (S := S1024x1024) hz, View.ld_unit_zero (S := S1024x256) hz, harg4.read_unread, harg5.read_unread, harg6.read_unread, harg7.read_unread, View.ld_unit_zero (S := S256x256) hz, View.ld_unit_zero (S := S1x256) hz]
  rfl
end

end Cert.KernelIdeal.R2

end
-- ==== Proof.R2Blocks.lean ====
/-
  Launch 2, entry by entry over the extended reals: what each of the kernel's payloads holds at an entry (the
  accumulator's store: what it held plus the sum over the tile's 1024 contraction indices; the output's store: the sum
  over the 256 feature columns of the accumulator times the weight matrix's row, plus the bias, plus the first skip
  block, the maximum of that and zero, plus the second skip block), and what each block the body is entered with holds at
  an entry, as an entry of the launch's operand arrays (the tile at point 6 m + k is block (m, k) of the adjacency
  matrix; the features, the weights and the bias are whole arrays; the skip blocks are row block m of theirs).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R2Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k2_pay1 (F := Ideal) j = 0 := by
  unfold k2_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k2_pay2 (F := Ideal) v3 v4 v9 (ix2 r e) = v3 (ix2 r e) + ∑ f : Fin 1024, v4 (ix2 r f) * v9 (ix2 f e) := by
  unfold k2_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`, plus the first
    skip block, the maximum of that and zero, plus the second skip block. -/
theorem pay3_apply (v20 : Vec Ideal S1024x256 .f32) (v21 : Vec Ideal S256x256 .f32) (v26 : Vec Ideal S1x256 .f32) (v30 v35 : Vec Ideal S1024x256 .f32) (r : Fin 1024) (j : Fin 256) :
    k2_pay3 (F := Ideal) v20 v21 v26 v30 v35 (ix2 r j)
      = max (v30 (ix2 r j) + ((∑ d : Fin 256, v20 (ix2 r d) * v21 (ix2 j d)) + v26 (ix2 0 j))) 0 + v35 (ix2 r j) := by
  unfold k2_pay3
  simp only [shapeCast_self]
  refine congrArg₂ (· + ·) ?_ rfl
  refine congrArg₂ max ?_ ?_
  · refine congrArg (v30 (ix2 r j) + ·) ?_
    refine congrArg₂ (· + ·) ?_ ?_
    · exact Cert.Lib.MatmulT.matmul_trhs_zero_apply (M := 1024) (K := 256) (N := 256) none _ _ r j
    · exact broadcastTo_apply v26 _ (ix2 r j) (ix2 0 j) (fun a => by
        match a with
        | ⟨0, _⟩ => rfl
        | ⟨1, _⟩ => rfl)
  · exact Ideal.ofBits_zero_f32

/-! ## The blocks the body is entered with, entry by entry -/

/-- The block indices at point t = 6 m + k: the tile is block (m, k) of the adjacency matrix; the features', the weights'
    and the bias's one block is the whole array; the skip blocks and the output block are row block m; the contraction
    coordinate is k. -/
theorem index_w0 : ∀ t : Fin cfg2.N, win2_0.index t 0 = t.val / 6 ∧ win2_0.index t 1 = t.val % 6 :=
  (by decide +kernel : ∀ t : Fin grid2.N, win2_0.index t 0 = t.val / 6 ∧ win2_0.index t 1 = t.val % 6)
theorem index_w1 : ∀ t : Fin cfg2.N, win2_1.index t 0 = 0 ∧ win2_1.index t 1 = 0 :=
  (by decide +kernel : ∀ t : Fin grid2.N, win2_1.index t 0 = 0 ∧ win2_1.index t 1 = 0)
theorem index_w2 : ∀ t : Fin cfg2.N, win2_2.index t 0 = 0 ∧ win2_2.index t 1 = 0 :=
  (by decide +kernel : ∀ t : Fin grid2.N, win2_2.index t 0 = 0 ∧ win2_2.index t 1 = 0)
theorem index_w3 : ∀ t : Fin cfg2.N, win2_3.index t 0 = 0 ∧ win2_3.index t 1 = 0 :=
  (by decide +kernel : ∀ t : Fin grid2.N, win2_3.index t 0 = 0 ∧ win2_3.index t 1 = 0)
theorem index_w4 : ∀ t : Fin cfg2.N, win2_4.index t 0 = t.val / 6 ∧ win2_4.index t 1 = 0 :=
  (by decide +kernel : ∀ t : Fin grid2.N, win2_4.index t 0 = t.val / 6 ∧ win2_4.index t 1 = 0)
theorem index_w5 : ∀ t : Fin cfg2.N, win2_5.index t 0 = t.val / 6 ∧ win2_5.index t 1 = 0 :=
  (by decide +kernel : ∀ t : Fin grid2.N, win2_5.index t 0 = t.val / 6 ∧ win2_5.index t 1 = 0)
theorem index_w6 : ∀ t : Fin cfg2.N, win2_6.index t 0 = t.val / 6 ∧ win2_6.index t 1 = 0 :=
  (by decide +kernel : ∀ t : Fin grid2.N, win2_6.index t 0 = t.val / 6 ∧ win2_6.index t 1 = 0)
theorem coord1 : ∀ t : Fin cfg2.N, ((grid2.coords t) 1).val = t.val % 6 :=
  (by decide +kernel : ∀ t : Fin grid2.N, ((grid2.coords t) 1).val = t.val % 6)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg2.N) (r f : Fin 1024) (p g : Fin 6144)
    (hp : p.val = 1024 * (t.val / 6) + r.val) (hg : g.val = 1024 * (t.val % 6) + f.val) :
    (iblk W c 0 t : Vec F S1024x1024 .bf16) (ix2 r f) = (W c main_v0 : (⟨2, ![6144, 6144]⟩ : Shape).Idx → Elt F .bf16) (ix2 p g) := by
  have hi := index_w0 t
  unfold iblk
  rw [View.read_apply]
  show W c main_v0 _ = W c main_v0 _
  congr 1
  funext a
  apply Fin.ext
  match a with
  | ⟨0, _⟩ => show win2_0.index t 0 * 1024 + 1 * r.val = p.val; rw [hi.1, hp]; omega
  | ⟨1, _⟩ => show win2_0.index t 1 * 1024 + 1 * f.val = g.val; rw [hi.2, hg]; omega

/-- Window 1's block at any point is its whole array. -/
theorem feat_apply (c : Dev nD) (t : Fin cfg2.N) (g : Fin 6144) (e : Fin 256) :
    (iblk W c 1 t : Vec F S6144x256 .f32) (ix2 g e) = (W c main_v9 : S6144x256.Idx → Elt F .f32) (ix2 g e) := by
  have hi := index_w1 t
  unfold iblk
  rw [View.read_apply]
  show W c main_v9 _ = W c main_v9 _
  congr 1
  funext a
  apply Fin.ext
  match a with
  | ⟨0, _⟩ => show win2_1.index t 0 * 6144 + 1 * g.val = g.val; rw [hi.1]; omega
  | ⟨1, _⟩ => show win2_1.index t 1 * 256 + 1 * e.val = e.val; rw [hi.2]; omega

/-- Window 2's block at any point is its whole array. -/
theorem wt_apply (c : Dev nD) (t : Fin cfg2.N) (j : Fin 256) (d : Fin 256) :
    (iblk W c 2 t : Vec F S256x256 .f32) (ix2 j d) = (W c main_v11 : S256x256.Idx → Elt F .f32) (ix2 j d) := by
  have hi := index_w2 t
  unfold iblk
  rw [View.read_apply]
  show W c main_v11 _ = W c main_v11 _
  congr 1
  funext a
  apply Fin.ext
  match a with
  | ⟨0, _⟩ => show win2_2.index t 0 * 256 + 1 * j.val = j.val; rw [hi.1]; omega
  | ⟨1, _⟩ => show win2_2.index t 1 * 256 + 1 * d.val = d.val; rw [hi.2]; omega

/-- Window 3's block at any point is its whole array. -/
theorem bias_apply (c : Dev nD) (t : Fin cfg2.N) (z : Fin 1) (j : Fin 256) :
    (iblk W c 3 t : Vec F S1x256 .f32) (ix2 z j) = (W c main_v14 : S1x256.Idx → Elt F .f32) (ix2 z j) := by
  have hi := index_w3 t
  unfold iblk
  rw [View.read_apply]
  show W c main_v14 _ = W c main_v14 _
  congr 1
  funext a
  apply Fin.ext
  match a with
  | ⟨0, _⟩ => show win2_3.index t 0 * 1 + 1 * z.val = z.val; rw [hi.1]; omega
  | ⟨1, _⟩ => show win2_3.index t 1 * 256 + 1 * j.val = j.val; rw [hi.2]; omega

/-- The first skip block at point t, at (r, e): its array at (1024 m + r, e). -/
theorem res1_apply (c : Dev nD) (t : Fin cfg2.N) (r : Fin 1024) (e : Fin 256) (p : Fin 6144)
    (hp : p.val = 1024 * (t.val / 6) + r.val) :
    (iblk W c 4 t : Vec F S1024x256 .f32) (ix2 r e) = (W c main_v9 : S6144x256.Idx → Elt F .f32) (ix2 p e) := by
  have hi := index_w4 t
  unfold iblk
  rw [View.read_apply]
  show W c main_v9 _ = W c main_v9 _
  congr 1
  funext a
  apply Fin.ext
  match a with
  | ⟨0, _⟩ => show win2_4.index t 0 * 1024 + 1 * r.val = p.val; rw [hi.1, hp]; omega
  | ⟨1, _⟩ => show win2_4.index t 1 * 256 + 1 * e.val = e.val; rw [hi.2]; omega

/-- The second skip block at point t, at (r, e): its array at (1024 m + r, e). -/
theorem res2_apply (c : Dev nD) (t : Fin cfg2.N) (r : Fin 1024) (e : Fin 256) (p : Fin 6144)
    (hp : p.val = 1024 * (t.val / 6) + r.val) :
    (iblk W c 5 t : Vec F S1024x256 .f32) (ix2 r e) = (W c main_arg0 : S6144x256.Idx → Elt F .f32) (ix2 p e) := by
  have hi := index_w5 t
  unfold iblk
  rw [View.read_apply]
  show W c main_arg0 _ = W c main_arg0 _
  congr 1
  funext a
  apply Fin.ext
  match a with
  | ⟨0, _⟩ => show win2_5.index t 0 * 1024 + 1 * r.val = p.val; rw [hi.1, hp]; omega
  | ⟨1, _⟩ => show win2_5.index t 1 * 256 + 1 * e.val = e.val; rw [hi.2]; omega
end

/-- The 1024 rows from the point's offset, at (f, e): the features at (1024 k + f, e). -/
theorem rowsAt_apply (i : grid2.Coords) (x1 : Vec F S6144x256 .f32) (f : Fin 1024) (e : Fin 256) (g : Fin 6144)
    (hg : g.val = 1024 * (i 1).val + f.val) : rowsAt i x1 (ix2 f e) = x1 (ix2 g e) := by
  have h0 : k2_off1 i 0 = 1024 * (i 1).val := by rw [k2_off1_eq i]; rfl
  have h1 : k2_off1 i 1 = 0 := by rw [k2_off1_eq i]; rfl
  show x1 _ = x1 _
  congr 1
  funext a
  apply Fin.ext
  match a with
  | ⟨0, _⟩ => show k2_off1 i 0 + 1 * f.val = g.val; rw [h0, hg]; omega
  | ⟨1, _⟩ => show k2_off1 i 1 + 1 * e.val = e.val; rw [h1]; omega

end Cert.KernelIdeal.R2

end
-- ==== Proof.R2Val.lean ====
/-
  Launch 2's value over the extended reals: the output array ends, at (p, j), at
      max (r₁ (p, j) + (Σ_d (Σ_f A (p, f) · X (f, d)) · Wm (j, d) + b (0, j))) 0 + r₂ (p, j)
  with A the adjacency matrix, X the features, Wm the weights, b the bias row, r₁ r₂ the two skip arrays; f runs over all
  6144 contraction indices.
    * After the point with row block m and contraction coordinate k the accumulator holds, at (r, e), the sum of the
      first k + 1 tiles' contributions to row 1024 m + r: by induction on the point, from what each case stores.
    * At k = 5 the 6 tiles' contributions are the whole contraction sum (a sum over 6144 indices is the sum over 6
      blocks of 1024), and the output block is the epilogue of it.
    * Row block m is written back at point 6 m + 5; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R2Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : Iface.Vl)

/-! ## The operand arrays, and the blocks at a point, as matrices of extended reals -/

abbrev AA (c : Dev nD) : Iface.Mat 6144 6144 := W c main_v0
abbrev XX (c : Dev nD) : Iface.Mat 6144 256 := W c main_v9
abbrev WW (c : Dev nD) : Iface.Mat 256 256 := W c main_v11
abbrev BB (c : Dev nD) : Iface.Mat 1 256 := W c main_v14
abbrev S1 (c : Dev nD) : Iface.Mat 6144 256 := W c main_v9
abbrev S2 (c : Dev nD) : Iface.Mat 6144 256 := W c main_arg0
abbrev tileAt (c : Dev nD) (t : Fin cfg2.N) : Vec Ideal S1024x1024 .bf16 := iblk W c 0 t
abbrev featAt (c : Dev nD) (t : Fin cfg2.N) : Vec Ideal S6144x256 .f32 := iblk W c 1 t
abbrev wtAt (c : Dev nD) (t : Fin cfg2.N) : Vec Ideal S256x256 .f32 := iblk W c 2 t
abbrev biasAt (c : Dev nD) (t : Fin cfg2.N) : Vec Ideal S1x256 .f32 := iblk W c 3 t
abbrev res1At (c : Dev nD) (t : Fin cfg2.N) : Vec Ideal S1024x256 .f32 := iblk W c 4 t
abbrev res2At (c : Dev nD) (t : Fin cfg2.N) : Vec Ideal S1024x256 .f32 := iblk W c 5 t

/-- The n-th term of the contraction at (p, d): adjacency (p, n) times features (n, d); zero past the extent. -/
def term (c : Dev nD) (p : Fin 6144) (d : Fin 256) (n : ℕ) : EReal :=
  if h : n < 6144 then AA W c (ix2 p ⟨n, h⟩) * XX W c (ix2 ⟨n, h⟩ d) else 0

/-- The sum of the 1024 terms of contraction block j. -/
def blockSum (c : Dev nD) (p : Fin 6144) (d : Fin 256) (j : ℕ) : EReal := ∑ f : Fin 1024, term W c p d (j * 1024 + f.val)

/-- The tile's product at point t = 6 m + k, at (r, e): the sum of contraction block k at (1024 m + r, e). -/
theorem prod_at (c : Dev nD) (t : Fin cfg2.N) (r : Fin 1024) (e : Fin 256) (p : Fin 6144) (hp : p.val = 1024 * (t.val / 6) + r.val) :
    (∑ f : Fin 1024, tileAt W c t (ix2 r f) * rowsAt (grid2.coords t) (featAt W c t) (ix2 f e))
      = blockSum W c p e (t.val % 6) := by
  refine Finset.sum_congr rfl fun f _ => ?_
  have hlt : (t.val % 6) * 1024 + f.val < 6144 := by
    have := f.isLt; have : t.val % 6 < 6 := Nat.mod_lt _ (by omega); omega
  unfold term
  rw [dif_pos hlt]
  exact congrArg₂ (· * ·)
    (tile_apply W c t r f p ⟨_, hlt⟩ hp (by show (t.val % 6) * 1024 + f.val = 1024 * (t.val % 6) + f.val; omega))
    ((rowsAt_apply (grid2.coords t) _ f e ⟨_, hlt⟩ (by rw [coord1 t]; show (t.val % 6) * 1024 + f.val = 1024 * (t.val % 6) + f.val; omega)).trans
      (feat_apply W c t ⟨_, hlt⟩ e))

set_option maxHeartbeats 4000000 in
/-- At a point that opens a row block the accumulator holds the first block's sum. -/
theorem acc_first (c : Dev nD) (t : Fin cfg2.N) (h0 : t.val % 6 = 0) (r : Fin 1024) (e : Fin 256) (p : Fin 6144)
    (hp : p.val = 1024 * (t.val / 6) + r.val) :
    (outsAt W c t.val t.isLt).2 (ix2 r e) = ∑ j ∈ Finset.range (t.val % 6 + 1), blockSum W c p e j := by
  refine (congrFun (congrArg Prod.snd (outsAt_first W c t h0)) (ix2 r e)).trans ?_
  refine (congrFun (accFirst_eq (F := Ideal) c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
    ((isFirst_iff t).mpr h0) (fun h => by have := (isLast_iff t).mp h; omega) (iblk W c 0 t) (iblk W c 1 t) (iblk W c 2 t) (iblk W c 3 t) (iblk W c 4 t) (iblk W c 5 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg2.N) (h0 : ¬t.val % 6 = 0) (r : Fin 1024) (e : Fin 256) (p : Fin 6144)
    (hp : p.val = 1024 * (t.val / 6) + r.val) (h' : t.val - 1 < cfg2.N)
    (ih : (outsAt W c (t.val - 1) h').2 (ix2 r e) = ∑ j ∈ Finset.range (t.val % 6), blockSum W c p e j) :
    (outsAt W c t.val t.isLt).2 (ix2 r e) = ∑ j ∈ Finset.range (t.val % 6 + 1), blockSum W c p e j := by
  rw [Finset.sum_range_succ, ← prod_at W c t r e p hp, ← ih]
  by_cases h5 : t.val % 6 = 5
  · refine (congrFun (congrArg Prod.snd (outsAt_last W c t h0 h5)) (ix2 r e)).trans ?_
    refine (congrFun (accLast_eq (F := Ideal) c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e

/-- After the point at position n = 6 m + k the accumulator at (r, e) is the sum of contraction blocks 0 … k at
    (1024 m + r, e). -/
theorem acc_inv (c : Dev nD) : ∀ (n : ℕ) (hn : n < cfg2.N) (r : Fin 1024) (e : Fin 256) (p : Fin 6144),
    p.val = 1024 * (n / 6) + r.val → (outsAt W c n hn).2 (ix2 r e) = ∑ j ∈ Finset.range (n % 6 + 1), blockSum W c p e j
  | 0, hn, r, e, p, hp => acc_first W c ⟨0, hn⟩ rfl r e p hp
  | n + 1, hn, r, e, p, hp => by
    by_cases h0 : (n + 1) % 6 = 0
    · exact acc_first W c ⟨n + 1, hn⟩ h0 r e p hp
    · have ih := acc_inv c n (Nat.lt_of_succ_lt hn) r e p (by
        have : n / 6 = (n + 1) / 6 := by omega
        rw [this]; exact hp)
      have hm : n % 6 + 1 = (n + 1) % 6 := by omega
      rw [hm] at ih
      exact acc_step W c ⟨n + 1, hn⟩ h0 r e p hp (Nat.lt_of_succ_lt hn) ih

/-- The 6 block sums are the whole contraction. -/
theorem sum_all (c : Dev nD) (p : Fin 6144) (d : Fin 256) :
    ∑ j ∈ Finset.range 6, blockSum W c p d j
      = ∑ f : Fin 6144, AA W c (ix2 p f) * XX W c (ix2 f d) := by
  rw [BlockSums.sum_blocks 6 1024 6144 rfl (fun n : Fin 6144 => AA W c (ix2 p n) * XX W c (ix2 n d))]
  rw [← Fin.sum_univ_eq_sum_range (fun j => blockSum W c p d j) 6]
  refine Finset.sum_congr rfl fun j _ => Finset.sum_congr rfl fun f _ => ?_
  unfold term
  rw [dif_pos (BlockSums.block_row_lt j f)]

/-- Entry (p, j) of the output: the epilogue of the whole contraction sums of row p. -/
def resultAt (c : Dev nD) (p : Fin 6144) (j : Fin 256) : EReal :=
  max (S1 W c (ix2 p j) + ((∑ d : Fin 256, (∑ f : Fin 6144, AA W c (ix2 p f) * XX W c (ix2 f d)) * WW W c (ix2 j d)) + BB W c (ix2 0 j))) 0
    + S2 W c (ix2 p j)

set_option maxHeartbeats 4000000 in
/-- At a point that closes a row block the output block at (r, j) is the result at (1024 m + r, j). -/
theorem out_last (c : Dev nD) (t : Fin cfg2.N) (h5 : t.val % 6 = 5) (r : Fin 1024) (j : Fin 256) (p : Fin 6144)
    (hp : p.val = 1024 * (t.val / 6) + r.val) :
    (outsAt W c t.val t.isLt).1 (ix2 r j) = resultAt W c p j := by
  have h0 : ¬t.val % 6 = 0 := by omega
  have e1 := congrFun (congrArg Prod.fst (outsAt_last W c t h0 h5)) (ix2 r j)
  have hacc : ∀ d : Fin 256, k2_pay2 (F := Ideal) (outsAt W c (t.val - 1) (Nat.lt_of_le_of_lt (Nat.sub_le _ _) t.isLt)).2 (iblk W c 0 t) (rowsAt (grid2.coords t) (iblk W c 1 t)) (ix2 r d)
      = ∑ f : Fin 6144, AA W c (ix2 p f) * XX W c (ix2 f d) := fun d => by
    have e2 := congrFun (congrArg Prod.snd (outsAt_last W c t h0 h5)) (ix2 r d)
    have a := acc_inv W c t.val t.isLt r d p hp
    rw [h5, sum_all] at a
    rw [← a]
    exact ((congrFun (accLast_eq (F := Ideal) c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r d)).symm.trans e2.symm)
  refine e1.trans ?_
  refine (congrFun (outLast_eq (F := Ideal) c (grid2.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r j)).trans ?_
  refine (pay3_apply _ _ _ _ _ r j).trans ?_
  unfold resultAt
  refine congrArg₂ (· + ·) (congrArg₂ max (congrArg₂ (· + ·) (res1_apply W c t r j p hp)
    (congrArg₂ (· + ·) (Finset.sum_congr rfl fun d _ => congrArg₂ (· * ·) (hacc d) (wt_apply W c t j d)) (bias_apply W c t 0 j))) rfl) (res2_apply W c t r j p hp)

/-! ## What the launch leaves in its output array -/

/-- The array the launch leaves. -/
def result (c : Dev nD) : Buf (Elt Ideal) ((c : Thread nD τ).loc main_v15) :=
  fun i : S6144x256.Idx => resultAt W c (i 0) (i 1)

set_option maxHeartbeats 4000000 in
/-- The block written back at a point that closes a row block is that row block of the result. -/
theorem flushed_eq (c : Dev nD) (t : Fin cfg2.N) (hf : (cfg2.win 6).flush t = true) :
    (dat W c).flushed 6 t = ((cfg2.win 6).blk t).view.read (Elt Ideal) (result W c) := by
  have h5 : t.val % 6 = 5 := (flush2_6 t).mp hf
  show (cfg2.win 6).cut (grid2.coords t) ((dat W c).after 6 t) = _
  rw [after6]
  refine funext fun (y : S1024x256.Idx) => ?_
  obtain ⟨r, e, rfl⟩ : ∃ (r : Fin 1024) (e : Fin 256), y = ix2 r e := ⟨y 0, y 1, eq_ix2 y⟩
  have hx : (cfg2.win 6).xinj (grid2.coords t) (ix2 r e) = (ix2 r e : S1024x256.Idx) :=
    funext fun a => Fin.ext (by match a with | ⟨0, _⟩ => rfl | ⟨1, _⟩ => rfl)
  show (outsAt W c t.val t.isLt).1 ((cfg2.win 6).xinj (grid2.coords t) (ix2 r e)) = _
  rw [hx, View.read_apply]
  show _ = result W c (((cfg2.win 6).blk t).view.emb (ix2 r e))
  have hp : ((((cfg2.win 6).blk t).view.emb (ix2 r e) : S6144x256.Idx) 0).val = 1024 * (t.val / 6) + r.val := by
    show win2_6.index t 0 * 1024 + 1 * r.val = _
    rw [(index_w6 t).1]; omega
  have he : (((cfg2.win 6).blk t).view.emb (ix2 r e) : S6144x256.Idx) 1 = e := Fin.ext (by
    show win2_6.index t 1 * 256 + 1 * e.val = e.val
    rw [(index_w6 t).2]; omega)
  refine (out_last W c t h5 r e _ hp).trans ?_
  unfold result
  rw [he]

/-- The row blocks written back cover the array (row p is in the block written at point 6 (p / 1024) + 5), so the
    array ends at the result. -/
theorem final (c : Dev nD) : (dat W c).arrAt 6 cfg2.N = result W c :=
  (dat W c).arrAt_eq_of_cover 6 (result W c) (flushed_eq W c) fun i => by
    have hN : cfg2.N = 36 := N_2
    have h0 : ((i : S6144x256.Idx) 0 : Nat) < 6144 := ((i : S6144x256.Idx) 0).isLt
    have h1 : ((i : S6144x256.Idx) 1 : Nat) < 256 := ((i : S6144x256.Idx) 1).isLt
    have ht : 6 * (((i : S6144x256.Idx) 0 : Nat) / 1024) + 5 < cfg2.N := by rw [hN]; omega
    refine ⟨⟨_, ht⟩, (flush2_6 _).mpr (by show (6 * (((i : S6144x256.Idx) 0 : Nat) / 1024) + 5) % 6 = 5; omega), ?_⟩
    show i ∈ ((View.whole main_v15).slice (win2_6.rect ⟨_, ht⟩)).set
    rw [View.set_slice_whole, Rect.mem_set_unit]
    have hi := index_w6 ⟨_, ht⟩
    intro a
    match a with
    | ⟨0, _⟩ =>
      show win2_6.index ⟨_, ht⟩ 0 * 1024 ≤ ((i : S6144x256.Idx) 0 : Nat) ∧ ((i : S6144x256.Idx) 0 : Nat) < win2_6.index ⟨_, ht⟩ 0 * 1024 + 1024
      rw [hi.1]
      show (6 * (((i : S6144x256.Idx) 0 : Nat) / 1024) + 5) / 6 * 1024 ≤ _ ∧ _ < (6 * (((i : S6144x256.Idx) 0 : Nat) / 1024) + 5) / 6 * 1024 + 1024
      omega
    | ⟨1, _⟩ =>
      show win2_6.index ⟨_, ht⟩ 1 * 256 ≤ ((i : S6144x256.Idx) 1 : Nat) ∧ ((i : S6144x256.Idx) 1 : Nat) < win2_6.index ⟨_, ht⟩ 1 * 256 + 256
      rw [hi.2]; omega

/-- Launch 2 leaves, at (p, j), the epilogue of the whole contraction sums of row p. -/
theorem leaves_ok : Iface.Is2 (fun W c => (dat (F := Ideal) W c).arrAt 6 cfg2.N) := by
  intro W c p j
  show ((dat (F := Ideal) W c).arrAt 6 cfg2.N) (ix2 p j) = _
  rw [final W c]
  rfl

end Cert.KernelIdeal.R2

end
-- ==== Proof.R3Pieces.lean ====
/-
  Launch 3's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias) of the
  accumulator's new contents. Each is read off the stores the case made: the last store over a whole block is what the
  block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R3Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid3.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The rows of the features the point contracts against: 1024 rows from the point's offset. -/
abbrev rowsAt (x1 : Vec F S6144x256 .f32) : Vec F S1024x256 .f32 :=
  View.ld x1 (Rect.unit (s := S6144x256) (k3_off1 i) S1024x256.size (k3_off1_inb i))

/-- k = 0: the accumulator ends at zero plus the tile's product. -/
theorem accFirst_eq (hc0 : isFirst i) (hc1 : ¬isLast i) (x0 : Vec F S1024x1024 .bf16) (x1 : Vec F S6144x256 .f32) (x2 : Vec F S256x256 .f32) (x3 : Vec F S1x256 .f32) :
    accFirst c i arg2 harg2 arg3 harg3 arg4 harg4 arg5 harg5 arg6 harg6 arg7 harg7 hc0 hc1 x0 x1 x2 x3 = k3_pay2 (k3_pay1 (F := F)) x0 (rowsAt i x1) := by
  unfold accFirst
  rw [View.read_writes_eq_canon _ _ _ (cover_accFirst c i arg2 harg2 arg3 harg3 arg4 harg4 arg5 harg5 arg6 harg6 arg7 harg7 hc0 hc1 x0 x1 x2 x3)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) :
    accMiddle c i arg2 harg2 arg3 harg3 arg4 harg4 arg5 harg5 arg6 harg6 arg7 harg7 hc0 hc1 x0 x1 x2 x3 xs0 = k3_pay2 xs0 x0 (rowsAt i x1) := by
  unfold accMiddle
  rw [View.read_writes_eq_canon _ _ _ (cover_accMiddle c i arg2 harg2 arg3 harg3 arg4 harg4 arg5 harg5 arg6 harg6 arg7 harg7 hc0 hc1 x0 x1 x2 x3 xs0)]
  unfold runMiddle
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (x2 : Vec F S256x256 .f32) (x3 : Vec F S1x256 .f32) (xs0 : Vec F S1024x256 .f32) :
    accLast c i arg2 harg2 arg3 harg3 arg4 harg4 arg5 harg5 arg6 harg6 arg7 harg7 hc0 hc1 x0 x1 x2 x3 xs0 = k3_pay2 xs0 x0 (rowsAt i x1) := by
  unfold accLast
  rw [View.read_writes_eq_canon _ _ _ (cover_accLast c i arg2 harg2 arg3 harg3 arg4 harg4 arg5 harg5 arg6 harg6 arg7 harg7 hc0 hc1 x0 x1 x2 x3 xs0)]
  unfold runLast
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- and the output block is that, projected by the weights, plus the bias. -/
theorem outLast_eq (hc0 : ¬isFirst i) (hc1 : isLast i) (x0 : Vec F S1024x1024 .bf16) (x1 : Vec F S6144x256 .f32) (x2 : Vec F S256x256 .f32) (x3 : Vec F S1x256 .f32) (xs0 : Vec F S1024x256 .f32) :
    outLast c i arg2 harg2 arg3 harg3 arg4 harg4 arg5 harg5 arg6 harg6 arg7 harg7 hc0 hc1 x0 x1 x2 x3 xs0 = k3_pay3 (k3_pay2 xs0 x0 (rowsAt i x1)) x2 x3 := by
  unfold outLast
  rw [View.read_writes_eq_canon _ _ _ (cover_outLast c i arg2 harg2 arg3 harg3 arg4 harg4 arg5 harg5 arg6 harg6 arg7 harg7 hc0 hc1 x0 x1 x2 x3 xs0)]
  unfold runLast
  dsimp only
  try sl_unfold_words
  rw [View.canon_unit_zero hz, View.readCov_unit_zero (S := S1024x256) _ hz]
  simp only [View.readAt_eq_ld, harg2.read_unread, harg3.read_unread, harg7.read_unread, View.ld_unit_zero (S := S1024x1024) hz, View.ld_unit_zero (S := S1024x256) hz, harg4.read_unread, harg5.read_unread, View.ld_unit_zero (S := S256x256) hz, View.ld_unit_zero (S := S1x256) hz]
  rfl
end

end Cert.KernelIdeal.R3

end
-- ==== Proof.R3Blocks.lean ====
/-
  Launch 3, entry by entry over the extended reals: what each of the kernel's payloads holds at an entry (the
  accumulator's store: what it held plus the sum over the tile's 1024 contraction indices; the output's store: the sum
  over the 256 feature columns of the accumulator times the weight matrix's row, plus the bias), and what each block the
  body is entered with holds at an entry, as an entry of the launch's operand arrays (the tile at point 6 m + k is block
  (m, k) of the adjacency matrix; the features, the weights and the bias are whole arrays).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R3Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k3_pay1 (F := Ideal) j = 0 := by
  unfold k3_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k3_pay2 (F := Ideal) v3 v4 v9 (ix2 r e) = v3 (ix2 r e) + ∑ f : Fin 1024, v4 (ix2 r f) * v9 (ix2 f e) := by
  unfold k3_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`. -/
theorem pay3_apply (v19 : Vec Ideal S1024x256 .f32) (v20 : Vec Ideal S256x256 .f32) (v25 : Vec Ideal S1x256 .f32) (r : Fin 1024) (j : Fin 256) :
    k3_pay3 (F := Ideal) v19 v20 v25 (ix2 r j) = (∑ d : Fin 256, v19 (ix2 r d) * v20 (ix2 j d)) + v25 (ix2 0 j) := by
  unfold k3_pay3
  simp only [shapeCast_self]
  refine congrArg₂ (· + ·) ?_ ?_
  · exact Cert.Lib.MatmulT.matmul_trhs_zero_apply (M := 1024) (K := 256) (N := 256) none _ _ r j
  · exact broadcastTo_apply v25 _ (ix2 r j) (ix2 0 j) (fun a => by
      match a with
      | ⟨0, _⟩ => rfl
      | ⟨1, _⟩ => rfl)

/-! ## The blocks the body is entered with, entry by entry -/

/-- The block indices at point t = 6 m + k: the tile is block (m, k) of the adjacency matrix, the features', the weights'
    and the bias's one block is the whole array, the output block is row block m; the contraction coordinate is k. -/
theorem index_tile : ∀ t : Fin cfg3.N, win3_0.index t 0 = t.val / 6 ∧ win3_0.index t 1 = t.val % 6 :=
  (by decide +kernel : ∀ t : Fin grid3.N, win3_0.index t 0 = t.val / 6 ∧ win3_0.index t 1 = t.val % 6)
theorem index_feat : ∀ t : Fin cfg3.N, win3_1.index t 0 = 0 ∧ win3_1.index t 1 = 0 :=
  (by decide +kernel : ∀ t : Fin grid3.N, win3_1.index t 0 = 0 ∧ win3_1.index t 1 = 0)
theorem index_wt : ∀ t : Fin cfg3.N, win3_2.index t 0 = 0 ∧ win3_2.index t 1 = 0 :=
  (by decide +kernel : ∀ t : Fin grid3.N, win3_2.index t 0 = 0 ∧ win3_2.index t 1 = 0)
theorem index_bias : ∀ t : Fin cfg3.N, win3_3.index t 0 = 0 ∧ win3_3.index t 1 = 0 :=
  (by decide +kernel : ∀ t : Fin grid3.N, win3_3.index t 0 = 0 ∧ win3_3.index t 1 = 0)
theorem index_out : ∀ t : Fin cfg3.N, win3_4.index t 0 = t.val / 6 ∧ win3_4.index t 1 = 0 :=
  (by decide +kernel : ∀ t : Fin grid3.N, win3_4.index t 0 = t.val / 6 ∧ win3_4.index t 1 = 0)
theorem coord1 : ∀ t : Fin cfg3.N, ((grid3.coords t) 1).val = t.val % 6 :=
  (by decide +kernel : ∀ t : Fin grid3.N, ((grid3.coords t) 1).val = t.val % 6)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg3.N) (r f : Fin 1024) (p g : Fin 6144)
    (hp : p.val = 1024 * (t.val / 6) + r.val) (hg : g.val = 1024 * (t.val % 6) + f.val) :
    (iblk W c 0 t : Vec F S1024x1024 .bf16) (ix2 r f) = (W c main_v0 : (⟨2, ![6144, 6144]⟩ : Shape).Idx → Elt F .bf16) (ix2 p g) := by
  have hi := index_tile t
  unfold iblk
  rw [View.read_apply]
  show W c main_v0 _ = W c main_v0 _
  congr 1
  funext a
  apply Fin.ext
  match a with
  | ⟨0, _⟩ => show win3_0.index t 0 * 1024 + 1 * r.val = p.val; rw [hi.1, hp]; omega
  | ⟨1, _⟩ => show win3_0.index t 1 * 1024 + 1 * f.val = g.val; rw [hi.2, hg]; omega

/-- The features' block at any point is the feature matrix. -/
theorem feat_apply (c : Dev nD) (t : Fin cfg3.N) (g : Fin 6144) (e : Fin 256) :
    (iblk W c 1 t : Vec F S6144x256 .f32) (ix2 g e) = (W c main_v15 : S6144x256.Idx → Elt F .f32) (ix2 g e) := by
  have hi := index_feat t
  unfold iblk
  rw [View.read_apply]
  show W c main_v15 _ = W c main_v15 _
  congr 1
  funext a
  apply Fin.ext
  match a with
  | ⟨0, _⟩ => show win3_1.index t 0 * 6144 + 1 * g.val = g.val; rw [hi.1]; omega
  | ⟨1, _⟩ => show win3_1.index t 1 * 256 + 1 * e.val = e.val; rw [hi.2]; omega

/-- The weights' block at any point is the weight matrix. -/
theorem wt_apply (c : Dev nD) (t : Fin cfg3.N) (j d : Fin 256) :
    (iblk W c 2 t : Vec F S256x256 .f32) (ix2 j d) = (W c main_v17 : S256x256.Idx → Elt F .f32) (ix2 j d) := by
  have hi := index_wt t
  unfold iblk
  rw [View.read_apply]
  show W c main_v17 _ = W c main_v17 _
  congr 1
  funext a
  apply Fin.ext
  match a with
  | ⟨0, _⟩ => show win3_2.index t 0 * 256 + 1 * j.val = j.val; rw [hi.1]; omega
  | ⟨1, _⟩ => show win3_2.index t 1 * 256 + 1 * d.val = d.val; rw [hi.2]; omega

/-- The bias's block at any point is the bias row. -/
theorem bias_apply (c : Dev nD) (t : Fin cfg3.N) (z : Fin 1) (j : Fin 256) :
    (iblk W c 3 t : Vec F S1x256 .f32) (ix2 z j) = (W c main_v20 : S1x256.Idx → Elt F .f32) (ix2 z j) := by
  have hi := index_bias t
  unfold iblk
  rw [View.read_apply]
  show W c main_v20 _ = W c main_v20 _
  congr 1
  funext a
  apply Fin.ext
  match a with
  | ⟨0, _⟩ => show win3_3.index t 0 * 1 + 1 * z.val = z.val; rw [hi.1]; omega
  | ⟨1, _⟩ => show win3_3.index t 1 * 256 + 1 * j.val = j.val; rw [hi.2]; omega
end

/-- The 1024 rows from the point's offset, at (f, e): the features at (1024 k + f, e). -/
theorem rowsAt_apply (i : grid3.Coords) (x1 : Vec F S6144x256 .f32) (f : Fin 1024) (e : Fin 256) (g : Fin 6144)
    (hg : g.val = 1024 * (i 1).val + f.val) : rowsAt i x1 (ix2 f e) = x1 (ix2 g e) := by
  have h0 : k3_off1 i 0 = 1024 * (i 1).val := by rw [k3_off1_eq i]; rfl
  have h1 : k3_off1 i 1 = 0 := by rw [k3_off1_eq i]; rfl
  show x1 _ = x1 _
  congr 1
  funext a
  apply Fin.ext
  match a with
  | ⟨0, _⟩ => show k3_off1 i 0 + 1 * f.val = g.val; rw [h0, hg]; omega
  | ⟨1, _⟩ => show k3_off1 i 1 + 1 * e.val = e.val; rw [h1]; omega

end Cert.KernelIdeal.R3

end
-- ==== Proof.R3Val.lean ====
/-
  Launch 3's value over the extended reals: the output array ends, at (p, j), at the sum over the 256 feature columns d
  of (the sum over all 6144 contraction indices f of the adjacency matrix at (p, f) times the features at (f, d)) times
  the weight matrix at (j, d), plus the bias at j.
    * After the point with row block m and contraction coordinate k the accumulator holds, at (r, e), the sum of the
      first k + 1 tiles' contributions to row 1024 m + r: by induction on the point, from what each case stores.
    * At k = 5 the 6 tiles' contributions are the whole contraction sum (a sum over 6144 indices is the sum over 6 blocks
      of 1024), and the output block is its projection by the weights, plus the bias.
    * Row block m is written back at point 6 m + 5; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R3Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : (c : Dev nD) → (b : Ref sig .tc) → Buf (Elt Ideal) ((c : Thread nD τ).loc b))

/-! ## The operand arrays as matrices, and the blocks the body is entered with -/

abbrev AA (c : Dev nD) : Iface.Mat 6144 6144 := W c main_v0
abbrev XX (c : Dev nD) : Iface.Mat 6144 256 := W c main_v15
abbrev WW (c : Dev nD) : Iface.Mat 256 256 := W c main_v17
abbrev BB (c : Dev nD) : Iface.Mat 1 256 := W c main_v20

abbrev b0 (c : Dev nD) (t : Fin cfg3.N) : Vec Ideal S1024x1024 .bf16 := iblk W c 0 t
abbrev b1 (c : Dev nD) (t : Fin cfg3.N) : Vec Ideal S6144x256 .f32 := iblk W c 1 t
abbrev b2 (c : Dev nD) (t : Fin cfg3.N) : Vec Ideal S256x256 .f32 := iblk W c 2 t
abbrev b3 (c : Dev nD) (t : Fin cfg3.N) : Vec Ideal S1x256 .f32 := iblk W c 3 t

/-- The term of the contraction sum of row `p`, column `d`, at contraction index `n` (zero outside the extents). -/
def term (c : Dev nD) (p : ℕ) (d : Fin 256) (n : ℕ) : EReal :=
  if h : p < 6144 ∧ n < 6144 then AA W c (ix2 ⟨p, h.1⟩ ⟨n, h.2⟩) * XX W c (ix2 ⟨n, h.2⟩ d) else 0

/-- One tile's contribution: the 1024 terms of contraction block `kb`. -/
def tileSum (c : Dev nD) (p : ℕ) (d : Fin 256) (kb : ℕ) : EReal := ∑ f : Fin 1024, term W c p d (kb * 1024 + f.val)

theorem N_val : cfg3.N = 36 := N_3

/-- What the body's product adds at point t: the tile's contribution to row 1024 m + r. -/
theorem tile_sum (c : Dev nD) (t : Fin cfg3.N) (r : Fin 1024) (e : Fin 256) :
    (∑ f : Fin 1024, b0 W c t (ix2 r f) * rowsAt (grid3.coords t) (b1 W c t) (ix2 f e))
      = tileSum W c (1024 * (t.val / 6) + r.val) e (t.val % 6) := by
  unfold tileSum
  refine Finset.sum_congr rfl fun f _ => ?_
  have ht : t.val < 36 := Nat.lt_of_lt_of_eq t.isLt (N_val)
  have hp : 1024 * (t.val / 6) + r.val < 6144 := by have := r.isLt; omega
  have hg : t.val % 6 * 1024 + f.val < 6144 := by have := f.isLt; omega
  unfold term
  rw [dif_pos ⟨hp, hg⟩]
  refine congrArg₂ (· * ·) ?_ ?_
  · exact tile_apply W c t r f ⟨_, hp⟩ ⟨_, hg⟩ rfl (by show t.val % 6 * 1024 + f.val = _; omega)
  · exact (rowsAt_apply (grid3.coords t) (b1 W c t) f e ⟨_, hg⟩ (by rw [coord1 t]; show t.val % 6 * 1024 + f.val = _; omega)).trans
      (feat_apply W c t ⟨_, hg⟩ e)

/-! ## What each point leaves, in the payloads -/

theorem acc_first (c : Dev nD) (t : Fin cfg3.N) (h0 : t.val % 6 = 0) :
    (outsAt W c t.val t.isLt).2 = k3_pay2 (F := Ideal) (k3_pay1 (F := Ideal)) (b0 W c t) (rowsAt (grid3.coords t) (b1 W c t)) := by
  rw [outsAt_first W c t h0]
  dsimp only
  exact accFirst_eq (F := Ideal) c (grid3.coords t) (ms0 t) (hs0 t) (ms1 t) (hs1 t) (ms2 t) (hs2 t) (ms3 t) (hs3 t) (ms4 t) (hs4 t) accM (Memref.isWhole_whole _) ((isFirst_iff t).mpr h0) (fun h => by have := (isLast_iff t).mp h; omega) (iblk W c 0 t) (iblk W c 1 t) (iblk W c 2 t) (iblk W c 3 t)

theorem acc_middle (c : Dev nD) (t : Fin cfg3.N) (h0 : ¬t.val % 6 = 0) (h5 : ¬t.val % 6 = 5) :
    (outsAt W c t.val t.isLt).2 = k3_pay2 (F := Ideal) (outsAt W c (t.val - 1) (Nat.lt_of_le_of_lt (Nat.sub_le _ _) t.isLt)).2 (b0 W c t) (rowsAt (grid3.coords t) (b1 W c t)) := by
  rw [outsAt_middle W c t h0 h5]
  dsimp only
  exact accMiddle_eq (F := Ideal) c (grid3.coords t) (ms0 t) (hs0 t) (ms1 t) (hs1 t) (ms2 t) (hs2 t) (ms3 t) (hs3 t) (ms4 t) (hs4 t) accM (Memref.isWhole_whole _) (fun h => h0 ((isFirst_iff t).mp h)) (fun h => h5 ((isLast_iff t).mp h)) (iblk W c 0 t) (iblk W c 1 t) (iblk W c 2 t) (iblk W c 3 t) (outsAt W c (t.val - 1) (Nat.lt_of_le_of_lt (Nat.sub_le _ _) t.isLt)).2

theorem acc_last (c : Dev nD) (t : Fin cfg3.N) (h0 : ¬t.val % 6 = 0) (h5 : t.val % 6 = 5) :
    (outsAt W c t.val t.isLt).2 = k3_pay2 (F := Ideal) (outsAt W c (t.val - 1) (Nat.lt_of_le_of_lt (Nat.sub_le _ _) t.isLt)).2 (b0 W c t) (rowsAt (grid3.coords t) (b1 W c t)) := by
  rw [outsAt_last W c t h0 h5]
  dsimp only
  exact accLast_eq (F := Ideal) c (grid3.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

theorem out_last (c : Dev nD) (t : Fin cfg3.N) (h0 : ¬t.val % 6 = 0) (h5 : t.val % 6 = 5) :
    (outsAt W c t.val t.isLt).1 = k3_pay3 (F := Ideal) (outsAt W c t.val t.isLt).2 (b2 W c t) (b3 W c t) := by
  rw [acc_last W c t h0 h5, outsAt_last W c t h0 h5]
  dsimp only
  exact outLast_eq (F := Ideal) c (grid3.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

/-! ## The accumulator, point after point -/

/-- After point n (row block n / 6, contraction coordinate n % 6) the accumulator holds the first n % 6 + 1 tiles'
    contributions. -/
theorem acc_inv (c : Dev nD) : ∀ (n : ℕ) (hn : n < cfg3.N) (r : Fin 1024) (e : Fin 256),
    (outsAt W c n hn).2 (ix2 r e) = ∑ kb ∈ Finset.range (n % 6 + 1), tileSum W c (1024 * (n / 6) + r.val) e kb := by
  intro n
  induction n with
  | zero =>
    intro hn r e
    refine (congrFun (acc_first W c ⟨0, hn⟩ rfl) (ix2 r e)).trans ?_
    refine (pay2_apply _ _ _ r e).trans ?_
    rw [pay1_apply, zero_add, tile_sum W c ⟨0, hn⟩ r e]
    exact (Finset.sum_range_one _).symm
  | succ n ih =>
    intro hn r e
    by_cases h0 : (n + 1) % 6 = 0
    · refine (congrFun (acc_first W c ⟨n + 1, hn⟩ h0) (ix2 r e)).trans ?_
      refine (pay2_apply _ _ _ r e).trans ?_
      rw [pay1_apply, zero_add, tile_sum W c ⟨n + 1, hn⟩ r e]
      show tileSum W c (1024 * ((n + 1) / 6) + r.val) e ((n + 1) % 6) = _
      rw [h0]
      exact (Finset.sum_range_one _).symm
    · have hprev := ih (Nat.lt_of_succ_lt hn) r e
      have e1 : n % 6 + 1 = (n + 1) % 6 := by omega
      have e2 : n / 6 = (n + 1) / 6 := by omega
      rw [e1, e2] at hprev
      have hstep : (outsAt W c (n + 1) hn).2 = k3_pay2 (F := Ideal) (outsAt W c n (Nat.lt_of_succ_lt hn)).2 (b0 W c ⟨n + 1, hn⟩) (rowsAt (grid3.coords ⟨n + 1, hn⟩) (b1 W c ⟨n + 1, hn⟩)) := by
        by_cases h5 : (n + 1) % 6 = 5
        · exact acc_last W c ⟨n + 1, hn⟩ h0 h5
        · exact acc_middle W c ⟨n + 1, hn⟩ h0 h5
      refine (congrFun hstep (ix2 r e)).trans ?_
      refine (pay2_apply _ _ _ r e).trans ?_
      rw [Finset.sum_range_succ, hprev, tile_sum W c ⟨n + 1, hn⟩ r e]

/-- The 6 tiles' contributions are the whole contraction sum: a sum over 6144 indices is the sum over 6 blocks of 1024. -/
theorem tiles_total (c : Dev nD) (p : Fin 6144) (d : Fin 256) :
    ∑ kb ∈ Finset.range 6, tileSum W c p.val d kb = ∑ f : Fin 6144, AA W c (ix2 p f) * XX W c (ix2 f d) := by
  rw [← Fin.sum_univ_eq_sum_range (fun kb => tileSum W c p.val d kb) 6]
  rw [BlockSums.sum_blocks 6 1024 6144 (by norm_num) (fun f : Fin 6144 => AA W c (ix2 p f) * XX W c (ix2 f d))]
  refine Finset.sum_congr rfl fun kb _ => ?_
  unfold tileSum
  refine Finset.sum_congr rfl fun f _ => ?_
  have hg : kb.val * 1024 + f.val < 6144 := by have := kb.isLt; have := f.isLt; omega
  unfold term
  rw [dif_pos ⟨p.isLt, hg⟩]

/-! ## The output block at the last contraction coordinate, and the output array -/

/-- What the output array has to hold. -/
def G (c : Dev nD) : Iface.Mat 6144 256 := fun i =>
  (∑ d : Fin 256, (∑ f : Fin 6144, AA W c (ix2 (i 0) f) * XX W c (ix2 f d)) * WW W c (ix2 (i 1) d)) + BB W c (ix2 0 (i 1))

/-- The output block stored at point t = 6 m + 5, at (r, j): `G` at (1024 m + r, j). -/
theorem out_val (c : Dev nD) (t : Fin cfg3.N) (h5 : t.val % 6 = 5) (r : Fin 1024) (j : Fin 256) (p : Fin 6144)
    (hp : p.val = 1024 * (t.val / 6) + r.val) :
    (outsAt W c t.val t.isLt).1 (ix2 r j) = G W c (ix2 p j) := by
  have h0 : ¬t.val % 6 = 0 := by omega
  refine (congrFun (out_last W c t h0 h5) (ix2 r j)).trans ?_
  refine (pay3_apply _ _ _ r j).trans ?_
  refine congrArg₂ (· + ·) (Finset.sum_congr rfl fun d _ => congrArg₂ (· * ·) ?_ (wt_apply W c t j d)) (bias_apply W c t 0 j)
  rw [acc_inv W c t.val t.isLt r d, h5, ← hp]
  exact tiles_total W c p d

/-- Row block m of a matrix, read through the output window's block at point t, at (r, j). -/
theorem out_read (c : Dev nD) (t : Fin cfg3.N) (Gm : Iface.Mat 6144 256) (r : Fin 1024) (j : Fin 256) (p : Fin 6144)
    (hp : p.val = 1024 * (t.val / 6) + r.val) :
    ((cfg3.win 4).blk t).view.read (Elt Ideal) Gm (ix2 r j) = Gm (ix2 p j) := by
  have hi := index_out t
  rw [View.read_apply]
  show Gm _ = Gm _
  congr 1
  funext a
  apply Fin.ext
  match a with
  | ⟨0, _⟩ => show win3_4.index t 0 * 1024 + 1 * r.val = p.val; rw [hi.1, hp]; omega
  | ⟨1, _⟩ => show win3_4.index t 1 * 256 + 1 * j.val = j.val; rw [hi.2]; omega

/-- Every write-back writes its row block of `G`. -/
theorem flushed_eq (c : Dev nD) (t : Fin cfg3.N) (hf : (cfg3.win 4).flush t = true) :
    (dat W c).flushed 4 t = ((cfg3.win 4).blk t).view.read (Elt Ideal) (G W c) := by
  have h5 : t.val % 6 = 5 := (flush3_4 t).mp hf
  have ht : t.val < 36 := Nat.lt_of_lt_of_eq t.isLt N_val
  show (cfg3.win 4).cut (grid3.coords t) ((dat W c).after 4 t) = _
  rw [after4]
  funext y
  obtain ⟨r, j, rfl⟩ : ∃ (r : Fin 1024) (j : Fin 256), y = ix2 r j := ⟨y 0, y 1, eq_ix2 y⟩
  have hp : 1024 * (t.val / 6) + r.val < 6144 := by have := r.isLt; omega
  exact (out_val W c t h5 r j ⟨_, hp⟩ rfl).trans (out_read c t (G W c) r j ⟨_, hp⟩ rfl).symm

/-- The row blocks written back cover the output array: row p is in the block written at point 6 (p / 1024) + 5. -/
theorem cover (c : Dev nD) (i : ((cfg3.win 4).arr.view.loc (c.tc : Thread nD τ)).2.ty.Idx) :
    ∃ t : Fin cfg3.N, (cfg3.win 4).flush t = true ∧ i ∈ ((cfg3.win 4).blk t).view.set := by
  have hi0 : (i 0).val < 6144 := (i 0).isLt
  have hi1 : (i 1).val < 256 := (i 1).isLt
  have htN : 6 * ((i 0).val / 1024) + 5 < cfg3.N := by rw [N_val]; omega
  refine ⟨⟨6 * ((i 0).val / 1024) + 5, htN⟩, (flush3_4 _).mpr (by show (6 * ((i 0).val / 1024) + 5) % 6 = 5; omega), ?_⟩
  have hidx := index_out ⟨6 * ((i 0).val / 1024) + 5, htN⟩
  show i ∈ ((View.whole main_v21).slice (win3_4.rect ⟨6 * ((i 0).val / 1024) + 5, htN⟩)).set
  rw [View.set_slice_whole, Rect.mem_set_unit]
  intro a
  match a with
  | ⟨0, _⟩ =>
    show win3_4.index ⟨6 * ((i 0).val / 1024) + 5, htN⟩ 0 * 1024 ≤ (i 0).val ∧ (i 0).val < win3_4.index ⟨6 * ((i 0).val / 1024) + 5, htN⟩ 0 * 1024 + 1024
    rw [hidx.1]
    show (6 * ((i 0).val / 1024) + 5) / 6 * 1024 ≤ (i 0).val ∧ (i 0).val < (6 * ((i 0).val / 1024) + 5) / 6 * 1024 + 1024
    omega
  | ⟨1, _⟩ =>
    show win3_4.index ⟨6 * ((i 0).val / 1024) + 5, htN⟩ 1 * 256 ≤ (i 1).val ∧ (i 1).val < win3_4.index ⟨6 * ((i 0).val / 1024) + 5, htN⟩ 1 * 256 + 256
    rw [hidx.2]
    omega

/-- So the output array ends holding `G`. -/
theorem final (c : Dev nD) : (dat W c).arrAt 4 cfg3.N = G W c :=
  (dat W c).arrAt_eq_of_cover 4 (G W c) (flushed_eq W c) (cover c)

/-- The launch's output, entry by entry. -/
theorem leaves_ok : Cert.KernelIdeal.Iface.Is3 (fun W c => (dat (F := Ideal) W c).arrAt 4 cfg3.N) := by
  intro W c p j
  show (dat W c).arrAt 4 cfg3.N (ix2 p j) = _
  rw [final W c]
  rfl

end Cert.KernelIdeal.R3

end
-- ==== Proof.R4Pieces.lean ====
/-
  Launch 4's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias, plus the first
  skip block, clamped below at zero, plus the second skip block) of the accumulator's new contents. Each is read off the
  stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R4Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid4.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The rows of the features the point contracts against: 1024 rows from the point's offset. -/
abbrev rowsAt (x1 : Vec F S6144x256 .f32) : Vec F S1024x256 .f32 :=
  View.ld x1 (Rect.unit (s := S6144x256) (k4_off1 i) S1024x256.size (k4_off1_inb i))

/-- k = 0: the accumulator ends at zero plus the tile's product. -/
theorem accFirst_eq (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) :
    accFirst c i arg2 harg2 arg3 harg3 arg4 harg4 arg5 harg5 arg6 harg6 arg7 harg7 arg8 harg8 arg9 harg9 hc0 hc1 x0 x1 x2 x3 x4 x5 = k4_pay2 (k4_pay1 (F := F)) x0 (rowsAt i x1) := by
  unfold accFirst
  rw [View.read_writes_eq_canon _ _ _ (cover_accFirst c i arg2 harg2 arg3 harg3 arg4 harg4 arg5 harg5 arg6 harg6 arg7 harg7 arg8 harg8 arg9 harg9 hc0 hc1 x0 x1 x2 x3 x4 x5)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    accMiddle c i arg2 harg2 arg3 harg3 arg4 harg4 arg5 harg5 arg6 harg6 arg7 harg7 arg8 harg8 arg9 harg9 hc0 hc1 x0 x1 x2 x3 x4 x5 xs0 = k4_pay2 xs0 x0 (rowsAt i x1) := by
  unfold accMiddle
  rw [View.read_writes_eq_canon _ _ _ (cover_accMiddle c i arg2 harg2 arg3 harg3 arg4 harg4 arg5 harg5 arg6 harg6 arg7 harg7 arg8 harg8 arg9 harg9 hc0 hc1 x0 x1 x2 x3 x4 x5 xs0)]
  unfold runMiddle
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    accLast c i arg2 harg2 arg3 harg3 arg4 harg4 arg5 harg5 arg6 harg6 arg7 harg7 arg8 harg8 arg9 harg9 hc0 hc1 x0 x1 x2 x3 x4 x5 xs0 = k4_pay2 xs0 x0 (rowsAt i x1) := by
  unfold accLast
  rw [View.read_writes_eq_canon _ _ _ (cover_accLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- and the output block is the epilogue of that, the weights, the bias row and the two skip blocks. -/
theorem outLast_eq (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    outLast c i arg2 harg2 arg3 harg3 arg4 harg4 arg5 harg5 arg6 harg6 arg7 harg7 arg8 harg8 arg9 harg9 hc0 hc1 x0 x1 x2 x3 x4 x5 xs0 = k4_pay3 (k4_pay2 xs0 x0 (rowsAt i x1)) x2 x3 x4 x5 := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz, View.readCov_unit_zero (S := S1024x256) _ hz]
  simp only [View.readAt_eq_ld, harg2.read_unread, harg3.read_unread, harg9.read_unread, View.ld_unit_zero (S := S1024x1024) hz, View.ld_unit_zero (S := S1024x256) hz, harg4.read_unread, harg5.read_unread, harg6.read_unread, harg7.read_unread, View.ld_unit_zero (S := S256x256) hz, View.ld_unit_zero (S := S1x256) hz]
  rfl
end

end Cert.KernelIdeal.R4

end
-- ==== Proof.R4Blocks.lean ====
/-
  Launch 4, entry by entry over the extended reals: what each of the kernel's payloads holds at an entry (the
  accumulator's store: what it held plus the sum over the tile's 1024 contraction indices; the output's store: the sum
  over the 256 feature columns of the accumulator times the weight matrix's row, plus the bias, plus the first skip
  block, the maximum of that and zero, plus the second skip block), and what each block the body is entered with holds at
  an entry, as an entry of the launch's operand arrays (the tile at point 6 m + k is block (m, k) of the adjacency
  matrix; the features, the weights and the bias are whole arrays; the skip blocks are row block m of theirs).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R4Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k4_pay1 (F := Ideal) j = 0 := by
  unfold k4_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k4_pay2 (F := Ideal) v3 v4 v9 (ix2 r e) = v3 (ix2 r e) + ∑ f : Fin 1024, v4 (ix2 r f) * v9 (ix2 f e) := by
  unfold k4_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`, plus the first
    skip block, the maximum of that and zero, plus the second skip block. -/
theorem pay3_apply (v20 : Vec Ideal S1024x256 .f32) (v21 : Vec Ideal S256x256 .f32) (v26 : Vec Ideal S1x256 .f32) (v30 v35 : Vec Ideal S1024x256 .f32) (r : Fin 1024) (j : Fin 256) :
    k4_pay3 (F := Ideal) v20 v21 v26 v30 v35 (ix2 r j)
      = max (v30 (ix2 r j) + ((∑ d : Fin 256, v20 (ix2 r d) * v21 (ix2 j d)) + v26 (ix2 0 j))) 0 + v35 (ix2 r j) := by
  unfold k4_pay3
  simp only [shapeCast_self]
  refine congrArg₂ (· + ·) ?_ rfl
  refine congrArg₂ max ?_ ?_
  · refine congrArg (v30 (ix2 r j) + ·) ?_
    refine congrArg₂ (· + ·) ?_ ?_
    · exact Cert.Lib.MatmulT.matmul_trhs_zero_apply (M := 1024) (K := 256) (N := 256) none _ _ r j
    · exact broadcastTo_apply v26 _ (ix2 r j) (ix2 0 j) (fun a => by
        match a with
        | ⟨0, _⟩ => rfl
        | ⟨1, _⟩ => rfl)
  · exact Ideal.ofBits_zero_f32

/-! ## The blocks the body is entered with, entry by entry -/

/-- The block indices at point t = 6 m + k: the tile is block (m, k) of the adjacency matrix; the features', the weights'
    and the bias's one block is the whole array; the skip blocks and the output block are row block m; the contraction
    coordinate is k. -/
theorem index_w0 : ∀ t : Fin cfg4.N, win4_0.index t 0 = t.val / 6 ∧ win4_0.index t 1 = t.val % 6 :=
  (by decide +kernel : ∀ t : Fin grid4.N, win4_0.index t 0 = t.val / 6 ∧ win4_0.index t 1 = t.val % 6)
theorem index_w1 : ∀ t : Fin cfg4.N, win4_1.index t 0 = 0 ∧ win4_1.index t 1 = 0 :=
  (by decide +kernel : ∀ t : Fin grid4.N, win4_1.index t 0 = 0 ∧ win4_1.index t 1 = 0)
theorem index_w2 : ∀ t : Fin cfg4.N, win4_2.index t 0 = 0 ∧ win4_2.index t 1 = 0 :=
  (by decide +kernel : ∀ t : Fin grid4.N, win4_2.index t 0 = 0 ∧ win4_2.index t 1 = 0)
theorem index_w3 : ∀ t : Fin cfg4.N, win4_3.index t 0 = 0 ∧ win4_3.index t 1 = 0 :=
  (by decide +kernel : ∀ t : Fin grid4.N, win4_3.index t 0 = 0 ∧ win4_3.index t 1 = 0)
theorem index_w4 : ∀ t : Fin cfg4.N, win4_4.index t 0 = t.val / 6 ∧ win4_4.index t 1 = 0 :=
  (by decide +kernel : ∀ t : Fin grid4.N, win4_4.index t 0 = t.val / 6 ∧ win4_4.index t 1 = 0)
theorem index_w5 : ∀ t : Fin cfg4.N, win4_5.index t 0 = t.val / 6 ∧ win4_5.index t 1 = 0 :=
  (by decide +kernel : ∀ t : Fin grid4.N, win4_5.index t 0 = t.val / 6 ∧ win4_5.index t 1 = 0)
theorem index_w6 : ∀ t : Fin cfg4.N, win4_6.index t 0 = t.val / 6 ∧ win4_6.index t 1 = 0 :=
  (by decide +kernel : ∀ t : Fin grid4.N, win4_6.index t 0 = t.val / 6 ∧ win4_6.index t 1 = 0)
theorem coord1 : ∀ t : Fin cfg4.N, ((grid4.coords t) 1).val = t.val % 6 :=
  (by decide +kernel : ∀ t : Fin grid4.N, ((grid4.coords t) 1).val = t.val % 6)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg4.N) (r f : Fin 1024) (p g : Fin 6144)
    (hp : p.val = 1024 * (t.val / 6) + r.val) (hg : g.val = 1024 * (t.val % 6) + f.val) :
    (iblk W c 0 t : Vec F S1024x1024 .bf16) (ix2 r f) = (W c main_v0 : (⟨2, ![6144, 6144]⟩ : Shape).Idx → Elt F .bf16) (ix2 p g) := by
  have hi := index_w0 t
  unfold iblk
  rw [View.read_apply]
  show W c main_v0 _ = W c main_v0 _
  congr 1
  funext a
  apply Fin.ext
  match a with
  | ⟨0, _⟩ => show win4_0.index t 0 * 1024 + 1 * r.val = p.val; rw [hi.1, hp]; omega
  | ⟨1, _⟩ => show win4_0.index t 1 * 1024 + 1 * f.val = g.val; rw [hi.2, hg]; omega

/-- Window 1's block at any point is its whole array. -/
theorem feat_apply (c : Dev nD) (t : Fin cfg4.N) (g : Fin 6144) (e : Fin 256) :
    (iblk W c 1 t : Vec F S6144x256 .f32) (ix2 g e) = (W c main_v21 : S6144x256.Idx → Elt F .f32) (ix2 g e) := by
  have hi := index_w1 t
  unfold iblk
  rw [View.read_apply]
  show W c main_v21 _ = W c main_v21 _
  congr 1
  funext a
  apply Fin.ext
  match a with
  | ⟨0, _⟩ => show win4_1.index t 0 * 6144 + 1 * g.val = g.val; rw [hi.1]; omega
  | ⟨1, _⟩ => show win4_1.index t 1 * 256 + 1 * e.val = e.val; rw [hi.2]; omega

/-- Window 2's block at any point is its whole array. -/
theorem wt_apply (c : Dev nD) (t : Fin cfg4.N) (j : Fin 256) (d : Fin 256) :
    (iblk W c 2 t : Vec F S256x256 .f32) (ix2 j d) = (W c main_v23 : S256x256.Idx → Elt F .f32) (ix2 j d) := by
  have hi := index_w2 t
  unfold iblk
  rw [View.read_apply]
  show W c main_v23 _ = W c main_v23 _
  congr 1
  funext a
  apply Fin.ext
  match a with
  | ⟨0, _⟩ => show win4_2.index t 0 * 256 + 1 * j.val = j.val; rw [hi.1]; omega
  | ⟨1, _⟩ => show win4_2.index t 1 * 256 + 1 * d.val = d.val; rw [hi.2]; omega

/-- Window 3's block at any point is its whole array. -/
theorem bias_apply (c : Dev nD) (t : Fin cfg4.N) (z : Fin 1) (j : Fin 256) :
    (iblk W c 3 t : Vec F S1x256 .f32) (ix2 z j) = (W c main_v26 : S1x256.Idx → Elt F .f32) (ix2 z j) := by
  have hi := index_w3 t
  unfold iblk
  rw [View.read_apply]
  show W c main_v26 _ = W c main_v26 _
  congr 1
  funext a
  apply Fin.ext
  match a with
  | ⟨0, _⟩ => show win4_3.index t 0 * 1 + 1 * z.val = z.val; rw [hi.1]; omega
  | ⟨1, _⟩ => show win4_3.index t 1 * 256 + 1 * j.val = j.val; rw [hi.2]; omega

/-- The first skip block at point t, at (r, e): its array at (1024 m + r, e). -/
theorem res1_apply (c : Dev nD) (t : Fin cfg4.N) (r : Fin 1024) (e : Fin 256) (p : Fin 6144)
    (hp : p.val = 1024 * (t.val / 6) + r.val) :
    (iblk W c 4 t : Vec F S1024x256 .f32) (ix2 r e) = (W c main_v21 : S6144x256.Idx → Elt F .f32) (ix2 p e) := by
  have hi := index_w4 t
  unfold iblk
  rw [View.read_apply]
  show W c main_v21 _ = W c main_v21 _
  congr 1
  funext a
  apply Fin.ext
  match a with
  | ⟨0, _⟩ => show win4_4.index t 0 * 1024 + 1 * r.val = p.val; rw [hi.1, hp]; omega
  | ⟨1, _⟩ => show win4_4.index t 1 * 256 + 1 * e.val = e.val; rw [hi.2]; omega

/-- The second skip block at point t, at (r, e): its array at (1024 m + r, e). -/
theorem res2_apply (c : Dev nD) (t : Fin cfg4.N) (r : Fin 1024) (e : Fin 256) (p : Fin 6144)
    (hp : p.val = 1024 * (t.val / 6) + r.val) :
    (iblk W c 5 t : Vec F S1024x256 .f32) (ix2 r e) = (W c main_v15 : S6144x256.Idx → Elt F .f32) (ix2 p e) := by
  have hi := index_w5 t
  unfold iblk
  rw [View.read_apply]
  show W c main_v15 _ = W c main_v15 _
  congr 1
  funext a
  apply Fin.ext
  match a with
  | ⟨0, _⟩ => show win4_5.index t 0 * 1024 + 1 * r.val = p.val; rw [hi.1, hp]; omega
  | ⟨1, _⟩ => show win4_5.index t 1 * 256 + 1 * e.val = e.val; rw [hi.2]; omega
end

/-- The 1024 rows from the point's offset, at (f, e): the features at (1024 k + f, e). -/
theorem rowsAt_apply (i : grid4.Coords) (x1 : Vec F S6144x256 .f32) (f : Fin 1024) (e : Fin 256) (g : Fin 6144)
    (hg : g.val = 1024 * (i 1).val + f.val) : rowsAt i x1 (ix2 f e) = x1 (ix2 g e) := by
  have h0 : k4_off1 i 0 = 1024 * (i 1).val := by rw [k4_off1_eq i]; rfl
  have h1 : k4_off1 i 1 = 0 := by rw [k4_off1_eq i]; rfl
  show x1 _ = x1 _
  congr 1
  funext a
  apply Fin.ext
  match a with
  | ⟨0, _⟩ => show k4_off1 i 0 + 1 * f.val = g.val; rw [h0, hg]; omega
  | ⟨1, _⟩ => show k4_off1 i 1 + 1 * e.val = e.val; rw [h1]; omega

end Cert.KernelIdeal.R4

end
-- ==== Proof.R4Val.lean ====
/-
  Launch 4's value over the extended reals: the output array ends, at (p, j), at
      max (r₁ (p, j) + (Σ_d (Σ_f A (p, f) · X (f, d)) · Wm (j, d) + b (0, j))) 0 + r₂ (p, j)
  with A the adjacency matrix, X the features, Wm the weights, b the bias row, r₁ r₂ the two skip arrays; f runs over all
  6144 contraction indices.
    * After the point with row block m and contraction coordinate k the accumulator holds, at (r, e), the sum of the
      first k + 1 tiles' contributions to row 1024 m + r: by induction on the point, from what each case stores.
    * At k = 5 the 6 tiles' contributions are the whole contraction sum (a sum over 6144 indices is the sum over 6
      blocks of 1024), and the output block is the epilogue of it.
    * Row block m is written back at point 6 m + 5; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R4Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : Iface.Vl)

/-! ## The operand arrays, and the blocks at a point, as matrices of extended reals -/

abbrev AA (c : Dev nD) : Iface.Mat 6144 6144 := W c main_v0
abbrev XX (c : Dev nD) : Iface.Mat 6144 256 := W c main_v21
abbrev WW (c : Dev nD) : Iface.Mat 256 256 := W c main_v23
abbrev BB (c : Dev nD) : Iface.Mat 1 256 := W c main_v26
abbrev S1 (c : Dev nD) : Iface.Mat 6144 256 := W c main_v21
abbrev S2 (c : Dev nD) : Iface.Mat 6144 256 := W c main_v15
abbrev tileAt (c : Dev nD) (t : Fin cfg4.N) : Vec Ideal S1024x1024 .bf16 := iblk W c 0 t
abbrev featAt (c : Dev nD) (t : Fin cfg4.N) : Vec Ideal S6144x256 .f32 := iblk W c 1 t
abbrev wtAt (c : Dev nD) (t : Fin cfg4.N) : Vec Ideal S256x256 .f32 := iblk W c 2 t
abbrev biasAt (c : Dev nD) (t : Fin cfg4.N) : Vec Ideal S1x256 .f32 := iblk W c 3 t
abbrev res1At (c : Dev nD) (t : Fin cfg4.N) : Vec Ideal S1024x256 .f32 := iblk W c 4 t
abbrev res2At (c : Dev nD) (t : Fin cfg4.N) : Vec Ideal S1024x256 .f32 := iblk W c 5 t

/-- The n-th term of the contraction at (p, d): adjacency (p, n) times features (n, d); zero past the extent. -/
def term (c : Dev nD) (p : Fin 6144) (d : Fin 256) (n : ℕ) : EReal :=
  if h : n < 6144 then AA W c (ix2 p ⟨n, h⟩) * XX W c (ix2 ⟨n, h⟩ d) else 0

/-- The sum of the 1024 terms of contraction block j. -/
def blockSum (c : Dev nD) (p : Fin 6144) (d : Fin 256) (j : ℕ) : EReal := ∑ f : Fin 1024, term W c p d (j * 1024 + f.val)

/-- The tile's product at point t = 6 m + k, at (r, e): the sum of contraction block k at (1024 m + r, e). -/
theorem prod_at (c : Dev nD) (t : Fin cfg4.N) (r : Fin 1024) (e : Fin 256) (p : Fin 6144) (hp : p.val = 1024 * (t.val / 6) + r.val) :
    (∑ f : Fin 1024, tileAt W c t (ix2 r f) * rowsAt (grid4.coords t) (featAt W c t) (ix2 f e))
      = blockSum W c p e (t.val % 6) := by
  refine Finset.sum_congr rfl fun f _ => ?_
  have hlt : (t.val % 6) * 1024 + f.val < 6144 := by
    have := f.isLt; have : t.val % 6 < 6 := Nat.mod_lt _ (by omega); omega
  unfold term
  rw [dif_pos hlt]
  exact congrArg₂ (· * ·)
    (tile_apply W c t r f p ⟨_, hlt⟩ hp (by show (t.val % 6) * 1024 + f.val = 1024 * (t.val % 6) + f.val; omega))
    ((rowsAt_apply (grid4.coords t) _ f e ⟨_, hlt⟩ (by rw [coord1 t]; show (t.val % 6) * 1024 + f.val = 1024 * (t.val % 6) + f.val; omega)).trans
      (feat_apply W c t ⟨_, hlt⟩ e))

set_option maxHeartbeats 4000000 in
/-- At a point that opens a row block the accumulator holds the first block's sum. -/
theorem acc_first (c : Dev nD) (t : Fin cfg4.N) (h0 : t.val % 6 = 0) (r : Fin 1024) (e : Fin 256) (p : Fin 6144)
    (hp : p.val = 1024 * (t.val / 6) + r.val) :
    (outsAt W c t.val t.isLt).2 (ix2 r e) = ∑ j ∈ Finset.range (t.val % 6 + 1), blockSum W c p e j := by
  refine (congrFun (congrArg Prod.snd (outsAt_first W c t h0)) (ix2 r e)).trans ?_
  refine (congrFun (accFirst_eq (F := Ideal) c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
    ((isFirst_iff t).mpr h0) (fun h => by have := (isLast_iff t).mp h; omega) (iblk W c 0 t) (iblk W c 1 t) (iblk W c 2 t) (iblk W c 3 t) (iblk W c 4 t) (iblk W c 5 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg4.N) (h0 : ¬t.val % 6 = 0) (r : Fin 1024) (e : Fin 256) (p : Fin 6144)
    (hp : p.val = 1024 * (t.val / 6) + r.val) (h' : t.val - 1 < cfg4.N)
    (ih : (outsAt W c (t.val - 1) h').2 (ix2 r e) = ∑ j ∈ Finset.range (t.val % 6), blockSum W c p e j) :
    (outsAt W c t.val t.isLt).2 (ix2 r e) = ∑ j ∈ Finset.range (t.val % 6 + 1), blockSum W c p e j := by
  rw [Finset.sum_range_succ, ← prod_at W c t r e p hp, ← ih]
  by_cases h5 : t.val % 6 = 5
  · refine (congrFun (congrArg Prod.snd (outsAt_last W c t h0 h5)) (ix2 r e)).trans ?_
    refine (congrFun (accLast_eq (F := Ideal) c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e

/-- After the point at position n = 6 m + k the accumulator at (r, e) is the sum of contraction blocks 0 … k at
    (1024 m + r, e). -/
theorem acc_inv (c : Dev nD) : ∀ (n : ℕ) (hn : n < cfg4.N) (r : Fin 1024) (e : Fin 256) (p : Fin 6144),
    p.val = 1024 * (n / 6) + r.val → (outsAt W c n hn).2 (ix2 r e) = ∑ j ∈ Finset.range (n % 6 + 1), blockSum W c p e j
  | 0, hn, r, e, p, hp => acc_first W c ⟨0, hn⟩ rfl r e p hp
  | n + 1, hn, r, e, p, hp => by
    by_cases h0 : (n + 1) % 6 = 0
    · exact acc_first W c ⟨n + 1, hn⟩ h0 r e p hp
    · have ih := acc_inv c n (Nat.lt_of_succ_lt hn) r e p (by
        have : n / 6 = (n + 1) / 6 := by omega
        rw [this]; exact hp)
      have hm : n % 6 + 1 = (n + 1) % 6 := by omega
      rw [hm] at ih
      exact acc_step W c ⟨n + 1, hn⟩ h0 r e p hp (Nat.lt_of_succ_lt hn) ih

/-- The 6 block sums are the whole contraction. -/
theorem sum_all (c : Dev nD) (p : Fin 6144) (d : Fin 256) :
    ∑ j ∈ Finset.range 6, blockSum W c p d j
      = ∑ f : Fin 6144, AA W c (ix2 p f) * XX W c (ix2 f d) := by
  rw [BlockSums.sum_blocks 6 1024 6144 rfl (fun n : Fin 6144 => AA W c (ix2 p n) * XX W c (ix2 n d))]
  rw [← Fin.sum_univ_eq_sum_range (fun j => blockSum W c p d j) 6]
  refine Finset.sum_congr rfl fun j _ => Finset.sum_congr rfl fun f _ => ?_
  unfold term
  rw [dif_pos (BlockSums.block_row_lt j f)]

/-- Entry (p, j) of the output: the epilogue of the whole contraction sums of row p. -/
def resultAt (c : Dev nD) (p : Fin 6144) (j : Fin 256) : EReal :=
  max (S1 W c (ix2 p j) + ((∑ d : Fin 256, (∑ f : Fin 6144, AA W c (ix2 p f) * XX W c (ix2 f d)) * WW W c (ix2 j d)) + BB W c (ix2 0 j))) 0
    + S2 W c (ix2 p j)

set_option maxHeartbeats 4000000 in
/-- At a point that closes a row block the output block at (r, j) is the result at (1024 m + r, j). -/
theorem out_last (c : Dev nD) (t : Fin cfg4.N) (h5 : t.val % 6 = 5) (r : Fin 1024) (j : Fin 256) (p : Fin 6144)
    (hp : p.val = 1024 * (t.val / 6) + r.val) :
    (outsAt W c t.val t.isLt).1 (ix2 r j) = resultAt W c p j := by
  have h0 : ¬t.val % 6 = 0 := by omega
  have e1 := congrFun (congrArg Prod.fst (outsAt_last W c t h0 h5)) (ix2 r j)
  have hacc : ∀ d : Fin 256, k4_pay2 (F := Ideal) (outsAt W c (t.val - 1) (Nat.lt_of_le_of_lt (Nat.sub_le _ _) t.isLt)).2 (iblk W c 0 t) (rowsAt (grid4.coords t) (iblk W c 1 t)) (ix2 r d)
      = ∑ f : Fin 6144, AA W c (ix2 p f) * XX W c (ix2 f d) := fun d => by
    have e2 := congrFun (congrArg Prod.snd (outsAt_last W c t h0 h5)) (ix2 r d)
    have a := acc_inv W c t.val t.isLt r d p hp
    rw [h5, sum_all] at a
    rw [← a]
    exact ((congrFun (accLast_eq (F := Ideal) c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r d)).symm.trans e2.symm)
  refine e1.trans ?_
  refine (congrFun (outLast_eq (F := Ideal) c (grid4.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r j)).trans ?_
  refine (pay3_apply _ _ _ _ _ r j).trans ?_
  unfold resultAt
  refine congrArg₂ (· + ·) (congrArg₂ max (congrArg₂ (· + ·) (res1_apply W c t r j p hp)
    (congrArg₂ (· + ·) (Finset.sum_congr rfl fun d _ => congrArg₂ (· * ·) (hacc d) (wt_apply W c t j d)) (bias_apply W c t 0 j))) rfl) (res2_apply W c t r j p hp)

/-! ## What the launch leaves in its output array -/

/-- The array the launch leaves. -/
def result (c : Dev nD) : Buf (Elt Ideal) ((c : Thread nD τ).loc main_v27) :=
  fun i : S6144x256.Idx => resultAt W c (i 0) (i 1)

set_option maxHeartbeats 4000000 in
/-- The block written back at a point that closes a row block is that row block of the result. -/
theorem flushed_eq (c : Dev nD) (t : Fin cfg4.N) (hf : (cfg4.win 6).flush t = true) :
    (dat W c).flushed 6 t = ((cfg4.win 6).blk t).view.read (Elt Ideal) (result W c) := by
  have h5 : t.val % 6 = 5 := (flush4_6 t).mp hf
  show (cfg4.win 6).cut (grid4.coords t) ((dat W c).after 6 t) = _
  rw [after6]
  refine funext fun (y : S1024x256.Idx) => ?_
  obtain ⟨r, e, rfl⟩ : ∃ (r : Fin 1024) (e : Fin 256), y = ix2 r e := ⟨y 0, y 1, eq_ix2 y⟩
  have hx : (cfg4.win 6).xinj (grid4.coords t) (ix2 r e) = (ix2 r e : S1024x256.Idx) :=
    funext fun a => Fin.ext (by match a with | ⟨0, _⟩ => rfl | ⟨1, _⟩ => rfl)
  show (outsAt W c t.val t.isLt).1 ((cfg4.win 6).xinj (grid4.coords t) (ix2 r e)) = _
  rw [hx, View.read_apply]
  show _ = result W c (((cfg4.win 6).blk t).view.emb (ix2 r e))
  have hp : ((((cfg4.win 6).blk t).view.emb (ix2 r e) : S6144x256.Idx) 0).val = 1024 * (t.val / 6) + r.val := by
    show win4_6.index t 0 * 1024 + 1 * r.val = _
    rw [(index_w6 t).1]; omega
  have he : (((cfg4.win 6).blk t).view.emb (ix2 r e) : S6144x256.Idx) 1 = e := Fin.ext (by
    show win4_6.index t 1 * 256 + 1 * e.val = e.val
    rw [(index_w6 t).2]; omega)
  refine (out_last W c t h5 r e _ hp).trans ?_
  unfold result
  rw [he]

/-- The row blocks written back cover the array (row p is in the block written at point 6 (p / 1024) + 5), so the
    array ends at the result. -/
theorem final (c : Dev nD) : (dat W c).arrAt 6 cfg4.N = result W c :=
  (dat W c).arrAt_eq_of_cover 6 (result W c) (flushed_eq W c) fun i => by
    have hN : cfg4.N = 36 := N_4
    have h0 : ((i : S6144x256.Idx) 0 : Nat) < 6144 := ((i : S6144x256.Idx) 0).isLt
    have h1 : ((i : S6144x256.Idx) 1 : Nat) < 256 := ((i : S6144x256.Idx) 1).isLt
    have ht : 6 * (((i : S6144x256.Idx) 0 : Nat) / 1024) + 5 < cfg4.N := by rw [hN]; omega
    refine ⟨⟨_, ht⟩, (flush4_6 _).mpr (by show (6 * (((i : S6144x256.Idx) 0 : Nat) / 1024) + 5) % 6 = 5; omega), ?_⟩
    show i ∈ ((View.whole main_v27).slice (win4_6.rect ⟨_, ht⟩)).set
    rw [View.set_slice_whole, Rect.mem_set_unit]
    have hi := index_w6 ⟨_, ht⟩
    intro a
    match a with
    | ⟨0, _⟩ =>
      show win4_6.index ⟨_, ht⟩ 0 * 1024 ≤ ((i : S6144x256.Idx) 0 : Nat) ∧ ((i : S6144x256.Idx) 0 : Nat) < win4_6.index ⟨_, ht⟩ 0 * 1024 + 1024
      rw [hi.1]
      show (6 * (((i : S6144x256.Idx) 0 : Nat) / 1024) + 5) / 6 * 1024 ≤ _ ∧ _ < (6 * (((i : S6144x256.Idx) 0 : Nat) / 1024) + 5) / 6 * 1024 + 1024
      omega
    | ⟨1, _⟩ =>
      show win4_6.index ⟨_, ht⟩ 1 * 256 ≤ ((i : S6144x256.Idx) 1 : Nat) ∧ ((i : S6144x256.Idx) 1 : Nat) < win4_6.index ⟨_, ht⟩ 1 * 256 + 256
      rw [hi.2]; omega

/-- Launch 4 leaves, at (p, j), the epilogue of the whole contraction sums of row p. -/
theorem leaves_ok : Iface.Is4 (fun W c => (dat (F := Ideal) W c).arrAt 6 cfg4.N) := by
  intro W c p j
  show ((dat (F := Ideal) W c).arrAt 6 cfg4.N) (ix2 p j) = _
  rw [final W c]
  rfl

end Cert.KernelIdeal.R4

end
-- ==== Proof.R5Pieces.lean ====
/-
  Launch 5's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias) of the
  accumulator's new contents. Each is read off the stores the case made: the last store over a whole block is what the
  block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R5Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid5.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The rows of the features the point contracts against: 1024 rows from the point's offset. -/
abbrev rowsAt (x1 : Vec F S6144x256 .f32) : Vec F S1024x256 .f32 :=
  View.ld x1 (Rect.unit (s := S6144x256) (k5_off1 i) S1024x256.size (k5_off1_inb i))

/-- k = 0: the accumulator ends at zero plus the tile's product. -/
theorem accFirst_eq (hc0 : isFirst i) (hc1 : ¬isLast i) (x0 : Vec F S1024x1024 .bf16) (x1 : Vec F S6144x256 .f32) (x2 : Vec F S256x256 .f32) (x3 : Vec F S1x256 .f32) :
    accFirst c i arg2 harg2 arg3 harg3 arg4 harg4 arg5 harg5 arg6 harg6 arg7 harg7 hc0 hc1 x0 x1 x2 x3 = k5_pay2 (k5_pay1 (F := F)) x0 (rowsAt i x1) := by
  unfold accFirst
  rw [View.read_writes_eq_canon _ _ _ (cover_accFirst c i arg2 harg2 arg3 harg3 arg4 harg4 arg5 harg5 arg6 harg6 arg7 harg7 hc0 hc1 x0 x1 x2 x3)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (x2 : Vec F S256x256 .f32) (x3 : Vec F S1x256 .f32) (xs0 : Vec F S1024x256 .f32) :
    accMiddle c i arg2 harg2 arg3 harg3 arg4 harg4 arg5 harg5 arg6 harg6 arg7 harg7 hc0 hc1 x0 x1 x2 x3 xs0 = k5_pay2 xs0 x0 (rowsAt i x1) := by
  unfold accMiddle
  rw [View.read_writes_eq_canon _ _ _ (cover_accMiddle c i arg2 harg2 arg3 harg3 arg4 harg4 arg5 harg5 arg6 harg6 arg7 harg7 hc0 hc1 x0 x1 x2 x3 xs0)]
  unfold runMiddle
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (x2 : Vec F S256x256 .f32) (x3 : Vec F S1x256 .f32) (xs0 : Vec F S1024x256 .f32) :
    accLast c i arg2 harg2 arg3 harg3 arg4 harg4 arg5 harg5 arg6 harg6 arg7 harg7 hc0 hc1 x0 x1 x2 x3 xs0 = k5_pay2 xs0 x0 (rowsAt i x1) := by
  unfold accLast
  rw [View.read_writes_eq_canon _ _ _ (cover_accLast c i arg2 harg2 arg3 harg3 arg4 harg4 arg5 harg5 arg6 harg6 arg7 harg7 hc0 hc1 x0 x1 x2 x3 xs0)]
  unfold runLast
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- and the output block is that, projected by the weights, plus the bias. -/
theorem outLast_eq (hc0 : ¬isFirst i) (hc1 : isLast i) (x0 : Vec F S1024x1024 .bf16) (x1 : Vec F S6144x256 .f32) (x2 : Vec F S256x256 .f32) (x3 : Vec F S1x256 .f32) (xs0 : Vec F S1024x256 .f32) :
    outLast c i arg2 harg2 arg3 harg3 arg4 harg4 arg5 harg5 arg6 harg6 arg7 harg7 hc0 hc1 x0 x1 x2 x3 xs0 = k5_pay3 (k5_pay2 xs0 x0 (rowsAt i x1)) x2 x3 := by
  unfold outLast
  rw [View.read_writes_eq_canon _ _ _ (cover_outLast c i arg2 harg2 arg3 harg3 arg4 harg4 arg5 harg5 arg6 harg6 arg7 harg7 hc0 hc1 x0 x1 x2 x3 xs0)]
  unfold runLast
  dsimp only
  try sl_unfold_words
  rw [View.canon_unit_zero hz, View.readCov_unit_zero (S := S1024x256) _ hz]
  simp only [View.readAt_eq_ld, harg2.read_unread, harg3.read_unread, harg7.read_unread, View.ld_unit_zero (S := S1024x1024) hz, View.ld_unit_zero (S := S1024x256) hz, harg4.read_unread, harg5.read_unread, View.ld_unit_zero (S := S256x256) hz, View.ld_unit_zero (S := S1x256) hz]
  rfl
end

end Cert.KernelIdeal.R5

end
-- ==== Proof.R5Blocks.lean ====
/-
  Launch 5, entry by entry over the extended reals: what each of the kernel's payloads holds at an entry (the
  accumulator's store: what it held plus the sum over the tile's 1024 contraction indices; the output's store: the sum
  over the 256 feature columns of the accumulator times the weight matrix's row, plus the bias), and what each block the
  body is entered with holds at an entry, as an entry of the launch's operand arrays (the tile at point 6 m + k is block
  (m, k) of the adjacency matrix; the features, the weights and the bias are whole arrays).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R5Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k5_pay1 (F := Ideal) j = 0 := by
  unfold k5_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k5_pay2 (F := Ideal) v3 v4 v9 (ix2 r e) = v3 (ix2 r e) + ∑ f : Fin 1024, v4 (ix2 r f) * v9 (ix2 f e) := by
  unfold k5_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`. -/
theorem pay3_apply (v19 : Vec Ideal S1024x256 .f32) (v20 : Vec Ideal S256x256 .f32) (v25 : Vec Ideal S1x256 .f32) (r : Fin 1024) (j : Fin 256) :
    k5_pay3 (F := Ideal) v19 v20 v25 (ix2 r j) = (∑ d : Fin 256, v19 (ix2 r d) * v20 (ix2 j d)) + v25 (ix2 0 j) := by
  unfold k5_pay3
  simp only [shapeCast_self]
  refine congrArg₂ (· + ·) ?_ ?_
  · exact Cert.Lib.MatmulT.matmul_trhs_zero_apply (M := 1024) (K := 256) (N := 256) none _ _ r j
  · exact broadcastTo_apply v25 _ (ix2 r j) (ix2 0 j) (fun a => by
      match a with
      | ⟨0, _⟩ => rfl
      | ⟨1, _⟩ => rfl)

/-! ## The blocks the body is entered with, entry by entry -/

/-- The block indices at point t = 6 m + k: the tile is block (m, k) of the adjacency matrix, the features', the weights'
    and the bias's one block is the whole array, the output block is row block m; the contraction coordinate is k. -/
theorem index_tile : ∀ t : Fin cfg5.N, win5_0.index t 0 = t.val / 6 ∧ win5_0.index t 1 = t.val % 6 :=
  (by decide +kernel : ∀ t : Fin grid5.N, win5_0.index t 0 = t.val / 6 ∧ win5_0.index t 1 = t.val % 6)
theorem index_feat : ∀ t : Fin cfg5.N, win5_1.index t 0 = 0 ∧ win5_1.index t 1 = 0 :=
  (by decide +kernel : ∀ t : Fin grid5.N, win5_1.index t 0 = 0 ∧ win5_1.index t 1 = 0)
theorem index_wt : ∀ t : Fin cfg5.N, win5_2.index t 0 = 0 ∧ win5_2.index t 1 = 0 :=
  (by decide +kernel : ∀ t : Fin grid5.N, win5_2.index t 0 = 0 ∧ win5_2.index t 1 = 0)
theorem index_bias : ∀ t : Fin cfg5.N, win5_3.index t 0 = 0 ∧ win5_3.index t 1 = 0 :=
  (by decide +kernel : ∀ t : Fin grid5.N, win5_3.index t 0 = 0 ∧ win5_3.index t 1 = 0)
theorem index_out : ∀ t : Fin cfg5.N, win5_4.index t 0 = t.val / 6 ∧ win5_4.index t 1 = 0 :=
  (by decide +kernel : ∀ t : Fin grid5.N, win5_4.index t 0 = t.val / 6 ∧ win5_4.index t 1 = 0)
theorem coord1 : ∀ t : Fin cfg5.N, ((grid5.coords t) 1).val = t.val % 6 :=
  (by decide +kernel : ∀ t : Fin grid5.N, ((grid5.coords t) 1).val = t.val % 6)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg5.N) (r f : Fin 1024) (p g : Fin 6144)
    (hp : p.val = 1024 * (t.val / 6) + r.val) (hg : g.val = 1024 * (t.val % 6) + f.val) :
    (iblk W c 0 t : Vec F S1024x1024 .bf16) (ix2 r f) = (W c main_v0 : (⟨2, ![6144, 6144]⟩ : Shape).Idx → Elt F .bf16) (ix2 p g) := by
  have hi := index_tile t
  unfold iblk
  rw [View.read_apply]
  show W c main_v0 _ = W c main_v0 _
  congr 1
  funext a
  apply Fin.ext
  match a with
  | ⟨0, _⟩ => show win5_0.index t 0 * 1024 + 1 * r.val = p.val; rw [hi.1, hp]; omega
  | ⟨1, _⟩ => show win5_0.index t 1 * 1024 + 1 * f.val = g.val; rw [hi.2, hg]; omega

/-- The features' block at any point is the feature matrix. -/
theorem feat_apply (c : Dev nD) (t : Fin cfg5.N) (g : Fin 6144) (e : Fin 256) :
    (iblk W c 1 t : Vec F S6144x256 .f32) (ix2 g e) = (W c main_v27 : S6144x256.Idx → Elt F .f32) (ix2 g e) := by
  have hi := index_feat t
  unfold iblk
  rw [View.read_apply]
  show W c main_v27 _ = W c main_v27 _
  congr 1
  funext a
  apply Fin.ext
  match a with
  | ⟨0, _⟩ => show win5_1.index t 0 * 6144 + 1 * g.val = g.val; rw [hi.1]; omega
  | ⟨1, _⟩ => show win5_1.index t 1 * 256 + 1 * e.val = e.val; rw [hi.2]; omega

/-- The weights' block at any point is the weight matrix. -/
theorem wt_apply (c : Dev nD) (t : Fin cfg5.N) (j d : Fin 256) :
    (iblk W c 2 t : Vec F S256x256 .f32) (ix2 j d) = (W c main_v29 : S256x256.Idx → Elt F .f32) (ix2 j d) := by
  have hi := index_wt t
  unfold iblk
  rw [View.read_apply]
  show W c main_v29 _ = W c main_v29 _
  congr 1
  funext a
  apply Fin.ext
  match a with
  | ⟨0, _⟩ => show win5_2.index t 0 * 256 + 1 * j.val = j.val; rw [hi.1]; omega
  | ⟨1, _⟩ => show win5_2.index t 1 * 256 + 1 * d.val = d.val; rw [hi.2]; omega

/-- The bias's block at any point is the bias row. -/
theorem bias_apply (c : Dev nD) (t : Fin cfg5.N) (z : Fin 1) (j : Fin 256) :
    (iblk W c 3 t : Vec F S1x256 .f32) (ix2 z j) = (W c main_v32 : S1x256.Idx → Elt F .f32) (ix2 z j) := by
  have hi := index_bias t
  unfold iblk
  rw [View.read_apply]
  show W c main_v32 _ = W c main_v32 _
  congr 1
  funext a
  apply Fin.ext
  match a with
  | ⟨0, _⟩ => show win5_3.index t 0 * 1 + 1 * z.val = z.val; rw [hi.1]; omega
  | ⟨1, _⟩ => show win5_3.index t 1 * 256 + 1 * j.val = j.val; rw [hi.2]; omega
end

/-- The 1024 rows from the point's offset, at (f, e): the features at (1024 k + f, e). -/
theorem rowsAt_apply (i : grid5.Coords) (x1 : Vec F S6144x256 .f32) (f : Fin 1024) (e : Fin 256) (g : Fin 6144)
    (hg : g.val = 1024 * (i 1).val + f.val) : rowsAt i x1 (ix2 f e) = x1 (ix2 g e) := by
  have h0 : k5_off1 i 0 = 1024 * (i 1).val := by rw [k5_off1_eq i]; rfl
  have h1 : k5_off1 i 1 = 0 := by rw [k5_off1_eq i]; rfl
  show x1 _ = x1 _
  congr 1
  funext a
  apply Fin.ext
  match a with
  | ⟨0, _⟩ => show k5_off1 i 0 + 1 * f.val = g.val; rw [h0, hg]; omega
  | ⟨1, _⟩ => show k5_off1 i 1 + 1 * e.val = e.val; rw [h1]; omega

end Cert.KernelIdeal.R5

end
-- ==== Proof.R5Val.lean ====
/-
  Launch 5's value over the extended reals: the output array ends, at (p, j), at the sum over the 256 feature columns d
  of (the sum over all 6144 contraction indices f of the adjacency matrix at (p, f) times the features at (f, d)) times
  the weight matrix at (j, d), plus the bias at j.
    * After the point with row block m and contraction coordinate k the accumulator holds, at (r, e), the sum of the
      first k + 1 tiles' contributions to row 1024 m + r: by induction on the point, from what each case stores.
    * At k = 5 the 6 tiles' contributions are the whole contraction sum (a sum over 6144 indices is the sum over 6 blocks
      of 1024), and the output block is its projection by the weights, plus the bias.
    * Row block m is written back at point 6 m + 5; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R5Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : (c : Dev nD) → (b : Ref sig .tc) → Buf (Elt Ideal) ((c : Thread nD τ).loc b))

/-! ## The operand arrays as matrices, and the blocks the body is entered with -/

abbrev AA (c : Dev nD) : Iface.Mat 6144 6144 := W c main_v0
abbrev XX (c : Dev nD) : Iface.Mat 6144 256 := W c main_v27
abbrev WW (c : Dev nD) : Iface.Mat 256 256 := W c main_v29
abbrev BB (c : Dev nD) : Iface.Mat 1 256 := W c main_v32

abbrev b0 (c : Dev nD) (t : Fin cfg5.N) : Vec Ideal S1024x1024 .bf16 := iblk W c 0 t
abbrev b1 (c : Dev nD) (t : Fin cfg5.N) : Vec Ideal S6144x256 .f32 := iblk W c 1 t
abbrev b2 (c : Dev nD) (t : Fin cfg5.N) : Vec Ideal S256x256 .f32 := iblk W c 2 t
abbrev b3 (c : Dev nD) (t : Fin cfg5.N) : Vec Ideal S1x256 .f32 := iblk W c 3 t

/-- The term of the contraction sum of row `p`, column `d`, at contraction index `n` (zero outside the extents). -/
def term (c : Dev nD) (p : ℕ) (d : Fin 256) (n : ℕ) : EReal :=
  if h : p < 6144 ∧ n < 6144 then AA W c (ix2 ⟨p, h.1⟩ ⟨n, h.2⟩) * XX W c (ix2 ⟨n, h.2⟩ d) else 0

/-- One tile's contribution: the 1024 terms of contraction block `kb`. -/
def tileSum (c : Dev nD) (p : ℕ) (d : Fin 256) (kb : ℕ) : EReal := ∑ f : Fin 1024, term W c p d (kb * 1024 + f.val)

theorem N_val : cfg5.N = 36 := N_5

/-- What the body's product adds at point t: the tile's contribution to row 1024 m + r. -/
theorem tile_sum (c : Dev nD) (t : Fin cfg5.N) (r : Fin 1024) (e : Fin 256) :
    (∑ f : Fin 1024, b0 W c t (ix2 r f) * rowsAt (grid5.coords t) (b1 W c t) (ix2 f e))
      = tileSum W c (1024 * (t.val / 6) + r.val) e (t.val % 6) := by
  unfold tileSum
  refine Finset.sum_congr rfl fun f _ => ?_
  have ht : t.val < 36 := Nat.lt_of_lt_of_eq t.isLt (N_val)
  have hp : 1024 * (t.val / 6) + r.val < 6144 := by have := r.isLt; omega
  have hg : t.val % 6 * 1024 + f.val < 6144 := by have := f.isLt; omega
  unfold term
  rw [dif_pos ⟨hp, hg⟩]
  refine congrArg₂ (· * ·) ?_ ?_
  · exact tile_apply W c t r f ⟨_, hp⟩ ⟨_, hg⟩ rfl (by show t.val % 6 * 1024 + f.val = _; omega)
  · exact (rowsAt_apply (grid5.coords t) (b1 W c t) f e ⟨_, hg⟩ (by rw [coord1 t]; show t.val % 6 * 1024 + f.val = _; omega)).trans
      (feat_apply W c t ⟨_, hg⟩ e)

/-! ## What each point leaves, in the payloads -/

theorem acc_first (c : Dev nD) (t : Fin cfg5.N) (h0 : t.val % 6 = 0) :
    (outsAt W c t.val t.isLt).2 = k5_pay2 (F := Ideal) (k5_pay1 (F := Ideal)) (b0 W c t) (rowsAt (grid5.coords t) (b1 W c t)) := by
  rw [outsAt_first W c t h0]
  dsimp only
  exact accFirst_eq (F := Ideal) c (grid5.coords t) (ms0 t) (hs0 t) (ms1 t) (hs1 t) (ms2 t) (hs2 t) (ms3 t) (hs3 t) (ms4 t) (hs4 t) accM (Memref.isWhole_whole _) ((isFirst_iff t).mpr h0) (fun h => by have := (isLast_iff t).mp h; omega) (iblk W c 0 t) (iblk W c 1 t) (iblk W c 2 t) (iblk W c 3 t)

theorem acc_middle (c : Dev nD) (t : Fin cfg5.N) (h0 : ¬t.val % 6 = 0) (h5 : ¬t.val % 6 = 5) :
    (outsAt W c t.val t.isLt).2 = k5_pay2 (F := Ideal) (outsAt W c (t.val - 1) (Nat.lt_of_le_of_lt (Nat.sub_le _ _) t.isLt)).2 (b0 W c t) (rowsAt (grid5.coords t) (b1 W c t)) := by
  rw [outsAt_middle W c t h0 h5]
  dsimp only
  exact accMiddle_eq (F := Ideal) c (grid5.coords t) (ms0 t) (hs0 t) (ms1 t) (hs1 t) (ms2 t) (hs2 t) (ms3 t) (hs3 t) (ms4 t) (hs4 t) accM (Memref.isWhole_whole _) (fun h => h0 ((isFirst_iff t).mp h)) (fun h => h5 ((isLast_iff t).mp h)) (iblk W c 0 t) (iblk W c 1 t) (iblk W c 2 t) (iblk W c 3 t) (outsAt W c (t.val - 1) (Nat.lt_of_le_of_lt (Nat.sub_le _ _) t.isLt)).2

theorem acc_last (c : Dev nD) (t : Fin cfg5.N) (h0 : ¬t.val % 6 = 0) (h5 : t.val % 6 = 5) :
    (outsAt W c t.val t.isLt).2 = k5_pay2 (F := Ideal) (outsAt W c (t.val - 1) (Nat.lt_of_le_of_lt (Nat.sub_le _ _) t.isLt)).2 (b0 W c t) (rowsAt (grid5.coords t) (b1 W c t)) := by
  rw [outsAt_last W c t h0 h5]
  dsimp only
  exact accLast_eq (F := Ideal) c (grid5.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

theorem out_last (c : Dev nD) (t : Fin cfg5.N) (h0 : ¬t.val % 6 = 0) (h5 : t.val % 6 = 5) :
    (outsAt W c t.val t.isLt).1 = k5_pay3 (F := Ideal) (outsAt W c t.val t.isLt).2 (b2 W c t) (b3 W c t) := by
  rw [acc_last W c t h0 h5, outsAt_last W c t h0 h5]
  dsimp only
  exact outLast_eq (F := Ideal) c (grid5.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

/-! ## The accumulator, point after point -/

/-- After point n (row block n / 6, contraction coordinate n % 6) the accumulator holds the first n % 6 + 1 tiles'
    contributions. -/
theorem acc_inv (c : Dev nD) : ∀ (n : ℕ) (hn : n < cfg5.N) (r : Fin 1024) (e : Fin 256),
    (outsAt W c n hn).2 (ix2 r e) = ∑ kb ∈ Finset.range (n % 6 + 1), tileSum W c (1024 * (n / 6) + r.val) e kb := by
  intro n
  induction n with
  | zero =>
    intro hn r e
    refine (congrFun (acc_first W c ⟨0, hn⟩ rfl) (ix2 r e)).trans ?_
    refine (pay2_apply _ _ _ r e).trans ?_
    rw [pay1_apply, zero_add, tile_sum W c ⟨0, hn⟩ r e]
    exact (Finset.sum_range_one _).symm
  | succ n ih =>
    intro hn r e
    by_cases h0 : (n + 1) % 6 = 0
    · refine (congrFun (acc_first W c ⟨n + 1, hn⟩ h0) (ix2 r e)).trans ?_
      refine (pay2_apply _ _ _ r e).trans ?_
      rw [pay1_apply, zero_add, tile_sum W c ⟨n + 1, hn⟩ r e]
      show tileSum W c (1024 * ((n + 1) / 6) + r.val) e ((n + 1) % 6) = _
      rw [h0]
      exact (Finset.sum_range_one _).symm
    · have hprev := ih (Nat.lt_of_succ_lt hn) r e
      have e1 : n % 6 + 1 = (n + 1) % 6 := by omega
      have e2 : n / 6 = (n + 1) / 6 := by omega
      rw [e1, e2] at hprev
      have hstep : (outsAt W c (n + 1) hn).2 = k5_pay2 (F := Ideal) (outsAt W c n (Nat.lt_of_succ_lt hn)).2 (b0 W c ⟨n + 1, hn⟩) (rowsAt (grid5.coords ⟨n + 1, hn⟩) (b1 W c ⟨n + 1, hn⟩)) := by
        by_cases h5 : (n + 1) % 6 = 5
        · exact acc_last W c ⟨n + 1, hn⟩ h0 h5
        · exact acc_middle W c ⟨n + 1, hn⟩ h0 h5
      refine (congrFun hstep (ix2 r e)).trans ?_
      refine (pay2_apply _ _ _ r e).trans ?_
      rw [Finset.sum_range_succ, hprev, tile_sum W c ⟨n + 1, hn⟩ r e]

/-- The 6 tiles' contributions are the whole contraction sum: a sum over 6144 indices is the sum over 6 blocks of 1024. -/
theorem tiles_total (c : Dev nD) (p : Fin 6144) (d : Fin 256) :
    ∑ kb ∈ Finset.range 6, tileSum W c p.val d kb = ∑ f : Fin 6144, AA W c (ix2 p f) * XX W c (ix2 f d) := by
  rw [← Fin.sum_univ_eq_sum_range (fun kb => tileSum W c p.val d kb) 6]
  rw [BlockSums.sum_blocks 6 1024 6144 (by norm_num) (fun f : Fin 6144 => AA W c (ix2 p f) * XX W c (ix2 f d))]
  refine Finset.sum_congr rfl fun kb _ => ?_
  unfold tileSum
  refine Finset.sum_congr rfl fun f _ => ?_
  have hg : kb.val * 1024 + f.val < 6144 := by have := kb.isLt; have := f.isLt; omega
  unfold term
  rw [dif_pos ⟨p.isLt, hg⟩]

/-! ## The output block at the last contraction coordinate, and the output array -/

/-- What the output array has to hold. -/
def G (c : Dev nD) : Iface.Mat 6144 256 := fun i =>
  (∑ d : Fin 256, (∑ f : Fin 6144, AA W c (ix2 (i 0) f) * XX W c (ix2 f d)) * WW W c (ix2 (i 1) d)) + BB W c (ix2 0 (i 1))

/-- The output block stored at point t = 6 m + 5, at (r, j): `G` at (1024 m + r, j). -/
theorem out_val (c : Dev nD) (t : Fin cfg5.N) (h5 : t.val % 6 = 5) (r : Fin 1024) (j : Fin 256) (p : Fin 6144)
    (hp : p.val = 1024 * (t.val / 6) + r.val) :
    (outsAt W c t.val t.isLt).1 (ix2 r j) = G W c (ix2 p j) := by
  have h0 : ¬t.val % 6 = 0 := by omega
  refine (congrFun (out_last W c t h0 h5) (ix2 r j)).trans ?_
  refine (pay3_apply _ _ _ r j).trans ?_
  refine congrArg₂ (· + ·) (Finset.sum_congr rfl fun d _ => congrArg₂ (· * ·) ?_ (wt_apply W c t j d)) (bias_apply W c t 0 j)
  rw [acc_inv W c t.val t.isLt r d, h5, ← hp]
  exact tiles_total W c p d

/-- Row block m of a matrix, read through the output window's block at point t, at (r, j). -/
theorem out_read (c : Dev nD) (t : Fin cfg5.N) (Gm : Iface.Mat 6144 256) (r : Fin 1024) (j : Fin 256) (p : Fin 6144)
    (hp : p.val = 1024 * (t.val / 6) + r.val) :
    ((cfg5.win 4).blk t).view.read (Elt Ideal) Gm (ix2 r j) = Gm (ix2 p j) := by
  have hi := index_out t
  rw [View.read_apply]
  show Gm _ = Gm _
  congr 1
  funext a
  apply Fin.ext
  match a with
  | ⟨0, _⟩ => show win5_4.index t 0 * 1024 + 1 * r.val = p.val; rw [hi.1, hp]; omega
  | ⟨1, _⟩ => show win5_4.index t 1 * 256 + 1 * j.val = j.val; rw [hi.2]; omega

/-- Every write-back writes its row block of `G`. -/
theorem flushed_eq (c : Dev nD) (t : Fin cfg5.N) (hf : (cfg5.win 4).flush t = true) :
    (dat W c).flushed 4 t = ((cfg5.win 4).blk t).view.read (Elt Ideal) (G W c) := by
  have h5 : t.val % 6 = 5 := (flush5_4 t).mp hf
  have ht : t.val < 36 := Nat.lt_of_lt_of_eq t.isLt N_val
  show (cfg5.win 4).cut (grid5.coords t) ((dat W c).after 4 t) = _
  rw [after4]
  funext y
  obtain ⟨r, j, rfl⟩ : ∃ (r : Fin 1024) (j : Fin 256), y = ix2 r j := ⟨y 0, y 1, eq_ix2 y⟩
  have hp : 1024 * (t.val / 6) + r.val < 6144 := by have := r.isLt; omega
  exact (out_val W c t h5 r j ⟨_, hp⟩ rfl).trans (out_read c t (G W c) r j ⟨_, hp⟩ rfl).symm

/-- The row blocks written back cover the output array: row p is in the block written at point 6 (p / 1024) + 5. -/
theorem cover (c : Dev nD) (i : ((cfg5.win 4).arr.view.loc (c.tc : Thread nD τ)).2.ty.Idx) :
    ∃ t : Fin cfg5.N, (cfg5.win 4).flush t = true ∧ i ∈ ((cfg5.win 4).blk t).view.set := by
  have hi0 : (i 0).val < 6144 := (i 0).isLt
  have hi1 : (i 1).val < 256 := (i 1).isLt
  have htN : 6 * ((i 0).val / 1024) + 5 < cfg5.N := by rw [N_val]; omega
  refine ⟨⟨6 * ((i 0).val / 1024) + 5, htN⟩, (flush5_4 _).mpr (by show (6 * ((i 0).val / 1024) + 5) % 6 = 5; omega), ?_⟩
  have hidx := index_out ⟨6 * ((i 0).val / 1024) + 5, htN⟩
  show i ∈ ((View.whole main_v33).slice (win5_4.rect ⟨6 * ((i 0).val / 1024) + 5, htN⟩)).set
  rw [View.set_slice_whole, Rect.mem_set_unit]
  intro a
  match a with
  | ⟨0, _⟩ =>
    show win5_4.index ⟨6 * ((i 0).val / 1024) + 5, htN⟩ 0 * 1024 ≤ (i 0).val ∧ (i 0).val < win5_4.index ⟨6 * ((i 0).val / 1024) + 5, htN⟩ 0 * 1024 + 1024
    rw [hidx.1]
    show (6 * ((i 0).val / 1024) + 5) / 6 * 1024 ≤ (i 0).val ∧ (i 0).val < (6 * ((i 0).val / 1024) + 5) / 6 * 1024 + 1024
    omega
  | ⟨1, _⟩ =>
    show win5_4.index ⟨6 * ((i 0).val / 1024) + 5, htN⟩ 1 * 256 ≤ (i 1).val ∧ (i 1).val < win5_4.index ⟨6 * ((i 0).val / 1024) + 5, htN⟩ 1 * 256 + 256
    rw [hidx.2]
    omega

/-- So the output array ends holding `G`. -/
theorem final (c : Dev nD) : (dat W c).arrAt 4 cfg5.N = G W c :=
  (dat W c).arrAt_eq_of_cover 4 (G W c) (flushed_eq W c) (cover c)

/-- The launch's output, entry by entry. -/
theorem leaves_ok : Cert.KernelIdeal.Iface.Is5 (fun W c => (dat (F := Ideal) W c).arrAt 4 cfg5.N) := by
  intro W c p j
  show (dat W c).arrAt 4 cfg5.N (ix2 p j) = _
  rw [final W c]
  rfl

end Cert.KernelIdeal.R5

end
-- ==== Proof.R6Pieces.lean ====
/-
  Launch 6's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias, plus the first
  skip block, clamped below at zero, plus the second skip block) of the accumulator's new contents. Each is read off the
  stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R6Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid6.Coords) (arg2 : Memref sig .tc .vmem S1024x1024 .bf16) (harg2 : arg2.IsWhole) (arg3 : Memref sig .tc .vmem S6144x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The rows of the features the point contracts against: 1024 rows from the point's offset. -/
abbrev rowsAt (x1 : Vec F S6144x256 .f32) : Vec F S1024x256 .f32 :=
  View.ld x1 (Rect.unit (s := S6144x256) (k6_off1 i) S1024x256.size (k6_off1_inb i))

/-- k = 0: the accumulator ends at zero plus the tile's product. -/
theorem accFirst_eq (hc0 : isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) :
    accFirst c i arg2 harg2 arg3 harg3 arg4 harg4 arg5 harg5 arg6 harg6 arg7 harg7 arg8 harg8 arg9 harg9 hc0 hc1 x0 x1 x2 x3 x4 x5 = k6_pay2 (k6_pay1 (F := F)) x0 (rowsAt i x1) := by
  unfold accFirst
  rw [View.read_writes_eq_canon _ _ _ (cover_accFirst c i arg2 harg2 arg3 harg3 arg4 harg4 arg5 harg5 arg6 harg6 arg7 harg7 arg8 harg8 arg9 harg9 hc0 hc1 x0 x1 x2 x3 x4 x5)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 5: the accumulator ends at what it held plus the tile's product. -/
theorem accMiddle_eq (hc0 : ¬isFirst i) (hc1 : ¬isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    accMiddle c i arg2 harg2 arg3 harg3 arg4 harg4 arg5 harg5 arg6 harg6 arg7 harg7 arg8 harg8 arg9 harg9 hc0 hc1 x0 x1 x2 x3 x4 x5 xs0 = k6_pay2 xs0 x0 (rowsAt i x1) := by
  unfold accMiddle
  rw [View.read_writes_eq_canon _ _ _ (cover_accMiddle c i arg2 harg2 arg3 harg3 arg4 harg4 arg5 harg5 arg6 harg6 arg7 harg7 arg8 harg8 arg9 harg9 hc0 hc1 x0 x1 x2 x3 x4 x5 xs0)]
  unfold runMiddle
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- k = 5: the accumulator likewise, -/
theorem accLast_eq (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    accLast c i arg2 harg2 arg3 harg3 arg4 harg4 arg5 harg5 arg6 harg6 arg7 harg7 arg8 harg8 arg9 harg9 hc0 hc1 x0 x1 x2 x3 x4 x5 xs0 = k6_pay2 xs0 x0 (rowsAt i x1) := by
  unfold accLast
  rw [View.read_writes_eq_canon _ _ _ (cover_accLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- and the output block is the epilogue of that, the weights, the bias row and the two skip blocks. -/
theorem outLast_eq (hc0 : ¬isFirst i) (hc1 : isLast i) (x0 : Vec F S1024x1024 .bf16) (x1 : Vec F S6144x256 .f32) (x2 : Vec F S256x256 .f32) (x3 : Vec F S1x256 .f32) (x4 : Vec F S1024x256 .f32) (x5 : Vec F S1024x256 .f32) (xs0 : Vec F S1024x256 .f32) :
    outLast c i arg2 harg2 arg3 harg3 arg4 harg4 arg5 harg5 arg6 harg6 arg7 harg7 arg8 harg8 arg9 harg9 hc0 hc1 x0 x1 x2 x3 x4 x5 xs0 = k6_pay3 (k6_pay2 xs0 x0 (rowsAt i x1)) x2 x3 x4 x5 := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz, View.readCov_unit_zero (S := S1024x256) _ hz]
  simp only [View.readAt_eq_ld, harg2.read_unread, harg3.read_unread, harg9.read_unread, View.ld_unit_zero (S := S1024x1024) hz, View.ld_unit_zero (S := S1024x256) hz, harg4.read_unread, harg5.read_unread, harg6.read_unread, harg7.read_unread, View.ld_unit_zero (S := S256x256) hz, View.ld_unit_zero (S := S1x256) hz]
  rfl
end

end Cert.KernelIdeal.R6

end
-- ==== Proof.R6Blocks.lean ====
/-
  Launch 6, entry by entry over the extended reals: what each of the kernel's payloads holds at an entry (the
  accumulator's store: what it held plus the sum over the tile's 1024 contraction indices; the output's store: the sum
  over the 256 feature columns of the accumulator times the weight matrix's row, plus the bias, plus the first skip
  block, the maximum of that and zero, plus the second skip block), and what each block the body is entered with holds at
  an entry, as an entry of the launch's operand arrays (the tile at point 6 m + k is block (m, k) of the adjacency
  matrix; the features, the weights and the bias are whole arrays; the skip blocks are row block m of theirs).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R6Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k6_pay1 (F := Ideal) j = 0 := by
  unfold k6_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k6_pay2 (F := Ideal) v3 v4 v9 (ix2 r e) = v3 (ix2 r e) + ∑ f : Fin 1024, v4 (ix2 r f) * v9 (ix2 f e) := by
  unfold k6_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`, plus the first
    skip block, the maximum of that and zero, plus the second skip block. -/
theorem pay3_apply (v20 : Vec Ideal S1024x256 .f32) (v21 : Vec Ideal S256x256 .f32) (v26 : Vec Ideal S1x256 .f32) (v30 v35 : Vec Ideal S1024x256 .f32) (r : Fin 1024) (j : Fin 256) :
    k6_pay3 (F := Ideal) v20 v21 v26 v30 v35 (ix2 r j)
      = max (v30 (ix2 r j) + ((∑ d : Fin 256, v20 (ix2 r d) * v21 (ix2 j d)) + v26 (ix2 0 j))) 0 + v35 (ix2 r j) := by
  unfold k6_pay3
  simp only [shapeCast_self]
  refine congrArg₂ (· + ·) ?_ rfl
  refine congrArg₂ max ?_ ?_
  · refine congrArg (v30 (ix2 r j) + ·) ?_
    refine congrArg₂ (· + ·) ?_ ?_
    · exact Cert.Lib.MatmulT.matmul_trhs_zero_apply (M := 1024) (K := 256) (N := 256) none _ _ r j
    · exact broadcastTo_apply v26 _ (ix2 r j) (ix2 0 j) (fun a => by
        match a with
        | ⟨0, _⟩ => rfl
        | ⟨1, _⟩ => rfl)
  · exact Ideal.ofBits_zero_f32

/-! ## The blocks the body is entered with, entry by entry -/

/-- The block indices at point t = 6 m + k: the tile is block (m, k) of the adjacency matrix; the features', the weights'
    and the bias's one block is the whole array; the skip blocks and the output block are row block m; the contraction
    coordinate is k. -/
theorem index_w0 : ∀ t : Fin cfg6.N, win6_0.index t 0 = t.val / 6 ∧ win6_0.index t 1 = t.val % 6 :=
  (by decide +kernel : ∀ t : Fin grid6.N, win6_0.index t 0 = t.val / 6 ∧ win6_0.index t 1 = t.val % 6)
theorem index_w1 : ∀ t : Fin cfg6.N, win6_1.index t 0 = 0 ∧ win6_1.index t 1 = 0 :=
  (by decide +kernel : ∀ t : Fin grid6.N, win6_1.index t 0 = 0 ∧ win6_1.index t 1 = 0)
theorem index_w2 : ∀ t : Fin cfg6.N, win6_2.index t 0 = 0 ∧ win6_2.index t 1 = 0 :=
  (by decide +kernel : ∀ t : Fin grid6.N, win6_2.index t 0 = 0 ∧ win6_2.index t 1 = 0)
theorem index_w3 : ∀ t : Fin cfg6.N, win6_3.index t 0 = 0 ∧ win6_3.index t 1 = 0 :=
  (by decide +kernel : ∀ t : Fin grid6.N, win6_3.index t 0 = 0 ∧ win6_3.index t 1 = 0)
theorem index_w4 : ∀ t : Fin cfg6.N, win6_4.index t 0 = t.val / 6 ∧ win6_4.index t 1 = 0 :=
  (by decide +kernel : ∀ t : Fin grid6.N, win6_4.index t 0 = t.val / 6 ∧ win6_4.index t 1 = 0)
theorem index_w5 : ∀ t : Fin cfg6.N, win6_5.index t 0 = t.val / 6 ∧ win6_5.index t 1 = 0 :=
  (by decide +kernel : ∀ t : Fin grid6.N, win6_5.index t 0 = t.val / 6 ∧ win6_5.index t 1 = 0)
theorem index_w6 : ∀ t : Fin cfg6.N, win6_6.index t 0 = t.val / 6 ∧ win6_6.index t 1 = 0 :=
  (by decide +kernel : ∀ t : Fin grid6.N, win6_6.index t 0 = t.val / 6 ∧ win6_6.index t 1 = 0)
theorem coord1 : ∀ t : Fin cfg6.N, ((grid6.coords t) 1).val = t.val % 6 :=
  (by decide +kernel : ∀ t : Fin grid6.N, ((grid6.coords t) 1).val = t.val % 6)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg6.N) (r f : Fin 1024) (p g : Fin 6144)
    (hp : p.val = 1024 * (t.val / 6) + r.val) (hg : g.val = 1024 * (t.val % 6) + f.val) :
    (iblk W c 0 t : Vec F S1024x1024 .bf16) (ix2 r f) = (W c main_v0 : (⟨2, ![6144, 6144]⟩ : Shape).Idx → Elt F .bf16) (ix2 p g) := by
  have hi := index_w0 t
  unfold iblk
  rw [View.read_apply]
  show W c main_v0 _ = W c main_v0 _
  congr 1
  funext a
  apply Fin.ext
  match a with
  | ⟨0, _⟩ => show win6_0.index t 0 * 1024 + 1 * r.val = p.val; rw [hi.1, hp]; omega
  | ⟨1, _⟩ => show win6_0.index t 1 * 1024 + 1 * f.val = g.val; rw [hi.2, hg]; omega

/-- Window 1's block at any point is its whole array. -/
theorem feat_apply (c : Dev nD) (t : Fin cfg6.N) (g : Fin 6144) (e : Fin 256) :
    (iblk W c 1 t : Vec F S6144x256 .f32) (ix2 g e) = (W c main_v33 : S6144x256.Idx → Elt F .f32) (ix2 g e) := by
  have hi := index_w1 t
  unfold iblk
  rw [View.read_apply]
  show W c main_v33 _ = W c main_v33 _
  congr 1
  funext a
  apply Fin.ext
  match a with
  | ⟨0, _⟩ => show win6_1.index t 0 * 6144 + 1 * g.val = g.val; rw [hi.1]; omega
  | ⟨1, _⟩ => show win6_1.index t 1 * 256 + 1 * e.val = e.val; rw [hi.2]; omega

/-- Window 2's block at any point is its whole array. -/
theorem wt_apply (c : Dev nD) (t : Fin cfg6.N) (j : Fin 256) (d : Fin 256) :
    (iblk W c 2 t : Vec F S256x256 .f32) (ix2 j d) = (W c main_v35 : S256x256.Idx → Elt F .f32) (ix2 j d) := by
  have hi := index_w2 t
  unfold iblk
  rw [View.read_apply]
  show W c main_v35 _ = W c main_v35 _
  congr 1
  funext a
  apply Fin.ext
  match a with
  | ⟨0, _⟩ => show win6_2.index t 0 * 256 + 1 * j.val = j.val; rw [hi.1]; omega
  | ⟨1, _⟩ => show win6_2.index t 1 * 256 + 1 * d.val = d.val; rw [hi.2]; omega

/-- Window 3's block at any point is its whole array. -/
theorem bias_apply (c : Dev nD) (t : Fin cfg6.N) (z : Fin 1) (j : Fin 256) :
    (iblk W c 3 t : Vec F S1x256 .f32) (ix2 z j) = (W c main_v38 : S1x256.Idx → Elt F .f32) (ix2 z j) := by
  have hi := index_w3 t
  unfold iblk
  rw [View.read_apply]
  show W c main_v38 _ = W c main_v38 _
  congr 1
  funext a
  apply Fin.ext
  match a with
  | ⟨0, _⟩ => show win6_3.index t 0 * 1 + 1 * z.val = z.val; rw [hi.1]; omega
  | ⟨1, _⟩ => show win6_3.index t 1 * 256 + 1 * j.val = j.val; rw [hi.2]; omega

/-- The first skip block at point t, at (r, e): its array at (1024 m + r, e). -/
theorem res1_apply (c : Dev nD) (t : Fin cfg6.N) (r : Fin 1024) (e : Fin 256) (p : Fin 6144)
    (hp : p.val = 1024 * (t.val / 6) + r.val) :
    (iblk W c 4 t : Vec F S1024x256 .f32) (ix2 r e) = (W c main_v33 : S6144x256.Idx → Elt F .f32) (ix2 p e) := by
  have hi := index_w4 t
  unfold iblk
  rw [View.read_apply]
  show W c main_v33 _ = W c main_v33 _
  congr 1
  funext a
  apply Fin.ext
  match a with
  | ⟨0, _⟩ => show win6_4.index t 0 * 1024 + 1 * r.val = p.val; rw [hi.1, hp]; omega
  | ⟨1, _⟩ => show win6_4.index t 1 * 256 + 1 * e.val = e.val; rw [hi.2]; omega

/-- The second skip block at point t, at (r, e): its array at (1024 m + r, e). -/
theorem res2_apply (c : Dev nD) (t : Fin cfg6.N) (r : Fin 1024) (e : Fin 256) (p : Fin 6144)
    (hp : p.val = 1024 * (t.val / 6) + r.val) :
    (iblk W c 5 t : Vec F S1024x256 .f32) (ix2 r e) = (W c main_v27 : S6144x256.Idx → Elt F .f32) (ix2 p e) := by
  have hi := index_w5 t
  unfold iblk
  rw [View.read_apply]
  show W c main_v27 _ = W c main_v27 _
  congr 1
  funext a
  apply Fin.ext
  match a with
  | ⟨0, _⟩ => show win6_5.index t 0 * 1024 + 1 * r.val = p.val; rw [hi.1, hp]; omega
  | ⟨1, _⟩ => show win6_5.index t 1 * 256 + 1 * e.val = e.val; rw [hi.2]; omega
end

/-- The 1024 rows from the point's offset, at (f, e): the features at (1024 k + f, e). -/
theorem rowsAt_apply (i : grid6.Coords) (x1 : Vec F S6144x256 .f32) (f : Fin 1024) (e : Fin 256) (g : Fin 6144)
    (hg : g.val = 1024 * (i 1).val + f.val) : rowsAt i x1 (ix2 f e) = x1 (ix2 g e) := by
  have h0 : k6_off1 i 0 = 1024 * (i 1).val := by rw [k6_off1_eq i]; rfl
  have h1 : k6_off1 i 1 = 0 := by rw [k6_off1_eq i]; rfl
  show x1 _ = x1 _
  congr 1
  funext a
  apply Fin.ext
  match a with
  | ⟨0, _⟩ => show k6_off1 i 0 + 1 * f.val = g.val; rw [h0, hg]; omega
  | ⟨1, _⟩ => show k6_off1 i 1 + 1 * e.val = e.val; rw [h1]; omega

end Cert.KernelIdeal.R6

end
-- ==== Proof.R6Val.lean ====
/-
  Launch 6's value over the extended reals: the output array ends, at (p, j), at
      max (r₁ (p, j) + (Σ_d (Σ_f A (p, f) · X (f, d)) · Wm (j, d) + b (0, j))) 0 + r₂ (p, j)
  with A the adjacency matrix, X the features, Wm the weights, b the bias row, r₁ r₂ the two skip arrays; f runs over all
  6144 contraction indices.
    * After the point with row block m and contraction coordinate k the accumulator holds, at (r, e), the sum of the
      first k + 1 tiles' contributions to row 1024 m + r: by induction on the point, from what each case stores.
    * At k = 5 the 6 tiles' contributions are the whole contraction sum (a sum over 6144 indices is the sum over 6
      blocks of 1024), and the output block is the epilogue of it.
    * Row block m is written back at point 6 m + 5; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R6Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : Iface.Vl)

/-! ## The operand arrays, and the blocks at a point, as matrices of extended reals -/

abbrev AA (c : Dev nD) : Iface.Mat 6144 6144 := W c main_v0
abbrev XX (c : Dev nD) : Iface.Mat 6144 256 := W c main_v33
abbrev WW (c : Dev nD) : Iface.Mat 256 256 := W c main_v35
abbrev BB (c : Dev nD) : Iface.Mat 1 256 := W c main_v38
abbrev S1 (c : Dev nD) : Iface.Mat 6144 256 := W c main_v33
abbrev S2 (c : Dev nD) : Iface.Mat 6144 256 := W c main_v27
abbrev tileAt (c : Dev nD) (t : Fin cfg6.N) : Vec Ideal S1024x1024 .bf16 := iblk W c 0 t
abbrev featAt (c : Dev nD) (t : Fin cfg6.N) : Vec Ideal S6144x256 .f32 := iblk W c 1 t
abbrev wtAt (c : Dev nD) (t : Fin cfg6.N) : Vec Ideal S256x256 .f32 := iblk W c 2 t
abbrev biasAt (c : Dev nD) (t : Fin cfg6.N) : Vec Ideal S1x256 .f32 := iblk W c 3 t
abbrev res1At (c : Dev nD) (t : Fin cfg6.N) : Vec Ideal S1024x256 .f32 := iblk W c 4 t
abbrev res2At (c : Dev nD) (t : Fin cfg6.N) : Vec Ideal S1024x256 .f32 := iblk W c 5 t

/-- The n-th term of the contraction at (p, d): adjacency (p, n) times features (n, d); zero past the extent. -/
def term (c : Dev nD) (p : Fin 6144) (d : Fin 256) (n : ℕ) : EReal :=
  if h : n < 6144 then AA W c (ix2 p ⟨n, h⟩) * XX W c (ix2 ⟨n, h⟩ d) else 0

/-- The sum of the 1024 terms of contraction block j. -/
def blockSum (c : Dev nD) (p : Fin 6144) (d : Fin 256) (j : ℕ) : EReal := ∑ f : Fin 1024, term W c p d (j * 1024 + f.val)

/-- The tile's product at point t = 6 m + k, at (r, e): the sum of contraction block k at (1024 m + r, e). -/
theorem prod_at (c : Dev nD) (t : Fin cfg6.N) (r : Fin 1024) (e : Fin 256) (p : Fin 6144) (hp : p.val = 1024 * (t.val / 6) + r.val) :
    (∑ f : Fin 1024, tileAt W c t (ix2 r f) * rowsAt (grid6.coords t) (featAt W c t) (ix2 f e))
      = blockSum W c p e (t.val % 6) := by
  refine Finset.sum_congr rfl fun f _ => ?_
  have hlt : (t.val % 6) * 1024 + f.val < 6144 := by
    have := f.isLt; have : t.val % 6 < 6 := Nat.mod_lt _ (by omega); omega
  unfold term
  rw [dif_pos hlt]
  exact congrArg₂ (· * ·)
    (tile_apply W c t r f p ⟨_, hlt⟩ hp (by show (t.val % 6) * 1024 + f.val = 1024 * (t.val % 6) + f.val; omega))
    ((rowsAt_apply (grid6.coords t) _ f e ⟨_, hlt⟩ (by rw [coord1 t]; show (t.val % 6) * 1024 + f.val = 1024 * (t.val % 6) + f.val; omega)).trans
      (feat_apply W c t ⟨_, hlt⟩ e))

set_option maxHeartbeats 4000000 in
/-- At a point that opens a row block the accumulator holds the first block's sum. -/
theorem acc_first (c : Dev nD) (t : Fin cfg6.N) (h0 : t.val % 6 = 0) (r : Fin 1024) (e : Fin 256) (p : Fin 6144)
    (hp : p.val = 1024 * (t.val / 6) + r.val) :
    (outsAt W c t.val t.isLt).2 (ix2 r e) = ∑ j ∈ Finset.range (t.val % 6 + 1), blockSum W c p e j := by
  refine (congrFun (congrArg Prod.snd (outsAt_first W c t h0)) (ix2 r e)).trans ?_
  refine (congrFun (accFirst_eq (F := Ideal) c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
    ((isFirst_iff t).mpr h0) (fun h => by have := (isLast_iff t).mp h; omega) (iblk W c 0 t) (iblk W c 1 t) (iblk W c 2 t) (iblk W c 3 t) (iblk W c 4 t) (iblk W c 5 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg6.N) (h0 : ¬t.val % 6 = 0) (r : Fin 1024) (e : Fin 256) (p : Fin 6144)
    (hp : p.val = 1024 * (t.val / 6) + r.val) (h' : t.val - 1 < cfg6.N)
    (ih : (outsAt W c (t.val - 1) h').2 (ix2 r e) = ∑ j ∈ Finset.range (t.val % 6), blockSum W c p e j) :
    (outsAt W c t.val t.isLt).2 (ix2 r e) = ∑ j ∈ Finset.range (t.val % 6 + 1), blockSum W c p e j := by
  rw [Finset.sum_range_succ, ← prod_at W c t r e p hp, ← ih]
  by_cases h5 : t.val % 6 = 5
  · refine (congrFun (congrArg Prod.snd (outsAt_last W c t h0 h5)) (ix2 r e)).trans ?_
    refine (congrFun (accLast_eq (F := Ideal) c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e

/-- After the point at position n = 6 m + k the accumulator at (r, e) is the sum of contraction blocks 0 … k at
    (1024 m + r, e). -/
theorem acc_inv (c : Dev nD) : ∀ (n : ℕ) (hn : n < cfg6.N) (r : Fin 1024) (e : Fin 256) (p : Fin 6144),
    p.val = 1024 * (n / 6) + r.val → (outsAt W c n hn).2 (ix2 r e) = ∑ j ∈ Finset.range (n % 6 + 1), blockSum W c p e j
  | 0, hn, r, e, p, hp => acc_first W c ⟨0, hn⟩ rfl r e p hp
  | n + 1, hn, r, e, p, hp => by
    by_cases h0 : (n + 1) % 6 = 0
    · exact acc_first W c ⟨n + 1, hn⟩ h0 r e p hp
    · have ih := acc_inv c n (Nat.lt_of_succ_lt hn) r e p (by
        have : n / 6 = (n + 1) / 6 := by omega
        rw [this]; exact hp)
      have hm : n % 6 + 1 = (n + 1) % 6 := by omega
      rw [hm] at ih
      exact acc_step W c ⟨n + 1, hn⟩ h0 r e p hp (Nat.lt_of_succ_lt hn) ih

/-- The 6 block sums are the whole contraction. -/
theorem sum_all (c : Dev nD) (p : Fin 6144) (d : Fin 256) :
    ∑ j ∈ Finset.range 6, blockSum W c p d j
      = ∑ f : Fin 6144, AA W c (ix2 p f) * XX W c (ix2 f d) := by
  rw [BlockSums.sum_blocks 6 1024 6144 rfl (fun n : Fin 6144 => AA W c (ix2 p n) * XX W c (ix2 n d))]
  rw [← Fin.sum_univ_eq_sum_range (fun j => blockSum W c p d j) 6]
  refine Finset.sum_congr rfl fun j _ => Finset.sum_congr rfl fun f _ => ?_
  unfold term
  rw [dif_pos (BlockSums.block_row_lt j f)]

/-- Entry (p, j) of the output: the epilogue of the whole contraction sums of row p. -/
def resultAt (c : Dev nD) (p : Fin 6144) (j : Fin 256) : EReal :=
  max (S1 W c (ix2 p j) + ((∑ d : Fin 256, (∑ f : Fin 6144, AA W c (ix2 p f) * XX W c (ix2 f d)) * WW W c (ix2 j d)) + BB W c (ix2 0 j))) 0
    + S2 W c (ix2 p j)

set_option maxHeartbeats 4000000 in
/-- At a point that closes a row block the output block at (r, j) is the result at (1024 m + r, j). -/
theorem out_last (c : Dev nD) (t : Fin cfg6.N) (h5 : t.val % 6 = 5) (r : Fin 1024) (j : Fin 256) (p : Fin 6144)
    (hp : p.val = 1024 * (t.val / 6) + r.val) :
    (outsAt W c t.val t.isLt).1 (ix2 r j) = resultAt W c p j := by
  have h0 : ¬t.val % 6 = 0 := by omega
  have e1 := congrFun (congrArg Prod.fst (outsAt_last W c t h0 h5)) (ix2 r j)
  have hacc : ∀ d : Fin 256, k6_pay2 (F := Ideal) (outsAt W c (t.val - 1) (Nat.lt_of_le_of_lt (Nat.sub_le _ _) t.isLt)).2 (iblk W c 0 t) (rowsAt (grid6.coords t) (iblk W c 1 t)) (ix2 r d)
      = ∑ f : Fin 6144, AA W c (ix2 p f) * XX W c (ix2 f d) := fun d => by
    have e2 := congrFun (congrArg Prod.snd (outsAt_last W c t h0 h5)) (ix2 r d)
    have a := acc_inv W c t.val t.isLt r d p hp
    rw [h5, sum_all] at a
    rw [← a]
    exact ((congrFun (accLast_eq (F := Ideal) c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r d)).symm.trans e2.symm)
  refine e1.trans ?_
  refine (congrFun (outLast_eq (F := Ideal) c (grid6.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r j)).trans ?_
  refine (pay3_apply _ _ _ _ _ r j).trans ?_
  unfold resultAt
  refine congrArg₂ (· + ·) (congrArg₂ max (congrArg₂ (· + ·) (res1_apply W c t r j p hp)
    (congrArg₂ (· + ·) (Finset.sum_congr rfl fun d _ => congrArg₂ (· * ·) (hacc d) (wt_apply W c t j d)) (bias_apply W c t 0 j))) rfl) (res2_apply W c t r j p hp)

/-! ## What the launch leaves in its output array -/

/-- The array the launch leaves. -/
def result (c : Dev nD) : Buf (Elt Ideal) ((c : Thread nD τ).loc main_v39) :=
  fun i : S6144x256.Idx => resultAt W c (i 0) (i 1)

set_option maxHeartbeats 4000000 in
/-- The block written back at a point that closes a row block is that row block of the result. -/
theorem flushed_eq (c : Dev nD) (t : Fin cfg6.N) (hf : (cfg6.win 6).flush t = true) :
    (dat W c).flushed 6 t = ((cfg6.win 6).blk t).view.read (Elt Ideal) (result W c) := by
  have h5 : t.val % 6 = 5 := (flush6_6 t).mp hf
  show (cfg6.win 6).cut (grid6.coords t) ((dat W c).after 6 t) = _
  rw [after6]
  refine funext fun (y : S1024x256.Idx) => ?_
  obtain ⟨r, e, rfl⟩ : ∃ (r : Fin 1024) (e : Fin 256), y = ix2 r e := ⟨y 0, y 1, eq_ix2 y⟩
  have hx : (cfg6.win 6).xinj (grid6.coords t) (ix2 r e) = (ix2 r e : S1024x256.Idx) :=
    funext fun a => Fin.ext (by match a with | ⟨0, _⟩ => rfl | ⟨1, _⟩ => rfl)
  show (outsAt W c t.val t.isLt).1 ((cfg6.win 6).xinj (grid6.coords t) (ix2 r e)) = _
  rw [hx, View.read_apply]
  show _ = result W c (((cfg6.win 6).blk t).view.emb (ix2 r e))
  have hp : ((((cfg6.win 6).blk t).view.emb (ix2 r e) : S6144x256.Idx) 0).val = 1024 * (t.val / 6) + r.val := by
    show win6_6.index t 0 * 1024 + 1 * r.val = _
    rw [(index_w6 t).1]; omega
  have he : (((cfg6.win 6).blk t).view.emb (ix2 r e) : S6144x256.Idx) 1 = e := Fin.ext (by
    show win6_6.index t 1 * 256 + 1 * e.val = e.val
    rw [(index_w6 t).2]; omega)
  refine (out_last W c t h5 r e _ hp).trans ?_
  unfold result
  rw [he]

/-- The row blocks written back cover the array (row p is in the block written at point 6 (p / 1024) + 5), so the
    array ends at the result. -/
theorem final (c : Dev nD) : (dat W c).arrAt 6 cfg6.N = result W c :=
  (dat W c).arrAt_eq_of_cover 6 (result W c) (flushed_eq W c) fun i => by
    have hN : cfg6.N = 36 := N_6
    have h0 : ((i : S6144x256.Idx) 0 : Nat) < 6144 := ((i : S6144x256.Idx) 0).isLt
    have h1 : ((i : S6144x256.Idx) 1 : Nat) < 256 := ((i : S6144x256.Idx) 1).isLt
    have ht : 6 * (((i : S6144x256.Idx) 0 : Nat) / 1024) + 5 < cfg6.N := by rw [hN]; omega
    refine ⟨⟨_, ht⟩, (flush6_6 _).mpr (by show (6 * (((i : S6144x256.Idx) 0 : Nat) / 1024) + 5) % 6 = 5; omega), ?_⟩
    show i ∈ ((View.whole main_v39).slice (win6_6.rect ⟨_, ht⟩)).set
    rw [View.set_slice_whole, Rect.mem_set_unit]
    have hi := index_w6 ⟨_, ht⟩
    intro a
    match a with
    | ⟨0, _⟩ =>
      show win6_6.index ⟨_, ht⟩ 0 * 1024 ≤ ((i : S6144x256.Idx) 0 : Nat) ∧ ((i : S6144x256.Idx) 0 : Nat) < win6_6.index ⟨_, ht⟩ 0 * 1024 + 1024
      rw [hi.1]
      show (6 * (((i : S6144x256.Idx) 0 : Nat) / 1024) + 5) / 6 * 1024 ≤ _ ∧ _ < (6 * (((i : S6144x256.Idx) 0 : Nat) / 1024) + 5) / 6 * 1024 + 1024
      omega
    | ⟨1, _⟩ =>
      show win6_6.index ⟨_, ht⟩ 1 * 256 ≤ ((i : S6144x256.Idx) 1 : Nat) ∧ ((i : S6144x256.Idx) 1 : Nat) < win6_6.index ⟨_, ht⟩ 1 * 256 + 256
      rw [hi.2]; omega

/-- Launch 6 leaves, at (p, j), the epilogue of the whole contraction sums of row p. -/
theorem leaves_ok : Iface.Is6 (fun W c => (dat (F := Ideal) W c).arrAt 6 cfg6.N) := by
  intro W c p j
  show ((dat (F := Ideal) W c).arrAt 6 cfg6.N) (ix2 p j) = _
  rw [final W c]
  rfl

end Cert.KernelIdeal.R6

end
-- ==== Proof.R7Pieces.lean ====
/-
  Launch 7's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias) of the
  accumulator's new contents. Each is read off the stores the case made: the last store over a whole block is what the
  block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R7Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid7.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The rows of the features the point contracts against: 1024 rows from the point's offset. -/
abbrev rowsAt (x1 : Vec F S12288x256 .f32) : Vec F S1024x256 .f32 :=
  View.ld x1 (Rect.unit (s := S12288x256) (k7_off1 i) S1024x256.size (k7_off1_inb i))

/-- k = 0: the accumulator ends at zero plus the tile's product. -/
theorem accFirst_eq (hc0 : isFirst i) (hc1 : ¬isLast i) (x0 : Vec F S1024x1024 .bf16) (x1 : Vec F S12288x256 .f32) (x2 : Vec F S256x256 .f32) (x3 : Vec F S1x256 .f32) :
    accFirst c i arg2 harg2 arg3 harg3 arg4 harg4 arg5 harg5 arg6 harg6 arg7 harg7 hc0 hc1 x0 x1 x2 x3 = k7_pay2 (k7_pay1 (F := F)) x0 (rowsAt i x1) := by
  unfold accFirst
  rw [View.read_writes_eq_canon _ _ _ (cover_accFirst c i arg2 harg2 arg3 harg3 arg4 harg4 arg5 harg5 arg6 harg6 arg7 harg7 hc0 hc1 x0 x1 x2 x3)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) :
    accMiddle c i arg2 harg2 arg3 harg3 arg4 harg4 arg5 harg5 arg6 harg6 arg7 harg7 hc0 hc1 x0 x1 x2 x3 xs0 = k7_pay2 xs0 x0 (rowsAt i x1) := by
  unfold accMiddle
  rw [View.read_writes_eq_canon _ _ _ (cover_accMiddle c i arg2 harg2 arg3 harg3 arg4 harg4 arg5 harg5 arg6 harg6 arg7 harg7 hc0 hc1 x0 x1 x2 x3 xs0)]
  unfold runMiddle
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (x2 : Vec F S256x256 .f32) (x3 : Vec F S1x256 .f32) (xs0 : Vec F S1024x256 .f32) :
    accLast c i arg2 harg2 arg3 harg3 arg4 harg4 arg5 harg5 arg6 harg6 arg7 harg7 hc0 hc1 x0 x1 x2 x3 xs0 = k7_pay2 xs0 x0 (rowsAt i x1) := by
  unfold accLast
  rw [View.read_writes_eq_canon _ _ _ (cover_accLast c i arg2 harg2 arg3 harg3 arg4 harg4 arg5 harg5 arg6 harg6 arg7 harg7 hc0 hc1 x0 x1 x2 x3 xs0)]
  unfold runLast
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- and the output block is that, projected by the weights, plus the bias. -/
theorem outLast_eq (hc0 : ¬isFirst i) (hc1 : isLast i) (x0 : Vec F S1024x1024 .bf16) (x1 : Vec F S12288x256 .f32) (x2 : Vec F S256x256 .f32) (x3 : Vec F S1x256 .f32) (xs0 : Vec F S1024x256 .f32) :
    outLast c i arg2 harg2 arg3 harg3 arg4 harg4 arg5 harg5 arg6 harg6 arg7 harg7 hc0 hc1 x0 x1 x2 x3 xs0 = k7_pay3 (k7_pay2 xs0 x0 (rowsAt i x1)) x2 x3 := by
  unfold outLast
  rw [View.read_writes_eq_canon _ _ _ (cover_outLast c i arg2 harg2 arg3 harg3 arg4 harg4 arg5 harg5 arg6 harg6 arg7 harg7 hc0 hc1 x0 x1 x2 x3 xs0)]
  unfold runLast
  dsimp only
  try sl_unfold_words
  rw [View.canon_unit_zero hz, View.readCov_unit_zero (S := S1024x256) _ hz]
  simp only [View.readAt_eq_ld, harg2.read_unread, harg3.read_unread, harg7.read_unread, View.ld_unit_zero (S := S1024x1024) hz, View.ld_unit_zero (S := S1024x256) hz, harg4.read_unread, harg5.read_unread, View.ld_unit_zero (S := S256x256) hz, View.ld_unit_zero (S := S1x256) hz]
  rfl
end

end Cert.KernelIdeal.R7

end
-- ==== Proof.R7Blocks.lean ====
/-
  Launch 7, entry by entry over the extended reals: what each of the kernel's payloads holds at an entry (the
  accumulator's store: what it held plus the sum over the tile's 1024 contraction indices; the output's store: the sum
  over the 256 feature columns of the accumulator times the weight matrix's row, plus the bias), and what each block the
  body is entered with holds at an entry, as an entry of the launch's operand arrays (the tile at point 12 m + k is block
  (m, k) of the adjacency matrix; the features, the weights and the bias are whole arrays).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R7Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k7_pay1 (F := Ideal) j = 0 := by
  unfold k7_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k7_pay2 (F := Ideal) v3 v4 v9 (ix2 r e) = v3 (ix2 r e) + ∑ f : Fin 1024, v4 (ix2 r f) * v9 (ix2 f e) := by
  unfold k7_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`. -/
theorem pay3_apply (v19 : Vec Ideal S1024x256 .f32) (v20 : Vec Ideal S256x256 .f32) (v25 : Vec Ideal S1x256 .f32) (r : Fin 1024) (j : Fin 256) :
    k7_pay3 (F := Ideal) v19 v20 v25 (ix2 r j) = (∑ d : Fin 256, v19 (ix2 r d) * v20 (ix2 j d)) + v25 (ix2 0 j) := by
  unfold k7_pay3
  simp only [shapeCast_self]
  refine congrArg₂ (· + ·) ?_ ?_
  · exact Cert.Lib.MatmulT.matmul_trhs_zero_apply (M := 1024) (K := 256) (N := 256) none _ _ r j
  · exact broadcastTo_apply v25 _ (ix2 r j) (ix2 0 j) (fun a => by
      match a with
      | ⟨0, _⟩ => rfl
      | ⟨1, _⟩ => rfl)

/-! ## The blocks the body is entered with, entry by entry -/

/-- The block indices at point t = 12 m + k: the tile is block (m, k) of the adjacency matrix, the features', the weights'
    and the bias's one block is the whole array, the output block is row block m; the contraction coordinate is k. -/
theorem index_tile : ∀ t : Fin cfg7.N, win7_0.index t 0 = t.val / 12 ∧ win7_0.index t 1 = t.val % 12 :=
  (by decide +kernel : ∀ t : Fin grid7.N, win7_0.index t 0 = t.val / 12 ∧ win7_0.index t 1 = t.val % 12)
theorem index_feat : ∀ t : Fin cfg7.N, win7_1.index t 0 = 0 ∧ win7_1.index t 1 = 0 :=
  (by decide +kernel : ∀ t : Fin grid7.N, win7_1.index t 0 = 0 ∧ win7_1.index t 1 = 0)
theorem index_wt : ∀ t : Fin cfg7.N, win7_2.index t 0 = 0 ∧ win7_2.index t 1 = 0 :=
  (by decide +kernel : ∀ t : Fin grid7.N, win7_2.index t 0 = 0 ∧ win7_2.index t 1 = 0)
theorem index_bias : ∀ t : Fin cfg7.N, win7_3.index t 0 = 0 ∧ win7_3.index t 1 = 0 :=
  (by decide +kernel : ∀ t : Fin grid7.N, win7_3.index t 0 = 0 ∧ win7_3.index t 1 = 0)
theorem index_out : ∀ t : Fin cfg7.N, win7_4.index t 0 = t.val / 12 ∧ win7_4.index t 1 = 0 :=
  (by decide +kernel : ∀ t : Fin grid7.N, win7_4.index t 0 = t.val / 12 ∧ win7_4.index t 1 = 0)
theorem coord1 : ∀ t : Fin cfg7.N, ((grid7.coords t) 1).val = t.val % 12 :=
  (by decide +kernel : ∀ t : Fin grid7.N, ((grid7.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg7.N) (r f : Fin 1024) (p g : Fin 12288)
    (hp : p.val = 1024 * (t.val / 12) + r.val) (hg : g.val = 1024 * (t.val % 12) + f.val) :
    (iblk W c 0 t : Vec F S1024x1024 .bf16) (ix2 r f) = (W c main_v1 : (⟨2, ![12288, 12288]⟩ : Shape).Idx → Elt F .bf16) (ix2 p g) := by
  have hi := index_tile t
  unfold iblk
  rw [View.read_apply]
  show W c main_v1 _ = W c main_v1 _
  congr 1
  funext a
  apply Fin.ext
  match a with
  | ⟨0, _⟩ => show win7_0.index t 0 * 1024 + 1 * r.val = p.val; rw [hi.1, hp]; omega
  | ⟨1, _⟩ => show win7_0.index t 1 * 1024 + 1 * f.val = g.val; rw [hi.2, hg]; omega

/-- The features' block at any point is the feature matrix. -/
theorem feat_apply (c : Dev nD) (t : Fin cfg7.N) (g : Fin 12288) (e : Fin 256) :
    (iblk W c 1 t : Vec F S12288x256 .f32) (ix2 g e) = (W c main_v3 : S12288x256.Idx → Elt F .f32) (ix2 g e) := by
  have hi := index_feat t
  unfold iblk
  rw [View.read_apply]
  show W c main_v3 _ = W c main_v3 _
  congr 1
  funext a
  apply Fin.ext
  match a with
  | ⟨0, _⟩ => show win7_1.index t 0 * 12288 + 1 * g.val = g.val; rw [hi.1]; omega
  | ⟨1, _⟩ => show win7_1.index t 1 * 256 + 1 * e.val = e.val; rw [hi.2]; omega

/-- The weights' block at any point is the weight matrix. -/
theorem wt_apply (c : Dev nD) (t : Fin cfg7.N) (j d : Fin 256) :
    (iblk W c 2 t : Vec F S256x256 .f32) (ix2 j d) = (W c main_v41 : S256x256.Idx → Elt F .f32) (ix2 j d) := by
  have hi := index_wt t
  unfold iblk
  rw [View.read_apply]
  show W c main_v41 _ = W c main_v41 _
  congr 1
  funext a
  apply Fin.ext
  match a with
  | ⟨0, _⟩ => show win7_2.index t 0 * 256 + 1 * j.val = j.val; rw [hi.1]; omega
  | ⟨1, _⟩ => show win7_2.index t 1 * 256 + 1 * d.val = d.val; rw [hi.2]; omega

/-- The bias's block at any point is the bias row. -/
theorem bias_apply (c : Dev nD) (t : Fin cfg7.N) (z : Fin 1) (j : Fin 256) :
    (iblk W c 3 t : Vec F S1x256 .f32) (ix2 z j) = (W c main_v44 : S1x256.Idx → Elt F .f32) (ix2 z j) := by
  have hi := index_bias t
  unfold iblk
  rw [View.read_apply]
  show W c main_v44 _ = W c main_v44 _
  congr 1
  funext a
  apply Fin.ext
  match a with
  | ⟨0, _⟩ => show win7_3.index t 0 * 1 + 1 * z.val = z.val; rw [hi.1]; omega
  | ⟨1, _⟩ => show win7_3.index t 1 * 256 + 1 * j.val = j.val; rw [hi.2]; omega
end

/-- The 1024 rows from the point's offset, at (f, e): the features at (1024 k + f, e). -/
theorem rowsAt_apply (i : grid7.Coords) (x1 : Vec F S12288x256 .f32) (f : Fin 1024) (e : Fin 256) (g : Fin 12288)
    (hg : g.val = 1024 * (i 1).val + f.val) : rowsAt i x1 (ix2 f e) = x1 (ix2 g e) := by
  have h0 : k7_off1 i 0 = 1024 * (i 1).val := by rw [k7_off1_eq i]; rfl
  have h1 : k7_off1 i 1 = 0 := by rw [k7_off1_eq i]; rfl
  show x1 _ = x1 _
  congr 1
  funext a
  apply Fin.ext
  match a with
  | ⟨0, _⟩ => show k7_off1 i 0 + 1 * f.val = g.val; rw [h0, hg]; omega
  | ⟨1, _⟩ => show k7_off1 i 1 + 1 * e.val = e.val; rw [h1]; omega

end Cert.KernelIdeal.R7

end
-- ==== Proof.R7Val.lean ====
/-
  Launch 7's value over the extended reals: the output array ends, at (p, j), at the sum over the 256 feature columns d
  of (the sum over all 12288 contraction indices f of the adjacency matrix at (p, f) times the features at (f, d)) times
  the weight matrix at (j, d), plus the bias at j.
    * After the point with row block m and contraction coordinate k the accumulator holds, at (r, e), the sum of the
      first k + 1 tiles' contributions to row 1024 m + r: by induction on the point, from what each case stores.
    * At k = 11 the 12 tiles' contributions are the whole contraction sum (a sum over 12288 indices is the sum over 12 blocks
      of 1024), and the output block is its projection by the weights, plus the bias.
    * Row block m is written back at point 12 m + 11; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R7Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : (c : Dev nD) → (b : Ref sig .tc) → Buf (Elt Ideal) ((c : Thread nD τ).loc b))

/-! ## The operand arrays as matrices, and the blocks the body is entered with -/

abbrev AA (c : Dev nD) : Iface.Mat 12288 12288 := W c main_v1
abbrev XX (c : Dev nD) : Iface.Mat 12288 256 := W c main_v3
abbrev WW (c : Dev nD) : Iface.Mat 256 256 := W c main_v41
abbrev BB (c : Dev nD) : Iface.Mat 1 256 := W c main_v44

abbrev b0 (c : Dev nD) (t : Fin cfg7.N) : Vec Ideal S1024x1024 .bf16 := iblk W c 0 t
abbrev b1 (c : Dev nD) (t : Fin cfg7.N) : Vec Ideal S12288x256 .f32 := iblk W c 1 t
abbrev b2 (c : Dev nD) (t : Fin cfg7.N) : Vec Ideal S256x256 .f32 := iblk W c 2 t
abbrev b3 (c : Dev nD) (t : Fin cfg7.N) : Vec Ideal S1x256 .f32 := iblk W c 3 t

/-- The term of the contraction sum of row `p`, column `d`, at contraction index `n` (zero outside the extents). -/
def term (c : Dev nD) (p : ℕ) (d : Fin 256) (n : ℕ) : EReal :=
  if h : p < 12288 ∧ n < 12288 then AA W c (ix2 ⟨p, h.1⟩ ⟨n, h.2⟩) * XX W c (ix2 ⟨n, h.2⟩ d) else 0

/-- One tile's contribution: the 1024 terms of contraction block `kb`. -/
def tileSum (c : Dev nD) (p : ℕ) (d : Fin 256) (kb : ℕ) : EReal := ∑ f : Fin 1024, term W c p d (kb * 1024 + f.val)

theorem N_val : cfg7.N = 144 := N_7

/-- What the body's product adds at point t: the tile's contribution to row 1024 m + r. -/
theorem tile_sum (c : Dev nD) (t : Fin cfg7.N) (r : Fin 1024) (e : Fin 256) :
    (∑ f : Fin 1024, b0 W c t (ix2 r f) * rowsAt (grid7.coords t) (b1 W c t) (ix2 f e))
      = tileSum W c (1024 * (t.val / 12) + r.val) e (t.val % 12) := by
  unfold tileSum
  refine Finset.sum_congr rfl fun f _ => ?_
  have ht : t.val < 144 := Nat.lt_of_lt_of_eq t.isLt (N_val)
  have hp : 1024 * (t.val / 12) + r.val < 12288 := by have := r.isLt; omega
  have hg : t.val % 12 * 1024 + f.val < 12288 := by have := f.isLt; omega
  unfold term
  rw [dif_pos ⟨hp, hg⟩]
  refine congrArg₂ (· * ·) ?_ ?_
  · exact tile_apply W c t r f ⟨_, hp⟩ ⟨_, hg⟩ rfl (by show t.val % 12 * 1024 + f.val = _; omega)
  · exact (rowsAt_apply (grid7.coords t) (b1 W c t) f e ⟨_, hg⟩ (by rw [coord1 t]; show t.val % 12 * 1024 + f.val = _; omega)).trans
      (feat_apply W c t ⟨_, hg⟩ e)

/-! ## What each point leaves, in the payloads -/

theorem acc_first (c : Dev nD) (t : Fin cfg7.N) (h0 : t.val % 12 = 0) :
    (outsAt W c t.val t.isLt).2 = k7_pay2 (F := Ideal) (k7_pay1 (F := Ideal)) (b0 W c t) (rowsAt (grid7.coords t) (b1 W c t)) := by
  rw [outsAt_first W c t h0]
  dsimp only
  exact accFirst_eq (F := Ideal) c (grid7.coords t) (ms0 t) (hs0 t) (ms1 t) (hs1 t) (ms2 t) (hs2 t) (ms3 t) (hs3 t) (ms4 t) (hs4 t) accM (Memref.isWhole_whole _) ((isFirst_iff t).mpr h0) (fun h => by have := (isLast_iff t).mp h; omega) (iblk W c 0 t) (iblk W c 1 t) (iblk W c 2 t) (iblk W c 3 t)

theorem acc_middle (c : Dev nD) (t : Fin cfg7.N) (h0 : ¬t.val % 12 = 0) (h5 : ¬t.val % 12 = 11) :
    (outsAt W c t.val t.isLt).2 = k7_pay2 (F := Ideal) (outsAt W c (t.val - 1) (Nat.lt_of_le_of_lt (Nat.sub_le _ _) t.isLt)).2 (b0 W c t) (rowsAt (grid7.coords t) (b1 W c t)) := by
  rw [outsAt_middle W c t h0 h5]
  dsimp only
  exact accMiddle_eq (F := Ideal) c (grid7.coords t) (ms0 t) (hs0 t) (ms1 t) (hs1 t) (ms2 t) (hs2 t) (ms3 t) (hs3 t) (ms4 t) (hs4 t) accM (Memref.isWhole_whole _) (fun h => h0 ((isFirst_iff t).mp h)) (fun h => h5 ((isLast_iff t).mp h)) (iblk W c 0 t) (iblk W c 1 t) (iblk W c 2 t) (iblk W c 3 t) (outsAt W c (t.val - 1) (Nat.lt_of_le_of_lt (Nat.sub_le _ _) t.isLt)).2

theorem acc_last (c : Dev nD) (t : Fin cfg7.N) (h0 : ¬t.val % 12 = 0) (h5 : t.val % 12 = 11) :
    (outsAt W c t.val t.isLt).2 = k7_pay2 (F := Ideal) (outsAt W c (t.val - 1) (Nat.lt_of_le_of_lt (Nat.sub_le _ _) t.isLt)).2 (b0 W c t) (rowsAt (grid7.coords t) (b1 W c t)) := by
  rw [outsAt_last W c t h0 h5]
  dsimp only
  exact accLast_eq (F := Ideal) c (grid7.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

theorem out_last (c : Dev nD) (t : Fin cfg7.N) (h0 : ¬t.val % 12 = 0) (h5 : t.val % 12 = 11) :
    (outsAt W c t.val t.isLt).1 = k7_pay3 (F := Ideal) (outsAt W c t.val t.isLt).2 (b2 W c t) (b3 W c t) := by
  rw [acc_last W c t h0 h5, outsAt_last W c t h0 h5]
  dsimp only
  exact outLast_eq (F := Ideal) c (grid7.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

/-! ## The accumulator, point after point -/

/-- After point n (row block n / 12, contraction coordinate n % 12) the accumulator holds the first n % 12 + 1 tiles'
    contributions. -/
theorem acc_inv (c : Dev nD) : ∀ (n : ℕ) (hn : n < cfg7.N) (r : Fin 1024) (e : Fin 256),
    (outsAt W c n hn).2 (ix2 r e) = ∑ kb ∈ Finset.range (n % 12 + 1), tileSum W c (1024 * (n / 12) + r.val) e kb := by
  intro n
  induction n with
  | zero =>
    intro hn r e
    refine (congrFun (acc_first W c ⟨0, hn⟩ rfl) (ix2 r e)).trans ?_
    refine (pay2_apply _ _ _ r e).trans ?_
    rw [pay1_apply, zero_add, tile_sum W c ⟨0, hn⟩ r e]
    exact (Finset.sum_range_one _).symm
  | succ n ih =>
    intro hn r e
    by_cases h0 : (n + 1) % 12 = 0
    · refine (congrFun (acc_first W c ⟨n + 1, hn⟩ h0) (ix2 r e)).trans ?_
      refine (pay2_apply _ _ _ r e).trans ?_
      rw [pay1_apply, zero_add, tile_sum W c ⟨n + 1, hn⟩ r e]
      show tileSum W c (1024 * ((n + 1) / 12) + r.val) e ((n + 1) % 12) = _
      rw [h0]
      exact (Finset.sum_range_one _).symm
    · have hprev := ih (Nat.lt_of_succ_lt hn) r e
      have e1 : n % 12 + 1 = (n + 1) % 12 := by omega
      have e2 : n / 12 = (n + 1) / 12 := by omega
      rw [e1, e2] at hprev
      have hstep : (outsAt W c (n + 1) hn).2 = k7_pay2 (F := Ideal) (outsAt W c n (Nat.lt_of_succ_lt hn)).2 (b0 W c ⟨n + 1, hn⟩) (rowsAt (grid7.coords ⟨n + 1, hn⟩) (b1 W c ⟨n + 1, hn⟩)) := by
        by_cases h5 : (n + 1) % 12 = 11
        · exact acc_last W c ⟨n + 1, hn⟩ h0 h5
        · exact acc_middle W c ⟨n + 1, hn⟩ h0 h5
      refine (congrFun hstep (ix2 r e)).trans ?_
      refine (pay2_apply _ _ _ r e).trans ?_
      rw [Finset.sum_range_succ, hprev, tile_sum W c ⟨n + 1, hn⟩ r e]

/-- The 12 tiles' contributions are the whole contraction sum: a sum over 12288 indices is the sum over 12 blocks of 1024. -/
theorem tiles_total (c : Dev nD) (p : Fin 12288) (d : Fin 256) :
    ∑ kb ∈ Finset.range 12, tileSum W c p.val d kb = ∑ f : Fin 12288, AA W c (ix2 p f) * XX W c (ix2 f d) := by
  rw [← Fin.sum_univ_eq_sum_range (fun kb => tileSum W c p.val d kb) 12]
  rw [BlockSums.sum_blocks 12 1024 12288 (by norm_num) (fun f : Fin 12288 => AA W c (ix2 p f) * XX W c (ix2 f d))]
  refine Finset.sum_congr rfl fun kb _ => ?_
  unfold tileSum
  refine Finset.sum_congr rfl fun f _ => ?_
  have hg : kb.val * 1024 + f.val < 12288 := by have := kb.isLt; have := f.isLt; omega
  unfold term
  rw [dif_pos ⟨p.isLt, hg⟩]

/-! ## The output block at the last contraction coordinate, and the output array -/

/-- What the output array has to hold. -/
def G (c : Dev nD) : Iface.Mat 12288 256 := fun i =>
  (∑ d : Fin 256, (∑ f : Fin 12288, AA W c (ix2 (i 0) f) * XX W c (ix2 f d)) * WW W c (ix2 (i 1) d)) + BB W c (ix2 0 (i 1))

/-- The output block stored at point t = 12 m + 11, at (r, j): `G` at (1024 m + r, j). -/
theorem out_val (c : Dev nD) (t : Fin cfg7.N) (h5 : t.val % 12 = 11) (r : Fin 1024) (j : Fin 256) (p : Fin 12288)
    (hp : p.val = 1024 * (t.val / 12) + r.val) :
    (outsAt W c t.val t.isLt).1 (ix2 r j) = G W c (ix2 p j) := by
  have h0 : ¬t.val % 12 = 0 := by omega
  refine (congrFun (out_last W c t h0 h5) (ix2 r j)).trans ?_
  refine (pay3_apply _ _ _ r j).trans ?_
  refine congrArg₂ (· + ·) (Finset.sum_congr rfl fun d _ => congrArg₂ (· * ·) ?_ (wt_apply W c t j d)) (bias_apply W c t 0 j)
  rw [acc_inv W c t.val t.isLt r d, h5, ← hp]
  exact tiles_total W c p d

/-- Row block m of a matrix, read through the output window's block at point t, at (r, j). -/
theorem out_read (c : Dev nD) (t : Fin cfg7.N) (Gm : Iface.Mat 12288 256) (r : Fin 1024) (j : Fin 256) (p : Fin 12288)
    (hp : p.val = 1024 * (t.val / 12) + r.val) :
    ((cfg7.win 4).blk t).view.read (Elt Ideal) Gm (ix2 r j) = Gm (ix2 p j) := by
  have hi := index_out t
  rw [View.read_apply]
  show Gm _ = Gm _
  congr 1
  funext a
  apply Fin.ext
  match a with
  | ⟨0, _⟩ => show win7_4.index t 0 * 1024 + 1 * r.val = p.val; rw [hi.1, hp]; omega
  | ⟨1, _⟩ => show win7_4.index t 1 * 256 + 1 * j.val = j.val; rw [hi.2]; omega

/-- Every write-back writes its row block of `G`. -/
theorem flushed_eq (c : Dev nD) (t : Fin cfg7.N) (hf : (cfg7.win 4).flush t = true) :
    (dat W c).flushed 4 t = ((cfg7.win 4).blk t).view.read (Elt Ideal) (G W c) := by
  have h5 : t.val % 12 = 11 := (flush7_4 t).mp hf
  have ht : t.val < 144 := Nat.lt_of_lt_of_eq t.isLt N_val
  show (cfg7.win 4).cut (grid7.coords t) ((dat W c).after 4 t) = _
  rw [after4]
  funext y
  obtain ⟨r, j, rfl⟩ : ∃ (r : Fin 1024) (j : Fin 256), y = ix2 r j := ⟨y 0, y 1, eq_ix2 y⟩
  have hp : 1024 * (t.val / 12) + r.val < 12288 := by have := r.isLt; omega
  exact (out_val W c t h5 r j ⟨_, hp⟩ rfl).trans (out_read c t (G W c) r j ⟨_, hp⟩ rfl).symm

/-- The row blocks written back cover the output array: row p is in the block written at point 12 (p / 1024) + 11. -/
theorem cover (c : Dev nD) (i : ((cfg7.win 4).arr.view.loc (c.tc : Thread nD τ)).2.ty.Idx) :
    ∃ t : Fin cfg7.N, (cfg7.win 4).flush t = true ∧ i ∈ ((cfg7.win 4).blk t).view.set := by
  have hi0 : (i 0).val < 12288 := (i 0).isLt
  have hi1 : (i 1).val < 256 := (i 1).isLt
  have htN : 12 * ((i 0).val / 1024) + 11 < cfg7.N := by rw [N_val]; omega
  refine ⟨⟨12 * ((i 0).val / 1024) + 11, htN⟩, (flush7_4 _).mpr (by show (12 * ((i 0).val / 1024) + 11) % 12 = 11; omega), ?_⟩
  have hidx := index_out ⟨12 * ((i 0).val / 1024) + 11, htN⟩
  show i ∈ ((View.whole main_v45).slice (win7_4.rect ⟨12 * ((i 0).val / 1024) + 11, htN⟩)).set
  rw [View.set_slice_whole, Rect.mem_set_unit]
  intro a
  match a with
  | ⟨0, _⟩ =>
    show win7_4.index ⟨12 * ((i 0).val / 1024) + 11, htN⟩ 0 * 1024 ≤ (i 0).val ∧ (i 0).val < win7_4.index ⟨12 * ((i 0).val / 1024) + 11, htN⟩ 0 * 1024 + 1024
    rw [hidx.1]
    show (12 * ((i 0).val / 1024) + 11) / 12 * 1024 ≤ (i 0).val ∧ (i 0).val < (12 * ((i 0).val / 1024) + 11) / 12 * 1024 + 1024
    omega
  | ⟨1, _⟩ =>
    show win7_4.index ⟨12 * ((i 0).val / 1024) + 11, htN⟩ 1 * 256 ≤ (i 1).val ∧ (i 1).val < win7_4.index ⟨12 * ((i 0).val / 1024) + 11, htN⟩ 1 * 256 + 256
    rw [hidx.2]
    omega

/-- So the output array ends holding `G`. -/
theorem final (c : Dev nD) : (dat W c).arrAt 4 cfg7.N = G W c :=
  (dat W c).arrAt_eq_of_cover 4 (G W c) (flushed_eq W c) (cover c)

/-- The launch's output, entry by entry. -/
theorem leaves_ok : Cert.KernelIdeal.Iface.Is7 (fun W c => (dat (F := Ideal) W c).arrAt 4 cfg7.N) := by
  intro W c p j
  show (dat W c).arrAt 4 cfg7.N (ix2 p j) = _
  rw [final W c]
  rfl

end Cert.KernelIdeal.R7

end
-- ==== Proof.R8Pieces.lean ====
/-
  Launch 8's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias, plus the first
  skip block, clamped below at zero, plus the second skip block) of the accumulator's new contents. Each is read off the
  stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R8Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid8.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The rows of the features the point contracts against: 1024 rows from the point's offset. -/
abbrev rowsAt (x1 : Vec F S12288x256 .f32) : Vec F S1024x256 .f32 :=
  View.ld x1 (Rect.unit (s := S12288x256) (k8_off1 i) S1024x256.size (k8_off1_inb i))

/-- k = 0: the accumulator ends at zero plus the tile's product. -/
theorem accFirst_eq (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) :
    accFirst c i arg2 harg2 arg3 harg3 arg4 harg4 arg5 harg5 arg6 harg6 arg7 harg7 arg8 harg8 arg9 harg9 hc0 hc1 x0 x1 x2 x3 x4 x5 = k8_pay2 (k8_pay1 (F := F)) x0 (rowsAt i x1) := by
  unfold accFirst
  rw [View.read_writes_eq_canon _ _ _ (cover_accFirst c i arg2 harg2 arg3 harg3 arg4 harg4 arg5 harg5 arg6 harg6 arg7 harg7 arg8 harg8 arg9 harg9 hc0 hc1 x0 x1 x2 x3 x4 x5)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    accMiddle c i arg2 harg2 arg3 harg3 arg4 harg4 arg5 harg5 arg6 harg6 arg7 harg7 arg8 harg8 arg9 harg9 hc0 hc1 x0 x1 x2 x3 x4 x5 xs0 = k8_pay2 xs0 x0 (rowsAt i x1) := by
  unfold accMiddle
  rw [View.read_writes_eq_canon _ _ _ (cover_accMiddle c i arg2 harg2 arg3 harg3 arg4 harg4 arg5 harg5 arg6 harg6 arg7 harg7 arg8 harg8 arg9 harg9 hc0 hc1 x0 x1 x2 x3 x4 x5 xs0)]
  unfold runMiddle
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    accLast c i arg2 harg2 arg3 harg3 arg4 harg4 arg5 harg5 arg6 harg6 arg7 harg7 arg8 harg8 arg9 harg9 hc0 hc1 x0 x1 x2 x3 x4 x5 xs0 = k8_pay2 xs0 x0 (rowsAt i x1) := by
  unfold accLast
  rw [View.read_writes_eq_canon _ _ _ (cover_accLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- and the output block is the epilogue of that, the weights, the bias row and the two skip blocks. -/
theorem outLast_eq (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    outLast c i arg2 harg2 arg3 harg3 arg4 harg4 arg5 harg5 arg6 harg6 arg7 harg7 arg8 harg8 arg9 harg9 hc0 hc1 x0 x1 x2 x3 x4 x5 xs0 = k8_pay3 (k8_pay2 xs0 x0 (rowsAt i x1)) x2 x3 x4 x5 := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz, View.readCov_unit_zero (S := S1024x256) _ hz]
  simp only [View.readAt_eq_ld, harg2.read_unread, harg3.read_unread, harg9.read_unread, View.ld_unit_zero (S := S1024x1024) hz, View.ld_unit_zero (S := S1024x256) hz, harg4.read_unread, harg5.read_unread, harg6.read_unread, harg7.read_unread, View.ld_unit_zero (S := S256x256) hz, View.ld_unit_zero (S := S1x256) hz]
  rfl
end

end Cert.KernelIdeal.R8

end
-- ==== Proof.R8Blocks.lean ====
/-
  Launch 8, entry by entry over the extended reals: what each of the kernel's payloads holds at an entry (the
  accumulator's store: what it held plus the sum over the tile's 1024 contraction indices; the output's store: the sum
  over the 256 feature columns of the accumulator times the weight matrix's row, plus the bias, plus the first skip
  block, the maximum of that and zero, plus the second skip block), and what each block the body is entered with holds at
  an entry, as an entry of the launch's operand arrays (the tile at point 12 m + k is block (m, k) of the adjacency
  matrix; the features, the weights and the bias are whole arrays; the skip blocks are row block m of theirs).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R8Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k8_pay1 (F := Ideal) j = 0 := by
  unfold k8_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k8_pay2 (F := Ideal) v3 v4 v9 (ix2 r e) = v3 (ix2 r e) + ∑ f : Fin 1024, v4 (ix2 r f) * v9 (ix2 f e) := by
  unfold k8_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`, plus the first
    skip block, the maximum of that and zero, plus the second skip block. -/
theorem pay3_apply (v20 : Vec Ideal S1024x256 .f32) (v21 : Vec Ideal S256x256 .f32) (v26 : Vec Ideal S1x256 .f32) (v30 v35 : Vec Ideal S1024x256 .f32) (r : Fin 1024) (j : Fin 256) :
    k8_pay3 (F := Ideal) v20 v21 v26 v30 v35 (ix2 r j)
      = max (v30 (ix2 r j) + ((∑ d : Fin 256, v20 (ix2 r d) * v21 (ix2 j d)) + v26 (ix2 0 j))) 0 + v35 (ix2 r j) := by
  unfold k8_pay3
  simp only [shapeCast_self]
  refine congrArg₂ (· + ·) ?_ rfl
  refine congrArg₂ max ?_ ?_
  · refine congrArg (v30 (ix2 r j) + ·) ?_
    refine congrArg₂ (· + ·) ?_ ?_
    · exact Cert.Lib.MatmulT.matmul_trhs_zero_apply (M := 1024) (K := 256) (N := 256) none _ _ r j
    · exact broadcastTo_apply v26 _ (ix2 r j) (ix2 0 j) (fun a => by
        match a with
        | ⟨0, _⟩ => rfl
        | ⟨1, _⟩ => rfl)
  · exact Ideal.ofBits_zero_f32

/-! ## The blocks the body is entered with, entry by entry -/

/-- The block indices at point t = 12 m + k: the tile is block (m, k) of the adjacency matrix; the features', the weights'
    and the bias's one block is the whole array; the skip blocks and the output block are row block m; the contraction
    coordinate is k. -/
theorem index_w0 : ∀ t : Fin cfg8.N, win8_0.index t 0 = t.val / 12 ∧ win8_0.index t 1 = t.val % 12 :=
  (by decide +kernel : ∀ t : Fin grid8.N, win8_0.index t 0 = t.val / 12 ∧ win8_0.index t 1 = t.val % 12)
theorem index_w1 : ∀ t : Fin cfg8.N, win8_1.index t 0 = 0 ∧ win8_1.index t 1 = 0 :=
  (by decide +kernel : ∀ t : Fin grid8.N, win8_1.index t 0 = 0 ∧ win8_1.index t 1 = 0)
theorem index_w2 : ∀ t : Fin cfg8.N, win8_2.index t 0 = 0 ∧ win8_2.index t 1 = 0 :=
  (by decide +kernel : ∀ t : Fin grid8.N, win8_2.index t 0 = 0 ∧ win8_2.index t 1 = 0)
theorem index_w3 : ∀ t : Fin cfg8.N, win8_3.index t 0 = 0 ∧ win8_3.index t 1 = 0 :=
  (by decide +kernel : ∀ t : Fin grid8.N, win8_3.index t 0 = 0 ∧ win8_3.index t 1 = 0)
theorem index_w4 : ∀ t : Fin cfg8.N, win8_4.index t 0 = t.val / 12 ∧ win8_4.index t 1 = 0 :=
  (by decide +kernel : ∀ t : Fin grid8.N, win8_4.index t 0 = t.val / 12 ∧ win8_4.index t 1 = 0)
theorem index_w5 : ∀ t : Fin cfg8.N, win8_5.index t 0 = t.val / 12 ∧ win8_5.index t 1 = 0 :=
  (by decide +kernel : ∀ t : Fin grid8.N, win8_5.index t 0 = t.val / 12 ∧ win8_5.index t 1 = 0)
theorem index_w6 : ∀ t : Fin cfg8.N, win8_6.index t 0 = t.val / 12 ∧ win8_6.index t 1 = 0 :=
  (by decide +kernel : ∀ t : Fin grid8.N, win8_6.index t 0 = t.val / 12 ∧ win8_6.index t 1 = 0)
theorem coord1 : ∀ t : Fin cfg8.N, ((grid8.coords t) 1).val = t.val % 12 :=
  (by decide +kernel : ∀ t : Fin grid8.N, ((grid8.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg8.N) (r f : Fin 1024) (p g : Fin 12288)
    (hp : p.val = 1024 * (t.val / 12) + r.val) (hg : g.val = 1024 * (t.val % 12) + f.val) :
    (iblk W c 0 t : Vec F S1024x1024 .bf16) (ix2 r f) = (W c main_v1 : (⟨2, ![12288, 12288]⟩ : Shape).Idx → Elt F .bf16) (ix2 p g) := by
  have hi := index_w0 t
  unfold iblk
  rw [View.read_apply]
  show W c main_v1 _ = W c main_v1 _
  congr 1
  funext a
  apply Fin.ext
  match a with
  | ⟨0, _⟩ => show win8_0.index t 0 * 1024 + 1 * r.val = p.val; rw [hi.1, hp]; omega
  | ⟨1, _⟩ => show win8_0.index t 1 * 1024 + 1 * f.val = g.val; rw [hi.2, hg]; omega

/-- Window 1's block at any point is its whole array. -/
theorem feat_apply (c : Dev nD) (t : Fin cfg8.N) (g : Fin 12288) (e : Fin 256) :
    (iblk W c 1 t : Vec F S12288x256 .f32) (ix2 g e) = (W c main_v45 : S12288x256.Idx → Elt F .f32) (ix2 g e) := by
  have hi := index_w1 t
  unfold iblk
  rw [View.read_apply]
  show W c main_v45 _ = W c main_v45 _
  congr 1
  funext a
  apply Fin.ext
  match a with
  | ⟨0, _⟩ => show win8_1.index t 0 * 12288 + 1 * g.val = g.val; rw [hi.1]; omega
  | ⟨1, _⟩ => show win8_1.index t 1 * 256 + 1 * e.val = e.val; rw [hi.2]; omega

/-- Window 2's block at any point is its whole array. -/
theorem wt_apply (c : Dev nD) (t : Fin cfg8.N) (j : Fin 256) (d : Fin 256) :
    (iblk W c 2 t : Vec F S256x256 .f32) (ix2 j d) = (W c main_v47 : S256x256.Idx → Elt F .f32) (ix2 j d) := by
  have hi := index_w2 t
  unfold iblk
  rw [View.read_apply]
  show W c main_v47 _ = W c main_v47 _
  congr 1
  funext a
  apply Fin.ext
  match a with
  | ⟨0, _⟩ => show win8_2.index t 0 * 256 + 1 * j.val = j.val; rw [hi.1]; omega
  | ⟨1, _⟩ => show win8_2.index t 1 * 256 + 1 * d.val = d.val; rw [hi.2]; omega

/-- Window 3's block at any point is its whole array. -/
theorem bias_apply (c : Dev nD) (t : Fin cfg8.N) (z : Fin 1) (j : Fin 256) :
    (iblk W c 3 t : Vec F S1x256 .f32) (ix2 z j) = (W c main_v50 : S1x256.Idx → Elt F .f32) (ix2 z j) := by
  have hi := index_w3 t
  unfold iblk
  rw [View.read_apply]
  show W c main_v50 _ = W c main_v50 _
  congr 1
  funext a
  apply Fin.ext
  match a with
  | ⟨0, _⟩ => show win8_3.index t 0 * 1 + 1 * z.val = z.val; rw [hi.1]; omega
  | ⟨1, _⟩ => show win8_3.index t 1 * 256 + 1 * j.val = j.val; rw [hi.2]; omega

/-- The first skip block at point t, at (r, e): its array at (1024 m + r, e). -/
theorem res1_apply (c : Dev nD) (t : Fin cfg8.N) (r : Fin 1024) (e : Fin 256) (p : Fin 12288)
    (hp : p.val = 1024 * (t.val / 12) + r.val) :
    (iblk W c 4 t : Vec F S1024x256 .f32) (ix2 r e) = (W c main_v45 : S12288x256.Idx → Elt F .f32) (ix2 p e) := by
  have hi := index_w4 t
  unfold iblk
  rw [View.read_apply]
  show W c main_v45 _ = W c main_v45 _
  congr 1
  funext a
  apply Fin.ext
  match a with
  | ⟨0, _⟩ => show win8_4.index t 0 * 1024 + 1 * r.val = p.val; rw [hi.1, hp]; omega
  | ⟨1, _⟩ => show win8_4.index t 1 * 256 + 1 * e.val = e.val; rw [hi.2]; omega

/-- The second skip block at point t, at (r, e): its array at (1024 m + r, e). -/
theorem res2_apply (c : Dev nD) (t : Fin cfg8.N) (r : Fin 1024) (e : Fin 256) (p : Fin 12288)
    (hp : p.val = 1024 * (t.val / 12) + r.val) :
    (iblk W c 5 t : Vec F S1024x256 .f32) (ix2 r e) = (W c main_v3 : S12288x256.Idx → Elt F .f32) (ix2 p e) := by
  have hi := index_w5 t
  unfold iblk
  rw [View.read_apply]
  show W c main_v3 _ = W c main_v3 _
  congr 1
  funext a
  apply Fin.ext
  match a with
  | ⟨0, _⟩ => show win8_5.index t 0 * 1024 + 1 * r.val = p.val; rw [hi.1, hp]; omega
  | ⟨1, _⟩ => show win8_5.index t 1 * 256 + 1 * e.val = e.val; rw [hi.2]; omega
end

/-- The 1024 rows from the point's offset, at (f, e): the features at (1024 k + f, e). -/
theorem rowsAt_apply (i : grid8.Coords) (x1 : Vec F S12288x256 .f32) (f : Fin 1024) (e : Fin 256) (g : Fin 12288)
    (hg : g.val = 1024 * (i 1).val + f.val) : rowsAt i x1 (ix2 f e) = x1 (ix2 g e) := by
  have h0 : k8_off1 i 0 = 1024 * (i 1).val := by rw [k8_off1_eq i]; rfl
  have h1 : k8_off1 i 1 = 0 := by rw [k8_off1_eq i]; rfl
  show x1 _ = x1 _
  congr 1
  funext a
  apply Fin.ext
  match a with
  | ⟨0, _⟩ => show k8_off1 i 0 + 1 * f.val = g.val; rw [h0, hg]; omega
  | ⟨1, _⟩ => show k8_off1 i 1 + 1 * e.val = e.val; rw [h1]; omega

end Cert.KernelIdeal.R8

end
-- ==== Proof.R8Val.lean ====
/-
  Launch 8's value over the extended reals: the output array ends, at (p, j), at
      max (r₁ (p, j) + (Σ_d (Σ_f A (p, f) · X (f, d)) · Wm (j, d) + b (0, j))) 0 + r₂ (p, j)
  with A the adjacency matrix, X the features, Wm the weights, b the bias row, r₁ r₂ the two skip arrays; f runs over all
  12288 contraction indices.
    * After the point with row block m and contraction coordinate k the accumulator holds, at (r, e), the sum of the
      first k + 1 tiles' contributions to row 1024 m + r: by induction on the point, from what each case stores.
    * At k = 11 the 12 tiles' contributions are the whole contraction sum (a sum over 12288 indices is the sum over 12
      blocks of 1024), and the output block is the epilogue of it.
    * Row block m is written back at point 12 m + 11; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R8Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : Iface.Vl)

/-! ## The operand arrays, and the blocks at a point, as matrices of extended reals -/

abbrev AA (c : Dev nD) : Iface.Mat 12288 12288 := W c main_v1
abbrev XX (c : Dev nD) : Iface.Mat 12288 256 := W c main_v45
abbrev WW (c : Dev nD) : Iface.Mat 256 256 := W c main_v47
abbrev BB (c : Dev nD) : Iface.Mat 1 256 := W c main_v50
abbrev S1 (c : Dev nD) : Iface.Mat 12288 256 := W c main_v45
abbrev S2 (c : Dev nD) : Iface.Mat 12288 256 := W c main_v3
abbrev tileAt (c : Dev nD) (t : Fin cfg8.N) : Vec Ideal S1024x1024 .bf16 := iblk W c 0 t
abbrev featAt (c : Dev nD) (t : Fin cfg8.N) : Vec Ideal S12288x256 .f32 := iblk W c 1 t
abbrev wtAt (c : Dev nD) (t : Fin cfg8.N) : Vec Ideal S256x256 .f32 := iblk W c 2 t
abbrev biasAt (c : Dev nD) (t : Fin cfg8.N) : Vec Ideal S1x256 .f32 := iblk W c 3 t
abbrev res1At (c : Dev nD) (t : Fin cfg8.N) : Vec Ideal S1024x256 .f32 := iblk W c 4 t
abbrev res2At (c : Dev nD) (t : Fin cfg8.N) : Vec Ideal S1024x256 .f32 := iblk W c 5 t

/-- The n-th term of the contraction at (p, d): adjacency (p, n) times features (n, d); zero past the extent. -/
def term (c : Dev nD) (p : Fin 12288) (d : Fin 256) (n : ℕ) : EReal :=
  if h : n < 12288 then AA W c (ix2 p ⟨n, h⟩) * XX W c (ix2 ⟨n, h⟩ d) else 0

/-- The sum of the 1024 terms of contraction block j. -/
def blockSum (c : Dev nD) (p : Fin 12288) (d : Fin 256) (j : ℕ) : EReal := ∑ f : Fin 1024, term W c p d (j * 1024 + f.val)

/-- The tile's product at point t = 12 m + k, at (r, e): the sum of contraction block k at (1024 m + r, e). -/
theorem prod_at (c : Dev nD) (t : Fin cfg8.N) (r : Fin 1024) (e : Fin 256) (p : Fin 12288) (hp : p.val = 1024 * (t.val / 12) + r.val) :
    (∑ f : Fin 1024, tileAt W c t (ix2 r f) * rowsAt (grid8.coords t) (featAt W c t) (ix2 f e))
      = blockSum W c p e (t.val % 12) := by
  refine Finset.sum_congr rfl fun f _ => ?_
  have hlt : (t.val % 12) * 1024 + f.val < 12288 := by
    have := f.isLt; have : t.val % 12 < 12 := Nat.mod_lt _ (by omega); omega
  unfold term
  rw [dif_pos hlt]
  exact congrArg₂ (· * ·)
    (tile_apply W c t r f p ⟨_, hlt⟩ hp (by show (t.val % 12) * 1024 + f.val = 1024 * (t.val % 12) + f.val; omega))
    ((rowsAt_apply (grid8.coords t) _ f e ⟨_, hlt⟩ (by rw [coord1 t]; show (t.val % 12) * 1024 + f.val = 1024 * (t.val % 12) + f.val; omega)).trans
      (feat_apply W c t ⟨_, hlt⟩ e))

set_option maxHeartbeats 4000000 in
/-- At a point that opens a row block the accumulator holds the first block's sum. -/
theorem acc_first (c : Dev nD) (t : Fin cfg8.N) (h0 : t.val % 12 = 0) (r : Fin 1024) (e : Fin 256) (p : Fin 12288)
    (hp : p.val = 1024 * (t.val / 12) + r.val) :
    (outsAt W c t.val t.isLt).2 (ix2 r e) = ∑ j ∈ Finset.range (t.val % 12 + 1), blockSum W c p e j := by
  refine (congrFun (congrArg Prod.snd (outsAt_first W c t h0)) (ix2 r e)).trans ?_
  refine (congrFun (accFirst_eq (F := Ideal) c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
    ((isFirst_iff t).mpr h0) (fun h => by have := (isLast_iff t).mp h; omega) (iblk W c 0 t) (iblk W c 1 t) (iblk W c 2 t) (iblk W c 3 t) (iblk W c 4 t) (iblk W c 5 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg8.N) (h0 : ¬t.val % 12 = 0) (r : Fin 1024) (e : Fin 256) (p : Fin 12288)
    (hp : p.val = 1024 * (t.val / 12) + r.val) (h' : t.val - 1 < cfg8.N)
    (ih : (outsAt W c (t.val - 1) h').2 (ix2 r e) = ∑ j ∈ Finset.range (t.val % 12), blockSum W c p e j) :
    (outsAt W c t.val t.isLt).2 (ix2 r e) = ∑ j ∈ Finset.range (t.val % 12 + 1), blockSum W c p e j := by
  rw [Finset.sum_range_succ, ← prod_at W c t r e p hp, ← ih]
  by_cases h5 : t.val % 12 = 11
  · refine (congrFun (congrArg Prod.snd (outsAt_last W c t h0 h5)) (ix2 r e)).trans ?_
    refine (congrFun (accLast_eq (F := Ideal) c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e

/-- After the point at position n = 12 m + k the accumulator at (r, e) is the sum of contraction blocks 0 … k at
    (1024 m + r, e). -/
theorem acc_inv (c : Dev nD) : ∀ (n : ℕ) (hn : n < cfg8.N) (r : Fin 1024) (e : Fin 256) (p : Fin 12288),
    p.val = 1024 * (n / 12) + r.val → (outsAt W c n hn).2 (ix2 r e) = ∑ j ∈ Finset.range (n % 12 + 1), blockSum W c p e j
  | 0, hn, r, e, p, hp => acc_first W c ⟨0, hn⟩ rfl r e p hp
  | n + 1, hn, r, e, p, hp => by
    by_cases h0 : (n + 1) % 12 = 0
    · exact acc_first W c ⟨n + 1, hn⟩ h0 r e p hp
    · have ih := acc_inv c n (Nat.lt_of_succ_lt hn) r e p (by
        have : n / 12 = (n + 1) / 12 := by omega
        rw [this]; exact hp)
      have hm : n % 12 + 1 = (n + 1) % 12 := by omega
      rw [hm] at ih
      exact acc_step W c ⟨n + 1, hn⟩ h0 r e p hp (Nat.lt_of_succ_lt hn) ih

/-- The 12 block sums are the whole contraction. -/
theorem sum_all (c : Dev nD) (p : Fin 12288) (d : Fin 256) :
    ∑ j ∈ Finset.range 12, blockSum W c p d j
      = ∑ f : Fin 12288, AA W c (ix2 p f) * XX W c (ix2 f d) := by
  rw [BlockSums.sum_blocks 12 1024 12288 rfl (fun n : Fin 12288 => AA W c (ix2 p n) * XX W c (ix2 n d))]
  rw [← Fin.sum_univ_eq_sum_range (fun j => blockSum W c p d j) 12]
  refine Finset.sum_congr rfl fun j _ => Finset.sum_congr rfl fun f _ => ?_
  unfold term
  rw [dif_pos (BlockSums.block_row_lt j f)]

/-- Entry (p, j) of the output: the epilogue of the whole contraction sums of row p. -/
def resultAt (c : Dev nD) (p : Fin 12288) (j : Fin 256) : EReal :=
  max (S1 W c (ix2 p j) + ((∑ d : Fin 256, (∑ f : Fin 12288, AA W c (ix2 p f) * XX W c (ix2 f d)) * WW W c (ix2 j d)) + BB W c (ix2 0 j))) 0
    + S2 W c (ix2 p j)

set_option maxHeartbeats 4000000 in
/-- At a point that closes a row block the output block at (r, j) is the result at (1024 m + r, j). -/
theorem out_last (c : Dev nD) (t : Fin cfg8.N) (h5 : t.val % 12 = 11) (r : Fin 1024) (j : Fin 256) (p : Fin 12288)
    (hp : p.val = 1024 * (t.val / 12) + r.val) :
    (outsAt W c t.val t.isLt).1 (ix2 r j) = resultAt W c p j := by
  have h0 : ¬t.val % 12 = 0 := by omega
  have e1 := congrFun (congrArg Prod.fst (outsAt_last W c t h0 h5)) (ix2 r j)
  have hacc : ∀ d : Fin 256, k8_pay2 (F := Ideal) (outsAt W c (t.val - 1) (Nat.lt_of_le_of_lt (Nat.sub_le _ _) t.isLt)).2 (iblk W c 0 t) (rowsAt (grid8.coords t) (iblk W c 1 t)) (ix2 r d)
      = ∑ f : Fin 12288, AA W c (ix2 p f) * XX W c (ix2 f d) := fun d => by
    have e2 := congrFun (congrArg Prod.snd (outsAt_last W c t h0 h5)) (ix2 r d)
    have a := acc_inv W c t.val t.isLt r d p hp
    rw [h5, sum_all] at a
    rw [← a]
    exact ((congrFun (accLast_eq (F := Ideal) c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r d)).symm.trans e2.symm)
  refine e1.trans ?_
  refine (congrFun (outLast_eq (F := Ideal) c (grid8.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r j)).trans ?_
  refine (pay3_apply _ _ _ _ _ r j).trans ?_
  unfold resultAt
  refine congrArg₂ (· + ·) (congrArg₂ max (congrArg₂ (· + ·) (res1_apply W c t r j p hp)
    (congrArg₂ (· + ·) (Finset.sum_congr rfl fun d _ => congrArg₂ (· * ·) (hacc d) (wt_apply W c t j d)) (bias_apply W c t 0 j))) rfl) (res2_apply W c t r j p hp)

/-! ## What the launch leaves in its output array -/

/-- The array the launch leaves. -/
def result (c : Dev nD) : Buf (Elt Ideal) ((c : Thread nD τ).loc main_v51) :=
  fun i : S12288x256.Idx => resultAt W c (i 0) (i 1)

set_option maxHeartbeats 4000000 in
/-- The block written back at a point that closes a row block is that row block of the result. -/
theorem flushed_eq (c : Dev nD) (t : Fin cfg8.N) (hf : (cfg8.win 6).flush t = true) :
    (dat W c).flushed 6 t = ((cfg8.win 6).blk t).view.read (Elt Ideal) (result W c) := by
  have h5 : t.val % 12 = 11 := (flush8_6 t).mp hf
  show (cfg8.win 6).cut (grid8.coords t) ((dat W c).after 6 t) = _
  rw [after6]
  refine funext fun (y : S1024x256.Idx) => ?_
  obtain ⟨r, e, rfl⟩ : ∃ (r : Fin 1024) (e : Fin 256), y = ix2 r e := ⟨y 0, y 1, eq_ix2 y⟩
  have hx : (cfg8.win 6).xinj (grid8.coords t) (ix2 r e) = (ix2 r e : S1024x256.Idx) :=
    funext fun a => Fin.ext (by match a with | ⟨0, _⟩ => rfl | ⟨1, _⟩ => rfl)
  show (outsAt W c t.val t.isLt).1 ((cfg8.win 6).xinj (grid8.coords t) (ix2 r e)) = _
  rw [hx, View.read_apply]
  show _ = result W c (((cfg8.win 6).blk t).view.emb (ix2 r e))
  have hp : ((((cfg8.win 6).blk t).view.emb (ix2 r e) : S12288x256.Idx) 0).val = 1024 * (t.val / 12) + r.val := by
    show win8_6.index t 0 * 1024 + 1 * r.val = _
    rw [(index_w6 t).1]; omega
  have he : (((cfg8.win 6).blk t).view.emb (ix2 r e) : S12288x256.Idx) 1 = e := Fin.ext (by
    show win8_6.index t 1 * 256 + 1 * e.val = e.val
    rw [(index_w6 t).2]; omega)
  refine (out_last W c t h5 r e _ hp).trans ?_
  unfold result
  rw [he]

/-- The row blocks written back cover the array (row p is in the block written at point 12 (p / 1024) + 11), so the
    array ends at the result. -/
theorem final (c : Dev nD) : (dat W c).arrAt 6 cfg8.N = result W c :=
  (dat W c).arrAt_eq_of_cover 6 (result W c) (flushed_eq W c) fun i => by
    have hN : cfg8.N = 144 := N_8
    have h0 : ((i : S12288x256.Idx) 0 : Nat) < 12288 := ((i : S12288x256.Idx) 0).isLt
    have h1 : ((i : S12288x256.Idx) 1 : Nat) < 256 := ((i : S12288x256.Idx) 1).isLt
    have ht : 12 * (((i : S12288x256.Idx) 0 : Nat) / 1024) + 11 < cfg8.N := by rw [hN]; omega
    refine ⟨⟨_, ht⟩, (flush8_6 _).mpr (by show (12 * (((i : S12288x256.Idx) 0 : Nat) / 1024) + 11) % 12 = 11; omega), ?_⟩
    show i ∈ ((View.whole main_v51).slice (win8_6.rect ⟨_, ht⟩)).set
    rw [View.set_slice_whole, Rect.mem_set_unit]
    have hi := index_w6 ⟨_, ht⟩
    intro a
    match a with
    | ⟨0, _⟩ =>
      show win8_6.index ⟨_, ht⟩ 0 * 1024 ≤ ((i : S12288x256.Idx) 0 : Nat) ∧ ((i : S12288x256.Idx) 0 : Nat) < win8_6.index ⟨_, ht⟩ 0 * 1024 + 1024
      rw [hi.1]
      show (12 * (((i : S12288x256.Idx) 0 : Nat) / 1024) + 11) / 12 * 1024 ≤ _ ∧ _ < (12 * (((i : S12288x256.Idx) 0 : Nat) / 1024) + 11) / 12 * 1024 + 1024
      omega
    | ⟨1, _⟩ =>
      show win8_6.index ⟨_, ht⟩ 1 * 256 ≤ ((i : S12288x256.Idx) 1 : Nat) ∧ ((i : S12288x256.Idx) 1 : Nat) < win8_6.index ⟨_, ht⟩ 1 * 256 + 256
      rw [hi.2]; omega

/-- Launch 8 leaves, at (p, j), the epilogue of the whole contraction sums of row p. -/
theorem leaves_ok : Iface.Is8 (fun W c => (dat (F := Ideal) W c).arrAt 6 cfg8.N) := by
  intro W c p j
  show ((dat (F := Ideal) W c).arrAt 6 cfg8.N) (ix2 p j) = _
  rw [final W c]
  rfl

end Cert.KernelIdeal.R8

end
-- ==== Proof.R9Pieces.lean ====
/-
  Launch 9's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias) of the
  accumulator's new contents. Each is read off the stores the case made: the last store over a whole block is what the
  block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R9Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid9.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The rows of the features the point contracts against: 1024 rows from the point's offset. -/
abbrev rowsAt (x1 : Vec F S12288x256 .f32) : Vec F S1024x256 .f32 :=
  View.ld x1 (Rect.unit (s := S12288x256) (k9_off1 i) S1024x256.size (k9_off1_inb i))

/-- k = 0: the accumulator ends at zero plus the tile's product. -/
theorem accFirst_eq (hc0 : isFirst i) (hc1 : ¬isLast i) (x0 : Vec F S1024x1024 .bf16) (x1 : Vec F S12288x256 .f32) (x2 : Vec F S256x256 .f32) (x3 : Vec F S1x256 .f32) :
    accFirst c i arg2 harg2 arg3 harg3 arg4 harg4 arg5 harg5 arg6 harg6 arg7 harg7 hc0 hc1 x0 x1 x2 x3 = k9_pay2 (k9_pay1 (F := F)) x0 (rowsAt i x1) := by
  unfold accFirst
  rw [View.read_writes_eq_canon _ _ _ (cover_accFirst c i arg2 harg2 arg3 harg3 arg4 harg4 arg5 harg5 arg6 harg6 arg7 harg7 hc0 hc1 x0 x1 x2 x3)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) :
    accMiddle c i arg2 harg2 arg3 harg3 arg4 harg4 arg5 harg5 arg6 harg6 arg7 harg7 hc0 hc1 x0 x1 x2 x3 xs0 = k9_pay2 xs0 x0 (rowsAt i x1) := by
  unfold accMiddle
  rw [View.read_writes_eq_canon _ _ _ (cover_accMiddle c i arg2 harg2 arg3 harg3 arg4 harg4 arg5 harg5 arg6 harg6 arg7 harg7 hc0 hc1 x0 x1 x2 x3 xs0)]
  unfold runMiddle
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (x2 : Vec F S256x256 .f32) (x3 : Vec F S1x256 .f32) (xs0 : Vec F S1024x256 .f32) :
    accLast c i arg2 harg2 arg3 harg3 arg4 harg4 arg5 harg5 arg6 harg6 arg7 harg7 hc0 hc1 x0 x1 x2 x3 xs0 = k9_pay2 xs0 x0 (rowsAt i x1) := by
  unfold accLast
  rw [View.read_writes_eq_canon _ _ _ (cover_accLast c i arg2 harg2 arg3 harg3 arg4 harg4 arg5 harg5 arg6 harg6 arg7 harg7 hc0 hc1 x0 x1 x2 x3 xs0)]
  unfold runLast
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- and the output block is that, projected by the weights, plus the bias. -/
theorem outLast_eq (hc0 : ¬isFirst i) (hc1 : isLast i) (x0 : Vec F S1024x1024 .bf16) (x1 : Vec F S12288x256 .f32) (x2 : Vec F S256x256 .f32) (x3 : Vec F S1x256 .f32) (xs0 : Vec F S1024x256 .f32) :
    outLast c i arg2 harg2 arg3 harg3 arg4 harg4 arg5 harg5 arg6 harg6 arg7 harg7 hc0 hc1 x0 x1 x2 x3 xs0 = k9_pay3 (k9_pay2 xs0 x0 (rowsAt i x1)) x2 x3 := by
  unfold outLast
  rw [View.read_writes_eq_canon _ _ _ (cover_outLast c i arg2 harg2 arg3 harg3 arg4 harg4 arg5 harg5 arg6 harg6 arg7 harg7 hc0 hc1 x0 x1 x2 x3 xs0)]
  unfold runLast
  dsimp only
  try sl_unfold_words
  rw [View.canon_unit_zero hz, View.readCov_unit_zero (S := S1024x256) _ hz]
  simp only [View.readAt_eq_ld, harg2.read_unread, harg3.read_unread, harg7.read_unread, View.ld_unit_zero (S := S1024x1024) hz, View.ld_unit_zero (S := S1024x256) hz, harg4.read_unread, harg5.read_unread, View.ld_unit_zero (S := S256x256) hz, View.ld_unit_zero (S := S1x256) hz]
  rfl
end

end Cert.KernelIdeal.R9

end
-- ==== Proof.R9Blocks.lean ====
/-
  Launch 9, entry by entry over the extended reals: what each of the kernel's payloads holds at an entry (the
  accumulator's store: what it held plus the sum over the tile's 1024 contraction indices; the output's store: the sum
  over the 256 feature columns of the accumulator times the weight matrix's row, plus the bias), and what each block the
  body is entered with holds at an entry, as an entry of the launch's operand arrays (the tile at point 12 m + k is block
  (m, k) of the adjacency matrix; the features, the weights and the bias are whole arrays).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R9Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k9_pay1 (F := Ideal) j = 0 := by
  unfold k9_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k9_pay2 (F := Ideal) v3 v4 v9 (ix2 r e) = v3 (ix2 r e) + ∑ f : Fin 1024, v4 (ix2 r f) * v9 (ix2 f e) := by
  unfold k9_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`. -/
theorem pay3_apply (v19 : Vec Ideal S1024x256 .f32) (v20 : Vec Ideal S256x256 .f32) (v25 : Vec Ideal S1x256 .f32) (r : Fin 1024) (j : Fin 256) :
    k9_pay3 (F := Ideal) v19 v20 v25 (ix2 r j) = (∑ d : Fin 256, v19 (ix2 r d) * v20 (ix2 j d)) + v25 (ix2 0 j) := by
  unfold k9_pay3
  simp only [shapeCast_self]
  refine congrArg₂ (· + ·) ?_ ?_
  · exact Cert.Lib.MatmulT.matmul_trhs_zero_apply (M := 1024) (K := 256) (N := 256) none _ _ r j
  · exact broadcastTo_apply v25 _ (ix2 r j) (ix2 0 j) (fun a => by
      match a with
      | ⟨0, _⟩ => rfl
      | ⟨1, _⟩ => rfl)

/-! ## The blocks the body is entered with, entry by entry -/

/-- The block indices at point t = 12 m + k: the tile is block (m, k) of the adjacency matrix, the features', the weights'
    and the bias's one block is the whole array, the output block is row block m; the contraction coordinate is k. -/
theorem index_tile : ∀ t : Fin cfg9.N, win9_0.index t 0 = t.val / 12 ∧ win9_0.index t 1 = t.val % 12 :=
  (by decide +kernel : ∀ t : Fin grid9.N, win9_0.index t 0 = t.val / 12 ∧ win9_0.index t 1 = t.val % 12)
theorem index_feat : ∀ t : Fin cfg9.N, win9_1.index t 0 = 0 ∧ win9_1.index t 1 = 0 :=
  (by decide +kernel : ∀ t : Fin grid9.N, win9_1.index t 0 = 0 ∧ win9_1.index t 1 = 0)
theorem index_wt : ∀ t : Fin cfg9.N, win9_2.index t 0 = 0 ∧ win9_2.index t 1 = 0 :=
  (by decide +kernel : ∀ t : Fin grid9.N, win9_2.index t 0 = 0 ∧ win9_2.index t 1 = 0)
theorem index_bias : ∀ t : Fin cfg9.N, win9_3.index t 0 = 0 ∧ win9_3.index t 1 = 0 :=
  (by decide +kernel : ∀ t : Fin grid9.N, win9_3.index t 0 = 0 ∧ win9_3.index t 1 = 0)
theorem index_out : ∀ t : Fin cfg9.N, win9_4.index t 0 = t.val / 12 ∧ win9_4.index t 1 = 0 :=
  (by decide +kernel : ∀ t : Fin grid9.N, win9_4.index t 0 = t.val / 12 ∧ win9_4.index t 1 = 0)
theorem coord1 : ∀ t : Fin cfg9.N, ((grid9.coords t) 1).val = t.val % 12 :=
  (by decide +kernel : ∀ t : Fin grid9.N, ((grid9.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg9.N) (r f : Fin 1024) (p g : Fin 12288)
    (hp : p.val = 1024 * (t.val / 12) + r.val) (hg : g.val = 1024 * (t.val % 12) + f.val) :
    (iblk W c 0 t : Vec F S1024x1024 .bf16) (ix2 r f) = (W c main_v1 : (⟨2, ![12288, 12288]⟩ : Shape).Idx → Elt F .bf16) (ix2 p g) := by
  have hi := index_tile t
  unfold iblk
  rw [View.read_apply]
  show W c main_v1 _ = W c main_v1 _
  congr 1
  funext a
  apply Fin.ext
  match a with
  | ⟨0, _⟩ => show win9_0.index t 0 * 1024 + 1 * r.val = p.val; rw [hi.1, hp]; omega
  | ⟨1, _⟩ => show win9_0.index t 1 * 1024 + 1 * f.val = g.val; rw [hi.2, hg]; omega

/-- The features' block at any point is the feature matrix. -/
theorem feat_apply (c : Dev nD) (t : Fin cfg9.N) (g : Fin 12288) (e : Fin 256) :
    (iblk W c 1 t : Vec F S12288x256 .f32) (ix2 g e) = (W c main_v51 : S12288x256.Idx → Elt F .f32) (ix2 g e) := by
  have hi := index_feat t
  unfold iblk
  rw [View.read_apply]
  show W c main_v51 _ = W c main_v51 _
  congr 1
  funext a
  apply Fin.ext
  match a with
  | ⟨0, _⟩ => show win9_1.index t 0 * 12288 + 1 * g.val = g.val; rw [hi.1]; omega
  | ⟨1, _⟩ => show win9_1.index t 1 * 256 + 1 * e.val = e.val; rw [hi.2]; omega

/-- The weights' block at any point is the weight matrix. -/
theorem wt_apply (c : Dev nD) (t : Fin cfg9.N) (j d : Fin 256) :
    (iblk W c 2 t : Vec F S256x256 .f32) (ix2 j d) = (W c main_v53 : S256x256.Idx → Elt F .f32) (ix2 j d) := by
  have hi := index_wt t
  unfold iblk
  rw [View.read_apply]
  show W c main_v53 _ = W c main_v53 _
  congr 1
  funext a
  apply Fin.ext
  match a with
  | ⟨0, _⟩ => show win9_2.index t 0 * 256 + 1 * j.val = j.val; rw [hi.1]; omega
  | ⟨1, _⟩ => show win9_2.index t 1 * 256 + 1 * d.val = d.val; rw [hi.2]; omega

/-- The bias's block at any point is the bias row. -/
theorem bias_apply (c : Dev nD) (t : Fin cfg9.N) (z : Fin 1) (j : Fin 256) :
    (iblk W c 3 t : Vec F S1x256 .f32) (ix2 z j) = (W c main_v56 : S1x256.Idx → Elt F .f32) (ix2 z j) := by
  have hi := index_bias t
  unfold iblk
  rw [View.read_apply]
  show W c main_v56 _ = W c main_v56 _
  congr 1
  funext a
  apply Fin.ext
  match a with
  | ⟨0, _⟩ => show win9_3.index t 0 * 1 + 1 * z.val = z.val; rw [hi.1]; omega
  | ⟨1, _⟩ => show win9_3.index t 1 * 256 + 1 * j.val = j.val; rw [hi.2]; omega
end

/-- The 1024 rows from the point's offset, at (f, e): the features at (1024 k + f, e). -/
theorem rowsAt_apply (i : grid9.Coords) (x1 : Vec F S12288x256 .f32) (f : Fin 1024) (e : Fin 256) (g : Fin 12288)
    (hg : g.val = 1024 * (i 1).val + f.val) : rowsAt i x1 (ix2 f e) = x1 (ix2 g e) := by
  have h0 : k9_off1 i 0 = 1024 * (i 1).val := by rw [k9_off1_eq i]; rfl
  have h1 : k9_off1 i 1 = 0 := by rw [k9_off1_eq i]; rfl
  show x1 _ = x1 _
  congr 1
  funext a
  apply Fin.ext
  match a with
  | ⟨0, _⟩ => show k9_off1 i 0 + 1 * f.val = g.val; rw [h0, hg]; omega
  | ⟨1, _⟩ => show k9_off1 i 1 + 1 * e.val = e.val; rw [h1]; omega

end Cert.KernelIdeal.R9

end
-- ==== Proof.R9Val.lean ====
/-
  Launch 9's value over the extended reals: the output array ends, at (p, j), at the sum over the 256 feature columns d
  of (the sum over all 12288 contraction indices f of the adjacency matrix at (p, f) times the features at (f, d)) times
  the weight matrix at (j, d), plus the bias at j.
    * After the point with row block m and contraction coordinate k the accumulator holds, at (r, e), the sum of the
      first k + 1 tiles' contributions to row 1024 m + r: by induction on the point, from what each case stores.
    * At k = 11 the 12 tiles' contributions are the whole contraction sum (a sum over 12288 indices is the sum over 12 blocks
      of 1024), and the output block is its projection by the weights, plus the bias.
    * Row block m is written back at point 12 m + 11; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R9Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : (c : Dev nD) → (b : Ref sig .tc) → Buf (Elt Ideal) ((c : Thread nD τ).loc b))

/-! ## The operand arrays as matrices, and the blocks the body is entered with -/

abbrev AA (c : Dev nD) : Iface.Mat 12288 12288 := W c main_v1
abbrev XX (c : Dev nD) : Iface.Mat 12288 256 := W c main_v51
abbrev WW (c : Dev nD) : Iface.Mat 256 256 := W c main_v53
abbrev BB (c : Dev nD) : Iface.Mat 1 256 := W c main_v56

abbrev b0 (c : Dev nD) (t : Fin cfg9.N) : Vec Ideal S1024x1024 .bf16 := iblk W c 0 t
abbrev b1 (c : Dev nD) (t : Fin cfg9.N) : Vec Ideal S12288x256 .f32 := iblk W c 1 t
abbrev b2 (c : Dev nD) (t : Fin cfg9.N) : Vec Ideal S256x256 .f32 := iblk W c 2 t
abbrev b3 (c : Dev nD) (t : Fin cfg9.N) : Vec Ideal S1x256 .f32 := iblk W c 3 t

/-- The term of the contraction sum of row `p`, column `d`, at contraction index `n` (zero outside the extents). -/
def term (c : Dev nD) (p : ℕ) (d : Fin 256) (n : ℕ) : EReal :=
  if h : p < 12288 ∧ n < 12288 then AA W c (ix2 ⟨p, h.1⟩ ⟨n, h.2⟩) * XX W c (ix2 ⟨n, h.2⟩ d) else 0

/-- One tile's contribution: the 1024 terms of contraction block `kb`. -/
def tileSum (c : Dev nD) (p : ℕ) (d : Fin 256) (kb : ℕ) : EReal := ∑ f : Fin 1024, term W c p d (kb * 1024 + f.val)

theorem N_val : cfg9.N = 144 := N_9

/-- What the body's product adds at point t: the tile's contribution to row 1024 m + r. -/
theorem tile_sum (c : Dev nD) (t : Fin cfg9.N) (r : Fin 1024) (e : Fin 256) :
    (∑ f : Fin 1024, b0 W c t (ix2 r f) * rowsAt (grid9.coords t) (b1 W c t) (ix2 f e))
      = tileSum W c (1024 * (t.val / 12) + r.val) e (t.val % 12) := by
  unfold tileSum
  refine Finset.sum_congr rfl fun f _ => ?_
  have ht : t.val < 144 := Nat.lt_of_lt_of_eq t.isLt (N_val)
  have hp : 1024 * (t.val / 12) + r.val < 12288 := by have := r.isLt; omega
  have hg : t.val % 12 * 1024 + f.val < 12288 := by have := f.isLt; omega
  unfold term
  rw [dif_pos ⟨hp, hg⟩]
  refine congrArg₂ (· * ·) ?_ ?_
  · exact tile_apply W c t r f ⟨_, hp⟩ ⟨_, hg⟩ rfl (by show t.val % 12 * 1024 + f.val = _; omega)
  · exact (rowsAt_apply (grid9.coords t) (b1 W c t) f e ⟨_, hg⟩ (by rw [coord1 t]; show t.val % 12 * 1024 + f.val = _; omega)).trans
      (feat_apply W c t ⟨_, hg⟩ e)

/-! ## What each point leaves, in the payloads -/

theorem acc_first (c : Dev nD) (t : Fin cfg9.N) (h0 : t.val % 12 = 0) :
    (outsAt W c t.val t.isLt).2 = k9_pay2 (F := Ideal) (k9_pay1 (F := Ideal)) (b0 W c t) (rowsAt (grid9.coords t) (b1 W c t)) := by
  rw [outsAt_first W c t h0]
  dsimp only
  exact accFirst_eq (F := Ideal) c (grid9.coords t) (ms0 t) (hs0 t) (ms1 t) (hs1 t) (ms2 t) (hs2 t) (ms3 t) (hs3 t) (ms4 t) (hs4 t) accM (Memref.isWhole_whole _) ((isFirst_iff t).mpr h0) (fun h => by have := (isLast_iff t).mp h; omega) (iblk W c 0 t) (iblk W c 1 t) (iblk W c 2 t) (iblk W c 3 t)

theorem acc_middle (c : Dev nD) (t : Fin cfg9.N) (h0 : ¬t.val % 12 = 0) (h5 : ¬t.val % 12 = 11) :
    (outsAt W c t.val t.isLt).2 = k9_pay2 (F := Ideal) (outsAt W c (t.val - 1) (Nat.lt_of_le_of_lt (Nat.sub_le _ _) t.isLt)).2 (b0 W c t) (rowsAt (grid9.coords t) (b1 W c t)) := by
  rw [outsAt_middle W c t h0 h5]
  dsimp only
  exact accMiddle_eq (F := Ideal) c (grid9.coords t) (ms0 t) (hs0 t) (ms1 t) (hs1 t) (ms2 t) (hs2 t) (ms3 t) (hs3 t) (ms4 t) (hs4 t) accM (Memref.isWhole_whole _) (fun h => h0 ((isFirst_iff t).mp h)) (fun h => h5 ((isLast_iff t).mp h)) (iblk W c 0 t) (iblk W c 1 t) (iblk W c 2 t) (iblk W c 3 t) (outsAt W c (t.val - 1) (Nat.lt_of_le_of_lt (Nat.sub_le _ _) t.isLt)).2

theorem acc_last (c : Dev nD) (t : Fin cfg9.N) (h0 : ¬t.val % 12 = 0) (h5 : t.val % 12 = 11) :
    (outsAt W c t.val t.isLt).2 = k9_pay2 (F := Ideal) (outsAt W c (t.val - 1) (Nat.lt_of_le_of_lt (Nat.sub_le _ _) t.isLt)).2 (b0 W c t) (rowsAt (grid9.coords t) (b1 W c t)) := by
  rw [outsAt_last W c t h0 h5]
  dsimp only
  exact accLast_eq (F := Ideal) c (grid9.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

theorem out_last (c : Dev nD) (t : Fin cfg9.N) (h0 : ¬t.val % 12 = 0) (h5 : t.val % 12 = 11) :
    (outsAt W c t.val t.isLt).1 = k9_pay3 (F := Ideal) (outsAt W c t.val t.isLt).2 (b2 W c t) (b3 W c t) := by
  rw [acc_last W c t h0 h5, outsAt_last W c t h0 h5]
  dsimp only
  exact outLast_eq (F := Ideal) c (grid9.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

/-! ## The accumulator, point after point -/

/-- After point n (row block n / 12, contraction coordinate n % 12) the accumulator holds the first n % 12 + 1 tiles'
    contributions. -/
theorem acc_inv (c : Dev nD) : ∀ (n : ℕ) (hn : n < cfg9.N) (r : Fin 1024) (e : Fin 256),
    (outsAt W c n hn).2 (ix2 r e) = ∑ kb ∈ Finset.range (n % 12 + 1), tileSum W c (1024 * (n / 12) + r.val) e kb := by
  intro n
  induction n with
  | zero =>
    intro hn r e
    refine (congrFun (acc_first W c ⟨0, hn⟩ rfl) (ix2 r e)).trans ?_
    refine (pay2_apply _ _ _ r e).trans ?_
    rw [pay1_apply, zero_add, tile_sum W c ⟨0, hn⟩ r e]
    exact (Finset.sum_range_one _).symm
  | succ n ih =>
    intro hn r e
    by_cases h0 : (n + 1) % 12 = 0
    · refine (congrFun (acc_first W c ⟨n + 1, hn⟩ h0) (ix2 r e)).trans ?_
      refine (pay2_apply _ _ _ r e).trans ?_
      rw [pay1_apply, zero_add, tile_sum W c ⟨n + 1, hn⟩ r e]
      show tileSum W c (1024 * ((n + 1) / 12) + r.val) e ((n + 1) % 12) = _
      rw [h0]
      exact (Finset.sum_range_one _).symm
    · have hprev := ih (Nat.lt_of_succ_lt hn) r e
      have e1 : n % 12 + 1 = (n + 1) % 12 := by omega
      have e2 : n / 12 = (n + 1) / 12 := by omega
      rw [e1, e2] at hprev
      have hstep : (outsAt W c (n + 1) hn).2 = k9_pay2 (F := Ideal) (outsAt W c n (Nat.lt_of_succ_lt hn)).2 (b0 W c ⟨n + 1, hn⟩) (rowsAt (grid9.coords ⟨n + 1, hn⟩) (b1 W c ⟨n + 1, hn⟩)) := by
        by_cases h5 : (n + 1) % 12 = 11
        · exact acc_last W c ⟨n + 1, hn⟩ h0 h5
        · exact acc_middle W c ⟨n + 1, hn⟩ h0 h5
      refine (congrFun hstep (ix2 r e)).trans ?_
      refine (pay2_apply _ _ _ r e).trans ?_
      rw [Finset.sum_range_succ, hprev, tile_sum W c ⟨n + 1, hn⟩ r e]

/-- The 12 tiles' contributions are the whole contraction sum: a sum over 12288 indices is the sum over 12 blocks of 1024. -/
theorem tiles_total (c : Dev nD) (p : Fin 12288) (d : Fin 256) :
    ∑ kb ∈ Finset.range 12, tileSum W c p.val d kb = ∑ f : Fin 12288, AA W c (ix2 p f) * XX W c (ix2 f d) := by
  rw [← Fin.sum_univ_eq_sum_range (fun kb => tileSum W c p.val d kb) 12]
  rw [BlockSums.sum_blocks 12 1024 12288 (by norm_num) (fun f : Fin 12288 => AA W c (ix2 p f) * XX W c (ix2 f d))]
  refine Finset.sum_congr rfl fun kb _ => ?_
  unfold tileSum
  refine Finset.sum_congr rfl fun f _ => ?_
  have hg : kb.val * 1024 + f.val < 12288 := by have := kb.isLt; have := f.isLt; omega
  unfold term
  rw [dif_pos ⟨p.isLt, hg⟩]

/-! ## The output block at the last contraction coordinate, and the output array -/

/-- What the output array has to hold. -/
def G (c : Dev nD) : Iface.Mat 12288 256 := fun i =>
  (∑ d : Fin 256, (∑ f : Fin 12288, AA W c (ix2 (i 0) f) * XX W c (ix2 f d)) * WW W c (ix2 (i 1) d)) + BB W c (ix2 0 (i 1))

/-- The output block stored at point t = 12 m + 11, at (r, j): `G` at (1024 m + r, j). -/
theorem out_val (c : Dev nD) (t : Fin cfg9.N) (h5 : t.val % 12 = 11) (r : Fin 1024) (j : Fin 256) (p : Fin 12288)
    (hp : p.val = 1024 * (t.val / 12) + r.val) :
    (outsAt W c t.val t.isLt).1 (ix2 r j) = G W c (ix2 p j) := by
  have h0 : ¬t.val % 12 = 0 := by omega
  refine (congrFun (out_last W c t h0 h5) (ix2 r j)).trans ?_
  refine (pay3_apply _ _ _ r j).trans ?_
  refine congrArg₂ (· + ·) (Finset.sum_congr rfl fun d _ => congrArg₂ (· * ·) ?_ (wt_apply W c t j d)) (bias_apply W c t 0 j)
  rw [acc_inv W c t.val t.isLt r d, h5, ← hp]
  exact tiles_total W c p d

/-- Row block m of a matrix, read through the output window's block at point t, at (r, j). -/
theorem out_read (c : Dev nD) (t : Fin cfg9.N) (Gm : Iface.Mat 12288 256) (r : Fin 1024) (j : Fin 256) (p : Fin 12288)
    (hp : p.val = 1024 * (t.val / 12) + r.val) :
    ((cfg9.win 4).blk t).view.read (Elt Ideal) Gm (ix2 r j) = Gm (ix2 p j) := by
  have hi := index_out t
  rw [View.read_apply]
  show Gm _ = Gm _
  congr 1
  funext a
  apply Fin.ext
  match a with
  | ⟨0, _⟩ => show win9_4.index t 0 * 1024 + 1 * r.val = p.val; rw [hi.1, hp]; omega
  | ⟨1, _⟩ => show win9_4.index t 1 * 256 + 1 * j.val = j.val; rw [hi.2]; omega

/-- Every write-back writes its row block of `G`. -/
theorem flushed_eq (c : Dev nD) (t : Fin cfg9.N) (hf : (cfg9.win 4).flush t = true) :
    (dat W c).flushed 4 t = ((cfg9.win 4).blk t).view.read (Elt Ideal) (G W c) := by
  have h5 : t.val % 12 = 11 := (flush9_4 t).mp hf
  have ht : t.val < 144 := Nat.lt_of_lt_of_eq t.isLt N_val
  show (cfg9.win 4).cut (grid9.coords t) ((dat W c).after 4 t) = _
  rw [after4]
  funext y
  obtain ⟨r, j, rfl⟩ : ∃ (r : Fin 1024) (j : Fin 256), y = ix2 r j := ⟨y 0, y 1, eq_ix2 y⟩
  have hp : 1024 * (t.val / 12) + r.val < 12288 := by have := r.isLt; omega
  exact (out_val W c t h5 r j ⟨_, hp⟩ rfl).trans (out_read c t (G W c) r j ⟨_, hp⟩ rfl).symm

/-- The row blocks written back cover the output array: row p is in the block written at point 12 (p / 1024) + 11. -/
theorem cover (c : Dev nD) (i : ((cfg9.win 4).arr.view.loc (c.tc : Thread nD τ)).2.ty.Idx) :
    ∃ t : Fin cfg9.N, (cfg9.win 4).flush t = true ∧ i ∈ ((cfg9.win 4).blk t).view.set := by
  have hi0 : (i 0).val < 12288 := (i 0).isLt
  have hi1 : (i 1).val < 256 := (i 1).isLt
  have htN : 12 * ((i 0).val / 1024) + 11 < cfg9.N := by rw [N_val]; omega
  refine ⟨⟨12 * ((i 0).val / 1024) + 11, htN⟩, (flush9_4 _).mpr (by show (12 * ((i 0).val / 1024) + 11) % 12 = 11; omega), ?_⟩
  have hidx := index_out ⟨12 * ((i 0).val / 1024) + 11, htN⟩
  show i ∈ ((View.whole main_v57).slice (win9_4.rect ⟨12 * ((i 0).val / 1024) + 11, htN⟩)).set
  rw [View.set_slice_whole, Rect.mem_set_unit]
  intro a
  match a with
  | ⟨0, _⟩ =>
    show win9_4.index ⟨12 * ((i 0).val / 1024) + 11, htN⟩ 0 * 1024 ≤ (i 0).val ∧ (i 0).val < win9_4.index ⟨12 * ((i 0).val / 1024) + 11, htN⟩ 0 * 1024 + 1024
    rw [hidx.1]
    show (12 * ((i 0).val / 1024) + 11) / 12 * 1024 ≤ (i 0).val ∧ (i 0).val < (12 * ((i 0).val / 1024) + 11) / 12 * 1024 + 1024
    omega
  | ⟨1, _⟩ =>
    show win9_4.index ⟨12 * ((i 0).val / 1024) + 11, htN⟩ 1 * 256 ≤ (i 1).val ∧ (i 1).val < win9_4.index ⟨12 * ((i 0).val / 1024) + 11, htN⟩ 1 * 256 + 256
    rw [hidx.2]
    omega

/-- So the output array ends holding `G`. -/
theorem final (c : Dev nD) : (dat W c).arrAt 4 cfg9.N = G W c :=
  (dat W c).arrAt_eq_of_cover 4 (G W c) (flushed_eq W c) (cover c)

/-- The launch's output, entry by entry. -/
theorem leaves_ok : Cert.KernelIdeal.Iface.Is9 (fun W c => (dat (F := Ideal) W c).arrAt 4 cfg9.N) := by
  intro W c p j
  show (dat W c).arrAt 4 cfg9.N (ix2 p j) = _
  rw [final W c]
  rfl

end Cert.KernelIdeal.R9

end
-- ==== Proof.R10Pieces.lean ====
/-
  Launch 10's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias, plus the first
  skip block, clamped below at zero, plus the second skip block) of the accumulator's new contents. Each is read off the
  stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R10Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid10.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The rows of the features the point contracts against: 1024 rows from the point's offset. -/
abbrev rowsAt (x1 : Vec F S12288x256 .f32) : Vec F S1024x256 .f32 :=
  View.ld x1 (Rect.unit (s := S12288x256) (k10_off1 i) S1024x256.size (k10_off1_inb i))

/-- k = 0: the accumulator ends at zero plus the tile's product. -/
theorem accFirst_eq (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) :
    accFirst c i arg2 harg2 arg3 harg3 arg4 harg4 arg5 harg5 arg6 harg6 arg7 harg7 arg8 harg8 arg9 harg9 hc0 hc1 x0 x1 x2 x3 x4 x5 = k10_pay2 (k10_pay1 (F := F)) x0 (rowsAt i x1) := by
  unfold accFirst
  rw [View.read_writes_eq_canon _ _ _ (cover_accFirst c i arg2 harg2 arg3 harg3 arg4 harg4 arg5 harg5 arg6 harg6 arg7 harg7 arg8 harg8 arg9 harg9 hc0 hc1 x0 x1 x2 x3 x4 x5)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    accMiddle c i arg2 harg2 arg3 harg3 arg4 harg4 arg5 harg5 arg6 harg6 arg7 harg7 arg8 harg8 arg9 harg9 hc0 hc1 x0 x1 x2 x3 x4 x5 xs0 = k10_pay2 xs0 x0 (rowsAt i x1) := by
  unfold accMiddle
  rw [View.read_writes_eq_canon _ _ _ (cover_accMiddle c i arg2 harg2 arg3 harg3 arg4 harg4 arg5 harg5 arg6 harg6 arg7 harg7 arg8 harg8 arg9 harg9 hc0 hc1 x0 x1 x2 x3 x4 x5 xs0)]
  unfold runMiddle
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    accLast c i arg2 harg2 arg3 harg3 arg4 harg4 arg5 harg5 arg6 harg6 arg7 harg7 arg8 harg8 arg9 harg9 hc0 hc1 x0 x1 x2 x3 x4 x5 xs0 = k10_pay2 xs0 x0 (rowsAt i x1) := by
  unfold accLast
  rw [View.read_writes_eq_canon _ _ _ (cover_accLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- and the output block is the epilogue of that, the weights, the bias row and the two skip blocks. -/
theorem outLast_eq (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    outLast c i arg2 harg2 arg3 harg3 arg4 harg4 arg5 harg5 arg6 harg6 arg7 harg7 arg8 harg8 arg9 harg9 hc0 hc1 x0 x1 x2 x3 x4 x5 xs0 = k10_pay3 (k10_pay2 xs0 x0 (rowsAt i x1)) x2 x3 x4 x5 := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz, View.readCov_unit_zero (S := S1024x256) _ hz]
  simp only [View.readAt_eq_ld, harg2.read_unread, harg3.read_unread, harg9.read_unread, View.ld_unit_zero (S := S1024x1024) hz, View.ld_unit_zero (S := S1024x256) hz, harg4.read_unread, harg5.read_unread, harg6.read_unread, harg7.read_unread, View.ld_unit_zero (S := S256x256) hz, View.ld_unit_zero (S := S1x256) hz]
  rfl
end

end Cert.KernelIdeal.R10

end
-- ==== Proof.R10Blocks.lean ====
/-
  Launch 10, entry by entry over the extended reals: what each of the kernel's payloads holds at an entry (the
  accumulator's store: what it held plus the sum over the tile's 1024 contraction indices; the output's store: the sum
  over the 256 feature columns of the accumulator times the weight matrix's row, plus the bias, plus the first skip
  block, the maximum of that and zero, plus the second skip block), and what each block the body is entered with holds at
  an entry, as an entry of the launch's operand arrays (the tile at point 12 m + k is block (m, k) of the adjacency
  matrix; the features, the weights and the bias are whole arrays; the skip blocks are row block m of theirs).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R10Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k10_pay1 (F := Ideal) j = 0 := by
  unfold k10_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k10_pay2 (F := Ideal) v3 v4 v9 (ix2 r e) = v3 (ix2 r e) + ∑ f : Fin 1024, v4 (ix2 r f) * v9 (ix2 f e) := by
  unfold k10_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`, plus the first
    skip block, the maximum of that and zero, plus the second skip block. -/
theorem pay3_apply (v20 : Vec Ideal S1024x256 .f32) (v21 : Vec Ideal S256x256 .f32) (v26 : Vec Ideal S1x256 .f32) (v30 v35 : Vec Ideal S1024x256 .f32) (r : Fin 1024) (j : Fin 256) :
    k10_pay3 (F := Ideal) v20 v21 v26 v30 v35 (ix2 r j)
      = max (v30 (ix2 r j) + ((∑ d : Fin 256, v20 (ix2 r d) * v21 (ix2 j d)) + v26 (ix2 0 j))) 0 + v35 (ix2 r j) := by
  unfold k10_pay3
  simp only [shapeCast_self]
  refine congrArg₂ (· + ·) ?_ rfl
  refine congrArg₂ max ?_ ?_
  · refine congrArg (v30 (ix2 r j) + ·) ?_
    refine congrArg₂ (· + ·) ?_ ?_
    · exact Cert.Lib.MatmulT.matmul_trhs_zero_apply (M := 1024) (K := 256) (N := 256) none _ _ r j
    · exact broadcastTo_apply v26 _ (ix2 r j) (ix2 0 j) (fun a => by
        match a with
        | ⟨0, _⟩ => rfl
        | ⟨1, _⟩ => rfl)
  · exact Ideal.ofBits_zero_f32

/-! ## The blocks the body is entered with, entry by entry -/

/-- The block indices at point t = 12 m + k: the tile is block (m, k) of the adjacency matrix; the features', the weights'
    and the bias's one block is the whole array; the skip blocks and the output block are row block m; the contraction
    coordinate is k. -/
theorem index_w0 : ∀ t : Fin cfg10.N, win10_0.index t 0 = t.val / 12 ∧ win10_0.index t 1 = t.val % 12 :=
  (by decide +kernel : ∀ t : Fin grid10.N, win10_0.index t 0 = t.val / 12 ∧ win10_0.index t 1 = t.val % 12)
theorem index_w1 : ∀ t : Fin cfg10.N, win10_1.index t 0 = 0 ∧ win10_1.index t 1 = 0 :=
  (by decide +kernel : ∀ t : Fin grid10.N, win10_1.index t 0 = 0 ∧ win10_1.index t 1 = 0)
theorem index_w2 : ∀ t : Fin cfg10.N, win10_2.index t 0 = 0 ∧ win10_2.index t 1 = 0 :=
  (by decide +kernel : ∀ t : Fin grid10.N, win10_2.index t 0 = 0 ∧ win10_2.index t 1 = 0)
theorem index_w3 : ∀ t : Fin cfg10.N, win10_3.index t 0 = 0 ∧ win10_3.index t 1 = 0 :=
  (by decide +kernel : ∀ t : Fin grid10.N, win10_3.index t 0 = 0 ∧ win10_3.index t 1 = 0)
theorem index_w4 : ∀ t : Fin cfg10.N, win10_4.index t 0 = t.val / 12 ∧ win10_4.index t 1 = 0 :=
  (by decide +kernel : ∀ t : Fin grid10.N, win10_4.index t 0 = t.val / 12 ∧ win10_4.index t 1 = 0)
theorem index_w5 : ∀ t : Fin cfg10.N, win10_5.index t 0 = t.val / 12 ∧ win10_5.index t 1 = 0 :=
  (by decide +kernel : ∀ t : Fin grid10.N, win10_5.index t 0 = t.val / 12 ∧ win10_5.index t 1 = 0)
theorem index_w6 : ∀ t : Fin cfg10.N, win10_6.index t 0 = t.val / 12 ∧ win10_6.index t 1 = 0 :=
  (by decide +kernel : ∀ t : Fin grid10.N, win10_6.index t 0 = t.val / 12 ∧ win10_6.index t 1 = 0)
theorem coord1 : ∀ t : Fin cfg10.N, ((grid10.coords t) 1).val = t.val % 12 :=
  (by decide +kernel : ∀ t : Fin grid10.N, ((grid10.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg10.N) (r f : Fin 1024) (p g : Fin 12288)
    (hp : p.val = 1024 * (t.val / 12) + r.val) (hg : g.val = 1024 * (t.val % 12) + f.val) :
    (iblk W c 0 t : Vec F S1024x1024 .bf16) (ix2 r f) = (W c main_v1 : (⟨2, ![12288, 12288]⟩ : Shape).Idx → Elt F .bf16) (ix2 p g) := by
  have hi := index_w0 t
  unfold iblk
  rw [View.read_apply]
  show W c main_v1 _ = W c main_v1 _
  congr 1
  funext a
  apply Fin.ext
  match a with
  | ⟨0, _⟩ => show win10_0.index t 0 * 1024 + 1 * r.val = p.val; rw [hi.1, hp]; omega
  | ⟨1, _⟩ => show win10_0.index t 1 * 1024 + 1 * f.val = g.val; rw [hi.2, hg]; omega

/-- Window 1's block at any point is its whole array. -/
theorem feat_apply (c : Dev nD) (t : Fin cfg10.N) (g : Fin 12288) (e : Fin 256) :
    (iblk W c 1 t : Vec F S12288x256 .f32) (ix2 g e) = (W c main_v57 : S12288x256.Idx → Elt F .f32) (ix2 g e) := by
  have hi := index_w1 t
  unfold iblk
  rw [View.read_apply]
  show W c main_v57 _ = W c main_v57 _
  congr 1
  funext a
  apply Fin.ext
  match a with
  | ⟨0, _⟩ => show win10_1.index t 0 * 12288 + 1 * g.val = g.val; rw [hi.1]; omega
  | ⟨1, _⟩ => show win10_1.index t 1 * 256 + 1 * e.val = e.val; rw [hi.2]; omega

/-- Window 2's block at any point is its whole array. -/
theorem wt_apply (c : Dev nD) (t : Fin cfg10.N) (j : Fin 256) (d : Fin 256) :
    (iblk W c 2 t : Vec F S256x256 .f32) (ix2 j d) = (W c main_v59 : S256x256.Idx → Elt F .f32) (ix2 j d) := by
  have hi := index_w2 t
  unfold iblk
  rw [View.read_apply]
  show W c main_v59 _ = W c main_v59 _
  congr 1
  funext a
  apply Fin.ext
  match a with
  | ⟨0, _⟩ => show win10_2.index t 0 * 256 + 1 * j.val = j.val; rw [hi.1]; omega
  | ⟨1, _⟩ => show win10_2.index t 1 * 256 + 1 * d.val = d.val; rw [hi.2]; omega

/-- Window 3's block at any point is its whole array. -/
theorem bias_apply (c : Dev nD) (t : Fin cfg10.N) (z : Fin 1) (j : Fin 256) :
    (iblk W c 3 t : Vec F S1x256 .f32) (ix2 z j) = (W c main_v62 : S1x256.Idx → Elt F .f32) (ix2 z j) := by
  have hi := index_w3 t
  unfold iblk
  rw [View.read_apply]
  show W c main_v62 _ = W c main_v62 _
  congr 1
  funext a
  apply Fin.ext
  match a with
  | ⟨0, _⟩ => show win10_3.index t 0 * 1 + 1 * z.val = z.val; rw [hi.1]; omega
  | ⟨1, _⟩ => show win10_3.index t 1 * 256 + 1 * j.val = j.val; rw [hi.2]; omega

/-- The first skip block at point t, at (r, e): its array at (1024 m + r, e). -/
theorem res1_apply (c : Dev nD) (t : Fin cfg10.N) (r : Fin 1024) (e : Fin 256) (p : Fin 12288)
    (hp : p.val = 1024 * (t.val / 12) + r.val) :
    (iblk W c 4 t : Vec F S1024x256 .f32) (ix2 r e) = (W c main_v57 : S12288x256.Idx → Elt F .f32) (ix2 p e) := by
  have hi := index_w4 t
  unfold iblk
  rw [View.read_apply]
  show W c main_v57 _ = W c main_v57 _
  congr 1
  funext a
  apply Fin.ext
  match a with
  | ⟨0, _⟩ => show win10_4.index t 0 * 1024 + 1 * r.val = p.val; rw [hi.1, hp]; omega
  | ⟨1, _⟩ => show win10_4.index t 1 * 256 + 1 * e.val = e.val; rw [hi.2]; omega

/-- The second skip block at point t, at (r, e): its array at (1024 m + r, e). -/
theorem res2_apply (c : Dev nD) (t : Fin cfg10.N) (r : Fin 1024) (e : Fin 256) (p : Fin 12288)
    (hp : p.val = 1024 * (t.val / 12) + r.val) :
    (iblk W c 5 t : Vec F S1024x256 .f32) (ix2 r e) = (W c main_v51 : S12288x256.Idx → Elt F .f32) (ix2 p e) := by
  have hi := index_w5 t
  unfold iblk
  rw [View.read_apply]
  show W c main_v51 _ = W c main_v51 _
  congr 1
  funext a
  apply Fin.ext
  match a with
  | ⟨0, _⟩ => show win10_5.index t 0 * 1024 + 1 * r.val = p.val; rw [hi.1, hp]; omega
  | ⟨1, _⟩ => show win10_5.index t 1 * 256 + 1 * e.val = e.val; rw [hi.2]; omega
end

/-- The 1024 rows from the point's offset, at (f, e): the features at (1024 k + f, e). -/
theorem rowsAt_apply (i : grid10.Coords) (x1 : Vec F S12288x256 .f32) (f : Fin 1024) (e : Fin 256) (g : Fin 12288)
    (hg : g.val = 1024 * (i 1).val + f.val) : rowsAt i x1 (ix2 f e) = x1 (ix2 g e) := by
  have h0 : k10_off1 i 0 = 1024 * (i 1).val := by rw [k10_off1_eq i]; rfl
  have h1 : k10_off1 i 1 = 0 := by rw [k10_off1_eq i]; rfl
  show x1 _ = x1 _
  congr 1
  funext a
  apply Fin.ext
  match a with
  | ⟨0, _⟩ => show k10_off1 i 0 + 1 * f.val = g.val; rw [h0, hg]; omega
  | ⟨1, _⟩ => show k10_off1 i 1 + 1 * e.val = e.val; rw [h1]; omega

end Cert.KernelIdeal.R10

end
-- ==== Proof.R10Val.lean ====
/-
  Launch 10's value over the extended reals: the output array ends, at (p, j), at
      max (r₁ (p, j) + (Σ_d (Σ_f A (p, f) · X (f, d)) · Wm (j, d) + b (0, j))) 0 + r₂ (p, j)
  with A the adjacency matrix, X the features, Wm the weights, b the bias row, r₁ r₂ the two skip arrays; f runs over all
  12288 contraction indices.
    * After the point with row block m and contraction coordinate k the accumulator holds, at (r, e), the sum of the
      first k + 1 tiles' contributions to row 1024 m + r: by induction on the point, from what each case stores.
    * At k = 11 the 12 tiles' contributions are the whole contraction sum (a sum over 12288 indices is the sum over 12
      blocks of 1024), and the output block is the epilogue of it.
    * Row block m is written back at point 12 m + 11; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R10Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : Iface.Vl)

/-! ## The operand arrays, and the blocks at a point, as matrices of extended reals -/

abbrev AA (c : Dev nD) : Iface.Mat 12288 12288 := W c main_v1
abbrev XX (c : Dev nD) : Iface.Mat 12288 256 := W c main_v57
abbrev WW (c : Dev nD) : Iface.Mat 256 256 := W c main_v59
abbrev BB (c : Dev nD) : Iface.Mat 1 256 := W c main_v62
abbrev S1 (c : Dev nD) : Iface.Mat 12288 256 := W c main_v57
abbrev S2 (c : Dev nD) : Iface.Mat 12288 256 := W c main_v51
abbrev tileAt (c : Dev nD) (t : Fin cfg10.N) : Vec Ideal S1024x1024 .bf16 := iblk W c 0 t
abbrev featAt (c : Dev nD) (t : Fin cfg10.N) : Vec Ideal S12288x256 .f32 := iblk W c 1 t
abbrev wtAt (c : Dev nD) (t : Fin cfg10.N) : Vec Ideal S256x256 .f32 := iblk W c 2 t
abbrev biasAt (c : Dev nD) (t : Fin cfg10.N) : Vec Ideal S1x256 .f32 := iblk W c 3 t
abbrev res1At (c : Dev nD) (t : Fin cfg10.N) : Vec Ideal S1024x256 .f32 := iblk W c 4 t
abbrev res2At (c : Dev nD) (t : Fin cfg10.N) : Vec Ideal S1024x256 .f32 := iblk W c 5 t

/-- The n-th term of the contraction at (p, d): adjacency (p, n) times features (n, d); zero past the extent. -/
def term (c : Dev nD) (p : Fin 12288) (d : Fin 256) (n : ℕ) : EReal :=
  if h : n < 12288 then AA W c (ix2 p ⟨n, h⟩) * XX W c (ix2 ⟨n, h⟩ d) else 0

/-- The sum of the 1024 terms of contraction block j. -/
def blockSum (c : Dev nD) (p : Fin 12288) (d : Fin 256) (j : ℕ) : EReal := ∑ f : Fin 1024, term W c p d (j * 1024 + f.val)

/-- The tile's product at point t = 12 m + k, at (r, e): the sum of contraction block k at (1024 m + r, e). -/
theorem prod_at (c : Dev nD) (t : Fin cfg10.N) (r : Fin 1024) (e : Fin 256) (p : Fin 12288) (hp : p.val = 1024 * (t.val / 12) + r.val) :
    (∑ f : Fin 1024, tileAt W c t (ix2 r f) * rowsAt (grid10.coords t) (featAt W c t) (ix2 f e))
      = blockSum W c p e (t.val % 12) := by
  refine Finset.sum_congr rfl fun f _ => ?_
  have hlt : (t.val % 12) * 1024 + f.val < 12288 := by
    have := f.isLt; have : t.val % 12 < 12 := Nat.mod_lt _ (by omega); omega
  unfold term
  rw [dif_pos hlt]
  exact congrArg₂ (· * ·)
    (tile_apply W c t r f p ⟨_, hlt⟩ hp (by show (t.val % 12) * 1024 + f.val = 1024 * (t.val % 12) + f.val; omega))
    ((rowsAt_apply (grid10.coords t) _ f e ⟨_, hlt⟩ (by rw [coord1 t]; show (t.val % 12) * 1024 + f.val = 1024 * (t.val % 12) + f.val; omega)).trans
      (feat_apply W c t ⟨_, hlt⟩ e))

set_option maxHeartbeats 4000000 in
/-- At a point that opens a row block the accumulator holds the first block's sum. -/
theorem acc_first (c : Dev nD) (t : Fin cfg10.N) (h0 : t.val % 12 = 0) (r : Fin 1024) (e : Fin 256) (p : Fin 12288)
    (hp : p.val = 1024 * (t.val / 12) + r.val) :
    (outsAt W c t.val t.isLt).2 (ix2 r e) = ∑ j ∈ Finset.range (t.val % 12 + 1), blockSum W c p e j := by
  refine (congrFun (congrArg Prod.snd (outsAt_first W c t h0)) (ix2 r e)).trans ?_
  refine (congrFun (accFirst_eq (F := Ideal) c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
    ((isFirst_iff t).mpr h0) (fun h => by have := (isLast_iff t).mp h; omega) (iblk W c 0 t) (iblk W c 1 t) (iblk W c 2 t) (iblk W c 3 t) (iblk W c 4 t) (iblk W c 5 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg10.N) (h0 : ¬t.val % 12 = 0) (r : Fin 1024) (e : Fin 256) (p : Fin 12288)
    (hp : p.val = 1024 * (t.val / 12) + r.val) (h' : t.val - 1 < cfg10.N)
    (ih : (outsAt W c (t.val - 1) h').2 (ix2 r e) = ∑ j ∈ Finset.range (t.val % 12), blockSum W c p e j) :
    (outsAt W c t.val t.isLt).2 (ix2 r e) = ∑ j ∈ Finset.range (t.val % 12 + 1), blockSum W c p e j := by
  rw [Finset.sum_range_succ, ← prod_at W c t r e p hp, ← ih]
  by_cases h5 : t.val % 12 = 11
  · refine (congrFun (congrArg Prod.snd (outsAt_last W c t h0 h5)) (ix2 r e)).trans ?_
    refine (congrFun (accLast_eq (F := Ideal) c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e

/-- After the point at position n = 12 m + k the accumulator at (r, e) is the sum of contraction blocks 0 … k at
    (1024 m + r, e). -/
theorem acc_inv (c : Dev nD) : ∀ (n : ℕ) (hn : n < cfg10.N) (r : Fin 1024) (e : Fin 256) (p : Fin 12288),
    p.val = 1024 * (n / 12) + r.val → (outsAt W c n hn).2 (ix2 r e) = ∑ j ∈ Finset.range (n % 12 + 1), blockSum W c p e j
  | 0, hn, r, e, p, hp => acc_first W c ⟨0, hn⟩ rfl r e p hp
  | n + 1, hn, r, e, p, hp => by
    by_cases h0 : (n + 1) % 12 = 0
    · exact acc_first W c ⟨n + 1, hn⟩ h0 r e p hp
    · have ih := acc_inv c n (Nat.lt_of_succ_lt hn) r e p (by
        have : n / 12 = (n + 1) / 12 := by omega
        rw [this]; exact hp)
      have hm : n % 12 + 1 = (n + 1) % 12 := by omega
      rw [hm] at ih
      exact acc_step W c ⟨n + 1, hn⟩ h0 r e p hp (Nat.lt_of_succ_lt hn) ih

/-- The 12 block sums are the whole contraction. -/
theorem sum_all (c : Dev nD) (p : Fin 12288) (d : Fin 256) :
    ∑ j ∈ Finset.range 12, blockSum W c p d j
      = ∑ f : Fin 12288, AA W c (ix2 p f) * XX W c (ix2 f d) := by
  rw [BlockSums.sum_blocks 12 1024 12288 rfl (fun n : Fin 12288 => AA W c (ix2 p n) * XX W c (ix2 n d))]
  rw [← Fin.sum_univ_eq_sum_range (fun j => blockSum W c p d j) 12]
  refine Finset.sum_congr rfl fun j _ => Finset.sum_congr rfl fun f _ => ?_
  unfold term
  rw [dif_pos (BlockSums.block_row_lt j f)]

/-- Entry (p, j) of the output: the epilogue of the whole contraction sums of row p. -/
def resultAt (c : Dev nD) (p : Fin 12288) (j : Fin 256) : EReal :=
  max (S1 W c (ix2 p j) + ((∑ d : Fin 256, (∑ f : Fin 12288, AA W c (ix2 p f) * XX W c (ix2 f d)) * WW W c (ix2 j d)) + BB W c (ix2 0 j))) 0
    + S2 W c (ix2 p j)

set_option maxHeartbeats 4000000 in
/-- At a point that closes a row block the output block at (r, j) is the result at (1024 m + r, j). -/
theorem out_last (c : Dev nD) (t : Fin cfg10.N) (h5 : t.val % 12 = 11) (r : Fin 1024) (j : Fin 256) (p : Fin 12288)
    (hp : p.val = 1024 * (t.val / 12) + r.val) :
    (outsAt W c t.val t.isLt).1 (ix2 r j) = resultAt W c p j := by
  have h0 : ¬t.val % 12 = 0 := by omega
  have e1 := congrFun (congrArg Prod.fst (outsAt_last W c t h0 h5)) (ix2 r j)
  have hacc : ∀ d : Fin 256, k10_pay2 (F := Ideal) (outsAt W c (t.val - 1) (Nat.lt_of_le_of_lt (Nat.sub_le _ _) t.isLt)).2 (iblk W c 0 t) (rowsAt (grid10.coords t) (iblk W c 1 t)) (ix2 r d)
      = ∑ f : Fin 12288, AA W c (ix2 p f) * XX W c (ix2 f d) := fun d => by
    have e2 := congrFun (congrArg Prod.snd (outsAt_last W c t h0 h5)) (ix2 r d)
    have a := acc_inv W c t.val t.isLt r d p hp
    rw [h5, sum_all] at a
    rw [← a]
    exact ((congrFun (accLast_eq (F := Ideal) c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r d)).symm.trans e2.symm)
  refine e1.trans ?_
  refine (congrFun (outLast_eq (F := Ideal) c (grid10.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r j)).trans ?_
  refine (pay3_apply _ _ _ _ _ r j).trans ?_
  unfold resultAt
  refine congrArg₂ (· + ·) (congrArg₂ max (congrArg₂ (· + ·) (res1_apply W c t r j p hp)
    (congrArg₂ (· + ·) (Finset.sum_congr rfl fun d _ => congrArg₂ (· * ·) (hacc d) (wt_apply W c t j d)) (bias_apply W c t 0 j))) rfl) (res2_apply W c t r j p hp)

/-! ## What the launch leaves in its output array -/

/-- The array the launch leaves. -/
def result (c : Dev nD) : Buf (Elt Ideal) ((c : Thread nD τ).loc main_v63) :=
  fun i : S12288x256.Idx => resultAt W c (i 0) (i 1)

set_option maxHeartbeats 4000000 in
/-- The block written back at a point that closes a row block is that row block of the result. -/
theorem flushed_eq (c : Dev nD) (t : Fin cfg10.N) (hf : (cfg10.win 6).flush t = true) :
    (dat W c).flushed 6 t = ((cfg10.win 6).blk t).view.read (Elt Ideal) (result W c) := by
  have h5 : t.val % 12 = 11 := (flush10_6 t).mp hf
  show (cfg10.win 6).cut (grid10.coords t) ((dat W c).after 6 t) = _
  rw [after6]
  refine funext fun (y : S1024x256.Idx) => ?_
  obtain ⟨r, e, rfl⟩ : ∃ (r : Fin 1024) (e : Fin 256), y = ix2 r e := ⟨y 0, y 1, eq_ix2 y⟩
  have hx : (cfg10.win 6).xinj (grid10.coords t) (ix2 r e) = (ix2 r e : S1024x256.Idx) :=
    funext fun a => Fin.ext (by match a with | ⟨0, _⟩ => rfl | ⟨1, _⟩ => rfl)
  show (outsAt W c t.val t.isLt).1 ((cfg10.win 6).xinj (grid10.coords t) (ix2 r e)) = _
  rw [hx, View.read_apply]
  show _ = result W c (((cfg10.win 6).blk t).view.emb (ix2 r e))
  have hp : ((((cfg10.win 6).blk t).view.emb (ix2 r e) : S12288x256.Idx) 0).val = 1024 * (t.val / 12) + r.val := by
    show win10_6.index t 0 * 1024 + 1 * r.val = _
    rw [(index_w6 t).1]; omega
  have he : (((cfg10.win 6).blk t).view.emb (ix2 r e) : S12288x256.Idx) 1 = e := Fin.ext (by
    show win10_6.index t 1 * 256 + 1 * e.val = e.val
    rw [(index_w6 t).2]; omega)
  refine (out_last W c t h5 r e _ hp).trans ?_
  unfold result
  rw [he]

/-- The row blocks written back cover the array (row p is in the block written at point 12 (p / 1024) + 11), so the
    array ends at the result. -/
theorem final (c : Dev nD) : (dat W c).arrAt 6 cfg10.N = result W c :=
  (dat W c).arrAt_eq_of_cover 6 (result W c) (flushed_eq W c) fun i => by
    have hN : cfg10.N = 144 := N_10
    have h0 : ((i : S12288x256.Idx) 0 : Nat) < 12288 := ((i : S12288x256.Idx) 0).isLt
    have h1 : ((i : S12288x256.Idx) 1 : Nat) < 256 := ((i : S12288x256.Idx) 1).isLt
    have ht : 12 * (((i : S12288x256.Idx) 0 : Nat) / 1024) + 11 < cfg10.N := by rw [hN]; omega
    refine ⟨⟨_, ht⟩, (flush10_6 _).mpr (by show (12 * (((i : S12288x256.Idx) 0 : Nat) / 1024) + 11) % 12 = 11; omega), ?_⟩
    show i ∈ ((View.whole main_v63).slice (win10_6.rect ⟨_, ht⟩)).set
    rw [View.set_slice_whole, Rect.mem_set_unit]
    have hi := index_w6 ⟨_, ht⟩
    intro a
    match a with
    | ⟨0, _⟩ =>
      show win10_6.index ⟨_, ht⟩ 0 * 1024 ≤ ((i : S12288x256.Idx) 0 : Nat) ∧ ((i : S12288x256.Idx) 0 : Nat) < win10_6.index ⟨_, ht⟩ 0 * 1024 + 1024
      rw [hi.1]
      show (12 * (((i : S12288x256.Idx) 0 : Nat) / 1024) + 11) / 12 * 1024 ≤ _ ∧ _ < (12 * (((i : S12288x256.Idx) 0 : Nat) / 1024) + 11) / 12 * 1024 + 1024
      omega
    | ⟨1, _⟩ =>
      show win10_6.index ⟨_, ht⟩ 1 * 256 ≤ ((i : S12288x256.Idx) 1 : Nat) ∧ ((i : S12288x256.Idx) 1 : Nat) < win10_6.index ⟨_, ht⟩ 1 * 256 + 256
      rw [hi.2]; omega

/-- Launch 10 leaves, at (p, j), the epilogue of the whole contraction sums of row p. -/
theorem leaves_ok : Iface.Is10 (fun W c => (dat (F := Ideal) W c).arrAt 6 cfg10.N) := by
  intro W c p j
  show ((dat (F := Ideal) W c).arrAt 6 cfg10.N) (ix2 p j) = _
  rw [final W c]
  rfl

end Cert.KernelIdeal.R10

end
-- ==== Proof.R11Pieces.lean ====
/-
  Launch 11's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias) of the
  accumulator's new contents. Each is read off the stores the case made: the last store over a whole block is what the
  block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R11Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid11.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)

/-- The rows of the features the point contracts against: 1024 rows from the point's offset. -/
abbrev rowsAt (x1 : Vec F S12288x256 .f32) : Vec F S1024x256 .f32 :=
  View.ld x1 (Rect.unit (s := S12288x256) (k11_off1 i) S1024x256.size (k11_off1_inb i))

/-- k = 0: the accumulator ends at zero plus the tile's product. -/
theorem accFirst_eq (hc0 : isFirst i) (hc1 : ¬isLast i) (x0 : Vec F S1024x1024 .bf16) (x1 : Vec F S12288x256 .f32) (x2 : Vec F S256x256 .f32) (x3 : Vec F S1x256 .f32) :
    accFirst c i arg2 harg2 arg3 harg3 arg4 harg4 arg5 harg5 arg6 harg6 arg7 harg7 hc0 hc1 x0 x1 x2 x3 = k11_pay2 (k11_pay1 (F := F)) x0 (rowsAt i x1) := by
  unfold accFirst
  rw [View.read_writes_eq_canon _ _ _ (cover_accFirst c i arg2 harg2 arg3 harg3 arg4 harg4 arg5 harg5 arg6 harg6 arg7 harg7 hc0 hc1 x0 x1 x2 x3)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (x2 : Vec F S256x256 .f32) (x3 : Vec F S1x256 .f32) (xs0 : Vec F S1024x256 .f32) :
    accMiddle c i arg2 harg2 arg3 harg3 arg4 harg4 arg5 harg5 arg6 harg6 arg7 harg7 hc0 hc1 x0 x1 x2 x3 xs0 = k11_pay2 xs0 x0 (rowsAt i x1) := by
  unfold accMiddle
  rw [View.read_writes_eq_canon _ _ _ (cover_accMiddle c i arg2 harg2 arg3 harg3 arg4 harg4 arg5 harg5 arg6 harg6 arg7 harg7 hc0 hc1 x0 x1 x2 x3 xs0)]
  unfold runMiddle
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (x2 : Vec F S256x256 .f32) (x3 : Vec F S1x256 .f32) (xs0 : Vec F S1024x256 .f32) :
    accLast c i arg2 harg2 arg3 harg3 arg4 harg4 arg5 harg5 arg6 harg6 arg7 harg7 hc0 hc1 x0 x1 x2 x3 xs0 = k11_pay2 xs0 x0 (rowsAt i x1) := by
  unfold accLast
  rw [View.read_writes_eq_canon _ _ _ (cover_accLast c i arg2 harg2 arg3 harg3 arg4 harg4 arg5 harg5 arg6 harg6 arg7 harg7 hc0 hc1 x0 x1 x2 x3 xs0)]
  unfold runLast
  dsimp only
  try sl_unfold_words
  rw [View.canon_unit_zero hz]
  simp only [View.readAt_eq_ld, harg2.read_unread, harg3.read_unread, harg7.read_unread, View.ld_unit_zero (S := S1024x1024) hz, View.ld_unit_zero (S := S1024x256) hz]
  rfl

/-- and the output block is that, projected by the weights, plus the bias. -/
theorem outLast_eq (hc0 : ¬isFirst i) (hc1 : isLast i) (x0 : Vec F S1024x1024 .bf16) (x1 : Vec F S12288x256 .f32) (x2 : Vec F S256x256 .f32) (x3 : Vec F S1x256 .f32) (xs0 : Vec F S1024x256 .f32) :
    outLast c i arg2 harg2 arg3 harg3 arg4 harg4 arg5 harg5 arg6 harg6 arg7 harg7 hc0 hc1 x0 x1 x2 x3 xs0 = k11_pay3 (k11_pay2 xs0 x0 (rowsAt i x1)) x2 x3 := by
  unfold outLast
  rw [View.read_writes_eq_canon _ _ _ (cover_outLast c i arg2 harg2 arg3 harg3 arg4 harg4 arg5 harg5 arg6 harg6 arg7 harg7 hc0 hc1 x0 x1 x2 x3 xs0)]
  unfold runLast
  dsimp only
  try sl_unfold_words
  rw [View.canon_unit_zero hz, View.readCov_unit_zero (S := S1024x256) _ hz]
  simp only [View.readAt_eq_ld, harg2.read_unread, harg3.read_unread, harg7.read_unread, View.ld_unit_zero (S := S1024x1024) hz, View.ld_unit_zero (S := S1024x256) hz, harg4.read_unread, harg5.read_unread, View.ld_unit_zero (S := S256x256) hz, View.ld_unit_zero (S := S1x256) hz]
  rfl
end

end Cert.KernelIdeal.R11

end
-- ==== Proof.R11Blocks.lean ====
/-
  Launch 11, entry by entry over the extended reals: what each of the kernel's payloads holds at an entry (the
  accumulator's store: what it held plus the sum over the tile's 1024 contraction indices; the output's store: the sum
  over the 256 feature columns of the accumulator times the weight matrix's row, plus the bias), and what each block the
  body is entered with holds at an entry, as an entry of the launch's operand arrays (the tile at point 12 m + k is block
  (m, k) of the adjacency matrix; the features, the weights and the bias are whole arrays).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R11Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k11_pay1 (F := Ideal) j = 0 := by
  unfold k11_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k11_pay2 (F := Ideal) v3 v4 v9 (ix2 r e) = v3 (ix2 r e) + ∑ f : Fin 1024, v4 (ix2 r f) * v9 (ix2 f e) := by
  unfold k11_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`. -/
theorem pay3_apply (v19 : Vec Ideal S1024x256 .f32) (v20 : Vec Ideal S256x256 .f32) (v25 : Vec Ideal S1x256 .f32) (r : Fin 1024) (j : Fin 256) :
    k11_pay3 (F := Ideal) v19 v20 v25 (ix2 r j) = (∑ d : Fin 256, v19 (ix2 r d) * v20 (ix2 j d)) + v25 (ix2 0 j) := by
  unfold k11_pay3
  simp only [shapeCast_self]
  refine congrArg₂ (· + ·) ?_ ?_
  · exact Cert.Lib.MatmulT.matmul_trhs_zero_apply (M := 1024) (K := 256) (N := 256) none _ _ r j
  · exact broadcastTo_apply v25 _ (ix2 r j) (ix2 0 j) (fun a => by
      match a with
      | ⟨0, _⟩ => rfl
      | ⟨1, _⟩ => rfl)

/-! ## The blocks the body is entered with, entry by entry -/

/-- The block indices at point t = 12 m + k: the tile is block (m, k) of the adjacency matrix, the features', the weights'
    and the bias's one block is the whole array, the output block is row block m; the contraction coordinate is k. -/
theorem index_tile : ∀ t : Fin cfg11.N, win11_0.index t 0 = t.val / 12 ∧ win11_0.index t 1 = t.val % 12 :=
  (by decide +kernel : ∀ t : Fin grid11.N, win11_0.index t 0 = t.val / 12 ∧ win11_0.index t 1 = t.val % 12)
theorem index_feat : ∀ t : Fin cfg11.N, win11_1.index t 0 = 0 ∧ win11_1.index t 1 = 0 :=
  (by decide +kernel : ∀ t : Fin grid11.N, win11_1.index t 0 = 0 ∧ win11_1.index t 1 = 0)
theorem index_wt : ∀ t : Fin cfg11.N, win11_2.index t 0 = 0 ∧ win11_2.index t 1 = 0 :=
  (by decide +kernel : ∀ t : Fin grid11.N, win11_2.index t 0 = 0 ∧ win11_2.index t 1 = 0)
theorem index_bias : ∀ t : Fin cfg11.N, win11_3.index t 0 = 0 ∧ win11_3.index t 1 = 0 :=
  (by decide +kernel : ∀ t : Fin grid11.N, win11_3.index t 0 = 0 ∧ win11_3.index t 1 = 0)
theorem index_out : ∀ t : Fin cfg11.N, win11_4.index t 0 = t.val / 12 ∧ win11_4.index t 1 = 0 :=
  (by decide +kernel : ∀ t : Fin grid11.N, win11_4.index t 0 = t.val / 12 ∧ win11_4.index t 1 = 0)
theorem coord1 : ∀ t : Fin cfg11.N, ((grid11.coords t) 1).val = t.val % 12 :=
  (by decide +kernel : ∀ t : Fin grid11.N, ((grid11.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg11.N) (r f : Fin 1024) (p g : Fin 12288)
    (hp : p.val = 1024 * (t.val / 12) + r.val) (hg : g.val = 1024 * (t.val % 12) + f.val) :
    (iblk W c 0 t : Vec F S1024x1024 .bf16) (ix2 r f) = (W c main_v1 : (⟨2, ![12288, 12288]⟩ : Shape).Idx → Elt F .bf16) (ix2 p g) := by
  have hi := index_tile t
  unfold iblk
  rw [View.read_apply]
  show W c main_v1 _ = W c main_v1 _
  congr 1
  funext a
  apply Fin.ext
  match a with
  | ⟨0, _⟩ => show win11_0.index t 0 * 1024 + 1 * r.val = p.val; rw [hi.1, hp]; omega
  | ⟨1, _⟩ => show win11_0.index t 1 * 1024 + 1 * f.val = g.val; rw [hi.2, hg]; omega

/-- The features' block at any point is the feature matrix. -/
theorem feat_apply (c : Dev nD) (t : Fin cfg11.N) (g : Fin 12288) (e : Fin 256) :
    (iblk W c 1 t : Vec F S12288x256 .f32) (ix2 g e) = (W c main_v63 : S12288x256.Idx → Elt F .f32) (ix2 g e) := by
  have hi := index_feat t
  unfold iblk
  rw [View.read_apply]
  show W c main_v63 _ = W c main_v63 _
  congr 1
  funext a
  apply Fin.ext
  match a with
  | ⟨0, _⟩ => show win11_1.index t 0 * 12288 + 1 * g.val = g.val; rw [hi.1]; omega
  | ⟨1, _⟩ => show win11_1.index t 1 * 256 + 1 * e.val = e.val; rw [hi.2]; omega

/-- The weights' block at any point is the weight matrix. -/
theorem wt_apply (c : Dev nD) (t : Fin cfg11.N) (j d : Fin 256) :
    (iblk W c 2 t : Vec F S256x256 .f32) (ix2 j d) = (W c main_v65 : S256x256.Idx → Elt F .f32) (ix2 j d) := by
  have hi := index_wt t
  unfold iblk
  rw [View.read_apply]
  show W c main_v65 _ = W c main_v65 _
  congr 1
  funext a
  apply Fin.ext
  match a with
  | ⟨0, _⟩ => show win11_2.index t 0 * 256 + 1 * j.val = j.val; rw [hi.1]; omega
  | ⟨1, _⟩ => show win11_2.index t 1 * 256 + 1 * d.val = d.val; rw [hi.2]; omega

/-- The bias's block at any point is the bias row. -/
theorem bias_apply (c : Dev nD) (t : Fin cfg11.N) (z : Fin 1) (j : Fin 256) :
    (iblk W c 3 t : Vec F S1x256 .f32) (ix2 z j) = (W c main_v68 : S1x256.Idx → Elt F .f32) (ix2 z j) := by
  have hi := index_bias t
  unfold iblk
  rw [View.read_apply]
  show W c main_v68 _ = W c main_v68 _
  congr 1
  funext a
  apply Fin.ext
  match a with
  | ⟨0, _⟩ => show win11_3.index t 0 * 1 + 1 * z.val = z.val; rw [hi.1]; omega
  | ⟨1, _⟩ => show win11_3.index t 1 * 256 + 1 * j.val = j.val; rw [hi.2]; omega
end

/-- The 1024 rows from the point's offset, at (f, e): the features at (1024 k + f, e). -/
theorem rowsAt_apply (i : grid11.Coords) (x1 : Vec F S12288x256 .f32) (f : Fin 1024) (e : Fin 256) (g : Fin 12288)
    (hg : g.val = 1024 * (i 1).val + f.val) : rowsAt i x1 (ix2 f e) = x1 (ix2 g e) := by
  have h0 : k11_off1 i 0 = 1024 * (i 1).val := by rw [k11_off1_eq i]; rfl
  have h1 : k11_off1 i 1 = 0 := by rw [k11_off1_eq i]; rfl
  show x1 _ = x1 _
  congr 1
  funext a
  apply Fin.ext
  match a with
  | ⟨0, _⟩ => show k11_off1 i 0 + 1 * f.val = g.val; rw [h0, hg]; omega
  | ⟨1, _⟩ => show k11_off1 i 1 + 1 * e.val = e.val; rw [h1]; omega

end Cert.KernelIdeal.R11

end
-- ==== Proof.R11Val.lean ====
/-
  Launch 11's value over the extended reals: the output array ends, at (p, j), at the sum over the 256 feature columns d
  of (the sum over all 12288 contraction indices f of the adjacency matrix at (p, f) times the features at (f, d)) times
  the weight matrix at (j, d), plus the bias at j.
    * After the point with row block m and contraction coordinate k the accumulator holds, at (r, e), the sum of the
      first k + 1 tiles' contributions to row 1024 m + r: by induction on the point, from what each case stores.
    * At k = 11 the 12 tiles' contributions are the whole contraction sum (a sum over 12288 indices is the sum over 12 blocks
      of 1024), and the output block is its projection by the weights, plus the bias.
    * Row block m is written back at point 12 m + 11; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R11Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : (c : Dev nD) → (b : Ref sig .tc) → Buf (Elt Ideal) ((c : Thread nD τ).loc b))

/-! ## The operand arrays as matrices, and the blocks the body is entered with -/

abbrev AA (c : Dev nD) : Iface.Mat 12288 12288 := W c main_v1
abbrev XX (c : Dev nD) : Iface.Mat 12288 256 := W c main_v63
abbrev WW (c : Dev nD) : Iface.Mat 256 256 := W c main_v65
abbrev BB (c : Dev nD) : Iface.Mat 1 256 := W c main_v68

abbrev b0 (c : Dev nD) (t : Fin cfg11.N) : Vec Ideal S1024x1024 .bf16 := iblk W c 0 t
abbrev b1 (c : Dev nD) (t : Fin cfg11.N) : Vec Ideal S12288x256 .f32 := iblk W c 1 t
abbrev b2 (c : Dev nD) (t : Fin cfg11.N) : Vec Ideal S256x256 .f32 := iblk W c 2 t
abbrev b3 (c : Dev nD) (t : Fin cfg11.N) : Vec Ideal S1x256 .f32 := iblk W c 3 t

/-- The term of the contraction sum of row `p`, column `d`, at contraction index `n` (zero outside the extents). -/
def term (c : Dev nD) (p : ℕ) (d : Fin 256) (n : ℕ) : EReal :=
  if h : p < 12288 ∧ n < 12288 then AA W c (ix2 ⟨p, h.1⟩ ⟨n, h.2⟩) * XX W c (ix2 ⟨n, h.2⟩ d) else 0

/-- One tile's contribution: the 1024 terms of contraction block `kb`. -/
def tileSum (c : Dev nD) (p : ℕ) (d : Fin 256) (kb : ℕ) : EReal := ∑ f : Fin 1024, term W c p d (kb * 1024 + f.val)

theorem N_val : cfg11.N = 144 := N_11

/-- What the body's product adds at point t: the tile's contribution to row 1024 m + r. -/
theorem tile_sum (c : Dev nD) (t : Fin cfg11.N) (r : Fin 1024) (e : Fin 256) :
    (∑ f : Fin 1024, b0 W c t (ix2 r f) * rowsAt (grid11.coords t) (b1 W c t) (ix2 f e))
      = tileSum W c (1024 * (t.val / 12) + r.val) e (t.val % 12) := by
  unfold tileSum
  refine Finset.sum_congr rfl fun f _ => ?_
  have ht : t.val < 144 := Nat.lt_of_lt_of_eq t.isLt (N_val)
  have hp : 1024 * (t.val / 12) + r.val < 12288 := by have := r.isLt; omega
  have hg : t.val % 12 * 1024 + f.val < 12288 := by have := f.isLt; omega
  unfold term
  rw [dif_pos ⟨hp, hg⟩]
  refine congrArg₂ (· * ·) ?_ ?_
  · exact tile_apply W c t r f ⟨_, hp⟩ ⟨_, hg⟩ rfl (by show t.val % 12 * 1024 + f.val = _; omega)
  · exact (rowsAt_apply (grid11.coords t) (b1 W c t) f e ⟨_, hg⟩ (by rw [coord1 t]; show t.val % 12 * 1024 + f.val = _; omega)).trans
      (feat_apply W c t ⟨_, hg⟩ e)

/-! ## What each point leaves, in the payloads -/

theorem acc_first (c : Dev nD) (t : Fin cfg11.N) (h0 : t.val % 12 = 0) :
    (outsAt W c t.val t.isLt).2 = k11_pay2 (F := Ideal) (k11_pay1 (F := Ideal)) (b0 W c t) (rowsAt (grid11.coords t) (b1 W c t)) := by
  rw [outsAt_first W c t h0]
  dsimp only
  exact accFirst_eq (F := Ideal) c (grid11.coords t) (ms0 t) (hs0 t) (ms1 t) (hs1 t) (ms2 t) (hs2 t) (ms3 t) (hs3 t) (ms4 t) (hs4 t) accM (Memref.isWhole_whole _) ((isFirst_iff t).mpr h0) (fun h => by have := (isLast_iff t).mp h; omega) (iblk W c 0 t) (iblk W c 1 t) (iblk W c 2 t) (iblk W c 3 t)

theorem acc_middle (c : Dev nD) (t : Fin cfg11.N) (h0 : ¬t.val % 12 = 0) (h5 : ¬t.val % 12 = 11) :
    (outsAt W c t.val t.isLt).2 = k11_pay2 (F := Ideal) (outsAt W c (t.val - 1) (Nat.lt_of_le_of_lt (Nat.sub_le _ _) t.isLt)).2 (b0 W c t) (rowsAt (grid11.coords t) (b1 W c t)) := by
  rw [outsAt_middle W c t h0 h5]
  dsimp only
  exact accMiddle_eq (F := Ideal) c (grid11.coords t) (ms0 t) (hs0 t) (ms1 t) (hs1 t) (ms2 t) (hs2 t) (ms3 t) (hs3 t) (ms4 t) (hs4 t) accM (Memref.isWhole_whole _) (fun h => h0 ((isFirst_iff t).mp h)) (fun h => h5 ((isLast_iff t).mp h)) (iblk W c 0 t) (iblk W c 1 t) (iblk W c 2 t) (iblk W c 3 t) (outsAt W c (t.val - 1) (Nat.lt_of_le_of_lt (Nat.sub_le _ _) t.isLt)).2

theorem acc_last (c : Dev nD) (t : Fin cfg11.N) (h0 : ¬t.val % 12 = 0) (h5 : t.val % 12 = 11) :
    (outsAt W c t.val t.isLt).2 = k11_pay2 (F := Ideal) (outsAt W c (t.val - 1) (Nat.lt_of_le_of_lt (Nat.sub_le _ _) t.isLt)).2 (b0 W c t) (rowsAt (grid11.coords t) (b1 W c t)) := by
  rw [outsAt_last W c t h0 h5]
  dsimp only
  exact accLast_eq (F := Ideal) c (grid11.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

theorem out_last (c : Dev nD) (t : Fin cfg11.N) (h0 : ¬t.val % 12 = 0) (h5 : t.val % 12 = 11) :
    (outsAt W c t.val t.isLt).1 = k11_pay3 (F := Ideal) (outsAt W c t.val t.isLt).2 (b2 W c t) (b3 W c t) := by
  rw [acc_last W c t h0 h5, outsAt_last W c t h0 h5]
  dsimp only
  exact outLast_eq (F := Ideal) c (grid11.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h5) (iblk W c 0 t) (iblk W c 1 t) (iblk W c 2 t) (iblk W c 3 t) (outsAt W c (t.val - 1) (Nat.lt_of_le_of_lt (Nat.sub_le _ _) t.isLt)).2

/-! ## The accumulator, point after point -/

/-- After point n (row block n / 12, contraction coordinate n % 12) the accumulator holds the first n % 12 + 1 tiles'
    contributions. -/
theorem acc_inv (c : Dev nD) : ∀ (n : ℕ) (hn : n < cfg11.N) (r : Fin 1024) (e : Fin 256),
    (outsAt W c n hn).2 (ix2 r e) = ∑ kb ∈ Finset.range (n % 12 + 1), tileSum W c (1024 * (n / 12) + r.val) e kb := by
  intro n
  induction n with
  | zero =>
    intro hn r e
    refine (congrFun (acc_first W c ⟨0, hn⟩ rfl) (ix2 r e)).trans ?_
    refine (pay2_apply _ _ _ r e).trans ?_
    rw [pay1_apply, zero_add, tile_sum W c ⟨0, hn⟩ r e]
    exact (Finset.sum_range_one _).symm
  | succ n ih =>
    intro hn r e
    by_cases h0 : (n + 1) % 12 = 0
    · refine (congrFun (acc_first W c ⟨n + 1, hn⟩ h0) (ix2 r e)).trans ?_
      refine (pay2_apply _ _ _ r e).trans ?_
      rw [pay1_apply, zero_add, tile_sum W c ⟨n + 1, hn⟩ r e]
      show tileSum W c (1024 * ((n + 1) / 12) + r.val) e ((n + 1) % 12) = _
      rw [h0]
      exact (Finset.sum_range_one _).symm
    · have hprev := ih (Nat.lt_of_succ_lt hn) r e
      have e1 : n % 12 + 1 = (n + 1) % 12 := by omega
      have e2 : n / 12 = (n + 1) / 12 := by omega
      rw [e1, e2] at hprev
      have hstep : (outsAt W c (n + 1) hn).2 = k11_pay2 (F := Ideal) (outsAt W c n (Nat.lt_of_succ_lt hn)).2 (b0 W c ⟨n + 1, hn⟩) (rowsAt (grid11.coords ⟨n + 1, hn⟩) (b1 W c ⟨n + 1, hn⟩)) := by
        by_cases h5 : (n + 1) % 12 = 11
        · exact acc_last W c ⟨n + 1, hn⟩ h0 h5
        · exact acc_middle W c ⟨n + 1, hn⟩ h0 h5
      refine (congrFun hstep (ix2 r e)).trans ?_
      refine (pay2_apply _ _ _ r e).trans ?_
      rw [Finset.sum_range_succ, hprev, tile_sum W c ⟨n + 1, hn⟩ r e]

/-- The 12 tiles' contributions are the whole contraction sum: a sum over 12288 indices is the sum over 12 blocks of 1024. -/
theorem tiles_total (c : Dev nD) (p : Fin 12288) (d : Fin 256) :
    ∑ kb ∈ Finset.range 12, tileSum W c p.val d kb = ∑ f : Fin 12288, AA W c (ix2 p f) * XX W c (ix2 f d) := by
  rw [← Fin.sum_univ_eq_sum_range (fun kb => tileSum W c p.val d kb) 12]
  rw [BlockSums.sum_blocks 12 1024 12288 (by norm_num) (fun f : Fin 12288 => AA W c (ix2 p f) * XX W c (ix2 f d))]
  refine Finset.sum_congr rfl fun kb _ => ?_
  unfold tileSum
  refine Finset.sum_congr rfl fun f _ => ?_
  have hg : kb.val * 1024 + f.val < 12288 := by have := kb.isLt; have := f.isLt; omega
  unfold term
  rw [dif_pos ⟨p.isLt, hg⟩]

/-! ## The output block at the last contraction coordinate, and the output array -/

/-- What the output array has to hold. -/
def G (c : Dev nD) : Iface.Mat 12288 256 := fun i =>
  (∑ d : Fin 256, (∑ f : Fin 12288, AA W c (ix2 (i 0) f) * XX W c (ix2 f d)) * WW W c (ix2 (i 1) d)) + BB W c (ix2 0 (i 1))

/-- The output block stored at point t = 12 m + 11, at (r, j): `G` at (1024 m + r, j). -/
theorem out_val (c : Dev nD) (t : Fin cfg11.N) (h5 : t.val % 12 = 11) (r : Fin 1024) (j : Fin 256) (p : Fin 12288)
    (hp : p.val = 1024 * (t.val / 12) + r.val) :
    (outsAt W c t.val t.isLt).1 (ix2 r j) = G W c (ix2 p j) := by
  have h0 : ¬t.val % 12 = 0 := by omega
  refine (congrFun (out_last W c t h0 h5) (ix2 r j)).trans ?_
  refine (pay3_apply _ _ _ r j).trans ?_
  refine congrArg₂ (· + ·) (Finset.sum_congr rfl fun d _ => congrArg₂ (· * ·) ?_ (wt_apply W c t j d)) (bias_apply W c t 0 j)
  rw [acc_inv W c t.val t.isLt r d, h5, ← hp]
  exact tiles_total W c p d

/-- Row block m of a matrix, read through the output window's block at point t, at (r, j). -/
theorem out_read (c : Dev nD) (t : Fin cfg11.N) (Gm : Iface.Mat 12288 256) (r : Fin 1024) (j : Fin 256) (p : Fin 12288)
    (hp : p.val = 1024 * (t.val / 12) + r.val) :
    ((cfg11.win 4).blk t).view.read (Elt Ideal) Gm (ix2 r j) = Gm (ix2 p j) := by
  have hi := index_out t
  rw [View.read_apply]
  show Gm _ = Gm _
  congr 1
  funext a
  apply Fin.ext
  match a with
  | ⟨0, _⟩ => show win11_4.index t 0 * 1024 + 1 * r.val = p.val; rw [hi.1, hp]; omega
  | ⟨1, _⟩ => show win11_4.index t 1 * 256 + 1 * j.val = j.val; rw [hi.2]; omega

/-- Every write-back writes its row block of `G`. -/
theorem flushed_eq (c : Dev nD) (t : Fin cfg11.N) (hf : (cfg11.win 4).flush t = true) :
    (dat W c).flushed 4 t = ((cfg11.win 4).blk t).view.read (Elt Ideal) (G W c) := by
  have h5 : t.val % 12 = 11 := (flush11_4 t).mp hf
  have ht : t.val < 144 := Nat.lt_of_lt_of_eq t.isLt N_val
  show (cfg11.win 4).cut (grid11.coords t) ((dat W c).after 4 t) = _
  rw [after4]
  funext y
  obtain ⟨r, j, rfl⟩ : ∃ (r : Fin 1024) (j : Fin 256), y = ix2 r j := ⟨y 0, y 1, eq_ix2 y⟩
  have hp : 1024 * (t.val / 12) + r.val < 12288 := by have := r.isLt; omega
  exact (out_val W c t h5 r j ⟨_, hp⟩ rfl).trans (out_read c t (G W c) r j ⟨_, hp⟩ rfl).symm

/-- The row blocks written back cover the output array: row p is in the block written at point 12 (p / 1024) + 11. -/
theorem cover (c : Dev nD) (i : ((cfg11.win 4).arr.view.loc (c.tc : Thread nD τ)).2.ty.Idx) :
    ∃ t : Fin cfg11.N, (cfg11.win 4).flush t = true ∧ i ∈ ((cfg11.win 4).blk t).view.set := by
  have hi0 : (i 0).val < 12288 := (i 0).isLt
  have hi1 : (i 1).val < 256 := (i 1).isLt
  have htN : 12 * ((i 0).val / 1024) + 11 < cfg11.N := by rw [N_val]; omega
  refine ⟨⟨12 * ((i 0).val / 1024) + 11, htN⟩, (flush11_4 _).mpr (by show (12 * ((i 0).val / 1024) + 11) % 12 = 11; omega), ?_⟩
  have hidx := index_out ⟨12 * ((i 0).val / 1024) + 11, htN⟩
  show i ∈ ((View.whole main_v69).slice (win11_4.rect ⟨12 * ((i 0).val / 1024) + 11, htN⟩)).set
  rw [View.set_slice_whole, Rect.mem_set_unit]
  intro a
  match a with
  | ⟨0, _⟩ =>
    show win11_4.index ⟨12 * ((i 0).val / 1024) + 11, htN⟩ 0 * 1024 ≤ (i 0).val ∧ (i 0).val < win11_4.index ⟨12 * ((i 0).val / 1024) + 11, htN⟩ 0 * 1024 + 1024
    rw [hidx.1]
    show (12 * ((i 0).val / 1024) + 11) / 12 * 1024 ≤ (i 0).val ∧ (i 0).val < (12 * ((i 0).val / 1024) + 11) / 12 * 1024 + 1024
    omega
  | ⟨1, _⟩ =>
    show win11_4.index ⟨12 * ((i 0).val / 1024) + 11, htN⟩ 1 * 256 ≤ (i 1).val ∧ (i 1).val < win11_4.index ⟨12 * ((i 0).val / 1024) + 11, htN⟩ 1 * 256 + 256
    rw [hidx.2]
    omega

/-- So the output array ends holding `G`. -/
theorem final (c : Dev nD) : (dat W c).arrAt 4 cfg11.N = G W c :=
  (dat W c).arrAt_eq_of_cover 4 (G W c) (flushed_eq W c) (cover c)

/-- The launch's output, entry by entry. -/
theorem leaves_ok : Cert.KernelIdeal.Iface.Is11 (fun W c => (dat (F := Ideal) W c).arrAt 4 cfg11.N) := by
  intro W c p j
  show (dat W c).arrAt 4 cfg11.N (ix2 p j) = _
  rw [final W c]
  rfl

end Cert.KernelIdeal.R11

end
-- ==== Proof.R12Pieces.lean ====
/-
  Launch 12's four stored blocks as terms of the blocks the body is entered with, for every float instance: at the
  first contraction coordinate the accumulator ends at the kernel's second payload of the zero block, the tile and the
  1024 feature rows at the point's offset; at a later coordinate at that payload of what the accumulator held; at the
  last coordinate the output block is the third payload (the projection by the weights, plus the bias, plus the first
  skip block, clamped below at zero, plus the second skip block) of the accumulator's new contents. Each is read off the
  stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R12Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid12.Coords) (arg2 : Memref sig .tc .vmem S1024x1024 .bf16) (harg2 : arg2.IsWhole) (arg3 : Memref sig .tc .vmem S12288x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole)

/-- The rows of the features the point contracts against: 1024 rows from the point's offset. -/
abbrev rowsAt (x1 : Vec F S12288x256 .f32) : Vec F S1024x256 .f32 :=
  View.ld x1 (Rect.unit (s := S12288x256) (k12_off1 i) S1024x256.size (k12_off1_inb i))

/-- k = 0: the accumulator ends at zero plus the tile's product. -/
theorem accFirst_eq (hc0 : isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) :
    accFirst c i arg2 harg2 arg3 harg3 arg4 harg4 arg5 harg5 arg6 harg6 arg7 harg7 arg8 harg8 arg9 harg9 hc0 hc1 x0 x1 x2 x3 x4 x5 = k12_pay2 (k12_pay1 (F := F)) x0 (rowsAt i x1) := by
  unfold accFirst
  rw [View.read_writes_eq_canon _ _ _ (cover_accFirst c i arg2 harg2 arg3 harg3 arg4 harg4 arg5 harg5 arg6 harg6 arg7 harg7 arg8 harg8 arg9 harg9 hc0 hc1 x0 x1 x2 x3 x4 x5)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    accMiddle c i arg2 harg2 arg3 harg3 arg4 harg4 arg5 harg5 arg6 harg6 arg7 harg7 arg8 harg8 arg9 harg9 hc0 hc1 x0 x1 x2 x3 x4 x5 xs0 = k12_pay2 xs0 x0 (rowsAt i x1) := by
  unfold accMiddle
  rw [View.read_writes_eq_canon _ _ _ (cover_accMiddle c i arg2 harg2 arg3 harg3 arg4 harg4 arg5 harg5 arg6 harg6 arg7 harg7 arg8 harg8 arg9 harg9 hc0 hc1 x0 x1 x2 x3 x4 x5 xs0)]
  unfold runMiddle
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    accLast c i arg2 harg2 arg3 harg3 arg4 harg4 arg5 harg5 arg6 harg6 arg7 harg7 arg8 harg8 arg9 harg9 hc0 hc1 x0 x1 x2 x3 x4 x5 xs0 = k12_pay2 xs0 x0 (rowsAt i x1) := by
  unfold accLast
  rw [View.read_writes_eq_canon _ _ _ (cover_accLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz]
  simp only [View.readAt_eq_ld, harg2.read_unread, harg3.read_unread, harg9.read_unread, View.ld_unit_zero (S := S1024x1024) hz, View.ld_unit_zero (S := S1024x256) hz]
  rfl

/-- and the output block is the epilogue of that, the weights, the bias row and the two skip blocks. -/
theorem outLast_eq (hc0 : ¬isFirst i) (hc1 : isLast i) (x0 : Vec F S1024x1024 .bf16) (x1 : Vec F S12288x256 .f32) (x2 : Vec F S256x256 .f32) (x3 : Vec F S1x256 .f32) (x4 : Vec F S1024x256 .f32) (x5 : Vec F S1024x256 .f32) (xs0 : Vec F S1024x256 .f32) :
    outLast c i arg2 harg2 arg3 harg3 arg4 harg4 arg5 harg5 arg6 harg6 arg7 harg7 arg8 harg8 arg9 harg9 hc0 hc1 x0 x1 x2 x3 x4 x5 xs0 = k12_pay3 (k12_pay2 xs0 x0 (rowsAt i x1)) x2 x3 x4 x5 := by
  unfold outLast
  rw [View.read_writes_eq_canon _ _ _ (cover_outLast c i arg2 harg2 arg3 harg3 arg4 harg4 arg5 harg5 arg6 harg6 arg7 harg7 arg8 harg8 arg9 harg9 hc0 hc1 x0 x1 x2 x3 x4 x5 xs0)]
  unfold runLast
  dsimp only
  try sl_unfold_words
  rw [View.canon_unit_zero hz, View.readCov_unit_zero (S := S1024x256) _ hz]
  simp only [View.readAt_eq_ld, harg2.read_unread, harg3.read_unread, harg9.read_unread, View.ld_unit_zero (S := S1024x1024) hz, View.ld_unit_zero (S := S1024x256) hz, harg4.read_unread, harg5.read_unread, harg6.read_unread, harg7.read_unread, View.ld_unit_zero (S := S256x256) hz, View.ld_unit_zero (S := S1x256) hz]
  rfl
end

end Cert.KernelIdeal.R12

end
-- ==== Proof.R12Blocks.lean ====
/-
  Launch 12, entry by entry over the extended reals: what each of the kernel's payloads holds at an entry (the
  accumulator's store: what it held plus the sum over the tile's 1024 contraction indices; the output's store: the sum
  over the 256 feature columns of the accumulator times the weight matrix's row, plus the bias, plus the first skip
  block, the maximum of that and zero, plus the second skip block), and what each block the body is entered with holds at
  an entry, as an entry of the launch's operand arrays (the tile at point 12 m + k is block (m, k) of the adjacency
  matrix; the features, the weights and the bias are whole arrays; the skip blocks are row block m of theirs).
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R12Pieces
import proofs.«155206_j89000312308227_2_alg».proof.Proof.LibMatmul
import proofs.«155206_j89000312308227_2_alg».proof.Proof.LibMatmulT
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The payloads at an entry, over the extended reals -/

/-- The zero block. -/
theorem pay1_apply (j : S1024x256.Idx) : k12_pay1 (F := Ideal) j = 0 := by
  unfold k12_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k12_pay2 (F := Ideal) v3 v4 v9 (ix2 r e) = v3 (ix2 r e) + ∑ f : Fin 1024, v4 (ix2 r f) * v9 (ix2 f e) := by
  unfold k12_pay2
  simp only [shapeCast_self]
  refine congrArg (v3 (ix2 r e) + ·) ?_
  exact Cert.Lib.Matmul.matmul_plain_zero_apply (M := 1024) (K := 1024) (N := 256) none v4 _ r e

/-- The output's store: the accumulator's row against the weight matrix's row `j`, plus the bias at `j`, plus the first
    skip block, the maximum of that and zero, plus the second skip block. -/
theorem pay3_apply (v20 : Vec Ideal S1024x256 .f32) (v21 : Vec Ideal S256x256 .f32) (v26 : Vec Ideal S1x256 .f32) (v30 v35 : Vec Ideal S1024x256 .f32) (r : Fin 1024) (j : Fin 256) :
    k12_pay3 (F := Ideal) v20 v21 v26 v30 v35 (ix2 r j)
      = max (v30 (ix2 r j) + ((∑ d : Fin 256, v20 (ix2 r d) * v21 (ix2 j d)) + v26 (ix2 0 j))) 0 + v35 (ix2 r j) := by
  unfold k12_pay3
  simp only [shapeCast_self]
  refine congrArg₂ (· + ·) ?_ rfl
  refine congrArg₂ max ?_ ?_
  · refine congrArg (v30 (ix2 r j) + ·) ?_
    refine congrArg₂ (· + ·) ?_ ?_
    · exact Cert.Lib.MatmulT.matmul_trhs_zero_apply (M := 1024) (K := 256) (N := 256) none _ _ r j
    · exact broadcastTo_apply v26 _ (ix2 r j) (ix2 0 j) (fun a => by
        match a with
        | ⟨0, _⟩ => rfl
        | ⟨1, _⟩ => rfl)
  · exact Ideal.ofBits_zero_f32

/-! ## The blocks the body is entered with, entry by entry -/

/-- The block indices at point t = 12 m + k: the tile is block (m, k) of the adjacency matrix; the features', the weights'
    and the bias's one block is the whole array; the skip blocks and the output block are row block m; the contraction
    coordinate is k. -/
theorem index_w0 : ∀ t : Fin cfg12.N, win12_0.index t 0 = t.val / 12 ∧ win12_0.index t 1 = t.val % 12 :=
  (by decide +kernel : ∀ t : Fin grid12.N, win12_0.index t 0 = t.val / 12 ∧ win12_0.index t 1 = t.val % 12)
theorem index_w1 : ∀ t : Fin cfg12.N, win12_1.index t 0 = 0 ∧ win12_1.index t 1 = 0 :=
  (by decide +kernel : ∀ t : Fin grid12.N, win12_1.index t 0 = 0 ∧ win12_1.index t 1 = 0)
theorem index_w2 : ∀ t : Fin cfg12.N, win12_2.index t 0 = 0 ∧ win12_2.index t 1 = 0 :=
  (by decide +kernel : ∀ t : Fin grid12.N, win12_2.index t 0 = 0 ∧ win12_2.index t 1 = 0)
theorem index_w3 : ∀ t : Fin cfg12.N, win12_3.index t 0 = 0 ∧ win12_3.index t 1 = 0 :=
  (by decide +kernel : ∀ t : Fin grid12.N, win12_3.index t 0 = 0 ∧ win12_3.index t 1 = 0)
theorem index_w4 : ∀ t : Fin cfg12.N, win12_4.index t 0 = t.val / 12 ∧ win12_4.index t 1 = 0 :=
  (by decide +kernel : ∀ t : Fin grid12.N, win12_4.index t 0 = t.val / 12 ∧ win12_4.index t 1 = 0)
theorem index_w5 : ∀ t : Fin cfg12.N, win12_5.index t 0 = t.val / 12 ∧ win12_5.index t 1 = 0 :=
  (by decide +kernel : ∀ t : Fin grid12.N, win12_5.index t 0 = t.val / 12 ∧ win12_5.index t 1 = 0)
theorem index_w6 : ∀ t : Fin cfg12.N, win12_6.index t 0 = t.val / 12 ∧ win12_6.index t 1 = 0 :=
  (by decide +kernel : ∀ t : Fin grid12.N, win12_6.index t 0 = t.val / 12 ∧ win12_6.index t 1 = 0)
theorem coord1 : ∀ t : Fin cfg12.N, ((grid12.coords t) 1).val = t.val % 12 :=
  (by decide +kernel : ∀ t : Fin grid12.N, ((grid12.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg12.N) (r f : Fin 1024) (p g : Fin 12288)
    (hp : p.val = 1024 * (t.val / 12) + r.val) (hg : g.val = 1024 * (t.val % 12) + f.val) :
    (iblk W c 0 t : Vec F S1024x1024 .bf16) (ix2 r f) = (W c main_v1 : (⟨2, ![12288, 12288]⟩ : Shape).Idx → Elt F .bf16) (ix2 p g) := by
  have hi := index_w0 t
  unfold iblk
  rw [View.read_apply]
  show W c main_v1 _ = W c main_v1 _
  congr 1
  funext a
  apply Fin.ext
  match a with
  | ⟨0, _⟩ => show win12_0.index t 0 * 1024 + 1 * r.val = p.val; rw [hi.1, hp]; omega
  | ⟨1, _⟩ => show win12_0.index t 1 * 1024 + 1 * f.val = g.val; rw [hi.2, hg]; omega

/-- Window 1's block at any point is its whole array. -/
theorem feat_apply (c : Dev nD) (t : Fin cfg12.N) (g : Fin 12288) (e : Fin 256) :
    (iblk W c 1 t : Vec F S12288x256 .f32) (ix2 g e) = (W c main_v69 : S12288x256.Idx → Elt F .f32) (ix2 g e) := by
  have hi := index_w1 t
  unfold iblk
  rw [View.read_apply]
  show W c main_v69 _ = W c main_v69 _
  congr 1
  funext a
  apply Fin.ext
  match a with
  | ⟨0, _⟩ => show win12_1.index t 0 * 12288 + 1 * g.val = g.val; rw [hi.1]; omega
  | ⟨1, _⟩ => show win12_1.index t 1 * 256 + 1 * e.val = e.val; rw [hi.2]; omega

/-- Window 2's block at any point is its whole array. -/
theorem wt_apply (c : Dev nD) (t : Fin cfg12.N) (j : Fin 256) (d : Fin 256) :
    (iblk W c 2 t : Vec F S256x256 .f32) (ix2 j d) = (W c main_v71 : S256x256.Idx → Elt F .f32) (ix2 j d) := by
  have hi := index_w2 t
  unfold iblk
  rw [View.read_apply]
  show W c main_v71 _ = W c main_v71 _
  congr 1
  funext a
  apply Fin.ext
  match a with
  | ⟨0, _⟩ => show win12_2.index t 0 * 256 + 1 * j.val = j.val; rw [hi.1]; omega
  | ⟨1, _⟩ => show win12_2.index t 1 * 256 + 1 * d.val = d.val; rw [hi.2]; omega

/-- Window 3's block at any point is its whole array. -/
theorem bias_apply (c : Dev nD) (t : Fin cfg12.N) (z : Fin 1) (j : Fin 256) :
    (iblk W c 3 t : Vec F S1x256 .f32) (ix2 z j) = (W c main_v74 : S1x256.Idx → Elt F .f32) (ix2 z j) := by
  have hi := index_w3 t
  unfold iblk
  rw [View.read_apply]
  show W c main_v74 _ = W c main_v74 _
  congr 1
  funext a
  apply Fin.ext
  match a with
  | ⟨0, _⟩ => show win12_3.index t 0 * 1 + 1 * z.val = z.val; rw [hi.1]; omega
  | ⟨1, _⟩ => show win12_3.index t 1 * 256 + 1 * j.val = j.val; rw [hi.2]; omega

/-- The first skip block at point t, at (r, e): its array at (1024 m + r, e). -/
theorem res1_apply (c : Dev nD) (t : Fin cfg12.N) (r : Fin 1024) (e : Fin 256) (p : Fin 12288)
    (hp : p.val = 1024 * (t.val / 12) + r.val) :
    (iblk W c 4 t : Vec F S1024x256 .f32) (ix2 r e) = (W c main_v69 : S12288x256.Idx → Elt F .f32) (ix2 p e) := by
  have hi := index_w4 t
  unfold iblk
  rw [View.read_apply]
  show W c main_v69 _ = W c main_v69 _
  congr 1
  funext a
  apply Fin.ext
  match a with
  | ⟨0, _⟩ => show win12_4.index t 0 * 1024 + 1 * r.val = p.val; rw [hi.1, hp]; omega
  | ⟨1, _⟩ => show win12_4.index t 1 * 256 + 1 * e.val = e.val; rw [hi.2]; omega

/-- The second skip block at point t, at (r, e): its array at (1024 m + r, e). -/
theorem res2_apply (c : Dev nD) (t : Fin cfg12.N) (r : Fin 1024) (e : Fin 256) (p : Fin 12288)
    (hp : p.val = 1024 * (t.val / 12) + r.val) :
    (iblk W c 5 t : Vec F S1024x256 .f32) (ix2 r e) = (W c main_v63 : S12288x256.Idx → Elt F .f32) (ix2 p e) := by
  have hi := index_w5 t
  unfold iblk
  rw [View.read_apply]
  show W c main_v63 _ = W c main_v63 _
  congr 1
  funext a
  apply Fin.ext
  match a with
  | ⟨0, _⟩ => show win12_5.index t 0 * 1024 + 1 * r.val = p.val; rw [hi.1, hp]; omega
  | ⟨1, _⟩ => show win12_5.index t 1 * 256 + 1 * e.val = e.val; rw [hi.2]; omega
end

/-- The 1024 rows from the point's offset, at (f, e): the features at (1024 k + f, e). -/
theorem rowsAt_apply (i : grid12.Coords) (x1 : Vec F S12288x256 .f32) (f : Fin 1024) (e : Fin 256) (g : Fin 12288)
    (hg : g.val = 1024 * (i 1).val + f.val) : rowsAt i x1 (ix2 f e) = x1 (ix2 g e) := by
  have h0 : k12_off1 i 0 = 1024 * (i 1).val := by rw [k12_off1_eq i]; rfl
  have h1 : k12_off1 i 1 = 0 := by rw [k12_off1_eq i]; rfl
  show x1 _ = x1 _
  congr 1
  funext a
  apply Fin.ext
  match a with
  | ⟨0, _⟩ => show k12_off1 i 0 + 1 * f.val = g.val; rw [h0, hg]; omega
  | ⟨1, _⟩ => show k12_off1 i 1 + 1 * e.val = e.val; rw [h1]; omega

end Cert.KernelIdeal.R12

end
-- ==== Proof.R12Val.lean ====
/-
  Launch 12's value over the extended reals: the output array ends, at (p, j), at
      max (r₁ (p, j) + (Σ_d (Σ_f A (p, f) · X (f, d)) · Wm (j, d) + b (0, j))) 0 + r₂ (p, j)
  with A the adjacency matrix, X the features, Wm the weights, b the bias row, r₁ r₂ the two skip arrays; f runs over all
  12288 contraction indices.
    * After the point with row block m and contraction coordinate k the accumulator holds, at (r, e), the sum of the
      first k + 1 tiles' contributions to row 1024 m + r: by induction on the point, from what each case stores.
    * At k = 11 the 12 tiles' contributions are the whole contraction sum (a sum over 12288 indices is the sum over 12
      blocks of 1024), and the output block is the epilogue of it.
    * Row block m is written back at point 12 m + 11; these blocks cover the output array.
  Only 0 + x = x and regrouping of finite sums are used.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R12Blocks
import proofs.«155206_j89000312308227_2_alg».proof.Proof.LibBlockSums
import proofs.«155206_j89000312308227_2_alg».proof.Proof.Iface
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.PureOps.Ideal.Laws
import Idealize.ShloMosaic.Lib.ValueIdx

set_option maxRecDepth 16384

noncomputable section

namespace Cert.KernelIdeal.R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (W : Iface.Vl)

/-! ## The operand arrays, and the blocks at a point, as matrices of extended reals -/

abbrev AA (c : Dev nD) : Iface.Mat 12288 12288 := W c main_v1
abbrev XX (c : Dev nD) : Iface.Mat 12288 256 := W c main_v69
abbrev WW (c : Dev nD) : Iface.Mat 256 256 := W c main_v71
abbrev BB (c : Dev nD) : Iface.Mat 1 256 := W c main_v74
abbrev S1 (c : Dev nD) : Iface.Mat 12288 256 := W c main_v69
abbrev S2 (c : Dev nD) : Iface.Mat 12288 256 := W c main_v63
abbrev tileAt (c : Dev nD) (t : Fin cfg12.N) : Vec Ideal S1024x1024 .bf16 := iblk W c 0 t
abbrev featAt (c : Dev nD) (t : Fin cfg12.N) : Vec Ideal S12288x256 .f32 := iblk W c 1 t
abbrev wtAt (c : Dev nD) (t : Fin cfg12.N) : Vec Ideal S256x256 .f32 := iblk W c 2 t
abbrev biasAt (c : Dev nD) (t : Fin cfg12.N) : Vec Ideal S1x256 .f32 := iblk W c 3 t
abbrev res1At (c : Dev nD) (t : Fin cfg12.N) : Vec Ideal S1024x256 .f32 := iblk W c 4 t
abbrev res2At (c : Dev nD) (t : Fin cfg12.N) : Vec Ideal S1024x256 .f32 := iblk W c 5 t

/-- The n-th term of the contraction at (p, d): adjacency (p, n) times features (n, d); zero past the extent. -/
def term (c : Dev nD) (p : Fin 12288) (d : Fin 256) (n : ℕ) : EReal :=
  if h : n < 12288 then AA W c (ix2 p ⟨n, h⟩) * XX W c (ix2 ⟨n, h⟩ d) else 0

/-- The sum of the 1024 terms of contraction block j. -/
def blockSum (c : Dev nD) (p : Fin 12288) (d : Fin 256) (j : ℕ) : EReal := ∑ f : Fin 1024, term W c p d (j * 1024 + f.val)

/-- The tile's product at point t = 12 m + k, at (r, e): the sum of contraction block k at (1024 m + r, e). -/
theorem prod_at (c : Dev nD) (t : Fin cfg12.N) (r : Fin 1024) (e : Fin 256) (p : Fin 12288) (hp : p.val = 1024 * (t.val / 12) + r.val) :
    (∑ f : Fin 1024, tileAt W c t (ix2 r f) * rowsAt (grid12.coords t) (featAt W c t) (ix2 f e))
      = blockSum W c p e (t.val % 12) := by
  refine Finset.sum_congr rfl fun f _ => ?_
  have hlt : (t.val % 12) * 1024 + f.val < 12288 := by
    have := f.isLt; have : t.val % 12 < 12 := Nat.mod_lt _ (by omega); omega
  unfold term
  rw [dif_pos hlt]
  exact congrArg₂ (· * ·)
    (tile_apply W c t r f p ⟨_, hlt⟩ hp (by show (t.val % 12) * 1024 + f.val = 1024 * (t.val % 12) + f.val; omega))
    ((rowsAt_apply (grid12.coords t) _ f e ⟨_, hlt⟩ (by rw [coord1 t]; show (t.val % 12) * 1024 + f.val = 1024 * (t.val % 12) + f.val; omega)).trans
      (feat_apply W c t ⟨_, hlt⟩ e))

set_option maxHeartbeats 4000000 in
/-- At a point that opens a row block the accumulator holds the first block's sum. -/
theorem acc_first (c : Dev nD) (t : Fin cfg12.N) (h0 : t.val % 12 = 0) (r : Fin 1024) (e : Fin 256) (p : Fin 12288)
    (hp : p.val = 1024 * (t.val / 12) + r.val) :
    (outsAt W c t.val t.isLt).2 (ix2 r e) = ∑ j ∈ Finset.range (t.val % 12 + 1), blockSum W c p e j := by
  refine (congrFun (congrArg Prod.snd (outsAt_first W c t h0)) (ix2 r e)).trans ?_
  refine (congrFun (accFirst_eq (F := Ideal) c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
    ((isFirst_iff t).mpr h0) (fun h => by have := (isLast_iff t).mp h; omega) (iblk W c 0 t) (iblk W c 1 t) (iblk W c 2 t) (iblk W c 3 t) (iblk W c 4 t) (iblk W c 5 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg12.N) (h0 : ¬t.val % 12 = 0) (r : Fin 1024) (e : Fin 256) (p : Fin 12288)
    (hp : p.val = 1024 * (t.val / 12) + r.val) (h' : t.val - 1 < cfg12.N)
    (ih : (outsAt W c (t.val - 1) h').2 (ix2 r e) = ∑ j ∈ Finset.range (t.val % 12), blockSum W c p e j) :
    (outsAt W c t.val t.isLt).2 (ix2 r e) = ∑ j ∈ Finset.range (t.val % 12 + 1), blockSum W c p e j := by
  rw [Finset.sum_range_succ, ← prod_at W c t r e p hp, ← ih]
  by_cases h5 : t.val % 12 = 11
  · refine (congrFun (congrArg Prod.snd (outsAt_last W c t h0 h5)) (ix2 r e)).trans ?_
    refine (congrFun (accLast_eq (F := Ideal) c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) (fun h => h5 ((isLast_iff t).mp h)) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r e)).trans ?_
    exact pay2_apply _ _ _ r e

/-- After the point at position n = 12 m + k the accumulator at (r, e) is the sum of contraction blocks 0 … k at
    (1024 m + r, e). -/
theorem acc_inv (c : Dev nD) : ∀ (n : ℕ) (hn : n < cfg12.N) (r : Fin 1024) (e : Fin 256) (p : Fin 12288),
    p.val = 1024 * (n / 12) + r.val → (outsAt W c n hn).2 (ix2 r e) = ∑ j ∈ Finset.range (n % 12 + 1), blockSum W c p e j
  | 0, hn, r, e, p, hp => acc_first W c ⟨0, hn⟩ rfl r e p hp
  | n + 1, hn, r, e, p, hp => by
    by_cases h0 : (n + 1) % 12 = 0
    · exact acc_first W c ⟨n + 1, hn⟩ h0 r e p hp
    · have ih := acc_inv c n (Nat.lt_of_succ_lt hn) r e p (by
        have : n / 12 = (n + 1) / 12 := by omega
        rw [this]; exact hp)
      have hm : n % 12 + 1 = (n + 1) % 12 := by omega
      rw [hm] at ih
      exact acc_step W c ⟨n + 1, hn⟩ h0 r e p hp (Nat.lt_of_succ_lt hn) ih

/-- The 12 block sums are the whole contraction. -/
theorem sum_all (c : Dev nD) (p : Fin 12288) (d : Fin 256) :
    ∑ j ∈ Finset.range 12, blockSum W c p d j
      = ∑ f : Fin 12288, AA W c (ix2 p f) * XX W c (ix2 f d) := by
  rw [BlockSums.sum_blocks 12 1024 12288 rfl (fun n : Fin 12288 => AA W c (ix2 p n) * XX W c (ix2 n d))]
  rw [← Fin.sum_univ_eq_sum_range (fun j => blockSum W c p d j) 12]
  refine Finset.sum_congr rfl fun j _ => Finset.sum_congr rfl fun f _ => ?_
  unfold term
  rw [dif_pos (BlockSums.block_row_lt j f)]

/-- Entry (p, j) of the output: the epilogue of the whole contraction sums of row p. -/
def resultAt (c : Dev nD) (p : Fin 12288) (j : Fin 256) : EReal :=
  max (S1 W c (ix2 p j) + ((∑ d : Fin 256, (∑ f : Fin 12288, AA W c (ix2 p f) * XX W c (ix2 f d)) * WW W c (ix2 j d)) + BB W c (ix2 0 j))) 0
    + S2 W c (ix2 p j)

set_option maxHeartbeats 4000000 in
/-- At a point that closes a row block the output block at (r, j) is the result at (1024 m + r, j). -/
theorem out_last (c : Dev nD) (t : Fin cfg12.N) (h5 : t.val % 12 = 11) (r : Fin 1024) (j : Fin 256) (p : Fin 12288)
    (hp : p.val = 1024 * (t.val / 12) + r.val) :
    (outsAt W c t.val t.isLt).1 (ix2 r j) = resultAt W c p j := by
  have h0 : ¬t.val % 12 = 0 := by omega
  have e1 := congrFun (congrArg Prod.fst (outsAt_last W c t h0 h5)) (ix2 r j)
  have hacc : ∀ d : Fin 256, k12_pay2 (F := Ideal) (outsAt W c (t.val - 1) (Nat.lt_of_le_of_lt (Nat.sub_le _ _) t.isLt)).2 (iblk W c 0 t) (rowsAt (grid12.coords t) (iblk W c 1 t)) (ix2 r d)
      = ∑ f : Fin 12288, AA W c (ix2 p f) * XX W c (ix2 f d) := fun d => by
    have e2 := congrFun (congrArg Prod.snd (outsAt_last W c t h0 h5)) (ix2 r d)
    have a := acc_inv W c t.val t.isLt r d p hp
    rw [h5, sum_all] at a
    rw [← a]
    exact ((congrFun (accLast_eq (F := Ideal) c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r d)).symm.trans e2.symm)
  refine e1.trans ?_
  refine (congrFun (outLast_eq (F := Ideal) c (grid12.coords t) (ms0 t) (hs0 t) (ms1 t) (hs1 t) (ms2 t) (hs2 t) (ms3 t) (hs3 t) (ms4 t) (hs4 t) (ms5 t) (hs5 t) (ms6 t) (hs6 t) accM (Memref.isWhole_whole _)
      (fun h => h0 ((isFirst_iff t).mp h)) ((isLast_iff t).mpr h5) (iblk W c 0 t) (iblk W c 1 t) (iblk W c 2 t) (iblk W c 3 t) (iblk W c 4 t) (iblk W c 5 t)
      (outsAt W c (t.val - 1) (Nat.lt_of_le_of_lt (Nat.sub_le _ _) t.isLt)).2) (ix2 r j)).trans ?_
  refine (pay3_apply _ _ _ _ _ r j).trans ?_
  unfold resultAt
  refine congrArg₂ (· + ·) (congrArg₂ max (congrArg₂ (· + ·) (res1_apply W c t r j p hp)
    (congrArg₂ (· + ·) (Finset.sum_congr rfl fun d _ => congrArg₂ (· * ·) (hacc d) (wt_apply W c t j d)) (bias_apply W c t 0 j))) rfl) (res2_apply W c t r j p hp)

/-! ## What the launch leaves in its output array -/

/-- The array the launch leaves. -/
def result (c : Dev nD) : Buf (Elt Ideal) ((c : Thread nD τ).loc main_v75) :=
  fun i : S12288x256.Idx => resultAt W c (i 0) (i 1)

set_option maxHeartbeats 4000000 in
/-- The block written back at a point that closes a row block is that row block of the result. -/
theorem flushed_eq (c : Dev nD) (t : Fin cfg12.N) (hf : (cfg12.win 6).flush t = true) :
    (dat W c).flushed 6 t = ((cfg12.win 6).blk t).view.read (Elt Ideal) (result W c) := by
  have h5 : t.val % 12 = 11 := (flush12_6 t).mp hf
  show (cfg12.win 6).cut (grid12.coords t) ((dat W c).after 6 t) = _
  rw [after6]
  refine funext fun (y : S1024x256.Idx) => ?_
  obtain ⟨r, e, rfl⟩ : ∃ (r : Fin 1024) (e : Fin 256), y = ix2 r e := ⟨y 0, y 1, eq_ix2 y⟩
  have hx : (cfg12.win 6).xinj (grid12.coords t) (ix2 r e) = (ix2 r e : S1024x256.Idx) :=
    funext fun a => Fin.ext (by match a with | ⟨0, _⟩ => rfl | ⟨1, _⟩ => rfl)
  show (outsAt W c t.val t.isLt).1 ((cfg12.win 6).xinj (grid12.coords t) (ix2 r e)) = _
  rw [hx, View.read_apply]
  show _ = result W c (((cfg12.win 6).blk t).view.emb (ix2 r e))
  have hp : ((((cfg12.win 6).blk t).view.emb (ix2 r e) : S12288x256.Idx) 0).val = 1024 * (t.val / 12) + r.val := by
    show win12_6.index t 0 * 1024 + 1 * r.val = _
    rw [(index_w6 t).1]; omega
  have he : (((cfg12.win 6).blk t).view.emb (ix2 r e) : S12288x256.Idx) 1 = e := Fin.ext (by
    show win12_6.index t 1 * 256 + 1 * e.val = e.val
    rw [(index_w6 t).2]; omega)
  refine (out_last W c t h5 r e _ hp).trans ?_
  unfold result
  rw [he]

/-- The row blocks written back cover the array (row p is in the block written at point 12 (p / 1024) + 11), so the
    array ends at the result. -/
theorem final (c : Dev nD) : (dat W c).arrAt 6 cfg12.N = result W c :=
  (dat W c).arrAt_eq_of_cover 6 (result W c) (flushed_eq W c) fun i => by
    have hN : cfg12.N = 144 := N_12
    have h0 : ((i : S12288x256.Idx) 0 : Nat) < 12288 := ((i : S12288x256.Idx) 0).isLt
    have h1 : ((i : S12288x256.Idx) 1 : Nat) < 256 := ((i : S12288x256.Idx) 1).isLt
    have ht : 12 * (((i : S12288x256.Idx) 0 : Nat) / 1024) + 11 < cfg12.N := by rw [hN]; omega
    refine ⟨⟨_, ht⟩, (flush12_6 _).mpr (by show (12 * (((i : S12288x256.Idx) 0 : Nat) / 1024) + 11) % 12 = 11; omega), ?_⟩
    show i ∈ ((View.whole main_v75).slice (win12_6.rect ⟨_, ht⟩)).set
    rw [View.set_slice_whole, Rect.mem_set_unit]
    have hi := index_w6 ⟨_, ht⟩
    intro a
    match a with
    | ⟨0, _⟩ =>
      show win12_6.index ⟨_, ht⟩ 0 * 1024 ≤ ((i : S12288x256.Idx) 0 : Nat) ∧ ((i : S12288x256.Idx) 0 : Nat) < win12_6.index ⟨_, ht⟩ 0 * 1024 + 1024
      rw [hi.1]
      show (12 * (((i : S12288x256.Idx) 0 : Nat) / 1024) + 11) / 12 * 1024 ≤ _ ∧ _ < (12 * (((i : S12288x256.Idx) 0 : Nat) / 1024) + 11) / 12 * 1024 + 1024
      omega
    | ⟨1, _⟩ =>
      show win12_6.index ⟨_, ht⟩ 1 * 256 ≤ ((i : S12288x256.Idx) 1 : Nat) ∧ ((i : S12288x256.Idx) 1 : Nat) < win12_6.index ⟨_, ht⟩ 1 * 256 + 256
      rw [hi.2]; omega

/-- Launch 12 leaves, at (p, j), the epilogue of the whole contraction sums of row p. -/
theorem leaves_ok : Iface.Is12 (fun W c => (dat (F := Ideal) W c).arrAt 6 cfg12.N) := by
  intro W c p j
  show ((dat (F := Ideal) W c).arrAt 6 cfg12.N) (ix2 p j) = _
  rw [final W c]
  rfl

end Cert.KernelIdeal.R12

end
-- ==== Proof.R13Pieces.lean ====
/-
  The last launch's four stored blocks as terms of the blocks the body is entered with, for every float instance:
  at the first contraction coordinate the accumulator ends at the kernel's second payload of the zero block, the tile
  and the 1024 feature rows at the point's offset; at a later coordinate at that payload of what the accumulator held;
  at the last coordinate the output block is the accumulator's new contents themselves.
  Each is read off the stores the case made: the last store over a whole block is what the block holds.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R13Data
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.Lib.ValueIdx

set_option maxRecDepth 16384

noncomputable section

namespace Cert.KernelIdeal.R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

theorem hz : (![0, 0] : Fin 2 → Nat) = fun _ => 0 := funext fun a => by fin_cases a <;> rfl

/-! ## What each case stores, as a term of the point's blocks -/

section
variable (c : Dev nD) (i : grid13.Coords) (arg2 : Memref sig .tc .vmem S1024x1024 .bf16) (harg2 : arg2.IsWhole) (arg3 : Memref sig .tc .vmem S12288x256 .f32) (harg3 : arg3.IsWhole) (arg4 : Memref sig .tc .vmem S1024x256 .f32) (harg4 : arg4.IsWhole) (arg5 : Memref sig .tc .vmem S1024x256 .f32) (harg5 : arg5.IsWhole)

/-- The rows of the features the point contracts against: 1024 rows from the point's offset. -/
abbrev rowsAt (x1 : Vec F S12288x256 .f32) : Vec F S1024x256 .f32 :=
  View.ld x1 (Rect.unit (s := S12288x256) (k13_off1 i) S1024x256.size (k13_off1_inb i))

/-- k = 0: the accumulator ends at zero plus the tile's product. -/
theorem accFirst_eq (hc0 : isFirst i) (hc1 : ¬isLast i) (x0 : Vec F S1024x1024 .bf16) (x1 : Vec F S12288x256 .f32) :
    accFirst c i arg2 harg2 arg3 harg3 arg4 harg4 arg5 harg5 hc0 hc1 x0 x1 = k13_pay2 (k13_pay1 (F := F)) x0 (rowsAt i x1) := by
  unfold accFirst
  rw [View.read_writes_eq_canon _ _ _ (cover_accFirst c i arg2 harg2 arg3 harg3 arg4 harg4 arg5 harg5 hc0 hc1 x0 x1)]
  unfold runFirst
  dsimp only
  try sl_unfold_words
  rw [View.canon_cons_unit_zero hz]
  simp only [View.readAt_eq_ld, harg2.read_unread, harg3.read_unread, View.ld_unit_zero (S := S1024x1024) hz, View.readCov_unit_zero (S := S1024x256) _ hz]
  rfl

/-- 0 < k < 11: the accumulator ends at what it held plus the tile's product. -/
theorem accMiddle_eq (hc0 : ¬isFirst i) (hc1 : ¬isLast i) (x0 : Vec F S1024x1024 .bf16) (x1 : Vec F S12288x256 .f32) (xs0 : Vec F S1024x256 .f32) :
    accMiddle c i arg2 harg2 arg3 harg3 arg4 harg4 arg5 harg5 hc0 hc1 x0 x1 xs0 = k13_pay2 xs0 x0 (rowsAt i x1) := by
  unfold accMiddle
  rw [View.read_writes_eq_canon _ _ _ (cover_accMiddle c i arg2 harg2 arg3 harg3 arg4 harg4 arg5 harg5 hc0 hc1 x0 x1 xs0)]
  unfold runMiddle
  dsimp only
  try sl_unfold_words
  rw [View.canon_unit_zero hz]
  simp only [View.readAt_eq_ld, harg2.read_unread, harg3.read_unread, harg5.read_unread, View.ld_unit_zero (S := S1024x1024) hz, View.ld_unit_zero (S := S1024x256) hz]
  rfl

/-- k = 11: the accumulator likewise, -/
theorem accLast_eq (hc0 : ¬isFirst i) (hc1 : isLast i) (x0 : Vec F S1024x1024 .bf16) (x1 : Vec F S12288x256 .f32) (xs0 : Vec F S1024x256 .f32) :
    accLast c i arg2 harg2 arg3 harg3 arg4 harg4 arg5 harg5 hc0 hc1 x0 x1 xs0 = k13_pay2 xs0 x0 (rowsAt i x1) := by
  unfold accLast
  rw [View.read_writes_eq_canon _ _ _ (cover_accLast c i arg2 harg2 arg3 harg3 arg4 harg4 arg5 harg5 hc0 hc1 x0 x1 xs0)]
  unfold runLast
  dsimp only
  try sl_unfold_words
  rw [View.canon_unit_zero hz]
  simp only [View.readAt_eq_ld, harg2.read_unread, harg3.read_unread, harg5.read_unread, View.ld_unit_zero (S := S1024x1024) hz, View.ld_unit_zero (S := S1024x256) hz]
  rfl

/-- and the output block is stored from the accumulator's new contents. -/
theorem outLast_eq (hc0 : ¬isFirst i) (hc1 : isLast i) (x0 : Vec F S1024x1024 .bf16) (x1 : Vec F S12288x256 .f32) (xs0 : Vec F S1024x256 .f32) :
    outLast c i arg2 harg2 arg3 harg3 arg4 harg4 arg5 harg5 hc0 hc1 x0 x1 xs0 = k13_pay2 xs0 x0 (rowsAt i x1) := by
  unfold outLast
  rw [View.read_writes_eq_canon _ _ _ (cover_outLast c i arg2 harg2 arg3 harg3 arg4 harg4 arg5 harg5 hc0 hc1 x0 x1 xs0)]
  unfold runLast
  dsimp only
  try sl_unfold_words
  rw [View.canon_unit_zero hz, View.readCov_unit_zero (S := S1024x256) _ hz]
  simp only [View.readAt_eq_ld, harg2.read_unread, harg3.read_unread, harg5.read_unread, View.ld_unit_zero (S := S1024x1024) hz, View.ld_unit_zero (S := S1024x256) hz]
  rfl
end

end Cert.KernelIdeal.R13

end
-- ==== Proof.R13Val.lean ====
/-
  The value of the last launch over the extended reals. Every float operation is exact there and a change of float
  format is the identity, so: the tile's product at (r, e) is the sum over the tile's 1024 contraction indices f of
  tile (r, f) times feature rows (f, e); the accumulator after the point with contraction coordinate k of row block m
  holds, at (r, e), the sum of contraction blocks 0 … k of the adjacency row 1024 m + r against feature column e
  (induction along the row block; adding to zero and regrouping finite sums hold for all extended reals, so nothing is
  assumed finite); the twelve block sums are the whole contraction; the block written back at the last coordinate is
  the accumulator; and the six row blocks cover the output.
-/
import proofs.«155206_j89000312308227_2_alg».proof.Proof.Gen.KernelIdeal
import proofs.«155206_j89000312308227_2_alg».proof.Proof.Gen.KernelIdeal.Skeleton
import proofs.«155206_j89000312308227_2_alg».proof.Proof.Gen.KernelIdeal.Launch
import proofs.«155206_j89000312308227_2_alg».proof.Proof.Gen.KernelIdeal.Points
import proofs.«155206_j89000312308227_2_alg».proof.Proof.R13Pieces
import proofs.«155206_j89000312308227_2_alg».proof.Proof.Iface
import proofs.«155206_j89000312308227_2_alg».proof.Proof.LibBlockSums
import Idealize.ShloMosaic.PureOps.Ideal.Laws
import Idealize.ShloMosaic.Lib.Pipeline.Frame
import Idealize.ShloMosaic.Lib.Pipeline.Value
import Idealize.ShloMosaic.Lib.Ring
import Idealize.ShloMosaic.Lib.Tactic
import Idealize.ShloMosaic.Lib.Pipeline.FrameBody
import Idealize.ShloMosaic.Lib.Exec
import Idealize.ShloMosaic.PureOps.Ideal
import Idealize.ShloMosaic.Lib.ValueIdx

set_option maxRecDepth 16384

noncomputable section

namespace Cert.KernelIdeal.R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## The product record of this launch: the left operand contracted on its second axis -/

/-- The dimension numbers of the tile's product: a plain matrix product. -/
abbrev D13 : DotDims S1024x1024 S1024x256 S1024x256 := dot_S1024x1024_S1024x256_S1024x256_1_0_0_1_n_n

theorem d13_lhs0 (j : S1024x256.Idx) (q : D13.contr.Idx) : (D13.lhsIdx j q 0).val = (j 0).val := by
  unfold DotDims.lhsIdx
  rw [dif_neg (show ¬(0 : Fin 2) ∈ D13.lhsBatch from List.not_mem_nil),
    dif_pos (show (0 : Fin 2) ∈ D13.lhsNonContracting from List.mem_singleton.mpr rfl)]
  rfl

theorem d13_lhs1 (j : S1024x256.Idx) (q : D13.contr.Idx) : (D13.lhsIdx j q 1).val = (q ⟨0, Nat.one_pos⟩).val :=
  D13.lhsIdx_val_of_single rfl j q

theorem d13_rhs0 (j : S1024x256.Idx) (q : D13.contr.Idx) : (D13.rhsIdx j q 0).val = (q ⟨0, Nat.one_pos⟩).val :=
  D13.rhsIdx_val_of_single rfl j q

theorem d13_rhs1 (j : S1024x256.Idx) (q : D13.contr.Idx) : (D13.rhsIdx j q 1).val = (j 1).val := by
  unfold DotDims.rhsIdx
  rw [dif_neg (show ¬(1 : Fin 2) ∈ D13.rhsBatch from List.not_mem_nil),
    dif_pos (show (1 : Fin 2) ∈ D13.rhsNonContracting from List.mem_singleton.mpr rfl)]
  rfl

/-- The sum over the product's contraction index, re-indexed by the contracted coordinate: at (r, e) the left operand
    is read at (r, f), the right one at (f, e). -/
theorem d13_sum {φ₁ φ₂ : FTy} (L : FVec Ideal S1024x1024 φ₁) (R : FVec Ideal S1024x256 φ₂) (r : Fin 1024) (e : Fin 256) :
    (∑ k : D13.contr.Idx, L (D13.lhsIdx (ix2 r e) k) * R (D13.rhsIdx (ix2 r e) k))
      = ∑ f : Fin 1024, L (ix2 r f) * R (ix2 f e) := by
  rw [← Equiv.sum_comp (contrEquiv1 D13 1024 rfl rfl).symm]
  refine Finset.sum_congr rfl fun f _ => ?_
  have hk := contrEquiv1_symm_val D13 1024 rfl rfl f
  have el : D13.lhsIdx (ix2 r e) ((contrEquiv1 D13 1024 rfl rfl).symm f) = ix2 r f :=
    funext fun a => Fin.ext (by
      match a with
      | ⟨0, _⟩ => exact d13_lhs0 _ _
      | ⟨1, _⟩ => exact (d13_lhs1 _ _).trans hk)
  have er : D13.rhsIdx (ix2 r e) ((contrEquiv1 D13 1024 rfl rfl).symm f) = ix2 f e :=
    funext fun a => Fin.ext (by
      match a with
      | ⟨0, _⟩ => exact (d13_rhs0 _ _).trans hk
      | ⟨1, _⟩ => exact d13_rhs1 _ _)
  rw [el, er]

/-! ## The payloads at an entry, over the extended reals -/

/-- The zero block. -/
theorem pay1_apply (j : S1024x256.Idx) : k13_pay1 (F := Ideal) j = 0 := by
  unfold k13_pay1
  simp only [shapeCast_self]
  show Ideal.ofBits .f32 0x00000000#32 = 0
  exact Ideal.ofBits_zero_f32

/-- The accumulator's store: what it held plus the sum over the tile's 1024 contraction indices. -/
theorem pay2_apply (v3 : Vec Ideal S1024x256 .f32) (v4 : Vec Ideal S1024x1024 .bf16) (v9 : Vec Ideal S1024x256 .f32) (r : Fin 1024) (e : Fin 256) :
    k13_pay2 (F := Ideal) v3 v4 v9 (ix2 r e) = v3 (ix2 r e) + ∑ f : Fin 1024, v4 (ix2 r f) * v9 (ix2 f e) := by
  unfold k13_pay2
  simp only [shapeCast_self]
  refine congrArg (v3 (ix2 r e) + ·) ?_
  exact (Ideal.matmul_constant_zero_apply D13 none v4 _ (ix2 r e)).trans (d13_sum v4 _ r e)

/-! ## The blocks the body is entered with, entry by entry -/

/-- The block indices at point t = 12 m + k: the tile is block (m, k) of the adjacency matrix, the features' one block
    is the whole array, the output block is row block m; the contraction coordinate is k. -/
theorem index_tile : ∀ t : Fin cfg13.N, win13_0.index t 0 = t.val / 12 ∧ win13_0.index t 1 = t.val % 12 :=
  (by decide +kernel : ∀ t : Fin grid13.N, win13_0.index t 0 = t.val / 12 ∧ win13_0.index t 1 = t.val % 12)
theorem index_feat : ∀ t : Fin cfg13.N, win13_1.index t 0 = 0 ∧ win13_1.index t 1 = 0 :=
  (by decide +kernel : ∀ t : Fin grid13.N, win13_1.index t 0 = 0 ∧ win13_1.index t 1 = 0)
theorem index_out : ∀ t : Fin cfg13.N, win13_2.index t 0 = t.val / 12 ∧ win13_2.index t 1 = 0 :=
  (by decide +kernel : ∀ t : Fin grid13.N, win13_2.index t 0 = t.val / 12 ∧ win13_2.index t 1 = 0)
theorem coord1 : ∀ t : Fin cfg13.N, ((grid13.coords t) 1).val = t.val % 12 :=
  (by decide +kernel : ∀ t : Fin grid13.N, ((grid13.coords t) 1).val = t.val % 12)

section
variable (W : (c : Dev nD) → (b : Ref sig .tc) → Buf (Elt F) ((c : Thread nD τ).loc b))

/-- The tile at point t, at (r, f): the adjacency matrix at (1024 m + r, 1024 k + f). -/
theorem tile_apply (c : Dev nD) (t : Fin cfg13.N) (r f : Fin 1024) (p : Fin 6144) (g : Fin 12288)
    (hp : p.val = 1024 * (t.val / 12) + r.val) (hg : g.val = 1024 * (t.val % 12) + f.val) :
    (iblk W c 0 t : Vec F S1024x1024 .bf16) (ix2 r f) = (W c main_v2 : (⟨2, ![6144, 12288]⟩ : Shape).Idx → Elt F .bf16) (ix2 p g) := by
  have hi := index_tile t
  unfold iblk
  rw [View.read_apply]
  show W c main_v2 _ = W c main_v2 _
  congr 1
  funext a
  apply Fin.ext
  match a with
  | ⟨0, _⟩ => show win13_0.index t 0 * 1024 + 1 * r.val = p.val; rw [hi.1, hp]; omega
  | ⟨1, _⟩ => show win13_0.index t 1 * 1024 + 1 * f.val = g.val; rw [hi.2, hg]; omega

/-- The features' block at any point is the feature matrix. -/
theorem feat_apply (c : Dev nD) (t : Fin cfg13.N) (g : Fin 12288) (e : Fin 256) :
    (iblk W c 1 t : Vec F S12288x256 .f32) (ix2 g e) = (W c main_v89 : S12288x256.Idx → Elt F .f32) (ix2 g e) := by
  have hi := index_feat t
  unfold iblk
  rw [View.read_apply]
  show W c main_v89 _ = W c main_v89 _
  congr 1
  funext a
  apply Fin.ext
  match a with
  | ⟨0, _⟩ => show win13_1.index t 0 * 12288 + 1 * g.val = g.val; rw [hi.1]; omega
  | ⟨1, _⟩ => show win13_1.index t 1 * 256 + 1 * e.val = e.val; rw [hi.2]; omega
end

/-- The 1024 rows from the point's offset, at (f, e): the features at (1024 k + f, e). -/
theorem rowsAt_apply (i : grid13.Coords) (x1 : Vec F S12288x256 .f32) (f : Fin 1024) (e : Fin 256) (g : Fin 12288)
    (hg : g.val = 1024 * (i 1).val + f.val) : rowsAt i x1 (ix2 f e) = x1 (ix2 g e) := by
  have h0 : k13_off1 i 0 = 1024 * (i 1).val := by rw [k13_off1_eq i]; rfl
  have h1 : k13_off1 i 1 = 0 := by rw [k13_off1_eq i]; rfl
  show x1 _ = x1 _
  congr 1
  funext a
  apply Fin.ext
  match a with
  | ⟨0, _⟩ => show k13_off1 i 0 + 1 * f.val = g.val; rw [h0, hg]; omega
  | ⟨1, _⟩ => show k13_off1 i 1 + 1 * e.val = e.val; rw [h1]; omega

/-! ## The accumulation, entry by entry -/

section
variable (W : Iface.Vl)

/-- The adjacency matrix and the feature matrix as the launch finds them, and the two input blocks at a point, as
    matrices of extended reals. -/
abbrev adj (c : Dev nD) : Iface.Mat 6144 12288 := W c main_v2
abbrev feat (c : Dev nD) : Iface.Mat 12288 256 := W c main_v89
abbrev tileAt (c : Dev nD) (t : Fin cfg13.N) : Vec Ideal S1024x1024 .bf16 := iblk W c 0 t
abbrev featAt (c : Dev nD) (t : Fin cfg13.N) : Vec Ideal S12288x256 .f32 := iblk W c 1 t

/-- The n-th term of the contraction at (p, e): adjacency (p, n) times features (n, e); zero past the extent. -/
def term (c : Dev nD) (p : Fin 6144) (e : Fin 256) (n : ℕ) : EReal :=
  if h : n < 12288 then adj W c (ix2 p ⟨n, h⟩) * feat W c (ix2 ⟨n, h⟩ e) else 0

/-- The sum of the 1024 terms of contraction block j. -/
def blockSum (c : Dev nD) (p : Fin 6144) (e : Fin 256) (j : ℕ) : EReal := ∑ f : Fin 1024, term W c p e (j * 1024 + f.val)

/-- The tile's product at point t = 12 m + k, at (r, e): the sum of contraction block k at (1024 m + r, e). -/
theorem prod_at (c : Dev nD) (t : Fin cfg13.N) (r : Fin 1024) (e : Fin 256) (p : Fin 6144) (hp : p.val = 1024 * (t.val / 12) + r.val) :
    (∑ f : Fin 1024, tileAt W c t (ix2 r f) * rowsAt (grid13.coords t) (featAt W c t) (ix2 f e))
      = blockSum W c p e (t.val % 12) := by
  refine Finset.sum_congr rfl fun f _ => ?_
  have hlt : (t.val % 12) * 1024 + f.val < 12288 := by
    have := f.isLt; have : t.val % 12 < 12 := Nat.mod_lt _ (by omega); omega
  unfold term
  rw [dif_pos hlt]
  exact congrArg₂ (· * ·)
    (tile_apply W c t r f p ⟨_, hlt⟩ hp (by show (t.val % 12) * 1024 + f.val = 1024 * (t.val % 12) + f.val; omega))
    ((rowsAt_apply (grid13.coords t) _ f e ⟨_, hlt⟩ (by rw [coord1 t]; show (t.val % 12) * 1024 + f.val = 1024 * (t.val % 12) + f.val; omega)).trans
      (feat_apply W c t ⟨_, hlt⟩ e))

set_option maxHeartbeats 4000000 in
/-- At a point that opens a row block the accumulator holds the first block's sum. -/
theorem acc_first (c : Dev nD) (t : Fin cfg13.N) (h0 : t.val % 12 = 0) (r : Fin 1024) (e : Fin 256) (p : Fin 6144)
    (hp : p.val = 1024 * (t.val / 12) + r.val) :
    (outsAt W c t.val t.isLt).2 (ix2 r e) = ∑ j ∈ Finset.range (t.val % 12 + 1), blockSum W c p e j := by
  refine (congrFun (congrArg Prod.snd (outsAt_first W c t h0)) (ix2 r e)).trans ?_
  refine (congrFun (accFirst_eq (F := Ideal) c (grid13.coords t) (ms0 t) (hs0 t) (ms1 t) (hs1 t) (ms2 t) (hs2 t) accM (Memref.isWhole_whole _)
    ((isFirst_iff t).mpr h0) (fun h => by have := (isLast_iff t).mp h; omega) (iblk W c 0 t) (iblk W c 1 t)) (ix2 r e)).trans ?_
  refine (pay2_apply _ _ _ r e).trans ?_
  rw [pay1_apply, zero_add, h0, Finset.sum_range_one]
  exact (prod_at W c t r e p hp).trans (by rw [h0])

set_option maxHeartbeats 4000000 in
/-- At a later point of a row block the accumulator holds what it held plus this block's sum. -/
theorem acc_step (c : Dev nD) (t : Fin cfg13.N) (h0 : ¬t.val % 12 = 0) (r : Fin 1024) (e : Fin 256) (p : Fin 6144)
    (hp : p.val = 1024 * (t.val / 12) + r.val) (h' : t.val - 1 < cfg13.N)
    (ih : (outsAt W c (t.val - 1) h').2 (ix2 r e) = ∑ j ∈ Finset.range (t.val % 12), blockSum W c p e j) :
    (outsAt W c t.val t.isLt).2 (ix2 r e) = ∑ j ∈ Finset.range (t.val % 12 + 1), blockSum W c p e j := by
  rw [Finset.sum_range_succ, ← prod_at W c t r e p hp, ← ih]
  by_cases h5 : t.val % 12 = 11
  · refine (congrFun (congrArg Prod.snd (outsAt_last W c t h0 h5)) (ix2 r e)).trans ?_
    refine (congrFun (accLast_eq (F := Ideal) c (grid13.coords t) (ms0 t) (hs0 t) (ms1 t) (hs1 t) (ms2 t) (hs2 t) accM (Memref.isWhole_whole _)
      (fun h => h0 ((isFirst_iff t).mp h)) ((isLast_iff t).mpr h5) (iblk W c 0 t) (iblk W c 1 t)
      (outsAt W c (t.val - 1) (Nat.lt_of_le_of_lt (Nat.sub_le _ _) t.isLt)).2) (ix2 r e)).trans ?_
    exact pay2_apply _ _ _ r e
  · refine (congrFun (congrArg Prod.snd (outsAt_middle W c t h0 h5)) (ix2 r e)).trans ?_
    refine (congrFun (accMiddle_eq (F := Ideal) c (grid13.coords t) (ms0 t) (hs0 t) (ms1 t) (hs1 t) (ms2 t) (hs2 t) accM (Memref.isWhole_whole _)
      (fun h => h0 ((isFirst_iff t).mp h)) (fun h => h5 ((isLast_iff t).mp h)) (iblk W c 0 t) (iblk W c 1 t)
      (outsAt W c (t.val - 1) (Nat.lt_of_le_of_lt (Nat.sub_le _ _) t.isLt)).2) (ix2 r e)).trans ?_
    exact pay2_apply _ _ _ r e

/-- After the point at position n = 12 m + k the accumulator at (r, e) is the sum of contraction blocks 0 … k at
    (1024 m + r, e). -/
theorem acc_inv (c : Dev nD) : ∀ (n : ℕ) (hn : n < cfg13.N) (r : Fin 1024) (e : Fin 256) (p : Fin 6144),
    p.val = 1024 * (n / 12) + r.val → (outsAt W c n hn).2 (ix2 r e) = ∑ j ∈ Finset.range (n % 12 + 1), blockSum W c p e j
  | 0, hn, r, e, p, hp => acc_first W c ⟨0, hn⟩ rfl r e p hp
  | n + 1, hn, r, e, p, hp => by
    by_cases h0 : (n + 1) % 12 = 0
    · exact acc_first W c ⟨n + 1, hn⟩ h0 r e p hp
    · have ih := acc_inv c n (Nat.lt_of_succ_lt hn) r e p (by
        have : n / 12 = (n + 1) / 12 := by omega
        rw [this]; exact hp)
      have hm : n % 12 + 1 = (n + 1) % 12 := by omega
      rw [hm] at ih
      exact acc_step W c ⟨n + 1, hn⟩ h0 r e p hp (Nat.lt_of_succ_lt hn) ih

/-- The twelve block sums are the whole contraction. -/
theorem sum_all (c : Dev nD) (p : Fin 6144) (e : Fin 256) :
    ∑ j ∈ Finset.range 12, blockSum W c p e j
      = ∑ f : Fin 12288, adj W c (ix2 p f) * feat W c (ix2 f e) := by
  rw [BlockSums.sum_blocks 12 1024 12288 rfl (fun n : Fin 12288 => adj W c (ix2 p n) * feat W c (ix2 n e))]
  rw [← Fin.sum_univ_eq_sum_range (fun j => blockSum W c p e j) 12]
  refine Finset.sum_congr rfl fun j _ => Finset.sum_congr rfl fun f _ => ?_
  unfold term
  rw [dif_pos (BlockSums.block_row_lt j f)]

set_option maxHeartbeats 4000000 in
/-- At a point that closes a row block the output block at (r, e) is the whole contraction at (1024 m + r, e). -/
theorem out_last (c : Dev nD) (t : Fin cfg13.N) (h5 : t.val % 12 = 11) (r : Fin 1024) (e : Fin 256) (p : Fin 6144)
    (hp : p.val = 1024 * (t.val / 12) + r.val) :
    (outsAt W c t.val t.isLt).1 (ix2 r e)
      = ∑ f : Fin 12288, adj W c (ix2 p f) * feat W c (ix2 f e) := by
  have h0 : ¬t.val % 12 = 0 := by omega
  have e1 := congrFun (congrArg Prod.fst (outsAt_last W c t h0 h5)) (ix2 r e)
  have e2 := congrFun (congrArg Prod.snd (outsAt_last W c t h0 h5)) (ix2 r e)
  have a := acc_inv W c t.val t.isLt r e p hp
  rw [h5, sum_all] at a
  rw [← a]
  refine e1.trans ?_
  refine (congrFun (outLast_eq (F := Ideal) c (grid13.coords t) (ms0 t) (hs0 t) (ms1 t) (hs1 t) (ms2 t) (hs2 t) accM (Memref.isWhole_whole _)
      (fun h => h0 ((isFirst_iff t).mp h)) ((isLast_iff t).mpr h5) (iblk W c 0 t) (iblk W c 1 t)
      (outsAt W c (t.val - 1) (Nat.lt_of_le_of_lt (Nat.sub_le _ _) t.isLt)).2) (ix2 r e)).trans ?_
  exact ((congrFun (accLast_eq (F := Ideal) c (grid13.coords t) (ms0 t) (hs0 t) (ms1 t) (hs1 t) (ms2 t) (hs2 t) accM (Memref.isWhole_whole _)
      (fun h => h0 ((isFirst_iff t).mp h)) ((isLast_iff t).mpr h5) (iblk W c 0 t) (iblk W c 1 t)
      (outsAt W c (t.val - 1) (Nat.lt_of_le_of_lt (Nat.sub_le _ _) t.isLt)).2) (ix2 r e)).symm.trans e2.symm)
end

/-! ## What the launch leaves in its output array -/

section
variable (W : Iface.Vl)

/-- Entry (p, e) of the output: the whole contraction of adjacency row p with feature column e. -/
def result (c : Dev nD) : Buf (Elt Ideal) ((c : Thread nD τ).loc main_v97) :=
  fun i : S6144x256.Idx => ((∑ f : Fin 12288, adj W c (ix2 (i 0) f) * feat W c (ix2 f (i 1)) : EReal))

set_option maxHeartbeats 4000000 in
/-- The block written back at a point that closes a row block is that row block of the result. -/
theorem flushed_eq (c : Dev nD) (t : Fin cfg13.N) (hf : (cfg13.win 2).flush t = true) :
    (dat W c).flushed 2 t = ((cfg13.win 2).blk t).view.read (Elt Ideal) (result W c) := by
  have h5 : t.val % 12 = 11 := (flush13_2 t).mp hf
  show (cfg13.win 2).cut (grid13.coords t) ((dat W c).after 2 t) = _
  rw [after2]
  refine funext fun (y : S1024x256.Idx) => ?_
  obtain ⟨r, e, rfl⟩ : ∃ (r : Fin 1024) (e : Fin 256), y = ix2 r e := ⟨y 0, y 1, eq_ix2 y⟩
  have hx : (cfg13.win 2).xinj (grid13.coords t) (ix2 r e) = (ix2 r e : S1024x256.Idx) :=
    funext fun a => Fin.ext (by match a with | ⟨0, _⟩ => rfl | ⟨1, _⟩ => rfl)
  show (outsAt W c t.val t.isLt).1 ((cfg13.win 2).xinj (grid13.coords t) (ix2 r e)) = _
  rw [hx, View.read_apply]
  show _ = result W c (((cfg13.win 2).blk t).view.emb (ix2 r e))
  have hp : ((((cfg13.win 2).blk t).view.emb (ix2 r e) : S6144x256.Idx) 0).val = 1024 * (t.val / 12) + r.val := by
    show win13_2.index t 0 * 1024 + 1 * r.val = _
    rw [(index_out t).1]; omega
  have he : (((cfg13.win 2).blk t).view.emb (ix2 r e) : S6144x256.Idx) 1 = e := Fin.ext (by
    show win13_2.index t 1 * 256 + 1 * e.val = e.val
    rw [(index_out t).2]; omega)
  refine (out_last W c t h5 r e _ hp).trans ?_
  unfold result
  rw [he]

/-- The row blocks written back cover the array (row p is in the block written at point 12 (p / 1024) + 11), so the
    array ends at the result. -/
theorem final (c : Dev nD) : (dat W c).arrAt 2 cfg13.N = result W c :=
  (dat W c).arrAt_eq_of_cover 2 (result W c) (flushed_eq W c) fun i => by
    have hN : cfg13.N = 72 := N_13
    have h0 : ((i : S6144x256.Idx) 0 : Nat) < 6144 := ((i : S6144x256.Idx) 0).isLt
    have h1 : ((i : S6144x256.Idx) 1 : Nat) < 256 := ((i : S6144x256.Idx) 1).isLt
    have ht : 12 * (((i : S6144x256.Idx) 0 : Nat) / 1024) + 11 < cfg13.N := by rw [hN]; omega
    refine ⟨⟨_, ht⟩, (flush13_2 _).mpr (by show (12 * (((i : S6144x256.Idx) 0 : Nat) / 1024) + 11) % 12 = 11; omega), ?_⟩
    show i ∈ ((View.whole main_v97).slice (win13_2.rect ⟨_, ht⟩)).set
    rw [View.set_slice_whole, Rect.mem_set_unit]
    have hi := index_out ⟨_, ht⟩
    intro a
    match a with
    | ⟨0, _⟩ =>
      show win13_2.index ⟨_, ht⟩ 0 * 1024 ≤ ((i : S6144x256.Idx) 0 : Nat) ∧ ((i : S6144x256.Idx) 0 : Nat) < win13_2.index ⟨_, ht⟩ 0 * 1024 + 1024
      rw [hi.1]
      show (12 * (((i : S6144x256.Idx) 0 : Nat) / 1024) + 11) / 12 * 1024 ≤ _ ∧ _ < (12 * (((i : S6144x256.Idx) 0 : Nat) / 1024) + 11) / 12 * 1024 + 1024
      omega
    | ⟨1, _⟩ =>
      show win13_2.index ⟨_, ht⟩ 1 * 256 ≤ ((i : S6144x256.Idx) 1 : Nat) ∧ ((i : S6144x256.Idx) 1 : Nat) < win13_2.index ⟨_, ht⟩ 1 * 256 + 256
      rw [hi.2]; omega
end

/-- Launch 13 leaves, at (p, e), the sum over the 12288 contraction indices f of adjacency (p, f) times features (f, e). -/
theorem leaves_ok : Iface.Is13 (fun W c => (dat (F := Ideal) W c).arrAt 2 cfg13.N) := by
  intro W c p e
  show ((dat (F := Ideal) W c).arrAt 2 cfg13.N) (ix2 p e) = _
  rw [final W c]
  rfl

end Cert.KernelIdeal.R13

end
-- ==== Proof.lean ====
/-
  The certificate's five claims, assembled.

  The kernel program applies three dense adjacency matrices to 256-wide feature matrices in fourteen tiled
  launches: each launch walks a grid (row block m, contraction block k), adds the product of the (m, k) tile of the
  adjacency matrix with rows [1024 k, 1024 k + 1024) of the feature matrix into an accumulator that lives across the
  k axis, and at the last k writes the row block out — scaled by the constant one third (the first launch), or
  multiplied by a transposed 256 x 256 weight matrix plus a bias (the six "first half" launches of a layer), or
  further joined with the layer's skip terms, max (first half + that, 0) + skip (the six "second half" launches).
  The reference computes the same network with one whole matrix product per adjacency use.

  Over the extended reals the two agree entry by entry, because a sum over 6144 (or 12288) contraction indices is
  the sum over its blocks of 1024 of the block sums (addition of extended reals is commutative and associative,
  with no finiteness needed), the accumulator starts from zero, a change of float format is the identity, and the
  scale, the projections, the bias, the maximum with zero and the skip additions are applied to the same whole sums
  in the same order on both sides (the factor one third is the same binary literal on both sides, applied on the
  right in the kernel and on the left in the reference: multiplication commutes).

  Frames. Each kernel program is a line of host stretches and launches; a launch only writes its own output array, its
  staging buffers and its accumulator, so every argument array ends as launched (RunAll for the program read over the
  extended reals, KRunAll for the program at bit patterns: the same text in the other namespace). The reference's frame
  is read off its run. No operation of the kernel was rewritten when it was read over the extended reals, so there is
  nothing to preserve.

  Values. The run of the program over the extended reals ends with each result at the last contents of the chain of
  buffer contents between the items (Chain); each launch leaves in its output array the function of its operands stated
  in Iface (the modules R<k>Val); and with that the chain's last contents are the reference's results (the Bridge modules).
-/
import proofs.«155206_j89000312308227_2_alg».proof.Defs
import proofs.«155206_j89000312308227_2_alg».proof.Proof.Gen.Kernel
import proofs.«155206_j89000312308227_2_alg».proof.Proof.Gen.KernelIdeal
import proofs.«155206_j89000312308227_2_alg».proof.Proof.Gen.ReferenceIdeal
import proofs.«155206_j89000312308227_2_alg».proof.Proof.Gen.Pre_finite_inputs
import proofs.«155206_j89000312308227_2_alg».proof.Proof.RefFrame
import proofs.«155206_j89000312308227_2_alg».proof.Proof.RunAll
import proofs.«155206_j89000312308227_2_alg».proof.Proof.KRunAll
import proofs.«155206_j89000312308227_2_alg».proof.Proof.BridgeRefRun
import proofs.«155206_j89000312308227_2_alg».proof.Proof.R0Val
import proofs.«155206_j89000312308227_2_alg».proof.Proof.R1Val
import proofs.«155206_j89000312308227_2_alg».proof.Proof.R2Val
import proofs.«155206_j89000312308227_2_alg».proof.Proof.R3Val
import proofs.«155206_j89000312308227_2_alg».proof.Proof.R4Val
import proofs.«155206_j89000312308227_2_alg».proof.Proof.R5Val
import proofs.«155206_j89000312308227_2_alg».proof.Proof.R6Val
import proofs.«155206_j89000312308227_2_alg».proof.Proof.R7Val
import proofs.«155206_j89000312308227_2_alg».proof.Proof.R8Val
import proofs.«155206_j89000312308227_2_alg».proof.Proof.R9Val
import proofs.«155206_j89000312308227_2_alg».proof.Proof.R10Val
import proofs.«155206_j89000312308227_2_alg».proof.Proof.R11Val
import proofs.«155206_j89000312308227_2_alg».proof.Proof.R12Val
import proofs.«155206_j89000312308227_2_alg».proof.Proof.R13Val
import Idealize.ShloMosaic.Adequacy
import Idealize.ShloMosaic.Init

noncomputable section

namespace Cert.Proof

open Idealize.ShloMosaic Idealize.ShloMosaic.TcCoe Idealize.SL.Sem
open Cert.KernelIdeal Cert.KernelIdeal.Chain

/-- The kernel program at bit patterns runs to the end, faults nowhere and leaves its arguments as launched. -/
theorem frame_k : Cert.frame_Kernel := fun m ρ _ => Cert.Kernel.Asm.frame m ρ

/-- The same for the kernel program read over the extended reals. -/
theorem frame_ki : Cert.frame_KernelIdeal := fun m ρ _ => Cert.KernelIdeal.Asm.frame m ρ

/-- No operation of the kernel was rewritten when it was read over the extended reals: nothing to preserve. -/
theorem preserves : Cert.preserves_Kernel_KernelIdeal := trivial

/-- Every launch leaves in its output array the stated function of its operands. -/
theorem leaves_good : Cert.KernelIdeal.Iface.Good (Cert.KernelIdeal.Asm.leaves Ideal) :=
  ⟨Cert.KernelIdeal.R0.leaves_ok, Cert.KernelIdeal.R1.leaves_ok, Cert.KernelIdeal.R2.leaves_ok, Cert.KernelIdeal.R3.leaves_ok, Cert.KernelIdeal.R4.leaves_ok, Cert.KernelIdeal.R5.leaves_ok, Cert.KernelIdeal.R6.leaves_ok, Cert.KernelIdeal.R7.leaves_ok, Cert.KernelIdeal.R8.leaves_ok, Cert.KernelIdeal.R9.leaves_ok, Cert.KernelIdeal.R10.leaves_ok, Cert.KernelIdeal.R11.leaves_ok, Cert.KernelIdeal.R12.leaves_ok, Cert.KernelIdeal.R13.leaves_ok⟩

set_option maxHeartbeats 1600000 in
/-- Over the extended reals the kernel program and the reference end with equal results: each result is the last
    contents of the kernel program's chain at its buffer. -/
theorem algebraic : Cert.algebraic_KernelIdeal_ReferenceIdeal := fun m ρ m' ρ' _ hagree =>
  ⟨fun c => U32 m (Cert.KernelIdeal.Asm.leaves Ideal) c main_v105, fun c => U32 m (Cert.KernelIdeal.Asm.leaves Ideal) c main_v106,
   fun c => U32 m (Cert.KernelIdeal.Asm.leaves Ideal) c main_arg0, fun c => U32 m (Cert.KernelIdeal.Asm.leaves Ideal) c main_v15,
   fun c => U32 m (Cert.KernelIdeal.Asm.leaves Ideal) c main_v27, fun c => U32 m (Cert.KernelIdeal.Asm.leaves Ideal) c main_v3,
   fun c => U32 m (Cert.KernelIdeal.Asm.leaves Ideal) c main_v51, fun c => U32 m (Cert.KernelIdeal.Asm.leaves Ideal) c main_v63,
   Cert.KernelIdeal.Asm.run_all m ρ,
   Cert.KernelIdeal.Bridge.ref_run m (Cert.KernelIdeal.Asm.leaves Ideal) m' leaves_good ρ' hagree⟩

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, preserves, algebraic⟩

end Cert.Proof

end
